-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S2x128 .f32) (main_arg14 : FVec F S2x128 .f32) (main_arg15 : FVec F S128x1 .f32) (main_arg16 : FVec F S1 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg13
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128 .f32 := Host.absf main_arg14
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S2x128x128 .f32) (main_arg10 : FVec F S2x128 .f32) (main_arg11 : FVec F S2x128x128 .f32) (main_arg12 : FVec F S2x128 .f32) (main_arg13 : FVec F S2x128 .f32) (main_arg14 : FVec F S2x128 .f32) (main_arg15 : FVec F S128x1 .f32) (main_arg16 : FVec F S1 .f32) (main_v33 : IVec S_ 1) : IVec S_ 1 :=
  let main_v34 : FVec F S2x128x128 .f32 := Host.absf main_arg9
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128x128 .f32 := Host.absf main_arg11
  let main_cst_16 : FVec F S_ .f32 := constant S_ .f32 0x7F800000#32
  let main_v45 : FVec F S2x128x128 .f32 := broadcastInDim S2x128x128 ![] bcast_S_S2x128x128 main_cst_16
  let main_v46 : IVec S2x128x128 1 := cmpf .olt main_v44 main_v45
  let main_c_17 : IVec S_ 1 := constantI S_ 1 1#1
  let main_v47 : IVec S_ 1 := (fun x v => Host.reduce IntOp.andi x v reducesTo_S2x128x128_S_d0_1_2 h_S_) main_v46 main_c_17
  let main_v48 : IVec S_ 1 := andi main_v43 main_v47
  let main_v49 : FVec F S2x128 .f32 := Host.absf main_arg12
  let main_cst_18 : FVec F S_ .f32 := constant S_ .f32 0x7F800000#32
  let main_v50 : FVec F S2x128 .f32 := broadcastInDim S2x128 ![] bcast_S_S2x128 main_cst_18
  fn_part3 (F := F) main_arg13 main_arg14 main_arg15 main_arg16 main_v48 main_v49 main_v50

def fn_part1 {F : FTy → Type} [FloatOps F] (main_arg6 : FVec F S128 .f32) (main_arg7 : FVec F S128 .f32) (main_arg8 : FVec F S128 .f32) (main_arg9 : FVec F S2x128x128 .f32) (main_arg10 : FVec F S2x128 .f32) (main_arg11 : FVec F S2x128x128 .f32) (main_arg12 : FVec F S2x128 .f32) (main_arg13 : FVec F S2x128 .f32) (main_arg14 : FVec F S2x128 .f32) (main_arg15 : FVec F S128x1 .f32) (main_arg16 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128x128 .f32) (main_arg6 : FVec F S128 .f32) (main_arg7 : FVec F S128 .f32) (main_arg8 : FVec F S128 .f32) (main_arg9 : FVec F S2x128x128 .f32) (main_arg10 : FVec F S2x128 .f32) (main_arg11 : FVec F S2x128x128 .f32) (main_arg12 : FVec F S2x128 .f32) (main_arg13 : FVec F S2x128 .f32) (main_arg14 : FVec F S2x128 .f32) (main_arg15 : FVec F S128x1 .f32) (main_arg16 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S100000x128 : Shape := ⟨2, ![100000, 128]⟩
abbrev S2000x64 : Shape := ⟨2, ![2000, 64]⟩
abbrev S2000x128 : Shape := ⟨2, ![2000, 128]⟩
abbrev S1x128x128 : Shape := ⟨3, ![1, 128, 128]⟩
abbrev S1600000x128 : Shape := ⟨2, ![1600000, 128]⟩
abbrev S256x128 : Shape := ⟨2, ![256, 128]⟩
abbrev S100000x1 : Shape := ⟨2, ![100000, 1]⟩
abbrev S256x1 : Shape := ⟨2, ![256, 1]⟩
abbrev S1x1 : Shape := ⟨2, ![1, 1]⟩

abbrev nBuf : Space → Nat
  | .hbm => 173
  | .vmem => 60
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S128, .f32⟩
  | 8 => ⟨S128, .f32⟩
  | 9 => ⟨S2x128x128, .f32⟩
  | 10 => ⟨S2x128, .f32⟩
  | 11 => ⟨S2x128x128, .f32⟩
  | 12 => ⟨S2x128, .f32⟩
  | 13 => ⟨S2x128, .f32⟩
  | 14 => ⟨S2x128, .f32⟩
  | 15 => ⟨S128x1, .f32⟩
  | 16 => ⟨S1, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S64x128, .bf16⟩
  | 35 => ⟨S128x128, .bf16⟩
  | 36 => ⟨S1x128, .f32⟩
  | 37 => ⟨S1x128, .f32⟩
  | 38 => ⟨S100000x128, .f32⟩
  | 39 => ⟨S1x128, .f32⟩
  | 40 => ⟨S1x128, .f32⟩
  | 41 => ⟨S128, .f32⟩
  | 42 => ⟨S_, .f32⟩
  | 43 => ⟨S128, .f32⟩
  | 44 => ⟨S128, .f32⟩
  | 45 => ⟨S128, .f32⟩
  | 46 => ⟨S_, .f32⟩
  | 47 => ⟨S128, .f32⟩
  | 48 => ⟨S128, .f32⟩
  | 49 => ⟨S128, .f32⟩
  | 50 => ⟨S128, .f32⟩
  | 51 => ⟨S_, .f32⟩
  | 52 => ⟨S128, .f32⟩
  | 53 => ⟨S128, .f32⟩
  | 54 => ⟨S128, .f32⟩
  | 55 => ⟨S128, .f32⟩
  | 56 => ⟨S128, .f32⟩
  | 57 => ⟨S128, .f32⟩
  | 58 => ⟨S1x128, .f32⟩
  | 59 => ⟨S1x128, .f32⟩
  | 60 => ⟨S100000x128, .f32⟩
  | 61 => ⟨S1x128x128, .f32⟩
  | 62 => ⟨S128x128, .f32⟩
  | 63 => ⟨S1x128, .f32⟩
  | 64 => ⟨S128, .f32⟩
  | 65 => ⟨S1x128x128, .f32⟩
  | 66 => ⟨S128x128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S128x128, .bf16⟩
  | 87 => ⟨S128x128, .bf16⟩
  | 88 => ⟨S1x128, .f32⟩
  | 89 => ⟨S1x128, .f32⟩
  | 90 => ⟨S100000x128, .f32⟩
  | 91 => ⟨S1x128, .f32⟩
  | 92 => ⟨S1x128, .f32⟩
  | 93 => ⟨S128, .f32⟩
  | 94 => ⟨S_, .f32⟩
  | 95 => ⟨S128, .f32⟩
  | 96 => ⟨S128, .f32⟩
  | 97 => ⟨S128, .f32⟩
  | 98 => ⟨S_, .f32⟩
  | 99 => ⟨S128, .f32⟩
  | 100 => ⟨S128, .f32⟩
  | 101 => ⟨S128, .f32⟩
  | 102 => ⟨S128, .f32⟩
  | 103 => ⟨S_, .f32⟩
  | 104 => ⟨S128, .f32⟩
  | 105 => ⟨S128, .f32⟩
  | 106 => ⟨S128, .f32⟩
  | 107 => ⟨S128, .f32⟩
  | 108 => ⟨S128, .f32⟩
  | 109 => ⟨S128, .f32⟩
  | 110 => ⟨S1x128, .f32⟩
  | 111 => ⟨S1x128, .f32⟩
  | 112 => ⟨S100000x128, .f32⟩
  | 113 => ⟨S1x128x128, .f32⟩
  | 114 => ⟨S128x128, .f32⟩
  | 115 => ⟨S1x128, .f32⟩
  | 116 => ⟨S128, .f32⟩
  | 117 => ⟨S1x128x128, .f32⟩
  | 118 => ⟨S128x128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S_, .i32⟩
  | 126 => ⟨S1600000, .i32⟩
  | 127 => ⟨S1600000, .i1⟩
  | _ => ⟨S100000x64, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S_, .f32⟩
  | 7 => ⟨S100000x128, .f32⟩
  | 8 => ⟨S1600000x1, .i32⟩
  | 9 => ⟨S100000x128, .f32⟩
  | 10 => ⟨S128x128, .bf16⟩
  | 11 => ⟨S128x128, .bf16⟩
  | 12 => ⟨S1x128, .f32⟩
  | 13 => ⟨S1x128, .f32⟩
  | 14 => ⟨S100000x128, .f32⟩
  | 15 => ⟨S1x128, .f32⟩
  | 16 => ⟨S1x128, .f32⟩
  | 17 => ⟨S128, .f32⟩
  | 18 => ⟨S_, .f32⟩
  | 19 => ⟨S128, .f32⟩
  | 20 => ⟨S128, .f32⟩
  | 21 => ⟨S128, .f32⟩
  | 22 => ⟨S_, .f32⟩
  | 23 => ⟨S128, .f32⟩
  | 24 => ⟨S128, .f32⟩
  | 25 => ⟨S128, .f32⟩
  | 26 => ⟨S128, .f32⟩
  | 27 => ⟨S_, .f32⟩
  | 28 => ⟨S128, .f32⟩
  | 29 => ⟨S128, .f32⟩
  | 30 => ⟨S128, .f32⟩
  | 31 => ⟨S128, .f32⟩
  | 32 => ⟨S128, .f32⟩
  | 33 => ⟨S128, .f32⟩
  | 34 => ⟨S1x128, .f32⟩
  | 35 => ⟨S1x128, .f32⟩
  | 36 => ⟨S100000x128, .f32⟩
  | 37 => ⟨S_, .f32⟩
  | 38 => ⟨S256x128, .f32⟩
  | 39 => ⟨S100000x1, .i32⟩
  | 40 => ⟨S256x128, .f32⟩
  | 41 => ⟨S256x1, .f32⟩
  | 42 => ⟨S1x1, .f32⟩
  | 43 => ⟨S256x1, .f32⟩
  | 44 => ⟨S256x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .bf16⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .bf16⟩
  | .local _ .vmem, ⟨45, _⟩ => ⟨S1x128, .f32⟩
  | .local _ .vmem, ⟨46, _⟩ => ⟨S128x128, .bf16⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18_0 : Ref sig .tc := ⟨.hbm, 38, rfl⟩
abbrev main_v18_1 : Ref sig .tc := ⟨.hbm, 39, rfl⟩
abbrev main_v18_2 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_4 : Ref sig .tc := ⟨.hbm, 73, rfl⟩
abbrev main_v48 : Ref sig .tc := ⟨.hbm, 74, rfl⟩
abbrev main_v49 : Ref sig .tc := ⟨.hbm, 75, rfl⟩
abbrev main_c_5 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62_0 : Ref sig .tc := ⟨.hbm, 90, rfl⟩
abbrev main_v62_1 : Ref sig .tc := ⟨.hbm, 91, rfl⟩
abbrev main_v62_2 : Ref sig .tc := ⟨.hbm, 92, rfl⟩
abbrev main_v63 : Ref sig .tc := ⟨.hbm, 93, rfl⟩
abbrev main_cst_7 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_10 : Ref sig .tc := ⟨.hbm, 125, rfl⟩
abbrev main_v92 : Ref sig .tc := ⟨.hbm, 126, rfl⟩
abbrev main_v93 : Ref sig .tc := ⟨.hbm, 127, rfl⟩
abbrev main_c_11 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_12 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106_0 : Ref sig .tc := ⟨.hbm, 142, rfl⟩
abbrev main_v106_1 : Ref sig .tc := ⟨.hbm, 143, rfl⟩
abbrev main_v106_2 : Ref sig .tc := ⟨.hbm, 144, rfl⟩
abbrev main_v107 : Ref sig .tc := ⟨.hbm, 145, rfl⟩
abbrev main_cst_13 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_14 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_15 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_16 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc4_scratch0 : Ref sig .tc := ⟨.vmem, 52, rfl⟩
abbrev cc4_scratch1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg3_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc4_sem7_0 : DmaSem sig := 46
abbrev cc4_sem8_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem3_1 : DmaSem sig := 53

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v43 : BitVec 1 := Scalar.cmpi .eq arg0 c49_i32
  let v44 : BitVec 32 := Scalar.extui v43
  let c0_i32_27 : BitVec 32 := 0#32
  let v45 : BitVec 1 := Scalar.cmpi .ne v44 c0_i32_27
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v44 : BitVec 1 := Scalar.cmpi .eq arg0 c49_i32
  let v45 : BitVec 32 := Scalar.extui v44
  let c0_i32_27 : BitVec 32 := 0#32
  let v46 : BitVec 1 := Scalar.cmpi .ne v45 c0_i32_27
  v46

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v44 : BitVec 1 := Scalar.cmpi .eq arg0 c49_i32
  let v45 : BitVec 32 := Scalar.extui v44
  let c0_i32_27 : BitVec 32 := 0#32
  let v46 : BitVec 1 := Scalar.cmpi .ne v45 c0_i32_27
  v46

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bitsLt_bf16_f32 : FTy.bits .bf16 < FTy.bits .f32
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x128_S2000x128_0_0 : ∀ a, (![0, 0] : Fin 2 → Nat) a + S2000x128.size a ≤ S2000x128.size a
  h_S2000x128 : 0 < S2000x128.numel
  reduces_S2000x128_S128 : S2000x128.Reduces [0] S128
  shapeCasts_S1x128_S128 : S1x128.ShapeCasts S128
  bcast_S_S128 : S_.BroadcastsInDim S128 (![] : Fin 0 → Fin S128.rank)
  shapeCasts_S2000x128_S2000x128 : S2000x128.ShapeCasts S2000x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  bcast_S_S100000x128 : S_.BroadcastsInDim S100000x128 (![] : Fin 0 → Fin S100000x128.rank)
  slices_S2x128x128_S1x128x128_1_0_0 : S2x128x128.Slices ![1, 0, 0] S1x128x128
  slices_S2x128_S1x128_1_0 : S2x128.Slices ![1, 0] S1x128
  bcast_S_S256x128 : S_.BroadcastsInDim S256x128 (![] : Fin 0 → Fin S256x128.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v18_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v62_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v62_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v62_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v79) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v101) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v102) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v103) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v105) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v106_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v106_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v106_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v106_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v121) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v122) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1x128x128 : Shape := ⟨3, ![1, 128, 128]⟩
abbrev S1600000x128 : Shape := ⟨2, ![1600000, 128]⟩
abbrev S256x128 : Shape := ⟨2, ![256, 128]⟩
abbrev S100000x1 : Shape := ⟨2, ![100000, 1]⟩
abbrev S256x1 : Shape := ⟨2, ![256, 1]⟩
abbrev S1x1 : Shape := ⟨2, ![1, 1]⟩

abbrev nBuf : Space → Nat
  | .hbm => 278
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S128, .f32⟩
  | 8 => ⟨S128, .f32⟩
  | 9 => ⟨S2x128x128, .f32⟩
  | 10 => ⟨S2x128, .f32⟩
  | 11 => ⟨S2x128x128, .f32⟩
  | 12 => ⟨S2x128, .f32⟩
  | 13 => ⟨S2x128, .f32⟩
  | 14 => ⟨S2x128, .f32⟩
  | 15 => ⟨S128x1, .f32⟩
  | 16 => ⟨S1, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S100000x64, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S100000x128, .f32⟩
  | 62 => ⟨S100000x128, .f32⟩
  | 63 => ⟨S100000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S1x128x128, .f32⟩
  | 97 => ⟨S128x128, .f32⟩
  | 98 => ⟨S1x128, .f32⟩
  | 99 => ⟨S128, .f32⟩
  | 100 => ⟨S1x128x128, .f32⟩
  | 101 => ⟨S128x128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x64, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S_, .f32⟩
  | 9 => ⟨S128, .f32⟩
  | 10 => ⟨S_, .f32⟩
  | 11 => ⟨S128, .f32⟩
  | 12 => ⟨S128, .f32⟩
  | 13 => ⟨S_, .i32⟩
  | 14 => ⟨S_, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S100000x128, .f32⟩
  | 21 => ⟨S100000x128, .f32⟩
  | 22 => ⟨S100000x128, .f32⟩
  | 23 => ⟨S_, .f32⟩
  | 24 => ⟨S_, .f32⟩
  | 25 => ⟨S_, .f32⟩
  | 26 => ⟨S_, .f32⟩
  | 27 => ⟨S128, .f32⟩
  | 28 => ⟨S128, .f32⟩
  | 29 => ⟨S128, .f32⟩
  | 30 => ⟨S_, .f32⟩
  | 31 => ⟨S_, .i1⟩
  | 32 => ⟨S_, .f32⟩
  | 33 => ⟨S_, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S_, .f32⟩
  | 40 => ⟨S128, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S1x128x128, .f32⟩
  | 56 => ⟨S128x128, .f32⟩
  | 57 => ⟨S1x128, .f32⟩
  | 58 => ⟨S128, .f32⟩
  | 59 => ⟨S1x128x128, .f32⟩
  | 60 => ⟨S128x128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S100000x128, .f32⟩
  | 108 => ⟨S100000x128, .f32⟩
  | 109 => ⟨S100000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S128, .f32⟩
  | _ => ⟨S100000x64, .f32⟩

abbrev hbmTy0_2 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S_, .f32⟩
  | 15 => ⟨S256x128, .f32⟩
  | 16 => ⟨S100000x1, .i32⟩
  | 17 => ⟨S256x128, .f32⟩
  | 18 => ⟨S256x1, .f32⟩
  | 19 => ⟨S1x1, .f32⟩
  | 20 => ⟨S256x1, .f32⟩
  | 21 => ⟨S256x1, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_cst_1 : Ref sig .tc := ⟨.hbm, 49, rfl⟩
abbrev main_v25 : Ref sig .tc := ⟨.hbm, 50, rfl⟩
abbrev main_cst_2 : Ref sig .tc := ⟨.hbm, 51, rfl⟩
abbrev main_v26 : Ref sig .tc := ⟨.hbm, 52, rfl⟩
abbrev main_v27 : Ref sig .tc := ⟨.hbm, 53, rfl⟩
abbrev main_c_3 : Ref sig .tc := ⟨.hbm, 54, rfl⟩
abbrev main_call2_cst : Ref sig .tc := ⟨.hbm, 55, rfl⟩
abbrev main_call2_v0 : Ref sig .tc := ⟨.hbm, 56, rfl⟩
abbrev main_call2_v1 : Ref sig .tc := ⟨.hbm, 57, rfl⟩
abbrev main_call2_cst_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_cst_1 : Ref sig .tc := ⟨.hbm, 65, rfl⟩
abbrev main_call2_v8 : Ref sig .tc := ⟨.hbm, 66, rfl⟩
abbrev main_call2_cst_2 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_cst_3 : Ref sig .tc := ⟨.hbm, 71, rfl⟩
abbrev main_call2_v12 : Ref sig .tc := ⟨.hbm, 72, rfl⟩
abbrev main_call2_cst_4 : Ref sig .tc := ⟨.hbm, 73, rfl⟩
abbrev main_call2_call0_v0 : Ref sig .tc := ⟨.hbm, 74, rfl⟩
abbrev main_call2_call0_v1 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_4 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_call3_cst : Ref sig .tc := ⟨.hbm, 93, rfl⟩
abbrev main_call3_v0 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_5 : Ref sig .tc := ⟨.hbm, 108, rfl⟩
abbrev main_v57 : Ref sig .tc := ⟨.hbm, 109, rfl⟩
abbrev main_v58 : Ref sig .tc := ⟨.hbm, 110, rfl⟩
abbrev main_c_6 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_7 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_call4_cst : Ref sig .tc := ⟨.hbm, 126, rfl⟩
abbrev main_call4_v0 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_call5_cst : Ref sig .tc := ⟨.hbm, 133, rfl⟩
abbrev main_call5_v0 : Ref sig .tc := ⟨.hbm, 134, rfl⟩
abbrev main_v77 : Ref sig .tc := ⟨.hbm, 135, rfl⟩
abbrev main_cst_8 : Ref sig .tc := ⟨.hbm, 136, rfl⟩
abbrev main_v78 : Ref sig .tc := ⟨.hbm, 137, rfl⟩
abbrev main_cst_9 : Ref sig .tc := ⟨.hbm, 138, rfl⟩
abbrev main_v79 : Ref sig .tc := ⟨.hbm, 139, rfl⟩
abbrev main_v80 : Ref sig .tc := ⟨.hbm, 140, rfl⟩
abbrev main_c_10 : Ref sig .tc := ⟨.hbm, 141, rfl⟩
abbrev main_call6_cst : Ref sig .tc := ⟨.hbm, 142, rfl⟩
abbrev main_call6_v0 : Ref sig .tc := ⟨.hbm, 143, rfl⟩
abbrev main_call6_v1 : Ref sig .tc := ⟨.hbm, 144, rfl⟩
abbrev main_call6_cst_0 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_call6_v5 : Ref sig .tc := ⟨.hbm, 149, rfl⟩
abbrev main_call6_v6 : Ref sig .tc := ⟨.hbm, 150, rfl⟩
abbrev main_call6_v7 : Ref sig .tc := ⟨.hbm, 151, rfl⟩
abbrev main_call6_cst_1 : Ref sig .tc := ⟨.hbm, 152, rfl⟩
abbrev main_call6_v8 : Ref sig .tc := ⟨.hbm, 153, rfl⟩
abbrev main_call6_cst_2 : Ref sig .tc := ⟨.hbm, 154, rfl⟩
abbrev main_call6_v9 : Ref sig .tc := ⟨.hbm, 155, rfl⟩
abbrev main_call6_v10 : Ref sig .tc := ⟨.hbm, 156, rfl⟩
abbrev main_call6_v11 : Ref sig .tc := ⟨.hbm, 157, rfl⟩
abbrev main_call6_cst_3 : Ref sig .tc := ⟨.hbm, 158, rfl⟩
abbrev main_call6_v12 : Ref sig .tc := ⟨.hbm, 159, rfl⟩
abbrev main_call6_cst_4 : Ref sig .tc := ⟨.hbm, 160, rfl⟩
abbrev main_call6_call0_v0 : Ref sig .tc := ⟨.hbm, 161, rfl⟩
abbrev main_call6_call0_v1 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_cst_11 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_call7_cst : Ref sig .tc := ⟨.hbm, 180, rfl⟩
abbrev main_call7_v0 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_c_12 : Ref sig .tc := ⟨.hbm, 195, rfl⟩
abbrev main_v110 : Ref sig .tc := ⟨.hbm, 196, rfl⟩
abbrev main_v111 : Ref sig .tc := ⟨.hbm, 197, rfl⟩
abbrev main_c_13 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_cst_14 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_call8_cst : Ref sig .tc := ⟨.hbm, 213, rfl⟩
abbrev main_call8_v0 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_call9_cst : Ref sig .tc := ⟨.hbm, 220, rfl⟩
abbrev main_call9_v0 : Ref sig .tc := ⟨.hbm, 221, rfl⟩
abbrev main_v130 : Ref sig .tc := ⟨.hbm, 222, rfl⟩
abbrev main_cst_15 : Ref sig .tc := ⟨.hbm, 223, rfl⟩
abbrev main_v131 : Ref sig .tc := ⟨.hbm, 224, rfl⟩
abbrev main_cst_16 : Ref sig .tc := ⟨.hbm, 225, rfl⟩
abbrev main_v132 : Ref sig .tc := ⟨.hbm, 226, rfl⟩
abbrev main_v133 : Ref sig .tc := ⟨.hbm, 227, rfl⟩
abbrev main_c_17 : Ref sig .tc := ⟨.hbm, 228, rfl⟩
abbrev main_call10_cst : Ref sig .tc := ⟨.hbm, 229, rfl⟩
abbrev main_call10_v0 : Ref sig .tc := ⟨.hbm, 230, rfl⟩
abbrev main_call10_v1 : Ref sig .tc := ⟨.hbm, 231, rfl⟩
abbrev main_call10_cst_0 : Ref sig .tc := ⟨.hbm, 232, rfl⟩
abbrev main_call10_v2 : Ref sig .tc := ⟨.hbm, 233, rfl⟩
abbrev main_call10_v3 : Ref sig .tc := ⟨.hbm, 234, rfl⟩
abbrev main_call10_v4 : Ref sig .tc := ⟨.hbm, 235, rfl⟩
abbrev main_call10_v5 : Ref sig .tc := ⟨.hbm, 236, rfl⟩
abbrev main_call10_v6 : Ref sig .tc := ⟨.hbm, 237, rfl⟩
abbrev main_call10_v7 : Ref sig .tc := ⟨.hbm, 238, rfl⟩
abbrev main_call10_cst_1 : Ref sig .tc := ⟨.hbm, 239, rfl⟩
abbrev main_call10_v8 : Ref sig .tc := ⟨.hbm, 240, rfl⟩
abbrev main_call10_cst_2 : Ref sig .tc := ⟨.hbm, 241, rfl⟩
abbrev main_call10_v9 : Ref sig .tc := ⟨.hbm, 242, rfl⟩
abbrev main_call10_v10 : Ref sig .tc := ⟨.hbm, 243, rfl⟩
abbrev main_call10_v11 : Ref sig .tc := ⟨.hbm, 244, rfl⟩
abbrev main_call10_cst_3 : Ref sig .tc := ⟨.hbm, 245, rfl⟩
abbrev main_call10_v12 : Ref sig .tc := ⟨.hbm, 246, rfl⟩
abbrev main_call10_cst_4 : Ref sig .tc := ⟨.hbm, 247, rfl⟩
abbrev main_call10_call0_v0 : Ref sig .tc := ⟨.hbm, 248, rfl⟩
abbrev main_call10_call0_v1 : Ref sig .tc := ⟨.hbm, 249, rfl⟩
abbrev main_v134 : Ref sig .tc := ⟨.hbm, 250, rfl⟩
abbrev main_v135 : Ref sig .tc := ⟨.hbm, 251, rfl⟩
abbrev main_v136 : Ref sig .tc := ⟨.hbm, 252, rfl⟩
abbrev main_v137 : Ref sig .tc := ⟨.hbm, 253, rfl⟩
abbrev main_cst_18 : Ref sig .tc := ⟨.hbm, 254, rfl⟩
abbrev main_v138 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_v144 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_call11_cst : Ref sig .tc := ⟨.hbm, 267, rfl⟩
abbrev main_call11_v0 : Ref sig .tc := ⟨.hbm, 268, rfl⟩
abbrev main_v150 : Ref sig .tc := ⟨.hbm, 269, rfl⟩
abbrev main_cst_19 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_v156 : Ref sig .tc := ⟨.hbm, 276, rfl⟩
abbrev main_v157 : Ref sig .tc := ⟨.hbm, 277, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S_S256x128 : S_.BroadcastsInDim S256x128 (![] : Fin 0 → Fin S256x128.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  dot_S256x128_S128x1_S256x1_1_0_0_1_n_n_wf : DotDims.WF S256x128 S128x1 S256x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.K.Reg0Runs.lean ====
import proofs.«172250_j15616501088594_1_alg».proof.Proof.Gen.Kernel.Launch
import proofs.«172250_j15616501088594_1_alg».proof.Proof.Gen.Kernel.Skeleton
import proofs.«172250_j15616501088594_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The dense-layer kernel of call 0: what its three runs share

The kernel works on one block of 2000 rows per grid point: it adds the two input blocks, applies two dense layers with
a rectifier after each, stores the block of results, and adds the results' column sums and the column sums of their
squares to two one-row accumulators that live across the grid. At the first point the accumulators are cleared before
use; at the last point they are copied to the two one-row outputs. Everything here is stated at the buffer contents
`V` the region is entered with. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetched it or the block
    index stood still, for any proof data over `V` whose body leaves the block in place. -/
theorem held0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetched it or the block
    index stood still, for any proof data over `V` whose body leaves the block in place. -/
theorem held0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetched it or the block
    index stood still, for any proof data over `V` whose body leaves the block in place. -/
theorem held0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetched it or the block
    index stood still, for any proof data over `V` whose body leaves the block in place. -/
theorem held0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetched it or the block
    index stood still, for any proof data over `V` whose body leaves the block in place. -/
theorem held0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetched it or the block
    index stood still, for any proof data over `V` whose body leaves the block in place. -/
theorem held0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the grid point -/

/-- The kernel's first test: the point is the grid's first (the accumulators are cleared). -/
abbrev atFirst0 (i : grid0.Coords) : Prop := (Scalar.cmpi .ne (Scalar.extui (Scalar.cmpi .eq (BitVec.ofNat 32 (i 0).val) 0#32)) 0#32) = 1#1
/-- It holds at point 0 only. -/
theorem atFirst0_iff : ∀ t : Fin cfg0.N, atFirst0 (grid0.coords t) ↔ t.val = 0 :=
  (by decide +kernel : ∀ t : Fin grid0.N, atFirst0 (grid0.coords t) ↔ t.val = 0)

/-- The kernel's second test: the point is the grid's last (the accumulators are copied out). -/
abbrev atLast0 (i : grid0.Coords) : Prop := k0_cond2 i = 1#1
/-- It holds at point 49 only. -/
theorem atLast0_iff : ∀ t : Fin cfg0.N, atLast0 (grid0.coords t) ↔ t.val = 49 :=
  (by decide +kernel : ∀ t : Fin grid0.N, atLast0 (grid0.coords t) ↔ t.val = 49)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
theorem live0_6 : ∀ t : Fin cfg0.N, cfg0.idle 6 (grid0.coords t) = false := by decide +kernel
/-- Away from the last point the one-row output 7 is idle: nothing is stored into it, and it is not written back. -/
theorem idle0_7 : ∀ t : Fin cfg0.N, ¬atLast0 (grid0.coords t) → cfg0.idle 7 (grid0.coords t) = true := by decide +kernel
theorem noFlush0_7 : ∀ t : Fin cfg0.N, ¬atLast0 (grid0.coords t) → (cfg0.win 7).flush t = false := by decide +kernel
/-- At the last point it is live. -/
theorem live0_7 : ∀ t : Fin cfg0.N, atLast0 (grid0.coords t) → cfg0.idle 7 (grid0.coords t) = false := by decide +kernel
/-- Away from the last point the one-row output 8 is idle: nothing is stored into it, and it is not written back. -/
theorem idle0_8 : ∀ t : Fin cfg0.N, ¬atLast0 (grid0.coords t) → cfg0.idle 8 (grid0.coords t) = true := by decide +kernel
theorem noFlush0_8 : ∀ t : Fin cfg0.N, ¬atLast0 (grid0.coords t) → (cfg0.win 8).flush t = false := by decide +kernel
/-- At the last point it is live. -/
theorem live0_8 : ∀ t : Fin cfg0.N, atLast0 (grid0.coords t) → cfg0.idle 8 (grid0.coords t) = false := by decide +kernel

/-! ## The memrefs the body is called with -/

abbrev ms0_0 (t : Fin cfg0.N) : Memref sig .tc .vmem S2000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two accumulators: whole scoped buffers of the kernel's own, passed beside the windows. -/
abbrev acc0_0 : Memref sig .tc .vmem S1x128 .f32 := Memref.whole cc0_scratch0
abbrev acc0_1 : Memref sig .tc .vmem S1x128 .f32 := Memref.whole cc0_scratch1
/-- Views through which the contents of the results block, the one-row outputs and the accumulators are stated. -/
abbrev VZ0 : View sig .tc .vmem S2000x128 .f32 := (Memref.whole cc0_stg6_0 : Memref sig .tc .vmem S2000x128 .f32).view
abbrev VA0_0 : View sig .tc .vmem S1x128 .f32 := acc0_0.view
abbrev VA0_1 : View sig .tc .vmem S1x128 .f32 := acc0_1.view

/-- The scoped buffers no window stages, split at the two accumulators (each owned whole at some contents) and the
    unopened remainder. -/
theorem scopedRest0_acc (c : Dev nD) :
    (Pipeline.scopedRest (Ix := Unit) (Name := ℕ) (U := UR sig nD τ) (Lvl := ℕ) (Val := Elt F) spec0 c : sProp 𝕄)
      = iprop(iprop((∃ d, owns (c : Thread nD τ) acc0_0 fullShare d) ∗ (∃ d, owns (c : Thread nD τ) acc0_1 fullShare d))
          ∗ Pipeline.scopedRestBut (Ix := Unit) (Name := ℕ) (U := UR sig nD τ) (Lvl := ℕ) (Val := Elt F) spec0 c [cc0_scratch0, cc0_scratch1]) := by
  rw [scopedRest0_split]; simp only [acc0_0, acc0_1, owns_whole]; try rfl

end Cert.Kernel.Hand

end
-- ==== Proof.K.Reg0First.lean ====
import proofs.«172250_j15616501088594_1_alg».proof.Proof.K.Reg0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- At the grid's FIRST point: the two accumulators, found at any contents, are cleared and then take this block's column
    sums; the results block is stored whole; the two one-row outputs are left as found.
    The lists are the stores each buffer ends with (last first), found by running the body; with them comes the proof
    that on whole memrefs holding the stated contents the body runs to any continuation that accepts the inputs as
    they were and every written buffer with its stores applied. -/
noncomputable def runFirst0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_acc_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_acc_kernel_eq_skeleton]; unfold cc0__mlp_acc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Reg0Mid.lean ====
import proofs.«172250_j15616501088594_1_alg».proof.Proof.K.Reg0First

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- At a point that is neither first nor last: the two accumulators, found at what the point before left, take this
    block's column sums on top; the results block is stored whole; the two one-row outputs are left as found.
    The lists are the stores each buffer ends with (last first), found by running the body; with them comes the proof
    that on whole memrefs holding the stated contents the body runs to any continuation that accepts the inputs as
    they were and every written buffer with its stores applied. -/
noncomputable def runMid0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_acc_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_acc_kernel_eq_skeleton]; unfold cc0__mlp_acc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Reg0Last.lean ====
import proofs.«172250_j15616501088594_1_alg».proof.Proof.K.Reg0Mid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- At the grid's LAST point: as in the middle, and then the two accumulators are copied whole into the two one-row
    outputs.
    The lists are the stores each buffer ends with (last first), found by running the body; with them comes the proof
    that on whole memrefs holding the stated contents the body runs to any continuation that accepts the inputs as
    they were and every written buffer with its stores applied. -/
noncomputable def runLast0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_acc_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_acc_kernel_eq_skeleton]; unfold cc0__mlp_acc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Reg0.lean ====
import proofs.«172250_j15616501088594_1_alg».proof.Proof.K.Reg0Last

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The dense-layer kernel of call 0: its proof data and body obligation

From the three runs: what each leaves in the buffers it writes, the contents point by point (the accumulation), the
proof data whose invariant carries the two accumulators from point to point, the body obligation, and the invariant's
two ends (made from, and giving back, the scoped buffers no window stages). -/

variable (V : (c : Dev nD) → (b : Ref sig .tc) → Buf (Elt F) ((c : Thread nD τ).loc b))

/-! ## What each run leaves -/

/-- The stores the first run ends the results block with tile it, so they cover it. -/
theorem coverFirst0_z (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (y : S2000x128.Idx) :
    ∃ pc ∈ (runFirst0 c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (runFirst0 c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y
/-- What the first run leaves in the results block: its stores read back. -/
def zFirst0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) : Vec F S2000x128 .f32 :=
  VZ0.read (Elt F) (VZ0.writes (Elt F) VZ0.junk (runFirst0 c i arg1 harg1 arg2 harg2 arg3 harg3 arg4 harg4 arg5 harg5 arg6 harg6 arg7 harg7 arg8 harg8 arg9 harg9 arg10 harg10 arg11 harg11 hc0 hc1 x0 x1 x2 x3 x4 x5).1)

/-- The stores the first run ends the first accumulator with tile it, so they cover it. -/
theorem coverFirst0_acc0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (y : S1x128.Idx) :
    ∃ pc ∈ (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y
/-- What the first run leaves in the first accumulator: its stores read back. -/
def acc0First0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) : Vec F S1x128 .f32 :=
  VA0_0.read (Elt F) (VA0_0.writes (Elt F) VA0_0.junk (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.1)

/-- The stores the first run ends the second accumulator with tile it, so they cover it. -/
theorem coverFirst0_acc1 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (y : S1x128.Idx) :
    ∃ pc ∈ (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y
/-- What the first run leaves in the second accumulator: its stores read back. -/
def acc1First0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) : Vec F S1x128 .f32 :=
  VA0_1.read (Elt F) (VA0_1.writes (Elt F) VA0_1.junk (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- The stores the middle run ends the results block with tile it, so they cover it. -/
theorem coverMid0_z (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S2000x128.Idx) :
    ∃ pc ∈ (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
/-- What the middle run leaves in the results block: its stores read back. -/
def zMid0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S2000x128 .f32 :=
  VZ0.read (Elt F) (VZ0.writes (Elt F) VZ0.junk (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The stores the middle run ends the first accumulator with tile it, so they cover it. -/
theorem coverMid0_acc0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What the middle run leaves in the first accumulator: its stores read back. -/
def acc0Mid0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S1x128 .f32 :=
  VA0_0.read (Elt F) (VA0_0.writes (Elt F) VA0_0.junk (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The stores the middle run ends the second accumulator with tile it, so they cover it. -/
theorem coverMid0_acc1 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What the middle run leaves in the second accumulator: its stores read back. -/
def acc1Mid0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S1x128 .f32 :=
  VA0_1.read (Elt F) (VA0_1.writes (Elt F) VA0_1.junk (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The stores the last run ends the results block with tile it, so they cover it. -/
theorem coverLast0_z (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S2000x128.Idx) :
    ∃ pc ∈ (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
/-- What the last run leaves in the results block: its stores read back. -/
def zLast0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S2000x128 .f32 :=
  VZ0.read (Elt F) (VZ0.writes (Elt F) VZ0.junk (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The stores the last run ends the first one-row output with tile it, so they cover it. -/
theorem coverLast0_o7 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What the last run leaves in the first one-row output: its stores read back. -/
def o7Last0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S1x128 .f32 :=
  VA0_0.read (Elt F) (VA0_0.writes (Elt F) VA0_0.junk (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The stores the last run ends the second one-row output with tile it, so they cover it. -/
theorem coverLast0_o8 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What the last run leaves in the second one-row output: its stores read back. -/
def o8Last0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S1x128 .f32 :=
  VA0_1.read (Elt F) (VA0_1.writes (Elt F) VA0_1.junk (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The stores the last run ends the first accumulator with tile it, so they cover it. -/
theorem coverLast0_acc0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
/-- What the last run leaves in the first accumulator: its stores read back. -/
def acc0Last0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S1x128 .f32 :=
  VA0_0.read (Elt F) (VA0_0.writes (Elt F) VA0_0.junk (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The stores the last run ends the second accumulator with tile it, so they cover it. -/
theorem coverLast0_acc1 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
/-- What the last run leaves in the second accumulator: its stores read back. -/
def acc1Last0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S1x128 .f32 :=
  VA0_1.read (Elt F) (VA0_1.writes (Elt F) VA0_1.junk (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The contents point by point -/

/-- THE ACCUMULATION. After the body at position `n`: the results block, the two one-row outputs (a placeholder away
    from the last point, where they are idle) and the two accumulators — the run of the point's case on the point's
    blocks, the accumulators entering at what position `n - 1` left. -/
def afterPt0 (c : Dev nD) : (n : ℕ) → n < cfg0.N → Vec F S2000x128 .f32 × Vec F S1x128 .f32 × Vec F S1x128 .f32 × Vec F S1x128 .f32 × Vec F S1x128 .f32
  | 0, hn => (zFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) acc0_0 (Memref.isWhole_whole _) acc0_1 (Memref.isWhole_whole _) ((atFirst0_iff ⟨0, hn⟩).mpr rfl) (fun h => absurd ((atLast0_iff ⟨0, hn⟩).mp h) (by decide : ¬((0 : ℕ) = 49))) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), (VA0_0.read (Elt F) VA0_0.junk), (VA0_0.read (Elt F) VA0_0.junk), acc0First0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) acc0_0 (Memref.isWhole_whole _) acc0_1 (Memref.isWhole_whole _) ((atFirst0_iff ⟨0, hn⟩).mpr rfl) (fun h => absurd ((atLast0_iff ⟨0, hn⟩).mp h) (by decide : ¬((0 : ℕ) = 49))) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), acc1First0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) acc0_0 (Memref.isWhole_whole _) acc0_1 (Memref.isWhole_whole _) ((atFirst0_iff ⟨0, hn⟩).mpr rfl) (fun h => absurd ((atLast0_iff ⟨0, hn⟩).mp h) (by decide : ¬((0 : ℕ) = 49))) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : n + 1 = 49 then
      (zLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) ((atLast0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2, o7Last0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) ((atLast0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2, o8Last0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) ((atLast0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2, acc0Last0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) ((atLast0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2, acc1Last0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) ((atLast0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2)
    else
      (zMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) (fun h => h1 ((atLast0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2, (VA0_0.read (Elt F) VA0_0.junk), (VA0_0.read (Elt F) VA0_0.junk), acc0Mid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) (fun h => h1 ((atLast0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2, acc1Mid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) (fun h => h1 ((atLast0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2)

/-- At the first point. -/
theorem afterPt0_first (c : Dev nD) (t : Fin cfg0.N) (h0 : t.val = 0) (h1 : t.val ≠ 49) :
    afterPt0 V c t.val t.isLt = (zFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) ((atFirst0_iff t).mpr h0) (fun h => h1 ((atLast0_iff t).mp h)) (iblk0 V c 0 t) (iblk0 V c 1 t) (iblk0 V c 2 t) (iblk0 V c 3 t) (iblk0 V c 4 t) (iblk0 V c 5 t), (VA0_0.read (Elt F) VA0_0.junk), (VA0_0.read (Elt F) VA0_0.junk), acc0First0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) ((atFirst0_iff t).mpr h0) (fun h => h1 ((atLast0_iff t).mp h)) (iblk0 V c 0 t) (iblk0 V c 1 t) (iblk0 V c 2 t) (iblk0 V c 3 t) (iblk0 V c 4 t) (iblk0 V c 5 t), acc1First0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) ((atFirst0_iff t).mpr h0) (fun h => h1 ((atLast0_iff t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact absurd h0 (Nat.succ_ne_zero n)

/-- At a middle point, over what the point before left. -/
theorem afterPt0_mid (c : Dev nD) (t : Fin cfg0.N) (h0 : t.val ≠ 0) (h1 : t.val ≠ 49) :
    afterPt0 V c t.val t.isLt = (zMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) (fun h => h1 ((atLast0_iff t).mp h)) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2, (VA0_0.read (Elt F) VA0_0.junk), (VA0_0.read (Elt F) VA0_0.junk), acc0Mid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) (fun h => h1 ((atLast0_iff t).mp h)) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2, acc1Mid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) (fun h => h1 ((atLast0_iff t).mp h)) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- At the last point, over what the point before left. -/
theorem afterPt0_last (c : Dev nD) (t : Fin cfg0.N) (h0 : t.val ≠ 0) (h1 : t.val = 49) :
    afterPt0 V c t.val t.isLt = (zLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) ((atLast0_iff t).mpr h1) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2, o7Last0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) ((atLast0_iff t).mpr h1) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2, o8Last0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) ((atLast0_iff t).mpr h1) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2, acc0Last0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) ((atLast0_iff t).mpr h1) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2, acc1Last0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) ((atLast0_iff t).mpr h1) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant -/

/-- What passes every point untouched: the generator register at some state, and every scoped buffer that is neither
    a staging buffer of this call nor one of its two accumulators. -/
def passes0 (c : Dev nD) : sProp 𝕄 :=
  iprop((∃ r, prngReg c r) ∗ Pipeline.scopedRestBut (Ix := Unit) (Name := ℕ) (U := UR sig nD τ) (Lvl := ℕ) (Val := Elt F) spec0 c [cc0_scratch0, cc0_scratch1])

/-- The region invariant before position `n`: before the first point the two accumulators at anything; afterwards at
    what the point before left in them. -/
def Inv0 (c : Dev nD) : (n : ℕ) → n ≤ cfg0.N → sProp 𝕄
  | 0, _ => iprop(iprop((∃ d, owns (c : Thread nD τ) acc0_0 fullShare d) ∗ (∃ d, owns (c : Thread nD τ) acc0_1 fullShare d)) ∗ passes0 (F := F) c)
  | n + 1, hn => iprop(iprop(owns (c : Thread nD τ) acc0_0 fullShare (afterPt0 V c n hn).2.2.2.1 ∗ owns (c : Thread nD τ) acc0_1 fullShare (afterPt0 V c n hn).2.2.2.2) ∗ passes0 (F := F) c)

theorem Inv0_zero (c : Dev nD) (n : ℕ) (h : n ≤ cfg0.N) (hz : n = 0) :
    Inv0 V c n h = iprop(iprop((∃ d, owns (c : Thread nD τ) acc0_0 fullShare d) ∗ (∃ d, owns (c : Thread nD τ) acc0_1 fullShare d)) ∗ passes0 (F := F) c) := by
  subst hz; rfl

theorem Inv0_succ (c : Dev nD) (n : ℕ) (hn : n < cfg0.N) :
    Inv0 V c (n + 1) hn = iprop(iprop(owns (c : Thread nD τ) acc0_0 fullShare (afterPt0 V c n hn).2.2.2.1 ∗ owns (c : Thread nD τ) acc0_1 fullShare (afterPt0 V c n hn).2.2.2.2) ∗ passes0 (F := F) c) := rfl

theorem Inv0_pos (c : Dev nD) (n : ℕ) (h : n ≤ cfg0.N) (hz : n ≠ 0) :
    Inv0 V c n h = iprop(iprop(owns (c : Thread nD τ) acc0_0 fullShare (afterPt0 V c (n - 1) (by omega)).2.2.2.1 ∗ owns (c : Thread nD τ) acc0_1 fullShare (afterPt0 V c (n - 1) (by omega)).2.2.2.2) ∗ passes0 (F := F) c) := by
  cases n with
  | zero => exact absurd rfl hz
  | succ n => rfl

/-! ## The proof data -/

/-- The proof data of call 0 on core `c`: the arrays as the region finds them; after the body at point `t` each
    input's buffer at its block, the results block and the one-row outputs at the accumulation's components; the
    invariant `Inv0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (afterPt0 V c t.val t.isLt).1
    | ⟨7, _⟩ => (afterPt0 V c t.val t.isLt).2.1
    | ⟨8, _⟩ => (afterPt0 V c t.val t.isLt).2.2.1
  Φ t := Inv0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The proof data holds every window at the full share and owes nothing. -/
theorem q_eq0 (c : Dev nD) (w : Fin cfg0.W) : (dat0 V c).q w = fullShare := rfl
theorem owed_eq0 (c : Dev nD) (t : Fin (cfg0.N + 1)) : (dat0 V c).owed t = 0 := rfl

theorem Inv0_castSucc (c : Dev nD) (t : Fin cfg0.N) :
    (dat0 V c).Φ t.castSucc = Inv0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (afterPt0 V c t.val t.isLt).1 := by dsimp only [dat0]
theorem after0_7 (c : Dev nD) (t : Fin cfg0.N) : (dat0 V c).after 7 t = (afterPt0 V c t.val t.isLt).2.1 := by dsimp only [dat0]
theorem after0_8 (c : Dev nD) (t : Fin cfg0.N) : (dat0 V c).after 8 t = (afterPt0 V c t.val t.isLt).2.2.1 := by dsimp only [dat0]

theorem held0_0 (c : Dev nD) (t : Fin cfg0.N) (d) : (dat0 V c).before 0 t d = iblk0 V c 0 t :=
  held0_0_of V (dat0 V c) (A_eq0 V c 0) (after0_0 V c) t d
theorem held0_1 (c : Dev nD) (t : Fin cfg0.N) (d) : (dat0 V c).before 1 t d = iblk0 V c 1 t :=
  held0_1_of V (dat0 V c) (A_eq0 V c 1) (after0_1 V c) t d
theorem held0_2 (c : Dev nD) (t : Fin cfg0.N) (d) : (dat0 V c).before 2 t d = iblk0 V c 2 t :=
  held0_2_of V (dat0 V c) (A_eq0 V c 2) (after0_2 V c) t d
theorem held0_3 (c : Dev nD) (t : Fin cfg0.N) (d) : (dat0 V c).before 3 t d = iblk0 V c 3 t :=
  held0_3_of V (dat0 V c) (A_eq0 V c 3) (after0_3 V c) t d
theorem held0_4 (c : Dev nD) (t : Fin cfg0.N) (d) : (dat0 V c).before 4 t d = iblk0 V c 4 t :=
  held0_4_of V (dat0 V c) (A_eq0 V c 4) (after0_4 V c) t d
theorem held0_5 (c : Dev nD) (t : Fin cfg0.N) (d) : (dat0 V c).before 5 t d = iblk0 V c 5 t :=
  held0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point. The inputs' memrefs hold their blocks; the point is first, middle or last, and the run of that
    case applies: the invariant hands it the two accumulators (at anything before the first point, at what the point
    before left afterwards) and takes them back at this point's contents; away from the last point the one-row outputs
    go back as they came; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4, held0_5]
  rw [show (dat0 V c).owesAt () t.succ = (dat0 V c).owesAt () t.castSucc from rfl]
  rw [show (dat0 V c).Φ t.succ = Inv0 V c (t.val + 1) t.isLt from rfl, Inv0_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  rw [show (dat0 V c).leavesExact 5 t = owns (c : Thread nD τ) (ms0_5 t) fullShare ((dat0 V c).after 5 t) from by
    unfold Dat.leavesExact; rw [live0_5 t], after0_5]
  rw [show (dat0 V c).leavesExact 6 t = owns (c : Thread nD τ) (ms0_6 t) fullShare ((dat0 V c).after 6 t) from by
    unfold Dat.leavesExact; rw [live0_6 t], after0_6]
  by_cases h0 : t.val = 0
  · have h1 : t.val ≠ 49 := by omega
    rw [Dat.leavesExact_idle (dat0 V c) 7 t (idle0_7 t (fun h => h1 ((atLast0_iff t).mp h))) (noFlush0_7 t (fun h => h1 ((atLast0_iff t).mp h)))]
    rw [Dat.leavesExact_idle (dat0 V c) 8 t (idle0_8 t (fun h => h1 ((atLast0_iff t).mp h))) (noFlush0_8 t (fun h => h1 ((atLast0_iff t).mp h)))]
    rw [afterPt0_first V c t h0 h1]
    unfold zFirst0 acc0First0 acc1First0; (try dsimp only)
    rw [Inv0_castSucc V c t, Inv0_zero V c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst0 c (grid0.coords t) _ _ _ _ _ _ _ _ _ _ _ _ _ _ _ _ _ _ _ _ _ _ ((atFirst0_iff t).mpr h0) (fun h => h1 ((atLast0_iff t).mp h)) (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (coverFirst0_acc0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (coverFirst0_acc1 c _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverFirst0_z c _ _ _ _ _ _ _ _ _ _ _ _ _ _ _ _ _ _ _ _ _ _ _ _ _ _ _ _ _ _ _)
    isplitl [H7]; · iexists _; iexact H7
    iexists _; iexact H8
  · by_cases h1 : t.val = 49
    · rw [show (dat0 V c).leavesExact 7 t = owns (c : Thread nD τ) (ms0_7 t) fullShare ((dat0 V c).after 7 t) from by
        unfold Dat.leavesExact; rw [live0_7 t ((atLast0_iff t).mpr h1)], after0_7]
      rw [show (dat0 V c).leavesExact 8 t = owns (c : Thread nD τ) (ms0_8 t) fullShare ((dat0 V c).after 8 t) from by
        unfold Dat.leavesExact; rw [live0_8 t ((atLast0_iff t).mpr h1)], after0_8]
      rw [afterPt0_last V c t h0 h1]
      unfold zLast0 acc0Last0 acc1Last0 o7Last0 o8Last0; (try dsimp only)
      rw [Inv0_castSucc V c t, Inv0_pos V c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast0 c (grid0.coords t) _ _ _ _ _ _ _ _ _ _ _ _ _ _ _ _ _ _ _ _ _ _ (fun h => h0 ((atFirst0_iff t).mp h)) ((atLast0_iff t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLast0_acc0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverLast0_acc1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverLast0_z c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (coverLast0_o7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (coverLast0_o8 c _ _ _ _ _ _ _ _ _ _ _ _ _ _ _ _ _ _ _ _ _ _ _ _ _ _ _ _ _ _ _ _ _)

    · rw [Dat.leavesExact_idle (dat0 V c) 7 t (idle0_7 t (fun h => h1 ((atLast0_iff t).mp h))) (noFlush0_7 t (fun h => h1 ((atLast0_iff t).mp h)))]
      rw [Dat.leavesExact_idle (dat0 V c) 8 t (idle0_8 t (fun h => h1 ((atLast0_iff t).mp h))) (noFlush0_8 t (fun h => h1 ((atLast0_iff t).mp h)))]
      rw [afterPt0_mid V c t h0 h1]
      unfold zMid0 acc0Mid0 acc1Mid0; (try dsimp only)
      rw [Inv0_castSucc V c t, Inv0_pos V c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid0 c (grid0.coords t) _ _ _ _ _ _ _ _ _ _ _ _ _ _ _ _ _ _ _ _ _ _ (fun h => h0 ((atFirst0_iff t).mp h)) (fun h => h1 ((atLast0_iff t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMid0_acc0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverMid0_acc1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverMid0_z c _ _ _ _ _ _ _ _ _ _ _ _ _ _ _ _ _ _ _ _ _ _ _ _ _ _ _ _ _ _ _ _ _)
      isplitl [H7]; · iexists _; iexact H7
      iexists _; iexact H8

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- The generator register and the scoped buffers no window stages make the invariant before the first point. -/
theorem hin0 (c : Dev nD) :
    iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = Inv0 V c 0 (Nat.zero_le _) from rfl, Inv0_zero V c 0 _ rfl, scopedRest0_acc]
  unfold passes0
  iintro ⟨Hp, ⟨HS0, HS1⟩, Hr⟩
  isplitl [HS0 HS1]
  · isplitl [HS0]; · iexact HS0
    iexact HS1
  isplitl [Hp]; · iexact Hp
  iexact Hr

/-- After any point the invariant gives them back, the accumulators' contents forgotten. -/
theorem Inv0_out (c : Dev nD) (t : Fin (cfg0.N + 1)) (ht : t.val ≠ 0) :
    (dat0 V c).Φ t ⊢ iprop((∃ r, prngReg c r) ∗ Pipeline.scopedRest (Ix := Unit) (Name := ℕ) (U := UR sig nD τ) (Lvl := ℕ) (Val := Elt F) spec0 c) := by
  rw [show (dat0 V c).Φ t = Inv0 V c t.val (Nat.le_of_lt_succ t.isLt) from rfl, Inv0_pos V c _ _ ht, scopedRest0_acc]
  unfold passes0
  iintro ⟨⟨HS0, HS1⟩, Hp, Hr⟩
  isplitl [Hp]; · iexact Hp
  isplitl [HS0 HS1]
  · isplitl [HS0]; · iexists _; iexact HS0
    iexists _; iexact HS1
  iexact Hr

/-- In particular after the last point. -/
theorem hout0 (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) :=
  Inv0_out V c _ (by rw [Fin.val_last]; have : cfg0.N = 50 := N_0; omega)

end Cert.Kernel.Hand

end
-- ==== Proof.K.Reg2Runs.lean ====
import proofs.«172250_j15616501088594_1_alg».proof.Proof.Gen.Kernel.Launch
import proofs.«172250_j15616501088594_1_alg».proof.Proof.Gen.Kernel.Skeleton
import proofs.«172250_j15616501088594_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The dense-layer kernel of call 2: what its three runs share

The kernel works on one block of 2000 rows per grid point: it adds the two input blocks, applies two dense layers with
a rectifier after each, stores the block of results, and adds the results' column sums and the column sums of their
squares to two one-row accumulators that live across the grid. At the first point the accumulators are cleared before
use; at the last point they are copied to the two one-row outputs. Everything here is stated at the buffer contents
`V` the region is entered with. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetched it or the block
    index stood still, for any proof data over `V` whose body leaves the block in place. -/
theorem held2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetched it or the block
    index stood still, for any proof data over `V` whose body leaves the block in place. -/
theorem held2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetched it or the block
    index stood still, for any proof data over `V` whose body leaves the block in place. -/
theorem held2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the point fetched it or the block
    index stood still, for any proof data over `V` whose body leaves the block in place. -/
theorem held2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the point fetched it or the block
    index stood still, for any proof data over `V` whose body leaves the block in place. -/
theorem held2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the point fetched it or the block
    index stood still, for any proof data over `V` whose body leaves the block in place. -/
theorem held2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions on the grid point -/

/-- The kernel's first test: the point is the grid's first (the accumulators are cleared). -/
abbrev atFirst2 (i : grid2.Coords) : Prop := (Scalar.cmpi .ne (Scalar.extui (Scalar.cmpi .eq (BitVec.ofNat 32 (i 0).val) 0#32)) 0#32) = 1#1
/-- It holds at point 0 only. -/
theorem atFirst2_iff : ∀ t : Fin cfg2.N, atFirst2 (grid2.coords t) ↔ t.val = 0 :=
  (by decide +kernel : ∀ t : Fin grid2.N, atFirst2 (grid2.coords t) ↔ t.val = 0)

/-- The kernel's second test: the point is the grid's last (the accumulators are copied out). -/
abbrev atLast2 (i : grid2.Coords) : Prop := k2_cond2 i = 1#1
/-- It holds at point 49 only. -/
theorem atLast2_iff : ∀ t : Fin cfg2.N, atLast2 (grid2.coords t) ↔ t.val = 49 :=
  (by decide +kernel : ∀ t : Fin grid2.N, atLast2 (grid2.coords t) ↔ t.val = 49)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
theorem live2_6 : ∀ t : Fin cfg2.N, cfg2.idle 6 (grid2.coords t) = false := by decide +kernel
/-- Away from the last point the one-row output 7 is idle: nothing is stored into it, and it is not written back. -/
theorem idle2_7 : ∀ t : Fin cfg2.N, ¬atLast2 (grid2.coords t) → cfg2.idle 7 (grid2.coords t) = true := by decide +kernel
theorem noFlush2_7 : ∀ t : Fin cfg2.N, ¬atLast2 (grid2.coords t) → (cfg2.win 7).flush t = false := by decide +kernel
/-- At the last point it is live. -/
theorem live2_7 : ∀ t : Fin cfg2.N, atLast2 (grid2.coords t) → cfg2.idle 7 (grid2.coords t) = false := by decide +kernel
/-- Away from the last point the one-row output 8 is idle: nothing is stored into it, and it is not written back. -/
theorem idle2_8 : ∀ t : Fin cfg2.N, ¬atLast2 (grid2.coords t) → cfg2.idle 8 (grid2.coords t) = true := by decide +kernel
theorem noFlush2_8 : ∀ t : Fin cfg2.N, ¬atLast2 (grid2.coords t) → (cfg2.win 8).flush t = false := by decide +kernel
/-- At the last point it is live. -/
theorem live2_8 : ∀ t : Fin cfg2.N, atLast2 (grid2.coords t) → cfg2.idle 8 (grid2.coords t) = false := by decide +kernel

/-! ## The memrefs the body is called with -/

abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The two accumulators: whole scoped buffers of the kernel's own, passed beside the windows. -/
abbrev acc2_0 : Memref sig .tc .vmem S1x128 .f32 := Memref.whole cc2_scratch0
abbrev acc2_1 : Memref sig .tc .vmem S1x128 .f32 := Memref.whole cc2_scratch1
/-- Views through which the contents of the results block, the one-row outputs and the accumulators are stated. -/
abbrev VZ2 : View sig .tc .vmem S2000x128 .f32 := (Memref.whole cc2_stg6_0 : Memref sig .tc .vmem S2000x128 .f32).view
abbrev VA2_0 : View sig .tc .vmem S1x128 .f32 := acc2_0.view
abbrev VA2_1 : View sig .tc .vmem S1x128 .f32 := acc2_1.view

/-- The scoped buffers no window stages, split at the two accumulators (each owned whole at some contents) and the
    unopened remainder. -/
theorem scopedRest2_acc (c : Dev nD) :
    (Pipeline.scopedRest (Ix := Unit) (Name := ℕ) (U := UR sig nD τ) (Lvl := ℕ) (Val := Elt F) spec2 c : sProp 𝕄)
      = iprop(iprop((∃ d, owns (c : Thread nD τ) acc2_0 fullShare d) ∗ (∃ d, owns (c : Thread nD τ) acc2_1 fullShare d))
          ∗ Pipeline.scopedRestBut (Ix := Unit) (Name := ℕ) (U := UR sig nD τ) (Lvl := ℕ) (Val := Elt F) spec2 c [cc2_scratch0, cc2_scratch1]) := by
  rw [scopedRest2_split]; simp only [acc2_0, acc2_1, owns_whole]; try rfl

end Cert.Kernel.Hand

end
-- ==== Proof.K.Reg2First.lean ====
import proofs.«172250_j15616501088594_1_alg».proof.Proof.K.Reg2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- At the grid's FIRST point: the two accumulators, found at any contents, are cleared and then take this block's column
    sums; the results block is stored whole; the two one-row outputs are left as found.
    The lists are the stores each buffer ends with (last first), found by running the body; with them comes the proof
    that on whole memrefs holding the stated contents the body runs to any continuation that accepts the inputs as
    they were and every written buffer with its stores applied. -/
noncomputable def runFirst2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_acc_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__mlp_acc_kernel_eq_skeleton]; unfold cc2__mlp_acc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Reg2Mid.lean ====
import proofs.«172250_j15616501088594_1_alg».proof.Proof.K.Reg2First

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- At a point that is neither first nor last: the two accumulators, found at what the point before left, take this
    block's column sums on top; the results block is stored whole; the two one-row outputs are left as found.
    The lists are the stores each buffer ends with (last first), found by running the body; with them comes the proof
    that on whole memrefs holding the stated contents the body runs to any continuation that accepts the inputs as
    they were and every written buffer with its stores applied. -/
noncomputable def runMid2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_acc_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__mlp_acc_kernel_eq_skeleton]; unfold cc2__mlp_acc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Reg2Last.lean ====
import proofs.«172250_j15616501088594_1_alg».proof.Proof.K.Reg2Mid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- At the grid's LAST point: as in the middle, and then the two accumulators are copied whole into the two one-row
    outputs.
    The lists are the stores each buffer ends with (last first), found by running the body; with them comes the proof
    that on whole memrefs holding the stated contents the body runs to any continuation that accepts the inputs as
    they were and every written buffer with its stores applied. -/
noncomputable def runLast2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_acc_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_acc_kernel_eq_skeleton]; unfold cc2__mlp_acc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Reg2.lean ====
import proofs.«172250_j15616501088594_1_alg».proof.Proof.K.Reg2Last

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The dense-layer kernel of call 2: its proof data and body obligation

From the three runs: what each leaves in the buffers it writes, the contents point by point (the accumulation), the
proof data whose invariant carries the two accumulators from point to point, the body obligation, and the invariant's
two ends (made from, and giving back, the scoped buffers no window stages). -/

variable (V : (c : Dev nD) → (b : Ref sig .tc) → Buf (Elt F) ((c : Thread nD τ).loc b))

/-! ## What each run leaves -/

/-- The stores the first run ends the results block with tile it, so they cover it. -/
theorem coverFirst2_z (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (y : S2000x128.Idx) :
    ∃ pc ∈ (runFirst2 c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (runFirst2 c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y
/-- What the first run leaves in the results block: its stores read back. -/
def zFirst2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) : Vec F S2000x128 .f32 :=
  VZ2.read (Elt F) (VZ2.writes (Elt F) VZ2.junk (runFirst2 c i arg1 harg1 arg2 harg2 arg3 harg3 arg4 harg4 arg5 harg5 arg6 harg6 arg7 harg7 arg8 harg8 arg9 harg9 arg10 harg10 arg11 harg11 hc0 hc1 x0 x1 x2 x3 x4 x5).1)

/-- The stores the first run ends the first accumulator with tile it, so they cover it. -/
theorem coverFirst2_acc0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (y : S1x128.Idx) :
    ∃ pc ∈ (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y
/-- What the first run leaves in the first accumulator: its stores read back. -/
def acc0First2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) : Vec F S1x128 .f32 :=
  VA2_0.read (Elt F) (VA2_0.writes (Elt F) VA2_0.junk (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.1)

/-- The stores the first run ends the second accumulator with tile it, so they cover it. -/
theorem coverFirst2_acc1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (y : S1x128.Idx) :
    ∃ pc ∈ (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y
/-- What the first run leaves in the second accumulator: its stores read back. -/
def acc1First2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) : Vec F S1x128 .f32 :=
  VA2_1.read (Elt F) (VA2_1.writes (Elt F) VA2_1.junk (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- The stores the middle run ends the results block with tile it, so they cover it. -/
theorem coverMid2_z (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S2000x128.Idx) :
    ∃ pc ∈ (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
/-- What the middle run leaves in the results block: its stores read back. -/
def zMid2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S2000x128 .f32 :=
  VZ2.read (Elt F) (VZ2.writes (Elt F) VZ2.junk (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The stores the middle run ends the first accumulator with tile it, so they cover it. -/
theorem coverMid2_acc0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What the middle run leaves in the first accumulator: its stores read back. -/
def acc0Mid2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA2_0.read (Elt F) (VA2_0.writes (Elt F) VA2_0.junk (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The stores the middle run ends the second accumulator with tile it, so they cover it. -/
theorem coverMid2_acc1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What the middle run leaves in the second accumulator: its stores read back. -/
def acc1Mid2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA2_1.read (Elt F) (VA2_1.writes (Elt F) VA2_1.junk (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The stores the last run ends the results block with tile it, so they cover it. -/
theorem coverLast2_z (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S2000x128.Idx) :
    ∃ pc ∈ (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
/-- What the last run leaves in the results block: its stores read back. -/
def zLast2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S2000x128 .f32 :=
  VZ2.read (Elt F) (VZ2.writes (Elt F) VZ2.junk (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The stores the last run ends the first one-row output with tile it, so they cover it. -/
theorem coverLast2_o7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What the last run leaves in the first one-row output: its stores read back. -/
def o7Last2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA2_0.read (Elt F) (VA2_0.writes (Elt F) VA2_0.junk (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The stores the last run ends the second one-row output with tile it, so they cover it. -/
theorem coverLast2_o8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What the last run leaves in the second one-row output: its stores read back. -/
def o8Last2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA2_1.read (Elt F) (VA2_1.writes (Elt F) VA2_1.junk (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The stores the last run ends the first accumulator with tile it, so they cover it. -/
theorem coverLast2_acc0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
/-- What the last run leaves in the first accumulator: its stores read back. -/
def acc0Last2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA2_0.read (Elt F) (VA2_0.writes (Elt F) VA2_0.junk (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The stores the last run ends the second accumulator with tile it, so they cover it. -/
theorem coverLast2_acc1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
/-- What the last run leaves in the second accumulator: its stores read back. -/
def acc1Last2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA2_1.read (Elt F) (VA2_1.writes (Elt F) VA2_1.junk (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The contents point by point -/

/-- THE ACCUMULATION. After the body at position `n`: the results block, the two one-row outputs (a placeholder away
    from the last point, where they are idle) and the two accumulators — the run of the point's case on the point's
    blocks, the accumulators entering at what position `n - 1` left. -/
def afterPt2 (c : Dev nD) : (n : ℕ) → n < cfg2.N → Vec F S2000x128 .f32 × Vec F S1x128 .f32 × Vec F S1x128 .f32 × Vec F S1x128 .f32 × Vec F S1x128 .f32
  | 0, hn => (zFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) acc2_0 (Memref.isWhole_whole _) acc2_1 (Memref.isWhole_whole _) ((atFirst2_iff ⟨0, hn⟩).mpr rfl) (fun h => absurd ((atLast2_iff ⟨0, hn⟩).mp h) (by decide : ¬((0 : ℕ) = 49))) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), (VA2_0.read (Elt F) VA2_0.junk), (VA2_0.read (Elt F) VA2_0.junk), acc0First2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) acc2_0 (Memref.isWhole_whole _) acc2_1 (Memref.isWhole_whole _) ((atFirst2_iff ⟨0, hn⟩).mpr rfl) (fun h => absurd ((atLast2_iff ⟨0, hn⟩).mp h) (by decide : ¬((0 : ℕ) = 49))) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), acc1First2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) acc2_0 (Memref.isWhole_whole _) acc2_1 (Memref.isWhole_whole _) ((atFirst2_iff ⟨0, hn⟩).mpr rfl) (fun h => absurd ((atLast2_iff ⟨0, hn⟩).mp h) (by decide : ¬((0 : ℕ) = 49))) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : n + 1 = 49 then
      (zLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) ((atLast2_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2, o7Last2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) ((atLast2_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2, o8Last2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) ((atLast2_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2, acc0Last2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) ((atLast2_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2, acc1Last2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) ((atLast2_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2)
    else
      (zMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) (fun h => h1 ((atLast2_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2, (VA2_0.read (Elt F) VA2_0.junk), (VA2_0.read (Elt F) VA2_0.junk), acc0Mid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) (fun h => h1 ((atLast2_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2, acc1Mid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) (fun h => h1 ((atLast2_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2)

/-- At the first point. -/
theorem afterPt2_first (c : Dev nD) (t : Fin cfg2.N) (h0 : t.val = 0) (h1 : t.val ≠ 49) :
    afterPt2 V c t.val t.isLt = (zFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) ((atFirst2_iff t).mpr h0) (fun h => h1 ((atLast2_iff t).mp h)) (iblk2 V c 0 t) (iblk2 V c 1 t) (iblk2 V c 2 t) (iblk2 V c 3 t) (iblk2 V c 4 t) (iblk2 V c 5 t), (VA2_0.read (Elt F) VA2_0.junk), (VA2_0.read (Elt F) VA2_0.junk), acc0First2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) ((atFirst2_iff t).mpr h0) (fun h => h1 ((atLast2_iff t).mp h)) (iblk2 V c 0 t) (iblk2 V c 1 t) (iblk2 V c 2 t) (iblk2 V c 3 t) (iblk2 V c 4 t) (iblk2 V c 5 t), acc1First2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) ((atFirst2_iff t).mpr h0) (fun h => h1 ((atLast2_iff t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact absurd h0 (Nat.succ_ne_zero n)

/-- At a middle point, over what the point before left. -/
theorem afterPt2_mid (c : Dev nD) (t : Fin cfg2.N) (h0 : t.val ≠ 0) (h1 : t.val ≠ 49) :
    afterPt2 V c t.val t.isLt = (zMid2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) (fun h => h1 ((atLast2_iff t).mp h)) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2, (VA2_0.read (Elt F) VA2_0.junk), (VA2_0.read (Elt F) VA2_0.junk), acc0Mid2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) (fun h => h1 ((atLast2_iff t).mp h)) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2, acc1Mid2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) (fun h => h1 ((atLast2_iff t).mp h)) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- At the last point, over what the point before left. -/
theorem afterPt2_last (c : Dev nD) (t : Fin cfg2.N) (h0 : t.val ≠ 0) (h1 : t.val = 49) :
    afterPt2 V c t.val t.isLt = (zLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) ((atLast2_iff t).mpr h1) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2, o7Last2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) ((atLast2_iff t).mpr h1) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2, o8Last2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) ((atLast2_iff t).mpr h1) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2, acc0Last2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) ((atLast2_iff t).mpr h1) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2, acc1Last2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) ((atLast2_iff t).mpr h1) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant -/

/-- What passes every point untouched: the generator register at some state, and every scoped buffer that is neither
    a staging buffer of this call nor one of its two accumulators. -/
def passes2 (c : Dev nD) : sProp 𝕄 :=
  iprop((∃ r, prngReg c r) ∗ Pipeline.scopedRestBut (Ix := Unit) (Name := ℕ) (U := UR sig nD τ) (Lvl := ℕ) (Val := Elt F) spec2 c [cc2_scratch0, cc2_scratch1])

/-- The region invariant before position `n`: before the first point the two accumulators at anything; afterwards at
    what the point before left in them. -/
def Inv2 (c : Dev nD) : (n : ℕ) → n ≤ cfg2.N → sProp 𝕄
  | 0, _ => iprop(iprop((∃ d, owns (c : Thread nD τ) acc2_0 fullShare d) ∗ (∃ d, owns (c : Thread nD τ) acc2_1 fullShare d)) ∗ passes2 (F := F) c)
  | n + 1, hn => iprop(iprop(owns (c : Thread nD τ) acc2_0 fullShare (afterPt2 V c n hn).2.2.2.1 ∗ owns (c : Thread nD τ) acc2_1 fullShare (afterPt2 V c n hn).2.2.2.2) ∗ passes2 (F := F) c)

theorem Inv2_zero (c : Dev nD) (n : ℕ) (h : n ≤ cfg2.N) (hz : n = 0) :
    Inv2 V c n h = iprop(iprop((∃ d, owns (c : Thread nD τ) acc2_0 fullShare d) ∗ (∃ d, owns (c : Thread nD τ) acc2_1 fullShare d)) ∗ passes2 (F := F) c) := by
  subst hz; rfl

theorem Inv2_succ (c : Dev nD) (n : ℕ) (hn : n < cfg2.N) :
    Inv2 V c (n + 1) hn = iprop(iprop(owns (c : Thread nD τ) acc2_0 fullShare (afterPt2 V c n hn).2.2.2.1 ∗ owns (c : Thread nD τ) acc2_1 fullShare (afterPt2 V c n hn).2.2.2.2) ∗ passes2 (F := F) c) := rfl

theorem Inv2_pos (c : Dev nD) (n : ℕ) (h : n ≤ cfg2.N) (hz : n ≠ 0) :
    Inv2 V c n h = iprop(iprop(owns (c : Thread nD τ) acc2_0 fullShare (afterPt2 V c (n - 1) (by omega)).2.2.2.1 ∗ owns (c : Thread nD τ) acc2_1 fullShare (afterPt2 V c (n - 1) (by omega)).2.2.2.2) ∗ passes2 (F := F) c) := by
  cases n with
  | zero => exact absurd rfl hz
  | succ n => rfl

/-! ## The proof data -/

/-- The proof data of call 2 on core `c`: the arrays as the region finds them; after the body at point `t` each
    input's buffer at its block, the results block and the one-row outputs at the accumulation's components; the
    invariant `Inv2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (afterPt2 V c t.val t.isLt).1
    | ⟨7, _⟩ => (afterPt2 V c t.val t.isLt).2.1
    | ⟨8, _⟩ => (afterPt2 V c t.val t.isLt).2.2.1
  Φ t := Inv2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The proof data holds every window at the full share and owes nothing. -/
theorem q_eq2 (c : Dev nD) (w : Fin cfg2.W) : (dat2 V c).q w = fullShare := rfl
theorem owed_eq2 (c : Dev nD) (t : Fin (cfg2.N + 1)) : (dat2 V c).owed t = 0 := rfl

theorem Inv2_castSucc (c : Dev nD) (t : Fin cfg2.N) :
    (dat2 V c).Φ t.castSucc = Inv2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (afterPt2 V c t.val t.isLt).1 := by dsimp only [dat2]
theorem after2_7 (c : Dev nD) (t : Fin cfg2.N) : (dat2 V c).after 7 t = (afterPt2 V c t.val t.isLt).2.1 := by dsimp only [dat2]
theorem after2_8 (c : Dev nD) (t : Fin cfg2.N) : (dat2 V c).after 8 t = (afterPt2 V c t.val t.isLt).2.2.1 := by dsimp only [dat2]

theorem held2_0 (c : Dev nD) (t : Fin cfg2.N) (d) : (dat2 V c).before 0 t d = iblk2 V c 0 t :=
  held2_0_of V (dat2 V c) (A_eq2 V c 0) (after2_0 V c) t d
theorem held2_1 (c : Dev nD) (t : Fin cfg2.N) (d) : (dat2 V c).before 1 t d = iblk2 V c 1 t :=
  held2_1_of V (dat2 V c) (A_eq2 V c 1) (after2_1 V c) t d
theorem held2_2 (c : Dev nD) (t : Fin cfg2.N) (d) : (dat2 V c).before 2 t d = iblk2 V c 2 t :=
  held2_2_of V (dat2 V c) (A_eq2 V c 2) (after2_2 V c) t d
theorem held2_3 (c : Dev nD) (t : Fin cfg2.N) (d) : (dat2 V c).before 3 t d = iblk2 V c 3 t :=
  held2_3_of V (dat2 V c) (A_eq2 V c 3) (after2_3 V c) t d
theorem held2_4 (c : Dev nD) (t : Fin cfg2.N) (d) : (dat2 V c).before 4 t d = iblk2 V c 4 t :=
  held2_4_of V (dat2 V c) (A_eq2 V c 4) (after2_4 V c) t d
theorem held2_5 (c : Dev nD) (t : Fin cfg2.N) (d) : (dat2 V c).before 5 t d = iblk2 V c 5 t :=
  held2_5_of V (dat2 V c) (A_eq2 V c 5) (after2_5 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point. The inputs' memrefs hold their blocks; the point is first, middle or last, and the run of that
    case applies: the invariant hands it the two accumulators (at anything before the first point, at what the point
    before left afterwards) and takes them back at this point's contents; away from the last point the one-row outputs
    go back as they came; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1, held2_2, held2_3, held2_4, held2_5]
  rw [show (dat2 V c).owesAt () t.succ = (dat2 V c).owesAt () t.castSucc from rfl]
  rw [show (dat2 V c).Φ t.succ = Inv2 V c (t.val + 1) t.isLt from rfl, Inv2_succ]
  have hN : t.val < 50 := lt_of_lt_of_eq t.isLt (show cfg2.N = 50 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  rw [show (dat2 V c).leavesExact 3 t = owns (c : Thread nD τ) (ms2_3 t) fullShare ((dat2 V c).after 3 t) from by
    unfold Dat.leavesExact; rw [live2_3 t], after2_3]
  rw [show (dat2 V c).leavesExact 4 t = owns (c : Thread nD τ) (ms2_4 t) fullShare ((dat2 V c).after 4 t) from by
    unfold Dat.leavesExact; rw [live2_4 t], after2_4]
  rw [show (dat2 V c).leavesExact 5 t = owns (c : Thread nD τ) (ms2_5 t) fullShare ((dat2 V c).after 5 t) from by
    unfold Dat.leavesExact; rw [live2_5 t], after2_5]
  rw [show (dat2 V c).leavesExact 6 t = owns (c : Thread nD τ) (ms2_6 t) fullShare ((dat2 V c).after 6 t) from by
    unfold Dat.leavesExact; rw [live2_6 t], after2_6]
  by_cases h0 : t.val = 0
  · have h1 : t.val ≠ 49 := by omega
    rw [Dat.leavesExact_idle (dat2 V c) 7 t (idle2_7 t (fun h => h1 ((atLast2_iff t).mp h))) (noFlush2_7 t (fun h => h1 ((atLast2_iff t).mp h)))]
    rw [Dat.leavesExact_idle (dat2 V c) 8 t (idle2_8 t (fun h => h1 ((atLast2_iff t).mp h))) (noFlush2_8 t (fun h => h1 ((atLast2_iff t).mp h)))]
    rw [afterPt2_first V c t h0 h1]
    unfold zFirst2 acc0First2 acc1First2; (try dsimp only)
    rw [Inv2_castSucc V c t, Inv2_zero V c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst2 c (grid2.coords t) _ _ _ _ _ _ _ _ _ _ _ _ _ _ _ _ _ _ _ _ _ _ ((atFirst2_iff t).mpr h0) (fun h => h1 ((atLast2_iff t).mp h)) (iblk2 V c 0 t) (iblk2 V c 1 t) (iblk2 V c 2 t) (iblk2 V c 3 t) (iblk2 V c 4 t) (iblk2 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (coverFirst2_acc0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (coverFirst2_acc1 c _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverFirst2_z c _ _ _ _ _ _ _ _ _ _ _ _ _ _ _ _ _ _ _ _ _ _ _ _ _ _ _ _ _ _ _)
    isplitl [H7]; · iexists _; iexact H7
    iexists _; iexact H8
  · by_cases h1 : t.val = 49
    · rw [show (dat2 V c).leavesExact 7 t = owns (c : Thread nD τ) (ms2_7 t) fullShare ((dat2 V c).after 7 t) from by
        unfold Dat.leavesExact; rw [live2_7 t ((atLast2_iff t).mpr h1)], after2_7]
      rw [show (dat2 V c).leavesExact 8 t = owns (c : Thread nD τ) (ms2_8 t) fullShare ((dat2 V c).after 8 t) from by
        unfold Dat.leavesExact; rw [live2_8 t ((atLast2_iff t).mpr h1)], after2_8]
      rw [afterPt2_last V c t h0 h1]
      unfold zLast2 acc0Last2 acc1Last2 o7Last2 o8Last2; (try dsimp only)
      rw [Inv2_castSucc V c t, Inv2_pos V c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast2 c (grid2.coords t) _ _ _ _ _ _ _ _ _ _ _ _ _ _ _ _ _ _ _ _ _ _ (fun h => h0 ((atFirst2_iff t).mp h)) ((atLast2_iff t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLast2_acc0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverLast2_acc1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverLast2_z c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (coverLast2_o7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (coverLast2_o8 c _ _ _ _ _ _ _ _ _ _ _ _ _ _ _ _ _ _ _ _ _ _ _ _ _ _ _ _ _ _ _ _ _)

    · rw [Dat.leavesExact_idle (dat2 V c) 7 t (idle2_7 t (fun h => h1 ((atLast2_iff t).mp h))) (noFlush2_7 t (fun h => h1 ((atLast2_iff t).mp h)))]
      rw [Dat.leavesExact_idle (dat2 V c) 8 t (idle2_8 t (fun h => h1 ((atLast2_iff t).mp h))) (noFlush2_8 t (fun h => h1 ((atLast2_iff t).mp h)))]
      rw [afterPt2_mid V c t h0 h1]
      unfold zMid2 acc0Mid2 acc1Mid2; (try dsimp only)
      rw [Inv2_castSucc V c t, Inv2_pos V c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid2 c (grid2.coords t) _ _ _ _ _ _ _ _ _ _ _ _ _ _ _ _ _ _ _ _ _ _ (fun h => h0 ((atFirst2_iff t).mp h)) (fun h => h1 ((atLast2_iff t).mp h)) (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMid2_acc0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverMid2_acc1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverMid2_z c _ _ _ _ _ _ _ _ _ _ _ _ _ _ _ _ _ _ _ _ _ _ _ _ _ _ _ _ _ _ _ _ _)
      isplitl [H7]; · iexists _; iexact H7
      iexists _; iexact H8

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- The generator register and the scoped buffers no window stages make the invariant before the first point. -/
theorem hin2 (c : Dev nD) :
    iprop((∃ r, prngReg c r) ∗ Pipeline.scopedRest (Ix := Unit) (Name := ℕ) (U := UR sig nD τ) (Lvl := ℕ) (Val := Elt F) spec2 c) ⊢ (dat2 V c).Φ 0 := by
  rw [show (dat2 V c).Φ 0 = Inv2 V c 0 (Nat.zero_le _) from rfl, Inv2_zero V c 0 _ rfl, scopedRest2_acc]
  unfold passes2
  iintro ⟨Hp, ⟨HS0, HS1⟩, Hr⟩
  isplitl [HS0 HS1]
  · isplitl [HS0]; · iexact HS0
    iexact HS1
  isplitl [Hp]; · iexact Hp
  iexact Hr

/-- After any point the invariant gives them back, the accumulators' contents forgotten. -/
theorem Inv2_out (c : Dev nD) (t : Fin (cfg2.N + 1)) (ht : t.val ≠ 0) :
    (dat2 V c).Φ t ⊢ iprop((∃ r, prngReg c r) ∗ Pipeline.scopedRest (Ix := Unit) (Name := ℕ) (U := UR sig nD τ) (Lvl := ℕ) (Val := Elt F) spec2 c) := by
  rw [show (dat2 V c).Φ t = Inv2 V c t.val (Nat.le_of_lt_succ t.isLt) from rfl, Inv2_pos V c _ _ ht, scopedRest2_acc]
  unfold passes2
  iintro ⟨⟨HS0, HS1⟩, Hp, Hr⟩
  isplitl [Hp]; · iexact Hp
  isplitl [HS0 HS1]
  · isplitl [HS0]; · iexists _; iexact HS0
    iexists _; iexact HS1
  iexact Hr

/-- In particular after the last point. -/
theorem hout2 (c : Dev nD) :
    (dat2 V c).Φ (Fin.last cfg2.N) ⊢ iprop((∃ r, prngReg c r) ∗ Pipeline.scopedRest (Ix := Unit) (Name := ℕ) (U := UR sig nD τ) (Lvl := ℕ) (Val := Elt F) spec2 c) :=
  Inv2_out V c _ (by rw [Fin.val_last]; have : cfg2.N = 50 := N_2; omega)

end Cert.Kernel.Hand

end
-- ==== Proof.K.Reg4Runs.lean ====
import proofs.«172250_j15616501088594_1_alg».proof.Proof.Gen.Kernel.Launch
import proofs.«172250_j15616501088594_1_alg».proof.Proof.Gen.Kernel.Skeleton
import proofs.«172250_j15616501088594_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The dense-layer kernel of call 4: what its three runs share

The kernel works on one block of 2000 rows per grid point: it adds the two input blocks, applies two dense layers with
a rectifier after each, stores the block of results, and adds the results' column sums and the column sums of their
squares to two one-row accumulators that live across the grid. At the first point the accumulators are cleared before
use; at the last point they are copied to the two one-row outputs. Everything here is stated at the buffer contents
`V` the region is entered with. -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the point fetched it or the block
    index stood still, for any proof data over `V` whose body leaves the block in place. -/
theorem held4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the point fetched it or the block
    index stood still, for any proof data over `V` whose body leaves the block in place. -/
theorem held4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the point fetched it or the block
    index stood still, for any proof data over `V` whose body leaves the block in place. -/
theorem held4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether the point fetched it or the block
    index stood still, for any proof data over `V` whose body leaves the block in place. -/
theorem held4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether the point fetched it or the block
    index stood still, for any proof data over `V` whose body leaves the block in place. -/
theorem held4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, whether the point fetched it or the block
    index stood still, for any proof data over `V` whose body leaves the block in place. -/
theorem held4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions on the grid point -/

/-- The kernel's first test: the point is the grid's first (the accumulators are cleared). -/
abbrev atFirst4 (i : grid4.Coords) : Prop := (Scalar.cmpi .ne (Scalar.extui (Scalar.cmpi .eq (BitVec.ofNat 32 (i 0).val) 0#32)) 0#32) = 1#1
/-- It holds at point 0 only. -/
theorem atFirst4_iff : ∀ t : Fin cfg4.N, atFirst4 (grid4.coords t) ↔ t.val = 0 :=
  (by decide +kernel : ∀ t : Fin grid4.N, atFirst4 (grid4.coords t) ↔ t.val = 0)

/-- The kernel's second test: the point is the grid's last (the accumulators are copied out). -/
abbrev atLast4 (i : grid4.Coords) : Prop := k4_cond2 i = 1#1
/-- It holds at point 49 only. -/
theorem atLast4_iff : ∀ t : Fin cfg4.N, atLast4 (grid4.coords t) ↔ t.val = 49 :=
  (by decide +kernel : ∀ t : Fin grid4.N, atLast4 (grid4.coords t) ↔ t.val = 49)

/-! ## Where the windows are idle -/

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
theorem live4_5 : ∀ t : Fin cfg4.N, cfg4.idle 5 (grid4.coords t) = false := by decide +kernel
theorem live4_6 : ∀ t : Fin cfg4.N, cfg4.idle 6 (grid4.coords t) = false := by decide +kernel
/-- Away from the last point the one-row output 7 is idle: nothing is stored into it, and it is not written back. -/
theorem idle4_7 : ∀ t : Fin cfg4.N, ¬atLast4 (grid4.coords t) → cfg4.idle 7 (grid4.coords t) = true := by decide +kernel
theorem noFlush4_7 : ∀ t : Fin cfg4.N, ¬atLast4 (grid4.coords t) → (cfg4.win 7).flush t = false := by decide +kernel
/-- At the last point it is live. -/
theorem live4_7 : ∀ t : Fin cfg4.N, atLast4 (grid4.coords t) → cfg4.idle 7 (grid4.coords t) = false := by decide +kernel
/-- Away from the last point the one-row output 8 is idle: nothing is stored into it, and it is not written back. -/
theorem idle4_8 : ∀ t : Fin cfg4.N, ¬atLast4 (grid4.coords t) → cfg4.idle 8 (grid4.coords t) = true := by decide +kernel
theorem noFlush4_8 : ∀ t : Fin cfg4.N, ¬atLast4 (grid4.coords t) → (cfg4.win 8).flush t = false := by decide +kernel
/-- At the last point it is live. -/
theorem live4_8 : ∀ t : Fin cfg4.N, atLast4 (grid4.coords t) → cfg4.idle 8 (grid4.coords t) = false := by decide +kernel

/-! ## The memrefs the body is called with -/

abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .bf16 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
/-- The two accumulators: whole scoped buffers of the kernel's own, passed beside the windows. -/
abbrev acc4_0 : Memref sig .tc .vmem S1x128 .f32 := Memref.whole cc4_scratch0
abbrev acc4_1 : Memref sig .tc .vmem S1x128 .f32 := Memref.whole cc4_scratch1
/-- Views through which the contents of the results block, the one-row outputs and the accumulators are stated. -/
abbrev VZ4 : View sig .tc .vmem S2000x128 .f32 := (Memref.whole cc4_stg6_0 : Memref sig .tc .vmem S2000x128 .f32).view
abbrev VA4_0 : View sig .tc .vmem S1x128 .f32 := acc4_0.view
abbrev VA4_1 : View sig .tc .vmem S1x128 .f32 := acc4_1.view

/-- The scoped buffers no window stages, split at the two accumulators (each owned whole at some contents) and the
    unopened remainder. -/
theorem scopedRest4_acc (c : Dev nD) :
    (Pipeline.scopedRest (Ix := Unit) (Name := ℕ) (U := UR sig nD τ) (Lvl := ℕ) (Val := Elt F) spec4 c : sProp 𝕄)
      = iprop(iprop((∃ d, owns (c : Thread nD τ) acc4_0 fullShare d) ∗ (∃ d, owns (c : Thread nD τ) acc4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [acc4_0, acc4_1, owns_whole]; try rfl

end Cert.Kernel.Hand

end
-- ==== Proof.K.Reg4First.lean ====
import proofs.«172250_j15616501088594_1_alg».proof.Proof.K.Reg4Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- At the grid's FIRST point: the two accumulators, found at any contents, are cleared and then take this block's column
    sums; the results block is stored whole; the two one-row outputs are left as found.
    The lists are the stores each buffer ends with (last first), found by running the body; with them comes the proof
    that on whole memrefs holding the stated contents the body runs to any continuation that accepts the inputs as
    they were and every written buffer with its stores applied. -/
noncomputable def runFirst4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_acc_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc4__mlp_acc_kernel_eq_skeleton]; unfold cc4__mlp_acc_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Reg4Mid.lean ====
import proofs.«172250_j15616501088594_1_alg».proof.Proof.K.Reg4First

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- At a point that is neither first nor last: the two accumulators, found at what the point before left, take this
    block's column sums on top; the results block is stored whole; the two one-row outputs are left as found.
    The lists are the stores each buffer ends with (last first), found by running the body; with them comes the proof
    that on whole memrefs holding the stated contents the body runs to any continuation that accepts the inputs as
    they were and every written buffer with its stores applied. -/
noncomputable def runMid4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_acc_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc4__mlp_acc_kernel_eq_skeleton]; unfold cc4__mlp_acc_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Reg4Last.lean ====
import proofs.«172250_j15616501088594_1_alg».proof.Proof.K.Reg4Mid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- At the grid's LAST point: as in the middle, and then the two accumulators are copied whole into the two one-row
    outputs.
    The lists are the stores each buffer ends with (last first), found by running the body; with them comes the proof
    that on whole memrefs holding the stated contents the body runs to any continuation that accepts the inputs as
    they were and every written buffer with its stores applied. -/
noncomputable def runLast4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_acc_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc4__mlp_acc_kernel_eq_skeleton]; unfold cc4__mlp_acc_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Reg4.lean ====
import proofs.«172250_j15616501088594_1_alg».proof.Proof.K.Reg4Last

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The dense-layer kernel of call 4: its proof data and body obligation

From the three runs: what each leaves in the buffers it writes, the contents point by point (the accumulation), the
proof data whose invariant carries the two accumulators from point to point, the body obligation, and the invariant's
two ends (made from, and giving back, the scoped buffers no window stages). -/

variable (V : (c : Dev nD) → (b : Ref sig .tc) → Buf (Elt F) ((c : Thread nD τ).loc b))

/-! ## What each run leaves -/

/-- The stores the first run ends the results block with tile it, so they cover it. -/
theorem coverFirst4_z (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (y : S2000x128.Idx) :
    ∃ pc ∈ (runFirst4 c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (runFirst4 c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y
/-- What the first run leaves in the results block: its stores read back. -/
def zFirst4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) : Vec F S2000x128 .f32 :=
  VZ4.read (Elt F) (VZ4.writes (Elt F) VZ4.junk (runFirst4 c i arg1 harg1 arg2 harg2 arg3 harg3 arg4 harg4 arg5 harg5 arg6 harg6 arg7 harg7 arg8 harg8 arg9 harg9 arg10 harg10 arg11 harg11 hc0 hc1 x0 x1 x2 x3 x4 x5).1)

/-- The stores the first run ends the first accumulator with tile it, so they cover it. -/
theorem coverFirst4_acc0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (y : S1x128.Idx) :
    ∃ pc ∈ (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y
/-- What the first run leaves in the first accumulator: its stores read back. -/
def acc0First4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) : Vec F S1x128 .f32 :=
  VA4_0.read (Elt F) (VA4_0.writes (Elt F) VA4_0.junk (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.1)

/-- The stores the first run ends the second accumulator with tile it, so they cover it. -/
theorem coverFirst4_acc1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (y : S1x128.Idx) :
    ∃ pc ∈ (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y
/-- What the first run leaves in the second accumulator: its stores read back. -/
def acc1First4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) : Vec F S1x128 .f32 :=
  VA4_1.read (Elt F) (VA4_1.writes (Elt F) VA4_1.junk (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- The stores the middle run ends the results block with tile it, so they cover it. -/
theorem coverMid4_z (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S2000x128.Idx) :
    ∃ pc ∈ (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
/-- What the middle run leaves in the results block: its stores read back. -/
def zMid4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S2000x128 .f32 :=
  VZ4.read (Elt F) (VZ4.writes (Elt F) VZ4.junk (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The stores the middle run ends the first accumulator with tile it, so they cover it. -/
theorem coverMid4_acc0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What the middle run leaves in the first accumulator: its stores read back. -/
def acc0Mid4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA4_0.read (Elt F) (VA4_0.writes (Elt F) VA4_0.junk (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The stores the middle run ends the second accumulator with tile it, so they cover it. -/
theorem coverMid4_acc1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What the middle run leaves in the second accumulator: its stores read back. -/
def acc1Mid4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA4_1.read (Elt F) (VA4_1.writes (Elt F) VA4_1.junk (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The stores the last run ends the results block with tile it, so they cover it. -/
theorem coverLast4_z (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S2000x128.Idx) :
    ∃ pc ∈ (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
/-- What the last run leaves in the results block: its stores read back. -/
def zLast4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S2000x128 .f32 :=
  VZ4.read (Elt F) (VZ4.writes (Elt F) VZ4.junk (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The stores the last run ends the first one-row output with tile it, so they cover it. -/
theorem coverLast4_o7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What the last run leaves in the first one-row output: its stores read back. -/
def o7Last4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA4_0.read (Elt F) (VA4_0.writes (Elt F) VA4_0.junk (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The stores the last run ends the second one-row output with tile it, so they cover it. -/
theorem coverLast4_o8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What the last run leaves in the second one-row output: its stores read back. -/
def o8Last4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA4_1.read (Elt F) (VA4_1.writes (Elt F) VA4_1.junk (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The stores the last run ends the first accumulator with tile it, so they cover it. -/
theorem coverLast4_acc0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
/-- What the last run leaves in the first accumulator: its stores read back. -/
def acc0Last4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA4_0.read (Elt F) (VA4_0.writes (Elt F) VA4_0.junk (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The stores the last run ends the second accumulator with tile it, so they cover it. -/
theorem coverLast4_acc1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
/-- What the last run leaves in the second accumulator: its stores read back. -/
def acc1Last4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA4_1.read (Elt F) (VA4_1.writes (Elt F) VA4_1.junk (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The contents point by point -/

/-- THE ACCUMULATION. After the body at position `n`: the results block, the two one-row outputs (a placeholder away
    from the last point, where they are idle) and the two accumulators — the run of the point's case on the point's
    blocks, the accumulators entering at what position `n - 1` left. -/
def afterPt4 (c : Dev nD) : (n : ℕ) → n < cfg4.N → Vec F S2000x128 .f32 × Vec F S1x128 .f32 × Vec F S1x128 .f32 × Vec F S1x128 .f32 × Vec F S1x128 .f32
  | 0, hn => (zFirst4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) acc4_0 (Memref.isWhole_whole _) acc4_1 (Memref.isWhole_whole _) ((atFirst4_iff ⟨0, hn⟩).mpr rfl) (fun h => absurd ((atLast4_iff ⟨0, hn⟩).mp h) (by decide : ¬((0 : ℕ) = 49))) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), (VA4_0.read (Elt F) VA4_0.junk), (VA4_0.read (Elt F) VA4_0.junk), acc0First4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) acc4_0 (Memref.isWhole_whole _) acc4_1 (Memref.isWhole_whole _) ((atFirst4_iff ⟨0, hn⟩).mpr rfl) (fun h => absurd ((atLast4_iff ⟨0, hn⟩).mp h) (by decide : ¬((0 : ℕ) = 49))) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), acc1First4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) acc4_0 (Memref.isWhole_whole _) acc4_1 (Memref.isWhole_whole _) ((atFirst4_iff ⟨0, hn⟩).mpr rfl) (fun h => absurd ((atLast4_iff ⟨0, hn⟩).mp h) (by decide : ¬((0 : ℕ) = 49))) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h1 : n + 1 = 49 then
      (zLast4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) ((atLast4_iff ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2, o7Last4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) ((atLast4_iff ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2, o8Last4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) ((atLast4_iff ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2, acc0Last4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) ((atLast4_iff ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2, acc1Last4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) ((atLast4_iff ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2)
    else
      (zMid4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) (fun h => h1 ((atLast4_iff ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2, (VA4_0.read (Elt F) VA4_0.junk), (VA4_0.read (Elt F) VA4_0.junk), acc0Mid4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) (fun h => h1 ((atLast4_iff ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2, acc1Mid4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) (fun h => h1 ((atLast4_iff ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2)

/-- At the first point. -/
theorem afterPt4_first (c : Dev nD) (t : Fin cfg4.N) (h0 : t.val = 0) (h1 : t.val ≠ 49) :
    afterPt4 V c t.val t.isLt = (zFirst4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) ((atFirst4_iff t).mpr h0) (fun h => h1 ((atLast4_iff t).mp h)) (iblk4 V c 0 t) (iblk4 V c 1 t) (iblk4 V c 2 t) (iblk4 V c 3 t) (iblk4 V c 4 t) (iblk4 V c 5 t), (VA4_0.read (Elt F) VA4_0.junk), (VA4_0.read (Elt F) VA4_0.junk), acc0First4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) ((atFirst4_iff t).mpr h0) (fun h => h1 ((atLast4_iff t).mp h)) (iblk4 V c 0 t) (iblk4 V c 1 t) (iblk4 V c 2 t) (iblk4 V c 3 t) (iblk4 V c 4 t) (iblk4 V c 5 t), acc1First4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) ((atFirst4_iff t).mpr h0) (fun h => h1 ((atLast4_iff t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact absurd h0 (Nat.succ_ne_zero n)

/-- At a middle point, over what the point before left. -/
theorem afterPt4_mid (c : Dev nD) (t : Fin cfg4.N) (h0 : t.val ≠ 0) (h1 : t.val ≠ 49) :
    afterPt4 V c t.val t.isLt = (zMid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) (fun h => h1 ((atLast4_iff t).mp h)) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2, (VA4_0.read (Elt F) VA4_0.junk), (VA4_0.read (Elt F) VA4_0.junk), acc0Mid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) (fun h => h1 ((atLast4_iff t).mp h)) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2, acc1Mid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) (fun h => h1 ((atLast4_iff t).mp h)) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- At the last point, over what the point before left. -/
theorem afterPt4_last (c : Dev nD) (t : Fin cfg4.N) (h0 : t.val ≠ 0) (h1 : t.val = 49) :
    afterPt4 V c t.val t.isLt = (zLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) ((atLast4_iff t).mpr h1) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2, o7Last4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) ((atLast4_iff t).mpr h1) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2, o8Last4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) ((atLast4_iff t).mpr h1) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2, acc0Last4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) ((atLast4_iff t).mpr h1) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2, acc1Last4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) ((atLast4_iff t).mpr h1) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant -/

/-- What passes every point untouched: the generator register at some state, and every scoped buffer that is neither
    a staging buffer of this call nor one of its two accumulators. -/
def passes4 (c : Dev nD) : sProp 𝕄 :=
  iprop((∃ r, prngReg c r) ∗ Pipeline.scopedRestBut (Ix := Unit) (Name := ℕ) (U := UR sig nD τ) (Lvl := ℕ) (Val := Elt F) spec4 c [cc4_scratch0, cc4_scratch1])

/-- The region invariant before position `n`: before the first point the two accumulators at anything; afterwards at
    what the point before left in them. -/
def Inv4 (c : Dev nD) : (n : ℕ) → n ≤ cfg4.N → sProp 𝕄
  | 0, _ => iprop(iprop((∃ d, owns (c : Thread nD τ) acc4_0 fullShare d) ∗ (∃ d, owns (c : Thread nD τ) acc4_1 fullShare d)) ∗ passes4 (F := F) c)
  | n + 1, hn => iprop(iprop(owns (c : Thread nD τ) acc4_0 fullShare (afterPt4 V c n hn).2.2.2.1 ∗ owns (c : Thread nD τ) acc4_1 fullShare (afterPt4 V c n hn).2.2.2.2) ∗ passes4 (F := F) c)

theorem Inv4_zero (c : Dev nD) (n : ℕ) (h : n ≤ cfg4.N) (hz : n = 0) :
    Inv4 V c n h = iprop(iprop((∃ d, owns (c : Thread nD τ) acc4_0 fullShare d) ∗ (∃ d, owns (c : Thread nD τ) acc4_1 fullShare d)) ∗ passes4 (F := F) c) := by
  subst hz; rfl

theorem Inv4_succ (c : Dev nD) (n : ℕ) (hn : n < cfg4.N) :
    Inv4 V c (n + 1) hn = iprop(iprop(owns (c : Thread nD τ) acc4_0 fullShare (afterPt4 V c n hn).2.2.2.1 ∗ owns (c : Thread nD τ) acc4_1 fullShare (afterPt4 V c n hn).2.2.2.2) ∗ passes4 (F := F) c) := rfl

theorem Inv4_pos (c : Dev nD) (n : ℕ) (h : n ≤ cfg4.N) (hz : n ≠ 0) :
    Inv4 V c n h = iprop(iprop(owns (c : Thread nD τ) acc4_0 fullShare (afterPt4 V c (n - 1) (by omega)).2.2.2.1 ∗ owns (c : Thread nD τ) acc4_1 fullShare (afterPt4 V c (n - 1) (by omega)).2.2.2.2) ∗ passes4 (F := F) c) := by
  cases n with
  | zero => exact absurd rfl hz
  | succ n => rfl

/-! ## The proof data -/

/-- The proof data of call 4 on core `c`: the arrays as the region finds them; after the body at point `t` each
    input's buffer at its block, the results block and the one-row outputs at the accumulation's components; the
    invariant `Inv4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (afterPt4 V c t.val t.isLt).1
    | ⟨7, _⟩ => (afterPt4 V c t.val t.isLt).2.1
    | ⟨8, _⟩ => (afterPt4 V c t.val t.isLt).2.2.1
  Φ t := Inv4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The proof data holds every window at the full share and owes nothing. -/
theorem q_eq4 (c : Dev nD) (w : Fin cfg4.W) : (dat4 V c).q w = fullShare := rfl
theorem owed_eq4 (c : Dev nD) (t : Fin (cfg4.N + 1)) : (dat4 V c).owed t = 0 := rfl

theorem Inv4_castSucc (c : Dev nD) (t : Fin cfg4.N) :
    (dat4 V c).Φ t.castSucc = Inv4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (afterPt4 V c t.val t.isLt).1 := by dsimp only [dat4]
theorem after4_7 (c : Dev nD) (t : Fin cfg4.N) : (dat4 V c).after 7 t = (afterPt4 V c t.val t.isLt).2.1 := by dsimp only [dat4]
theorem after4_8 (c : Dev nD) (t : Fin cfg4.N) : (dat4 V c).after 8 t = (afterPt4 V c t.val t.isLt).2.2.1 := by dsimp only [dat4]

theorem held4_0 (c : Dev nD) (t : Fin cfg4.N) (d) : (dat4 V c).before 0 t d = iblk4 V c 0 t :=
  held4_0_of V (dat4 V c) (A_eq4 V c 0) (after4_0 V c) t d
theorem held4_1 (c : Dev nD) (t : Fin cfg4.N) (d) : (dat4 V c).before 1 t d = iblk4 V c 1 t :=
  held4_1_of V (dat4 V c) (A_eq4 V c 1) (after4_1 V c) t d
theorem held4_2 (c : Dev nD) (t : Fin cfg4.N) (d) : (dat4 V c).before 2 t d = iblk4 V c 2 t :=
  held4_2_of V (dat4 V c) (A_eq4 V c 2) (after4_2 V c) t d
theorem held4_3 (c : Dev nD) (t : Fin cfg4.N) (d) : (dat4 V c).before 3 t d = iblk4 V c 3 t :=
  held4_3_of V (dat4 V c) (A_eq4 V c 3) (after4_3 V c) t d
theorem held4_4 (c : Dev nD) (t : Fin cfg4.N) (d) : (dat4 V c).before 4 t d = iblk4 V c 4 t :=
  held4_4_of V (dat4 V c) (A_eq4 V c 4) (after4_4 V c) t d
theorem held4_5 (c : Dev nD) (t : Fin cfg4.N) (d) : (dat4 V c).before 5 t d = iblk4 V c 5 t :=
  held4_5_of V (dat4 V c) (A_eq4 V c 5) (after4_5 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body at any point. The inputs' memrefs hold their blocks; the point is first, middle or last, and the run of that
    case applies: the invariant hands it the two accumulators (at anything before the first point, at what the point
    before left afterwards) and takes them back at this point's contents; away from the last point the one-row outputs
    go back as they came; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [held4_0, held4_1, held4_2, held4_3, held4_4, held4_5]
  rw [show (dat4 V c).owesAt () t.succ = (dat4 V c).owesAt () t.castSucc from rfl]
  rw [show (dat4 V c).Φ t.succ = Inv4 V c (t.val + 1) t.isLt from rfl, Inv4_succ]
  have hN : t.val < 50 := lt_of_lt_of_eq t.isLt (show cfg4.N = 50 from N_4)
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  rw [show (dat4 V c).leavesExact 4 t = owns (c : Thread nD τ) (ms4_4 t) fullShare ((dat4 V c).after 4 t) from by
    unfold Dat.leavesExact; rw [live4_4 t], after4_4]
  rw [show (dat4 V c).leavesExact 5 t = owns (c : Thread nD τ) (ms4_5 t) fullShare ((dat4 V c).after 5 t) from by
    unfold Dat.leavesExact; rw [live4_5 t], after4_5]
  rw [show (dat4 V c).leavesExact 6 t = owns (c : Thread nD τ) (ms4_6 t) fullShare ((dat4 V c).after 6 t) from by
    unfold Dat.leavesExact; rw [live4_6 t], after4_6]
  by_cases h0 : t.val = 0
  · have h1 : t.val ≠ 49 := by omega
    rw [Dat.leavesExact_idle (dat4 V c) 7 t (idle4_7 t (fun h => h1 ((atLast4_iff t).mp h))) (noFlush4_7 t (fun h => h1 ((atLast4_iff t).mp h)))]
    rw [Dat.leavesExact_idle (dat4 V c) 8 t (idle4_8 t (fun h => h1 ((atLast4_iff t).mp h))) (noFlush4_8 t (fun h => h1 ((atLast4_iff t).mp h)))]
    rw [afterPt4_first V c t h0 h1]
    unfold zFirst4 acc0First4 acc1First4; (try dsimp only)
    rw [Inv4_castSucc V c t, Inv4_zero V c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst4 c (grid4.coords t) _ _ _ _ _ _ _ _ _ _ _ _ _ _ _ _ _ _ _ _ _ _ ((atFirst4_iff t).mpr h0) (fun h => h1 ((atLast4_iff t).mp h)) (iblk4 V c 0 t) (iblk4 V c 1 t) (iblk4 V c 2 t) (iblk4 V c 3 t) (iblk4 V c 4 t) (iblk4 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (coverFirst4_acc0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (coverFirst4_acc1 c _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverFirst4_z c _ _ _ _ _ _ _ _ _ _ _ _ _ _ _ _ _ _ _ _ _ _ _ _ _ _ _ _ _ _ _)
    isplitl [H7]; · iexists _; iexact H7
    iexists _; iexact H8
  · by_cases h1 : t.val = 49
    · rw [show (dat4 V c).leavesExact 7 t = owns (c : Thread nD τ) (ms4_7 t) fullShare ((dat4 V c).after 7 t) from by
        unfold Dat.leavesExact; rw [live4_7 t ((atLast4_iff t).mpr h1)], after4_7]
      rw [show (dat4 V c).leavesExact 8 t = owns (c : Thread nD τ) (ms4_8 t) fullShare ((dat4 V c).after 8 t) from by
        unfold Dat.leavesExact; rw [live4_8 t ((atLast4_iff t).mpr h1)], after4_8]
      rw [afterPt4_last V c t h0 h1]
      unfold zLast4 acc0Last4 acc1Last4 o7Last4 o8Last4; (try dsimp only)
      rw [Inv4_castSucc V c t, Inv4_pos V c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast4 c (grid4.coords t) _ _ _ _ _ _ _ _ _ _ _ _ _ _ _ _ _ _ _ _ _ _ (fun h => h0 ((atFirst4_iff t).mp h)) ((atLast4_iff t).mpr h1) (iblk4 V c 0 t) (iblk4 V c 1 t) (iblk4 V c 2 t) (iblk4 V c 3 t) (iblk4 V c 4 t) (iblk4 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLast4_acc0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverLast4_acc1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverLast4_z c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (coverLast4_o7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (coverLast4_o8 c _ _ _ _ _ _ _ _ _ _ _ _ _ _ _ _ _ _ _ _ _ _ _ _ _ _ _ _ _ _ _ _ _)

    · rw [Dat.leavesExact_idle (dat4 V c) 7 t (idle4_7 t (fun h => h1 ((atLast4_iff t).mp h))) (noFlush4_7 t (fun h => h1 ((atLast4_iff t).mp h)))]
      rw [Dat.leavesExact_idle (dat4 V c) 8 t (idle4_8 t (fun h => h1 ((atLast4_iff t).mp h))) (noFlush4_8 t (fun h => h1 ((atLast4_iff t).mp h)))]
      rw [afterPt4_mid V c t h0 h1]
      unfold zMid4 acc0Mid4 acc1Mid4; (try dsimp only)
      rw [Inv4_castSucc V c t, Inv4_pos V c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid4 c (grid4.coords t) _ _ _ _ _ _ _ _ _ _ _ _ _ _ _ _ _ _ _ _ _ _ (fun h => h0 ((atFirst4_iff t).mp h)) (fun h => h1 ((atLast4_iff t).mp h)) (iblk4 V c 0 t) (iblk4 V c 1 t) (iblk4 V c 2 t) (iblk4 V c 3 t) (iblk4 V c 4 t) (iblk4 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMid4_acc0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverMid4_acc1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverMid4_z c _ _ _ _ _ _ _ _ _ _ _ _ _ _ _ _ _ _ _ _ _ _ _ _ _ _ _ _ _ _ _ _ _)
      isplitl [H7]; · iexists _; iexact H7
      iexists _; iexact H8

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## The invariant's two ends -/

/-- The generator register and the scoped buffers no window stages make the invariant before the first point. -/
theorem hin4 (c : Dev nD) :
    iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = Inv4 V c 0 (Nat.zero_le _) from rfl, Inv4_zero V c 0 _ rfl, scopedRest4_acc]
  unfold passes4
  iintro ⟨Hp, ⟨HS0, HS1⟩, Hr⟩
  isplitl [HS0 HS1]
  · isplitl [HS0]; · iexact HS0
    iexact HS1
  isplitl [Hp]; · iexact Hp
  iexact Hr

/-- After any point the invariant gives them back, the accumulators' contents forgotten. -/
theorem Inv4_out (c : Dev nD) (t : Fin (cfg4.N + 1)) (ht : t.val ≠ 0) :
    (dat4 V c).Φ t ⊢ iprop((∃ r, prngReg c r) ∗ Pipeline.scopedRest (Ix := Unit) (Name := ℕ) (U := UR sig nD τ) (Lvl := ℕ) (Val := Elt F) spec4 c) := by
  rw [show (dat4 V c).Φ t = Inv4 V c t.val (Nat.le_of_lt_succ t.isLt) from rfl, Inv4_pos V c _ _ ht, scopedRest4_acc]
  unfold passes4
  iintro ⟨⟨HS0, HS1⟩, Hp, Hr⟩
  isplitl [Hp]; · iexact Hp
  isplitl [HS0 HS1]
  · isplitl [HS0]; · iexists _; iexact HS0
    iexists _; iexact HS1
  iexact Hr

/-- In particular after the last point. -/
theorem hout4 (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) :=
  Inv4_out V c _ (by rw [Fin.val_last]; have : cfg4.N = 50 := N_4; omega)

end Cert.Kernel.Hand

end
-- ==== Proof.K.Reg1.lean ====
import proofs.«172250_j15616501088594_1_alg».proof.Proof.Gen.Kernel.Launch
import proofs.«172250_j15616501088594_1_alg».proof.Proof.Gen.Kernel.Skeleton
import proofs.«172250_j15616501088594_1_alg».proof.Proof.Gen.Kernel.Points
import Idealize.ShloMosaic.Lib.Pipeline.FrameBody
import Idealize.ShloMosaic.Lib.Ring
import Idealize.ShloMosaic.Lib.Tactic

/-!
# The normalise-and-clamp region 1: what its body leaves, and its body obligation

The region's grid has 50 points; point `t` works on rows `2000·t … 2000·t + 1999` of a `100000 × 128` array
`z` and on two whole `1 × 128` rows `scale`, `shift`. Its body reads the three blocks whole, forms
`max (z · scale + shift) 0` entry by entry (the rows broadcast down the block) and stores the result whole into the
block of the output array. Nothing is carried from one point to the next.

Everything is stated at a PARAMETER `V`: the contents of the core's buffers when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the region finds it. -/
def block1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The body's accesses: every load and the one store take a staging buffer whole -/

/-- A `2000 × 128` buffer, whole. -/
abbrev rows1 : Rect S2000x128 := Rect.unit (s := S2000x128) ![0, 0] S2000x128.size inb_S2000x128_S2000x128_0_0
/-- A `1 × 128` buffer, whole. -/
abbrev lane1 : Rect S1x128 := Rect.unit (s := S1x128) ![0, 0] S1x128.size inb_S1x128_S1x128_0_0

/-! ## What the body leaves in the output's staging buffer -/

/-- The output block from the three input blocks: the one store's payload, `max (z · scale + shift) 0` with the two
    rows broadcast, laid over the whole buffer. -/
def normed1 (z : Vec F S2000x128 .f32) (scale : Vec F S1x128 .f32) (shift : Vec F S1x128 .f32) : Vec F S2000x128 .f32 :=
  View.canon [⟨rows1, k1_pay1 (View.ld z rows1) (View.ld scale lane1) (View.ld shift lane1)⟩]

/-- The store takes the whole buffer, so it covers every index. -/
theorem store_covers1 (p : Vec F S2000x128 .f32) (y : S2000x128.Idx) :
    ∃ pc ∈ ([⟨rows1, p⟩] : List (View.Piece (Elt F) S2000x128 .f32)), y ∈ pc.1.set :=
  View.cover_of_tiled [⟨rows1, p⟩] S2000x128.size (by rfl) y

/-! ## The body's triple -/

set_option maxHeartbeats 1000000 in
/-- The body on four whole staging buffers — the inputs' at read contents `z`, `scale`, `shift`, the output's at
    anything — runs to the continuation with the inputs as they were and the output at `normed1 z scale shift`. -/
theorem kernel_triple1 (c : Dev nD) (E : Set ℕ) (i : grid1.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (z : Vec F S2000x128 .f32) (scale : Vec F S1x128 .f32) (shift : Vec F S1x128 .f32) (K : PUnit → sProp 𝕄) :
    iprop(owns (c : Thread nD τ) arg1 fullShare z ∗ owns (c : Thread nD τ) arg2 fullShare scale
        ∗ owns (c : Thread nD τ) arg3 fullShare shift ∗ (∃ d, owns (c : Thread nD τ) arg4 fullShare d)
        ∗ (iprop(owns (c : Thread nD τ) arg1 fullShare z ∗ owns (c : Thread nD τ) arg2 fullShare scale
            ∗ owns (c : Thread nD τ) arg3 fullShare shift
            ∗ owns (c : Thread nD τ) arg4 fullShare (normed1 z scale shift)) -∗ K ⟨⟩))
      ⊢ wp frame (wpE (defs₀ (F := F)) Variants.none c none) E
          (cc1__bn_relu_kernel i arg1 harg1 arg2 harg2 arg3 harg3 arg4 harg4) K := by
  simp only [cc1__bn_relu_kernel_eq_skeleton]; unfold cc1__bn_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers1 _)

/-! ## The region's proof data -/

/-- The proof data of the region on core `c`: the arrays as the region finds them; after the body at point `t` each
    input's buffer still at its block and the output's at `normed1` of the three blocks; the invariant is the
    scoped rest and the generator register, untouched; full shares; nothing owed. -/
def dat1 (c : Dev nD) : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => block1 V c 2 t
    | ⟨3, _⟩ => normed1 (block1 V c 0 t) (block1 V c 1 t) (block1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = block1 V c 0 t := by dsimp only [dat1]
theorem after1_1 (c : Dev nD) (t : Fin cfg1.N) : (dat1 V c).after 1 t = block1 V c 1 t := by dsimp only [dat1]
theorem after1_2 (c : Dev nD) (t : Fin cfg1.N) : (dat1 V c).after 2 t = block1 V c 2 t := by dsimp only [dat1]
theorem after1_3 (c : Dev nD) (t : Fin cfg1.N) :
    (dat1 V c).after 3 t = normed1 (block1 V c 0 t) (block1 V c 1 t) (block1 V c 2 t) := by dsimp only [dat1]

/-- Each input's staging buffer holds the window's block when the body is called — also at the points where the
    pipeline does not fetch it, because there the block index has not moved and the body left the block in place. -/
theorem before1_0 (c : Dev nD) (t : Fin cfg1.N) (d) : (dat1 V c).before 0 t d = block1 V c 0 t :=
  ((dat1 V c).before_in_eq_fetched 0 rfl (fun _ => rfl) (fun _ _ _ => rfl)
      (fun t => by rw [after1_0]; unfold Dat.blockOf block1; rw [A_eq1]; try rfl) t d).trans
    (by unfold Dat.fetched Dat.blockOf block1; rw [A_eq1]; try rfl)
theorem before1_1 (c : Dev nD) (t : Fin cfg1.N) (d) : (dat1 V c).before 1 t d = block1 V c 1 t :=
  ((dat1 V c).before_in_eq_fetched 1 rfl (fun _ => rfl) (fun _ _ _ => rfl)
      (fun t => by rw [after1_1]; unfold Dat.blockOf block1; rw [A_eq1]; try rfl) t d).trans
    (by unfold Dat.fetched Dat.blockOf block1; rw [A_eq1]; try rfl)
theorem before1_2 (c : Dev nD) (t : Fin cfg1.N) (d) : (dat1 V c).before 2 t d = block1 V c 2 t :=
  ((dat1 V c).before_in_eq_fetched 2 rfl (fun _ => rfl) (fun _ _ _ => rfl)
      (fun t => by rw [after1_2]; unfold Dat.blockOf block1; rw [A_eq1]; try rfl) t d).trans
    (by unfold Dat.fetched Dat.blockOf block1; rw [A_eq1]; try rfl)

/-! ## The body obligation -/

/-- What the body is called with at point `t`: the invariant, the core's debts, and the four current staging
    buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    the core's debts pass through unread. -/
theorem body_triple1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (kernel_triple1 c Set.univ _ _ _ _ _ _ _ _ _ (block1 V c 0 t) (block1 V c 1 t) (block1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) :
    BodyObligation (dat1 (F := F) V c) (defs₀ (F := F)) Variants.none () Set.univ := fun t => by
  rw [bigSep_W1, bigSep_W1]
  exact body_triple1 V c t

end Cert.Kernel.Hand
-- ==== Proof.K.Reg3.lean ====
import proofs.«172250_j15616501088594_1_alg».proof.Proof.Gen.Kernel.Launch
import proofs.«172250_j15616501088594_1_alg».proof.Proof.Gen.Kernel.Skeleton
import proofs.«172250_j15616501088594_1_alg».proof.Proof.Gen.Kernel.Points
import Idealize.ShloMosaic.Lib.Pipeline.FrameBody
import Idealize.ShloMosaic.Lib.Ring
import Idealize.ShloMosaic.Lib.Tactic

/-!
# The normalise-and-clamp region 3: what its body leaves, and its body obligation

The region's grid has 50 points; point `t` works on rows `2000·t … 2000·t + 1999` of a `100000 × 128` array
`z` and on two whole `1 × 128` rows `scale`, `shift`. Its body reads the three blocks whole, forms
`max (z · scale + shift) 0` entry by entry (the rows broadcast down the block) and stores the result whole into the
block of the output array. Nothing is carried from one point to the next.

Everything is stated at a PARAMETER `V`: the contents of the core's buffers when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the region finds it. -/
def block3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-! ## The body's accesses: every load and the one store take a staging buffer whole -/

/-- A `2000 × 128` buffer, whole. -/
abbrev rows3 : Rect S2000x128 := Rect.unit (s := S2000x128) ![0, 0] S2000x128.size inb_S2000x128_S2000x128_0_0
/-- A `1 × 128` buffer, whole. -/
abbrev lane3 : Rect S1x128 := Rect.unit (s := S1x128) ![0, 0] S1x128.size inb_S1x128_S1x128_0_0

/-! ## What the body leaves in the output's staging buffer -/

/-- The output block from the three input blocks: the one store's payload, `max (z · scale + shift) 0` with the two
    rows broadcast, laid over the whole buffer. -/
def normed3 (z : Vec F S2000x128 .f32) (scale : Vec F S1x128 .f32) (shift : Vec F S1x128 .f32) : Vec F S2000x128 .f32 :=
  View.canon [⟨rows3, k3_pay1 (View.ld z rows3) (View.ld scale lane3) (View.ld shift lane3)⟩]

/-- The store takes the whole buffer, so it covers every index. -/
theorem store_covers3 (p : Vec F S2000x128 .f32) (y : S2000x128.Idx) :
    ∃ pc ∈ ([⟨rows3, p⟩] : List (View.Piece (Elt F) S2000x128 .f32)), y ∈ pc.1.set :=
  View.cover_of_tiled [⟨rows3, p⟩] S2000x128.size (by rfl) y

/-! ## The body's triple -/

set_option maxHeartbeats 1000000 in
/-- The body on four whole staging buffers — the inputs' at read contents `z`, `scale`, `shift`, the output's at
    anything — runs to the continuation with the inputs as they were and the output at `normed3 z scale shift`. -/
theorem kernel_triple3 (c : Dev nD) (E : Set ℕ) (i : grid3.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (z : Vec F S2000x128 .f32) (scale : Vec F S1x128 .f32) (shift : Vec F S1x128 .f32) (K : PUnit → sProp 𝕄) :
    iprop(owns (c : Thread nD τ) arg1 fullShare z ∗ owns (c : Thread nD τ) arg2 fullShare scale
        ∗ owns (c : Thread nD τ) arg3 fullShare shift ∗ (∃ d, owns (c : Thread nD τ) arg4 fullShare d)
        ∗ (iprop(owns (c : Thread nD τ) arg1 fullShare z ∗ owns (c : Thread nD τ) arg2 fullShare scale
            ∗ owns (c : Thread nD τ) arg3 fullShare shift
            ∗ owns (c : Thread nD τ) arg4 fullShare (normed3 z scale shift)) -∗ K ⟨⟩))
      ⊢ wp frame (wpE (defs₀ (F := F)) Variants.none c none) E
          (cc3__bn_relu_kernel i arg1 harg1 arg2 harg2 arg3 harg3 arg4 harg4) K := by
  simp only [cc3__bn_relu_kernel_eq_skeleton]; unfold cc3__bn_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers3 _)

/-! ## The region's proof data -/

/-- The proof data of the region on core `c`: the arrays as the region finds them; after the body at point `t` each
    input's buffer still at its block and the output's at `normed3` of the three blocks; the invariant is the
    scoped rest and the generator register, untouched; full shares; nothing owed. -/
def dat3 (c : Dev nD) : Dat τ (Elt F) Unit ℕ (UR sig nD τ) ℕ cfg3 c where
  A w := V c (Pipeline.arrRef spec3 w)
  after w t := match w with
    | ⟨0, _⟩ => block3 V c 0 t
    | ⟨1, _⟩ => block3 V c 1 t
    | ⟨2, _⟩ => block3 V c 2 t
    | ⟨3, _⟩ => normed3 (block3 V c 0 t) (block3 V c 1 t) (block3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = block3 V c 0 t := by dsimp only [dat3]
theorem after3_1 (c : Dev nD) (t : Fin cfg3.N) : (dat3 V c).after 1 t = block3 V c 1 t := by dsimp only [dat3]
theorem after3_2 (c : Dev nD) (t : Fin cfg3.N) : (dat3 V c).after 2 t = block3 V c 2 t := by dsimp only [dat3]
theorem after3_3 (c : Dev nD) (t : Fin cfg3.N) :
    (dat3 V c).after 3 t = normed3 (block3 V c 0 t) (block3 V c 1 t) (block3 V c 2 t) := by dsimp only [dat3]

/-- Each input's staging buffer holds the window's block when the body is called — also at the points where the
    pipeline does not fetch it, because there the block index has not moved and the body left the block in place. -/
theorem before3_0 (c : Dev nD) (t : Fin cfg3.N) (d) : (dat3 V c).before 0 t d = block3 V c 0 t :=
  ((dat3 V c).before_in_eq_fetched 0 rfl (fun _ => rfl) (fun _ _ _ => rfl)
      (fun t => by rw [after3_0]; unfold Dat.blockOf block3; rw [A_eq3]; try rfl) t d).trans
    (by unfold Dat.fetched Dat.blockOf block3; rw [A_eq3]; try rfl)
theorem before3_1 (c : Dev nD) (t : Fin cfg3.N) (d) : (dat3 V c).before 1 t d = block3 V c 1 t :=
  ((dat3 V c).before_in_eq_fetched 1 rfl (fun _ => rfl) (fun _ _ _ => rfl)
      (fun t => by rw [after3_1]; unfold Dat.blockOf block3; rw [A_eq3]; try rfl) t d).trans
    (by unfold Dat.fetched Dat.blockOf block3; rw [A_eq3]; try rfl)
theorem before3_2 (c : Dev nD) (t : Fin cfg3.N) (d) : (dat3 V c).before 2 t d = block3 V c 2 t :=
  ((dat3 V c).before_in_eq_fetched 2 rfl (fun _ => rfl) (fun _ _ _ => rfl)
      (fun t => by rw [after3_2]; unfold Dat.blockOf block3; rw [A_eq3]; try rfl) t d).trans
    (by unfold Dat.fetched Dat.blockOf block3; rw [A_eq3]; try rfl)

/-! ## The body obligation -/

/-- What the body is called with at point `t`: the invariant, the core's debts, and the four current staging
    buffers, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and
    the core's debts pass through unread. -/
theorem body_triple3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (kernel_triple3 c Set.univ _ _ _ _ _ _ _ _ _ (block3 V c 0 t) (block3 V c 1 t) (block3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) :
    BodyObligation (dat3 (F := F) V c) (defs₀ (F := F)) Variants.none () Set.univ := fun t => by
  rw [bigSep_W3, bigSep_W3]
  exact body_triple3 V c t

end Cert.Kernel.Hand
-- ==== Proof.K.Reg5.lean ====
import proofs.«172250_j15616501088594_1_alg».proof.Proof.Gen.Kernel.Launch
import proofs.«172250_j15616501088594_1_alg».proof.Proof.Gen.Kernel.Skeleton
import proofs.«172250_j15616501088594_1_alg».proof.Proof.Gen.Kernel.Points
import Idealize.ShloMosaic.Lib.Pipeline.FrameBody
import Idealize.ShloMosaic.Lib.Ring
import Idealize.ShloMosaic.Lib.Tactic

/-!
# The normalise-and-clamp region 5: what its body leaves, and its body obligation

The region's grid has 50 points; point `t` works on rows `2000·t … 2000·t + 1999` of a `100000 × 128` array
`z` and on two whole `1 × 128` rows `scale`, `shift`. Its body reads the three blocks whole, forms
`max (z · scale + shift) 0` entry by entry (the rows broadcast down the block) and stores the result whole into the
block of the output array. Nothing is carried from one point to the next.

Everything is stated at a PARAMETER `V`: the contents of the core's buffers when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the region finds it. -/
def block5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-! ## The body's accesses: every load and the one store take a staging buffer whole -/

/-- A `2000 × 128` buffer, whole. -/
abbrev rows5 : Rect S2000x128 := Rect.unit (s := S2000x128) ![0, 0] S2000x128.size inb_S2000x128_S2000x128_0_0
/-- A `1 × 128` buffer, whole. -/
abbrev lane5 : Rect S1x128 := Rect.unit (s := S1x128) ![0, 0] S1x128.size inb_S1x128_S1x128_0_0

/-! ## What the body leaves in the output's staging buffer -/

/-- The output block from the three input blocks: the one store's payload, `max (z · scale + shift) 0` with the two
    rows broadcast, laid over the whole buffer. -/
def normed5 (z : Vec F S2000x128 .f32) (scale : Vec F S1x128 .f32) (shift : Vec F S1x128 .f32) : Vec F S2000x128 .f32 :=
  View.canon [⟨rows5, k5_pay1 (View.ld z rows5) (View.ld scale lane5) (View.ld shift lane5)⟩]

/-- The store takes the whole buffer, so it covers every index. -/
theorem store_covers5 (p : Vec F S2000x128 .f32) (y : S2000x128.Idx) :
    ∃ pc ∈ ([⟨rows5, p⟩] : List (View.Piece (Elt F) S2000x128 .f32)), y ∈ pc.1.set :=
  View.cover_of_tiled [⟨rows5, p⟩] S2000x128.size (by rfl) y

/-! ## The body's triple -/

set_option maxHeartbeats 1000000 in
/-- The body on four whole staging buffers — the inputs' at read contents `z`, `scale`, `shift`, the output's at
    anything — runs to the continuation with the inputs as they were and the output at `normed5 z scale shift`. -/
theorem kernel_triple5 (c : Dev nD) (E : Set ℕ) (i : grid5.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (z : Vec F S2000x128 .f32) (scale : Vec F S1x128 .f32) (shift : Vec F S1x128 .f32) (K : PUnit → sProp 𝕄) :
    iprop(owns (c : Thread nD τ) arg1 fullShare z ∗ owns (c : Thread nD τ) arg2 fullShare scale
        ∗ owns (c : Thread nD τ) arg3 fullShare shift ∗ (∃ d, owns (c : Thread nD τ) arg4 fullShare d)
        ∗ (iprop(owns (c : Thread nD τ) arg1 fullShare z ∗ owns (c : Thread nD τ) arg2 fullShare scale
            ∗ owns (c : Thread nD τ) arg3 fullShare shift
            ∗ owns (c : Thread nD τ) arg4 fullShare (normed5 z scale shift)) -∗ K ⟨⟩))
      ⊢ wp frame (wpE (defs₀ (F := F)) Variants.none c none) E
          (cc5__bn_relu_kernel i arg1 harg1 arg2 harg2 arg3 harg3 arg4 harg4) K := by
  simp only [cc5__bn_relu_kernel_eq_skeleton]; unfold cc5__bn_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers5 _)

/-! ## The region's proof data -/

/-- The proof data of the region on core `c`: the arrays as the region finds them; after the body at point `t` each
    input's buffer still at its block and the output's at `normed5` of the three blocks; the invariant is the
    scoped rest and the generator register, untouched; full shares; nothing owed. -/
def dat5 (c : Dev nD) : Dat τ (Elt F) Unit ℕ (UR sig nD τ) ℕ cfg5 c where
  A w := V c (Pipeline.arrRef spec5 w)
  after w t := match w with
    | ⟨0, _⟩ => block5 V c 0 t
    | ⟨1, _⟩ => block5 V c 1 t
    | ⟨2, _⟩ => block5 V c 2 t
    | ⟨3, _⟩ => normed5 (block5 V c 0 t) (block5 V c 1 t) (block5 V c 2 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = block5 V c 0 t := by dsimp only [dat5]
theorem after5_1 (c : Dev nD) (t : Fin cfg5.N) : (dat5 V c).after 1 t = block5 V c 1 t := by dsimp only [dat5]
theorem after5_2 (c : Dev nD) (t : Fin cfg5.N) : (dat5 V c).after 2 t = block5 V c 2 t := by dsimp only [dat5]
theorem after5_3 (c : Dev nD) (t : Fin cfg5.N) :
    (dat5 V c).after 3 t = normed5 (block5 V c 0 t) (block5 V c 1 t) (block5 V c 2 t) := by dsimp only [dat5]

/-- Each input's staging buffer holds the window's block when the body is called — also at the points where the
    pipeline does not fetch it, because there the block index has not moved and the body left the block in place. -/
theorem before5_0 (c : Dev nD) (t : Fin cfg5.N) (d) : (dat5 V c).before 0 t d = block5 V c 0 t :=
  ((dat5 V c).before_in_eq_fetched 0 rfl (fun _ => rfl) (fun _ _ _ => rfl)
      (fun t => by rw [after5_0]; unfold Dat.blockOf block5; rw [A_eq5]; try rfl) t d).trans
    (by unfold Dat.fetched Dat.blockOf block5; rw [A_eq5]; try rfl)
theorem before5_1 (c : Dev nD) (t : Fin cfg5.N) (d) : (dat5 V c).before 1 t d = block5 V c 1 t :=
  ((dat5 V c).before_in_eq_fetched 1 rfl (fun _ => rfl) (fun _ _ _ => rfl)
      (fun t => by rw [after5_1]; unfold Dat.blockOf block5; rw [A_eq5]; try rfl) t d).trans
    (by unfold Dat.fetched Dat.blockOf block5; rw [A_eq5]; try rfl)
theorem before5_2 (c : Dev nD) (t : Fin cfg5.N) (d) : (dat5 V c).before 2 t d = block5 V c 2 t :=
  ((dat5 V c).before_in_eq_fetched 2 rfl (fun _ => rfl) (fun _ _ _ => rfl)
      (fun t => by rw [after5_2]; unfold Dat.blockOf block5; rw [A_eq5]; try rfl) t d).trans
    (by unfold Dat.fetched Dat.blockOf block5; rw [A_eq5]; try rfl)

/-! ## The body obligation -/

/-- What the body is called with at point `t`: the invariant, the core's debts, and the four current staging
    buffers, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and
    the core's debts pass through unread. -/
theorem body_triple5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (kernel_triple5 c Set.univ _ _ _ _ _ _ _ _ _ (block5 V c 0 t) (block5 V c 1 t) (block5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) :
    BodyObligation (dat5 (F := F) V c) (defs₀ (F := F)) Variants.none () Set.univ := fun t => by
  rw [bigSep_W5, bigSep_W5]
  exact body_triple5 V c t

end Cert.Kernel.Hand
-- ==== Proof.K.Chain.lean ====
/-
  The contents of the core's buffers between the items of the program — the launch contents, each host stretch
  applied in turn, and after each kernel region its output arrays at what the region's write-backs leave (the
  region's proof data read at the last grid point) — and the fact that the program's valuations between items,
  taken at exactly these region outputs, are these contents.
-/
import proofs.«172250_j15616501088594_1_alg».proof.Proof.Gen.Kernel.Regions
import proofs.«172250_j15616501088594_1_alg».proof.Proof.K.Reg0
import proofs.«172250_j15616501088594_1_alg».proof.Proof.K.Reg2
import proofs.«172250_j15616501088594_1_alg».proof.Proof.K.Reg4
import proofs.«172250_j15616501088594_1_alg».proof.Proof.K.Reg1
import proofs.«172250_j15616501088594_1_alg».proof.Proof.K.Reg3
import proofs.«172250_j15616501088594_1_alg».proof.Proof.K.Reg5

set_option maxRecDepth 16384

noncomputable section

namespace Cert.Kernel.Hand

open Cert.Kernel Cert.Kernel.Gen
open Idealize.ShloMosaic Idealize.ShloMosaic.TcCoe
open Idealize.ShloMosaic.Pipeline (Dat)

variable {F : FTy → Type} [FloatOps F]
variable (m : (ℓ : Loc nD τ sig) → Buf (Elt F) ℓ)

/-- A valuation per core, read at the TensorCore's references: the form a region's proof data take. -/
abbrev atTc (W : Dev nD → Valuation τ sig (Elt F)) : (c : Dev nD) → (b : Ref sig .tc) → Buf (Elt F) ((c : Thread nD τ).loc b) :=
  fun c b => W c b

/-- The buffers when region 0 is entered: the launch contents after the first host stretch. -/
abbrev X1 (c : Dev nD) : Valuation τ sig (Elt F) := StableHlo.after hostOps0 (fun b => m (c, b))

/-- The buffers when region 0 is left: its output arrays at what its write-backs leave, everything else as entered. -/
def X2 (c : Dev nD) : Valuation τ sig (Elt F) :=
  Function.update (Function.update (Function.update (X1 m c) main_v18_0 ((dat0 (atTc (X1 m)) c).arrAt 6 cfg0.N)) main_v18_1 ((dat0 (atTc (X1 m)) c).arrAt 7 cfg0.N)) main_v18_2 ((dat0 (atTc (X1 m)) c).arrAt 8 cfg0.N)
/-- The buffers after the host stretch that follows region 0. -/
abbrev X3 (c : Dev nD) : Valuation τ sig (Elt F) := StableHlo.after hostOps1 (X2 m c)

/-- The buffers when region 1 is left: its output arrays at what its write-backs leave, everything else as entered. -/
def X4 (c : Dev nD) : Valuation τ sig (Elt F) :=
  Function.update (X3 m c) main_v35 ((dat1 (atTc (X3 m)) c).arrAt 3 cfg1.N)
/-- The buffers after the host stretch that follows region 1. -/
abbrev X5 (c : Dev nD) : Valuation τ sig (Elt F) := StableHlo.after hostOps2 (X4 m c)

/-- The buffers when region 2 is left: its output arrays at what its write-backs leave, everything else as entered. -/
def X6 (c : Dev nD) : Valuation τ sig (Elt F) :=
  Function.update (Function.update (Function.update (X5 m c) main_v62_0 ((dat2 (atTc (X5 m)) c).arrAt 6 cfg2.N)) main_v62_1 ((dat2 (atTc (X5 m)) c).arrAt 7 cfg2.N)) main_v62_2 ((dat2 (atTc (X5 m)) c).arrAt 8 cfg2.N)
/-- The buffers after the host stretch that follows region 2. -/
abbrev X7 (c : Dev nD) : Valuation τ sig (Elt F) := StableHlo.after hostOps3 (X6 m c)

/-- The buffers when region 3 is left: its output arrays at what its write-backs leave, everything else as entered. -/
def X8 (c : Dev nD) : Valuation τ sig (Elt F) :=
  Function.update (X7 m c) main_v79 ((dat3 (atTc (X7 m)) c).arrAt 3 cfg3.N)
/-- The buffers after the host stretch that follows region 3. -/
abbrev X9 (c : Dev nD) : Valuation τ sig (Elt F) := StableHlo.after hostOps4 (X8 m c)

/-- The buffers when region 4 is left: its output arrays at what its write-backs leave, everything else as entered. -/
def X10 (c : Dev nD) : Valuation τ sig (Elt F) :=
  Function.update (Function.update (Function.update (X9 m c) main_v106_0 ((dat4 (atTc (X9 m)) c).arrAt 6 cfg4.N)) main_v106_1 ((dat4 (atTc (X9 m)) c).arrAt 7 cfg4.N)) main_v106_2 ((dat4 (atTc (X9 m)) c).arrAt 8 cfg4.N)
/-- The buffers after the host stretch that follows region 4. -/
abbrev X11 (c : Dev nD) : Valuation τ sig (Elt F) := StableHlo.after hostOps5 (X10 m c)

/-- The buffers when region 5 is left: its output arrays at what its write-backs leave, everything else as entered. -/
def X12 (c : Dev nD) : Valuation τ sig (Elt F) :=
  Function.update (X11 m c) main_v123 ((dat5 (atTc (X11 m)) c).arrAt 3 cfg5.N)
/-- The buffers after the host stretch that follows region 5. -/
abbrev X13 (c : Dev nD) : Valuation τ sig (Elt F) := StableHlo.after hostOps6 (X12 m c)

/-! ## What an output array holds after its region -/

theorem X2_main_v18_0 (c : Dev nD) : X2 m c main_v18_0 = ((dat0 (atTc (X1 m)) c).arrAt 6 cfg0.N : (Proc.devRef (τ := τ) .tc main_v18_0).ty.Contents (Elt F)) := by
  unfold X2; rw [Function.update_of_ne (StableHlo.devRef_ne_of_ne (by decide : main_v18_0 ≠ main_v18_2)), Function.update_of_ne (StableHlo.devRef_ne_of_ne (by decide : main_v18_0 ≠ main_v18_1)), Function.update_self]
theorem X2_main_v18_1 (c : Dev nD) : X2 m c main_v18_1 = ((dat0 (atTc (X1 m)) c).arrAt 7 cfg0.N : (Proc.devRef (τ := τ) .tc main_v18_1).ty.Contents (Elt F)) := by
  unfold X2; rw [Function.update_of_ne (StableHlo.devRef_ne_of_ne (by decide : main_v18_1 ≠ main_v18_2)), Function.update_self]
theorem X2_main_v18_2 (c : Dev nD) : X2 m c main_v18_2 = ((dat0 (atTc (X1 m)) c).arrAt 8 cfg0.N : (Proc.devRef (τ := τ) .tc main_v18_2).ty.Contents (Elt F)) := by
  unfold X2; rw [Function.update_self]
theorem X4_main_v35 (c : Dev nD) : X4 m c main_v35 = ((dat1 (atTc (X3 m)) c).arrAt 3 cfg1.N : (Proc.devRef (τ := τ) .tc main_v35).ty.Contents (Elt F)) := by
  unfold X4; rw [Function.update_self]
theorem X6_main_v62_0 (c : Dev nD) : X6 m c main_v62_0 = ((dat2 (atTc (X5 m)) c).arrAt 6 cfg2.N : (Proc.devRef (τ := τ) .tc main_v62_0).ty.Contents (Elt F)) := by
  unfold X6; rw [Function.update_of_ne (StableHlo.devRef_ne_of_ne (by decide : main_v62_0 ≠ main_v62_2)), Function.update_of_ne (StableHlo.devRef_ne_of_ne (by decide : main_v62_0 ≠ main_v62_1)), Function.update_self]
theorem X6_main_v62_1 (c : Dev nD) : X6 m c main_v62_1 = ((dat2 (atTc (X5 m)) c).arrAt 7 cfg2.N : (Proc.devRef (τ := τ) .tc main_v62_1).ty.Contents (Elt F)) := by
  unfold X6; rw [Function.update_of_ne (StableHlo.devRef_ne_of_ne (by decide : main_v62_1 ≠ main_v62_2)), Function.update_self]
theorem X6_main_v62_2 (c : Dev nD) : X6 m c main_v62_2 = ((dat2 (atTc (X5 m)) c).arrAt 8 cfg2.N : (Proc.devRef (τ := τ) .tc main_v62_2).ty.Contents (Elt F)) := by
  unfold X6; rw [Function.update_self]
theorem X8_main_v79 (c : Dev nD) : X8 m c main_v79 = ((dat3 (atTc (X7 m)) c).arrAt 3 cfg3.N : (Proc.devRef (τ := τ) .tc main_v79).ty.Contents (Elt F)) := by
  unfold X8; rw [Function.update_self]
theorem X10_main_v106_0 (c : Dev nD) : X10 m c main_v106_0 = ((dat4 (atTc (X9 m)) c).arrAt 6 cfg4.N : (Proc.devRef (τ := τ) .tc main_v106_0).ty.Contents (Elt F)) := by
  unfold X10; rw [Function.update_of_ne (StableHlo.devRef_ne_of_ne (by decide : main_v106_0 ≠ main_v106_2)), Function.update_of_ne (StableHlo.devRef_ne_of_ne (by decide : main_v106_0 ≠ main_v106_1)), Function.update_self]
theorem X10_main_v106_1 (c : Dev nD) : X10 m c main_v106_1 = ((dat4 (atTc (X9 m)) c).arrAt 7 cfg4.N : (Proc.devRef (τ := τ) .tc main_v106_1).ty.Contents (Elt F)) := by
  unfold X10; rw [Function.update_of_ne (StableHlo.devRef_ne_of_ne (by decide : main_v106_1 ≠ main_v106_2)), Function.update_self]
theorem X10_main_v106_2 (c : Dev nD) : X10 m c main_v106_2 = ((dat4 (atTc (X9 m)) c).arrAt 8 cfg4.N : (Proc.devRef (τ := τ) .tc main_v106_2).ty.Contents (Elt F)) := by
  unfold X10; rw [Function.update_self]
theorem X12_main_v123 (c : Dev nD) : X12 m c main_v123 = ((dat5 (atTc (X11 m)) c).arrAt 3 cfg5.N : (Proc.devRef (τ := τ) .tc main_v123).ty.Contents (Elt F)) := by
  unfold X12; rw [Function.update_self]

end Cert.Kernel.Hand

end
-- ==== Proof.K.Segs.lean ====
/-
  Each kernel region as a segment of the program's run: entered with every unscoped buffer of the core at the
  contents before the region and left with them at the contents after it (the region's output arrays at what its
  write-backs leave, everything else untouched); beside the buffers rides the core's generator register at some state
  and the fact that the core owes nothing.
-/
import proofs.«172250_j15616501088594_1_alg».proof.Proof.K.Chain
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every region's proof data, each at the contents its region is entered with. -/
def pdats : (p : Fin 6) → (c : Dev nD) → Dat τ (Elt F) Unit ℕ (UR sig nD τ) ℕ (cfgs p) c
  | ⟨0, _⟩ => fun c => dat0 (atTc (X1 m)) c
  | ⟨1, _⟩ => fun c => dat1 (atTc (X3 m)) c
  | ⟨2, _⟩ => fun c => dat2 (atTc (X5 m)) c
  | ⟨3, _⟩ => fun c => dat3 (atTc (X7 m)) c
  | ⟨4, _⟩ => fun c => dat4 (atTc (X9 m)) c
  | ⟨5, _⟩ => fun c => dat5 (atTc (X11 m)) c

/-- No level is assigned: no core waits for another. -/
abbrev Lv0 : GSem nD τ sig → Finset Unit := fun _ => ∅
abbrev lv0 : GSem nD τ sig → Unit → ℕ := fun _ _ => 0
/-- What rides beside the buffers: the generator register at some state, and nothing owed. -/
abbrev Rd (c : Dev nD) : sProp 𝕄 := iprop((∃ r, prngReg c r) ∗ ∃ W, owes (c : Thread nD τ) (0 : CellTallies nD τ sig Unit) W)

/-- Reading an updated valuation at another TensorCore reference. -/
theorem upd_tc_of_ne (f : Valuation τ sig (Elt F)) (a r : Ref sig .tc) (x : (Proc.devRef (τ := τ) .tc a).ty.Contents (Elt F)) (h : r ≠ a) :
    Function.update f (Proc.devRef .tc a) x (Proc.devRef .tc r) = f (Proc.devRef .tc r) :=
  Function.update_of_ne (StableHlo.devRef_ne_of_ne h) _ _

theorem hF0_0 (c : Dev nD) : (dat0 (atTc (X1 m)) c).arrAt 0 cfg0.N = atTc (X2 m) c (Pipeline.arrRef spec0 0) := by
  refine ((Dat.arrAt_in (dat := dat0 (atTc (X1 m)) c) 0 rfl _).trans (A_eq0 _ c 0)).trans ?_
  show X1 m c (Proc.devRef .tc (Pipeline.arrRef spec0 0)) = X2 m c (Proc.devRef .tc (Pipeline.arrRef spec0 0))
  unfold X2
  rw [upd_tc_of_ne _ _ _ _ (by decide : Pipeline.arrRef spec0 0 ≠ main_v18_2), upd_tc_of_ne _ _ _ _ (by decide : Pipeline.arrRef spec0 0 ≠ main_v18_1), upd_tc_of_ne _ _ _ _ (by decide : Pipeline.arrRef spec0 0 ≠ main_v18_0)]
theorem hF0_1 (c : Dev nD) : (dat0 (atTc (X1 m)) c).arrAt 1 cfg0.N = atTc (X2 m) c (Pipeline.arrRef spec0 1) := by
  refine ((Dat.arrAt_in (dat := dat0 (atTc (X1 m)) c) 1 rfl _).trans (A_eq0 _ c 1)).trans ?_
  show X1 m c (Proc.devRef .tc (Pipeline.arrRef spec0 1)) = X2 m c (Proc.devRef .tc (Pipeline.arrRef spec0 1))
  unfold X2
  rw [upd_tc_of_ne _ _ _ _ (by decide : Pipeline.arrRef spec0 1 ≠ main_v18_2), upd_tc_of_ne _ _ _ _ (by decide : Pipeline.arrRef spec0 1 ≠ main_v18_1), upd_tc_of_ne _ _ _ _ (by decide : Pipeline.arrRef spec0 1 ≠ main_v18_0)]
theorem hF0_2 (c : Dev nD) : (dat0 (atTc (X1 m)) c).arrAt 2 cfg0.N = atTc (X2 m) c (Pipeline.arrRef spec0 2) := by
  refine ((Dat.arrAt_in (dat := dat0 (atTc (X1 m)) c) 2 rfl _).trans (A_eq0 _ c 2)).trans ?_
  show X1 m c (Proc.devRef .tc (Pipeline.arrRef spec0 2)) = X2 m c (Proc.devRef .tc (Pipeline.arrRef spec0 2))
  unfold X2
  rw [upd_tc_of_ne _ _ _ _ (by decide : Pipeline.arrRef spec0 2 ≠ main_v18_2), upd_tc_of_ne _ _ _ _ (by decide : Pipeline.arrRef spec0 2 ≠ main_v18_1), upd_tc_of_ne _ _ _ _ (by decide : Pipeline.arrRef spec0 2 ≠ main_v18_0)]
theorem hF0_3 (c : Dev nD) : (dat0 (atTc (X1 m)) c).arrAt 3 cfg0.N = atTc (X2 m) c (Pipeline.arrRef spec0 3) := by
  refine ((Dat.arrAt_in (dat := dat0 (atTc (X1 m)) c) 3 rfl _).trans (A_eq0 _ c 3)).trans ?_
  show X1 m c (Proc.devRef .tc (Pipeline.arrRef spec0 3)) = X2 m c (Proc.devRef .tc (Pipeline.arrRef spec0 3))
  unfold X2
  rw [upd_tc_of_ne _ _ _ _ (by decide : Pipeline.arrRef spec0 3 ≠ main_v18_2), upd_tc_of_ne _ _ _ _ (by decide : Pipeline.arrRef spec0 3 ≠ main_v18_1), upd_tc_of_ne _ _ _ _ (by decide : Pipeline.arrRef spec0 3 ≠ main_v18_0)]
theorem hF0_4 (c : Dev nD) : (dat0 (atTc (X1 m)) c).arrAt 4 cfg0.N = atTc (X2 m) c (Pipeline.arrRef spec0 4) := by
  refine ((Dat.arrAt_in (dat := dat0 (atTc (X1 m)) c) 4 rfl _).trans (A_eq0 _ c 4)).trans ?_
  show X1 m c (Proc.devRef .tc (Pipeline.arrRef spec0 4)) = X2 m c (Proc.devRef .tc (Pipeline.arrRef spec0 4))
  unfold X2
  rw [upd_tc_of_ne _ _ _ _ (by decide : Pipeline.arrRef spec0 4 ≠ main_v18_2), upd_tc_of_ne _ _ _ _ (by decide : Pipeline.arrRef spec0 4 ≠ main_v18_1), upd_tc_of_ne _ _ _ _ (by decide : Pipeline.arrRef spec0 4 ≠ main_v18_0)]
theorem hF0_5 (c : Dev nD) : (dat0 (atTc (X1 m)) c).arrAt 5 cfg0.N = atTc (X2 m) c (Pipeline.arrRef spec0 5) := by
  refine ((Dat.arrAt_in (dat := dat0 (atTc (X1 m)) c) 5 rfl _).trans (A_eq0 _ c 5)).trans ?_
  show X1 m c (Proc.devRef .tc (Pipeline.arrRef spec0 5)) = X2 m c (Proc.devRef .tc (Pipeline.arrRef spec0 5))
  unfold X2
  rw [upd_tc_of_ne _ _ _ _ (by decide : Pipeline.arrRef spec0 5 ≠ main_v18_2), upd_tc_of_ne _ _ _ _ (by decide : Pipeline.arrRef spec0 5 ≠ main_v18_1), upd_tc_of_ne _ _ _ _ (by decide : Pipeline.arrRef spec0 5 ≠ main_v18_0)]
theorem hF0_6 (c : Dev nD) : (dat0 (atTc (X1 m)) c).arrAt 6 cfg0.N = atTc (X2 m) c (Pipeline.arrRef spec0 6) :=
  (X2_main_v18_0 m c).symm
theorem hF0_7 (c : Dev nD) : (dat0 (atTc (X1 m)) c).arrAt 7 cfg0.N = atTc (X2 m) c (Pipeline.arrRef spec0 7) :=
  (X2_main_v18_1 m c).symm
theorem hF0_8 (c : Dev nD) : (dat0 (atTc (X1 m)) c).arrAt 8 cfg0.N = atTc (X2 m) c (Pipeline.arrRef spec0 8) :=
  (X2_main_v18_2 m c).symm
/-- At region 0's exit each of its arrays holds what the region leaves in it: an input array what it held, an output
    array its write-backs. -/
theorem hF0 (c : Dev nD) : ∀ w : Fin cfg0.W, (dat0 (atTc (X1 m)) c).arrAt w cfg0.N = atTc (X2 m) c (Pipeline.arrRef spec0 w) := fun
  | 0 => hF0_0 m c
  | 1 => hF0_1 m c
  | 2 => hF0_2 m c
  | 3 => hF0_3 m c
  | 4 => hF0_4 m c
  | 5 => hF0_5 m c
  | 6 => hF0_6 m c
  | 7 => hF0_7 m c
  | 8 => hF0_8 m c
  | ⟨_ + 9, h⟩ => absurd h (Nat.not_lt.2 (Nat.le_add_left _ _))
/-- Every buffer that is no array of region 0 is as the region found it. -/
theorem hrest0 (c : Dev nD) : ∀ b, b ∉ Finset.univ.image (Pipeline.arrRef spec0) → atTc (X2 m) c b = atTc (X1 m) c b := by
  intro b hb
  show X2 m c (Proc.devRef .tc b) = X1 m c (Proc.devRef .tc b)
  unfold X2
  rw [upd_tc_of_ne _ _ _ _ (fun e : b = main_v18_2 => hb (e ▸ Finset.mem_image.mpr ⟨8, Finset.mem_univ _, rfl⟩)),
    upd_tc_of_ne _ _ _ _ (fun e : b = main_v18_1 => hb (e ▸ Finset.mem_image.mpr ⟨7, Finset.mem_univ _, rfl⟩)),
    upd_tc_of_ne _ _ _ _ (fun e : b = main_v18_0 => hb (e ▸ Finset.mem_image.mpr ⟨6, Finset.mem_univ _, rfl⟩))]

theorem hF1_0 (c : Dev nD) : (dat1 (atTc (X3 m)) c).arrAt 0 cfg1.N = atTc (X4 m) c (Pipeline.arrRef spec1 0) := by
  refine ((Dat.arrAt_in (dat := dat1 (atTc (X3 m)) c) 0 rfl _).trans (A_eq1 _ c 0)).trans ?_
  show X3 m c (Proc.devRef .tc (Pipeline.arrRef spec1 0)) = X4 m c (Proc.devRef .tc (Pipeline.arrRef spec1 0))
  unfold X4
  rw [upd_tc_of_ne _ _ _ _ (by decide : Pipeline.arrRef spec1 0 ≠ main_v35)]
theorem hF1_1 (c : Dev nD) : (dat1 (atTc (X3 m)) c).arrAt 1 cfg1.N = atTc (X4 m) c (Pipeline.arrRef spec1 1) := by
  refine ((Dat.arrAt_in (dat := dat1 (atTc (X3 m)) c) 1 rfl _).trans (A_eq1 _ c 1)).trans ?_
  show X3 m c (Proc.devRef .tc (Pipeline.arrRef spec1 1)) = X4 m c (Proc.devRef .tc (Pipeline.arrRef spec1 1))
  unfold X4
  rw [upd_tc_of_ne _ _ _ _ (by decide : Pipeline.arrRef spec1 1 ≠ main_v35)]
theorem hF1_2 (c : Dev nD) : (dat1 (atTc (X3 m)) c).arrAt 2 cfg1.N = atTc (X4 m) c (Pipeline.arrRef spec1 2) := by
  refine ((Dat.arrAt_in (dat := dat1 (atTc (X3 m)) c) 2 rfl _).trans (A_eq1 _ c 2)).trans ?_
  show X3 m c (Proc.devRef .tc (Pipeline.arrRef spec1 2)) = X4 m c (Proc.devRef .tc (Pipeline.arrRef spec1 2))
  unfold X4
  rw [upd_tc_of_ne _ _ _ _ (by decide : Pipeline.arrRef spec1 2 ≠ main_v35)]
theorem hF1_3 (c : Dev nD) : (dat1 (atTc (X3 m)) c).arrAt 3 cfg1.N = atTc (X4 m) c (Pipeline.arrRef spec1 3) :=
  (X4_main_v35 m c).symm
/-- At region 1's exit each of its arrays holds what the region leaves in it: an input array what it held, an output
    array its write-backs. -/
theorem hF1 (c : Dev nD) : ∀ w : Fin cfg1.W, (dat1 (atTc (X3 m)) c).arrAt w cfg1.N = atTc (X4 m) c (Pipeline.arrRef spec1 w) := fun
  | 0 => hF1_0 m c
  | 1 => hF1_1 m c
  | 2 => hF1_2 m c
  | 3 => hF1_3 m c
  | ⟨_ + 4, h⟩ => absurd h (Nat.not_lt.2 (Nat.le_add_left _ _))
/-- Every buffer that is no array of region 1 is as the region found it. -/
theorem hrest1 (c : Dev nD) : ∀ b, b ∉ Finset.univ.image (Pipeline.arrRef spec1) → atTc (X4 m) c b = atTc (X3 m) c b := by
  intro b hb
  show X4 m c (Proc.devRef .tc b) = X3 m c (Proc.devRef .tc b)
  unfold X4
  rw [upd_tc_of_ne _ _ _ _ (fun e : b = main_v35 => hb (e ▸ Finset.mem_image.mpr ⟨3, Finset.mem_univ _, rfl⟩))]

theorem hF2_0 (c : Dev nD) : (dat2 (atTc (X5 m)) c).arrAt 0 cfg2.N = atTc (X6 m) c (Pipeline.arrRef spec2 0) := by
  refine ((Dat.arrAt_in (dat := dat2 (atTc (X5 m)) c) 0 rfl _).trans (A_eq2 _ c 0)).trans ?_
  show X5 m c (Proc.devRef .tc (Pipeline.arrRef spec2 0)) = X6 m c (Proc.devRef .tc (Pipeline.arrRef spec2 0))
  unfold X6
  rw [upd_tc_of_ne _ _ _ _ (by decide : Pipeline.arrRef spec2 0 ≠ main_v62_2), upd_tc_of_ne _ _ _ _ (by decide : Pipeline.arrRef spec2 0 ≠ main_v62_1), upd_tc_of_ne _ _ _ _ (by decide : Pipeline.arrRef spec2 0 ≠ main_v62_0)]
theorem hF2_1 (c : Dev nD) : (dat2 (atTc (X5 m)) c).arrAt 1 cfg2.N = atTc (X6 m) c (Pipeline.arrRef spec2 1) := by
  refine ((Dat.arrAt_in (dat := dat2 (atTc (X5 m)) c) 1 rfl _).trans (A_eq2 _ c 1)).trans ?_
  show X5 m c (Proc.devRef .tc (Pipeline.arrRef spec2 1)) = X6 m c (Proc.devRef .tc (Pipeline.arrRef spec2 1))
  unfold X6
  rw [upd_tc_of_ne _ _ _ _ (by decide : Pipeline.arrRef spec2 1 ≠ main_v62_2), upd_tc_of_ne _ _ _ _ (by decide : Pipeline.arrRef spec2 1 ≠ main_v62_1), upd_tc_of_ne _ _ _ _ (by decide : Pipeline.arrRef spec2 1 ≠ main_v62_0)]
theorem hF2_2 (c : Dev nD) : (dat2 (atTc (X5 m)) c).arrAt 2 cfg2.N = atTc (X6 m) c (Pipeline.arrRef spec2 2) := by
  refine ((Dat.arrAt_in (dat := dat2 (atTc (X5 m)) c) 2 rfl _).trans (A_eq2 _ c 2)).trans ?_
  show X5 m c (Proc.devRef .tc (Pipeline.arrRef spec2 2)) = X6 m c (Proc.devRef .tc (Pipeline.arrRef spec2 2))
  unfold X6
  rw [upd_tc_of_ne _ _ _ _ (by decide : Pipeline.arrRef spec2 2 ≠ main_v62_2), upd_tc_of_ne _ _ _ _ (by decide : Pipeline.arrRef spec2 2 ≠ main_v62_1), upd_tc_of_ne _ _ _ _ (by decide : Pipeline.arrRef spec2 2 ≠ main_v62_0)]
theorem hF2_3 (c : Dev nD) : (dat2 (atTc (X5 m)) c).arrAt 3 cfg2.N = atTc (X6 m) c (Pipeline.arrRef spec2 3) := by
  refine ((Dat.arrAt_in (dat := dat2 (atTc (X5 m)) c) 3 rfl _).trans (A_eq2 _ c 3)).trans ?_
  show X5 m c (Proc.devRef .tc (Pipeline.arrRef spec2 3)) = X6 m c (Proc.devRef .tc (Pipeline.arrRef spec2 3))
  unfold X6
  rw [upd_tc_of_ne _ _ _ _ (by decide : Pipeline.arrRef spec2 3 ≠ main_v62_2), upd_tc_of_ne _ _ _ _ (by decide : Pipeline.arrRef spec2 3 ≠ main_v62_1), upd_tc_of_ne _ _ _ _ (by decide : Pipeline.arrRef spec2 3 ≠ main_v62_0)]
theorem hF2_4 (c : Dev nD) : (dat2 (atTc (X5 m)) c).arrAt 4 cfg2.N = atTc (X6 m) c (Pipeline.arrRef spec2 4) := by
  refine ((Dat.arrAt_in (dat := dat2 (atTc (X5 m)) c) 4 rfl _).trans (A_eq2 _ c 4)).trans ?_
  show X5 m c (Proc.devRef .tc (Pipeline.arrRef spec2 4)) = X6 m c (Proc.devRef .tc (Pipeline.arrRef spec2 4))
  unfold X6
  rw [upd_tc_of_ne _ _ _ _ (by decide : Pipeline.arrRef spec2 4 ≠ main_v62_2), upd_tc_of_ne _ _ _ _ (by decide : Pipeline.arrRef spec2 4 ≠ main_v62_1), upd_tc_of_ne _ _ _ _ (by decide : Pipeline.arrRef spec2 4 ≠ main_v62_0)]
theorem hF2_5 (c : Dev nD) : (dat2 (atTc (X5 m)) c).arrAt 5 cfg2.N = atTc (X6 m) c (Pipeline.arrRef spec2 5) := by
  refine ((Dat.arrAt_in (dat := dat2 (atTc (X5 m)) c) 5 rfl _).trans (A_eq2 _ c 5)).trans ?_
  show X5 m c (Proc.devRef .tc (Pipeline.arrRef spec2 5)) = X6 m c (Proc.devRef .tc (Pipeline.arrRef spec2 5))
  unfold X6
  rw [upd_tc_of_ne _ _ _ _ (by decide : Pipeline.arrRef spec2 5 ≠ main_v62_2), upd_tc_of_ne _ _ _ _ (by decide : Pipeline.arrRef spec2 5 ≠ main_v62_1), upd_tc_of_ne _ _ _ _ (by decide : Pipeline.arrRef spec2 5 ≠ main_v62_0)]
theorem hF2_6 (c : Dev nD) : (dat2 (atTc (X5 m)) c).arrAt 6 cfg2.N = atTc (X6 m) c (Pipeline.arrRef spec2 6) :=
  (X6_main_v62_0 m c).symm
theorem hF2_7 (c : Dev nD) : (dat2 (atTc (X5 m)) c).arrAt 7 cfg2.N = atTc (X6 m) c (Pipeline.arrRef spec2 7) :=
  (X6_main_v62_1 m c).symm
theorem hF2_8 (c : Dev nD) : (dat2 (atTc (X5 m)) c).arrAt 8 cfg2.N = atTc (X6 m) c (Pipeline.arrRef spec2 8) :=
  (X6_main_v62_2 m c).symm
/-- At region 2's exit each of its arrays holds what the region leaves in it: an input array what it held, an output
    array its write-backs. -/
theorem hF2 (c : Dev nD) : ∀ w : Fin cfg2.W, (dat2 (atTc (X5 m)) c).arrAt w cfg2.N = atTc (X6 m) c (Pipeline.arrRef spec2 w) := fun
  | 0 => hF2_0 m c
  | 1 => hF2_1 m c
  | 2 => hF2_2 m c
  | 3 => hF2_3 m c
  | 4 => hF2_4 m c
  | 5 => hF2_5 m c
  | 6 => hF2_6 m c
  | 7 => hF2_7 m c
  | 8 => hF2_8 m c
  | ⟨_ + 9, h⟩ => absurd h (Nat.not_lt.2 (Nat.le_add_left _ _))
/-- Every buffer that is no array of region 2 is as the region found it. -/
theorem hrest2 (c : Dev nD) : ∀ b, b ∉ Finset.univ.image (Pipeline.arrRef spec2) → atTc (X6 m) c b = atTc (X5 m) c b := by
  intro b hb
  show X6 m c (Proc.devRef .tc b) = X5 m c (Proc.devRef .tc b)
  unfold X6
  rw [upd_tc_of_ne _ _ _ _ (fun e : b = main_v62_2 => hb (e ▸ Finset.mem_image.mpr ⟨8, Finset.mem_univ _, rfl⟩)),
    upd_tc_of_ne _ _ _ _ (fun e : b = main_v62_1 => hb (e ▸ Finset.mem_image.mpr ⟨7, Finset.mem_univ _, rfl⟩)),
    upd_tc_of_ne _ _ _ _ (fun e : b = main_v62_0 => hb (e ▸ Finset.mem_image.mpr ⟨6, Finset.mem_univ _, rfl⟩))]

theorem hF3_0 (c : Dev nD) : (dat3 (atTc (X7 m)) c).arrAt 0 cfg3.N = atTc (X8 m) c (Pipeline.arrRef spec3 0) := by
  refine ((Dat.arrAt_in (dat := dat3 (atTc (X7 m)) c) 0 rfl _).trans (A_eq3 _ c 0)).trans ?_
  show X7 m c (Proc.devRef .tc (Pipeline.arrRef spec3 0)) = X8 m c (Proc.devRef .tc (Pipeline.arrRef spec3 0))
  unfold X8
  rw [upd_tc_of_ne _ _ _ _ (by decide : Pipeline.arrRef spec3 0 ≠ main_v79)]
theorem hF3_1 (c : Dev nD) : (dat3 (atTc (X7 m)) c).arrAt 1 cfg3.N = atTc (X8 m) c (Pipeline.arrRef spec3 1) := by
  refine ((Dat.arrAt_in (dat := dat3 (atTc (X7 m)) c) 1 rfl _).trans (A_eq3 _ c 1)).trans ?_
  show X7 m c (Proc.devRef .tc (Pipeline.arrRef spec3 1)) = X8 m c (Proc.devRef .tc (Pipeline.arrRef spec3 1))
  unfold X8
  rw [upd_tc_of_ne _ _ _ _ (by decide : Pipeline.arrRef spec3 1 ≠ main_v79)]
theorem hF3_2 (c : Dev nD) : (dat3 (atTc (X7 m)) c).arrAt 2 cfg3.N = atTc (X8 m) c (Pipeline.arrRef spec3 2) := by
  refine ((Dat.arrAt_in (dat := dat3 (atTc (X7 m)) c) 2 rfl _).trans (A_eq3 _ c 2)).trans ?_
  show X7 m c (Proc.devRef .tc (Pipeline.arrRef spec3 2)) = X8 m c (Proc.devRef .tc (Pipeline.arrRef spec3 2))
  unfold X8
  rw [upd_tc_of_ne _ _ _ _ (by decide : Pipeline.arrRef spec3 2 ≠ main_v79)]
theorem hF3_3 (c : Dev nD) : (dat3 (atTc (X7 m)) c).arrAt 3 cfg3.N = atTc (X8 m) c (Pipeline.arrRef spec3 3) :=
  (X8_main_v79 m c).symm
/-- At region 3's exit each of its arrays holds what the region leaves in it: an input array what it held, an output
    array its write-backs. -/
theorem hF3 (c : Dev nD) : ∀ w : Fin cfg3.W, (dat3 (atTc (X7 m)) c).arrAt w cfg3.N = atTc (X8 m) c (Pipeline.arrRef spec3 w) := fun
  | 0 => hF3_0 m c
  | 1 => hF3_1 m c
  | 2 => hF3_2 m c
  | 3 => hF3_3 m c
  | ⟨_ + 4, h⟩ => absurd h (Nat.not_lt.2 (Nat.le_add_left _ _))
/-- Every buffer that is no array of region 3 is as the region found it. -/
theorem hrest3 (c : Dev nD) : ∀ b, b ∉ Finset.univ.image (Pipeline.arrRef spec3) → atTc (X8 m) c b = atTc (X7 m) c b := by
  intro b hb
  show X8 m c (Proc.devRef .tc b) = X7 m c (Proc.devRef .tc b)
  unfold X8
  rw [upd_tc_of_ne _ _ _ _ (fun e : b = main_v79 => hb (e ▸ Finset.mem_image.mpr ⟨3, Finset.mem_univ _, rfl⟩))]

theorem hF4_0 (c : Dev nD) : (dat4 (atTc (X9 m)) c).arrAt 0 cfg4.N = atTc (X10 m) c (Pipeline.arrRef spec4 0) := by
  refine ((Dat.arrAt_in (dat := dat4 (atTc (X9 m)) c) 0 rfl _).trans (A_eq4 _ c 0)).trans ?_
  show X9 m c (Proc.devRef .tc (Pipeline.arrRef spec4 0)) = X10 m c (Proc.devRef .tc (Pipeline.arrRef spec4 0))
  unfold X10
  rw [upd_tc_of_ne _ _ _ _ (by decide : Pipeline.arrRef spec4 0 ≠ main_v106_2), upd_tc_of_ne _ _ _ _ (by decide : Pipeline.arrRef spec4 0 ≠ main_v106_1), upd_tc_of_ne _ _ _ _ (by decide : Pipeline.arrRef spec4 0 ≠ main_v106_0)]
theorem hF4_1 (c : Dev nD) : (dat4 (atTc (X9 m)) c).arrAt 1 cfg4.N = atTc (X10 m) c (Pipeline.arrRef spec4 1) := by
  refine ((Dat.arrAt_in (dat := dat4 (atTc (X9 m)) c) 1 rfl _).trans (A_eq4 _ c 1)).trans ?_
  show X9 m c (Proc.devRef .tc (Pipeline.arrRef spec4 1)) = X10 m c (Proc.devRef .tc (Pipeline.arrRef spec4 1))
  unfold X10
  rw [upd_tc_of_ne _ _ _ _ (by decide : Pipeline.arrRef spec4 1 ≠ main_v106_2), upd_tc_of_ne _ _ _ _ (by decide : Pipeline.arrRef spec4 1 ≠ main_v106_1), upd_tc_of_ne _ _ _ _ (by decide : Pipeline.arrRef spec4 1 ≠ main_v106_0)]
theorem hF4_2 (c : Dev nD) : (dat4 (atTc (X9 m)) c).arrAt 2 cfg4.N = atTc (X10 m) c (Pipeline.arrRef spec4 2) := by
  refine ((Dat.arrAt_in (dat := dat4 (atTc (X9 m)) c) 2 rfl _).trans (A_eq4 _ c 2)).trans ?_
  show X9 m c (Proc.devRef .tc (Pipeline.arrRef spec4 2)) = X10 m c (Proc.devRef .tc (Pipeline.arrRef spec4 2))
  unfold X10
  rw [upd_tc_of_ne _ _ _ _ (by decide : Pipeline.arrRef spec4 2 ≠ main_v106_2), upd_tc_of_ne _ _ _ _ (by decide : Pipeline.arrRef spec4 2 ≠ main_v106_1), upd_tc_of_ne _ _ _ _ (by decide : Pipeline.arrRef spec4 2 ≠ main_v106_0)]
theorem hF4_3 (c : Dev nD) : (dat4 (atTc (X9 m)) c).arrAt 3 cfg4.N = atTc (X10 m) c (Pipeline.arrRef spec4 3) := by
  refine ((Dat.arrAt_in (dat := dat4 (atTc (X9 m)) c) 3 rfl _).trans (A_eq4 _ c 3)).trans ?_
  show X9 m c (Proc.devRef .tc (Pipeline.arrRef spec4 3)) = X10 m c (Proc.devRef .tc (Pipeline.arrRef spec4 3))
  unfold X10
  rw [upd_tc_of_ne _ _ _ _ (by decide : Pipeline.arrRef spec4 3 ≠ main_v106_2), upd_tc_of_ne _ _ _ _ (by decide : Pipeline.arrRef spec4 3 ≠ main_v106_1), upd_tc_of_ne _ _ _ _ (by decide : Pipeline.arrRef spec4 3 ≠ main_v106_0)]
theorem hF4_4 (c : Dev nD) : (dat4 (atTc (X9 m)) c).arrAt 4 cfg4.N = atTc (X10 m) c (Pipeline.arrRef spec4 4) := by
  refine ((Dat.arrAt_in (dat := dat4 (atTc (X9 m)) c) 4 rfl _).trans (A_eq4 _ c 4)).trans ?_
  show X9 m c (Proc.devRef .tc (Pipeline.arrRef spec4 4)) = X10 m c (Proc.devRef .tc (Pipeline.arrRef spec4 4))
  unfold X10
  rw [upd_tc_of_ne _ _ _ _ (by decide : Pipeline.arrRef spec4 4 ≠ main_v106_2), upd_tc_of_ne _ _ _ _ (by decide : Pipeline.arrRef spec4 4 ≠ main_v106_1), upd_tc_of_ne _ _ _ _ (by decide : Pipeline.arrRef spec4 4 ≠ main_v106_0)]
theorem hF4_5 (c : Dev nD) : (dat4 (atTc (X9 m)) c).arrAt 5 cfg4.N = atTc (X10 m) c (Pipeline.arrRef spec4 5) := by
  refine ((Dat.arrAt_in (dat := dat4 (atTc (X9 m)) c) 5 rfl _).trans (A_eq4 _ c 5)).trans ?_
  show X9 m c (Proc.devRef .tc (Pipeline.arrRef spec4 5)) = X10 m c (Proc.devRef .tc (Pipeline.arrRef spec4 5))
  unfold X10
  rw [upd_tc_of_ne _ _ _ _ (by decide : Pipeline.arrRef spec4 5 ≠ main_v106_2), upd_tc_of_ne _ _ _ _ (by decide : Pipeline.arrRef spec4 5 ≠ main_v106_1), upd_tc_of_ne _ _ _ _ (by decide : Pipeline.arrRef spec4 5 ≠ main_v106_0)]
theorem hF4_6 (c : Dev nD) : (dat4 (atTc (X9 m)) c).arrAt 6 cfg4.N = atTc (X10 m) c (Pipeline.arrRef spec4 6) :=
  (X10_main_v106_0 m c).symm
theorem hF4_7 (c : Dev nD) : (dat4 (atTc (X9 m)) c).arrAt 7 cfg4.N = atTc (X10 m) c (Pipeline.arrRef spec4 7) :=
  (X10_main_v106_1 m c).symm
theorem hF4_8 (c : Dev nD) : (dat4 (atTc (X9 m)) c).arrAt 8 cfg4.N = atTc (X10 m) c (Pipeline.arrRef spec4 8) :=
  (X10_main_v106_2 m c).symm
/-- At region 4's exit each of its arrays holds what the region leaves in it: an input array what it held, an output
    array its write-backs. -/
theorem hF4 (c : Dev nD) : ∀ w : Fin cfg4.W, (dat4 (atTc (X9 m)) c).arrAt w cfg4.N = atTc (X10 m) c (Pipeline.arrRef spec4 w) := fun
  | 0 => hF4_0 m c
  | 1 => hF4_1 m c
  | 2 => hF4_2 m c
  | 3 => hF4_3 m c
  | 4 => hF4_4 m c
  | 5 => hF4_5 m c
  | 6 => hF4_6 m c
  | 7 => hF4_7 m c
  | 8 => hF4_8 m c
  | ⟨_ + 9, h⟩ => absurd h (Nat.not_lt.2 (Nat.le_add_left _ _))
/-- Every buffer that is no array of region 4 is as the region found it. -/
theorem hrest4 (c : Dev nD) : ∀ b, b ∉ Finset.univ.image (Pipeline.arrRef spec4) → atTc (X10 m) c b = atTc (X9 m) c b := by
  intro b hb
  show X10 m c (Proc.devRef .tc b) = X9 m c (Proc.devRef .tc b)
  unfold X10
  rw [upd_tc_of_ne _ _ _ _ (fun e : b = main_v106_2 => hb (e ▸ Finset.mem_image.mpr ⟨8, Finset.mem_univ _, rfl⟩)),
    upd_tc_of_ne _ _ _ _ (fun e : b = main_v106_1 => hb (e ▸ Finset.mem_image.mpr ⟨7, Finset.mem_univ _, rfl⟩)),
    upd_tc_of_ne _ _ _ _ (fun e : b = main_v106_0 => hb (e ▸ Finset.mem_image.mpr ⟨6, Finset.mem_univ _, rfl⟩))]

theorem hF5_0 (c : Dev nD) : (dat5 (atTc (X11 m)) c).arrAt 0 cfg5.N = atTc (X12 m) c (Pipeline.arrRef spec5 0) := by
  refine ((Dat.arrAt_in (dat := dat5 (atTc (X11 m)) c) 0 rfl _).trans (A_eq5 _ c 0)).trans ?_
  show X11 m c (Proc.devRef .tc (Pipeline.arrRef spec5 0)) = X12 m c (Proc.devRef .tc (Pipeline.arrRef spec5 0))
  unfold X12
  rw [upd_tc_of_ne _ _ _ _ (by decide : Pipeline.arrRef spec5 0 ≠ main_v123)]
theorem hF5_1 (c : Dev nD) : (dat5 (atTc (X11 m)) c).arrAt 1 cfg5.N = atTc (X12 m) c (Pipeline.arrRef spec5 1) := by
  refine ((Dat.arrAt_in (dat := dat5 (atTc (X11 m)) c) 1 rfl _).trans (A_eq5 _ c 1)).trans ?_
  show X11 m c (Proc.devRef .tc (Pipeline.arrRef spec5 1)) = X12 m c (Proc.devRef .tc (Pipeline.arrRef spec5 1))
  unfold X12
  rw [upd_tc_of_ne _ _ _ _ (by decide : Pipeline.arrRef spec5 1 ≠ main_v123)]
theorem hF5_2 (c : Dev nD) : (dat5 (atTc (X11 m)) c).arrAt 2 cfg5.N = atTc (X12 m) c (Pipeline.arrRef spec5 2) := by
  refine ((Dat.arrAt_in (dat := dat5 (atTc (X11 m)) c) 2 rfl _).trans (A_eq5 _ c 2)).trans ?_
  show X11 m c (Proc.devRef .tc (Pipeline.arrRef spec5 2)) = X12 m c (Proc.devRef .tc (Pipeline.arrRef spec5 2))
  unfold X12
  rw [upd_tc_of_ne _ _ _ _ (by decide : Pipeline.arrRef spec5 2 ≠ main_v123)]
theorem hF5_3 (c : Dev nD) : (dat5 (atTc (X11 m)) c).arrAt 3 cfg5.N = atTc (X12 m) c (Pipeline.arrRef spec5 3) :=
  (X12_main_v123 m c).symm
/-- At region 5's exit each of its arrays holds what the region leaves in it: an input array what it held, an output
    array its write-backs. -/
theorem hF5 (c : Dev nD) : ∀ w : Fin cfg5.W, (dat5 (atTc (X11 m)) c).arrAt w cfg5.N = atTc (X12 m) c (Pipeline.arrRef spec5 w) := fun
  | 0 => hF5_0 m c
  | 1 => hF5_1 m c
  | 2 => hF5_2 m c
  | 3 => hF5_3 m c
  | ⟨_ + 4, h⟩ => absurd h (Nat.not_lt.2 (Nat.le_add_left _ _))
/-- Every buffer that is no array of region 5 is as the region found it. -/
theorem hrest5 (c : Dev nD) : ∀ b, b ∉ Finset.univ.image (Pipeline.arrRef spec5) → atTc (X12 m) c b = atTc (X11 m) c b := by
  intro b hb
  show X12 m c (Proc.devRef .tc b) = X11 m c (Proc.devRef .tc b)
  unfold X12
  rw [upd_tc_of_ne _ _ _ _ (fun e : b = main_v123 => hb (e ▸ Finset.mem_image.mpr ⟨3, Finset.mem_univ _, rfl⟩))]

end Cert.Kernel.Hand

end
-- ==== Proof.K.Seg0.lean ====
/-
  Region 0 as a segment of the run: entered with the core's unscoped buffers at the contents before it, left with them at the contents after it.
-/
import proofs.«172250_j15616501088594_1_alg».proof.Proof.K.Segs
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: its arrays are split out of the unscoped buffers on entry and put back at the
    exit contents; the generator register goes into the region's invariant and comes out; nothing is owed. -/
def reg0 : Pipeline.RegionSeg (pcfgs (F := F)) adm (pdats m) () defs₀ Variants.none Lv0 lv0 0 where
  win := launch0.win.to₀
  block_pos := launch0.block_pos
  stage_whole := launch0.stage_whole
  K := PEmpty
  osem k := k.elim
  ho := Pipeline.OwnSemFacts.none _
  hbody c := (body_obligation0 (atTc (X1 m)) c).loose
  hwaits := Pipeline.hwaits_of_owed_zero _ _ _ _ Lv0 lv0 0 fun c t => owed_eq0 (atTc (X1 m)) c t
  pre c := iprop(StableHlo.held (c : Thread nD τ) (Pipeline.ucRefs τ sig) (X1 m c) ∗ Rd c)
  post c := iprop(StableHlo.held (c : Thread nD τ) (Pipeline.ucRefs τ sig) (X2 m c) ∗ Rd c)
  X c := iprop(∃ r, prngReg c r)
  Y c := iprop(∃ r, prngReg c r)
  Z c := Pipeline.unscopedRest (Ix := Unit) (Name := ℕ) (U := UR sig nD τ) (Lvl := ℕ) spec0 c (atTc (X1 m) c)
  hentry c := by
    rw [Pipeline.ownSems0_none]
    have hsplit := Pipeline.arrays_of_unscopedBufs (p := 0) (pcfgs (F := F)) adm (pdats m) launch0.win launch0.arr_whole c
      ((pdats m 0 c).share_full fun w => q_eq0 (atTc (X1 m)) c w) (atTc (X1 m) c) fun w => A_eq0 (atTc (X1 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat0 (atTc (X1 m)) c).Φ 0
    iintro ⟨Hp, -, Hr⟩
    iapply (hin0 (atTc (X1 m)) c)
    isplitl [Hp]; · iexact Hp
    iexact Hr
  hout c := by
    rw [Pipeline.ownSems0_none]
    change (dat0 (atTc (X1 m)) c).Φ (Fin.last cfg0.N) ⊢ _
    iintro H
    ihave H' := (hout0 (atTc (X1 m)) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (atTc (X1 m)) c w)
      (atTc (X1 m) c) (atTc (X2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/-
  Region 1 as a segment of the run: entered with the core's unscoped buffers at the contents before it, left with them at the contents after it.
-/
import proofs.«172250_j15616501088594_1_alg».proof.Proof.K.Segs
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state: its arrays are split out of the unscoped buffers on entry and put back at the
    exit contents; the generator register goes into the region's invariant and comes out; nothing is owed. -/
def reg1 : Pipeline.RegionSeg (pcfgs (F := F)) adm (pdats m) () defs₀ Variants.none Lv0 lv0 1 where
  win := launch1.win.to₀
  block_pos := launch1.block_pos
  stage_whole := launch1.stage_whole
  K := PEmpty
  osem k := k.elim
  ho := Pipeline.OwnSemFacts.none _
  hbody c := (body_obligation1 (atTc (X3 m)) c).loose
  hwaits := Pipeline.hwaits_of_owed_zero _ _ _ _ Lv0 lv0 1 fun _ _ => rfl
  pre c := iprop(StableHlo.held (c : Thread nD τ) (Pipeline.ucRefs τ sig) (X3 m c) ∗ Rd c)
  post c := iprop(StableHlo.held (c : Thread nD τ) (Pipeline.ucRefs τ sig) (X4 m c) ∗ Rd c)
  X c := iprop(∃ r, prngReg c r)
  Y c := iprop(∃ r, prngReg c r)
  Z c := Pipeline.unscopedRest (Ix := Unit) (Name := ℕ) (U := UR sig nD τ) (Lvl := ℕ) spec1 c (atTc (X3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X3 m) c) fun w => A_eq1 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X3 m) c) (atTc (X4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/-
  Region 2 as a segment of the run: entered with the core's unscoped buffers at the contents before it, left with them at the contents after it.
-/
import proofs.«172250_j15616501088594_1_alg».proof.Proof.K.Segs
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state: its arrays are split out of the unscoped buffers on entry and put back at the
    exit contents; the generator register goes into the region's invariant and comes out; nothing is owed. -/
def reg2 : Pipeline.RegionSeg (pcfgs (F := F)) adm (pdats m) () defs₀ Variants.none Lv0 lv0 2 where
  win := launch2.win.to₀
  block_pos := launch2.block_pos
  stage_whole := launch2.stage_whole
  K := PEmpty
  osem k := k.elim
  ho := Pipeline.OwnSemFacts.none _
  hbody c := (body_obligation2 (atTc (X5 m)) c).loose
  hwaits := Pipeline.hwaits_of_owed_zero _ _ _ _ Lv0 lv0 2 fun c t => owed_eq2 (atTc (X5 m)) c t
  pre c := iprop(StableHlo.held (c : Thread nD τ) (Pipeline.ucRefs τ sig) (X5 m c) ∗ Rd c)
  post c := iprop(StableHlo.held (c : Thread nD τ) (Pipeline.ucRefs τ sig) (X6 m c) ∗ Rd c)
  X c := iprop(∃ r, prngReg c r)
  Y c := iprop(∃ r, prngReg c r)
  Z c := Pipeline.unscopedRest (Ix := Unit) (Name := ℕ) (U := UR sig nD τ) (Lvl := ℕ) spec2 c (atTc (X5 m) c)
  hentry c := by
    rw [Pipeline.ownSems0_none]
    have hsplit := Pipeline.arrays_of_unscopedBufs (p := 2) (pcfgs (F := F)) adm (pdats m) launch2.win launch2.arr_whole c
      ((pdats m 2 c).share_full fun w => q_eq2 (atTc (X5 m)) c w) (atTc (X5 m) c) fun w => A_eq2 (atTc (X5 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat2 (atTc (X5 m)) c).Φ 0
    iintro ⟨Hp, -, Hr⟩
    iapply (hin2 (atTc (X5 m)) c)
    isplitl [Hp]; · iexact Hp
    iexact Hr
  hout c := by
    rw [Pipeline.ownSems0_none]
    change (dat2 (atTc (X5 m)) c).Φ (Fin.last cfg2.N) ⊢ _
    iintro H
    ihave H' := (hout2 (atTc (X5 m)) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (atTc (X5 m)) c w)
      (atTc (X5 m) c) (atTc (X6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/-
  Region 3 as a segment of the run: entered with the core's unscoped buffers at the contents before it, left with them at the contents after it.
-/
import proofs.«172250_j15616501088594_1_alg».proof.Proof.K.Segs
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state: its arrays are split out of the unscoped buffers on entry and put back at the
    exit contents; the generator register goes into the region's invariant and comes out; nothing is owed. -/
def reg3 : Pipeline.RegionSeg (pcfgs (F := F)) adm (pdats m) () defs₀ Variants.none Lv0 lv0 3 where
  win := launch3.win.to₀
  block_pos := launch3.block_pos
  stage_whole := launch3.stage_whole
  K := PEmpty
  osem k := k.elim
  ho := Pipeline.OwnSemFacts.none _
  hbody c := (body_obligation3 (atTc (X7 m)) c).loose
  hwaits := Pipeline.hwaits_of_owed_zero _ _ _ _ Lv0 lv0 3 fun _ _ => rfl
  pre c := iprop(StableHlo.held (c : Thread nD τ) (Pipeline.ucRefs τ sig) (X7 m c) ∗ Rd c)
  post c := iprop(StableHlo.held (c : Thread nD τ) (Pipeline.ucRefs τ sig) (X8 m c) ∗ Rd c)
  X c := iprop(∃ r, prngReg c r)
  Y c := iprop(∃ r, prngReg c r)
  Z c := Pipeline.unscopedRest (Ix := Unit) (Name := ℕ) (U := UR sig nD τ) (Lvl := ℕ) spec3 c (atTc (X7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (X7 m) c) fun w => A_eq3 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X7 m) c) (atTc (X8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/-
  Region 4 as a segment of the run: entered with the core's unscoped buffers at the contents before it, left with them at the contents after it.
-/
import proofs.«172250_j15616501088594_1_alg».proof.Proof.K.Segs
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state: its arrays are split out of the unscoped buffers on entry and put back at the
    exit contents; the generator register goes into the region's invariant and comes out; nothing is owed. -/
def reg4 : Pipeline.RegionSeg (pcfgs (F := F)) adm (pdats m) () defs₀ Variants.none Lv0 lv0 4 where
  win := launch4.win.to₀
  block_pos := launch4.block_pos
  stage_whole := launch4.stage_whole
  K := PEmpty
  osem k := k.elim
  ho := Pipeline.OwnSemFacts.none _
  hbody c := (body_obligation4 (atTc (X9 m)) c).loose
  hwaits := Pipeline.hwaits_of_owed_zero _ _ _ _ Lv0 lv0 4 fun c t => owed_eq4 (atTc (X9 m)) c t
  pre c := iprop(StableHlo.held (c : Thread nD τ) (Pipeline.ucRefs τ sig) (X9 m c) ∗ Rd c)
  post c := iprop(StableHlo.held (c : Thread nD τ) (Pipeline.ucRefs τ sig) (X10 m c) ∗ Rd c)
  X c := iprop(∃ r, prngReg c r)
  Y c := iprop(∃ r, prngReg c r)
  Z c := Pipeline.unscopedRest (Ix := Unit) (Name := ℕ) (U := UR sig nD τ) (Lvl := ℕ) spec4 c (atTc (X9 m) c)
  hentry c := by
    rw [Pipeline.ownSems0_none]
    have hsplit := Pipeline.arrays_of_unscopedBufs (p := 4) (pcfgs (F := F)) adm (pdats m) launch4.win launch4.arr_whole c
      ((pdats m 4 c).share_full fun w => q_eq4 (atTc (X9 m)) c w) (atTc (X9 m) c) fun w => A_eq4 (atTc (X9 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat4 (atTc (X9 m)) c).Φ 0
    iintro ⟨Hp, -, Hr⟩
    iapply (hin4 (atTc (X9 m)) c)
    isplitl [Hp]; · iexact Hp
    iexact Hr
  hout c := by
    rw [Pipeline.ownSems0_none]
    change (dat4 (atTc (X9 m)) c).Φ (Fin.last cfg4.N) ⊢ _
    iintro H
    ihave H' := (hout4 (atTc (X9 m)) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun w => q_eq4 (atTc (X9 m)) c w)
      (atTc (X9 m) c) (atTc (X10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
/-
  Region 5 as a segment of the run: entered with the core's unscoped buffers at the contents before it, left with them at the contents after it.
-/
import proofs.«172250_j15616501088594_1_alg».proof.Proof.K.Segs
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state: its arrays are split out of the unscoped buffers on entry and put back at the
    exit contents; the generator register goes into the region's invariant and comes out; nothing is owed. -/
def reg5 : Pipeline.RegionSeg (pcfgs (F := F)) adm (pdats m) () defs₀ Variants.none Lv0 lv0 5 where
  win := launch5.win.to₀
  block_pos := launch5.block_pos
  stage_whole := launch5.stage_whole
  K := PEmpty
  osem k := k.elim
  ho := Pipeline.OwnSemFacts.none _
  hbody c := (body_obligation5 (atTc (X11 m)) c).loose
  hwaits := Pipeline.hwaits_of_owed_zero _ _ _ _ Lv0 lv0 5 fun _ _ => rfl
  pre c := iprop(StableHlo.held (c : Thread nD τ) (Pipeline.ucRefs τ sig) (X11 m c) ∗ Rd c)
  post c := iprop(StableHlo.held (c : Thread nD τ) (Pipeline.ucRefs τ sig) (X12 m c) ∗ Rd c)
  X c := iprop(∃ r, prngReg c r)
  Y c := iprop(∃ r, prngReg c r)
  Z c := Pipeline.unscopedRest (Ix := Unit) (Name := ℕ) (U := UR sig nD τ) (Lvl := ℕ) spec5 c (atTc (X11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (X11 m) c) fun w => A_eq5 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (X11 m) c) (atTc (X12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.ChainEq.lean ====
/-
  The program's valuations between items, taken at exactly the contents the regions leave in their output arrays,
  are the chain of buffer contents. Every step below only renames: a region's output array is moved around, never
  opened.
-/
import proofs.«172250_j15616501088594_1_alg».proof.Proof.K.Chain

set_option maxRecDepth 16384

noncomputable section

namespace Cert.Kernel.Hand

open Cert.Kernel Cert.Kernel.Gen
open Idealize.ShloMosaic Idealize.ShloMosaic.TcCoe

variable {F : FTy → Type} [FloatOps F]
/-- Updating `f` at one reference with what `g` holds there gives `g`, when `g` is `f` updated there. -/
theorem upd_restore1 (f g : Valuation τ sig (Elt F)) (a : DevRef τ sig) (x : a.ty.Contents (Elt F))
    (hg : g = Function.update f a x) : Function.update f a (g a) = g := by
  subst hg; rw [Function.update_self]

/-- The same at three distinct references. -/
theorem upd_restore3 (f g : Valuation τ sig (Elt F)) (a b d : DevRef τ sig) (x : a.ty.Contents (Elt F)) (y : b.ty.Contents (Elt F))
    (z : d.ty.Contents (Elt F)) (hg : g = Function.update (Function.update (Function.update f a x) b y) d z)
    (hba : b ≠ a) (hda : d ≠ a) (hdb : d ≠ b) :
    Function.update (Function.update (Function.update f a (g a)) b (g b)) d (g d) = g := by
  subst hg
  have h1 : Function.update (Function.update (Function.update f a x) b y) d z d = z := Function.update_self ..
  have h2 : Function.update (Function.update (Function.update f a x) b y) d z b = y := by
    rw [Function.update_of_ne hdb.symm]; exact Function.update_self ..
  have h3 : Function.update (Function.update (Function.update f a x) b y) d z a = x := by
    rw [Function.update_of_ne hda.symm, Function.update_of_ne hba.symm]; exact Function.update_self ..
  rw [h1, h2, h3]

variable (m : (ℓ : Loc nD τ sig) → Buf (Elt F) ℓ)

/-- What each region leaves in the arrays it may change, read off the chain of contents. -/
def outsX : Outs (F := F) := fun J r c => match J with
  | 2 => X2 m c r | 4 => X4 m c r | 6 => X6 m c r | 8 => X8 m c r | 10 => X10 m c r | 12 => X12 m c r
  | _ => m ((c : Thread nD τ).loc r)

theorem V1_eq (c : Dev nD) : V1 m c = X1 m c := by with_reducible rfl

theorem outsX_2 (r : Ref sig .tc) (c : Dev nD) : outsX m 2 r c = X2 m c r := by simp only [outsX]
set_option maxHeartbeats 4000000 in
theorem V2_eq (c : Dev nD) : V2 m (outsX m) c = X2 m c := by
  simp only [V2, outsX_2, V1_eq]
  unfold X2
  exact upd_restore3 (X1 m c) (Function.update (Function.update (Function.update (X1 m c) (Proc.devRef .tc main_v18_0) ((dat0 (atTc (X1 m)) c).arrAt 6 cfg0.N)) (Proc.devRef .tc main_v18_1) ((dat0 (atTc (X1 m)) c).arrAt 7 cfg0.N)) (Proc.devRef .tc main_v18_2) ((dat0 (atTc (X1 m)) c).arrAt 8 cfg0.N))
    (Proc.devRef .tc main_v18_0) (Proc.devRef .tc main_v18_1) (Proc.devRef .tc main_v18_2)
    ((dat0 (atTc (X1 m)) c).arrAt 6 cfg0.N) ((dat0 (atTc (X1 m)) c).arrAt 7 cfg0.N) ((dat0 (atTc (X1 m)) c).arrAt 8 cfg0.N) rfl
    (StableHlo.devRef_ne_of_ne (by decide)) (StableHlo.devRef_ne_of_ne (by decide)) (StableHlo.devRef_ne_of_ne (by decide))
theorem V3_eq (c : Dev nD) : V3 m (outsX m) c = X3 m c := congrArg (StableHlo.after hostOps1) (V2_eq m c)

theorem outsX_4 (r : Ref sig .tc) (c : Dev nD) : outsX m 4 r c = X4 m c r := by simp only [outsX]
set_option maxHeartbeats 4000000 in
theorem V4_eq (c : Dev nD) : V4 m (outsX m) c = X4 m c := by
  simp only [V4, outsX_4, V3_eq]
  unfold X4
  exact upd_restore1 (X3 m c) (Function.update (X3 m c) (Proc.devRef .tc main_v35) ((dat1 (atTc (X3 m)) c).arrAt 3 cfg1.N))
    (Proc.devRef .tc main_v35) ((dat1 (atTc (X3 m)) c).arrAt 3 cfg1.N) rfl
theorem V5_eq (c : Dev nD) : V5 m (outsX m) c = X5 m c := congrArg (StableHlo.after hostOps2) (V4_eq m c)

theorem outsX_6 (r : Ref sig .tc) (c : Dev nD) : outsX m 6 r c = X6 m c r := by simp only [outsX]
set_option maxHeartbeats 4000000 in
theorem V6_eq (c : Dev nD) : V6 m (outsX m) c = X6 m c := by
  simp only [V6, outsX_6, V5_eq]
  unfold X6
  exact upd_restore3 (X5 m c) (Function.update (Function.update (Function.update (X5 m c) (Proc.devRef .tc main_v62_0) ((dat2 (atTc (X5 m)) c).arrAt 6 cfg2.N)) (Proc.devRef .tc main_v62_1) ((dat2 (atTc (X5 m)) c).arrAt 7 cfg2.N)) (Proc.devRef .tc main_v62_2) ((dat2 (atTc (X5 m)) c).arrAt 8 cfg2.N))
    (Proc.devRef .tc main_v62_0) (Proc.devRef .tc main_v62_1) (Proc.devRef .tc main_v62_2)
    ((dat2 (atTc (X5 m)) c).arrAt 6 cfg2.N) ((dat2 (atTc (X5 m)) c).arrAt 7 cfg2.N) ((dat2 (atTc (X5 m)) c).arrAt 8 cfg2.N) rfl
    (StableHlo.devRef_ne_of_ne (by decide)) (StableHlo.devRef_ne_of_ne (by decide)) (StableHlo.devRef_ne_of_ne (by decide))
theorem V7_eq (c : Dev nD) : V7 m (outsX m) c = X7 m c := congrArg (StableHlo.after hostOps3) (V6_eq m c)

theorem outsX_8 (r : Ref sig .tc) (c : Dev nD) : outsX m 8 r c = X8 m c r := by simp only [outsX]
set_option maxHeartbeats 4000000 in
theorem V8_eq (c : Dev nD) : V8 m (outsX m) c = X8 m c := by
  simp only [V8, outsX_8, V7_eq]
  unfold X8
  exact upd_restore1 (X7 m c) (Function.update (X7 m c) (Proc.devRef .tc main_v79) ((dat3 (atTc (X7 m)) c).arrAt 3 cfg3.N))
    (Proc.devRef .tc main_v79) ((dat3 (atTc (X7 m)) c).arrAt 3 cfg3.N) rfl
theorem V9_eq (c : Dev nD) : V9 m (outsX m) c = X9 m c := congrArg (StableHlo.after hostOps4) (V8_eq m c)

theorem outsX_10 (r : Ref sig .tc) (c : Dev nD) : outsX m 10 r c = X10 m c r := by simp only [outsX]
set_option maxHeartbeats 4000000 in
theorem V10_eq (c : Dev nD) : V10 m (outsX m) c = X10 m c := by
  simp only [V10, outsX_10, V9_eq]
  unfold X10
  exact upd_restore3 (X9 m c) (Function.update (Function.update (Function.update (X9 m c) (Proc.devRef .tc main_v106_0) ((dat4 (atTc (X9 m)) c).arrAt 6 cfg4.N)) (Proc.devRef .tc main_v106_1) ((dat4 (atTc (X9 m)) c).arrAt 7 cfg4.N)) (Proc.devRef .tc main_v106_2) ((dat4 (atTc (X9 m)) c).arrAt 8 cfg4.N))
    (Proc.devRef .tc main_v106_0) (Proc.devRef .tc main_v106_1) (Proc.devRef .tc main_v106_2)
    ((dat4 (atTc (X9 m)) c).arrAt 6 cfg4.N) ((dat4 (atTc (X9 m)) c).arrAt 7 cfg4.N) ((dat4 (atTc (X9 m)) c).arrAt 8 cfg4.N) rfl
    (StableHlo.devRef_ne_of_ne (by decide)) (StableHlo.devRef_ne_of_ne (by decide)) (StableHlo.devRef_ne_of_ne (by decide))
theorem V11_eq (c : Dev nD) : V11 m (outsX m) c = X11 m c := congrArg (StableHlo.after hostOps5) (V10_eq m c)

theorem outsX_12 (r : Ref sig .tc) (c : Dev nD) : outsX m 12 r c = X12 m c r := by simp only [outsX]
set_option maxHeartbeats 4000000 in
theorem V12_eq (c : Dev nD) : V12 m (outsX m) c = X12 m c := by
  simp only [V12, outsX_12, V11_eq]
  unfold X12
  exact upd_restore1 (X11 m c) (Function.update (X11 m c) (Proc.devRef .tc main_v123) ((dat5 (atTc (X11 m)) c).arrAt 3 cfg5.N))
    (Proc.devRef .tc main_v123) ((dat5 (atTc (X11 m)) c).arrAt 3 cfg5.N) rfl
theorem V13_eq (c : Dev nD) : V13 m (outsX m) c = X13 m c := congrArg (StableHlo.after hostOps6) (V12_eq m c)

end Cert.Kernel.Hand

end
-- ==== Proof.K.Run.lean ====
/-
  The word-level kernel program's frame: from any launch memory with zero counters every weakly fair execution
  terminates and every argument array ends as launched.
-/
import proofs.«172250_j15616501088594_1_alg».proof.Proof.K.Seg0
import proofs.«172250_j15616501088594_1_alg».proof.Proof.K.Seg1
import proofs.«172250_j15616501088594_1_alg».proof.Proof.K.Seg2
import proofs.«172250_j15616501088594_1_alg».proof.Proof.K.Seg3
import proofs.«172250_j15616501088594_1_alg».proof.Proof.K.Seg4
import proofs.«172250_j15616501088594_1_alg».proof.Proof.K.Seg5
import proofs.«172250_j15616501088594_1_alg».proof.Proof.K.ChainEq

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The launch's tokens are the pipeline cells' initial state; no ghost resource beside them. -/
theorem launch_tokens : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch leaves on every core beside its buffers makes the rest state: the generator register at its
    launch state, and the core owing nothing. -/
theorem rest_of_launch (ρ : Dev nD → PrngReg) :
    (iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Lv0 lv0) : sProp 𝕄)
      ⊢ |={Set.univ}=> bigSep Finset.univ (fun c : Dev nD => Rd (F := F) c) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
      ⊢ (bigSep Finset.univ (fun c : Dev nD => Rd (F := F) c) : sProp 𝕄) :=
    bigSep_mono fun c _ => by
      show (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄) ⊢ Rd (F := F) c
      iintro ⟨-, HO, -, Hp, -⟩
      isplitl [Hp]; · iexists _; iexact Hp
      iexists ∅; iexact HO
  iintro ⟨H, -⟩
  imodintro
  iapply hmono
  iexact H

variable (m : (ℓ : Loc nD τ sig) → Buf (Elt F) ℓ) (ρ : Dev nD → PrngReg)

/-- The frame: every argument array ends as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Gen.frame_cond (m := m) (EP := emb₁) (ι := ()) (𝒱₀ := Variants.none) (L := Lv0) (lv := lv0) (hL := fun _ _ => rfl) (ρ := ρ)
    (outs := outsX m) (pdats := pdats m) (O₀ := 0) (G := fun _ => iprop(emp))
    (u₀ := initOf (Pipeline.cells cfgs cellOf_inj) (Pipeline.launchToks cfgs cellOf_inj)) (hu₀ := launch_tokens)
    (E := fun _ c => Rd c) (hE0 := rest_of_launch ρ) (hE6 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)

end Cert.Kernel.Hand

end
-- ==== Proof.KI.Reg0Runs.lean ====
import proofs.«172250_j15616501088594_1_alg».proof.Proof.Gen.KernelIdeal.Launch
import proofs.«172250_j15616501088594_1_alg».proof.Proof.Gen.KernelIdeal.Skeleton
import proofs.«172250_j15616501088594_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The dense-layer kernel of call 0: what its three runs share

The kernel works on one block of 2000 rows per grid point: it adds the two input blocks, applies two dense layers with
a rectifier after each, stores the block of results, and adds the results' column sums and the column sums of their
squares to two one-row accumulators that live across the grid. At the first point the accumulators are cleared before
use; at the last point they are copied to the two one-row outputs. Everything here is stated at the buffer contents
`V` the region is entered with. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetched it or the block
    index stood still, for any proof data over `V` whose body leaves the block in place. -/
theorem held0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetched it or the block
    index stood still, for any proof data over `V` whose body leaves the block in place. -/
theorem held0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetched it or the block
    index stood still, for any proof data over `V` whose body leaves the block in place. -/
theorem held0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetched it or the block
    index stood still, for any proof data over `V` whose body leaves the block in place. -/
theorem held0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetched it or the block
    index stood still, for any proof data over `V` whose body leaves the block in place. -/
theorem held0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetched it or the block
    index stood still, for any proof data over `V` whose body leaves the block in place. -/
theorem held0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the grid point -/

/-- The kernel's first test: the point is the grid's first (the accumulators are cleared). -/
abbrev atFirst0 (i : grid0.Coords) : Prop := (Scalar.cmpi .ne (Scalar.extui (Scalar.cmpi .eq (BitVec.ofNat 32 (i 0).val) 0#32)) 0#32) = 1#1
/-- It holds at point 0 only. -/
theorem atFirst0_iff : ∀ t : Fin cfg0.N, atFirst0 (grid0.coords t) ↔ t.val = 0 :=
  (by decide +kernel : ∀ t : Fin grid0.N, atFirst0 (grid0.coords t) ↔ t.val = 0)

/-- The kernel's second test: the point is the grid's last (the accumulators are copied out). -/
abbrev atLast0 (i : grid0.Coords) : Prop := k0_cond2 i = 1#1
/-- It holds at point 49 only. -/
theorem atLast0_iff : ∀ t : Fin cfg0.N, atLast0 (grid0.coords t) ↔ t.val = 49 :=
  (by decide +kernel : ∀ t : Fin grid0.N, atLast0 (grid0.coords t) ↔ t.val = 49)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
theorem live0_6 : ∀ t : Fin cfg0.N, cfg0.idle 6 (grid0.coords t) = false := by decide +kernel
/-- Away from the last point the one-row output 7 is idle: nothing is stored into it, and it is not written back. -/
theorem idle0_7 : ∀ t : Fin cfg0.N, ¬atLast0 (grid0.coords t) → cfg0.idle 7 (grid0.coords t) = true := by decide +kernel
theorem noFlush0_7 : ∀ t : Fin cfg0.N, ¬atLast0 (grid0.coords t) → (cfg0.win 7).flush t = false := by decide +kernel
/-- At the last point it is live. -/
theorem live0_7 : ∀ t : Fin cfg0.N, atLast0 (grid0.coords t) → cfg0.idle 7 (grid0.coords t) = false := by decide +kernel
/-- Away from the last point the one-row output 8 is idle: nothing is stored into it, and it is not written back. -/
theorem idle0_8 : ∀ t : Fin cfg0.N, ¬atLast0 (grid0.coords t) → cfg0.idle 8 (grid0.coords t) = true := by decide +kernel
theorem noFlush0_8 : ∀ t : Fin cfg0.N, ¬atLast0 (grid0.coords t) → (cfg0.win 8).flush t = false := by decide +kernel
/-- At the last point it is live. -/
theorem live0_8 : ∀ t : Fin cfg0.N, atLast0 (grid0.coords t) → cfg0.idle 8 (grid0.coords t) = false := by decide +kernel

/-! ## The memrefs the body is called with -/

abbrev ms0_0 (t : Fin cfg0.N) : Memref sig .tc .vmem S2000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two accumulators: whole scoped buffers of the kernel's own, passed beside the windows. -/
abbrev acc0_0 : Memref sig .tc .vmem S1x128 .f32 := Memref.whole cc0_scratch0
abbrev acc0_1 : Memref sig .tc .vmem S1x128 .f32 := Memref.whole cc0_scratch1
/-- Views through which the contents of the results block, the one-row outputs and the accumulators are stated. -/
abbrev VZ0 : View sig .tc .vmem S2000x128 .f32 := (Memref.whole cc0_stg6_0 : Memref sig .tc .vmem S2000x128 .f32).view
abbrev VA0_0 : View sig .tc .vmem S1x128 .f32 := acc0_0.view
abbrev VA0_1 : View sig .tc .vmem S1x128 .f32 := acc0_1.view

/-- The scoped buffers no window stages, split at the two accumulators (each owned whole at some contents) and the
    unopened remainder. -/
theorem scopedRest0_acc (c : Dev nD) :
    (Pipeline.scopedRest (Ix := Unit) (Name := ℕ) (U := UR sig nD τ) (Lvl := ℕ) (Val := Elt F) spec0 c : sProp 𝕄)
      = iprop(iprop((∃ d, owns (c : Thread nD τ) acc0_0 fullShare d) ∗ (∃ d, owns (c : Thread nD τ) acc0_1 fullShare d))
          ∗ Pipeline.scopedRestBut (Ix := Unit) (Name := ℕ) (U := UR sig nD τ) (Lvl := ℕ) (Val := Elt F) spec0 c [cc0_scratch0, cc0_scratch1]) := by
  rw [scopedRest0_split]; simp only [acc0_0, acc0_1, owns_whole]; try rfl

end Cert.KernelIdeal.Hand

end
-- ==== Proof.KI.Reg0First.lean ====
import proofs.«172250_j15616501088594_1_alg».proof.Proof.KI.Reg0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At the grid's FIRST point: the two accumulators, found at any contents, are cleared and then take this block's column
    sums; the results block is stored whole; the two one-row outputs are left as found.
    The lists are the stores each buffer ends with (last first), found by running the body; with them comes the proof
    that on whole memrefs holding the stated contents the body runs to any continuation that accepts the inputs as
    they were and every written buffer with its stores applied. -/
noncomputable def runFirst0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_acc_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_acc_kernel_eq_skeleton]; unfold cc0__mlp_acc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Reg0Mid.lean ====
import proofs.«172250_j15616501088594_1_alg».proof.Proof.KI.Reg0First

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At a point that is neither first nor last: the two accumulators, found at what the point before left, take this
    block's column sums on top; the results block is stored whole; the two one-row outputs are left as found.
    The lists are the stores each buffer ends with (last first), found by running the body; with them comes the proof
    that on whole memrefs holding the stated contents the body runs to any continuation that accepts the inputs as
    they were and every written buffer with its stores applied. -/
noncomputable def runMid0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_acc_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_acc_kernel_eq_skeleton]; unfold cc0__mlp_acc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Reg0Last.lean ====
import proofs.«172250_j15616501088594_1_alg».proof.Proof.KI.Reg0Mid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At the grid's LAST point: as in the middle, and then the two accumulators are copied whole into the two one-row
    outputs.
    The lists are the stores each buffer ends with (last first), found by running the body; with them comes the proof
    that on whole memrefs holding the stated contents the body runs to any continuation that accepts the inputs as
    they were and every written buffer with its stores applied. -/
noncomputable def runLast0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_acc_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_acc_kernel_eq_skeleton]; unfold cc0__mlp_acc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Reg0.lean ====
import proofs.«172250_j15616501088594_1_alg».proof.Proof.KI.Reg0Last

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The dense-layer kernel of call 0: its proof data and body obligation

From the three runs: what each leaves in the buffers it writes, the contents point by point (the accumulation), the
proof data whose invariant carries the two accumulators from point to point, the body obligation, and the invariant's
two ends (made from, and giving back, the scoped buffers no window stages). -/

variable (V : (c : Dev nD) → (b : Ref sig .tc) → Buf (Elt F) ((c : Thread nD τ).loc b))

/-! ## What each run leaves -/

/-- The stores the first run ends the results block with tile it, so they cover it. -/
theorem coverFirst0_z (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (y : S2000x128.Idx) :
    ∃ pc ∈ (runFirst0 c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (runFirst0 c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y
/-- What the first run leaves in the results block: its stores read back. -/
def zFirst0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) : Vec F S2000x128 .f32 :=
  VZ0.read (Elt F) (VZ0.writes (Elt F) VZ0.junk (runFirst0 c i arg1 harg1 arg2 harg2 arg3 harg3 arg4 harg4 arg5 harg5 arg6 harg6 arg7 harg7 arg8 harg8 arg9 harg9 arg10 harg10 arg11 harg11 hc0 hc1 x0 x1 x2 x3 x4 x5).1)

/-- The stores the first run ends the first accumulator with tile it, so they cover it. -/
theorem coverFirst0_acc0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (y : S1x128.Idx) :
    ∃ pc ∈ (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y
/-- What the first run leaves in the first accumulator: its stores read back. -/
def acc0First0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) : Vec F S1x128 .f32 :=
  VA0_0.read (Elt F) (VA0_0.writes (Elt F) VA0_0.junk (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.1)

/-- The stores the first run ends the second accumulator with tile it, so they cover it. -/
theorem coverFirst0_acc1 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (y : S1x128.Idx) :
    ∃ pc ∈ (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y
/-- What the first run leaves in the second accumulator: its stores read back. -/
def acc1First0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) : Vec F S1x128 .f32 :=
  VA0_1.read (Elt F) (VA0_1.writes (Elt F) VA0_1.junk (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- The stores the middle run ends the results block with tile it, so they cover it. -/
theorem coverMid0_z (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S2000x128.Idx) :
    ∃ pc ∈ (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
/-- What the middle run leaves in the results block: its stores read back. -/
def zMid0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S2000x128 .f32 :=
  VZ0.read (Elt F) (VZ0.writes (Elt F) VZ0.junk (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The stores the middle run ends the first accumulator with tile it, so they cover it. -/
theorem coverMid0_acc0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What the middle run leaves in the first accumulator: its stores read back. -/
def acc0Mid0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S1x128 .f32 :=
  VA0_0.read (Elt F) (VA0_0.writes (Elt F) VA0_0.junk (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The stores the middle run ends the second accumulator with tile it, so they cover it. -/
theorem coverMid0_acc1 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What the middle run leaves in the second accumulator: its stores read back. -/
def acc1Mid0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S1x128 .f32 :=
  VA0_1.read (Elt F) (VA0_1.writes (Elt F) VA0_1.junk (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The stores the last run ends the results block with tile it, so they cover it. -/
theorem coverLast0_z (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S2000x128.Idx) :
    ∃ pc ∈ (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
/-- What the last run leaves in the results block: its stores read back. -/
def zLast0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S2000x128 .f32 :=
  VZ0.read (Elt F) (VZ0.writes (Elt F) VZ0.junk (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The stores the last run ends the first one-row output with tile it, so they cover it. -/
theorem coverLast0_o7 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What the last run leaves in the first one-row output: its stores read back. -/
def o7Last0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S1x128 .f32 :=
  VA0_0.read (Elt F) (VA0_0.writes (Elt F) VA0_0.junk (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The stores the last run ends the second one-row output with tile it, so they cover it. -/
theorem coverLast0_o8 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What the last run leaves in the second one-row output: its stores read back. -/
def o8Last0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S1x128 .f32 :=
  VA0_1.read (Elt F) (VA0_1.writes (Elt F) VA0_1.junk (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The stores the last run ends the first accumulator with tile it, so they cover it. -/
theorem coverLast0_acc0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
/-- What the last run leaves in the first accumulator: its stores read back. -/
def acc0Last0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S1x128 .f32 :=
  VA0_0.read (Elt F) (VA0_0.writes (Elt F) VA0_0.junk (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The stores the last run ends the second accumulator with tile it, so they cover it. -/
theorem coverLast0_acc1 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
/-- What the last run leaves in the second accumulator: its stores read back. -/
def acc1Last0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i)
    (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) : Vec F S1x128 .f32 :=
  VA0_1.read (Elt F) (VA0_1.writes (Elt F) VA0_1.junk (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The contents point by point -/

/-- THE ACCUMULATION. After the body at position `n`: the results block, the two one-row outputs (a placeholder away
    from the last point, where they are idle) and the two accumulators — the run of the point's case on the point's
    blocks, the accumulators entering at what position `n - 1` left. -/
def afterPt0 (c : Dev nD) : (n : ℕ) → n < cfg0.N → Vec F S2000x128 .f32 × Vec F S1x128 .f32 × Vec F S1x128 .f32 × Vec F S1x128 .f32 × Vec F S1x128 .f32
  | 0, hn => (zFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) acc0_0 (Memref.isWhole_whole _) acc0_1 (Memref.isWhole_whole _) ((atFirst0_iff ⟨0, hn⟩).mpr rfl) (fun h => absurd ((atLast0_iff ⟨0, hn⟩).mp h) (by decide : ¬((0 : ℕ) = 49))) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), (VA0_0.read (Elt F) VA0_0.junk), (VA0_0.read (Elt F) VA0_0.junk), acc0First0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) acc0_0 (Memref.isWhole_whole _) acc0_1 (Memref.isWhole_whole _) ((atFirst0_iff ⟨0, hn⟩).mpr rfl) (fun h => absurd ((atLast0_iff ⟨0, hn⟩).mp h) (by decide : ¬((0 : ℕ) = 49))) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), acc1First0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) acc0_0 (Memref.isWhole_whole _) acc0_1 (Memref.isWhole_whole _) ((atFirst0_iff ⟨0, hn⟩).mpr rfl) (fun h => absurd ((atLast0_iff ⟨0, hn⟩).mp h) (by decide : ¬((0 : ℕ) = 49))) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : n + 1 = 49 then
      (zLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) ((atLast0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2, o7Last0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) ((atLast0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2, o8Last0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) ((atLast0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2, acc0Last0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) ((atLast0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2, acc1Last0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) ((atLast0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2)
    else
      (zMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) (fun h => h1 ((atLast0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2, (VA0_0.read (Elt F) VA0_0.junk), (VA0_0.read (Elt F) VA0_0.junk), acc0Mid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) (fun h => h1 ((atLast0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2, acc1Mid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) acc0_0 (Memref.isWhole_whole _) acc0_1 (Memref.isWhole_whole _) (fun h => Nat.succ_ne_zero n ((atFirst0_iff ⟨n + 1, hn⟩).mp h)) (fun h => h1 ((atLast0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (afterPt0 c n (Nat.lt_of_succ_lt hn)).2.2.2.1 (afterPt0 c n (Nat.lt_of_succ_lt hn)).2.2.2.2)

/-- At the first point. -/
theorem afterPt0_first (c : Dev nD) (t : Fin cfg0.N) (h0 : t.val = 0) (h1 : t.val ≠ 49) :
    afterPt0 V c t.val t.isLt = (zFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) ((atFirst0_iff t).mpr h0) (fun h => h1 ((atLast0_iff t).mp h)) (iblk0 V c 0 t) (iblk0 V c 1 t) (iblk0 V c 2 t) (iblk0 V c 3 t) (iblk0 V c 4 t) (iblk0 V c 5 t), (VA0_0.read (Elt F) VA0_0.junk), (VA0_0.read (Elt F) VA0_0.junk), acc0First0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) ((atFirst0_iff t).mpr h0) (fun h => h1 ((atLast0_iff t).mp h)) (iblk0 V c 0 t) (iblk0 V c 1 t) (iblk0 V c 2 t) (iblk0 V c 3 t) (iblk0 V c 4 t) (iblk0 V c 5 t), acc1First0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) ((atFirst0_iff t).mpr h0) (fun h => h1 ((atLast0_iff t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact absurd h0 (Nat.succ_ne_zero n)

/-- At a middle point, over what the point before left. -/
theorem afterPt0_mid (c : Dev nD) (t : Fin cfg0.N) (h0 : t.val ≠ 0) (h1 : t.val ≠ 49) :
    afterPt0 V c t.val t.isLt = (zMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) (fun h => h1 ((atLast0_iff t).mp h)) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2, (VA0_0.read (Elt F) VA0_0.junk), (VA0_0.read (Elt F) VA0_0.junk), acc0Mid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) (fun h => h1 ((atLast0_iff t).mp h)) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2, acc1Mid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) (fun h => h1 ((atLast0_iff t).mp h)) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- At the last point, over what the point before left. -/
theorem afterPt0_last (c : Dev nD) (t : Fin cfg0.N) (h0 : t.val ≠ 0) (h1 : t.val = 49) :
    afterPt0 V c t.val t.isLt = (zLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) ((atLast0_iff t).mpr h1) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2, o7Last0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) ((atLast0_iff t).mpr h1) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2, o8Last0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) ((atLast0_iff t).mpr h1) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2, acc0Last0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) ((atLast0_iff t).mpr h1) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2, acc1Last0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) (fun h => h0 ((atFirst0_iff t).mp h)) ((atLast0_iff t).mpr h1) (iblk0 V c 0 t) (iblk0 V c 1 t) (iblk0 V c 2 t) (iblk0 V c 3 t) (iblk0 V c 4 t) (iblk0 V c 5 t) (afterPt0 V c (t.val - 1) (Nat.lt_of_le_of_lt (Nat.sub_le _ _) t.isLt)).2.2.2.1 (afterPt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant -/

/-- What passes every point untouched: the generator register at some state, and every scoped buffer that is neither
    a staging buffer of this call nor one of its two accumulators. -/
def passes0 (c : Dev nD) : sProp 𝕄 :=
  iprop((∃ r, prngReg c r) ∗ Pipeline.scopedRestBut (Ix := Unit) (Name := ℕ) (U := UR sig nD τ) (Lvl := ℕ) (Val := Elt F) spec0 c [cc0_scratch0, cc0_scratch1])

/-- The region invariant before position `n`: before the first point the two accumulators at anything; afterwards at
    what the point before left in them. -/
def Inv0 (c : Dev nD) : (n : ℕ) → n ≤ cfg0.N → sProp 𝕄
  | 0, _ => iprop(iprop((∃ d, owns (c : Thread nD τ) acc0_0 fullShare d) ∗ (∃ d, owns (c : Thread nD τ) acc0_1 fullShare d)) ∗ passes0 (F := F) c)
  | n + 1, hn => iprop(iprop(owns (c : Thread nD τ) acc0_0 fullShare (afterPt0 V c n hn).2.2.2.1 ∗ owns (c : Thread nD τ) acc0_1 fullShare (afterPt0 V c n hn).2.2.2.2) ∗ passes0 (F := F) c)

theorem Inv0_zero (c : Dev nD) (n : ℕ) (h : n ≤ cfg0.N) (hz : n = 0) :
    Inv0 V c n h = iprop(iprop((∃ d, owns (c : Thread nD τ) acc0_0 fullShare d) ∗ (∃ d, owns (c : Thread nD τ) acc0_1 fullShare d)) ∗ passes0 (F := F) c) := by
  subst hz; rfl

theorem Inv0_succ (c : Dev nD) (n : ℕ) (hn : n < cfg0.N) :
    Inv0 V c (n + 1) hn = iprop(iprop(owns (c : Thread nD τ) acc0_0 fullShare (afterPt0 V c n hn).2.2.2.1 ∗ owns (c : Thread nD τ) acc0_1 fullShare (afterPt0 V c n hn).2.2.2.2) ∗ passes0 (F := F) c) := rfl

theorem Inv0_pos (c : Dev nD) (n : ℕ) (h : n ≤ cfg0.N) (hz : n ≠ 0) :
    Inv0 V c n h = iprop(iprop(owns (c : Thread nD τ) acc0_0 fullShare (afterPt0 V c (n - 1) (by omega)).2.2.2.1 ∗ owns (c : Thread nD τ) acc0_1 fullShare (afterPt0 V c (n - 1) (by omega)).2.2.2.2) ∗ passes0 (F := F) c) := by
  cases n with
  | zero => exact absurd rfl hz
  | succ n => rfl

/-! ## The proof data -/

/-- The proof data of call 0 on core `c`: the arrays as the region finds them; after the body at point `t` each
    input's buffer at its block, the results block and the one-row outputs at the accumulation's components; the
    invariant `Inv0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (afterPt0 V c t.val t.isLt).1
    | ⟨7, _⟩ => (afterPt0 V c t.val t.isLt).2.1
    | ⟨8, _⟩ => (afterPt0 V c t.val t.isLt).2.2.1
  Φ t := Inv0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The proof data holds every window at the full share and owes nothing. -/
theorem q_eq0 (c : Dev nD) (w : Fin cfg0.W) : (dat0 V c).q w = fullShare := rfl
theorem owed_eq0 (c : Dev nD) (t : Fin (cfg0.N + 1)) : (dat0 V c).owed t = 0 := rfl

theorem Inv0_castSucc (c : Dev nD) (t : Fin cfg0.N) :
    (dat0 V c).Φ t.castSucc = Inv0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (afterPt0 V c t.val t.isLt).1 := by dsimp only [dat0]
theorem after0_7 (c : Dev nD) (t : Fin cfg0.N) : (dat0 V c).after 7 t = (afterPt0 V c t.val t.isLt).2.1 := by dsimp only [dat0]
theorem after0_8 (c : Dev nD) (t : Fin cfg0.N) : (dat0 V c).after 8 t = (afterPt0 V c t.val t.isLt).2.2.1 := by dsimp only [dat0]

theorem held0_0 (c : Dev nD) (t : Fin cfg0.N) (d) : (dat0 V c).before 0 t d = iblk0 V c 0 t :=
  held0_0_of V (dat0 V c) (A_eq0 V c 0) (after0_0 V c) t d
theorem held0_1 (c : Dev nD) (t : Fin cfg0.N) (d) : (dat0 V c).before 1 t d = iblk0 V c 1 t :=
  held0_1_of V (dat0 V c) (A_eq0 V c 1) (after0_1 V c) t d
theorem held0_2 (c : Dev nD) (t : Fin cfg0.N) (d) : (dat0 V c).before 2 t d = iblk0 V c 2 t :=
  held0_2_of V (dat0 V c) (A_eq0 V c 2) (after0_2 V c) t d
theorem held0_3 (c : Dev nD) (t : Fin cfg0.N) (d) : (dat0 V c).before 3 t d = iblk0 V c 3 t :=
  held0_3_of V (dat0 V c) (A_eq0 V c 3) (after0_3 V c) t d
theorem held0_4 (c : Dev nD) (t : Fin cfg0.N) (d) : (dat0 V c).before 4 t d = iblk0 V c 4 t :=
  held0_4_of V (dat0 V c) (A_eq0 V c 4) (after0_4 V c) t d
theorem held0_5 (c : Dev nD) (t : Fin cfg0.N) (d) : (dat0 V c).before 5 t d = iblk0 V c 5 t :=
  held0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point. The inputs' memrefs hold their blocks; the point is first, middle or last, and the run of that
    case applies: the invariant hands it the two accumulators (at anything before the first point, at what the point
    before left afterwards) and takes them back at this point's contents; away from the last point the one-row outputs
    go back as they came; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4, held0_5]
  rw [show (dat0 V c).owesAt () t.succ = (dat0 V c).owesAt () t.castSucc from rfl]
  rw [show (dat0 V c).Φ t.succ = Inv0 V c (t.val + 1) t.isLt from rfl, Inv0_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  rw [show (dat0 V c).leavesExact 5 t = owns (c : Thread nD τ) (ms0_5 t) fullShare ((dat0 V c).after 5 t) from by
    unfold Dat.leavesExact; rw [live0_5 t], after0_5]
  rw [show (dat0 V c).leavesExact 6 t = owns (c : Thread nD τ) (ms0_6 t) fullShare ((dat0 V c).after 6 t) from by
    unfold Dat.leavesExact; rw [live0_6 t], after0_6]
  by_cases h0 : t.val = 0
  · have h1 : t.val ≠ 49 := by omega
    rw [Dat.leavesExact_idle (dat0 V c) 7 t (idle0_7 t (fun h => h1 ((atLast0_iff t).mp h))) (noFlush0_7 t (fun h => h1 ((atLast0_iff t).mp h)))]
    rw [Dat.leavesExact_idle (dat0 V c) 8 t (idle0_8 t (fun h => h1 ((atLast0_iff t).mp h))) (noFlush0_8 t (fun h => h1 ((atLast0_iff t).mp h)))]
    rw [afterPt0_first V c t h0 h1]
    unfold zFirst0 acc0First0 acc1First0; (try dsimp only)
    rw [Inv0_castSucc V c t, Inv0_zero V c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst0 c (grid0.coords t) _ _ _ _ _ _ _ _ _ _ _ _ _ _ _ _ _ _ _ _ _ _ ((atFirst0_iff t).mpr h0) (fun h => h1 ((atLast0_iff t).mp h)) (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (coverFirst0_acc0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (coverFirst0_acc1 c _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverFirst0_z c _ _ _ _ _ _ _ _ _ _ _ _ _ _ _ _ _ _ _ _ _ _ _ _ _ _ _ _ _ _ _)
    isplitl [H7]; · iexists _; iexact H7
    iexists _; iexact H8
  · by_cases h1 : t.val = 49
    · rw [show (dat0 V c).leavesExact 7 t = owns (c : Thread nD τ) (ms0_7 t) fullShare ((dat0 V c).after 7 t) from by
        unfold Dat.leavesExact; rw [live0_7 t ((atLast0_iff t).mpr h1)], after0_7]
      rw [show (dat0 V c).leavesExact 8 t = owns (c : Thread nD τ) (ms0_8 t) fullShare ((dat0 V c).after 8 t) from by
        unfold Dat.leavesExact; rw [live0_8 t ((atLast0_iff t).mpr h1)], after0_8]
      rw [afterPt0_last V c t h0 h1]
      unfold zLast0 acc0Last0 acc1Last0 o7Last0 o8Last0; (try dsimp only)
      rw [Inv0_castSucc V c t, Inv0_pos V c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast0 c (grid0.coords t) _ _ _ _ _ _ _ _ _ _ _ _ _ _ _ _ _ _ _ _ _ _ (fun h => h0 ((atFirst0_iff t).mp h)) ((atLast0_iff t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLast0_acc0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverLast0_acc1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverLast0_z c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (coverLast0_o7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (coverLast0_o8 c _ _ _ _ _ _ _ _ _ _ _ _ _ _ _ _ _ _ _ _ _ _ _ _ _ _ _ _ _ _ _ _ _)

    · rw [Dat.leavesExact_idle (dat0 V c) 7 t (idle0_7 t (fun h => h1 ((atLast0_iff t).mp h))) (noFlush0_7 t (fun h => h1 ((atLast0_iff t).mp h)))]
      rw [Dat.leavesExact_idle (dat0 V c) 8 t (idle0_8 t (fun h => h1 ((atLast0_iff t).mp h))) (noFlush0_8 t (fun h => h1 ((atLast0_iff t).mp h)))]
      rw [afterPt0_mid V c t h0 h1]
      unfold zMid0 acc0Mid0 acc1Mid0; (try dsimp only)
      rw [Inv0_castSucc V c t, Inv0_pos V c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid0 c (grid0.coords t) _ _ _ _ _ _ _ _ _ _ _ _ _ _ _ _ _ _ _ _ _ _ (fun h => h0 ((atFirst0_iff t).mp h)) (fun h => h1 ((atLast0_iff t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMid0_acc0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverMid0_acc1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverMid0_z c _ _ _ _ _ _ _ _ _ _ _ _ _ _ _ _ _ _ _ _ _ _ _ _ _ _ _ _ _ _ _ _ _)
      isplitl [H7]; · iexists _; iexact H7
      iexists _; iexact H8

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- The generator register and the scoped buffers no window stages make the invariant before the first point. -/
theorem hin0 (c : Dev nD) :
    iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = Inv0 V c 0 (Nat.zero_le _) from rfl, Inv0_zero V c 0 _ rfl, scopedRest0_acc]
  unfold passes0
  iintro ⟨Hp, ⟨HS0, HS1⟩, Hr⟩
  isplitl [HS0 HS1]
  · isplitl [HS0]; · iexact HS0
    iexact HS1
  isplitl [Hp]; · iexact Hp
  iexact Hr

/-- After any point the invariant gives them back, the accumulators' contents forgotten. -/
theorem Inv0_out (c : Dev nD) (t : Fin (cfg0.N + 1)) (ht : t.val ≠ 0) :
    (dat0 V c).Φ t ⊢ iprop((∃ r, prngReg c r) ∗ Pipeline.scopedRest (Ix := Unit) (Name := ℕ) (U := UR sig nD τ) (Lvl := ℕ) (Val := Elt F) spec0 c) := by
  rw [show (dat0 V c).Φ t = Inv0 V c t.val (Nat.le_of_lt_succ t.isLt) from rfl, Inv0_pos V c _ _ ht, scopedRest0_acc]
  unfold passes0
  iintro ⟨⟨HS0, HS1⟩, Hp, Hr⟩
  isplitl [Hp]; · iexact Hp
  isplitl [HS0 HS1]
  · isplitl [HS0]; · iexists _; iexact HS0
    iexists _; iexact HS1
  iexact Hr

/-- In particular after the last point. -/
theorem hout0 (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) :=
  Inv0_out V c _ (by rw [Fin.val_last]; have : cfg0.N = 50 := N_0; omega)

end Cert.KernelIdeal.Hand

end
-- ==== Proof.KI.Reg2Runs.lean ====
import proofs.«172250_j15616501088594_1_alg».proof.Proof.Gen.KernelIdeal.Launch
import proofs.«172250_j15616501088594_1_alg».proof.Proof.Gen.KernelIdeal.Skeleton
import proofs.«172250_j15616501088594_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The dense-layer kernel of call 2: what its three runs share

The kernel works on one block of 2000 rows per grid point: it adds the two input blocks, applies two dense layers with
a rectifier after each, stores the block of results, and adds the results' column sums and the column sums of their
squares to two one-row accumulators that live across the grid. At the first point the accumulators are cleared before
use; at the last point they are copied to the two one-row outputs. Everything here is stated at the buffer contents
`V` the region is entered with. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetched it or the block
    index stood still, for any proof data over `V` whose body leaves the block in place. -/
theorem held2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetched it or the block
    index stood still, for any proof data over `V` whose body leaves the block in place. -/
theorem held2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetched it or the block
    index stood still, for any proof data over `V` whose body leaves the block in place. -/
theorem held2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the point fetched it or the block
    index stood still, for any proof data over `V` whose body leaves the block in place. -/
theorem held2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the point fetched it or the block
    index stood still, for any proof data over `V` whose body leaves the block in place. -/
theorem held2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the point fetched it or the block
    index stood still, for any proof data over `V` whose body leaves the block in place. -/
theorem held2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions on the grid point -/

/-- The kernel's first test: the point is the grid's first (the accumulators are cleared). -/
abbrev atFirst2 (i : grid2.Coords) : Prop := (Scalar.cmpi .ne (Scalar.extui (Scalar.cmpi .eq (BitVec.ofNat 32 (i 0).val) 0#32)) 0#32) = 1#1
/-- It holds at point 0 only. -/
theorem atFirst2_iff : ∀ t : Fin cfg2.N, atFirst2 (grid2.coords t) ↔ t.val = 0 :=
  (by decide +kernel : ∀ t : Fin grid2.N, atFirst2 (grid2.coords t) ↔ t.val = 0)

/-- The kernel's second test: the point is the grid's last (the accumulators are copied out). -/
abbrev atLast2 (i : grid2.Coords) : Prop := k2_cond2 i = 1#1
/-- It holds at point 49 only. -/
theorem atLast2_iff : ∀ t : Fin cfg2.N, atLast2 (grid2.coords t) ↔ t.val = 49 :=
  (by decide +kernel : ∀ t : Fin grid2.N, atLast2 (grid2.coords t) ↔ t.val = 49)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
theorem live2_6 : ∀ t : Fin cfg2.N, cfg2.idle 6 (grid2.coords t) = false := by decide +kernel
/-- Away from the last point the one-row output 7 is idle: nothing is stored into it, and it is not written back. -/
theorem idle2_7 : ∀ t : Fin cfg2.N, ¬atLast2 (grid2.coords t) → cfg2.idle 7 (grid2.coords t) = true := by decide +kernel
theorem noFlush2_7 : ∀ t : Fin cfg2.N, ¬atLast2 (grid2.coords t) → (cfg2.win 7).flush t = false := by decide +kernel
/-- At the last point it is live. -/
theorem live2_7 : ∀ t : Fin cfg2.N, atLast2 (grid2.coords t) → cfg2.idle 7 (grid2.coords t) = false := by decide +kernel
/-- Away from the last point the one-row output 8 is idle: nothing is stored into it, and it is not written back. -/
theorem idle2_8 : ∀ t : Fin cfg2.N, ¬atLast2 (grid2.coords t) → cfg2.idle 8 (grid2.coords t) = true := by decide +kernel
theorem noFlush2_8 : ∀ t : Fin cfg2.N, ¬atLast2 (grid2.coords t) → (cfg2.win 8).flush t = false := by decide +kernel
/-- At the last point it is live. -/
theorem live2_8 : ∀ t : Fin cfg2.N, atLast2 (grid2.coords t) → cfg2.idle 8 (grid2.coords t) = false := by decide +kernel

/-! ## The memrefs the body is called with -/

abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The two accumulators: whole scoped buffers of the kernel's own, passed beside the windows. -/
abbrev acc2_0 : Memref sig .tc .vmem S1x128 .f32 := Memref.whole cc2_scratch0
abbrev acc2_1 : Memref sig .tc .vmem S1x128 .f32 := Memref.whole cc2_scratch1
/-- Views through which the contents of the results block, the one-row outputs and the accumulators are stated. -/
abbrev VZ2 : View sig .tc .vmem S2000x128 .f32 := (Memref.whole cc2_stg6_0 : Memref sig .tc .vmem S2000x128 .f32).view
abbrev VA2_0 : View sig .tc .vmem S1x128 .f32 := acc2_0.view
abbrev VA2_1 : View sig .tc .vmem S1x128 .f32 := acc2_1.view

/-- The scoped buffers no window stages, split at the two accumulators (each owned whole at some contents) and the
    unopened remainder. -/
theorem scopedRest2_acc (c : Dev nD) :
    (Pipeline.scopedRest (Ix := Unit) (Name := ℕ) (U := UR sig nD τ) (Lvl := ℕ) (Val := Elt F) spec2 c : sProp 𝕄)
      = iprop(iprop((∃ d, owns (c : Thread nD τ) acc2_0 fullShare d) ∗ (∃ d, owns (c : Thread nD τ) acc2_1 fullShare d))
          ∗ Pipeline.scopedRestBut (Ix := Unit) (Name := ℕ) (U := UR sig nD τ) (Lvl := ℕ) (Val := Elt F) spec2 c [cc2_scratch0, cc2_scratch1]) := by
  rw [scopedRest2_split]; simp only [acc2_0, acc2_1, owns_whole]; try rfl

end Cert.KernelIdeal.Hand

end
-- ==== Proof.KI.Reg2First.lean ====
import proofs.«172250_j15616501088594_1_alg».proof.Proof.KI.Reg2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At the grid's FIRST point: the two accumulators, found at any contents, are cleared and then take this block's column
    sums; the results block is stored whole; the two one-row outputs are left as found.
    The lists are the stores each buffer ends with (last first), found by running the body; with them comes the proof
    that on whole memrefs holding the stated contents the body runs to any continuation that accepts the inputs as
    they were and every written buffer with its stores applied. -/
noncomputable def runFirst2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_acc_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__mlp_acc_kernel_eq_skeleton]; unfold cc2__mlp_acc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Reg2Mid.lean ====
import proofs.«172250_j15616501088594_1_alg».proof.Proof.KI.Reg2First

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At a point that is neither first nor last: the two accumulators, found at what the point before left, take this
    block's column sums on top; the results block is stored whole; the two one-row outputs are left as found.
    The lists are the stores each buffer ends with (last first), found by running the body; with them comes the proof
    that on whole memrefs holding the stated contents the body runs to any continuation that accepts the inputs as
    they were and every written buffer with its stores applied. -/
noncomputable def runMid2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_acc_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__mlp_acc_kernel_eq_skeleton]; unfold cc2__mlp_acc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Reg2Last.lean ====
import proofs.«172250_j15616501088594_1_alg».proof.Proof.KI.Reg2Mid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At the grid's LAST point: as in the middle, and then the two accumulators are copied whole into the two one-row
    outputs.
    The lists are the stores each buffer ends with (last first), found by running the body; with them comes the proof
    that on whole memrefs holding the stated contents the body runs to any continuation that accepts the inputs as
    they were and every written buffer with its stores applied. -/
noncomputable def runLast2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_acc_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_acc_kernel_eq_skeleton]; unfold cc2__mlp_acc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Reg2.lean ====
import proofs.«172250_j15616501088594_1_alg».proof.Proof.KI.Reg2Last

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The dense-layer kernel of call 2: its proof data and body obligation

From the three runs: what each leaves in the buffers it writes, the contents point by point (the accumulation), the
proof data whose invariant carries the two accumulators from point to point, the body obligation, and the invariant's
two ends (made from, and giving back, the scoped buffers no window stages). -/

variable (V : (c : Dev nD) → (b : Ref sig .tc) → Buf (Elt F) ((c : Thread nD τ).loc b))

/-! ## What each run leaves -/

/-- The stores the first run ends the results block with tile it, so they cover it. -/
theorem coverFirst2_z (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (y : S2000x128.Idx) :
    ∃ pc ∈ (runFirst2 c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (runFirst2 c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y
/-- What the first run leaves in the results block: its stores read back. -/
def zFirst2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) : Vec F S2000x128 .f32 :=
  VZ2.read (Elt F) (VZ2.writes (Elt F) VZ2.junk (runFirst2 c i arg1 harg1 arg2 harg2 arg3 harg3 arg4 harg4 arg5 harg5 arg6 harg6 arg7 harg7 arg8 harg8 arg9 harg9 arg10 harg10 arg11 harg11 hc0 hc1 x0 x1 x2 x3 x4 x5).1)

/-- The stores the first run ends the first accumulator with tile it, so they cover it. -/
theorem coverFirst2_acc0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (y : S1x128.Idx) :
    ∃ pc ∈ (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y
/-- What the first run leaves in the first accumulator: its stores read back. -/
def acc0First2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) : Vec F S1x128 .f32 :=
  VA2_0.read (Elt F) (VA2_0.writes (Elt F) VA2_0.junk (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.1)

/-- The stores the first run ends the second accumulator with tile it, so they cover it. -/
theorem coverFirst2_acc1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (y : S1x128.Idx) :
    ∃ pc ∈ (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y
/-- What the first run leaves in the second accumulator: its stores read back. -/
def acc1First2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) : Vec F S1x128 .f32 :=
  VA2_1.read (Elt F) (VA2_1.writes (Elt F) VA2_1.junk (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- The stores the middle run ends the results block with tile it, so they cover it. -/
theorem coverMid2_z (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S2000x128.Idx) :
    ∃ pc ∈ (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
/-- What the middle run leaves in the results block: its stores read back. -/
def zMid2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S2000x128 .f32 :=
  VZ2.read (Elt F) (VZ2.writes (Elt F) VZ2.junk (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The stores the middle run ends the first accumulator with tile it, so they cover it. -/
theorem coverMid2_acc0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What the middle run leaves in the first accumulator: its stores read back. -/
def acc0Mid2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA2_0.read (Elt F) (VA2_0.writes (Elt F) VA2_0.junk (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The stores the middle run ends the second accumulator with tile it, so they cover it. -/
theorem coverMid2_acc1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What the middle run leaves in the second accumulator: its stores read back. -/
def acc1Mid2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA2_1.read (Elt F) (VA2_1.writes (Elt F) VA2_1.junk (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The stores the last run ends the results block with tile it, so they cover it. -/
theorem coverLast2_z (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S2000x128.Idx) :
    ∃ pc ∈ (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
/-- What the last run leaves in the results block: its stores read back. -/
def zLast2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S2000x128 .f32 :=
  VZ2.read (Elt F) (VZ2.writes (Elt F) VZ2.junk (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The stores the last run ends the first one-row output with tile it, so they cover it. -/
theorem coverLast2_o7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What the last run leaves in the first one-row output: its stores read back. -/
def o7Last2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA2_0.read (Elt F) (VA2_0.writes (Elt F) VA2_0.junk (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The stores the last run ends the second one-row output with tile it, so they cover it. -/
theorem coverLast2_o8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What the last run leaves in the second one-row output: its stores read back. -/
def o8Last2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA2_1.read (Elt F) (VA2_1.writes (Elt F) VA2_1.junk (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The stores the last run ends the first accumulator with tile it, so they cover it. -/
theorem coverLast2_acc0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
/-- What the last run leaves in the first accumulator: its stores read back. -/
def acc0Last2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA2_0.read (Elt F) (VA2_0.writes (Elt F) VA2_0.junk (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The stores the last run ends the second accumulator with tile it, so they cover it. -/
theorem coverLast2_acc1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
/-- What the last run leaves in the second accumulator: its stores read back. -/
def acc1Last2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA2_1.read (Elt F) (VA2_1.writes (Elt F) VA2_1.junk (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The contents point by point -/

/-- THE ACCUMULATION. After the body at position `n`: the results block, the two one-row outputs (a placeholder away
    from the last point, where they are idle) and the two accumulators — the run of the point's case on the point's
    blocks, the accumulators entering at what position `n - 1` left. -/
def afterPt2 (c : Dev nD) : (n : ℕ) → n < cfg2.N → Vec F S2000x128 .f32 × Vec F S1x128 .f32 × Vec F S1x128 .f32 × Vec F S1x128 .f32 × Vec F S1x128 .f32
  | 0, hn => (zFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) acc2_0 (Memref.isWhole_whole _) acc2_1 (Memref.isWhole_whole _) ((atFirst2_iff ⟨0, hn⟩).mpr rfl) (fun h => absurd ((atLast2_iff ⟨0, hn⟩).mp h) (by decide : ¬((0 : ℕ) = 49))) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), (VA2_0.read (Elt F) VA2_0.junk), (VA2_0.read (Elt F) VA2_0.junk), acc0First2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) acc2_0 (Memref.isWhole_whole _) acc2_1 (Memref.isWhole_whole _) ((atFirst2_iff ⟨0, hn⟩).mpr rfl) (fun h => absurd ((atLast2_iff ⟨0, hn⟩).mp h) (by decide : ¬((0 : ℕ) = 49))) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), acc1First2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) acc2_0 (Memref.isWhole_whole _) acc2_1 (Memref.isWhole_whole _) ((atFirst2_iff ⟨0, hn⟩).mpr rfl) (fun h => absurd ((atLast2_iff ⟨0, hn⟩).mp h) (by decide : ¬((0 : ℕ) = 49))) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : n + 1 = 49 then
      (zLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) ((atLast2_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2, o7Last2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) ((atLast2_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2, o8Last2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) ((atLast2_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2, acc0Last2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) ((atLast2_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2, acc1Last2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) ((atLast2_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2)
    else
      (zMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) (fun h => h1 ((atLast2_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2, (VA2_0.read (Elt F) VA2_0.junk), (VA2_0.read (Elt F) VA2_0.junk), acc0Mid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) (fun h => h1 ((atLast2_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2, acc1Mid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) acc2_0 (Memref.isWhole_whole _) acc2_1 (Memref.isWhole_whole _) (fun h => Nat.succ_ne_zero n ((atFirst2_iff ⟨n + 1, hn⟩).mp h)) (fun h => h1 ((atLast2_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (afterPt2 c n (Nat.lt_of_succ_lt hn)).2.2.2.1 (afterPt2 c n (Nat.lt_of_succ_lt hn)).2.2.2.2)

/-- At the first point. -/
theorem afterPt2_first (c : Dev nD) (t : Fin cfg2.N) (h0 : t.val = 0) (h1 : t.val ≠ 49) :
    afterPt2 V c t.val t.isLt = (zFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) ((atFirst2_iff t).mpr h0) (fun h => h1 ((atLast2_iff t).mp h)) (iblk2 V c 0 t) (iblk2 V c 1 t) (iblk2 V c 2 t) (iblk2 V c 3 t) (iblk2 V c 4 t) (iblk2 V c 5 t), (VA2_0.read (Elt F) VA2_0.junk), (VA2_0.read (Elt F) VA2_0.junk), acc0First2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) ((atFirst2_iff t).mpr h0) (fun h => h1 ((atLast2_iff t).mp h)) (iblk2 V c 0 t) (iblk2 V c 1 t) (iblk2 V c 2 t) (iblk2 V c 3 t) (iblk2 V c 4 t) (iblk2 V c 5 t), acc1First2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) ((atFirst2_iff t).mpr h0) (fun h => h1 ((atLast2_iff t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact absurd h0 (Nat.succ_ne_zero n)

/-- At a middle point, over what the point before left. -/
theorem afterPt2_mid (c : Dev nD) (t : Fin cfg2.N) (h0 : t.val ≠ 0) (h1 : t.val ≠ 49) :
    afterPt2 V c t.val t.isLt = (zMid2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) (fun h => h1 ((atLast2_iff t).mp h)) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2, (VA2_0.read (Elt F) VA2_0.junk), (VA2_0.read (Elt F) VA2_0.junk), acc0Mid2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) (fun h => h1 ((atLast2_iff t).mp h)) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2, acc1Mid2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) (fun h => h1 ((atLast2_iff t).mp h)) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- At the last point, over what the point before left. -/
theorem afterPt2_last (c : Dev nD) (t : Fin cfg2.N) (h0 : t.val ≠ 0) (h1 : t.val = 49) :
    afterPt2 V c t.val t.isLt = (zLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) ((atLast2_iff t).mpr h1) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2, o7Last2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) ((atLast2_iff t).mpr h1) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2, o8Last2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) ((atLast2_iff t).mpr h1) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2, acc0Last2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) ((atLast2_iff t).mpr h1) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2, acc1Last2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) (fun h => h0 ((atFirst2_iff t).mp h)) ((atLast2_iff t).mpr h1) (iblk2 V c 0 t) (iblk2 V c 1 t) (iblk2 V c 2 t) (iblk2 V c 3 t) (iblk2 V c 4 t) (iblk2 V c 5 t) (afterPt2 V c (t.val - 1) (Nat.lt_of_le_of_lt (Nat.sub_le _ _) t.isLt)).2.2.2.1 (afterPt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant -/

/-- What passes every point untouched: the generator register at some state, and every scoped buffer that is neither
    a staging buffer of this call nor one of its two accumulators. -/
def passes2 (c : Dev nD) : sProp 𝕄 :=
  iprop((∃ r, prngReg c r) ∗ Pipeline.scopedRestBut (Ix := Unit) (Name := ℕ) (U := UR sig nD τ) (Lvl := ℕ) (Val := Elt F) spec2 c [cc2_scratch0, cc2_scratch1])

/-- The region invariant before position `n`: before the first point the two accumulators at anything; afterwards at
    what the point before left in them. -/
def Inv2 (c : Dev nD) : (n : ℕ) → n ≤ cfg2.N → sProp 𝕄
  | 0, _ => iprop(iprop((∃ d, owns (c : Thread nD τ) acc2_0 fullShare d) ∗ (∃ d, owns (c : Thread nD τ) acc2_1 fullShare d)) ∗ passes2 (F := F) c)
  | n + 1, hn => iprop(iprop(owns (c : Thread nD τ) acc2_0 fullShare (afterPt2 V c n hn).2.2.2.1 ∗ owns (c : Thread nD τ) acc2_1 fullShare (afterPt2 V c n hn).2.2.2.2) ∗ passes2 (F := F) c)

theorem Inv2_zero (c : Dev nD) (n : ℕ) (h : n ≤ cfg2.N) (hz : n = 0) :
    Inv2 V c n h = iprop(iprop((∃ d, owns (c : Thread nD τ) acc2_0 fullShare d) ∗ (∃ d, owns (c : Thread nD τ) acc2_1 fullShare d)) ∗ passes2 (F := F) c) := by
  subst hz; rfl

theorem Inv2_succ (c : Dev nD) (n : ℕ) (hn : n < cfg2.N) :
    Inv2 V c (n + 1) hn = iprop(iprop(owns (c : Thread nD τ) acc2_0 fullShare (afterPt2 V c n hn).2.2.2.1 ∗ owns (c : Thread nD τ) acc2_1 fullShare (afterPt2 V c n hn).2.2.2.2) ∗ passes2 (F := F) c) := rfl

theorem Inv2_pos (c : Dev nD) (n : ℕ) (h : n ≤ cfg2.N) (hz : n ≠ 0) :
    Inv2 V c n h = iprop(iprop(owns (c : Thread nD τ) acc2_0 fullShare (afterPt2 V c (n - 1) (by omega)).2.2.2.1 ∗ owns (c : Thread nD τ) acc2_1 fullShare (afterPt2 V c (n - 1) (by omega)).2.2.2.2) ∗ passes2 (F := F) c) := by
  cases n with
  | zero => exact absurd rfl hz
  | succ n => rfl

/-! ## The proof data -/

/-- The proof data of call 2 on core `c`: the arrays as the region finds them; after the body at point `t` each
    input's buffer at its block, the results block and the one-row outputs at the accumulation's components; the
    invariant `Inv2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (afterPt2 V c t.val t.isLt).1
    | ⟨7, _⟩ => (afterPt2 V c t.val t.isLt).2.1
    | ⟨8, _⟩ => (afterPt2 V c t.val t.isLt).2.2.1
  Φ t := Inv2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The proof data holds every window at the full share and owes nothing. -/
theorem q_eq2 (c : Dev nD) (w : Fin cfg2.W) : (dat2 V c).q w = fullShare := rfl
theorem owed_eq2 (c : Dev nD) (t : Fin (cfg2.N + 1)) : (dat2 V c).owed t = 0 := rfl

theorem Inv2_castSucc (c : Dev nD) (t : Fin cfg2.N) :
    (dat2 V c).Φ t.castSucc = Inv2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (afterPt2 V c t.val t.isLt).1 := by dsimp only [dat2]
theorem after2_7 (c : Dev nD) (t : Fin cfg2.N) : (dat2 V c).after 7 t = (afterPt2 V c t.val t.isLt).2.1 := by dsimp only [dat2]
theorem after2_8 (c : Dev nD) (t : Fin cfg2.N) : (dat2 V c).after 8 t = (afterPt2 V c t.val t.isLt).2.2.1 := by dsimp only [dat2]

theorem held2_0 (c : Dev nD) (t : Fin cfg2.N) (d) : (dat2 V c).before 0 t d = iblk2 V c 0 t :=
  held2_0_of V (dat2 V c) (A_eq2 V c 0) (after2_0 V c) t d
theorem held2_1 (c : Dev nD) (t : Fin cfg2.N) (d) : (dat2 V c).before 1 t d = iblk2 V c 1 t :=
  held2_1_of V (dat2 V c) (A_eq2 V c 1) (after2_1 V c) t d
theorem held2_2 (c : Dev nD) (t : Fin cfg2.N) (d) : (dat2 V c).before 2 t d = iblk2 V c 2 t :=
  held2_2_of V (dat2 V c) (A_eq2 V c 2) (after2_2 V c) t d
theorem held2_3 (c : Dev nD) (t : Fin cfg2.N) (d) : (dat2 V c).before 3 t d = iblk2 V c 3 t :=
  held2_3_of V (dat2 V c) (A_eq2 V c 3) (after2_3 V c) t d
theorem held2_4 (c : Dev nD) (t : Fin cfg2.N) (d) : (dat2 V c).before 4 t d = iblk2 V c 4 t :=
  held2_4_of V (dat2 V c) (A_eq2 V c 4) (after2_4 V c) t d
theorem held2_5 (c : Dev nD) (t : Fin cfg2.N) (d) : (dat2 V c).before 5 t d = iblk2 V c 5 t :=
  held2_5_of V (dat2 V c) (A_eq2 V c 5) (after2_5 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point. The inputs' memrefs hold their blocks; the point is first, middle or last, and the run of that
    case applies: the invariant hands it the two accumulators (at anything before the first point, at what the point
    before left afterwards) and takes them back at this point's contents; away from the last point the one-row outputs
    go back as they came; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1, held2_2, held2_3, held2_4, held2_5]
  rw [show (dat2 V c).owesAt () t.succ = (dat2 V c).owesAt () t.castSucc from rfl]
  rw [show (dat2 V c).Φ t.succ = Inv2 V c (t.val + 1) t.isLt from rfl, Inv2_succ]
  have hN : t.val < 50 := lt_of_lt_of_eq t.isLt (show cfg2.N = 50 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  rw [show (dat2 V c).leavesExact 3 t = owns (c : Thread nD τ) (ms2_3 t) fullShare ((dat2 V c).after 3 t) from by
    unfold Dat.leavesExact; rw [live2_3 t], after2_3]
  rw [show (dat2 V c).leavesExact 4 t = owns (c : Thread nD τ) (ms2_4 t) fullShare ((dat2 V c).after 4 t) from by
    unfold Dat.leavesExact; rw [live2_4 t], after2_4]
  rw [show (dat2 V c).leavesExact 5 t = owns (c : Thread nD τ) (ms2_5 t) fullShare ((dat2 V c).after 5 t) from by
    unfold Dat.leavesExact; rw [live2_5 t], after2_5]
  rw [show (dat2 V c).leavesExact 6 t = owns (c : Thread nD τ) (ms2_6 t) fullShare ((dat2 V c).after 6 t) from by
    unfold Dat.leavesExact; rw [live2_6 t], after2_6]
  by_cases h0 : t.val = 0
  · have h1 : t.val ≠ 49 := by omega
    rw [Dat.leavesExact_idle (dat2 V c) 7 t (idle2_7 t (fun h => h1 ((atLast2_iff t).mp h))) (noFlush2_7 t (fun h => h1 ((atLast2_iff t).mp h)))]
    rw [Dat.leavesExact_idle (dat2 V c) 8 t (idle2_8 t (fun h => h1 ((atLast2_iff t).mp h))) (noFlush2_8 t (fun h => h1 ((atLast2_iff t).mp h)))]
    rw [afterPt2_first V c t h0 h1]
    unfold zFirst2 acc0First2 acc1First2; (try dsimp only)
    rw [Inv2_castSucc V c t, Inv2_zero V c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst2 c (grid2.coords t) _ _ _ _ _ _ _ _ _ _ _ _ _ _ _ _ _ _ _ _ _ _ ((atFirst2_iff t).mpr h0) (fun h => h1 ((atLast2_iff t).mp h)) (iblk2 V c 0 t) (iblk2 V c 1 t) (iblk2 V c 2 t) (iblk2 V c 3 t) (iblk2 V c 4 t) (iblk2 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (coverFirst2_acc0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (coverFirst2_acc1 c _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverFirst2_z c _ _ _ _ _ _ _ _ _ _ _ _ _ _ _ _ _ _ _ _ _ _ _ _ _ _ _ _ _ _ _)
    isplitl [H7]; · iexists _; iexact H7
    iexists _; iexact H8
  · by_cases h1 : t.val = 49
    · rw [show (dat2 V c).leavesExact 7 t = owns (c : Thread nD τ) (ms2_7 t) fullShare ((dat2 V c).after 7 t) from by
        unfold Dat.leavesExact; rw [live2_7 t ((atLast2_iff t).mpr h1)], after2_7]
      rw [show (dat2 V c).leavesExact 8 t = owns (c : Thread nD τ) (ms2_8 t) fullShare ((dat2 V c).after 8 t) from by
        unfold Dat.leavesExact; rw [live2_8 t ((atLast2_iff t).mpr h1)], after2_8]
      rw [afterPt2_last V c t h0 h1]
      unfold zLast2 acc0Last2 acc1Last2 o7Last2 o8Last2; (try dsimp only)
      rw [Inv2_castSucc V c t, Inv2_pos V c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast2 c (grid2.coords t) _ _ _ _ _ _ _ _ _ _ _ _ _ _ _ _ _ _ _ _ _ _ (fun h => h0 ((atFirst2_iff t).mp h)) ((atLast2_iff t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLast2_acc0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverLast2_acc1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverLast2_z c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (coverLast2_o7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (coverLast2_o8 c _ _ _ _ _ _ _ _ _ _ _ _ _ _ _ _ _ _ _ _ _ _ _ _ _ _ _ _ _ _ _ _ _)

    · rw [Dat.leavesExact_idle (dat2 V c) 7 t (idle2_7 t (fun h => h1 ((atLast2_iff t).mp h))) (noFlush2_7 t (fun h => h1 ((atLast2_iff t).mp h)))]
      rw [Dat.leavesExact_idle (dat2 V c) 8 t (idle2_8 t (fun h => h1 ((atLast2_iff t).mp h))) (noFlush2_8 t (fun h => h1 ((atLast2_iff t).mp h)))]
      rw [afterPt2_mid V c t h0 h1]
      unfold zMid2 acc0Mid2 acc1Mid2; (try dsimp only)
      rw [Inv2_castSucc V c t, Inv2_pos V c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid2 c (grid2.coords t) _ _ _ _ _ _ _ _ _ _ _ _ _ _ _ _ _ _ _ _ _ _ (fun h => h0 ((atFirst2_iff t).mp h)) (fun h => h1 ((atLast2_iff t).mp h)) (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMid2_acc0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverMid2_acc1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverMid2_z c _ _ _ _ _ _ _ _ _ _ _ _ _ _ _ _ _ _ _ _ _ _ _ _ _ _ _ _ _ _ _ _ _)
      isplitl [H7]; · iexists _; iexact H7
      iexists _; iexact H8

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- The generator register and the scoped buffers no window stages make the invariant before the first point. -/
theorem hin2 (c : Dev nD) :
    iprop((∃ r, prngReg c r) ∗ Pipeline.scopedRest (Ix := Unit) (Name := ℕ) (U := UR sig nD τ) (Lvl := ℕ) (Val := Elt F) spec2 c) ⊢ (dat2 V c).Φ 0 := by
  rw [show (dat2 V c).Φ 0 = Inv2 V c 0 (Nat.zero_le _) from rfl, Inv2_zero V c 0 _ rfl, scopedRest2_acc]
  unfold passes2
  iintro ⟨Hp, ⟨HS0, HS1⟩, Hr⟩
  isplitl [HS0 HS1]
  · isplitl [HS0]; · iexact HS0
    iexact HS1
  isplitl [Hp]; · iexact Hp
  iexact Hr

/-- After any point the invariant gives them back, the accumulators' contents forgotten. -/
theorem Inv2_out (c : Dev nD) (t : Fin (cfg2.N + 1)) (ht : t.val ≠ 0) :
    (dat2 V c).Φ t ⊢ iprop((∃ r, prngReg c r) ∗ Pipeline.scopedRest (Ix := Unit) (Name := ℕ) (U := UR sig nD τ) (Lvl := ℕ) (Val := Elt F) spec2 c) := by
  rw [show (dat2 V c).Φ t = Inv2 V c t.val (Nat.le_of_lt_succ t.isLt) from rfl, Inv2_pos V c _ _ ht, scopedRest2_acc]
  unfold passes2
  iintro ⟨⟨HS0, HS1⟩, Hp, Hr⟩
  isplitl [Hp]; · iexact Hp
  isplitl [HS0 HS1]
  · isplitl [HS0]; · iexists _; iexact HS0
    iexists _; iexact HS1
  iexact Hr

/-- In particular after the last point. -/
theorem hout2 (c : Dev nD) :
    (dat2 V c).Φ (Fin.last cfg2.N) ⊢ iprop((∃ r, prngReg c r) ∗ Pipeline.scopedRest (Ix := Unit) (Name := ℕ) (U := UR sig nD τ) (Lvl := ℕ) (Val := Elt F) spec2 c) :=
  Inv2_out V c _ (by rw [Fin.val_last]; have : cfg2.N = 50 := N_2; omega)

end Cert.KernelIdeal.Hand

end
-- ==== Proof.KI.Reg4Runs.lean ====
import proofs.«172250_j15616501088594_1_alg».proof.Proof.Gen.KernelIdeal.Launch
import proofs.«172250_j15616501088594_1_alg».proof.Proof.Gen.KernelIdeal.Skeleton
import proofs.«172250_j15616501088594_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The dense-layer kernel of call 4: what its three runs share

The kernel works on one block of 2000 rows per grid point: it adds the two input blocks, applies two dense layers with
a rectifier after each, stores the block of results, and adds the results' column sums and the column sums of their
squares to two one-row accumulators that live across the grid. At the first point the accumulators are cleared before
use; at the last point they are copied to the two one-row outputs. Everything here is stated at the buffer contents
`V` the region is entered with. -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the point fetched it or the block
    index stood still, for any proof data over `V` whose body leaves the block in place. -/
theorem held4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the point fetched it or the block
    index stood still, for any proof data over `V` whose body leaves the block in place. -/
theorem held4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the point fetched it or the block
    index stood still, for any proof data over `V` whose body leaves the block in place. -/
theorem held4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether the point fetched it or the block
    index stood still, for any proof data over `V` whose body leaves the block in place. -/
theorem held4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether the point fetched it or the block
    index stood still, for any proof data over `V` whose body leaves the block in place. -/
theorem held4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, whether the point fetched it or the block
    index stood still, for any proof data over `V` whose body leaves the block in place. -/
theorem held4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions on the grid point -/

/-- The kernel's first test: the point is the grid's first (the accumulators are cleared). -/
abbrev atFirst4 (i : grid4.Coords) : Prop := (Scalar.cmpi .ne (Scalar.extui (Scalar.cmpi .eq (BitVec.ofNat 32 (i 0).val) 0#32)) 0#32) = 1#1
/-- It holds at point 0 only. -/
theorem atFirst4_iff : ∀ t : Fin cfg4.N, atFirst4 (grid4.coords t) ↔ t.val = 0 :=
  (by decide +kernel : ∀ t : Fin grid4.N, atFirst4 (grid4.coords t) ↔ t.val = 0)

/-- The kernel's second test: the point is the grid's last (the accumulators are copied out). -/
abbrev atLast4 (i : grid4.Coords) : Prop := k4_cond2 i = 1#1
/-- It holds at point 49 only. -/
theorem atLast4_iff : ∀ t : Fin cfg4.N, atLast4 (grid4.coords t) ↔ t.val = 49 :=
  (by decide +kernel : ∀ t : Fin grid4.N, atLast4 (grid4.coords t) ↔ t.val = 49)

/-! ## Where the windows are idle -/

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
theorem live4_5 : ∀ t : Fin cfg4.N, cfg4.idle 5 (grid4.coords t) = false := by decide +kernel
theorem live4_6 : ∀ t : Fin cfg4.N, cfg4.idle 6 (grid4.coords t) = false := by decide +kernel
/-- Away from the last point the one-row output 7 is idle: nothing is stored into it, and it is not written back. -/
theorem idle4_7 : ∀ t : Fin cfg4.N, ¬atLast4 (grid4.coords t) → cfg4.idle 7 (grid4.coords t) = true := by decide +kernel
theorem noFlush4_7 : ∀ t : Fin cfg4.N, ¬atLast4 (grid4.coords t) → (cfg4.win 7).flush t = false := by decide +kernel
/-- At the last point it is live. -/
theorem live4_7 : ∀ t : Fin cfg4.N, atLast4 (grid4.coords t) → cfg4.idle 7 (grid4.coords t) = false := by decide +kernel
/-- Away from the last point the one-row output 8 is idle: nothing is stored into it, and it is not written back. -/
theorem idle4_8 : ∀ t : Fin cfg4.N, ¬atLast4 (grid4.coords t) → cfg4.idle 8 (grid4.coords t) = true := by decide +kernel
theorem noFlush4_8 : ∀ t : Fin cfg4.N, ¬atLast4 (grid4.coords t) → (cfg4.win 8).flush t = false := by decide +kernel
/-- At the last point it is live. -/
theorem live4_8 : ∀ t : Fin cfg4.N, atLast4 (grid4.coords t) → cfg4.idle 8 (grid4.coords t) = false := by decide +kernel

/-! ## The memrefs the body is called with -/

abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .bf16 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
/-- The two accumulators: whole scoped buffers of the kernel's own, passed beside the windows. -/
abbrev acc4_0 : Memref sig .tc .vmem S1x128 .f32 := Memref.whole cc4_scratch0
abbrev acc4_1 : Memref sig .tc .vmem S1x128 .f32 := Memref.whole cc4_scratch1
/-- Views through which the contents of the results block, the one-row outputs and the accumulators are stated. -/
abbrev VZ4 : View sig .tc .vmem S2000x128 .f32 := (Memref.whole cc4_stg6_0 : Memref sig .tc .vmem S2000x128 .f32).view
abbrev VA4_0 : View sig .tc .vmem S1x128 .f32 := acc4_0.view
abbrev VA4_1 : View sig .tc .vmem S1x128 .f32 := acc4_1.view

/-- The scoped buffers no window stages, split at the two accumulators (each owned whole at some contents) and the
    unopened remainder. -/
theorem scopedRest4_acc (c : Dev nD) :
    (Pipeline.scopedRest (Ix := Unit) (Name := ℕ) (U := UR sig nD τ) (Lvl := ℕ) (Val := Elt F) spec4 c : sProp 𝕄)
      = iprop(iprop((∃ d, owns (c : Thread nD τ) acc4_0 fullShare d) ∗ (∃ d, owns (c : Thread nD τ) acc4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [acc4_0, acc4_1, owns_whole]; try rfl

end Cert.KernelIdeal.Hand

end
-- ==== Proof.KI.Reg4First.lean ====
import proofs.«172250_j15616501088594_1_alg».proof.Proof.KI.Reg4Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At the grid's FIRST point: the two accumulators, found at any contents, are cleared and then take this block's column
    sums; the results block is stored whole; the two one-row outputs are left as found.
    The lists are the stores each buffer ends with (last first), found by running the body; with them comes the proof
    that on whole memrefs holding the stated contents the body runs to any continuation that accepts the inputs as
    they were and every written buffer with its stores applied. -/
noncomputable def runFirst4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_acc_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc4__mlp_acc_kernel_eq_skeleton]; unfold cc4__mlp_acc_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Reg4Mid.lean ====
import proofs.«172250_j15616501088594_1_alg».proof.Proof.KI.Reg4First

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At a point that is neither first nor last: the two accumulators, found at what the point before left, take this
    block's column sums on top; the results block is stored whole; the two one-row outputs are left as found.
    The lists are the stores each buffer ends with (last first), found by running the body; with them comes the proof
    that on whole memrefs holding the stated contents the body runs to any continuation that accepts the inputs as
    they were and every written buffer with its stores applied. -/
noncomputable def runMid4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_acc_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc4__mlp_acc_kernel_eq_skeleton]; unfold cc4__mlp_acc_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Reg4Last.lean ====
import proofs.«172250_j15616501088594_1_alg».proof.Proof.KI.Reg4Mid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At the grid's LAST point: as in the middle, and then the two accumulators are copied whole into the two one-row
    outputs.
    The lists are the stores each buffer ends with (last first), found by running the body; with them comes the proof
    that on whole memrefs holding the stated contents the body runs to any continuation that accepts the inputs as
    they were and every written buffer with its stores applied. -/
noncomputable def runLast4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_acc_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc4__mlp_acc_kernel_eq_skeleton]; unfold cc4__mlp_acc_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Reg4.lean ====
import proofs.«172250_j15616501088594_1_alg».proof.Proof.KI.Reg4Last

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The dense-layer kernel of call 4: its proof data and body obligation

From the three runs: what each leaves in the buffers it writes, the contents point by point (the accumulation), the
proof data whose invariant carries the two accumulators from point to point, the body obligation, and the invariant's
two ends (made from, and giving back, the scoped buffers no window stages). -/

variable (V : (c : Dev nD) → (b : Ref sig .tc) → Buf (Elt F) ((c : Thread nD τ).loc b))

/-! ## What each run leaves -/

/-- The stores the first run ends the results block with tile it, so they cover it. -/
theorem coverFirst4_z (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (y : S2000x128.Idx) :
    ∃ pc ∈ (runFirst4 c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (runFirst4 c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y
/-- What the first run leaves in the results block: its stores read back. -/
def zFirst4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) : Vec F S2000x128 .f32 :=
  VZ4.read (Elt F) (VZ4.writes (Elt F) VZ4.junk (runFirst4 c i arg1 harg1 arg2 harg2 arg3 harg3 arg4 harg4 arg5 harg5 arg6 harg6 arg7 harg7 arg8 harg8 arg9 harg9 arg10 harg10 arg11 harg11 hc0 hc1 x0 x1 x2 x3 x4 x5).1)

/-- The stores the first run ends the first accumulator with tile it, so they cover it. -/
theorem coverFirst4_acc0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (y : S1x128.Idx) :
    ∃ pc ∈ (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y
/-- What the first run leaves in the first accumulator: its stores read back. -/
def acc0First4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) : Vec F S1x128 .f32 :=
  VA4_0.read (Elt F) (VA4_0.writes (Elt F) VA4_0.junk (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.1)

/-- The stores the first run ends the second accumulator with tile it, so they cover it. -/
theorem coverFirst4_acc1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (y : S1x128.Idx) :
    ∃ pc ∈ (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y
/-- What the first run leaves in the second accumulator: its stores read back. -/
def acc1First4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) : Vec F S1x128 .f32 :=
  VA4_1.read (Elt F) (VA4_1.writes (Elt F) VA4_1.junk (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- The stores the middle run ends the results block with tile it, so they cover it. -/
theorem coverMid4_z (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S2000x128.Idx) :
    ∃ pc ∈ (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
/-- What the middle run leaves in the results block: its stores read back. -/
def zMid4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S2000x128 .f32 :=
  VZ4.read (Elt F) (VZ4.writes (Elt F) VZ4.junk (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The stores the middle run ends the first accumulator with tile it, so they cover it. -/
theorem coverMid4_acc0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What the middle run leaves in the first accumulator: its stores read back. -/
def acc0Mid4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA4_0.read (Elt F) (VA4_0.writes (Elt F) VA4_0.junk (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The stores the middle run ends the second accumulator with tile it, so they cover it. -/
theorem coverMid4_acc1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What the middle run leaves in the second accumulator: its stores read back. -/
def acc1Mid4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA4_1.read (Elt F) (VA4_1.writes (Elt F) VA4_1.junk (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The stores the last run ends the results block with tile it, so they cover it. -/
theorem coverLast4_z (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S2000x128.Idx) :
    ∃ pc ∈ (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
/-- What the last run leaves in the results block: its stores read back. -/
def zLast4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S2000x128 .f32 :=
  VZ4.read (Elt F) (VZ4.writes (Elt F) VZ4.junk (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- The stores the last run ends the first one-row output with tile it, so they cover it. -/
theorem coverLast4_o7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What the last run leaves in the first one-row output: its stores read back. -/
def o7Last4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA4_0.read (Elt F) (VA4_0.writes (Elt F) VA4_0.junk (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- The stores the last run ends the second one-row output with tile it, so they cover it. -/
theorem coverLast4_o8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What the last run leaves in the second one-row output: its stores read back. -/
def o8Last4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA4_1.read (Elt F) (VA4_1.writes (Elt F) VA4_1.junk (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The stores the last run ends the first accumulator with tile it, so they cover it. -/
theorem coverLast4_acc0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
/-- What the last run leaves in the first accumulator: its stores read back. -/
def acc0Last4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA4_0.read (Elt F) (VA4_0.writes (Elt F) VA4_0.junk (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The stores the last run ends the second accumulator with tile it, so they cover it. -/
theorem coverLast4_acc1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) (y : S1x128.Idx) :
    ∃ pc ∈ (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
/-- What the last run leaves in the second accumulator: its stores read back. -/
def acc1Last4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i)
    (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) : Vec F S1x128 .f32 :=
  VA4_1.read (Elt F) (VA4_1.writes (Elt F) VA4_1.junk (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The contents point by point -/

/-- THE ACCUMULATION. After the body at position `n`: the results block, the two one-row outputs (a placeholder away
    from the last point, where they are idle) and the two accumulators — the run of the point's case on the point's
    blocks, the accumulators entering at what position `n - 1` left. -/
def afterPt4 (c : Dev nD) : (n : ℕ) → n < cfg4.N → Vec F S2000x128 .f32 × Vec F S1x128 .f32 × Vec F S1x128 .f32 × Vec F S1x128 .f32 × Vec F S1x128 .f32
  | 0, hn => (zFirst4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) acc4_0 (Memref.isWhole_whole _) acc4_1 (Memref.isWhole_whole _) ((atFirst4_iff ⟨0, hn⟩).mpr rfl) (fun h => absurd ((atLast4_iff ⟨0, hn⟩).mp h) (by decide : ¬((0 : ℕ) = 49))) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), (VA4_0.read (Elt F) VA4_0.junk), (VA4_0.read (Elt F) VA4_0.junk), acc0First4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) acc4_0 (Memref.isWhole_whole _) acc4_1 (Memref.isWhole_whole _) ((atFirst4_iff ⟨0, hn⟩).mpr rfl) (fun h => absurd ((atLast4_iff ⟨0, hn⟩).mp h) (by decide : ¬((0 : ℕ) = 49))) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), acc1First4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) acc4_0 (Memref.isWhole_whole _) acc4_1 (Memref.isWhole_whole _) ((atFirst4_iff ⟨0, hn⟩).mpr rfl) (fun h => absurd ((atLast4_iff ⟨0, hn⟩).mp h) (by decide : ¬((0 : ℕ) = 49))) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h1 : n + 1 = 49 then
      (zLast4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) ((atLast4_iff ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2, o7Last4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) ((atLast4_iff ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2, o8Last4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) ((atLast4_iff ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2, acc0Last4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) ((atLast4_iff ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2, acc1Last4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) ((atLast4_iff ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2)
    else
      (zMid4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) (fun h => h1 ((atLast4_iff ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2, (VA4_0.read (Elt F) VA4_0.junk), (VA4_0.read (Elt F) VA4_0.junk), acc0Mid4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) (fun h => h1 ((atLast4_iff ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2, acc1Mid4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) acc4_0 (Memref.isWhole_whole _) acc4_1 (Memref.isWhole_whole _) (fun h => Nat.succ_ne_zero n ((atFirst4_iff ⟨n + 1, hn⟩).mp h)) (fun h => h1 ((atLast4_iff ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (afterPt4 c n (Nat.lt_of_succ_lt hn)).2.2.2.1 (afterPt4 c n (Nat.lt_of_succ_lt hn)).2.2.2.2)

/-- At the first point. -/
theorem afterPt4_first (c : Dev nD) (t : Fin cfg4.N) (h0 : t.val = 0) (h1 : t.val ≠ 49) :
    afterPt4 V c t.val t.isLt = (zFirst4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) ((atFirst4_iff t).mpr h0) (fun h => h1 ((atLast4_iff t).mp h)) (iblk4 V c 0 t) (iblk4 V c 1 t) (iblk4 V c 2 t) (iblk4 V c 3 t) (iblk4 V c 4 t) (iblk4 V c 5 t), (VA4_0.read (Elt F) VA4_0.junk), (VA4_0.read (Elt F) VA4_0.junk), acc0First4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) ((atFirst4_iff t).mpr h0) (fun h => h1 ((atLast4_iff t).mp h)) (iblk4 V c 0 t) (iblk4 V c 1 t) (iblk4 V c 2 t) (iblk4 V c 3 t) (iblk4 V c 4 t) (iblk4 V c 5 t), acc1First4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) ((atFirst4_iff t).mpr h0) (fun h => h1 ((atLast4_iff t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact absurd h0 (Nat.succ_ne_zero n)

/-- At a middle point, over what the point before left. -/
theorem afterPt4_mid (c : Dev nD) (t : Fin cfg4.N) (h0 : t.val ≠ 0) (h1 : t.val ≠ 49) :
    afterPt4 V c t.val t.isLt = (zMid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) (fun h => h1 ((atLast4_iff t).mp h)) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2, (VA4_0.read (Elt F) VA4_0.junk), (VA4_0.read (Elt F) VA4_0.junk), acc0Mid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) (fun h => h1 ((atLast4_iff t).mp h)) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2, acc1Mid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) (fun h => h1 ((atLast4_iff t).mp h)) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- At the last point, over what the point before left. -/
theorem afterPt4_last (c : Dev nD) (t : Fin cfg4.N) (h0 : t.val ≠ 0) (h1 : t.val = 49) :
    afterPt4 V c t.val t.isLt = (zLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) ((atLast4_iff t).mpr h1) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2, o7Last4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) ((atLast4_iff t).mpr h1) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2, o8Last4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) ((atLast4_iff t).mpr h1) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2, acc0Last4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) ((atLast4_iff t).mpr h1) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2, acc1Last4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) (fun h => h0 ((atFirst4_iff t).mp h)) ((atLast4_iff t).mpr h1) (iblk4 V c 0 t) (iblk4 V c 1 t) (iblk4 V c 2 t) (iblk4 V c 3 t) (iblk4 V c 4 t) (iblk4 V c 5 t) (afterPt4 V c (t.val - 1) (Nat.lt_of_le_of_lt (Nat.sub_le _ _) t.isLt)).2.2.2.1 (afterPt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant -/

/-- What passes every point untouched: the generator register at some state, and every scoped buffer that is neither
    a staging buffer of this call nor one of its two accumulators. -/
def passes4 (c : Dev nD) : sProp 𝕄 :=
  iprop((∃ r, prngReg c r) ∗ Pipeline.scopedRestBut (Ix := Unit) (Name := ℕ) (U := UR sig nD τ) (Lvl := ℕ) (Val := Elt F) spec4 c [cc4_scratch0, cc4_scratch1])

/-- The region invariant before position `n`: before the first point the two accumulators at anything; afterwards at
    what the point before left in them. -/
def Inv4 (c : Dev nD) : (n : ℕ) → n ≤ cfg4.N → sProp 𝕄
  | 0, _ => iprop(iprop((∃ d, owns (c : Thread nD τ) acc4_0 fullShare d) ∗ (∃ d, owns (c : Thread nD τ) acc4_1 fullShare d)) ∗ passes4 (F := F) c)
  | n + 1, hn => iprop(iprop(owns (c : Thread nD τ) acc4_0 fullShare (afterPt4 V c n hn).2.2.2.1 ∗ owns (c : Thread nD τ) acc4_1 fullShare (afterPt4 V c n hn).2.2.2.2) ∗ passes4 (F := F) c)

theorem Inv4_zero (c : Dev nD) (n : ℕ) (h : n ≤ cfg4.N) (hz : n = 0) :
    Inv4 V c n h = iprop(iprop((∃ d, owns (c : Thread nD τ) acc4_0 fullShare d) ∗ (∃ d, owns (c : Thread nD τ) acc4_1 fullShare d)) ∗ passes4 (F := F) c) := by
  subst hz; rfl

theorem Inv4_succ (c : Dev nD) (n : ℕ) (hn : n < cfg4.N) :
    Inv4 V c (n + 1) hn = iprop(iprop(owns (c : Thread nD τ) acc4_0 fullShare (afterPt4 V c n hn).2.2.2.1 ∗ owns (c : Thread nD τ) acc4_1 fullShare (afterPt4 V c n hn).2.2.2.2) ∗ passes4 (F := F) c) := rfl

theorem Inv4_pos (c : Dev nD) (n : ℕ) (h : n ≤ cfg4.N) (hz : n ≠ 0) :
    Inv4 V c n h = iprop(iprop(owns (c : Thread nD τ) acc4_0 fullShare (afterPt4 V c (n - 1) (by omega)).2.2.2.1 ∗ owns (c : Thread nD τ) acc4_1 fullShare (afterPt4 V c (n - 1) (by omega)).2.2.2.2) ∗ passes4 (F := F) c) := by
  cases n with
  | zero => exact absurd rfl hz
  | succ n => rfl

/-! ## The proof data -/

/-- The proof data of call 4 on core `c`: the arrays as the region finds them; after the body at point `t` each
    input's buffer at its block, the results block and the one-row outputs at the accumulation's components; the
    invariant `Inv4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (afterPt4 V c t.val t.isLt).1
    | ⟨7, _⟩ => (afterPt4 V c t.val t.isLt).2.1
    | ⟨8, _⟩ => (afterPt4 V c t.val t.isLt).2.2.1
  Φ t := Inv4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The proof data holds every window at the full share and owes nothing. -/
theorem q_eq4 (c : Dev nD) (w : Fin cfg4.W) : (dat4 V c).q w = fullShare := rfl
theorem owed_eq4 (c : Dev nD) (t : Fin (cfg4.N + 1)) : (dat4 V c).owed t = 0 := rfl

theorem Inv4_castSucc (c : Dev nD) (t : Fin cfg4.N) :
    (dat4 V c).Φ t.castSucc = Inv4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (afterPt4 V c t.val t.isLt).1 := by dsimp only [dat4]
theorem after4_7 (c : Dev nD) (t : Fin cfg4.N) : (dat4 V c).after 7 t = (afterPt4 V c t.val t.isLt).2.1 := by dsimp only [dat4]
theorem after4_8 (c : Dev nD) (t : Fin cfg4.N) : (dat4 V c).after 8 t = (afterPt4 V c t.val t.isLt).2.2.1 := by dsimp only [dat4]

theorem held4_0 (c : Dev nD) (t : Fin cfg4.N) (d) : (dat4 V c).before 0 t d = iblk4 V c 0 t :=
  held4_0_of V (dat4 V c) (A_eq4 V c 0) (after4_0 V c) t d
theorem held4_1 (c : Dev nD) (t : Fin cfg4.N) (d) : (dat4 V c).before 1 t d = iblk4 V c 1 t :=
  held4_1_of V (dat4 V c) (A_eq4 V c 1) (after4_1 V c) t d
theorem held4_2 (c : Dev nD) (t : Fin cfg4.N) (d) : (dat4 V c).before 2 t d = iblk4 V c 2 t :=
  held4_2_of V (dat4 V c) (A_eq4 V c 2) (after4_2 V c) t d
theorem held4_3 (c : Dev nD) (t : Fin cfg4.N) (d) : (dat4 V c).before 3 t d = iblk4 V c 3 t :=
  held4_3_of V (dat4 V c) (A_eq4 V c 3) (after4_3 V c) t d
theorem held4_4 (c : Dev nD) (t : Fin cfg4.N) (d) : (dat4 V c).before 4 t d = iblk4 V c 4 t :=
  held4_4_of V (dat4 V c) (A_eq4 V c 4) (after4_4 V c) t d
theorem held4_5 (c : Dev nD) (t : Fin cfg4.N) (d) : (dat4 V c).before 5 t d = iblk4 V c 5 t :=
  held4_5_of V (dat4 V c) (A_eq4 V c 5) (after4_5 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body at any point. The inputs' memrefs hold their blocks; the point is first, middle or last, and the run of that
    case applies: the invariant hands it the two accumulators (at anything before the first point, at what the point
    before left afterwards) and takes them back at this point's contents; away from the last point the one-row outputs
    go back as they came; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [held4_0, held4_1, held4_2, held4_3, held4_4, held4_5]
  rw [show (dat4 V c).owesAt () t.succ = (dat4 V c).owesAt () t.castSucc from rfl]
  rw [show (dat4 V c).Φ t.succ = Inv4 V c (t.val + 1) t.isLt from rfl, Inv4_succ]
  have hN : t.val < 50 := lt_of_lt_of_eq t.isLt (show cfg4.N = 50 from N_4)
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  rw [show (dat4 V c).leavesExact 4 t = owns (c : Thread nD τ) (ms4_4 t) fullShare ((dat4 V c).after 4 t) from by
    unfold Dat.leavesExact; rw [live4_4 t], after4_4]
  rw [show (dat4 V c).leavesExact 5 t = owns (c : Thread nD τ) (ms4_5 t) fullShare ((dat4 V c).after 5 t) from by
    unfold Dat.leavesExact; rw [live4_5 t], after4_5]
  rw [show (dat4 V c).leavesExact 6 t = owns (c : Thread nD τ) (ms4_6 t) fullShare ((dat4 V c).after 6 t) from by
    unfold Dat.leavesExact; rw [live4_6 t], after4_6]
  by_cases h0 : t.val = 0
  · have h1 : t.val ≠ 49 := by omega
    rw [Dat.leavesExact_idle (dat4 V c) 7 t (idle4_7 t (fun h => h1 ((atLast4_iff t).mp h))) (noFlush4_7 t (fun h => h1 ((atLast4_iff t).mp h)))]
    rw [Dat.leavesExact_idle (dat4 V c) 8 t (idle4_8 t (fun h => h1 ((atLast4_iff t).mp h))) (noFlush4_8 t (fun h => h1 ((atLast4_iff t).mp h)))]
    rw [afterPt4_first V c t h0 h1]
    unfold zFirst4 acc0First4 acc1First4; (try dsimp only)
    rw [Inv4_castSucc V c t, Inv4_zero V c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst4 c (grid4.coords t) _ _ _ _ _ _ _ _ _ _ _ _ _ _ _ _ _ _ _ _ _ _ ((atFirst4_iff t).mpr h0) (fun h => h1 ((atLast4_iff t).mp h)) (iblk4 V c 0 t) (iblk4 V c 1 t) (iblk4 V c 2 t) (iblk4 V c 3 t) (iblk4 V c 4 t) (iblk4 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (coverFirst4_acc0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (coverFirst4_acc1 c _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverFirst4_z c _ _ _ _ _ _ _ _ _ _ _ _ _ _ _ _ _ _ _ _ _ _ _ _ _ _ _ _ _ _ _)
    isplitl [H7]; · iexists _; iexact H7
    iexists _; iexact H8
  · by_cases h1 : t.val = 49
    · rw [show (dat4 V c).leavesExact 7 t = owns (c : Thread nD τ) (ms4_7 t) fullShare ((dat4 V c).after 7 t) from by
        unfold Dat.leavesExact; rw [live4_7 t ((atLast4_iff t).mpr h1)], after4_7]
      rw [show (dat4 V c).leavesExact 8 t = owns (c : Thread nD τ) (ms4_8 t) fullShare ((dat4 V c).after 8 t) from by
        unfold Dat.leavesExact; rw [live4_8 t ((atLast4_iff t).mpr h1)], after4_8]
      rw [afterPt4_last V c t h0 h1]
      unfold zLast4 acc0Last4 acc1Last4 o7Last4 o8Last4; (try dsimp only)
      rw [Inv4_castSucc V c t, Inv4_pos V c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast4 c (grid4.coords t) _ _ _ _ _ _ _ _ _ _ _ _ _ _ _ _ _ _ _ _ _ _ (fun h => h0 ((atFirst4_iff t).mp h)) ((atLast4_iff t).mpr h1) (iblk4 V c 0 t) (iblk4 V c 1 t) (iblk4 V c 2 t) (iblk4 V c 3 t) (iblk4 V c 4 t) (iblk4 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLast4_acc0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverLast4_acc1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverLast4_z c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (coverLast4_o7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (coverLast4_o8 c _ _ _ _ _ _ _ _ _ _ _ _ _ _ _ _ _ _ _ _ _ _ _ _ _ _ _ _ _ _ _ _ _)

    · rw [Dat.leavesExact_idle (dat4 V c) 7 t (idle4_7 t (fun h => h1 ((atLast4_iff t).mp h))) (noFlush4_7 t (fun h => h1 ((atLast4_iff t).mp h)))]
      rw [Dat.leavesExact_idle (dat4 V c) 8 t (idle4_8 t (fun h => h1 ((atLast4_iff t).mp h))) (noFlush4_8 t (fun h => h1 ((atLast4_iff t).mp h)))]
      rw [afterPt4_mid V c t h0 h1]
      unfold zMid4 acc0Mid4 acc1Mid4; (try dsimp only)
      rw [Inv4_castSucc V c t, Inv4_pos V c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid4 c (grid4.coords t) _ _ _ _ _ _ _ _ _ _ _ _ _ _ _ _ _ _ _ _ _ _ (fun h => h0 ((atFirst4_iff t).mp h)) (fun h => h1 ((atLast4_iff t).mp h)) (iblk4 V c 0 t) (iblk4 V c 1 t) (iblk4 V c 2 t) (iblk4 V c 3 t) (iblk4 V c 4 t) (iblk4 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMid4_acc0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (coverMid4_acc1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverMid4_z c _ _ _ _ _ _ _ _ _ _ _ _ _ _ _ _ _ _ _ _ _ _ _ _ _ _ _ _ _ _ _ _ _)
      isplitl [H7]; · iexists _; iexact H7
      iexists _; iexact H8

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## The invariant's two ends -/

/-- The generator register and the scoped buffers no window stages make the invariant before the first point. -/
theorem hin4 (c : Dev nD) :
    iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = Inv4 V c 0 (Nat.zero_le _) from rfl, Inv4_zero V c 0 _ rfl, scopedRest4_acc]
  unfold passes4
  iintro ⟨Hp, ⟨HS0, HS1⟩, Hr⟩
  isplitl [HS0 HS1]
  · isplitl [HS0]; · iexact HS0
    iexact HS1
  isplitl [Hp]; · iexact Hp
  iexact Hr

/-- After any point the invariant gives them back, the accumulators' contents forgotten. -/
theorem Inv4_out (c : Dev nD) (t : Fin (cfg4.N + 1)) (ht : t.val ≠ 0) :
    (dat4 V c).Φ t ⊢ iprop((∃ r, prngReg c r) ∗ Pipeline.scopedRest (Ix := Unit) (Name := ℕ) (U := UR sig nD τ) (Lvl := ℕ) (Val := Elt F) spec4 c) := by
  rw [show (dat4 V c).Φ t = Inv4 V c t.val (Nat.le_of_lt_succ t.isLt) from rfl, Inv4_pos V c _ _ ht, scopedRest4_acc]
  unfold passes4
  iintro ⟨⟨HS0, HS1⟩, Hp, Hr⟩
  isplitl [Hp]; · iexact Hp
  isplitl [HS0 HS1]
  · isplitl [HS0]; · iexists _; iexact HS0
    iexists _; iexact HS1
  iexact Hr

/-- In particular after the last point. -/
theorem hout4 (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) :=
  Inv4_out V c _ (by rw [Fin.val_last]; have : cfg4.N = 50 := N_4; omega)

end Cert.KernelIdeal.Hand

end
-- ==== Proof.KI.Reg1.lean ====
import proofs.«172250_j15616501088594_1_alg».proof.Proof.Gen.KernelIdeal.Launch
import proofs.«172250_j15616501088594_1_alg».proof.Proof.Gen.KernelIdeal.Skeleton
import proofs.«172250_j15616501088594_1_alg».proof.Proof.Gen.KernelIdeal.Points
import Idealize.ShloMosaic.Lib.Pipeline.FrameBody
import Idealize.ShloMosaic.Lib.Ring
import Idealize.ShloMosaic.Lib.Tactic

/-!
# The normalise-and-clamp region 1: what its body leaves, and its body obligation

The region's grid has 50 points; point `t` works on rows `2000·t … 2000·t + 1999` of a `100000 × 128` array
`z` and on two whole `1 × 128` rows `scale`, `shift`. Its body reads the three blocks whole, forms
`max (z · scale + shift) 0` entry by entry (the rows broadcast down the block) and stores the result whole into the
block of the output array. Nothing is carried from one point to the next.

Everything is stated at a PARAMETER `V`: the contents of the core's buffers when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the region finds it. -/
def block1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The body's accesses: every load and the one store take a staging buffer whole -/

/-- A `2000 × 128` buffer, whole. -/
abbrev rows1 : Rect S2000x128 := Rect.unit (s := S2000x128) ![0, 0] S2000x128.size inb_S2000x128_S2000x128_0_0
/-- A `1 × 128` buffer, whole. -/
abbrev lane1 : Rect S1x128 := Rect.unit (s := S1x128) ![0, 0] S1x128.size inb_S1x128_S1x128_0_0

/-! ## What the body leaves in the output's staging buffer -/

/-- The output block from the three input blocks: the one store's payload, `max (z · scale + shift) 0` with the two
    rows broadcast, laid over the whole buffer. -/
def normed1 (z : Vec F S2000x128 .f32) (scale : Vec F S1x128 .f32) (shift : Vec F S1x128 .f32) : Vec F S2000x128 .f32 :=
  View.canon [⟨rows1, k1_pay1 (View.ld z rows1) (View.ld scale lane1) (View.ld shift lane1)⟩]

/-- The store takes the whole buffer, so it covers every index. -/
theorem store_covers1 (p : Vec F S2000x128 .f32) (y : S2000x128.Idx) :
    ∃ pc ∈ ([⟨rows1, p⟩] : List (View.Piece (Elt F) S2000x128 .f32)), y ∈ pc.1.set :=
  View.cover_of_tiled [⟨rows1, p⟩] S2000x128.size (by rfl) y

/-! ## The body's triple -/

set_option maxHeartbeats 1000000 in
/-- The body on four whole staging buffers — the inputs' at read contents `z`, `scale`, `shift`, the output's at
    anything — runs to the continuation with the inputs as they were and the output at `normed1 z scale shift`. -/
theorem kernel_triple1 (c : Dev nD) (E : Set ℕ) (i : grid1.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (z : Vec F S2000x128 .f32) (scale : Vec F S1x128 .f32) (shift : Vec F S1x128 .f32) (K : PUnit → sProp 𝕄) :
    iprop(owns (c : Thread nD τ) arg1 fullShare z ∗ owns (c : Thread nD τ) arg2 fullShare scale
        ∗ owns (c : Thread nD τ) arg3 fullShare shift ∗ (∃ d, owns (c : Thread nD τ) arg4 fullShare d)
        ∗ (iprop(owns (c : Thread nD τ) arg1 fullShare z ∗ owns (c : Thread nD τ) arg2 fullShare scale
            ∗ owns (c : Thread nD τ) arg3 fullShare shift
            ∗ owns (c : Thread nD τ) arg4 fullShare (normed1 z scale shift)) -∗ K ⟨⟩))
      ⊢ wp frame (wpE (defs₀ (F := F)) Variants.none c none) E
          (cc1__bn_relu_kernel i arg1 harg1 arg2 harg2 arg3 harg3 arg4 harg4) K := by
  simp only [cc1__bn_relu_kernel_eq_skeleton]; unfold cc1__bn_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers1 _)

/-! ## The region's proof data -/

/-- The proof data of the region on core `c`: the arrays as the region finds them; after the body at point `t` each
    input's buffer still at its block and the output's at `normed1` of the three blocks; the invariant is the
    scoped rest and the generator register, untouched; full shares; nothing owed. -/
def dat1 (c : Dev nD) : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => block1 V c 2 t
    | ⟨3, _⟩ => normed1 (block1 V c 0 t) (block1 V c 1 t) (block1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = block1 V c 0 t := by dsimp only [dat1]
theorem after1_1 (c : Dev nD) (t : Fin cfg1.N) : (dat1 V c).after 1 t = block1 V c 1 t := by dsimp only [dat1]
theorem after1_2 (c : Dev nD) (t : Fin cfg1.N) : (dat1 V c).after 2 t = block1 V c 2 t := by dsimp only [dat1]
theorem after1_3 (c : Dev nD) (t : Fin cfg1.N) :
    (dat1 V c).after 3 t = normed1 (block1 V c 0 t) (block1 V c 1 t) (block1 V c 2 t) := by dsimp only [dat1]

/-- Each input's staging buffer holds the window's block when the body is called — also at the points where the
    pipeline does not fetch it, because there the block index has not moved and the body left the block in place. -/
theorem before1_0 (c : Dev nD) (t : Fin cfg1.N) (d) : (dat1 V c).before 0 t d = block1 V c 0 t :=
  ((dat1 V c).before_in_eq_fetched 0 rfl (fun _ => rfl) (fun _ _ _ => rfl)
      (fun t => by rw [after1_0]; unfold Dat.blockOf block1; rw [A_eq1]; try rfl) t d).trans
    (by unfold Dat.fetched Dat.blockOf block1; rw [A_eq1]; try rfl)
theorem before1_1 (c : Dev nD) (t : Fin cfg1.N) (d) : (dat1 V c).before 1 t d = block1 V c 1 t :=
  ((dat1 V c).before_in_eq_fetched 1 rfl (fun _ => rfl) (fun _ _ _ => rfl)
      (fun t => by rw [after1_1]; unfold Dat.blockOf block1; rw [A_eq1]; try rfl) t d).trans
    (by unfold Dat.fetched Dat.blockOf block1; rw [A_eq1]; try rfl)
theorem before1_2 (c : Dev nD) (t : Fin cfg1.N) (d) : (dat1 V c).before 2 t d = block1 V c 2 t :=
  ((dat1 V c).before_in_eq_fetched 2 rfl (fun _ => rfl) (fun _ _ _ => rfl)
      (fun t => by rw [after1_2]; unfold Dat.blockOf block1; rw [A_eq1]; try rfl) t d).trans
    (by unfold Dat.fetched Dat.blockOf block1; rw [A_eq1]; try rfl)

/-! ## The body obligation -/

/-- What the body is called with at point `t`: the invariant, the core's debts, and the four current staging
    buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    the core's debts pass through unread. -/
theorem body_triple1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (kernel_triple1 c Set.univ _ _ _ _ _ _ _ _ _ (block1 V c 0 t) (block1 V c 1 t) (block1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) :
    BodyObligation (dat1 (F := F) V c) (defs₀ (F := F)) Variants.none () Set.univ := fun t => by
  rw [bigSep_W1, bigSep_W1]
  exact body_triple1 V c t

end Cert.KernelIdeal.Hand
-- ==== Proof.KI.Reg3.lean ====
import proofs.«172250_j15616501088594_1_alg».proof.Proof.Gen.KernelIdeal.Launch
import proofs.«172250_j15616501088594_1_alg».proof.Proof.Gen.KernelIdeal.Skeleton
import proofs.«172250_j15616501088594_1_alg».proof.Proof.Gen.KernelIdeal.Points
import Idealize.ShloMosaic.Lib.Pipeline.FrameBody
import Idealize.ShloMosaic.Lib.Ring
import Idealize.ShloMosaic.Lib.Tactic

/-!
# The normalise-and-clamp region 3: what its body leaves, and its body obligation

The region's grid has 50 points; point `t` works on rows `2000·t … 2000·t + 1999` of a `100000 × 128` array
`z` and on two whole `1 × 128` rows `scale`, `shift`. Its body reads the three blocks whole, forms
`max (z · scale + shift) 0` entry by entry (the rows broadcast down the block) and stores the result whole into the
block of the output array. Nothing is carried from one point to the next.

Everything is stated at a PARAMETER `V`: the contents of the core's buffers when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the region finds it. -/
def block3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-! ## The body's accesses: every load and the one store take a staging buffer whole -/

/-- A `2000 × 128` buffer, whole. -/
abbrev rows3 : Rect S2000x128 := Rect.unit (s := S2000x128) ![0, 0] S2000x128.size inb_S2000x128_S2000x128_0_0
/-- A `1 × 128` buffer, whole. -/
abbrev lane3 : Rect S1x128 := Rect.unit (s := S1x128) ![0, 0] S1x128.size inb_S1x128_S1x128_0_0

/-! ## What the body leaves in the output's staging buffer -/

/-- The output block from the three input blocks: the one store's payload, `max (z · scale + shift) 0` with the two
    rows broadcast, laid over the whole buffer. -/
def normed3 (z : Vec F S2000x128 .f32) (scale : Vec F S1x128 .f32) (shift : Vec F S1x128 .f32) : Vec F S2000x128 .f32 :=
  View.canon [⟨rows3, k3_pay1 (View.ld z rows3) (View.ld scale lane3) (View.ld shift lane3)⟩]

/-- The store takes the whole buffer, so it covers every index. -/
theorem store_covers3 (p : Vec F S2000x128 .f32) (y : S2000x128.Idx) :
    ∃ pc ∈ ([⟨rows3, p⟩] : List (View.Piece (Elt F) S2000x128 .f32)), y ∈ pc.1.set :=
  View.cover_of_tiled [⟨rows3, p⟩] S2000x128.size (by rfl) y

/-! ## The body's triple -/

set_option maxHeartbeats 1000000 in
/-- The body on four whole staging buffers — the inputs' at read contents `z`, `scale`, `shift`, the output's at
    anything — runs to the continuation with the inputs as they were and the output at `normed3 z scale shift`. -/
theorem kernel_triple3 (c : Dev nD) (E : Set ℕ) (i : grid3.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (z : Vec F S2000x128 .f32) (scale : Vec F S1x128 .f32) (shift : Vec F S1x128 .f32) (K : PUnit → sProp 𝕄) :
    iprop(owns (c : Thread nD τ) arg1 fullShare z ∗ owns (c : Thread nD τ) arg2 fullShare scale
        ∗ owns (c : Thread nD τ) arg3 fullShare shift ∗ (∃ d, owns (c : Thread nD τ) arg4 fullShare d)
        ∗ (iprop(owns (c : Thread nD τ) arg1 fullShare z ∗ owns (c : Thread nD τ) arg2 fullShare scale
            ∗ owns (c : Thread nD τ) arg3 fullShare shift
            ∗ owns (c : Thread nD τ) arg4 fullShare (normed3 z scale shift)) -∗ K ⟨⟩))
      ⊢ wp frame (wpE (defs₀ (F := F)) Variants.none c none) E
          (cc3__bn_relu_kernel i arg1 harg1 arg2 harg2 arg3 harg3 arg4 harg4) K := by
  simp only [cc3__bn_relu_kernel_eq_skeleton]; unfold cc3__bn_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers3 _)

/-! ## The region's proof data -/

/-- The proof data of the region on core `c`: the arrays as the region finds them; after the body at point `t` each
    input's buffer still at its block and the output's at `normed3` of the three blocks; the invariant is the
    scoped rest and the generator register, untouched; full shares; nothing owed. -/
def dat3 (c : Dev nD) : Dat τ (Elt F) Unit ℕ (UR sig nD τ) ℕ cfg3 c where
  A w := V c (Pipeline.arrRef spec3 w)
  after w t := match w with
    | ⟨0, _⟩ => block3 V c 0 t
    | ⟨1, _⟩ => block3 V c 1 t
    | ⟨2, _⟩ => block3 V c 2 t
    | ⟨3, _⟩ => normed3 (block3 V c 0 t) (block3 V c 1 t) (block3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = block3 V c 0 t := by dsimp only [dat3]
theorem after3_1 (c : Dev nD) (t : Fin cfg3.N) : (dat3 V c).after 1 t = block3 V c 1 t := by dsimp only [dat3]
theorem after3_2 (c : Dev nD) (t : Fin cfg3.N) : (dat3 V c).after 2 t = block3 V c 2 t := by dsimp only [dat3]
theorem after3_3 (c : Dev nD) (t : Fin cfg3.N) :
    (dat3 V c).after 3 t = normed3 (block3 V c 0 t) (block3 V c 1 t) (block3 V c 2 t) := by dsimp only [dat3]

/-- Each input's staging buffer holds the window's block when the body is called — also at the points where the
    pipeline does not fetch it, because there the block index has not moved and the body left the block in place. -/
theorem before3_0 (c : Dev nD) (t : Fin cfg3.N) (d) : (dat3 V c).before 0 t d = block3 V c 0 t :=
  ((dat3 V c).before_in_eq_fetched 0 rfl (fun _ => rfl) (fun _ _ _ => rfl)
      (fun t => by rw [after3_0]; unfold Dat.blockOf block3; rw [A_eq3]; try rfl) t d).trans
    (by unfold Dat.fetched Dat.blockOf block3; rw [A_eq3]; try rfl)
theorem before3_1 (c : Dev nD) (t : Fin cfg3.N) (d) : (dat3 V c).before 1 t d = block3 V c 1 t :=
  ((dat3 V c).before_in_eq_fetched 1 rfl (fun _ => rfl) (fun _ _ _ => rfl)
      (fun t => by rw [after3_1]; unfold Dat.blockOf block3; rw [A_eq3]; try rfl) t d).trans
    (by unfold Dat.fetched Dat.blockOf block3; rw [A_eq3]; try rfl)
theorem before3_2 (c : Dev nD) (t : Fin cfg3.N) (d) : (dat3 V c).before 2 t d = block3 V c 2 t :=
  ((dat3 V c).before_in_eq_fetched 2 rfl (fun _ => rfl) (fun _ _ _ => rfl)
      (fun t => by rw [after3_2]; unfold Dat.blockOf block3; rw [A_eq3]; try rfl) t d).trans
    (by unfold Dat.fetched Dat.blockOf block3; rw [A_eq3]; try rfl)

/-! ## The body obligation -/

/-- What the body is called with at point `t`: the invariant, the core's debts, and the four current staging
    buffers, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and
    the core's debts pass through unread. -/
theorem body_triple3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (kernel_triple3 c Set.univ _ _ _ _ _ _ _ _ _ (block3 V c 0 t) (block3 V c 1 t) (block3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) :
    BodyObligation (dat3 (F := F) V c) (defs₀ (F := F)) Variants.none () Set.univ := fun t => by
  rw [bigSep_W3, bigSep_W3]
  exact body_triple3 V c t

end Cert.KernelIdeal.Hand
-- ==== Proof.KI.Reg5.lean ====
import proofs.«172250_j15616501088594_1_alg».proof.Proof.Gen.KernelIdeal.Launch
import proofs.«172250_j15616501088594_1_alg».proof.Proof.Gen.KernelIdeal.Skeleton
import proofs.«172250_j15616501088594_1_alg».proof.Proof.Gen.KernelIdeal.Points
import Idealize.ShloMosaic.Lib.Pipeline.FrameBody
import Idealize.ShloMosaic.Lib.Ring
import Idealize.ShloMosaic.Lib.Tactic

/-!
# The normalise-and-clamp region 5: what its body leaves, and its body obligation

The region's grid has 50 points; point `t` works on rows `2000·t … 2000·t + 1999` of a `100000 × 128` array
`z` and on two whole `1 × 128` rows `scale`, `shift`. Its body reads the three blocks whole, forms
`max (z · scale + shift) 0` entry by entry (the rows broadcast down the block) and stores the result whole into the
block of the output array. Nothing is carried from one point to the next.

Everything is stated at a PARAMETER `V`: the contents of the core's buffers when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at point `t`, read off the window's array as the region finds it. -/
def block5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-! ## The body's accesses: every load and the one store take a staging buffer whole -/

/-- A `2000 × 128` buffer, whole. -/
abbrev rows5 : Rect S2000x128 := Rect.unit (s := S2000x128) ![0, 0] S2000x128.size inb_S2000x128_S2000x128_0_0
/-- A `1 × 128` buffer, whole. -/
abbrev lane5 : Rect S1x128 := Rect.unit (s := S1x128) ![0, 0] S1x128.size inb_S1x128_S1x128_0_0

/-! ## What the body leaves in the output's staging buffer -/

/-- The output block from the three input blocks: the one store's payload, `max (z · scale + shift) 0` with the two
    rows broadcast, laid over the whole buffer. -/
def normed5 (z : Vec F S2000x128 .f32) (scale : Vec F S1x128 .f32) (shift : Vec F S1x128 .f32) : Vec F S2000x128 .f32 :=
  View.canon [⟨rows5, k5_pay1 (View.ld z rows5) (View.ld scale lane5) (View.ld shift lane5)⟩]

/-- The store takes the whole buffer, so it covers every index. -/
theorem store_covers5 (p : Vec F S2000x128 .f32) (y : S2000x128.Idx) :
    ∃ pc ∈ ([⟨rows5, p⟩] : List (View.Piece (Elt F) S2000x128 .f32)), y ∈ pc.1.set :=
  View.cover_of_tiled [⟨rows5, p⟩] S2000x128.size (by rfl) y

/-! ## The body's triple -/

set_option maxHeartbeats 1000000 in
/-- The body on four whole staging buffers — the inputs' at read contents `z`, `scale`, `shift`, the output's at
    anything — runs to the continuation with the inputs as they were and the output at `normed5 z scale shift`. -/
theorem kernel_triple5 (c : Dev nD) (E : Set ℕ) (i : grid5.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (z : Vec F S2000x128 .f32) (scale : Vec F S1x128 .f32) (shift : Vec F S1x128 .f32) (K : PUnit → sProp 𝕄) :
    iprop(owns (c : Thread nD τ) arg1 fullShare z ∗ owns (c : Thread nD τ) arg2 fullShare scale
        ∗ owns (c : Thread nD τ) arg3 fullShare shift ∗ (∃ d, owns (c : Thread nD τ) arg4 fullShare d)
        ∗ (iprop(owns (c : Thread nD τ) arg1 fullShare z ∗ owns (c : Thread nD τ) arg2 fullShare scale
            ∗ owns (c : Thread nD τ) arg3 fullShare shift
            ∗ owns (c : Thread nD τ) arg4 fullShare (normed5 z scale shift)) -∗ K ⟨⟩))
      ⊢ wp frame (wpE (defs₀ (F := F)) Variants.none c none) E
          (cc5__bn_relu_kernel i arg1 harg1 arg2 harg2 arg3 harg3 arg4 harg4) K := by
  simp only [cc5__bn_relu_kernel_eq_skeleton]; unfold cc5__bn_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers5 _)

/-! ## The region's proof data -/

/-- The proof data of the region on core `c`: the arrays as the region finds them; after the body at point `t` each
    input's buffer still at its block and the output's at `normed5` of the three blocks; the invariant is the
    scoped rest and the generator register, untouched; full shares; nothing owed. -/
def dat5 (c : Dev nD) : Dat τ (Elt F) Unit ℕ (UR sig nD τ) ℕ cfg5 c where
  A w := V c (Pipeline.arrRef spec5 w)
  after w t := match w with
    | ⟨0, _⟩ => block5 V c 0 t
    | ⟨1, _⟩ => block5 V c 1 t
    | ⟨2, _⟩ => block5 V c 2 t
    | ⟨3, _⟩ => normed5 (block5 V c 0 t) (block5 V c 1 t) (block5 V c 2 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = block5 V c 0 t := by dsimp only [dat5]
theorem after5_1 (c : Dev nD) (t : Fin cfg5.N) : (dat5 V c).after 1 t = block5 V c 1 t := by dsimp only [dat5]
theorem after5_2 (c : Dev nD) (t : Fin cfg5.N) : (dat5 V c).after 2 t = block5 V c 2 t := by dsimp only [dat5]
theorem after5_3 (c : Dev nD) (t : Fin cfg5.N) :
    (dat5 V c).after 3 t = normed5 (block5 V c 0 t) (block5 V c 1 t) (block5 V c 2 t) := by dsimp only [dat5]

/-- Each input's staging buffer holds the window's block when the body is called — also at the points where the
    pipeline does not fetch it, because there the block index has not moved and the body left the block in place. -/
theorem before5_0 (c : Dev nD) (t : Fin cfg5.N) (d) : (dat5 V c).before 0 t d = block5 V c 0 t :=
  ((dat5 V c).before_in_eq_fetched 0 rfl (fun _ => rfl) (fun _ _ _ => rfl)
      (fun t => by rw [after5_0]; unfold Dat.blockOf block5; rw [A_eq5]; try rfl) t d).trans
    (by unfold Dat.fetched Dat.blockOf block5; rw [A_eq5]; try rfl)
theorem before5_1 (c : Dev nD) (t : Fin cfg5.N) (d) : (dat5 V c).before 1 t d = block5 V c 1 t :=
  ((dat5 V c).before_in_eq_fetched 1 rfl (fun _ => rfl) (fun _ _ _ => rfl)
      (fun t => by rw [after5_1]; unfold Dat.blockOf block5; rw [A_eq5]; try rfl) t d).trans
    (by unfold Dat.fetched Dat.blockOf block5; rw [A_eq5]; try rfl)
theorem before5_2 (c : Dev nD) (t : Fin cfg5.N) (d) : (dat5 V c).before 2 t d = block5 V c 2 t :=
  ((dat5 V c).before_in_eq_fetched 2 rfl (fun _ => rfl) (fun _ _ _ => rfl)
      (fun t => by rw [after5_2]; unfold Dat.blockOf block5; rw [A_eq5]; try rfl) t d).trans
    (by unfold Dat.fetched Dat.blockOf block5; rw [A_eq5]; try rfl)

/-! ## The body obligation -/

/-- What the body is called with at point `t`: the invariant, the core's debts, and the four current staging
    buffers, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and
    the core's debts pass through unread. -/
theorem body_triple5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (kernel_triple5 c Set.univ _ _ _ _ _ _ _ _ _ (block5 V c 0 t) (block5 V c 1 t) (block5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) :
    BodyObligation (dat5 (F := F) V c) (defs₀ (F := F)) Variants.none () Set.univ := fun t => by
  rw [bigSep_W5, bigSep_W5]
  exact body_triple5 V c t

end Cert.KernelIdeal.Hand
-- ==== Proof.KI.Chain.lean ====
/-
  The contents of the core's buffers between the items of the program — the launch contents, each host stretch
  applied in turn, and after each kernel region its output arrays at what the region's write-backs leave (the
  region's proof data read at the last grid point) — and the fact that the program's valuations between items,
  taken at exactly these region outputs, are these contents.
-/
import proofs.«172250_j15616501088594_1_alg».proof.Proof.Gen.KernelIdeal.Regions
import proofs.«172250_j15616501088594_1_alg».proof.Proof.KI.Reg0
import proofs.«172250_j15616501088594_1_alg».proof.Proof.KI.Reg2
import proofs.«172250_j15616501088594_1_alg».proof.Proof.KI.Reg4
import proofs.«172250_j15616501088594_1_alg».proof.Proof.KI.Reg1
import proofs.«172250_j15616501088594_1_alg».proof.Proof.KI.Reg3
import proofs.«172250_j15616501088594_1_alg».proof.Proof.KI.Reg5

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ)

/-- A valuation per core, read at the TensorCore's references: the form a region's proof data take. -/
abbrev atTc (W : Dev nD → Valuation τ sig (Elt F)) : (c : Dev nD) → (b : Ref sig .tc) → Buf (Elt F) ((c : Thread nD τ).loc b) :=
  fun c b => W c b

/-- The buffers when region 0 is entered: the launch contents after the first host stretch. -/
abbrev X1 (c : Dev nD) : Valuation τ sig (Elt F) := StableHlo.after hostOps0 (fun b => m (c, b))

/-- The buffers when region 0 is left: its output arrays at what its write-backs leave, everything else as entered. -/
def X2 (c : Dev nD) : Valuation τ sig (Elt F) :=
  Function.update (Function.update (Function.update (X1 m c) main_v18_0 ((dat0 (atTc (X1 m)) c).arrAt 6 cfg0.N)) main_v18_1 ((dat0 (atTc (X1 m)) c).arrAt 7 cfg0.N)) main_v18_2 ((dat0 (atTc (X1 m)) c).arrAt 8 cfg0.N)
/-- The buffers after the host stretch that follows region 0. -/
abbrev X3 (c : Dev nD) : Valuation τ sig (Elt F) := StableHlo.after hostOps1 (X2 m c)

/-- The buffers when region 1 is left: its output arrays at what its write-backs leave, everything else as entered. -/
def X4 (c : Dev nD) : Valuation τ sig (Elt F) :=
  Function.update (X3 m c) main_v35 ((dat1 (atTc (X3 m)) c).arrAt 3 cfg1.N)
/-- The buffers after the host stretch that follows region 1. -/
abbrev X5 (c : Dev nD) : Valuation τ sig (Elt F) := StableHlo.after hostOps2 (X4 m c)

/-- The buffers when region 2 is left: its output arrays at what its write-backs leave, everything else as entered. -/
def X6 (c : Dev nD) : Valuation τ sig (Elt F) :=
  Function.update (Function.update (Function.update (X5 m c) main_v62_0 ((dat2 (atTc (X5 m)) c).arrAt 6 cfg2.N)) main_v62_1 ((dat2 (atTc (X5 m)) c).arrAt 7 cfg2.N)) main_v62_2 ((dat2 (atTc (X5 m)) c).arrAt 8 cfg2.N)
/-- The buffers after the host stretch that follows region 2. -/
abbrev X7 (c : Dev nD) : Valuation τ sig (Elt F) := StableHlo.after hostOps3 (X6 m c)

/-- The buffers when region 3 is left: its output arrays at what its write-backs leave, everything else as entered. -/
def X8 (c : Dev nD) : Valuation τ sig (Elt F) :=
  Function.update (X7 m c) main_v79 ((dat3 (atTc (X7 m)) c).arrAt 3 cfg3.N)
/-- The buffers after the host stretch that follows region 3. -/
abbrev X9 (c : Dev nD) : Valuation τ sig (Elt F) := StableHlo.after hostOps4 (X8 m c)

/-- The buffers when region 4 is left: its output arrays at what its write-backs leave, everything else as entered. -/
def X10 (c : Dev nD) : Valuation τ sig (Elt F) :=
  Function.update (Function.update (Function.update (X9 m c) main_v106_0 ((dat4 (atTc (X9 m)) c).arrAt 6 cfg4.N)) main_v106_1 ((dat4 (atTc (X9 m)) c).arrAt 7 cfg4.N)) main_v106_2 ((dat4 (atTc (X9 m)) c).arrAt 8 cfg4.N)
/-- The buffers after the host stretch that follows region 4. -/
abbrev X11 (c : Dev nD) : Valuation τ sig (Elt F) := StableHlo.after hostOps5 (X10 m c)

/-- The buffers when region 5 is left: its output arrays at what its write-backs leave, everything else as entered. -/
def X12 (c : Dev nD) : Valuation τ sig (Elt F) :=
  Function.update (X11 m c) main_v123 ((dat5 (atTc (X11 m)) c).arrAt 3 cfg5.N)
/-- The buffers after the host stretch that follows region 5. -/
abbrev X13 (c : Dev nD) : Valuation τ sig (Elt F) := StableHlo.after hostOps6 (X12 m c)

/-! ## What an output array holds after its region -/

theorem X2_main_v18_0 (c : Dev nD) : X2 m c main_v18_0 = ((dat0 (atTc (X1 m)) c).arrAt 6 cfg0.N : (Proc.devRef (τ := τ) .tc main_v18_0).ty.Contents (Elt F)) := by
  unfold X2; rw [Function.update_of_ne (StableHlo.devRef_ne_of_ne (by decide : main_v18_0 ≠ main_v18_2)), Function.update_of_ne (StableHlo.devRef_ne_of_ne (by decide : main_v18_0 ≠ main_v18_1)), Function.update_self]
theorem X2_main_v18_1 (c : Dev nD) : X2 m c main_v18_1 = ((dat0 (atTc (X1 m)) c).arrAt 7 cfg0.N : (Proc.devRef (τ := τ) .tc main_v18_1).ty.Contents (Elt F)) := by
  unfold X2; rw [Function.update_of_ne (StableHlo.devRef_ne_of_ne (by decide : main_v18_1 ≠ main_v18_2)), Function.update_self]
theorem X2_main_v18_2 (c : Dev nD) : X2 m c main_v18_2 = ((dat0 (atTc (X1 m)) c).arrAt 8 cfg0.N : (Proc.devRef (τ := τ) .tc main_v18_2).ty.Contents (Elt F)) := by
  unfold X2; rw [Function.update_self]
theorem X4_main_v35 (c : Dev nD) : X4 m c main_v35 = ((dat1 (atTc (X3 m)) c).arrAt 3 cfg1.N : (Proc.devRef (τ := τ) .tc main_v35).ty.Contents (Elt F)) := by
  unfold X4; rw [Function.update_self]
theorem X6_main_v62_0 (c : Dev nD) : X6 m c main_v62_0 = ((dat2 (atTc (X5 m)) c).arrAt 6 cfg2.N : (Proc.devRef (τ := τ) .tc main_v62_0).ty.Contents (Elt F)) := by
  unfold X6; rw [Function.update_of_ne (StableHlo.devRef_ne_of_ne (by decide : main_v62_0 ≠ main_v62_2)), Function.update_of_ne (StableHlo.devRef_ne_of_ne (by decide : main_v62_0 ≠ main_v62_1)), Function.update_self]
theorem X6_main_v62_1 (c : Dev nD) : X6 m c main_v62_1 = ((dat2 (atTc (X5 m)) c).arrAt 7 cfg2.N : (Proc.devRef (τ := τ) .tc main_v62_1).ty.Contents (Elt F)) := by
  unfold X6; rw [Function.update_of_ne (StableHlo.devRef_ne_of_ne (by decide : main_v62_1 ≠ main_v62_2)), Function.update_self]
theorem X6_main_v62_2 (c : Dev nD) : X6 m c main_v62_2 = ((dat2 (atTc (X5 m)) c).arrAt 8 cfg2.N : (Proc.devRef (τ := τ) .tc main_v62_2).ty.Contents (Elt F)) := by
  unfold X6; rw [Function.update_self]
theorem X8_main_v79 (c : Dev nD) : X8 m c main_v79 = ((dat3 (atTc (X7 m)) c).arrAt 3 cfg3.N : (Proc.devRef (τ := τ) .tc main_v79).ty.Contents (Elt F)) := by
  unfold X8; rw [Function.update_self]
theorem X10_main_v106_0 (c : Dev nD) : X10 m c main_v106_0 = ((dat4 (atTc (X9 m)) c).arrAt 6 cfg4.N : (Proc.devRef (τ := τ) .tc main_v106_0).ty.Contents (Elt F)) := by
  unfold X10; rw [Function.update_of_ne (StableHlo.devRef_ne_of_ne (by decide : main_v106_0 ≠ main_v106_2)), Function.update_of_ne (StableHlo.devRef_ne_of_ne (by decide : main_v106_0 ≠ main_v106_1)), Function.update_self]
theorem X10_main_v106_1 (c : Dev nD) : X10 m c main_v106_1 = ((dat4 (atTc (X9 m)) c).arrAt 7 cfg4.N : (Proc.devRef (τ := τ) .tc main_v106_1).ty.Contents (Elt F)) := by
  unfold X10; rw [Function.update_of_ne (StableHlo.devRef_ne_of_ne (by decide : main_v106_1 ≠ main_v106_2)), Function.update_self]
theorem X10_main_v106_2 (c : Dev nD) : X10 m c main_v106_2 = ((dat4 (atTc (X9 m)) c).arrAt 8 cfg4.N : (Proc.devRef (τ := τ) .tc main_v106_2).ty.Contents (Elt F)) := by
  unfold X10; rw [Function.update_self]
theorem X12_main_v123 (c : Dev nD) : X12 m c main_v123 = ((dat5 (atTc (X11 m)) c).arrAt 3 cfg5.N : (Proc.devRef (τ := τ) .tc main_v123).ty.Contents (Elt F)) := by
  unfold X12; rw [Function.update_self]

end Cert.KernelIdeal.Hand

end
-- ==== Proof.KI.Segs.lean ====
/-
  Each kernel region as a segment of the program's run: entered with every unscoped buffer of the core at the
  contents before the region and left with them at the contents after it (the region's output arrays at what its
  write-backs leave, everything else untouched); beside the buffers rides the core's generator register at some state
  and the fact that the core owes nothing.
-/
import proofs.«172250_j15616501088594_1_alg».proof.Proof.KI.Chain
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every region's proof data, each at the contents its region is entered with. -/
def pdats : (p : Fin 6) → (c : Dev nD) → Dat τ (Elt F) Unit ℕ (UR sig nD τ) ℕ (cfgs p) c
  | ⟨0, _⟩ => fun c => dat0 (atTc (X1 m)) c
  | ⟨1, _⟩ => fun c => dat1 (atTc (X3 m)) c
  | ⟨2, _⟩ => fun c => dat2 (atTc (X5 m)) c
  | ⟨3, _⟩ => fun c => dat3 (atTc (X7 m)) c
  | ⟨4, _⟩ => fun c => dat4 (atTc (X9 m)) c
  | ⟨5, _⟩ => fun c => dat5 (atTc (X11 m)) c

/-- No level is assigned: no core waits for another. -/
abbrev Lv0 : GSem nD τ sig → Finset Unit := fun _ => ∅
abbrev lv0 : GSem nD τ sig → Unit → ℕ := fun _ _ => 0
/-- What rides beside the buffers: the generator register at some state, and nothing owed. -/
abbrev Rd (c : Dev nD) : sProp 𝕄 := iprop((∃ r, prngReg c r) ∗ ∃ W, owes (c : Thread nD τ) (0 : CellTallies nD τ sig Unit) W)

/-- Reading an updated valuation at another TensorCore reference. -/
theorem upd_tc_of_ne (f : Valuation τ sig (Elt F)) (a r : Ref sig .tc) (x : (Proc.devRef (τ := τ) .tc a).ty.Contents (Elt F)) (h : r ≠ a) :
    Function.update f (Proc.devRef .tc a) x (Proc.devRef .tc r) = f (Proc.devRef .tc r) :=
  Function.update_of_ne (StableHlo.devRef_ne_of_ne h) _ _

theorem hF0_0 (c : Dev nD) : (dat0 (atTc (X1 m)) c).arrAt 0 cfg0.N = atTc (X2 m) c (Pipeline.arrRef spec0 0) := by
  refine ((Dat.arrAt_in (dat := dat0 (atTc (X1 m)) c) 0 rfl _).trans (A_eq0 _ c 0)).trans ?_
  show X1 m c (Proc.devRef .tc (Pipeline.arrRef spec0 0)) = X2 m c (Proc.devRef .tc (Pipeline.arrRef spec0 0))
  unfold X2
  rw [upd_tc_of_ne _ _ _ _ (by decide : Pipeline.arrRef spec0 0 ≠ main_v18_2), upd_tc_of_ne _ _ _ _ (by decide : Pipeline.arrRef spec0 0 ≠ main_v18_1), upd_tc_of_ne _ _ _ _ (by decide : Pipeline.arrRef spec0 0 ≠ main_v18_0)]
theorem hF0_1 (c : Dev nD) : (dat0 (atTc (X1 m)) c).arrAt 1 cfg0.N = atTc (X2 m) c (Pipeline.arrRef spec0 1) := by
  refine ((Dat.arrAt_in (dat := dat0 (atTc (X1 m)) c) 1 rfl _).trans (A_eq0 _ c 1)).trans ?_
  show X1 m c (Proc.devRef .tc (Pipeline.arrRef spec0 1)) = X2 m c (Proc.devRef .tc (Pipeline.arrRef spec0 1))
  unfold X2
  rw [upd_tc_of_ne _ _ _ _ (by decide : Pipeline.arrRef spec0 1 ≠ main_v18_2), upd_tc_of_ne _ _ _ _ (by decide : Pipeline.arrRef spec0 1 ≠ main_v18_1), upd_tc_of_ne _ _ _ _ (by decide : Pipeline.arrRef spec0 1 ≠ main_v18_0)]
theorem hF0_2 (c : Dev nD) : (dat0 (atTc (X1 m)) c).arrAt 2 cfg0.N = atTc (X2 m) c (Pipeline.arrRef spec0 2) := by
  refine ((Dat.arrAt_in (dat := dat0 (atTc (X1 m)) c) 2 rfl _).trans (A_eq0 _ c 2)).trans ?_
  show X1 m c (Proc.devRef .tc (Pipeline.arrRef spec0 2)) = X2 m c (Proc.devRef .tc (Pipeline.arrRef spec0 2))
  unfold X2
  rw [upd_tc_of_ne _ _ _ _ (by decide : Pipeline.arrRef spec0 2 ≠ main_v18_2), upd_tc_of_ne _ _ _ _ (by decide : Pipeline.arrRef spec0 2 ≠ main_v18_1), upd_tc_of_ne _ _ _ _ (by decide : Pipeline.arrRef spec0 2 ≠ main_v18_0)]
theorem hF0_3 (c : Dev nD) : (dat0 (atTc (X1 m)) c).arrAt 3 cfg0.N = atTc (X2 m) c (Pipeline.arrRef spec0 3) := by
  refine ((Dat.arrAt_in (dat := dat0 (atTc (X1 m)) c) 3 rfl _).trans (A_eq0 _ c 3)).trans ?_
  show X1 m c (Proc.devRef .tc (Pipeline.arrRef spec0 3)) = X2 m c (Proc.devRef .tc (Pipeline.arrRef spec0 3))
  unfold X2
  rw [upd_tc_of_ne _ _ _ _ (by decide : Pipeline.arrRef spec0 3 ≠ main_v18_2), upd_tc_of_ne _ _ _ _ (by decide : Pipeline.arrRef spec0 3 ≠ main_v18_1), upd_tc_of_ne _ _ _ _ (by decide : Pipeline.arrRef spec0 3 ≠ main_v18_0)]
theorem hF0_4 (c : Dev nD) : (dat0 (atTc (X1 m)) c).arrAt 4 cfg0.N = atTc (X2 m) c (Pipeline.arrRef spec0 4) := by
  refine ((Dat.arrAt_in (dat := dat0 (atTc (X1 m)) c) 4 rfl _).trans (A_eq0 _ c 4)).trans ?_
  show X1 m c (Proc.devRef .tc (Pipeline.arrRef spec0 4)) = X2 m c (Proc.devRef .tc (Pipeline.arrRef spec0 4))
  unfold X2
  rw [upd_tc_of_ne _ _ _ _ (by decide : Pipeline.arrRef spec0 4 ≠ main_v18_2), upd_tc_of_ne _ _ _ _ (by decide : Pipeline.arrRef spec0 4 ≠ main_v18_1), upd_tc_of_ne _ _ _ _ (by decide : Pipeline.arrRef spec0 4 ≠ main_v18_0)]
theorem hF0_5 (c : Dev nD) : (dat0 (atTc (X1 m)) c).arrAt 5 cfg0.N = atTc (X2 m) c (Pipeline.arrRef spec0 5) := by
  refine ((Dat.arrAt_in (dat := dat0 (atTc (X1 m)) c) 5 rfl _).trans (A_eq0 _ c 5)).trans ?_
  show X1 m c (Proc.devRef .tc (Pipeline.arrRef spec0 5)) = X2 m c (Proc.devRef .tc (Pipeline.arrRef spec0 5))
  unfold X2
  rw [upd_tc_of_ne _ _ _ _ (by decide : Pipeline.arrRef spec0 5 ≠ main_v18_2), upd_tc_of_ne _ _ _ _ (by decide : Pipeline.arrRef spec0 5 ≠ main_v18_1), upd_tc_of_ne _ _ _ _ (by decide : Pipeline.arrRef spec0 5 ≠ main_v18_0)]
theorem hF0_6 (c : Dev nD) : (dat0 (atTc (X1 m)) c).arrAt 6 cfg0.N = atTc (X2 m) c (Pipeline.arrRef spec0 6) :=
  (X2_main_v18_0 m c).symm
theorem hF0_7 (c : Dev nD) : (dat0 (atTc (X1 m)) c).arrAt 7 cfg0.N = atTc (X2 m) c (Pipeline.arrRef spec0 7) :=
  (X2_main_v18_1 m c).symm
theorem hF0_8 (c : Dev nD) : (dat0 (atTc (X1 m)) c).arrAt 8 cfg0.N = atTc (X2 m) c (Pipeline.arrRef spec0 8) :=
  (X2_main_v18_2 m c).symm
/-- At region 0's exit each of its arrays holds what the region leaves in it: an input array what it held, an output
    array its write-backs. -/
theorem hF0 (c : Dev nD) : ∀ w : Fin cfg0.W, (dat0 (atTc (X1 m)) c).arrAt w cfg0.N = atTc (X2 m) c (Pipeline.arrRef spec0 w) := fun
  | 0 => hF0_0 m c
  | 1 => hF0_1 m c
  | 2 => hF0_2 m c
  | 3 => hF0_3 m c
  | 4 => hF0_4 m c
  | 5 => hF0_5 m c
  | 6 => hF0_6 m c
  | 7 => hF0_7 m c
  | 8 => hF0_8 m c
  | ⟨_ + 9, h⟩ => absurd h (Nat.not_lt.2 (Nat.le_add_left _ _))
/-- Every buffer that is no array of region 0 is as the region found it. -/
theorem hrest0 (c : Dev nD) : ∀ b, b ∉ Finset.univ.image (Pipeline.arrRef spec0) → atTc (X2 m) c b = atTc (X1 m) c b := by
  intro b hb
  show X2 m c (Proc.devRef .tc b) = X1 m c (Proc.devRef .tc b)
  unfold X2
  rw [upd_tc_of_ne _ _ _ _ (fun e : b = main_v18_2 => hb (e ▸ Finset.mem_image.mpr ⟨8, Finset.mem_univ _, rfl⟩)),
    upd_tc_of_ne _ _ _ _ (fun e : b = main_v18_1 => hb (e ▸ Finset.mem_image.mpr ⟨7, Finset.mem_univ _, rfl⟩)),
    upd_tc_of_ne _ _ _ _ (fun e : b = main_v18_0 => hb (e ▸ Finset.mem_image.mpr ⟨6, Finset.mem_univ _, rfl⟩))]

theorem hF1_0 (c : Dev nD) : (dat1 (atTc (X3 m)) c).arrAt 0 cfg1.N = atTc (X4 m) c (Pipeline.arrRef spec1 0) := by
  refine ((Dat.arrAt_in (dat := dat1 (atTc (X3 m)) c) 0 rfl _).trans (A_eq1 _ c 0)).trans ?_
  show X3 m c (Proc.devRef .tc (Pipeline.arrRef spec1 0)) = X4 m c (Proc.devRef .tc (Pipeline.arrRef spec1 0))
  unfold X4
  rw [upd_tc_of_ne _ _ _ _ (by decide : Pipeline.arrRef spec1 0 ≠ main_v35)]
theorem hF1_1 (c : Dev nD) : (dat1 (atTc (X3 m)) c).arrAt 1 cfg1.N = atTc (X4 m) c (Pipeline.arrRef spec1 1) := by
  refine ((Dat.arrAt_in (dat := dat1 (atTc (X3 m)) c) 1 rfl _).trans (A_eq1 _ c 1)).trans ?_
  show X3 m c (Proc.devRef .tc (Pipeline.arrRef spec1 1)) = X4 m c (Proc.devRef .tc (Pipeline.arrRef spec1 1))
  unfold X4
  rw [upd_tc_of_ne _ _ _ _ (by decide : Pipeline.arrRef spec1 1 ≠ main_v35)]
theorem hF1_2 (c : Dev nD) : (dat1 (atTc (X3 m)) c).arrAt 2 cfg1.N = atTc (X4 m) c (Pipeline.arrRef spec1 2) := by
  refine ((Dat.arrAt_in (dat := dat1 (atTc (X3 m)) c) 2 rfl _).trans (A_eq1 _ c 2)).trans ?_
  show X3 m c (Proc.devRef .tc (Pipeline.arrRef spec1 2)) = X4 m c (Proc.devRef .tc (Pipeline.arrRef spec1 2))
  unfold X4
  rw [upd_tc_of_ne _ _ _ _ (by decide : Pipeline.arrRef spec1 2 ≠ main_v35)]
theorem hF1_3 (c : Dev nD) : (dat1 (atTc (X3 m)) c).arrAt 3 cfg1.N = atTc (X4 m) c (Pipeline.arrRef spec1 3) :=
  (X4_main_v35 m c).symm
/-- At region 1's exit each of its arrays holds what the region leaves in it: an input array what it held, an output
    array its write-backs. -/
theorem hF1 (c : Dev nD) : ∀ w : Fin cfg1.W, (dat1 (atTc (X3 m)) c).arrAt w cfg1.N = atTc (X4 m) c (Pipeline.arrRef spec1 w) := fun
  | 0 => hF1_0 m c
  | 1 => hF1_1 m c
  | 2 => hF1_2 m c
  | 3 => hF1_3 m c
  | ⟨_ + 4, h⟩ => absurd h (Nat.not_lt.2 (Nat.le_add_left _ _))
/-- Every buffer that is no array of region 1 is as the region found it. -/
theorem hrest1 (c : Dev nD) : ∀ b, b ∉ Finset.univ.image (Pipeline.arrRef spec1) → atTc (X4 m) c b = atTc (X3 m) c b := by
  intro b hb
  show X4 m c (Proc.devRef .tc b) = X3 m c (Proc.devRef .tc b)
  unfold X4
  rw [upd_tc_of_ne _ _ _ _ (fun e : b = main_v35 => hb (e ▸ Finset.mem_image.mpr ⟨3, Finset.mem_univ _, rfl⟩))]

theorem hF2_0 (c : Dev nD) : (dat2 (atTc (X5 m)) c).arrAt 0 cfg2.N = atTc (X6 m) c (Pipeline.arrRef spec2 0) := by
  refine ((Dat.arrAt_in (dat := dat2 (atTc (X5 m)) c) 0 rfl _).trans (A_eq2 _ c 0)).trans ?_
  show X5 m c (Proc.devRef .tc (Pipeline.arrRef spec2 0)) = X6 m c (Proc.devRef .tc (Pipeline.arrRef spec2 0))
  unfold X6
  rw [upd_tc_of_ne _ _ _ _ (by decide : Pipeline.arrRef spec2 0 ≠ main_v62_2), upd_tc_of_ne _ _ _ _ (by decide : Pipeline.arrRef spec2 0 ≠ main_v62_1), upd_tc_of_ne _ _ _ _ (by decide : Pipeline.arrRef spec2 0 ≠ main_v62_0)]
theorem hF2_1 (c : Dev nD) : (dat2 (atTc (X5 m)) c).arrAt 1 cfg2.N = atTc (X6 m) c (Pipeline.arrRef spec2 1) := by
  refine ((Dat.arrAt_in (dat := dat2 (atTc (X5 m)) c) 1 rfl _).trans (A_eq2 _ c 1)).trans ?_
  show X5 m c (Proc.devRef .tc (Pipeline.arrRef spec2 1)) = X6 m c (Proc.devRef .tc (Pipeline.arrRef spec2 1))
  unfold X6
  rw [upd_tc_of_ne _ _ _ _ (by decide : Pipeline.arrRef spec2 1 ≠ main_v62_2), upd_tc_of_ne _ _ _ _ (by decide : Pipeline.arrRef spec2 1 ≠ main_v62_1), upd_tc_of_ne _ _ _ _ (by decide : Pipeline.arrRef spec2 1 ≠ main_v62_0)]
theorem hF2_2 (c : Dev nD) : (dat2 (atTc (X5 m)) c).arrAt 2 cfg2.N = atTc (X6 m) c (Pipeline.arrRef spec2 2) := by
  refine ((Dat.arrAt_in (dat := dat2 (atTc (X5 m)) c) 2 rfl _).trans (A_eq2 _ c 2)).trans ?_
  show X5 m c (Proc.devRef .tc (Pipeline.arrRef spec2 2)) = X6 m c (Proc.devRef .tc (Pipeline.arrRef spec2 2))
  unfold X6
  rw [upd_tc_of_ne _ _ _ _ (by decide : Pipeline.arrRef spec2 2 ≠ main_v62_2), upd_tc_of_ne _ _ _ _ (by decide : Pipeline.arrRef spec2 2 ≠ main_v62_1), upd_tc_of_ne _ _ _ _ (by decide : Pipeline.arrRef spec2 2 ≠ main_v62_0)]
theorem hF2_3 (c : Dev nD) : (dat2 (atTc (X5 m)) c).arrAt 3 cfg2.N = atTc (X6 m) c (Pipeline.arrRef spec2 3) := by
  refine ((Dat.arrAt_in (dat := dat2 (atTc (X5 m)) c) 3 rfl _).trans (A_eq2 _ c 3)).trans ?_
  show X5 m c (Proc.devRef .tc (Pipeline.arrRef spec2 3)) = X6 m c (Proc.devRef .tc (Pipeline.arrRef spec2 3))
  unfold X6
  rw [upd_tc_of_ne _ _ _ _ (by decide : Pipeline.arrRef spec2 3 ≠ main_v62_2), upd_tc_of_ne _ _ _ _ (by decide : Pipeline.arrRef spec2 3 ≠ main_v62_1), upd_tc_of_ne _ _ _ _ (by decide : Pipeline.arrRef spec2 3 ≠ main_v62_0)]
theorem hF2_4 (c : Dev nD) : (dat2 (atTc (X5 m)) c).arrAt 4 cfg2.N = atTc (X6 m) c (Pipeline.arrRef spec2 4) := by
  refine ((Dat.arrAt_in (dat := dat2 (atTc (X5 m)) c) 4 rfl _).trans (A_eq2 _ c 4)).trans ?_
  show X5 m c (Proc.devRef .tc (Pipeline.arrRef spec2 4)) = X6 m c (Proc.devRef .tc (Pipeline.arrRef spec2 4))
  unfold X6
  rw [upd_tc_of_ne _ _ _ _ (by decide : Pipeline.arrRef spec2 4 ≠ main_v62_2), upd_tc_of_ne _ _ _ _ (by decide : Pipeline.arrRef spec2 4 ≠ main_v62_1), upd_tc_of_ne _ _ _ _ (by decide : Pipeline.arrRef spec2 4 ≠ main_v62_0)]
theorem hF2_5 (c : Dev nD) : (dat2 (atTc (X5 m)) c).arrAt 5 cfg2.N = atTc (X6 m) c (Pipeline.arrRef spec2 5) := by
  refine ((Dat.arrAt_in (dat := dat2 (atTc (X5 m)) c) 5 rfl _).trans (A_eq2 _ c 5)).trans ?_
  show X5 m c (Proc.devRef .tc (Pipeline.arrRef spec2 5)) = X6 m c (Proc.devRef .tc (Pipeline.arrRef spec2 5))
  unfold X6
  rw [upd_tc_of_ne _ _ _ _ (by decide : Pipeline.arrRef spec2 5 ≠ main_v62_2), upd_tc_of_ne _ _ _ _ (by decide : Pipeline.arrRef spec2 5 ≠ main_v62_1), upd_tc_of_ne _ _ _ _ (by decide : Pipeline.arrRef spec2 5 ≠ main_v62_0)]
theorem hF2_6 (c : Dev nD) : (dat2 (atTc (X5 m)) c).arrAt 6 cfg2.N = atTc (X6 m) c (Pipeline.arrRef spec2 6) :=
  (X6_main_v62_0 m c).symm
theorem hF2_7 (c : Dev nD) : (dat2 (atTc (X5 m)) c).arrAt 7 cfg2.N = atTc (X6 m) c (Pipeline.arrRef spec2 7) :=
  (X6_main_v62_1 m c).symm
theorem hF2_8 (c : Dev nD) : (dat2 (atTc (X5 m)) c).arrAt 8 cfg2.N = atTc (X6 m) c (Pipeline.arrRef spec2 8) :=
  (X6_main_v62_2 m c).symm
/-- At region 2's exit each of its arrays holds what the region leaves in it: an input array what it held, an output
    array its write-backs. -/
theorem hF2 (c : Dev nD) : ∀ w : Fin cfg2.W, (dat2 (atTc (X5 m)) c).arrAt w cfg2.N = atTc (X6 m) c (Pipeline.arrRef spec2 w) := fun
  | 0 => hF2_0 m c
  | 1 => hF2_1 m c
  | 2 => hF2_2 m c
  | 3 => hF2_3 m c
  | 4 => hF2_4 m c
  | 5 => hF2_5 m c
  | 6 => hF2_6 m c
  | 7 => hF2_7 m c
  | 8 => hF2_8 m c
  | ⟨_ + 9, h⟩ => absurd h (Nat.not_lt.2 (Nat.le_add_left _ _))
/-- Every buffer that is no array of region 2 is as the region found it. -/
theorem hrest2 (c : Dev nD) : ∀ b, b ∉ Finset.univ.image (Pipeline.arrRef spec2) → atTc (X6 m) c b = atTc (X5 m) c b := by
  intro b hb
  show X6 m c (Proc.devRef .tc b) = X5 m c (Proc.devRef .tc b)
  unfold X6
  rw [upd_tc_of_ne _ _ _ _ (fun e : b = main_v62_2 => hb (e ▸ Finset.mem_image.mpr ⟨8, Finset.mem_univ _, rfl⟩)),
    upd_tc_of_ne _ _ _ _ (fun e : b = main_v62_1 => hb (e ▸ Finset.mem_image.mpr ⟨7, Finset.mem_univ _, rfl⟩)),
    upd_tc_of_ne _ _ _ _ (fun e : b = main_v62_0 => hb (e ▸ Finset.mem_image.mpr ⟨6, Finset.mem_univ _, rfl⟩))]

theorem hF3_0 (c : Dev nD) : (dat3 (atTc (X7 m)) c).arrAt 0 cfg3.N = atTc (X8 m) c (Pipeline.arrRef spec3 0) := by
  refine ((Dat.arrAt_in (dat := dat3 (atTc (X7 m)) c) 0 rfl _).trans (A_eq3 _ c 0)).trans ?_
  show X7 m c (Proc.devRef .tc (Pipeline.arrRef spec3 0)) = X8 m c (Proc.devRef .tc (Pipeline.arrRef spec3 0))
  unfold X8
  rw [upd_tc_of_ne _ _ _ _ (by decide : Pipeline.arrRef spec3 0 ≠ main_v79)]
theorem hF3_1 (c : Dev nD) : (dat3 (atTc (X7 m)) c).arrAt 1 cfg3.N = atTc (X8 m) c (Pipeline.arrRef spec3 1) := by
  refine ((Dat.arrAt_in (dat := dat3 (atTc (X7 m)) c) 1 rfl _).trans (A_eq3 _ c 1)).trans ?_
  show X7 m c (Proc.devRef .tc (Pipeline.arrRef spec3 1)) = X8 m c (Proc.devRef .tc (Pipeline.arrRef spec3 1))
  unfold X8
  rw [upd_tc_of_ne _ _ _ _ (by decide : Pipeline.arrRef spec3 1 ≠ main_v79)]
theorem hF3_2 (c : Dev nD) : (dat3 (atTc (X7 m)) c).arrAt 2 cfg3.N = atTc (X8 m) c (Pipeline.arrRef spec3 2) := by
  refine ((Dat.arrAt_in (dat := dat3 (atTc (X7 m)) c) 2 rfl _).trans (A_eq3 _ c 2)).trans ?_
  show X7 m c (Proc.devRef .tc (Pipeline.arrRef spec3 2)) = X8 m c (Proc.devRef .tc (Pipeline.arrRef spec3 2))
  unfold X8
  rw [upd_tc_of_ne _ _ _ _ (by decide : Pipeline.arrRef spec3 2 ≠ main_v79)]
theorem hF3_3 (c : Dev nD) : (dat3 (atTc (X7 m)) c).arrAt 3 cfg3.N = atTc (X8 m) c (Pipeline.arrRef spec3 3) :=
  (X8_main_v79 m c).symm
/-- At region 3's exit each of its arrays holds what the region leaves in it: an input array what it held, an output
    array its write-backs. -/
theorem hF3 (c : Dev nD) : ∀ w : Fin cfg3.W, (dat3 (atTc (X7 m)) c).arrAt w cfg3.N = atTc (X8 m) c (Pipeline.arrRef spec3 w) := fun
  | 0 => hF3_0 m c
  | 1 => hF3_1 m c
  | 2 => hF3_2 m c
  | 3 => hF3_3 m c
  | ⟨_ + 4, h⟩ => absurd h (Nat.not_lt.2 (Nat.le_add_left _ _))
/-- Every buffer that is no array of region 3 is as the region found it. -/
theorem hrest3 (c : Dev nD) : ∀ b, b ∉ Finset.univ.image (Pipeline.arrRef spec3) → atTc (X8 m) c b = atTc (X7 m) c b := by
  intro b hb
  show X8 m c (Proc.devRef .tc b) = X7 m c (Proc.devRef .tc b)
  unfold X8
  rw [upd_tc_of_ne _ _ _ _ (fun e : b = main_v79 => hb (e ▸ Finset.mem_image.mpr ⟨3, Finset.mem_univ _, rfl⟩))]

theorem hF4_0 (c : Dev nD) : (dat4 (atTc (X9 m)) c).arrAt 0 cfg4.N = atTc (X10 m) c (Pipeline.arrRef spec4 0) := by
  refine ((Dat.arrAt_in (dat := dat4 (atTc (X9 m)) c) 0 rfl _).trans (A_eq4 _ c 0)).trans ?_
  show X9 m c (Proc.devRef .tc (Pipeline.arrRef spec4 0)) = X10 m c (Proc.devRef .tc (Pipeline.arrRef spec4 0))
  unfold X10
  rw [upd_tc_of_ne _ _ _ _ (by decide : Pipeline.arrRef spec4 0 ≠ main_v106_2), upd_tc_of_ne _ _ _ _ (by decide : Pipeline.arrRef spec4 0 ≠ main_v106_1), upd_tc_of_ne _ _ _ _ (by decide : Pipeline.arrRef spec4 0 ≠ main_v106_0)]
theorem hF4_1 (c : Dev nD) : (dat4 (atTc (X9 m)) c).arrAt 1 cfg4.N = atTc (X10 m) c (Pipeline.arrRef spec4 1) := by
  refine ((Dat.arrAt_in (dat := dat4 (atTc (X9 m)) c) 1 rfl _).trans (A_eq4 _ c 1)).trans ?_
  show X9 m c (Proc.devRef .tc (Pipeline.arrRef spec4 1)) = X10 m c (Proc.devRef .tc (Pipeline.arrRef spec4 1))
  unfold X10
  rw [upd_tc_of_ne _ _ _ _ (by decide : Pipeline.arrRef spec4 1 ≠ main_v106_2), upd_tc_of_ne _ _ _ _ (by decide : Pipeline.arrRef spec4 1 ≠ main_v106_1), upd_tc_of_ne _ _ _ _ (by decide : Pipeline.arrRef spec4 1 ≠ main_v106_0)]
theorem hF4_2 (c : Dev nD) : (dat4 (atTc (X9 m)) c).arrAt 2 cfg4.N = atTc (X10 m) c (Pipeline.arrRef spec4 2) := by
  refine ((Dat.arrAt_in (dat := dat4 (atTc (X9 m)) c) 2 rfl _).trans (A_eq4 _ c 2)).trans ?_
  show X9 m c (Proc.devRef .tc (Pipeline.arrRef spec4 2)) = X10 m c (Proc.devRef .tc (Pipeline.arrRef spec4 2))
  unfold X10
  rw [upd_tc_of_ne _ _ _ _ (by decide : Pipeline.arrRef spec4 2 ≠ main_v106_2), upd_tc_of_ne _ _ _ _ (by decide : Pipeline.arrRef spec4 2 ≠ main_v106_1), upd_tc_of_ne _ _ _ _ (by decide : Pipeline.arrRef spec4 2 ≠ main_v106_0)]
theorem hF4_3 (c : Dev nD) : (dat4 (atTc (X9 m)) c).arrAt 3 cfg4.N = atTc (X10 m) c (Pipeline.arrRef spec4 3) := by
  refine ((Dat.arrAt_in (dat := dat4 (atTc (X9 m)) c) 3 rfl _).trans (A_eq4 _ c 3)).trans ?_
  show X9 m c (Proc.devRef .tc (Pipeline.arrRef spec4 3)) = X10 m c (Proc.devRef .tc (Pipeline.arrRef spec4 3))
  unfold X10
  rw [upd_tc_of_ne _ _ _ _ (by decide : Pipeline.arrRef spec4 3 ≠ main_v106_2), upd_tc_of_ne _ _ _ _ (by decide : Pipeline.arrRef spec4 3 ≠ main_v106_1), upd_tc_of_ne _ _ _ _ (by decide : Pipeline.arrRef spec4 3 ≠ main_v106_0)]
theorem hF4_4 (c : Dev nD) : (dat4 (atTc (X9 m)) c).arrAt 4 cfg4.N = atTc (X10 m) c (Pipeline.arrRef spec4 4) := by
  refine ((Dat.arrAt_in (dat := dat4 (atTc (X9 m)) c) 4 rfl _).trans (A_eq4 _ c 4)).trans ?_
  show X9 m c (Proc.devRef .tc (Pipeline.arrRef spec4 4)) = X10 m c (Proc.devRef .tc (Pipeline.arrRef spec4 4))
  unfold X10
  rw [upd_tc_of_ne _ _ _ _ (by decide : Pipeline.arrRef spec4 4 ≠ main_v106_2), upd_tc_of_ne _ _ _ _ (by decide : Pipeline.arrRef spec4 4 ≠ main_v106_1), upd_tc_of_ne _ _ _ _ (by decide : Pipeline.arrRef spec4 4 ≠ main_v106_0)]
theorem hF4_5 (c : Dev nD) : (dat4 (atTc (X9 m)) c).arrAt 5 cfg4.N = atTc (X10 m) c (Pipeline.arrRef spec4 5) := by
  refine ((Dat.arrAt_in (dat := dat4 (atTc (X9 m)) c) 5 rfl _).trans (A_eq4 _ c 5)).trans ?_
  show X9 m c (Proc.devRef .tc (Pipeline.arrRef spec4 5)) = X10 m c (Proc.devRef .tc (Pipeline.arrRef spec4 5))
  unfold X10
  rw [upd_tc_of_ne _ _ _ _ (by decide : Pipeline.arrRef spec4 5 ≠ main_v106_2), upd_tc_of_ne _ _ _ _ (by decide : Pipeline.arrRef spec4 5 ≠ main_v106_1), upd_tc_of_ne _ _ _ _ (by decide : Pipeline.arrRef spec4 5 ≠ main_v106_0)]
theorem hF4_6 (c : Dev nD) : (dat4 (atTc (X9 m)) c).arrAt 6 cfg4.N = atTc (X10 m) c (Pipeline.arrRef spec4 6) :=
  (X10_main_v106_0 m c).symm
theorem hF4_7 (c : Dev nD) : (dat4 (atTc (X9 m)) c).arrAt 7 cfg4.N = atTc (X10 m) c (Pipeline.arrRef spec4 7) :=
  (X10_main_v106_1 m c).symm
theorem hF4_8 (c : Dev nD) : (dat4 (atTc (X9 m)) c).arrAt 8 cfg4.N = atTc (X10 m) c (Pipeline.arrRef spec4 8) :=
  (X10_main_v106_2 m c).symm
/-- At region 4's exit each of its arrays holds what the region leaves in it: an input array what it held, an output
    array its write-backs. -/
theorem hF4 (c : Dev nD) : ∀ w : Fin cfg4.W, (dat4 (atTc (X9 m)) c).arrAt w cfg4.N = atTc (X10 m) c (Pipeline.arrRef spec4 w) := fun
  | 0 => hF4_0 m c
  | 1 => hF4_1 m c
  | 2 => hF4_2 m c
  | 3 => hF4_3 m c
  | 4 => hF4_4 m c
  | 5 => hF4_5 m c
  | 6 => hF4_6 m c
  | 7 => hF4_7 m c
  | 8 => hF4_8 m c
  | ⟨_ + 9, h⟩ => absurd h (Nat.not_lt.2 (Nat.le_add_left _ _))
/-- Every buffer that is no array of region 4 is as the region found it. -/
theorem hrest4 (c : Dev nD) : ∀ b, b ∉ Finset.univ.image (Pipeline.arrRef spec4) → atTc (X10 m) c b = atTc (X9 m) c b := by
  intro b hb
  show X10 m c (Proc.devRef .tc b) = X9 m c (Proc.devRef .tc b)
  unfold X10
  rw [upd_tc_of_ne _ _ _ _ (fun e : b = main_v106_2 => hb (e ▸ Finset.mem_image.mpr ⟨8, Finset.mem_univ _, rfl⟩)),
    upd_tc_of_ne _ _ _ _ (fun e : b = main_v106_1 => hb (e ▸ Finset.mem_image.mpr ⟨7, Finset.mem_univ _, rfl⟩)),
    upd_tc_of_ne _ _ _ _ (fun e : b = main_v106_0 => hb (e ▸ Finset.mem_image.mpr ⟨6, Finset.mem_univ _, rfl⟩))]

theorem hF5_0 (c : Dev nD) : (dat5 (atTc (X11 m)) c).arrAt 0 cfg5.N = atTc (X12 m) c (Pipeline.arrRef spec5 0) := by
  refine ((Dat.arrAt_in (dat := dat5 (atTc (X11 m)) c) 0 rfl _).trans (A_eq5 _ c 0)).trans ?_
  show X11 m c (Proc.devRef .tc (Pipeline.arrRef spec5 0)) = X12 m c (Proc.devRef .tc (Pipeline.arrRef spec5 0))
  unfold X12
  rw [upd_tc_of_ne _ _ _ _ (by decide : Pipeline.arrRef spec5 0 ≠ main_v123)]
theorem hF5_1 (c : Dev nD) : (dat5 (atTc (X11 m)) c).arrAt 1 cfg5.N = atTc (X12 m) c (Pipeline.arrRef spec5 1) := by
  refine ((Dat.arrAt_in (dat := dat5 (atTc (X11 m)) c) 1 rfl _).trans (A_eq5 _ c 1)).trans ?_
  show X11 m c (Proc.devRef .tc (Pipeline.arrRef spec5 1)) = X12 m c (Proc.devRef .tc (Pipeline.arrRef spec5 1))
  unfold X12
  rw [upd_tc_of_ne _ _ _ _ (by decide : Pipeline.arrRef spec5 1 ≠ main_v123)]
theorem hF5_2 (c : Dev nD) : (dat5 (atTc (X11 m)) c).arrAt 2 cfg5.N = atTc (X12 m) c (Pipeline.arrRef spec5 2) := by
  refine ((Dat.arrAt_in (dat := dat5 (atTc (X11 m)) c) 2 rfl _).trans (A_eq5 _ c 2)).trans ?_
  show X11 m c (Proc.devRef .tc (Pipeline.arrRef spec5 2)) = X12 m c (Proc.devRef .tc (Pipeline.arrRef spec5 2))
  unfold X12
  rw [upd_tc_of_ne _ _ _ _ (by decide : Pipeline.arrRef spec5 2 ≠ main_v123)]
theorem hF5_3 (c : Dev nD) : (dat5 (atTc (X11 m)) c).arrAt 3 cfg5.N = atTc (X12 m) c (Pipeline.arrRef spec5 3) :=
  (X12_main_v123 m c).symm
/-- At region 5's exit each of its arrays holds what the region leaves in it: an input array what it held, an output
    array its write-backs. -/
theorem hF5 (c : Dev nD) : ∀ w : Fin cfg5.W, (dat5 (atTc (X11 m)) c).arrAt w cfg5.N = atTc (X12 m) c (Pipeline.arrRef spec5 w) := fun
  | 0 => hF5_0 m c
  | 1 => hF5_1 m c
  | 2 => hF5_2 m c
  | 3 => hF5_3 m c
  | ⟨_ + 4, h⟩ => absurd h (Nat.not_lt.2 (Nat.le_add_left _ _))
/-- Every buffer that is no array of region 5 is as the region found it. -/
theorem hrest5 (c : Dev nD) : ∀ b, b ∉ Finset.univ.image (Pipeline.arrRef spec5) → atTc (X12 m) c b = atTc (X11 m) c b := by
  intro b hb
  show X12 m c (Proc.devRef .tc b) = X11 m c (Proc.devRef .tc b)
  unfold X12
  rw [upd_tc_of_ne _ _ _ _ (fun e : b = main_v123 => hb (e ▸ Finset.mem_image.mpr ⟨3, Finset.mem_univ _, rfl⟩))]

end Cert.KernelIdeal.Hand

end
-- ==== Proof.KI.Seg0.lean ====
/-
  Region 0 as a segment of the run: entered with the core's unscoped buffers at the contents before it, left with them at the contents after it.
-/
import proofs.«172250_j15616501088594_1_alg».proof.Proof.KI.Segs
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: its arrays are split out of the unscoped buffers on entry and put back at the
    exit contents; the generator register goes into the region's invariant and comes out; nothing is owed. -/
def reg0 : Pipeline.RegionSeg (pcfgs (F := F)) adm (pdats m) () defs₀ Variants.none Lv0 lv0 0 where
  win := launch0.win.to₀
  block_pos := launch0.block_pos
  stage_whole := launch0.stage_whole
  K := PEmpty
  osem k := k.elim
  ho := Pipeline.OwnSemFacts.none _
  hbody c := (body_obligation0 (atTc (X1 m)) c).loose
  hwaits := Pipeline.hwaits_of_owed_zero _ _ _ _ Lv0 lv0 0 fun c t => owed_eq0 (atTc (X1 m)) c t
  pre c := iprop(StableHlo.held (c : Thread nD τ) (Pipeline.ucRefs τ sig) (X1 m c) ∗ Rd c)
  post c := iprop(StableHlo.held (c : Thread nD τ) (Pipeline.ucRefs τ sig) (X2 m c) ∗ Rd c)
  X c := iprop(∃ r, prngReg c r)
  Y c := iprop(∃ r, prngReg c r)
  Z c := Pipeline.unscopedRest (Ix := Unit) (Name := ℕ) (U := UR sig nD τ) (Lvl := ℕ) spec0 c (atTc (X1 m) c)
  hentry c := by
    rw [Pipeline.ownSems0_none]
    have hsplit := Pipeline.arrays_of_unscopedBufs (p := 0) (pcfgs (F := F)) adm (pdats m) launch0.win launch0.arr_whole c
      ((pdats m 0 c).share_full fun w => q_eq0 (atTc (X1 m)) c w) (atTc (X1 m) c) fun w => A_eq0 (atTc (X1 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat0 (atTc (X1 m)) c).Φ 0
    iintro ⟨Hp, -, Hr⟩
    iapply (hin0 (atTc (X1 m)) c)
    isplitl [Hp]; · iexact Hp
    iexact Hr
  hout c := by
    rw [Pipeline.ownSems0_none]
    change (dat0 (atTc (X1 m)) c).Φ (Fin.last cfg0.N) ⊢ _
    iintro H
    ihave H' := (hout0 (atTc (X1 m)) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (atTc (X1 m)) c w)
      (atTc (X1 m) c) (atTc (X2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 as a segment of the run: entered with the core's unscoped buffers at the contents before it, left with them at the contents after it.
-/
import proofs.«172250_j15616501088594_1_alg».proof.Proof.KI.Segs
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state: its arrays are split out of the unscoped buffers on entry and put back at the
    exit contents; the generator register goes into the region's invariant and comes out; nothing is owed. -/
def reg1 : Pipeline.RegionSeg (pcfgs (F := F)) adm (pdats m) () defs₀ Variants.none Lv0 lv0 1 where
  win := launch1.win.to₀
  block_pos := launch1.block_pos
  stage_whole := launch1.stage_whole
  K := PEmpty
  osem k := k.elim
  ho := Pipeline.OwnSemFacts.none _
  hbody c := (body_obligation1 (atTc (X3 m)) c).loose
  hwaits := Pipeline.hwaits_of_owed_zero _ _ _ _ Lv0 lv0 1 fun _ _ => rfl
  pre c := iprop(StableHlo.held (c : Thread nD τ) (Pipeline.ucRefs τ sig) (X3 m c) ∗ Rd c)
  post c := iprop(StableHlo.held (c : Thread nD τ) (Pipeline.ucRefs τ sig) (X4 m c) ∗ Rd c)
  X c := iprop(∃ r, prngReg c r)
  Y c := iprop(∃ r, prngReg c r)
  Z c := Pipeline.unscopedRest (Ix := Unit) (Name := ℕ) (U := UR sig nD τ) (Lvl := ℕ) spec1 c (atTc (X3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X3 m) c) fun w => A_eq1 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X3 m) c) (atTc (X4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 as a segment of the run: entered with the core's unscoped buffers at the contents before it, left with them at the contents after it.
-/
import proofs.«172250_j15616501088594_1_alg».proof.Proof.KI.Segs
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state: its arrays are split out of the unscoped buffers on entry and put back at the
    exit contents; the generator register goes into the region's invariant and comes out; nothing is owed. -/
def reg2 : Pipeline.RegionSeg (pcfgs (F := F)) adm (pdats m) () defs₀ Variants.none Lv0 lv0 2 where
  win := launch2.win.to₀
  block_pos := launch2.block_pos
  stage_whole := launch2.stage_whole
  K := PEmpty
  osem k := k.elim
  ho := Pipeline.OwnSemFacts.none _
  hbody c := (body_obligation2 (atTc (X5 m)) c).loose
  hwaits := Pipeline.hwaits_of_owed_zero _ _ _ _ Lv0 lv0 2 fun c t => owed_eq2 (atTc (X5 m)) c t
  pre c := iprop(StableHlo.held (c : Thread nD τ) (Pipeline.ucRefs τ sig) (X5 m c) ∗ Rd c)
  post c := iprop(StableHlo.held (c : Thread nD τ) (Pipeline.ucRefs τ sig) (X6 m c) ∗ Rd c)
  X c := iprop(∃ r, prngReg c r)
  Y c := iprop(∃ r, prngReg c r)
  Z c := Pipeline.unscopedRest (Ix := Unit) (Name := ℕ) (U := UR sig nD τ) (Lvl := ℕ) spec2 c (atTc (X5 m) c)
  hentry c := by
    rw [Pipeline.ownSems0_none]
    have hsplit := Pipeline.arrays_of_unscopedBufs (p := 2) (pcfgs (F := F)) adm (pdats m) launch2.win launch2.arr_whole c
      ((pdats m 2 c).share_full fun w => q_eq2 (atTc (X5 m)) c w) (atTc (X5 m) c) fun w => A_eq2 (atTc (X5 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat2 (atTc (X5 m)) c).Φ 0
    iintro ⟨Hp, -, Hr⟩
    iapply (hin2 (atTc (X5 m)) c)
    isplitl [Hp]; · iexact Hp
    iexact Hr
  hout c := by
    rw [Pipeline.ownSems0_none]
    change (dat2 (atTc (X5 m)) c).Φ (Fin.last cfg2.N) ⊢ _
    iintro H
    ihave H' := (hout2 (atTc (X5 m)) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (atTc (X5 m)) c w)
      (atTc (X5 m) c) (atTc (X6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/-
  Region 3 as a segment of the run: entered with the core's unscoped buffers at the contents before it, left with them at the contents after it.
-/
import proofs.«172250_j15616501088594_1_alg».proof.Proof.KI.Segs
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state: its arrays are split out of the unscoped buffers on entry and put back at the
    exit contents; the generator register goes into the region's invariant and comes out; nothing is owed. -/
def reg3 : Pipeline.RegionSeg (pcfgs (F := F)) adm (pdats m) () defs₀ Variants.none Lv0 lv0 3 where
  win := launch3.win.to₀
  block_pos := launch3.block_pos
  stage_whole := launch3.stage_whole
  K := PEmpty
  osem k := k.elim
  ho := Pipeline.OwnSemFacts.none _
  hbody c := (body_obligation3 (atTc (X7 m)) c).loose
  hwaits := Pipeline.hwaits_of_owed_zero _ _ _ _ Lv0 lv0 3 fun _ _ => rfl
  pre c := iprop(StableHlo.held (c : Thread nD τ) (Pipeline.ucRefs τ sig) (X7 m c) ∗ Rd c)
  post c := iprop(StableHlo.held (c : Thread nD τ) (Pipeline.ucRefs τ sig) (X8 m c) ∗ Rd c)
  X c := iprop(∃ r, prngReg c r)
  Y c := iprop(∃ r, prngReg c r)
  Z c := Pipeline.unscopedRest (Ix := Unit) (Name := ℕ) (U := UR sig nD τ) (Lvl := ℕ) spec3 c (atTc (X7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (X7 m) c) fun w => A_eq3 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X7 m) c) (atTc (X8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/-
  Region 4 as a segment of the run: entered with the core's unscoped buffers at the contents before it, left with them at the contents after it.
-/
import proofs.«172250_j15616501088594_1_alg».proof.Proof.KI.Segs
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state: its arrays are split out of the unscoped buffers on entry and put back at the
    exit contents; the generator register goes into the region's invariant and comes out; nothing is owed. -/
def reg4 : Pipeline.RegionSeg (pcfgs (F := F)) adm (pdats m) () defs₀ Variants.none Lv0 lv0 4 where
  win := launch4.win.to₀
  block_pos := launch4.block_pos
  stage_whole := launch4.stage_whole
  K := PEmpty
  osem k := k.elim
  ho := Pipeline.OwnSemFacts.none _
  hbody c := (body_obligation4 (atTc (X9 m)) c).loose
  hwaits := Pipeline.hwaits_of_owed_zero _ _ _ _ Lv0 lv0 4 fun c t => owed_eq4 (atTc (X9 m)) c t
  pre c := iprop(StableHlo.held (c : Thread nD τ) (Pipeline.ucRefs τ sig) (X9 m c) ∗ Rd c)
  post c := iprop(StableHlo.held (c : Thread nD τ) (Pipeline.ucRefs τ sig) (X10 m c) ∗ Rd c)
  X c := iprop(∃ r, prngReg c r)
  Y c := iprop(∃ r, prngReg c r)
  Z c := Pipeline.unscopedRest (Ix := Unit) (Name := ℕ) (U := UR sig nD τ) (Lvl := ℕ) spec4 c (atTc (X9 m) c)
  hentry c := by
    rw [Pipeline.ownSems0_none]
    have hsplit := Pipeline.arrays_of_unscopedBufs (p := 4) (pcfgs (F := F)) adm (pdats m) launch4.win launch4.arr_whole c
      ((pdats m 4 c).share_full fun w => q_eq4 (atTc (X9 m)) c w) (atTc (X9 m) c) fun w => A_eq4 (atTc (X9 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat4 (atTc (X9 m)) c).Φ 0
    iintro ⟨Hp, -, Hr⟩
    iapply (hin4 (atTc (X9 m)) c)
    isplitl [Hp]; · iexact Hp
    iexact Hr
  hout c := by
    rw [Pipeline.ownSems0_none]
    change (dat4 (atTc (X9 m)) c).Φ (Fin.last cfg4.N) ⊢ _
    iintro H
    ihave H' := (hout4 (atTc (X9 m)) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun w => q_eq4 (atTc (X9 m)) c w)
      (atTc (X9 m) c) (atTc (X10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
/-
  Region 5 as a segment of the run: entered with the core's unscoped buffers at the contents before it, left with them at the contents after it.
-/
import proofs.«172250_j15616501088594_1_alg».proof.Proof.KI.Segs
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state: its arrays are split out of the unscoped buffers on entry and put back at the
    exit contents; the generator register goes into the region's invariant and comes out; nothing is owed. -/
def reg5 : Pipeline.RegionSeg (pcfgs (F := F)) adm (pdats m) () defs₀ Variants.none Lv0 lv0 5 where
  win := launch5.win.to₀
  block_pos := launch5.block_pos
  stage_whole := launch5.stage_whole
  K := PEmpty
  osem k := k.elim
  ho := Pipeline.OwnSemFacts.none _
  hbody c := (body_obligation5 (atTc (X11 m)) c).loose
  hwaits := Pipeline.hwaits_of_owed_zero _ _ _ _ Lv0 lv0 5 fun _ _ => rfl
  pre c := iprop(StableHlo.held (c : Thread nD τ) (Pipeline.ucRefs τ sig) (X11 m c) ∗ Rd c)
  post c := iprop(StableHlo.held (c : Thread nD τ) (Pipeline.ucRefs τ sig) (X12 m c) ∗ Rd c)
  X c := iprop(∃ r, prngReg c r)
  Y c := iprop(∃ r, prngReg c r)
  Z c := Pipeline.unscopedRest (Ix := Unit) (Name := ℕ) (U := UR sig nD τ) (Lvl := ℕ) spec5 c (atTc (X11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (X11 m) c) fun w => A_eq5 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (X11 m) c) (atTc (X12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.ChainEq.lean ====
/-
  The program's valuations between items, taken at exactly the contents the regions leave in their output arrays,
  are the chain of buffer contents. Every step below only renames: a region's output array is moved around, never
  opened.
-/
import proofs.«172250_j15616501088594_1_alg».proof.Proof.KI.Chain

set_option maxRecDepth 16384

noncomputable section

namespace Cert.KernelIdeal.Hand

open Cert.KernelIdeal Cert.KernelIdeal.Gen
open Idealize.ShloMosaic Idealize.ShloMosaic.TcCoe

variable {F : FTy → Type} [FloatOps F]
/-- Updating `f` at one reference with what `g` holds there gives `g`, when `g` is `f` updated there. -/
theorem upd_restore1 (f g : Valuation τ sig (Elt F)) (a : DevRef τ sig) (x : a.ty.Contents (Elt F))
    (hg : g = Function.update f a x) : Function.update f a (g a) = g := by
  subst hg; rw [Function.update_self]

/-- The same at three distinct references. -/
theorem upd_restore3 (f g : Valuation τ sig (Elt F)) (a b d : DevRef τ sig) (x : a.ty.Contents (Elt F)) (y : b.ty.Contents (Elt F))
    (z : d.ty.Contents (Elt F)) (hg : g = Function.update (Function.update (Function.update f a x) b y) d z)
    (hba : b ≠ a) (hda : d ≠ a) (hdb : d ≠ b) :
    Function.update (Function.update (Function.update f a (g a)) b (g b)) d (g d) = g := by
  subst hg
  have h1 : Function.update (Function.update (Function.update f a x) b y) d z d = z := Function.update_self ..
  have h2 : Function.update (Function.update (Function.update f a x) b y) d z b = y := by
    rw [Function.update_of_ne hdb.symm]; exact Function.update_self ..
  have h3 : Function.update (Function.update (Function.update f a x) b y) d z a = x := by
    rw [Function.update_of_ne hda.symm, Function.update_of_ne hba.symm]; exact Function.update_self ..
  rw [h1, h2, h3]

variable (m : (ℓ : Loc nD τ sig) → Buf (Elt F) ℓ)

/-- What each region leaves in the arrays it may change, read off the chain of contents. -/
def outsX : Outs (F := F) := fun J r c => match J with
  | 2 => X2 m c r | 4 => X4 m c r | 6 => X6 m c r | 8 => X8 m c r | 10 => X10 m c r | 12 => X12 m c r
  | _ => m ((c : Thread nD τ).loc r)

theorem V1_eq (c : Dev nD) : V1 m c = X1 m c := by with_reducible rfl

theorem outsX_2 (r : Ref sig .tc) (c : Dev nD) : outsX m 2 r c = X2 m c r := by simp only [outsX]
set_option maxHeartbeats 4000000 in
theorem V2_eq (c : Dev nD) : V2 m (outsX m) c = X2 m c := by
  simp only [V2, outsX_2, V1_eq]
  unfold X2
  exact upd_restore3 (X1 m c) (Function.update (Function.update (Function.update (X1 m c) (Proc.devRef .tc main_v18_0) ((dat0 (atTc (X1 m)) c).arrAt 6 cfg0.N)) (Proc.devRef .tc main_v18_1) ((dat0 (atTc (X1 m)) c).arrAt 7 cfg0.N)) (Proc.devRef .tc main_v18_2) ((dat0 (atTc (X1 m)) c).arrAt 8 cfg0.N))
    (Proc.devRef .tc main_v18_0) (Proc.devRef .tc main_v18_1) (Proc.devRef .tc main_v18_2)
    ((dat0 (atTc (X1 m)) c).arrAt 6 cfg0.N) ((dat0 (atTc (X1 m)) c).arrAt 7 cfg0.N) ((dat0 (atTc (X1 m)) c).arrAt 8 cfg0.N) rfl
    (StableHlo.devRef_ne_of_ne (by decide)) (StableHlo.devRef_ne_of_ne (by decide)) (StableHlo.devRef_ne_of_ne (by decide))
theorem V3_eq (c : Dev nD) : V3 m (outsX m) c = X3 m c := congrArg (StableHlo.after hostOps1) (V2_eq m c)

theorem outsX_4 (r : Ref sig .tc) (c : Dev nD) : outsX m 4 r c = X4 m c r := by simp only [outsX]
set_option maxHeartbeats 4000000 in
theorem V4_eq (c : Dev nD) : V4 m (outsX m) c = X4 m c := by
  simp only [V4, outsX_4, V3_eq]
  unfold X4
  exact upd_restore1 (X3 m c) (Function.update (X3 m c) (Proc.devRef .tc main_v35) ((dat1 (atTc (X3 m)) c).arrAt 3 cfg1.N))
    (Proc.devRef .tc main_v35) ((dat1 (atTc (X3 m)) c).arrAt 3 cfg1.N) rfl
theorem V5_eq (c : Dev nD) : V5 m (outsX m) c = X5 m c := congrArg (StableHlo.after hostOps2) (V4_eq m c)

theorem outsX_6 (r : Ref sig .tc) (c : Dev nD) : outsX m 6 r c = X6 m c r := by simp only [outsX]
set_option maxHeartbeats 4000000 in
theorem V6_eq (c : Dev nD) : V6 m (outsX m) c = X6 m c := by
  simp only [V6, outsX_6, V5_eq]
  unfold X6
  exact upd_restore3 (X5 m c) (Function.update (Function.update (Function.update (X5 m c) (Proc.devRef .tc main_v62_0) ((dat2 (atTc (X5 m)) c).arrAt 6 cfg2.N)) (Proc.devRef .tc main_v62_1) ((dat2 (atTc (X5 m)) c).arrAt 7 cfg2.N)) (Proc.devRef .tc main_v62_2) ((dat2 (atTc (X5 m)) c).arrAt 8 cfg2.N))
    (Proc.devRef .tc main_v62_0) (Proc.devRef .tc main_v62_1) (Proc.devRef .tc main_v62_2)
    ((dat2 (atTc (X5 m)) c).arrAt 6 cfg2.N) ((dat2 (atTc (X5 m)) c).arrAt 7 cfg2.N) ((dat2 (atTc (X5 m)) c).arrAt 8 cfg2.N) rfl
    (StableHlo.devRef_ne_of_ne (by decide)) (StableHlo.devRef_ne_of_ne (by decide)) (StableHlo.devRef_ne_of_ne (by decide))
theorem V7_eq (c : Dev nD) : V7 m (outsX m) c = X7 m c := congrArg (StableHlo.after hostOps3) (V6_eq m c)

theorem outsX_8 (r : Ref sig .tc) (c : Dev nD) : outsX m 8 r c = X8 m c r := by simp only [outsX]
set_option maxHeartbeats 4000000 in
theorem V8_eq (c : Dev nD) : V8 m (outsX m) c = X8 m c := by
  simp only [V8, outsX_8, V7_eq]
  unfold X8
  exact upd_restore1 (X7 m c) (Function.update (X7 m c) (Proc.devRef .tc main_v79) ((dat3 (atTc (X7 m)) c).arrAt 3 cfg3.N))
    (Proc.devRef .tc main_v79) ((dat3 (atTc (X7 m)) c).arrAt 3 cfg3.N) rfl
theorem V9_eq (c : Dev nD) : V9 m (outsX m) c = X9 m c := congrArg (StableHlo.after hostOps4) (V8_eq m c)

theorem outsX_10 (r : Ref sig .tc) (c : Dev nD) : outsX m 10 r c = X10 m c r := by simp only [outsX]
set_option maxHeartbeats 4000000 in
theorem V10_eq (c : Dev nD) : V10 m (outsX m) c = X10 m c := by
  simp only [V10, outsX_10, V9_eq]
  unfold X10
  exact upd_restore3 (X9 m c) (Function.update (Function.update (Function.update (X9 m c) (Proc.devRef .tc main_v106_0) ((dat4 (atTc (X9 m)) c).arrAt 6 cfg4.N)) (Proc.devRef .tc main_v106_1) ((dat4 (atTc (X9 m)) c).arrAt 7 cfg4.N)) (Proc.devRef .tc main_v106_2) ((dat4 (atTc (X9 m)) c).arrAt 8 cfg4.N))
    (Proc.devRef .tc main_v106_0) (Proc.devRef .tc main_v106_1) (Proc.devRef .tc main_v106_2)
    ((dat4 (atTc (X9 m)) c).arrAt 6 cfg4.N) ((dat4 (atTc (X9 m)) c).arrAt 7 cfg4.N) ((dat4 (atTc (X9 m)) c).arrAt 8 cfg4.N) rfl
    (StableHlo.devRef_ne_of_ne (by decide)) (StableHlo.devRef_ne_of_ne (by decide)) (StableHlo.devRef_ne_of_ne (by decide))
theorem V11_eq (c : Dev nD) : V11 m (outsX m) c = X11 m c := congrArg (StableHlo.after hostOps5) (V10_eq m c)

theorem outsX_12 (r : Ref sig .tc) (c : Dev nD) : outsX m 12 r c = X12 m c r := by simp only [outsX]
set_option maxHeartbeats 4000000 in
theorem V12_eq (c : Dev nD) : V12 m (outsX m) c = X12 m c := by
  simp only [V12, outsX_12, V11_eq]
  unfold X12
  exact upd_restore1 (X11 m c) (Function.update (X11 m c) (Proc.devRef .tc main_v123) ((dat5 (atTc (X11 m)) c).arrAt 3 cfg5.N))
    (Proc.devRef .tc main_v123) ((dat5 (atTc (X11 m)) c).arrAt 3 cfg5.N) rfl
theorem V13_eq (c : Dev nD) : V13 m (outsX m) c = X13 m c := congrArg (StableHlo.after hostOps6) (V12_eq m c)

end Cert.KernelIdeal.Hand

end
-- ==== Proof.KI.RunCond.lean ====
/-
  The conditional run of the idealized kernel program WITH ITS RESULT: given one segment record per kernel region,
  pinned to the valuations between items (the launch contents, then each host stretch applied, then what a region
  leaves in its output arrays), every weakly fair execution of the program terminates, the result buffer ends at the
  last valuation's contents and every argument array ends as launched. It is the conditional frame of the program's
  regions with one more buffer — the result — read off the last valuation.
-/
import proofs.«172250_j15616501088594_1_alg».proof.Proof.Gen.KernelIdeal.Regions

set_option maxRecDepth 1444

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ) (outs : Outs (F := F))

set_option backward.isDefEq.respectTransparency.types false in
/-- The run, given the regions' records: the result buffer holds what the last host stretch leaves in it, computed
    from the launch contents through every stretch and every region's outputs; the arguments are unchanged. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c)) :
    θ_run defs (onTc (τ := τ) (main (F := F))) ⟨m, fun _ => 0, ρ⟩ (fun r => ∀ c : Dev nD,
      r.2.mem ((c.tc : Thread nD τ).loc main_v130) = V13 m outs c main_v130
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, hpre0 c, hpost0 c, hpre1 c, hpost1 c, hpre2 c, hpost2 c, hpre3 c, hpost3 c, hpre4 c, hpost4 c, hpre5 c, hpost5 c, sep_mono .rfl (hE6 c)⟩)
    (hinit := ?_) (QY := fun c s => s.mem ((c.tc : Thread nD τ).loc main_v130) = V13 m outs c main_v130 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨h (Proc.devRef .tc main_v130) (Finset.mem_filter.mpr ⟨StableHlo.devRef_mem_tcRefs main_v130, by decide⟩),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c),
        (h (Proc.devRef .tc main_arg5) (Finset.mem_filter.mpr ⟨StableHlo.devRef_mem_tcRefs main_arg5, by decide⟩)).trans (V13_main_arg5 m outs c),
        (h (Proc.devRef .tc main_arg6) (Finset.mem_filter.mpr ⟨StableHlo.devRef_mem_tcRefs main_arg6, by decide⟩)).trans (V13_main_arg6 m outs c),
        (h (Proc.devRef .tc main_arg7) (Finset.mem_filter.mpr ⟨StableHlo.devRef_mem_tcRefs main_arg7, by decide⟩)).trans (V13_main_arg7 m outs c),
        (h (Proc.devRef .tc main_arg8) (Finset.mem_filter.mpr ⟨StableHlo.devRef_mem_tcRefs main_arg8, by decide⟩)).trans (V13_main_arg8 m outs c),
        (h (Proc.devRef .tc main_arg9) (Finset.mem_filter.mpr ⟨StableHlo.devRef_mem_tcRefs main_arg9, by decide⟩)).trans (V13_main_arg9 m outs c),
        (h (Proc.devRef .tc main_arg10) (Finset.mem_filter.mpr ⟨StableHlo.devRef_mem_tcRefs main_arg10, by decide⟩)).trans (V13_main_arg10 m outs c),
        (h (Proc.devRef .tc main_arg11) (Finset.mem_filter.mpr ⟨StableHlo.devRef_mem_tcRefs main_arg11, by decide⟩)).trans (V13_main_arg11 m outs c),
        (h (Proc.devRef .tc main_arg12) (Finset.mem_filter.mpr ⟨StableHlo.devRef_mem_tcRefs main_arg12, by decide⟩)).trans (V13_main_arg12 m outs c),
        (h (Proc.devRef .tc main_arg13) (Finset.mem_filter.mpr ⟨StableHlo.devRef_mem_tcRefs main_arg13, by decide⟩)).trans (V13_main_arg13 m outs c),
        (h (Proc.devRef .tc main_arg14) (Finset.mem_filter.mpr ⟨StableHlo.devRef_mem_tcRefs main_arg14, by decide⟩)).trans (V13_main_arg14 m outs c),
        (h (Proc.devRef .tc main_arg15) (Finset.mem_filter.mpr ⟨StableHlo.devRef_mem_tcRefs main_arg15, by decide⟩)).trans (V13_main_arg15 m outs c),
        (h (Proc.devRef .tc main_arg16) (Finset.mem_filter.mpr ⟨StableHlo.devRef_mem_tcRefs main_arg16, by decide⟩)).trans (V13_main_arg16 m outs c)⟩
    · iexact HSI

end Cert.KernelIdeal.Hand

end
-- ==== Proof.KI.Run.lean ====
/-
  The idealized kernel program's run: from any launch memory with zero counters every weakly fair execution
  terminates, every argument array ends as launched (the frame), and the result buffer ends at the last host
  stretch's result computed through the chain of buffer contents between items (the run with its value).
-/
import proofs.«172250_j15616501088594_1_alg».proof.Proof.KI.Seg0
import proofs.«172250_j15616501088594_1_alg».proof.Proof.KI.Seg1
import proofs.«172250_j15616501088594_1_alg».proof.Proof.KI.Seg2
import proofs.«172250_j15616501088594_1_alg».proof.Proof.KI.Seg3
import proofs.«172250_j15616501088594_1_alg».proof.Proof.KI.Seg4
import proofs.«172250_j15616501088594_1_alg».proof.Proof.KI.Seg5
import proofs.«172250_j15616501088594_1_alg».proof.Proof.KI.ChainEq
import proofs.«172250_j15616501088594_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The launch's tokens are the pipeline cells' initial state; no ghost resource beside them. -/
theorem launch_tokens : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch leaves on every core beside its buffers makes the rest state: the generator register at its
    launch state, and the core owing nothing. -/
theorem rest_of_launch (ρ : Dev nD → PrngReg) :
    (iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Lv0 lv0) : sProp 𝕄)
      ⊢ |={Set.univ}=> bigSep Finset.univ (fun c : Dev nD => Rd (F := F) c) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
      ⊢ (bigSep Finset.univ (fun c : Dev nD => Rd (F := F) c) : sProp 𝕄) :=
    bigSep_mono fun c _ => by
      show (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄) ⊢ Rd (F := F) c
      iintro ⟨-, HO, -, Hp, -⟩
      isplitl [Hp]; · iexists _; iexact Hp
      iexists ∅; iexact HO
  iintro ⟨H, -⟩
  imodintro
  iapply hmono
  iexact H

variable (m : (ℓ : Loc nD τ sig) → Buf (Elt F) ℓ) (ρ : Dev nD → PrngReg)

/-- The frame: every argument array ends as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Gen.frame_cond (m := m) (EP := emb₁) (ι := ()) (𝒱₀ := Variants.none) (L := Lv0) (lv := lv0) (hL := fun _ _ => rfl) (ρ := ρ)
    (outs := outsX m) (pdats := pdats m) (O₀ := 0) (G := fun _ => iprop(emp))
    (u₀ := initOf (Pipeline.cells cfgs cellOf_inj) (Pipeline.launchToks cfgs cellOf_inj)) (hu₀ := launch_tokens)
    (E := fun _ c => Rd c) (hE0 := rest_of_launch ρ) (hE6 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)

/-- The run with its value: the result buffer ends at the last valuation's contents; the arguments as launched. -/
theorem run :
    θ_run defs (onTc (τ := τ) (main (F := F))) ⟨m, fun _ => 0, ρ⟩ (fun r => ∀ c : Dev nD,
      r.2.mem ((c.tc : Thread nD τ).loc main_v130) = X13 m c main_v130
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  have h := run_cond (m := m) (EP := emb₁) (ι := ()) (𝒱₀ := Variants.none) (L := Lv0) (lv := lv0) (hL := fun _ _ => rfl) (ρ := ρ)
    (outs := outsX m) (pdats := pdats m) (O₀ := 0) (G := fun _ => iprop(emp))
    (u₀ := initOf (Pipeline.cells cfgs cellOf_inj) (Pipeline.launchToks cfgs cellOf_inj)) (hu₀ := launch_tokens)
    (E := fun _ c => Rd c) (hE0 := rest_of_launch ρ) (hE6 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
  refine (θ_run defs _ _).mono (fun r hh c => ⟨(hh c).1.trans ?_, (hh c).2⟩) h
  rw [V13_eq]

end Cert.KernelIdeal.Hand

end
-- ==== Proof.Ref.Tab0.lean ====
/- Window 0 of the reference's @main (`main_part0`), operations 1 … 87 of 261: the operations as lists — each called
   function's operations in its call's place, over that call's buffer record — cut at the stage boundaries, the
   buffers each list writes, and the window's whole list. -/
import proofs.«172250_j15616501088594_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 4 (stage E: reads main_arg1; yields main_v1, main_v3). -/
abbrev ops_E : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- The buffers `ops_E` writes. -/
abbrev W_E : List (Ref sig .tc) := [main_v0, main_v1, main_v2, main_v3]

/-- Operations 5 … 17 (stage A0: reads main_arg0, main_v1, main_v3; yields main_v13). -/
abbrev ops_A0 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers `ops_A0` writes. -/
abbrev W_A0 : List (Ref sig .tc) := [main_c, main_v4, main_v5, main_c_0, main_v6, main_v7, main_v8, main_v9, main_v10, main_cst, main_v11, main_v12, main_v13]

/-- Operations 18 … 32 (stage D0: reads main_arg0, main_v13, main_arg3, main_arg4, main_arg5, main_arg6; yields main_v24). -/
abbrev ops_D0 : List (HloOp τ sig (Elt F)) :=
  [ StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg3 main_v15 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg4 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (StableHlo.TRef.of (T := ⟨S100000x128, .f32⟩) main_v18) main_call0.v0 main_call0.v1 maximumf,
    StableHlo.binary main_v19 main_arg5 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of (T := ⟨S100000x128, .f32⟩) main_v23) main_call1.v0 main_call1.v1 maximumf ]

/-- The buffers `ops_D0` writes. -/
abbrev W_D0 : List (Ref sig .tc) := [main_v14, main_v15, main_v16, main_v17, main_v18, main_call0_cst, main_call0_v0, main_v19, main_v20, main_v21, main_v22, main_v23, main_call1_cst, main_call1_v0, main_v24]

/-- Operations 33 … 37 (stage BM0: reads main_v24; yields main_v27). -/
abbrev ops_BM0 : List (HloOp τ sig (Elt F)) :=
  [ StableHlo.nullary main_cst_1 (constant S_ .f32 0x00000000#32),
    StableHlo.binary main_v24 main_cst_1 main_v25 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)) ]

/-- The buffers `ops_BM0` writes. -/
abbrev W_BM0 : List (Ref sig .tc) := [main_cst_1, main_v25, main_cst_2, main_v26, main_v27]

/-- Operations 38 … 60 (stage BV0: reads main_v24; yields main_v28). -/
abbrev ops_BV0 : List (HloOp τ sig (Elt F)) :=
  [ StableHlo.nullary main_c_3 (constantI S_ 32 0#32),
    StableHlo.TRef.nullary main_call2.cst (constant S_ .f32 0x00000000#32),
    StableHlo.TRef.binary (StableHlo.TRef.of (T := ⟨S100000x128, .f32⟩) main_v24) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of (T := ⟨S100000x128, .f32⟩) main_v24) main_call2.v4 main_call2.v5 subf,
    StableHlo.TRef.binary main_call2.v5 main_call2.v5 main_call2.v6 mulf,
    StableHlo.TRef.unary (StableHlo.TRef.of (T := ⟨S_, .i32⟩) main_c_3) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- The buffers `ops_BV0` writes. -/
abbrev W_BV0 : List (Ref sig .tc) := [main_c_3, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v28]

/-- Operations 61 … 79 (stage BA0: reads main_v24, main_v27, main_v28, main_arg7, main_arg8; yields main_v44). -/
abbrev ops_BA0 : List (HloOp τ sig (Elt F)) :=
  [ StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v30 main_v31 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v36 main_v37 (mulf : (⟨S100000x128, .f32⟩ : BufTy).Contents (Elt F) → (⟨S100000x128, .f32⟩ : BufTy).Contents (Elt F) → (⟨S100000x128, .f32⟩ : BufTy).Contents (Elt F)),
    StableHlo.unary main_arg7 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_arg8 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (StableHlo.TRef.of (T := ⟨S100000x128, .f32⟩) main_v43) main_call3.v0 main_call3.v1 maximumf ]

/-- The buffers `ops_BA0` writes. -/
abbrev W_BA0 : List (Ref sig .tc) := [main_v29, main_v30, main_v31, main_cst_4, main_v32, main_v33, main_v34, main_v35, main_v36, main_v37, main_v38, main_v39, main_v40, main_v41, main_v42, main_v43, main_call3_cst, main_call3_v0, main_v44]

/-- Operations 80 … 87 (stage S1a: reads main_arg9, main_arg10, main_arg11, main_arg12; yields main_v46, main_v48, main_v50, main_v52). -/
abbrev ops_S1a : List (HloOp τ sig (Elt F)) :=
  [ StableHlo.unary main_arg9 main_v45 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v45 main_v46 rfl shapeCasts_S1x128x128_S128x128,
    StableHlo.unary main_arg10 main_v47 ((extractStridedSlice S1x128 ![0, 0] · slices_S2x128_S1x128_0_0) : (⟨S2x128, .f32⟩ : BufTy).Contents (Elt F) → (⟨S1x128, .f32⟩ : BufTy).Contents (Elt F)),
    StableHlo.reshape main_v47 main_v48 rfl shapeCasts_S1x128_S128,
    StableHlo.unary main_arg11 main_v49 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v49 main_v50 rfl shapeCasts_S1x128x128_S128x128,
    StableHlo.unary main_arg12 main_v51 ((extractStridedSlice S1x128 ![0, 0] · slices_S2x128_S1x128_0_0) : (⟨S2x128, .f32⟩ : BufTy).Contents (Elt F) → (⟨S1x128, .f32⟩ : BufTy).Contents (Elt F)),
    StableHlo.reshape main_v51 main_v52 rfl shapeCasts_S1x128_S128 ]

/-- The buffers `ops_S1a` writes. -/
abbrev W_S1a : List (Ref sig .tc) := [main_v45, main_v46, main_v47, main_v48, main_v49, main_v50, main_v51, main_v52]

/-- `main_part0`'s 87 operations, in order. -/
abbrev ops_part0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg3 main_v15 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg4 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (StableHlo.TRef.of (T := ⟨S100000x128, .f32⟩) main_v18) main_call0.v0 main_call0.v1 maximumf,
    StableHlo.binary main_v19 main_arg5 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of (T := ⟨S100000x128, .f32⟩) main_v23) main_call1.v0 main_call1.v1 maximumf,
    StableHlo.nullary main_cst_1 (constant S_ .f32 0x00000000#32),
    StableHlo.binary main_v24 main_cst_1 main_v25 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call2.cst (constant S_ .f32 0x00000000#32),
    StableHlo.TRef.binary (StableHlo.TRef.of (T := ⟨S100000x128, .f32⟩) main_v24) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of (T := ⟨S100000x128, .f32⟩) main_v24) main_call2.v4 main_call2.v5 subf,
    StableHlo.TRef.binary main_call2.v5 main_call2.v5 main_call2.v6 mulf,
    StableHlo.TRef.unary (StableHlo.TRef.of (T := ⟨S_, .i32⟩) main_c_3) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v30 main_v31 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v36 main_v37 (mulf : (⟨S100000x128, .f32⟩ : BufTy).Contents (Elt F) → (⟨S100000x128, .f32⟩ : BufTy).Contents (Elt F) → (⟨S100000x128, .f32⟩ : BufTy).Contents (Elt F)),
    StableHlo.unary main_arg7 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_arg8 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (StableHlo.TRef.of (T := ⟨S100000x128, .f32⟩) main_v43) main_call3.v0 main_call3.v1 maximumf,
    StableHlo.unary main_arg9 main_v45 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v45 main_v46 rfl shapeCasts_S1x128x128_S128x128,
    StableHlo.unary main_arg10 main_v47 ((extractStridedSlice S1x128 ![0, 0] · slices_S2x128_S1x128_0_0) : (⟨S2x128, .f32⟩ : BufTy).Contents (Elt F) → (⟨S1x128, .f32⟩ : BufTy).Contents (Elt F)),
    StableHlo.reshape main_v47 main_v48 rfl shapeCasts_S1x128_S128,
    StableHlo.unary main_arg11 main_v49 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v49 main_v50 rfl shapeCasts_S1x128x128_S128x128,
    StableHlo.unary main_arg12 main_v51 ((extractStridedSlice S1x128 ![0, 0] · slices_S2x128_S1x128_0_0) : (⟨S2x128, .f32⟩ : BufTy).Contents (Elt F) → (⟨S1x128, .f32⟩ : BufTy).Contents (Elt F)),
    StableHlo.reshape main_v51 main_v52 rfl shapeCasts_S1x128_S128 ]

set_option maxRecDepth 8192 in
/-- The window's list is its stages' lists, concatenated. -/
theorem ops_part0_split : (ops_part0 : List (HloOp τ sig (Elt F))) = ops_E ++ (ops_A0 ++ (ops_D0 ++ (ops_BM0 ++ (ops_BV0 ++ (ops_BA0 ++ (ops_S1a)))))) := rfl

end Cert.ReferenceIdeal.HandRun

end
-- ==== Proof.Ref.StageDefs.lean ====
/- The stages of the reference's computation, one definition each: the stage's host operations, in the program's
   order, composed into one term of the stage's inputs. -/
import proofs.«172250_j15616501088594_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The edges' source node ids: row 0 of the edge array, as a vector. -/
def src (ei : (⟨S2x1600000, .i32⟩ : BufTy).Contents (Elt F)) :
    (⟨S1600000, .i32⟩ : BufTy).Contents (Elt F) :=
  (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) ei) shapeCasts_S1x1600000_S1600000)

/-- The edges' destination node ids: row 1 of the edge array, as a vector. -/
def dst (ei : (⟨S2x1600000, .i32⟩ : BufTy).Contents (Elt F)) :
    (⟨S1600000, .i32⟩ : BufTy).Contents (Elt F) :=
  (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) ei) shapeCasts_S1x1600000_S1600000)

/-- Neighbour sum of a 64-wide feature table: gather the rows `h[s[e]]` (a negative id wrapped by the table's height), then add row `e` of the gathered table into row `d[e]` of a zero table. -/
def agg64 (h : (⟨S100000x64, .f32⟩ : BufTy).Contents (Elt F)) (s : (⟨S1600000, .i32⟩ : BufTy).Contents (Elt F)) (d : (⟨S1600000, .i32⟩ : BufTy).Contents (Elt F)) :
    (⟨S100000x64, .f32⟩ : BufTy).Contents (Elt F) :=
  (((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) ((constant S_ .f32 0x00000000#32) : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) d) (((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) h ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) s ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) s ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)))) s))))

/-- The two-layer perceptron on `h + a`: `relu (relu ((h + a) · w1 + b1) · w2 + b2)`, 64 → 128 → 128. -/
def dense64 (h : (⟨S100000x64, .f32⟩ : BufTy).Contents (Elt F)) (a : (⟨S100000x64, .f32⟩ : BufTy).Contents (Elt F)) (w1 : (⟨S64x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) :
    (⟨S100000x128, .f32⟩ : BufTy).Contents (Elt F) :=
  ((maximumf ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((maximumf ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) h a) w1) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) b1))) (((broadcastInDim S100000x128 ![] bcast_S_S100000x128) ((constant S_ .f32 0x00000000#32) : (⟨S_, .f32⟩ : BufTy).Contents (Elt F))) : (⟨S100000x128, .f32⟩ : BufTy).Contents (Elt F))) : (⟨S100000x128, .f32⟩ : BufTy).Contents (Elt F)) w2) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) b2))) (((broadcastInDim S100000x128 ![] bcast_S_S100000x128) ((constant S_ .f32 0x00000000#32) : (⟨S_, .f32⟩ : BufTy).Contents (Elt F))) : (⟨S100000x128, .f32⟩ : BufTy).Contents (Elt F))) : (⟨S100000x128, .f32⟩ : BufTy).Contents (Elt F))

/-- Column means over the 100000 rows: column sums divided by 100000. -/
def bnMean (z : (⟨S100000x128, .f32⟩ : BufTy).Contents (Elt F)) :
    (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) z ((constant S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant S_ .f32 0x47C35000#32) : (⟨S_, .f32⟩ : BufTy).Contents (Elt F))))

/-- Column variances over the 100000 rows, as the mean of squared deviations from the column mean: the sum of `(z - mean)²` divided by `100000 - 0`, kept where `100000 - 0 > 0` (else the not-a-number constant). -/
def bnVar (z : (⟨S100000x128, .f32⟩ : BufTy).Contents (Elt F)) :
    (⟨S128, .f32⟩ : BufTy).Contents (Elt F) :=
  (((fun p a b => select (broadcastInDim S128 ![] bcast_S_S128 p) a b) (((cmpf .ogt) ((subf ((constant S_ .f32 0x47C35000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F)) ((constant S_ .f32 0x00000000#32) : (⟨S_, .f32⟩ : BufTy).Contents (Elt F))) : (⟨S_, .i1⟩ : BufTy).Contents (Elt F)) ((Host.divf (((fun x v => Host.reduceAdd x v reducesTo_S100000x128_S128_d0 h_S_) ((mulf ((subf z (((broadcastInDim S100000x128 ![0, 1] bcast_S1x128_S100000x128_0_1) ((Host.divf (((broadcastInDim S1x128 ![1] bcast_S128_S1x128_1) (((fun x v => Host.reduceAdd x v reducesTo_S100000x128_S128_d0 h_S_) z ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47C35000#32) : (⟨S_, .f32⟩ : BufTy).Contents (Elt F))) : (⟨S1x128, .f32⟩ : BufTy).Contents (Elt F))) : (⟨S1x128, .f32⟩ : BufTy).Contents (Elt F))) : (⟨S100000x128, .f32⟩ : BufTy).Contents (Elt F))) : (⟨S100000x128, .f32⟩ : BufTy).Contents (Elt F)) ((subf z (((broadcastInDim S100000x128 ![0, 1] bcast_S1x128_S100000x128_0_1) ((Host.divf (((broadcastInDim S1x128 ![1] bcast_S128_S1x128_1) (((fun x v => Host.reduceAdd x v reducesTo_S100000x128_S128_d0 h_S_) z ((constant S_ .f32 0x00000000#32) : (⟨S_, .f32⟩ : BufTy).Contents (Elt F))) : (⟨S128, .f32⟩ : BufTy).Contents (Elt F))) : (⟨S1x128, .f32⟩ : BufTy).Contents (Elt F)) (((broadcastInDim S1x128 ![] bcast_S_S1x128) ((constant S_ .f32 0x47C35000#32) : (⟨S_, .f32⟩ : BufTy).Contents (Elt F))) : (⟨S1x128, .f32⟩ : BufTy).Contents (Elt F))) : (⟨S1x128, .f32⟩ : BufTy).Contents (Elt F))) : (⟨S100000x128, .f32⟩ : BufTy).Contents (Elt F))) : (⟨S100000x128, .f32⟩ : BufTy).Contents (Elt F))) : (⟨S100000x128, .f32⟩ : BufTy).Contents (Elt F)) ((constant S_ .f32 0x00000000#32) : (⟨S_, .f32⟩ : BufTy).Contents (Elt F))) : (⟨S128, .f32⟩ : BufTy).Contents (Elt F)) (((broadcastInDim S128 ![] bcast_S_S128) ((subf ((constant S_ .f32 0x47C35000#32) : (⟨S_, .f32⟩ : BufTy).Contents (Elt F)) (((sitofp .f32) ((constantI S_ 32 0#32) : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F)) (((broadcastInDim S128 ![] bcast_S_S128) ((id ((constant S_ .f32 0x7FC00000#32) : (⟨S_, .f32⟩ : BufTy).Contents (Elt F))) : (⟨S_, .f32⟩ : BufTy).Contents (Elt F))) : (⟨S128, .f32⟩ : BufTy).Contents (Elt F))) : (⟨S128, .f32⟩ : BufTy).Contents (Elt F))

/-- Normalisation and activation: `relu ((z - mu) * rsqrt (var + eps) * g + be)`, the column vectors broadcast over the rows. -/
def bnApply (z : (⟨S100000x128, .f32⟩ : BufTy).Contents (Elt F)) (mu : (⟨S128, .f32⟩ : BufTy).Contents (Elt F)) (var : (⟨S128, .f32⟩ : BufTy).Contents (Elt F)) (g : (⟨S128, .f32⟩ : BufTy).Contents (Elt F)) (be : (⟨S128, .f32⟩ : BufTy).Contents (Elt F)) :
    (⟨S100000x128, .f32⟩ : BufTy).Contents (Elt F) :=
  ((maximumf ((addf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) z ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) mu))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) var ((broadcastInDim S128 ![] bcast_S_S128 : (⟨S_, .f32⟩ : BufTy).Contents (Elt F) → (⟨S128, .f32⟩ : BufTy).Contents (Elt F)) ((constant S_ .f32 0x3727C5AC#32) : (⟨S_, .f32⟩ : BufTy).Contents (Elt F)))))))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) g))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) be))) (((broadcastInDim S100000x128 ![] bcast_S_S100000x128) ((constant S_ .f32 0x00000000#32) : (⟨S_, .f32⟩ : BufTy).Contents (Elt F))) : (⟨S100000x128, .f32⟩ : BufTy).Contents (Elt F))) : (⟨S100000x128, .f32⟩ : BufTy).Contents (Elt F))

/-- Slice 0 of a stack of two 128×128 matrices. -/
def mat0 (x : (⟨S2x128x128, .f32⟩ : BufTy).Contents (Elt F)) :
    (⟨S128x128, .f32⟩ : BufTy).Contents (Elt F) :=
  (shapeCast S128x128 (((extractStridedSlice S1x128x128 ![0, 0, 0] · slices_S2x128x128_S1x128x128_0_0_0) : (⟨S2x128x128, .f32⟩ : BufTy).Contents (Elt F) → (⟨S1x128x128, .f32⟩ : BufTy).Contents (Elt F)) x) shapeCasts_S1x128x128_S128x128)

/-- Row 0 of a 2×128 table, as a vector. -/
def vec0 (x : (⟨S2x128, .f32⟩ : BufTy).Contents (Elt F)) :
    (⟨S128, .f32⟩ : BufTy).Contents (Elt F) :=
  (shapeCast S128 (((extractStridedSlice S1x128 ![0, 0] · slices_S2x128_S1x128_0_0) : (⟨S2x128, .f32⟩ : BufTy).Contents (Elt F) → (⟨S1x128, .f32⟩ : BufTy).Contents (Elt F)) x) shapeCasts_S1x128_S128)

/-- Neighbour sum of a 128-wide feature table: as `agg64` at width 128. -/
def agg128 (h : (⟨S100000x128, .f32⟩ : BufTy).Contents (Elt F)) (s : (⟨S1600000, .i32⟩ : BufTy).Contents (Elt F)) (d : (⟨S1600000, .i32⟩ : BufTy).Contents (Elt F)) :
    (⟨S100000x128, .f32⟩ : BufTy).Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) ((constant S_ .f32 0x00000000#32) : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) d) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) h ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) s ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) s ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)))) s))))

/-- The two-layer perceptron on `h + a`: `relu (relu ((h + a) · w1 + b1) · w2 + b2)`, 128 → 128 → 128. -/
def dense128 (h : (⟨S100000x128, .f32⟩ : BufTy).Contents (Elt F)) (a : (⟨S100000x128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) :
    (⟨S100000x128, .f32⟩ : BufTy).Contents (Elt F) :=
  ((maximumf ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((maximumf ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) h a) w1) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) b1))) (((broadcastInDim S100000x128 ![] bcast_S_S100000x128) ((constant S_ .f32 0x00000000#32) : (⟨S_, .f32⟩ : BufTy).Contents (Elt F))) : (⟨S100000x128, .f32⟩ : BufTy).Contents (Elt F))) : (⟨S100000x128, .f32⟩ : BufTy).Contents (Elt F)) w2) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) b2))) (((broadcastInDim S100000x128 ![] bcast_S_S100000x128) ((constant S_ .f32 0x00000000#32) : (⟨S_, .f32⟩ : BufTy).Contents (Elt F))) : (⟨S100000x128, .f32⟩ : BufTy).Contents (Elt F))) : (⟨S100000x128, .f32⟩ : BufTy).Contents (Elt F))

/-- Slice 1 of a stack of two 128×128 matrices. -/
def mat1 (x : (⟨S2x128x128, .f32⟩ : BufTy).Contents (Elt F)) :
    (⟨S128x128, .f32⟩ : BufTy).Contents (Elt F) :=
  (shapeCast S128x128 (((extractStridedSlice S1x128x128 ![1, 0, 0] · slices_S2x128x128_S1x128x128_1_0_0) : (⟨S2x128x128, .f32⟩ : BufTy).Contents (Elt F) → (⟨S1x128x128, .f32⟩ : BufTy).Contents (Elt F)) x) shapeCasts_S1x128x128_S128x128)

/-- Row 1 of a 2×128 table, as a vector. -/
def vec1 (x : (⟨S2x128, .f32⟩ : BufTy).Contents (Elt F)) :
    (⟨S128, .f32⟩ : BufTy).Contents (Elt F) :=
  (shapeCast S128 (((extractStridedSlice S1x128 ![1, 0] · slices_S2x128_S1x128_1_0) : (⟨S2x128, .f32⟩ : BufTy).Contents (Elt F) → (⟨S1x128, .f32⟩ : BufTy).Contents (Elt F)) x) shapeCasts_S1x128_S128)

/-- Per-graph sums: row `n` of `h` added into row `b[n]` of a zero 256×128 table. -/
def pool (h : (⟨S100000x128, .f32⟩ : BufTy).Contents (Elt F)) (b : (⟨S100000, .i32⟩ : BufTy).Contents (Elt F)) :
    (⟨S256x128, .f32⟩ : BufTy).Contents (Elt F) :=
  (((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)) ((broadcastInDim S256x128 ![] bcast_S_S256x128 : (⟨S_, .f32⟩ : BufTy).Contents (Elt F) → (⟨S256x128, .f32⟩ : BufTy).Contents (Elt F)) ((constant S_ .f32 0x00000000#32) : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) b) h)

/-- The read-out: `p · w + c`, `c` broadcast over the 256 rows. -/
def outp (p : (⟨S256x128, .f32⟩ : BufTy).Contents (Elt F)) (w : (⟨S128x1, .f32⟩ : BufTy).Contents (Elt F)) (c : (⟨S1, .f32⟩ : BufTy).Contents (Elt F)) :
    (⟨S256x1, .f32⟩ : BufTy).Contents (Elt F) :=
  ((addf : (⟨S256x1, .f32⟩ : BufTy).Contents (Elt F) → (⟨S256x1, .f32⟩ : BufTy).Contents (Elt F) → (⟨S256x1, .f32⟩ : BufTy).Contents (Elt F)) (((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)) p w) ((broadcastInDim S256x1 ![0, 1] bcast_S1x1_S256x1_0_1 : (⟨S1x1, .f32⟩ : BufTy).Contents (Elt F) → (⟨S256x1, .f32⟩ : BufTy).Contents (Elt F)) ((broadcastInDim S1x1 ![1] bcast_S1_S1x1_1 : (⟨S1, .f32⟩ : BufTy).Contents (Elt F) → (⟨S1x1, .f32⟩ : BufTy).Contents (Elt F)) c)))

end Cert.ReferenceIdeal.HandRun

end
-- ==== Proof.Ref.Stages.lean ====
/- The reference's result as a composition of named stages. The stages are the definitions of StageDefs.lean, one per
   mathematical step of the three-layer network; here the intermediate values `res_‹buffer›` compose them along the
   program's data flow, over the contents `V` of the argument arrays, and `resTerm` is the value the program leaves in
   its result buffer. -/
import proofs.«172250_j15616501088594_1_alg».proof.Proof.Ref.StageDefs

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The intermediate values, in the program's order -/

-- the edge lists
def res_main_v1 (V : Valuation τ sig (Elt F)) : (⟨S1600000, .i32⟩ : BufTy).Contents (Elt F) :=
  src (V (Proc.devRef .tc main_arg1))
def res_main_v3 (V : Valuation τ sig (Elt F)) : (⟨S1600000, .i32⟩ : BufTy).Contents (Elt F) :=
  dst (V (Proc.devRef .tc main_arg1))

-- layer 0: neighbour sum, perceptron, column mean and variance, normalisation
def res_main_v13 (V : Valuation τ sig (Elt F)) : (⟨S100000x64, .f32⟩ : BufTy).Contents (Elt F) :=
  agg64 (V (Proc.devRef .tc main_arg0)) (res_main_v1 V) (res_main_v3 V)
def res_main_v24 (V : Valuation τ sig (Elt F)) : (⟨S100000x128, .f32⟩ : BufTy).Contents (Elt F) :=
  dense64 (V (Proc.devRef .tc main_arg0)) (res_main_v13 V) (V (Proc.devRef .tc main_arg3)) (V (Proc.devRef .tc main_arg4))
    (V (Proc.devRef .tc main_arg5)) (V (Proc.devRef .tc main_arg6))
def res_main_v27 (V : Valuation τ sig (Elt F)) : (⟨S128, .f32⟩ : BufTy).Contents (Elt F) :=
  bnMean (res_main_v24 V)
def res_main_v28 (V : Valuation τ sig (Elt F)) : (⟨S128, .f32⟩ : BufTy).Contents (Elt F) :=
  bnVar (res_main_v24 V)
def res_main_v44 (V : Valuation τ sig (Elt F)) : (⟨S100000x128, .f32⟩ : BufTy).Contents (Elt F) :=
  bnApply (res_main_v24 V) (res_main_v27 V) (res_main_v28 V) (V (Proc.devRef .tc main_arg7)) (V (Proc.devRef .tc main_arg8))

-- layer 1's parameters: slice 0 of each stacked array
def res_main_v46 (V : Valuation τ sig (Elt F)) : (⟨S128x128, .f32⟩ : BufTy).Contents (Elt F) :=
  mat0 (V (Proc.devRef .tc main_arg9))
def res_main_v48 (V : Valuation τ sig (Elt F)) : (⟨S128, .f32⟩ : BufTy).Contents (Elt F) :=
  vec0 (V (Proc.devRef .tc main_arg10))
def res_main_v50 (V : Valuation τ sig (Elt F)) : (⟨S128x128, .f32⟩ : BufTy).Contents (Elt F) :=
  mat0 (V (Proc.devRef .tc main_arg11))
def res_main_v52 (V : Valuation τ sig (Elt F)) : (⟨S128, .f32⟩ : BufTy).Contents (Elt F) :=
  vec0 (V (Proc.devRef .tc main_arg12))
def res_main_v54 (V : Valuation τ sig (Elt F)) : (⟨S128, .f32⟩ : BufTy).Contents (Elt F) :=
  vec0 (V (Proc.devRef .tc main_arg13))
def res_main_v56 (V : Valuation τ sig (Elt F)) : (⟨S128, .f32⟩ : BufTy).Contents (Elt F) :=
  vec0 (V (Proc.devRef .tc main_arg14))

-- layer 1
def res_main_v66 (V : Valuation τ sig (Elt F)) : (⟨S100000x128, .f32⟩ : BufTy).Contents (Elt F) :=
  agg128 (res_main_v44 V) (res_main_v1 V) (res_main_v3 V)
def res_main_v77 (V : Valuation τ sig (Elt F)) : (⟨S100000x128, .f32⟩ : BufTy).Contents (Elt F) :=
  dense128 (res_main_v44 V) (res_main_v66 V) (res_main_v46 V) (res_main_v48 V) (res_main_v50 V) (res_main_v52 V)
def res_main_v80 (V : Valuation τ sig (Elt F)) : (⟨S128, .f32⟩ : BufTy).Contents (Elt F) :=
  bnMean (res_main_v77 V)
def res_main_v81 (V : Valuation τ sig (Elt F)) : (⟨S128, .f32⟩ : BufTy).Contents (Elt F) :=
  bnVar (res_main_v77 V)
def res_main_v97 (V : Valuation τ sig (Elt F)) : (⟨S100000x128, .f32⟩ : BufTy).Contents (Elt F) :=
  bnApply (res_main_v77 V) (res_main_v80 V) (res_main_v81 V) (res_main_v54 V) (res_main_v56 V)

-- layer 2's parameters: slice 1 of each stacked array
def res_main_v99 (V : Valuation τ sig (Elt F)) : (⟨S128x128, .f32⟩ : BufTy).Contents (Elt F) :=
  mat1 (V (Proc.devRef .tc main_arg9))
def res_main_v101 (V : Valuation τ sig (Elt F)) : (⟨S128, .f32⟩ : BufTy).Contents (Elt F) :=
  vec1 (V (Proc.devRef .tc main_arg10))
def res_main_v103 (V : Valuation τ sig (Elt F)) : (⟨S128x128, .f32⟩ : BufTy).Contents (Elt F) :=
  mat1 (V (Proc.devRef .tc main_arg11))
def res_main_v105 (V : Valuation τ sig (Elt F)) : (⟨S128, .f32⟩ : BufTy).Contents (Elt F) :=
  vec1 (V (Proc.devRef .tc main_arg12))
def res_main_v107 (V : Valuation τ sig (Elt F)) : (⟨S128, .f32⟩ : BufTy).Contents (Elt F) :=
  vec1 (V (Proc.devRef .tc main_arg13))
def res_main_v109 (V : Valuation τ sig (Elt F)) : (⟨S128, .f32⟩ : BufTy).Contents (Elt F) :=
  vec1 (V (Proc.devRef .tc main_arg14))

-- layer 2
def res_main_v119 (V : Valuation τ sig (Elt F)) : (⟨S100000x128, .f32⟩ : BufTy).Contents (Elt F) :=
  agg128 (res_main_v97 V) (res_main_v1 V) (res_main_v3 V)
def res_main_v130 (V : Valuation τ sig (Elt F)) : (⟨S100000x128, .f32⟩ : BufTy).Contents (Elt F) :=
  dense128 (res_main_v97 V) (res_main_v119 V) (res_main_v99 V) (res_main_v101 V) (res_main_v103 V) (res_main_v105 V)
def res_main_v133 (V : Valuation τ sig (Elt F)) : (⟨S128, .f32⟩ : BufTy).Contents (Elt F) :=
  bnMean (res_main_v130 V)
def res_main_v134 (V : Valuation τ sig (Elt F)) : (⟨S128, .f32⟩ : BufTy).Contents (Elt F) :=
  bnVar (res_main_v130 V)
def res_main_v150 (V : Valuation τ sig (Elt F)) : (⟨S100000x128, .f32⟩ : BufTy).Contents (Elt F) :=
  bnApply (res_main_v130 V) (res_main_v133 V) (res_main_v134 V) (res_main_v107 V) (res_main_v109 V)

-- the per-graph sums and the read-out
def res_main_v153 (V : Valuation τ sig (Elt F)) : (⟨S256x128, .f32⟩ : BufTy).Contents (Elt F) :=
  pool (res_main_v150 V) (V (Proc.devRef .tc main_arg2))
def res_main_v157 (V : Valuation τ sig (Elt F)) : (⟨S256x1, .f32⟩ : BufTy).Contents (Elt F) :=
  outp (res_main_v153 V) (V (Proc.devRef .tc main_arg15)) (V (Proc.devRef .tc main_arg16))

/-! ## The same, layer by layer -/

/-- Batch normalisation with activation: `z` normalised by its own column means and variances. -/
def bn (z : (⟨S100000x128, .f32⟩ : BufTy).Contents (Elt F)) (g be : (⟨S128, .f32⟩ : BufTy).Contents (Elt F)) :
    (⟨S100000x128, .f32⟩ : BufTy).Contents (Elt F) :=
  bnApply z (bnMean z) (bnVar z) g be

/-- Layer 0: neighbour sum, perceptron, normalisation, from the 64-wide input features. -/
def layer0 (V : Valuation τ sig (Elt F)) : (⟨S100000x128, .f32⟩ : BufTy).Contents (Elt F) :=
  bn (dense64 (V (Proc.devRef .tc main_arg0))
        (agg64 (V (Proc.devRef .tc main_arg0)) (src (V (Proc.devRef .tc main_arg1))) (dst (V (Proc.devRef .tc main_arg1))))
        (V (Proc.devRef .tc main_arg3)) (V (Proc.devRef .tc main_arg4)) (V (Proc.devRef .tc main_arg5)) (V (Proc.devRef .tc main_arg6)))
    (V (Proc.devRef .tc main_arg7)) (V (Proc.devRef .tc main_arg8))

/-- Layer 1, on layer 0's output, with slice 0 of the stacked parameters. -/
def layer1 (V : Valuation τ sig (Elt F)) : (⟨S100000x128, .f32⟩ : BufTy).Contents (Elt F) :=
  bn (dense128 (layer0 V)
        (agg128 (layer0 V) (src (V (Proc.devRef .tc main_arg1))) (dst (V (Proc.devRef .tc main_arg1))))
        (mat0 (V (Proc.devRef .tc main_arg9))) (vec0 (V (Proc.devRef .tc main_arg10)))
        (mat0 (V (Proc.devRef .tc main_arg11))) (vec0 (V (Proc.devRef .tc main_arg12))))
    (vec0 (V (Proc.devRef .tc main_arg13))) (vec0 (V (Proc.devRef .tc main_arg14)))

/-- Layer 2, on layer 1's output, with slice 1 of the stacked parameters. -/
def layer2 (V : Valuation τ sig (Elt F)) : (⟨S100000x128, .f32⟩ : BufTy).Contents (Elt F) :=
  bn (dense128 (layer1 V)
        (agg128 (layer1 V) (src (V (Proc.devRef .tc main_arg1))) (dst (V (Proc.devRef .tc main_arg1))))
        (mat1 (V (Proc.devRef .tc main_arg9))) (vec1 (V (Proc.devRef .tc main_arg10)))
        (mat1 (V (Proc.devRef .tc main_arg11))) (vec1 (V (Proc.devRef .tc main_arg12))))
    (vec1 (V (Proc.devRef .tc main_arg13))) (vec1 (V (Proc.devRef .tc main_arg14)))

/-- The result buffer's contents as a function of the argument arrays' contents. -/
def resTerm (V : Valuation τ sig (Elt F)) : (⟨S256x1, .f32⟩ : BufTy).Contents (Elt F) := res_main_v157 V

theorem res_main_v44_eq (V : Valuation τ sig (Elt F)) : res_main_v44 V = layer0 V := rfl
theorem res_main_v97_eq (V : Valuation τ sig (Elt F)) : res_main_v97 V = layer1 V := rfl
theorem res_main_v150_eq (V : Valuation τ sig (Elt F)) : res_main_v150 V = layer2 V := rfl

/-- The result is the read-out of the per-graph sums of the third layer's output. -/
theorem resTerm_eq (V : Valuation τ sig (Elt F)) :
    resTerm V = outp (pool (layer2 V) (V (Proc.devRef .tc main_arg2))) (V (Proc.devRef .tc main_arg15)) (V (Proc.devRef .tc main_arg16)) := rfl

end Cert.ReferenceIdeal.HandRun

end
-- ==== Proof.Ref.Tactics.lean ====
/- Three small tactics for the run of a straight line of host operations given as a literal list. -/
import Idealize.ShloMosaic.Lib.StableHlo.Run

namespace Cert.ReferenceIdeal.HandRun

open Idealize.ShloMosaic Idealize.ShloMosaic.StableHlo

/-- Every operation of a literal list writes only buffers of a given literal list: an operation writes exactly its
    result buffer, and that buffer is found in the list by deciding equality of references. -/
macro "writes_in_list" : tactic =>
  `(tactic| (simp only [List.Forall]
             repeat' apply And.intro
             all_goals (simp only [nullary_writes, unary_writes, binary_writes, ternary_writes, quaternary_writes, reshape_writes,
                          Finset.singleton_subset_iff, List.mem_toFinset]
                        exact List.mem_map_of_mem (by decide))))

/-- Every operation of a literal list touches TensorCore references only: the fact of each operation's arity, one
    conjunct at a time. -/
macro "bufs_in_tc" : tactic =>
  `(tactic| simp only [List.Forall, nullary_bufs_sub, unary_bufs_sub, binary_bufs_sub, ternary_bufs_sub, reshape_bufs_sub,
      and_self])

/-- The fold of a literal list of operations, read at one buffer: each operation's result at its own buffer is its
    function's value, at any other buffer what was there; what remains is the composed term, equal to the stage's
    definition by unfolding it. -/
macro "stage_run" : tactic => `(tactic| (after_results_simp <;> rfl))

end Cert.ReferenceIdeal.HandRun
-- ==== Proof.Ref.Run0.lean ====
/- Window 0 of the reference's @main, run: the window is the straight line of its operation list (the called
   functions unfolded at their calls), and stage by stage what the list leaves in the stage's result buffer from any
   contents `V` — the stage's definition applied to `V` at the buffers the stage reads — every other buffer kept. -/
import proofs.«172250_j15616501088594_1_alg».proof.Proof.Ref.Tab0
import proofs.«172250_j15616501088594_1_alg».proof.Proof.Ref.Stages
import proofs.«172250_j15616501088594_1_alg».proof.Proof.Ref.Tactics

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The window is its list -/

-- 87 binds re-associated under the called functions' unfolded bodies
set_option maxRecDepth 8192 in
set_option maxHeartbeats 4000000 in
/-- Unfolding `@relu`, `@_var` and `@_where` at their calls and re-associating the sequencing, both sides are one chain
    of `hlo` steps over the same buffers. -/
theorem main_part0_eq (c : Dev nD) : main_part0 (F := F) c = seq ops_part0 := by
  simp only [main_part0, fn_relu.body, fn_var.body, fn_where.body, seq, bind_assoc, pure_bind]
  rfl

set_option maxRecDepth 8192 in
theorem ops_part0_sub : (ops_part0 : List (HloOp τ sig (Elt F))).Forall fun op => op.bufs ⊆ tcRefs τ sig := by
  bufs_in_tc

/-! ## The edge lists -/

set_option maxRecDepth 8192 in
theorem ops_E_writes : (ops_E : List (HloOp τ sig (Elt F))).Forall fun op =>
    op.writes ⊆ (W_E.map (Proc.devRef (τ := τ) .tc)).toFinset := by
  writes_in_list

theorem ops_E_keep (V : Valuation τ sig (Elt F)) (r : Ref sig .tc) (h : r ∉ W_E) :
    after ops_E V (no_index (Proc.devRef .tc r)) = V (Proc.devRef .tc r) :=
  after_of_writes_sub ops_E _ ops_E_writes h

set_option maxRecDepth 8192 in
theorem ops_E_main_v1 (V : Valuation τ sig (Elt F)) :
    after ops_E V (no_index (Proc.devRef .tc main_v1)) = src (V (Proc.devRef .tc main_arg1)) := by
  simp only [ops_E]
  stage_run

set_option maxRecDepth 8192 in
theorem ops_E_main_v3 (V : Valuation τ sig (Elt F)) :
    after ops_E V (no_index (Proc.devRef .tc main_v3)) = dst (V (Proc.devRef .tc main_arg1)) := by
  simp only [ops_E]
  stage_run

/-! ## Layer 0: the neighbour sum -/

set_option maxRecDepth 8192 in
theorem ops_A0_writes : (ops_A0 : List (HloOp τ sig (Elt F))).Forall fun op =>
    op.writes ⊆ (W_A0.map (Proc.devRef (τ := τ) .tc)).toFinset := by
  writes_in_list

theorem ops_A0_keep (V : Valuation τ sig (Elt F)) (r : Ref sig .tc) (h : r ∉ W_A0) :
    after ops_A0 V (no_index (Proc.devRef .tc r)) = V (Proc.devRef .tc r) :=
  after_of_writes_sub ops_A0 _ ops_A0_writes h

set_option maxRecDepth 8192 in
set_option maxHeartbeats 2000000 in
theorem ops_A0_main_v13 (V : Valuation τ sig (Elt F)) :
    after ops_A0 V (no_index (Proc.devRef .tc main_v13))
      = agg64 (V (Proc.devRef .tc main_arg0)) (V (Proc.devRef .tc main_v1)) (V (Proc.devRef .tc main_v3)) := by
  simp only [ops_A0]
  stage_run

/-! ## Layer 0: the perceptron -/

set_option maxRecDepth 8192 in
theorem ops_D0_writes : (ops_D0 : List (HloOp τ sig (Elt F))).Forall fun op =>
    op.writes ⊆ (W_D0.map (Proc.devRef (τ := τ) .tc)).toFinset := by
  writes_in_list

theorem ops_D0_keep (V : Valuation τ sig (Elt F)) (r : Ref sig .tc) (h : r ∉ W_D0) :
    after ops_D0 V (no_index (Proc.devRef .tc r)) = V (Proc.devRef .tc r) :=
  after_of_writes_sub ops_D0 _ ops_D0_writes h

set_option maxRecDepth 8192 in
set_option maxHeartbeats 2000000 in
theorem ops_D0_main_v24 (V : Valuation τ sig (Elt F)) :
    after ops_D0 V (no_index (Proc.devRef .tc main_v24))
      = dense64 (V (Proc.devRef .tc main_arg0)) (V (Proc.devRef .tc main_v13)) (V (Proc.devRef .tc main_arg3))
          (V (Proc.devRef .tc main_arg4)) (V (Proc.devRef .tc main_arg5)) (V (Proc.devRef .tc main_arg6)) := by
  simp only [ops_D0]
  stage_run

/-! ## Layer 0: column means, column variances, normalisation -/

set_option maxRecDepth 8192 in
theorem ops_BM0_writes : (ops_BM0 : List (HloOp τ sig (Elt F))).Forall fun op =>
    op.writes ⊆ (W_BM0.map (Proc.devRef (τ := τ) .tc)).toFinset := by
  writes_in_list

theorem ops_BM0_keep (V : Valuation τ sig (Elt F)) (r : Ref sig .tc) (h : r ∉ W_BM0) :
    after ops_BM0 V (no_index (Proc.devRef .tc r)) = V (Proc.devRef .tc r) :=
  after_of_writes_sub ops_BM0 _ ops_BM0_writes h

set_option maxRecDepth 8192 in
theorem ops_BM0_main_v27 (V : Valuation τ sig (Elt F)) :
    after ops_BM0 V (no_index (Proc.devRef .tc main_v27)) = bnMean (V (Proc.devRef .tc main_v24)) := by
  simp only [ops_BM0]
  stage_run

set_option maxRecDepth 8192 in
theorem ops_BV0_writes : (ops_BV0 : List (HloOp τ sig (Elt F))).Forall fun op =>
    op.writes ⊆ (W_BV0.map (Proc.devRef (τ := τ) .tc)).toFinset := by
  writes_in_list

theorem ops_BV0_keep (V : Valuation τ sig (Elt F)) (r : Ref sig .tc) (h : r ∉ W_BV0) :
    after ops_BV0 V (no_index (Proc.devRef .tc r)) = V (Proc.devRef .tc r) :=
  after_of_writes_sub ops_BV0 _ ops_BV0_writes h

set_option maxRecDepth 8192 in
set_option maxHeartbeats 2000000 in
theorem ops_BV0_main_v28 (V : Valuation τ sig (Elt F)) :
    after ops_BV0 V (no_index (Proc.devRef .tc main_v28)) = bnVar (V (Proc.devRef .tc main_v24)) := by
  simp only [ops_BV0]
  stage_run

set_option maxRecDepth 8192 in
theorem ops_BA0_writes : (ops_BA0 : List (HloOp τ sig (Elt F))).Forall fun op =>
    op.writes ⊆ (W_BA0.map (Proc.devRef (τ := τ) .tc)).toFinset := by
  writes_in_list

theorem ops_BA0_keep (V : Valuation τ sig (Elt F)) (r : Ref sig .tc) (h : r ∉ W_BA0) :
    after ops_BA0 V (no_index (Proc.devRef .tc r)) = V (Proc.devRef .tc r) :=
  after_of_writes_sub ops_BA0 _ ops_BA0_writes h

set_option maxRecDepth 8192 in
set_option maxHeartbeats 2000000 in
theorem ops_BA0_main_v44 (V : Valuation τ sig (Elt F)) :
    after ops_BA0 V (no_index (Proc.devRef .tc main_v44))
      = bnApply (V (Proc.devRef .tc main_v24)) (V (Proc.devRef .tc main_v27)) (V (Proc.devRef .tc main_v28))
          (V (Proc.devRef .tc main_arg7)) (V (Proc.devRef .tc main_arg8)) := by
  simp only [ops_BA0]
  stage_run

/-! ## Layer 1's parameters, first part: slice 0 of the stacked weights and biases -/

set_option maxRecDepth 8192 in
theorem ops_S1a_writes : (ops_S1a : List (HloOp τ sig (Elt F))).Forall fun op =>
    op.writes ⊆ (W_S1a.map (Proc.devRef (τ := τ) .tc)).toFinset := by
  writes_in_list

theorem ops_S1a_keep (V : Valuation τ sig (Elt F)) (r : Ref sig .tc) (h : r ∉ W_S1a) :
    after ops_S1a V (no_index (Proc.devRef .tc r)) = V (Proc.devRef .tc r) :=
  after_of_writes_sub ops_S1a _ ops_S1a_writes h

set_option maxRecDepth 8192 in
theorem ops_S1a_main_v46 (V : Valuation τ sig (Elt F)) :
    after ops_S1a V (no_index (Proc.devRef .tc main_v46)) = mat0 (V (Proc.devRef .tc main_arg9)) := by
  simp only [ops_S1a]
  stage_run

set_option maxRecDepth 8192 in
theorem ops_S1a_main_v48 (V : Valuation τ sig (Elt F)) :
    after ops_S1a V (no_index (Proc.devRef .tc main_v48)) = vec0 (V (Proc.devRef .tc main_arg10)) := by
  simp only [ops_S1a]
  stage_run

set_option maxRecDepth 8192 in
theorem ops_S1a_main_v50 (V : Valuation τ sig (Elt F)) :
    after ops_S1a V (no_index (Proc.devRef .tc main_v50)) = mat0 (V (Proc.devRef .tc main_arg11)) := by
  simp only [ops_S1a]
  stage_run

set_option maxRecDepth 8192 in
theorem ops_S1a_main_v52 (V : Valuation τ sig (Elt F)) :
    after ops_S1a V (no_index (Proc.devRef .tc main_v52)) = vec0 (V (Proc.devRef .tc main_arg12)) := by
  simp only [ops_S1a]
  stage_run

end Cert.ReferenceIdeal.HandRun

end
-- ==== Proof.Ref.Tab1.lean ====
/- Window 1 of the reference's @main (`main_part1`), operations 88 … 174 of 261: the operations as lists — each called
   function's operations in its call's place, over that call's buffer record — cut at the stage boundaries, the
   buffers each list writes, and the window's whole list. -/
import proofs.«172250_j15616501088594_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 88 … 91 (stage S1b: reads main_arg13, main_arg14; yields main_v54, main_v56). -/
abbrev ops_S1b : List (HloOp τ sig (Elt F)) :=
  [ StableHlo.unary main_arg13 main_v53 ((extractStridedSlice S1x128 ![0, 0] · slices_S2x128_S1x128_0_0) : (⟨S2x128, .f32⟩ : BufTy).Contents (Elt F) → (⟨S1x128, .f32⟩ : BufTy).Contents (Elt F)),
    StableHlo.reshape main_v53 main_v54 rfl shapeCasts_S1x128_S128,
    StableHlo.unary main_arg14 main_v55 ((extractStridedSlice S1x128 ![0, 0] · slices_S2x128_S1x128_0_0) : (⟨S2x128, .f32⟩ : BufTy).Contents (Elt F) → (⟨S1x128, .f32⟩ : BufTy).Contents (Elt F)),
    StableHlo.reshape main_v55 main_v56 rfl shapeCasts_S1x128_S128 ]

/-- The buffers `ops_S1b` writes. -/
abbrev W_S1b : List (Ref sig .tc) := [main_v53, main_v54, main_v55, main_v56]

/-- Operations 92 … 104 (stage A1: reads main_v44, main_v1, main_v3; yields main_v66). -/
abbrev ops_A1 : List (HloOp τ sig (Elt F)) :=
  [ StableHlo.nullary main_c_5 (constantI S_ 32 0#32),
    StableHlo.unary main_c_5 main_v57 (broadcastInDim S1600000 ![] bcast_S_S1600000 : (⟨S_, .i32⟩ : BufTy).Contents (Elt F) → (⟨S1600000, .i32⟩ : BufTy).Contents (Elt F)),
    StableHlo.binary main_v1 main_v57 main_v58 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v59 (broadcastInDim S1600000 ![] bcast_S_S1600000 : (⟨S_, .i32⟩ : BufTy).Contents (Elt F) → (⟨S1600000, .i32⟩ : BufTy).Contents (Elt F)),
    StableHlo.binary main_v1 main_v59 main_v60 (addi : (⟨S1600000, .i32⟩ : BufTy).Contents (Elt F) → (⟨S1600000, .i32⟩ : BufTy).Contents (Elt F) → (⟨S1600000, .i32⟩ : BufTy).Contents (Elt F)),
    StableHlo.ternary main_v58 main_v60 main_v1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v61 main_v62 (broadcastInDim S1600000x1 ![0] bcast_S1600000_S1600000x1_0 : (⟨S1600000, .i32⟩ : BufTy).Contents (Elt F) → (⟨S1600000x1, .i32⟩ : BufTy).Contents (Elt F)),
    StableHlo.binary main_v44 main_v62 main_v63 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v64 (broadcastInDim S100000x128 ![] bcast_S_S100000x128 : (⟨S_, .f32⟩ : BufTy).Contents (Elt F) → (⟨S100000x128, .f32⟩ : BufTy).Contents (Elt F)),
    StableHlo.unary main_v3 main_v65 (broadcastInDim S1600000x1 ![0] bcast_S1600000_S1600000x1_0 : (⟨S1600000, .i32⟩ : BufTy).Contents (Elt F) → (⟨S1600000x1, .i32⟩ : BufTy).Contents (Elt F)),
    StableHlo.ternary main_v64 main_v65 main_v63 main_v66 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The buffers `ops_A1` writes. -/
abbrev W_A1 : List (Ref sig .tc) := [main_c_5, main_v57, main_v58, main_c_6, main_v59, main_v60, main_v61, main_v62, main_v63, main_cst_7, main_v64, main_v65, main_v66]

/-- Operations 105 … 119 (stage D1: reads main_v44, main_v66, main_v46, main_v48, main_v50, main_v52; yields main_v77). -/
abbrev ops_D1 : List (HloOp τ sig (Elt F)) :=
  [ StableHlo.binary main_v44 main_v66 main_v67 (addf : (⟨S100000x128, .f32⟩ : BufTy).Contents (Elt F) → (⟨S100000x128, .f32⟩ : BufTy).Contents (Elt F) → (⟨S100000x128, .f32⟩ : BufTy).Contents (Elt F)),
    StableHlo.binary main_v67 main_v46 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v48 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v70 main_v71 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (StableHlo.TRef.of (T := ⟨S100000x128, .f32⟩) main_v71) main_call4.v0 main_call4.v1 maximumf,
    StableHlo.binary main_v72 main_v50 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v52 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v75 main_v76 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (StableHlo.TRef.of (T := ⟨S100000x128, .f32⟩) main_v76) main_call5.v0 main_call5.v1 maximumf ]

/-- The buffers `ops_D1` writes. -/
abbrev W_D1 : List (Ref sig .tc) := [main_v67, main_v68, main_v69, main_v70, main_v71, main_call4_cst, main_call4_v0, main_v72, main_v73, main_v74, main_v75, main_v76, main_call5_cst, main_call5_v0, main_v77]

/-- Operations 120 … 124 (stage BM1: reads main_v77; yields main_v80). -/
abbrev ops_BM1 : List (HloOp τ sig (Elt F)) :=
  [ StableHlo.nullary main_cst_8 (constant S_ .f32 0x00000000#32),
    StableHlo.binary main_v77 main_cst_8 main_v78 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v79 (broadcastInDim S128 ![] bcast_S_S128 : (⟨S_, .f32⟩ : BufTy).Contents (Elt F) → (⟨S128, .f32⟩ : BufTy).Contents (Elt F)),
    StableHlo.binary main_v78 main_v79 main_v80 (Host.divf : (⟨S128, .f32⟩ : BufTy).Contents (Elt F) → (⟨S128, .f32⟩ : BufTy).Contents (Elt F) → (⟨S128, .f32⟩ : BufTy).Contents (Elt F)) ]

/-- The buffers `ops_BM1` writes. -/
abbrev W_BM1 : List (Ref sig .tc) := [main_cst_8, main_v78, main_cst_9, main_v79, main_v80]

/-- Operations 125 … 147 (stage BV1: reads main_v77; yields main_v81). -/
abbrev ops_BV1 : List (HloOp τ sig (Elt F)) :=
  [ StableHlo.nullary main_c_10 (constantI S_ 32 0#32),
    StableHlo.TRef.nullary main_call6.cst (constant S_ .f32 0x00000000#32),
    StableHlo.TRef.binary (StableHlo.TRef.of (T := ⟨S100000x128, .f32⟩) main_v77) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (StableHlo.TRef.of (T := ⟨S100000x128, .f32⟩) main_v77) main_call6.v4 main_call6.v5 subf,
    StableHlo.TRef.binary main_call6.v5 main_call6.v5 main_call6.v6 mulf,
    StableHlo.TRef.unary (StableHlo.TRef.of (T := ⟨S_, .i32⟩) main_c_10) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b) ]

/-- The buffers `ops_BV1` writes. -/
abbrev W_BV1 : List (Ref sig .tc) := [main_c_10, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v81]

/-- Operations 148 … 166 (stage BA1: reads main_v77, main_v80, main_v81, main_v54, main_v56; yields main_v97). -/
abbrev ops_BA1 : List (HloOp τ sig (Elt F)) :=
  [ StableHlo.unary main_v80 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v83 main_v84 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v85 (broadcastInDim S128 ![] bcast_S_S128 : (⟨S_, .f32⟩ : BufTy).Contents (Elt F) → (⟨S128, .f32⟩ : BufTy).Contents (Elt F)),
    StableHlo.binary main_v81 main_v85 main_v86 (addf : (⟨S128, .f32⟩ : BufTy).Contents (Elt F) → (⟨S128, .f32⟩ : BufTy).Contents (Elt F) → (⟨S128, .f32⟩ : BufTy).Contents (Elt F)),
    StableHlo.unary main_v86 main_v87 (Host.rsqrt : (⟨S128, .f32⟩ : BufTy).Contents (Elt F) → (⟨S128, .f32⟩ : BufTy).Contents (Elt F)),
    StableHlo.unary main_v87 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v89 main_v90 (mulf : (⟨S100000x128, .f32⟩ : BufTy).Contents (Elt F) → (⟨S100000x128, .f32⟩ : BufTy).Contents (Elt F) → (⟨S100000x128, .f32⟩ : BufTy).Contents (Elt F)),
    StableHlo.unary main_v54 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v92 main_v93 (mulf : (⟨S100000x128, .f32⟩ : BufTy).Contents (Elt F) → (⟨S100000x128, .f32⟩ : BufTy).Contents (Elt F) → (⟨S100000x128, .f32⟩ : BufTy).Contents (Elt F)),
    StableHlo.unary main_v56 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v95 main_v96 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (StableHlo.TRef.of (T := ⟨S100000x128, .f32⟩) main_v96) main_call7.v0 main_call7.v1 maximumf ]

/-- The buffers `ops_BA1` writes. -/
abbrev W_BA1 : List (Ref sig .tc) := [main_v82, main_v83, main_v84, main_cst_11, main_v85, main_v86, main_v87, main_v88, main_v89, main_v90, main_v91, main_v92, main_v93, main_v94, main_v95, main_v96, main_call7_cst, main_call7_v0, main_v97]

/-- Operations 167 … 174 (stage S2a: reads main_arg9, main_arg10, main_arg11, main_arg12; yields main_v99, main_v101, main_v103, main_v105). -/
abbrev ops_S2a : List (HloOp τ sig (Elt F)) :=
  [ StableHlo.unary main_arg9 main_v98 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v98 main_v99 rfl shapeCasts_S1x128x128_S128x128,
    StableHlo.unary main_arg10 main_v100 ((extractStridedSlice S1x128 ![1, 0] · slices_S2x128_S1x128_1_0) : (⟨S2x128, .f32⟩ : BufTy).Contents (Elt F) → (⟨S1x128, .f32⟩ : BufTy).Contents (Elt F)),
    StableHlo.reshape main_v100 main_v101 rfl shapeCasts_S1x128_S128,
    StableHlo.unary main_arg11 main_v102 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v102 main_v103 rfl shapeCasts_S1x128x128_S128x128,
    StableHlo.unary main_arg12 main_v104 ((extractStridedSlice S1x128 ![1, 0] · slices_S2x128_S1x128_1_0) : (⟨S2x128, .f32⟩ : BufTy).Contents (Elt F) → (⟨S1x128, .f32⟩ : BufTy).Contents (Elt F)),
    StableHlo.reshape main_v104 main_v105 rfl shapeCasts_S1x128_S128 ]

/-- The buffers `ops_S2a` writes. -/
abbrev W_S2a : List (Ref sig .tc) := [main_v98, main_v99, main_v100, main_v101, main_v102, main_v103, main_v104, main_v105]

/-- `main_part1`'s 87 operations, in order. -/
abbrev ops_part1 : List (HloOp τ sig (Elt F)) :=
  [ StableHlo.unary main_arg13 main_v53 ((extractStridedSlice S1x128 ![0, 0] · slices_S2x128_S1x128_0_0) : (⟨S2x128, .f32⟩ : BufTy).Contents (Elt F) → (⟨S1x128, .f32⟩ : BufTy).Contents (Elt F)),
    StableHlo.reshape main_v53 main_v54 rfl shapeCasts_S1x128_S128,
    StableHlo.unary main_arg14 main_v55 ((extractStridedSlice S1x128 ![0, 0] · slices_S2x128_S1x128_0_0) : (⟨S2x128, .f32⟩ : BufTy).Contents (Elt F) → (⟨S1x128, .f32⟩ : BufTy).Contents (Elt F)),
    StableHlo.reshape main_v55 main_v56 rfl shapeCasts_S1x128_S128,
    StableHlo.nullary main_c_5 (constantI S_ 32 0#32),
    StableHlo.unary main_c_5 main_v57 (broadcastInDim S1600000 ![] bcast_S_S1600000 : (⟨S_, .i32⟩ : BufTy).Contents (Elt F) → (⟨S1600000, .i32⟩ : BufTy).Contents (Elt F)),
    StableHlo.binary main_v1 main_v57 main_v58 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v59 (broadcastInDim S1600000 ![] bcast_S_S1600000 : (⟨S_, .i32⟩ : BufTy).Contents (Elt F) → (⟨S1600000, .i32⟩ : BufTy).Contents (Elt F)),
    StableHlo.binary main_v1 main_v59 main_v60 (addi : (⟨S1600000, .i32⟩ : BufTy).Contents (Elt F) → (⟨S1600000, .i32⟩ : BufTy).Contents (Elt F) → (⟨S1600000, .i32⟩ : BufTy).Contents (Elt F)),
    StableHlo.ternary main_v58 main_v60 main_v1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v61 main_v62 (broadcastInDim S1600000x1 ![0] bcast_S1600000_S1600000x1_0 : (⟨S1600000, .i32⟩ : BufTy).Contents (Elt F) → (⟨S1600000x1, .i32⟩ : BufTy).Contents (Elt F)),
    StableHlo.binary main_v44 main_v62 main_v63 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v64 (broadcastInDim S100000x128 ![] bcast_S_S100000x128 : (⟨S_, .f32⟩ : BufTy).Contents (Elt F) → (⟨S100000x128, .f32⟩ : BufTy).Contents (Elt F)),
    StableHlo.unary main_v3 main_v65 (broadcastInDim S1600000x1 ![0] bcast_S1600000_S1600000x1_0 : (⟨S1600000, .i32⟩ : BufTy).Contents (Elt F) → (⟨S1600000x1, .i32⟩ : BufTy).Contents (Elt F)),
    StableHlo.ternary main_v64 main_v65 main_v63 main_v66 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v44 main_v66 main_v67 (addf : (⟨S100000x128, .f32⟩ : BufTy).Contents (Elt F) → (⟨S100000x128, .f32⟩ : BufTy).Contents (Elt F) → (⟨S100000x128, .f32⟩ : BufTy).Contents (Elt F)),
    StableHlo.binary main_v67 main_v46 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v48 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v70 main_v71 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (StableHlo.TRef.of (T := ⟨S100000x128, .f32⟩) main_v71) main_call4.v0 main_call4.v1 maximumf,
    StableHlo.binary main_v72 main_v50 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v52 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v75 main_v76 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (StableHlo.TRef.of (T := ⟨S100000x128, .f32⟩) main_v76) main_call5.v0 main_call5.v1 maximumf,
    StableHlo.nullary main_cst_8 (constant S_ .f32 0x00000000#32),
    StableHlo.binary main_v77 main_cst_8 main_v78 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v79 (broadcastInDim S128 ![] bcast_S_S128 : (⟨S_, .f32⟩ : BufTy).Contents (Elt F) → (⟨S128, .f32⟩ : BufTy).Contents (Elt F)),
    StableHlo.binary main_v78 main_v79 main_v80 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call6.cst (constant S_ .f32 0x00000000#32),
    StableHlo.TRef.binary (StableHlo.TRef.of (T := ⟨S100000x128, .f32⟩) main_v77) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (StableHlo.TRef.of (T := ⟨S100000x128, .f32⟩) main_v77) main_call6.v4 main_call6.v5 subf,
    StableHlo.TRef.binary main_call6.v5 main_call6.v5 main_call6.v6 mulf,
    StableHlo.TRef.unary (StableHlo.TRef.of (T := ⟨S_, .i32⟩) main_c_10) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v80 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v83 main_v84 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v85 (broadcastInDim S128 ![] bcast_S_S128 : (⟨S_, .f32⟩ : BufTy).Contents (Elt F) → (⟨S128, .f32⟩ : BufTy).Contents (Elt F)),
    StableHlo.binary main_v81 main_v85 main_v86 (addf : (⟨S128, .f32⟩ : BufTy).Contents (Elt F) → (⟨S128, .f32⟩ : BufTy).Contents (Elt F) → (⟨S128, .f32⟩ : BufTy).Contents (Elt F)),
    StableHlo.unary main_v86 main_v87 (Host.rsqrt : (⟨S128, .f32⟩ : BufTy).Contents (Elt F) → (⟨S128, .f32⟩ : BufTy).Contents (Elt F)),
    StableHlo.unary main_v87 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v89 main_v90 (mulf : (⟨S100000x128, .f32⟩ : BufTy).Contents (Elt F) → (⟨S100000x128, .f32⟩ : BufTy).Contents (Elt F) → (⟨S100000x128, .f32⟩ : BufTy).Contents (Elt F)),
    StableHlo.unary main_v54 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v92 main_v93 (mulf : (⟨S100000x128, .f32⟩ : BufTy).Contents (Elt F) → (⟨S100000x128, .f32⟩ : BufTy).Contents (Elt F) → (⟨S100000x128, .f32⟩ : BufTy).Contents (Elt F)),
    StableHlo.unary main_v56 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v95 main_v96 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (StableHlo.TRef.of (T := ⟨S100000x128, .f32⟩) main_v96) main_call7.v0 main_call7.v1 maximumf,
    StableHlo.unary main_arg9 main_v98 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v98 main_v99 rfl shapeCasts_S1x128x128_S128x128,
    StableHlo.unary main_arg10 main_v100 ((extractStridedSlice S1x128 ![1, 0] · slices_S2x128_S1x128_1_0) : (⟨S2x128, .f32⟩ : BufTy).Contents (Elt F) → (⟨S1x128, .f32⟩ : BufTy).Contents (Elt F)),
    StableHlo.reshape main_v100 main_v101 rfl shapeCasts_S1x128_S128,
    StableHlo.unary main_arg11 main_v102 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v102 main_v103 rfl shapeCasts_S1x128x128_S128x128,
    StableHlo.unary main_arg12 main_v104 ((extractStridedSlice S1x128 ![1, 0] · slices_S2x128_S1x128_1_0) : (⟨S2x128, .f32⟩ : BufTy).Contents (Elt F) → (⟨S1x128, .f32⟩ : BufTy).Contents (Elt F)),
    StableHlo.reshape main_v104 main_v105 rfl shapeCasts_S1x128_S128 ]

set_option maxRecDepth 8192 in
/-- The window's list is its stages' lists, concatenated. -/
theorem ops_part1_split : (ops_part1 : List (HloOp τ sig (Elt F))) = ops_S1b ++ (ops_A1 ++ (ops_D1 ++ (ops_BM1 ++ (ops_BV1 ++ (ops_BA1 ++ (ops_S2a)))))) := rfl

end Cert.ReferenceIdeal.HandRun

end
-- ==== Proof.Ref.Run1.lean ====
/- Window 1 of the reference's @main, run: the window is the straight line of its operation list (the called
   functions unfolded at their calls), and stage by stage what the list leaves in the stage's result buffer from any
   contents `V` — the stage's definition applied to `V` at the buffers the stage reads — every other buffer kept. -/
import proofs.«172250_j15616501088594_1_alg».proof.Proof.Ref.Tab1
import proofs.«172250_j15616501088594_1_alg».proof.Proof.Ref.Stages
import proofs.«172250_j15616501088594_1_alg».proof.Proof.Ref.Tactics

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The window is its list -/

-- 87 binds re-associated under the called functions' unfolded bodies
set_option maxRecDepth 8192 in
set_option maxHeartbeats 4000000 in
/-- Unfolding `@relu`, `@_var` and `@_where` at their calls and re-associating the sequencing, both sides are one chain
    of `hlo` steps over the same buffers. -/
theorem main_part1_eq (c : Dev nD) : main_part1 (F := F) c = seq ops_part1 := by
  simp only [main_part1, fn_relu.body, fn_var.body, fn_where.body, seq, bind_assoc, pure_bind]
  rfl

set_option maxRecDepth 8192 in
theorem ops_part1_sub : (ops_part1 : List (HloOp τ sig (Elt F))).Forall fun op => op.bufs ⊆ tcRefs τ sig := by
  bufs_in_tc

/-! ## Layer 1's parameters, second part: slice 0 of the stacked scales and shifts -/

set_option maxRecDepth 8192 in
theorem ops_S1b_writes : (ops_S1b : List (HloOp τ sig (Elt F))).Forall fun op =>
    op.writes ⊆ (W_S1b.map (Proc.devRef (τ := τ) .tc)).toFinset := by
  writes_in_list

theorem ops_S1b_keep (V : Valuation τ sig (Elt F)) (r : Ref sig .tc) (h : r ∉ W_S1b) :
    after ops_S1b V (no_index (Proc.devRef .tc r)) = V (Proc.devRef .tc r) :=
  after_of_writes_sub ops_S1b _ ops_S1b_writes h

set_option maxRecDepth 8192 in
theorem ops_S1b_main_v54 (V : Valuation τ sig (Elt F)) :
    after ops_S1b V (no_index (Proc.devRef .tc main_v54)) = vec0 (V (Proc.devRef .tc main_arg13)) := by
  simp only [ops_S1b]
  stage_run

set_option maxRecDepth 8192 in
theorem ops_S1b_main_v56 (V : Valuation τ sig (Elt F)) :
    after ops_S1b V (no_index (Proc.devRef .tc main_v56)) = vec0 (V (Proc.devRef .tc main_arg14)) := by
  simp only [ops_S1b]
  stage_run

/-! ## Layer 1: the neighbour sum -/

set_option maxRecDepth 8192 in
theorem ops_A1_writes : (ops_A1 : List (HloOp τ sig (Elt F))).Forall fun op =>
    op.writes ⊆ (W_A1.map (Proc.devRef (τ := τ) .tc)).toFinset := by
  writes_in_list

theorem ops_A1_keep (V : Valuation τ sig (Elt F)) (r : Ref sig .tc) (h : r ∉ W_A1) :
    after ops_A1 V (no_index (Proc.devRef .tc r)) = V (Proc.devRef .tc r) :=
  after_of_writes_sub ops_A1 _ ops_A1_writes h

set_option maxRecDepth 8192 in
set_option maxHeartbeats 2000000 in
theorem ops_A1_main_v66 (V : Valuation τ sig (Elt F)) :
    after ops_A1 V (no_index (Proc.devRef .tc main_v66))
      = agg128 (V (Proc.devRef .tc main_v44)) (V (Proc.devRef .tc main_v1)) (V (Proc.devRef .tc main_v3)) := by
  simp only [ops_A1]
  stage_run

/-! ## Layer 1: the perceptron -/

set_option maxRecDepth 8192 in
theorem ops_D1_writes : (ops_D1 : List (HloOp τ sig (Elt F))).Forall fun op =>
    op.writes ⊆ (W_D1.map (Proc.devRef (τ := τ) .tc)).toFinset := by
  writes_in_list

theorem ops_D1_keep (V : Valuation τ sig (Elt F)) (r : Ref sig .tc) (h : r ∉ W_D1) :
    after ops_D1 V (no_index (Proc.devRef .tc r)) = V (Proc.devRef .tc r) :=
  after_of_writes_sub ops_D1 _ ops_D1_writes h

set_option maxRecDepth 8192 in
set_option maxHeartbeats 2000000 in
theorem ops_D1_main_v77 (V : Valuation τ sig (Elt F)) :
    after ops_D1 V (no_index (Proc.devRef .tc main_v77))
      = dense128 (V (Proc.devRef .tc main_v44)) (V (Proc.devRef .tc main_v66)) (V (Proc.devRef .tc main_v46))
          (V (Proc.devRef .tc main_v48)) (V (Proc.devRef .tc main_v50)) (V (Proc.devRef .tc main_v52)) := by
  simp only [ops_D1]
  stage_run

/-! ## Layer 1: column means, column variances, normalisation -/

set_option maxRecDepth 8192 in
theorem ops_BM1_writes : (ops_BM1 : List (HloOp τ sig (Elt F))).Forall fun op =>
    op.writes ⊆ (W_BM1.map (Proc.devRef (τ := τ) .tc)).toFinset := by
  writes_in_list

theorem ops_BM1_keep (V : Valuation τ sig (Elt F)) (r : Ref sig .tc) (h : r ∉ W_BM1) :
    after ops_BM1 V (no_index (Proc.devRef .tc r)) = V (Proc.devRef .tc r) :=
  after_of_writes_sub ops_BM1 _ ops_BM1_writes h

set_option maxRecDepth 8192 in
theorem ops_BM1_main_v80 (V : Valuation τ sig (Elt F)) :
    after ops_BM1 V (no_index (Proc.devRef .tc main_v80)) = bnMean (V (Proc.devRef .tc main_v77)) := by
  simp only [ops_BM1]
  stage_run

set_option maxRecDepth 8192 in
theorem ops_BV1_writes : (ops_BV1 : List (HloOp τ sig (Elt F))).Forall fun op =>
    op.writes ⊆ (W_BV1.map (Proc.devRef (τ := τ) .tc)).toFinset := by
  writes_in_list

theorem ops_BV1_keep (V : Valuation τ sig (Elt F)) (r : Ref sig .tc) (h : r ∉ W_BV1) :
    after ops_BV1 V (no_index (Proc.devRef .tc r)) = V (Proc.devRef .tc r) :=
  after_of_writes_sub ops_BV1 _ ops_BV1_writes h

set_option maxRecDepth 8192 in
set_option maxHeartbeats 2000000 in
theorem ops_BV1_main_v81 (V : Valuation τ sig (Elt F)) :
    after ops_BV1 V (no_index (Proc.devRef .tc main_v81)) = bnVar (V (Proc.devRef .tc main_v77)) := by
  simp only [ops_BV1]
  stage_run

set_option maxRecDepth 8192 in
theorem ops_BA1_writes : (ops_BA1 : List (HloOp τ sig (Elt F))).Forall fun op =>
    op.writes ⊆ (W_BA1.map (Proc.devRef (τ := τ) .tc)).toFinset := by
  writes_in_list

theorem ops_BA1_keep (V : Valuation τ sig (Elt F)) (r : Ref sig .tc) (h : r ∉ W_BA1) :
    after ops_BA1 V (no_index (Proc.devRef .tc r)) = V (Proc.devRef .tc r) :=
  after_of_writes_sub ops_BA1 _ ops_BA1_writes h

set_option maxRecDepth 8192 in
set_option maxHeartbeats 2000000 in
theorem ops_BA1_main_v97 (V : Valuation τ sig (Elt F)) :
    after ops_BA1 V (no_index (Proc.devRef .tc main_v97))
      = bnApply (V (Proc.devRef .tc main_v77)) (V (Proc.devRef .tc main_v80)) (V (Proc.devRef .tc main_v81))
          (V (Proc.devRef .tc main_v54)) (V (Proc.devRef .tc main_v56)) := by
  simp only [ops_BA1]
  stage_run

/-! ## Layer 2's parameters, first part: slice 1 of the stacked weights and biases -/

set_option maxRecDepth 8192 in
theorem ops_S2a_writes : (ops_S2a : List (HloOp τ sig (Elt F))).Forall fun op =>
    op.writes ⊆ (W_S2a.map (Proc.devRef (τ := τ) .tc)).toFinset := by
  writes_in_list

theorem ops_S2a_keep (V : Valuation τ sig (Elt F)) (r : Ref sig .tc) (h : r ∉ W_S2a) :
    after ops_S2a V (no_index (Proc.devRef .tc r)) = V (Proc.devRef .tc r) :=
  after_of_writes_sub ops_S2a _ ops_S2a_writes h

set_option maxRecDepth 8192 in
theorem ops_S2a_main_v99 (V : Valuation τ sig (Elt F)) :
    after ops_S2a V (no_index (Proc.devRef .tc main_v99)) = mat1 (V (Proc.devRef .tc main_arg9)) := by
  simp only [ops_S2a]
  stage_run

set_option maxRecDepth 8192 in
theorem ops_S2a_main_v101 (V : Valuation τ sig (Elt F)) :
    after ops_S2a V (no_index (Proc.devRef .tc main_v101)) = vec1 (V (Proc.devRef .tc main_arg10)) := by
  simp only [ops_S2a]
  stage_run

set_option maxRecDepth 8192 in
theorem ops_S2a_main_v103 (V : Valuation τ sig (Elt F)) :
    after ops_S2a V (no_index (Proc.devRef .tc main_v103)) = mat1 (V (Proc.devRef .tc main_arg11)) := by
  simp only [ops_S2a]
  stage_run

set_option maxRecDepth 8192 in
theorem ops_S2a_main_v105 (V : Valuation τ sig (Elt F)) :
    after ops_S2a V (no_index (Proc.devRef .tc main_v105)) = vec1 (V (Proc.devRef .tc main_arg12)) := by
  simp only [ops_S2a]
  stage_run

end Cert.ReferenceIdeal.HandRun

end
-- ==== Proof.Ref.Tab2.lean ====
/- Window 2 of the reference's @main (`main_part2`), operations 175 … 261 of 261: the operations as lists — each called
   function's operations in its call's place, over that call's buffer record — cut at the stage boundaries, the
   buffers each list writes, and the window's whole list. -/
import proofs.«172250_j15616501088594_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 175 … 178 (stage S2b: reads main_arg13, main_arg14; yields main_v107, main_v109). -/
abbrev ops_S2b : List (HloOp τ sig (Elt F)) :=
  [ StableHlo.unary main_arg13 main_v106 ((extractStridedSlice S1x128 ![1, 0] · slices_S2x128_S1x128_1_0) : (⟨S2x128, .f32⟩ : BufTy).Contents (Elt F) → (⟨S1x128, .f32⟩ : BufTy).Contents (Elt F)),
    StableHlo.reshape main_v106 main_v107 rfl shapeCasts_S1x128_S128,
    StableHlo.unary main_arg14 main_v108 ((extractStridedSlice S1x128 ![1, 0] · slices_S2x128_S1x128_1_0) : (⟨S2x128, .f32⟩ : BufTy).Contents (Elt F) → (⟨S1x128, .f32⟩ : BufTy).Contents (Elt F)),
    StableHlo.reshape main_v108 main_v109 rfl shapeCasts_S1x128_S128 ]

/-- The buffers `ops_S2b` writes. -/
abbrev W_S2b : List (Ref sig .tc) := [main_v106, main_v107, main_v108, main_v109]

/-- Operations 179 … 191 (stage A2: reads main_v97, main_v1, main_v3; yields main_v119). -/
abbrev ops_A2 : List (HloOp τ sig (Elt F)) :=
  [ StableHlo.nullary main_c_12 (constantI S_ 32 0#32),
    StableHlo.unary main_c_12 main_v110 (broadcastInDim S1600000 ![] bcast_S_S1600000 : (⟨S_, .i32⟩ : BufTy).Contents (Elt F) → (⟨S1600000, .i32⟩ : BufTy).Contents (Elt F)),
    StableHlo.binary main_v1 main_v110 main_v111 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v112 (broadcastInDim S1600000 ![] bcast_S_S1600000 : (⟨S_, .i32⟩ : BufTy).Contents (Elt F) → (⟨S1600000, .i32⟩ : BufTy).Contents (Elt F)),
    StableHlo.binary main_v1 main_v112 main_v113 (addi : (⟨S1600000, .i32⟩ : BufTy).Contents (Elt F) → (⟨S1600000, .i32⟩ : BufTy).Contents (Elt F) → (⟨S1600000, .i32⟩ : BufTy).Contents (Elt F)),
    StableHlo.ternary main_v111 main_v113 main_v1 main_v114 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v114 main_v115 (broadcastInDim S1600000x1 ![0] bcast_S1600000_S1600000x1_0 : (⟨S1600000, .i32⟩ : BufTy).Contents (Elt F) → (⟨S1600000x1, .i32⟩ : BufTy).Contents (Elt F)),
    StableHlo.binary main_v97 main_v115 main_v116 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v117 (broadcastInDim S100000x128 ![] bcast_S_S100000x128 : (⟨S_, .f32⟩ : BufTy).Contents (Elt F) → (⟨S100000x128, .f32⟩ : BufTy).Contents (Elt F)),
    StableHlo.unary main_v3 main_v118 (broadcastInDim S1600000x1 ![0] bcast_S1600000_S1600000x1_0 : (⟨S1600000, .i32⟩ : BufTy).Contents (Elt F) → (⟨S1600000x1, .i32⟩ : BufTy).Contents (Elt F)),
    StableHlo.ternary main_v117 main_v118 main_v116 main_v119 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The buffers `ops_A2` writes. -/
abbrev W_A2 : List (Ref sig .tc) := [main_c_12, main_v110, main_v111, main_c_13, main_v112, main_v113, main_v114, main_v115, main_v116, main_cst_14, main_v117, main_v118, main_v119]

/-- Operations 192 … 206 (stage D2: reads main_v97, main_v119, main_v99, main_v101, main_v103, main_v105; yields main_v130). -/
abbrev ops_D2 : List (HloOp τ sig (Elt F)) :=
  [ StableHlo.binary main_v97 main_v119 main_v120 (addf : (⟨S100000x128, .f32⟩ : BufTy).Contents (Elt F) → (⟨S100000x128, .f32⟩ : BufTy).Contents (Elt F) → (⟨S100000x128, .f32⟩ : BufTy).Contents (Elt F)),
    StableHlo.binary main_v120 main_v99 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v101 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v123 main_v124 (addf : (⟨S100000x128, .f32⟩ : BufTy).Contents (Elt F) → (⟨S100000x128, .f32⟩ : BufTy).Contents (Elt F) → (⟨S100000x128, .f32⟩ : BufTy).Contents (Elt F)),
    StableHlo.TRef.nullary main_call8.cst (constant S_ .f32 0x00000000#32),
    StableHlo.TRef.unary main_call8.cst main_call8.v0 (broadcastInDim S100000x128 ![] bcast_S_S100000x128),
    StableHlo.TRef.binary (StableHlo.TRef.of (T := ⟨S100000x128, .f32⟩) main_v124) main_call8.v0 main_call8.v1 maximumf,
    StableHlo.binary main_v125 main_v103 main_v126 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v105 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v128 main_v129 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (StableHlo.TRef.of (T := ⟨S100000x128, .f32⟩) main_v129) main_call9.v0 main_call9.v1 maximumf ]

/-- The buffers `ops_D2` writes. -/
abbrev W_D2 : List (Ref sig .tc) := [main_v120, main_v121, main_v122, main_v123, main_v124, main_call8_cst, main_call8_v0, main_v125, main_v126, main_v127, main_v128, main_v129, main_call9_cst, main_call9_v0, main_v130]

/-- Operations 207 … 211 (stage BM2: reads main_v130; yields main_v133). -/
abbrev ops_BM2 : List (HloOp τ sig (Elt F)) :=
  [ StableHlo.nullary main_cst_15 (constant S_ .f32 0x00000000#32),
    StableHlo.binary main_v130 main_cst_15 main_v131 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v132 (broadcastInDim S128 ![] bcast_S_S128 : (⟨S_, .f32⟩ : BufTy).Contents (Elt F) → (⟨S128, .f32⟩ : BufTy).Contents (Elt F)),
    StableHlo.binary main_v131 main_v132 main_v133 (Host.divf : (⟨S128, .f32⟩ : BufTy).Contents (Elt F) → (⟨S128, .f32⟩ : BufTy).Contents (Elt F) → (⟨S128, .f32⟩ : BufTy).Contents (Elt F)) ]

/-- The buffers `ops_BM2` writes. -/
abbrev W_BM2 : List (Ref sig .tc) := [main_cst_15, main_v131, main_cst_16, main_v132, main_v133]

/-- Operations 212 … 234 (stage BV2: reads main_v130; yields main_v134). -/
abbrev ops_BV2 : List (HloOp τ sig (Elt F)) :=
  [ StableHlo.nullary main_c_17 (constantI S_ 32 0#32),
    StableHlo.TRef.nullary main_call10.cst (constant S_ .f32 0x00000000#32),
    StableHlo.TRef.binary (StableHlo.TRef.of (T := ⟨S100000x128, .f32⟩) main_v130) main_call10.cst main_call10.v0 (fun x v => Host.reduceAdd x v reducesTo_S100000x128_S128_d0 h_S_),
    StableHlo.TRef.unary main_call10.v0 main_call10.v1 (broadcastInDim S1x128 ![1] bcast_S128_S1x128_1),
    StableHlo.TRef.nullary main_call10.cst_0 (constant S_ .f32 0x47C35000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S100000x128 ![0, 1] bcast_S1x128_S100000x128_0_1),
    StableHlo.TRef.binary (StableHlo.TRef.of (T := ⟨S100000x128, .f32⟩) main_v130) main_call10.v4 main_call10.v5 subf,
    StableHlo.TRef.binary main_call10.v5 main_call10.v5 main_call10.v6 mulf,
    StableHlo.TRef.unary (StableHlo.TRef.of (T := ⟨S_, .i32⟩) main_c_17) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b) ]

/-- The buffers `ops_BV2` writes. -/
abbrev W_BV2 : List (Ref sig .tc) := [main_c_17, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v134]

/-- Operations 235 … 253 (stage BA2: reads main_v130, main_v133, main_v134, main_v107, main_v109; yields main_v150). -/
abbrev ops_BA2 : List (HloOp τ sig (Elt F)) :=
  [ StableHlo.unary main_v133 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v136 main_v137 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v138 (broadcastInDim S128 ![] bcast_S_S128 : (⟨S_, .f32⟩ : BufTy).Contents (Elt F) → (⟨S128, .f32⟩ : BufTy).Contents (Elt F)),
    StableHlo.binary main_v134 main_v138 main_v139 (addf : (⟨S128, .f32⟩ : BufTy).Contents (Elt F) → (⟨S128, .f32⟩ : BufTy).Contents (Elt F) → (⟨S128, .f32⟩ : BufTy).Contents (Elt F)),
    StableHlo.unary main_v139 main_v140 (Host.rsqrt : (⟨S128, .f32⟩ : BufTy).Contents (Elt F) → (⟨S128, .f32⟩ : BufTy).Contents (Elt F)),
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v142 main_v143 (mulf : (⟨S100000x128, .f32⟩ : BufTy).Contents (Elt F) → (⟨S100000x128, .f32⟩ : BufTy).Contents (Elt F) → (⟨S100000x128, .f32⟩ : BufTy).Contents (Elt F)),
    StableHlo.unary main_v107 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v143 main_v145 main_v146 (mulf : (⟨S100000x128, .f32⟩ : BufTy).Contents (Elt F) → (⟨S100000x128, .f32⟩ : BufTy).Contents (Elt F) → (⟨S100000x128, .f32⟩ : BufTy).Contents (Elt F)),
    StableHlo.unary main_v109 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S100000x128 ![0, 1] bcast_S1x128_S100000x128_0_1 : (⟨S1x128, .f32⟩ : BufTy).Contents (Elt F) → (⟨S100000x128, .f32⟩ : BufTy).Contents (Elt F)),
    StableHlo.binary main_v146 main_v148 main_v149 (addf : (⟨S100000x128, .f32⟩ : BufTy).Contents (Elt F) → (⟨S100000x128, .f32⟩ : BufTy).Contents (Elt F) → (⟨S100000x128, .f32⟩ : BufTy).Contents (Elt F)),
    StableHlo.TRef.nullary main_call11.cst (constant S_ .f32 0x00000000#32),
    StableHlo.TRef.unary main_call11.cst main_call11.v0 (broadcastInDim S100000x128 ![] bcast_S_S100000x128),
    StableHlo.TRef.binary (StableHlo.TRef.of (T := ⟨S100000x128, .f32⟩) main_v149) main_call11.v0 main_call11.v1 maximumf ]

/-- The buffers `ops_BA2` writes. -/
abbrev W_BA2 : List (Ref sig .tc) := [main_v135, main_v136, main_v137, main_cst_18, main_v138, main_v139, main_v140, main_v141, main_v142, main_v143, main_v144, main_v145, main_v146, main_v147, main_v148, main_v149, main_call11_cst, main_call11_v0, main_v150]

/-- Operations 254 … 257 (stage PL: reads main_v150, main_arg2; yields main_v153). -/
abbrev ops_PL : List (HloOp τ sig (Elt F)) :=
  [ StableHlo.nullary main_cst_19 (constant S_ .f32 0x00000000#32),
    StableHlo.unary main_cst_19 main_v151 (broadcastInDim S256x128 ![] bcast_S_S256x128 : (⟨S_, .f32⟩ : BufTy).Contents (Elt F) → (⟨S256x128, .f32⟩ : BufTy).Contents (Elt F)),
    StableHlo.unary main_arg2 main_v152 (broadcastInDim S100000x1 ![0] bcast_S100000_S100000x1_0 : (⟨S100000, .i32⟩ : BufTy).Contents (Elt F) → (⟨S100000x1, .i32⟩ : BufTy).Contents (Elt F)),
    StableHlo.ternary main_v151 main_v152 main_v150 main_v153 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)) ]

/-- The buffers `ops_PL` writes. -/
abbrev W_PL : List (Ref sig .tc) := [main_cst_19, main_v151, main_v152, main_v153]

/-- Operations 258 … 261 (stage OUT: reads main_v153, main_arg15, main_arg16; yields main_v157). -/
abbrev ops_OUT : List (HloOp τ sig (Elt F)) :=
  [ StableHlo.binary main_v153 main_arg15 main_v154 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    StableHlo.unary main_arg16 main_v155 (broadcastInDim S1x1 ![1] bcast_S1_S1x1_1 : (⟨S1, .f32⟩ : BufTy).Contents (Elt F) → (⟨S1x1, .f32⟩ : BufTy).Contents (Elt F)),
    StableHlo.unary main_v155 main_v156 (broadcastInDim S256x1 ![0, 1] bcast_S1x1_S256x1_0_1 : (⟨S1x1, .f32⟩ : BufTy).Contents (Elt F) → (⟨S256x1, .f32⟩ : BufTy).Contents (Elt F)),
    StableHlo.binary main_v154 main_v156 main_v157 (addf : (⟨S256x1, .f32⟩ : BufTy).Contents (Elt F) → (⟨S256x1, .f32⟩ : BufTy).Contents (Elt F) → (⟨S256x1, .f32⟩ : BufTy).Contents (Elt F)) ]

/-- The buffers `ops_OUT` writes. -/
abbrev W_OUT : List (Ref sig .tc) := [main_v154, main_v155, main_v156, main_v157]

/-- `main_part2`'s 87 operations, in order. -/
abbrev ops_part2 : List (HloOp τ sig (Elt F)) :=
  [ StableHlo.unary main_arg13 main_v106 ((extractStridedSlice S1x128 ![1, 0] · slices_S2x128_S1x128_1_0) : (⟨S2x128, .f32⟩ : BufTy).Contents (Elt F) → (⟨S1x128, .f32⟩ : BufTy).Contents (Elt F)),
    StableHlo.reshape main_v106 main_v107 rfl shapeCasts_S1x128_S128,
    StableHlo.unary main_arg14 main_v108 ((extractStridedSlice S1x128 ![1, 0] · slices_S2x128_S1x128_1_0) : (⟨S2x128, .f32⟩ : BufTy).Contents (Elt F) → (⟨S1x128, .f32⟩ : BufTy).Contents (Elt F)),
    StableHlo.reshape main_v108 main_v109 rfl shapeCasts_S1x128_S128,
    StableHlo.nullary main_c_12 (constantI S_ 32 0#32),
    StableHlo.unary main_c_12 main_v110 (broadcastInDim S1600000 ![] bcast_S_S1600000 : (⟨S_, .i32⟩ : BufTy).Contents (Elt F) → (⟨S1600000, .i32⟩ : BufTy).Contents (Elt F)),
    StableHlo.binary main_v1 main_v110 main_v111 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v112 (broadcastInDim S1600000 ![] bcast_S_S1600000 : (⟨S_, .i32⟩ : BufTy).Contents (Elt F) → (⟨S1600000, .i32⟩ : BufTy).Contents (Elt F)),
    StableHlo.binary main_v1 main_v112 main_v113 (addi : (⟨S1600000, .i32⟩ : BufTy).Contents (Elt F) → (⟨S1600000, .i32⟩ : BufTy).Contents (Elt F) → (⟨S1600000, .i32⟩ : BufTy).Contents (Elt F)),
    StableHlo.ternary main_v111 main_v113 main_v1 main_v114 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v114 main_v115 (broadcastInDim S1600000x1 ![0] bcast_S1600000_S1600000x1_0 : (⟨S1600000, .i32⟩ : BufTy).Contents (Elt F) → (⟨S1600000x1, .i32⟩ : BufTy).Contents (Elt F)),
    StableHlo.binary main_v97 main_v115 main_v116 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v117 (broadcastInDim S100000x128 ![] bcast_S_S100000x128 : (⟨S_, .f32⟩ : BufTy).Contents (Elt F) → (⟨S100000x128, .f32⟩ : BufTy).Contents (Elt F)),
    StableHlo.unary main_v3 main_v118 (broadcastInDim S1600000x1 ![0] bcast_S1600000_S1600000x1_0 : (⟨S1600000, .i32⟩ : BufTy).Contents (Elt F) → (⟨S1600000x1, .i32⟩ : BufTy).Contents (Elt F)),
    StableHlo.ternary main_v117 main_v118 main_v116 main_v119 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v97 main_v119 main_v120 (addf : (⟨S100000x128, .f32⟩ : BufTy).Contents (Elt F) → (⟨S100000x128, .f32⟩ : BufTy).Contents (Elt F) → (⟨S100000x128, .f32⟩ : BufTy).Contents (Elt F)),
    StableHlo.binary main_v120 main_v99 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v101 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v123 main_v124 (addf : (⟨S100000x128, .f32⟩ : BufTy).Contents (Elt F) → (⟨S100000x128, .f32⟩ : BufTy).Contents (Elt F) → (⟨S100000x128, .f32⟩ : BufTy).Contents (Elt F)),
    StableHlo.TRef.nullary main_call8.cst (constant S_ .f32 0x00000000#32),
    StableHlo.TRef.unary main_call8.cst main_call8.v0 (broadcastInDim S100000x128 ![] bcast_S_S100000x128),
    StableHlo.TRef.binary (StableHlo.TRef.of (T := ⟨S100000x128, .f32⟩) main_v124) main_call8.v0 main_call8.v1 maximumf,
    StableHlo.binary main_v125 main_v103 main_v126 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v105 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v128 main_v129 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (StableHlo.TRef.of (T := ⟨S100000x128, .f32⟩) main_v129) main_call9.v0 main_call9.v1 maximumf,
    StableHlo.nullary main_cst_15 (constant S_ .f32 0x00000000#32),
    StableHlo.binary main_v130 main_cst_15 main_v131 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v132 (broadcastInDim S128 ![] bcast_S_S128 : (⟨S_, .f32⟩ : BufTy).Contents (Elt F) → (⟨S128, .f32⟩ : BufTy).Contents (Elt F)),
    StableHlo.binary main_v131 main_v132 main_v133 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call10.cst (constant S_ .f32 0x00000000#32),
    StableHlo.TRef.binary (StableHlo.TRef.of (T := ⟨S100000x128, .f32⟩) main_v130) main_call10.cst main_call10.v0 (fun x v => Host.reduceAdd x v reducesTo_S100000x128_S128_d0 h_S_),
    StableHlo.TRef.unary main_call10.v0 main_call10.v1 (broadcastInDim S1x128 ![1] bcast_S128_S1x128_1),
    StableHlo.TRef.nullary main_call10.cst_0 (constant S_ .f32 0x47C35000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S100000x128 ![0, 1] bcast_S1x128_S100000x128_0_1),
    StableHlo.TRef.binary (StableHlo.TRef.of (T := ⟨S100000x128, .f32⟩) main_v130) main_call10.v4 main_call10.v5 subf,
    StableHlo.TRef.binary main_call10.v5 main_call10.v5 main_call10.v6 mulf,
    StableHlo.TRef.unary (StableHlo.TRef.of (T := ⟨S_, .i32⟩) main_c_17) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v133 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v136 main_v137 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v138 (broadcastInDim S128 ![] bcast_S_S128 : (⟨S_, .f32⟩ : BufTy).Contents (Elt F) → (⟨S128, .f32⟩ : BufTy).Contents (Elt F)),
    StableHlo.binary main_v134 main_v138 main_v139 (addf : (⟨S128, .f32⟩ : BufTy).Contents (Elt F) → (⟨S128, .f32⟩ : BufTy).Contents (Elt F) → (⟨S128, .f32⟩ : BufTy).Contents (Elt F)),
    StableHlo.unary main_v139 main_v140 (Host.rsqrt : (⟨S128, .f32⟩ : BufTy).Contents (Elt F) → (⟨S128, .f32⟩ : BufTy).Contents (Elt F)),
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v142 main_v143 (mulf : (⟨S100000x128, .f32⟩ : BufTy).Contents (Elt F) → (⟨S100000x128, .f32⟩ : BufTy).Contents (Elt F) → (⟨S100000x128, .f32⟩ : BufTy).Contents (Elt F)),
    StableHlo.unary main_v107 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v143 main_v145 main_v146 (mulf : (⟨S100000x128, .f32⟩ : BufTy).Contents (Elt F) → (⟨S100000x128, .f32⟩ : BufTy).Contents (Elt F) → (⟨S100000x128, .f32⟩ : BufTy).Contents (Elt F)),
    StableHlo.unary main_v109 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S100000x128 ![0, 1] bcast_S1x128_S100000x128_0_1 : (⟨S1x128, .f32⟩ : BufTy).Contents (Elt F) → (⟨S100000x128, .f32⟩ : BufTy).Contents (Elt F)),
    StableHlo.binary main_v146 main_v148 main_v149 (addf : (⟨S100000x128, .f32⟩ : BufTy).Contents (Elt F) → (⟨S100000x128, .f32⟩ : BufTy).Contents (Elt F) → (⟨S100000x128, .f32⟩ : BufTy).Contents (Elt F)),
    StableHlo.TRef.nullary main_call11.cst (constant S_ .f32 0x00000000#32),
    StableHlo.TRef.unary main_call11.cst main_call11.v0 (broadcastInDim S100000x128 ![] bcast_S_S100000x128),
    StableHlo.TRef.binary (StableHlo.TRef.of (T := ⟨S100000x128, .f32⟩) main_v149) main_call11.v0 main_call11.v1 maximumf,
    StableHlo.nullary main_cst_19 (constant S_ .f32 0x00000000#32),
    StableHlo.unary main_cst_19 main_v151 (broadcastInDim S256x128 ![] bcast_S_S256x128 : (⟨S_, .f32⟩ : BufTy).Contents (Elt F) → (⟨S256x128, .f32⟩ : BufTy).Contents (Elt F)),
    StableHlo.unary main_arg2 main_v152 (broadcastInDim S100000x1 ![0] bcast_S100000_S100000x1_0 : (⟨S100000, .i32⟩ : BufTy).Contents (Elt F) → (⟨S100000x1, .i32⟩ : BufTy).Contents (Elt F)),
    StableHlo.ternary main_v151 main_v152 main_v150 main_v153 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    StableHlo.binary main_v153 main_arg15 main_v154 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    StableHlo.unary main_arg16 main_v155 (broadcastInDim S1x1 ![1] bcast_S1_S1x1_1 : (⟨S1, .f32⟩ : BufTy).Contents (Elt F) → (⟨S1x1, .f32⟩ : BufTy).Contents (Elt F)),
    StableHlo.unary main_v155 main_v156 (broadcastInDim S256x1 ![0, 1] bcast_S1x1_S256x1_0_1 : (⟨S1x1, .f32⟩ : BufTy).Contents (Elt F) → (⟨S256x1, .f32⟩ : BufTy).Contents (Elt F)),
    StableHlo.binary main_v154 main_v156 main_v157 (addf : (⟨S256x1, .f32⟩ : BufTy).Contents (Elt F) → (⟨S256x1, .f32⟩ : BufTy).Contents (Elt F) → (⟨S256x1, .f32⟩ : BufTy).Contents (Elt F)) ]

set_option maxRecDepth 8192 in
/-- The window's list is its stages' lists, concatenated. -/
theorem ops_part2_split : (ops_part2 : List (HloOp τ sig (Elt F))) = ops_S2b ++ (ops_A2 ++ (ops_D2 ++ (ops_BM2 ++ (ops_BV2 ++ (ops_BA2 ++ (ops_PL ++ (ops_OUT))))))) := rfl

end Cert.ReferenceIdeal.HandRun

end
-- ==== Proof.Ref.Run2.lean ====
/- Window 2 of the reference's @main, run: the window is the straight line of its operation list (the called
   functions unfolded at their calls), and stage by stage what the list leaves in the stage's result buffer from any
   contents `V` — the stage's definition applied to `V` at the buffers the stage reads — every other buffer kept. -/
import proofs.«172250_j15616501088594_1_alg».proof.Proof.Ref.Tab2
import proofs.«172250_j15616501088594_1_alg».proof.Proof.Ref.Stages
import proofs.«172250_j15616501088594_1_alg».proof.Proof.Ref.Tactics

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The window is its list -/

-- 87 binds re-associated under the called functions' unfolded bodies
set_option maxRecDepth 8192 in
set_option maxHeartbeats 4000000 in
/-- Unfolding `@relu`, `@_var` and `@_where` at their calls and re-associating the sequencing, both sides are one chain
    of `hlo` steps over the same buffers. -/
theorem main_part2_eq (c : Dev nD) : main_part2 (F := F) c = seq ops_part2 := by
  simp only [main_part2, fn_relu.body, fn_var.body, fn_where.body, seq, bind_assoc, pure_bind]
  rfl

set_option maxRecDepth 8192 in
theorem ops_part2_sub : (ops_part2 : List (HloOp τ sig (Elt F))).Forall fun op => op.bufs ⊆ tcRefs τ sig := by
  bufs_in_tc

/-! ## Layer 2's parameters, second part: slice 1 of the stacked scales and shifts -/

set_option maxRecDepth 8192 in
theorem ops_S2b_writes : (ops_S2b : List (HloOp τ sig (Elt F))).Forall fun op =>
    op.writes ⊆ (W_S2b.map (Proc.devRef (τ := τ) .tc)).toFinset := by
  writes_in_list

theorem ops_S2b_keep (V : Valuation τ sig (Elt F)) (r : Ref sig .tc) (h : r ∉ W_S2b) :
    after ops_S2b V (no_index (Proc.devRef .tc r)) = V (Proc.devRef .tc r) :=
  after_of_writes_sub ops_S2b _ ops_S2b_writes h

set_option maxRecDepth 8192 in
theorem ops_S2b_main_v107 (V : Valuation τ sig (Elt F)) :
    after ops_S2b V (no_index (Proc.devRef .tc main_v107)) = vec1 (V (Proc.devRef .tc main_arg13)) := by
  simp only [ops_S2b]
  stage_run

set_option maxRecDepth 8192 in
theorem ops_S2b_main_v109 (V : Valuation τ sig (Elt F)) :
    after ops_S2b V (no_index (Proc.devRef .tc main_v109)) = vec1 (V (Proc.devRef .tc main_arg14)) := by
  simp only [ops_S2b]
  stage_run

/-! ## Layer 2: the neighbour sum -/

set_option maxRecDepth 8192 in
theorem ops_A2_writes : (ops_A2 : List (HloOp τ sig (Elt F))).Forall fun op =>
    op.writes ⊆ (W_A2.map (Proc.devRef (τ := τ) .tc)).toFinset := by
  writes_in_list

theorem ops_A2_keep (V : Valuation τ sig (Elt F)) (r : Ref sig .tc) (h : r ∉ W_A2) :
    after ops_A2 V (no_index (Proc.devRef .tc r)) = V (Proc.devRef .tc r) :=
  after_of_writes_sub ops_A2 _ ops_A2_writes h

set_option maxRecDepth 8192 in
set_option maxHeartbeats 2000000 in
theorem ops_A2_main_v119 (V : Valuation τ sig (Elt F)) :
    after ops_A2 V (no_index (Proc.devRef .tc main_v119))
      = agg128 (V (Proc.devRef .tc main_v97)) (V (Proc.devRef .tc main_v1)) (V (Proc.devRef .tc main_v3)) := by
  simp only [ops_A2]
  stage_run

/-! ## Layer 2: the perceptron -/

set_option maxRecDepth 8192 in
theorem ops_D2_writes : (ops_D2 : List (HloOp τ sig (Elt F))).Forall fun op =>
    op.writes ⊆ (W_D2.map (Proc.devRef (τ := τ) .tc)).toFinset := by
  writes_in_list

theorem ops_D2_keep (V : Valuation τ sig (Elt F)) (r : Ref sig .tc) (h : r ∉ W_D2) :
    after ops_D2 V (no_index (Proc.devRef .tc r)) = V (Proc.devRef .tc r) :=
  after_of_writes_sub ops_D2 _ ops_D2_writes h

set_option maxRecDepth 8192 in
set_option maxHeartbeats 2000000 in
theorem ops_D2_main_v130 (V : Valuation τ sig (Elt F)) :
    after ops_D2 V (no_index (Proc.devRef .tc main_v130))
      = dense128 (V (Proc.devRef .tc main_v97)) (V (Proc.devRef .tc main_v119)) (V (Proc.devRef .tc main_v99))
          (V (Proc.devRef .tc main_v101)) (V (Proc.devRef .tc main_v103)) (V (Proc.devRef .tc main_v105)) := by
  simp only [ops_D2]
  stage_run

/-! ## Layer 2: column means, column variances, normalisation -/

set_option maxRecDepth 8192 in
theorem ops_BM2_writes : (ops_BM2 : List (HloOp τ sig (Elt F))).Forall fun op =>
    op.writes ⊆ (W_BM2.map (Proc.devRef (τ := τ) .tc)).toFinset := by
  writes_in_list

theorem ops_BM2_keep (V : Valuation τ sig (Elt F)) (r : Ref sig .tc) (h : r ∉ W_BM2) :
    after ops_BM2 V (no_index (Proc.devRef .tc r)) = V (Proc.devRef .tc r) :=
  after_of_writes_sub ops_BM2 _ ops_BM2_writes h

set_option maxRecDepth 8192 in
theorem ops_BM2_main_v133 (V : Valuation τ sig (Elt F)) :
    after ops_BM2 V (no_index (Proc.devRef .tc main_v133)) = bnMean (V (Proc.devRef .tc main_v130)) := by
  simp only [ops_BM2]
  stage_run

set_option maxRecDepth 8192 in
theorem ops_BV2_writes : (ops_BV2 : List (HloOp τ sig (Elt F))).Forall fun op =>
    op.writes ⊆ (W_BV2.map (Proc.devRef (τ := τ) .tc)).toFinset := by
  writes_in_list

theorem ops_BV2_keep (V : Valuation τ sig (Elt F)) (r : Ref sig .tc) (h : r ∉ W_BV2) :
    after ops_BV2 V (no_index (Proc.devRef .tc r)) = V (Proc.devRef .tc r) :=
  after_of_writes_sub ops_BV2 _ ops_BV2_writes h

set_option maxRecDepth 8192 in
set_option maxHeartbeats 2000000 in
theorem ops_BV2_main_v134 (V : Valuation τ sig (Elt F)) :
    after ops_BV2 V (no_index (Proc.devRef .tc main_v134)) = bnVar (V (Proc.devRef .tc main_v130)) := by
  simp only [ops_BV2]
  stage_run

set_option maxRecDepth 8192 in
theorem ops_BA2_writes : (ops_BA2 : List (HloOp τ sig (Elt F))).Forall fun op =>
    op.writes ⊆ (W_BA2.map (Proc.devRef (τ := τ) .tc)).toFinset := by
  writes_in_list

theorem ops_BA2_keep (V : Valuation τ sig (Elt F)) (r : Ref sig .tc) (h : r ∉ W_BA2) :
    after ops_BA2 V (no_index (Proc.devRef .tc r)) = V (Proc.devRef .tc r) :=
  after_of_writes_sub ops_BA2 _ ops_BA2_writes h

set_option maxRecDepth 8192 in
set_option maxHeartbeats 2000000 in
theorem ops_BA2_main_v150 (V : Valuation τ sig (Elt F)) :
    after ops_BA2 V (no_index (Proc.devRef .tc main_v150))
      = bnApply (V (Proc.devRef .tc main_v130)) (V (Proc.devRef .tc main_v133)) (V (Proc.devRef .tc main_v134))
          (V (Proc.devRef .tc main_v107)) (V (Proc.devRef .tc main_v109)) := by
  simp only [ops_BA2]
  stage_run

/-! ## The per-graph sums and the read-out -/

set_option maxRecDepth 8192 in
theorem ops_PL_writes : (ops_PL : List (HloOp τ sig (Elt F))).Forall fun op =>
    op.writes ⊆ (W_PL.map (Proc.devRef (τ := τ) .tc)).toFinset := by
  writes_in_list

theorem ops_PL_keep (V : Valuation τ sig (Elt F)) (r : Ref sig .tc) (h : r ∉ W_PL) :
    after ops_PL V (no_index (Proc.devRef .tc r)) = V (Proc.devRef .tc r) :=
  after_of_writes_sub ops_PL _ ops_PL_writes h

set_option maxRecDepth 8192 in
theorem ops_PL_main_v153 (V : Valuation τ sig (Elt F)) :
    after ops_PL V (no_index (Proc.devRef .tc main_v153))
      = pool (V (Proc.devRef .tc main_v150)) (V (Proc.devRef .tc main_arg2)) := by
  simp only [ops_PL]
  stage_run

set_option maxRecDepth 8192 in
theorem ops_OUT_writes : (ops_OUT : List (HloOp τ sig (Elt F))).Forall fun op =>
    op.writes ⊆ (W_OUT.map (Proc.devRef (τ := τ) .tc)).toFinset := by
  writes_in_list

theorem ops_OUT_keep (V : Valuation τ sig (Elt F)) (r : Ref sig .tc) (h : r ∉ W_OUT) :
    after ops_OUT V (no_index (Proc.devRef .tc r)) = V (Proc.devRef .tc r) :=
  after_of_writes_sub ops_OUT _ ops_OUT_writes h

set_option maxRecDepth 8192 in
theorem ops_OUT_main_v157 (V : Valuation τ sig (Elt F)) :
    after ops_OUT V (no_index (Proc.devRef .tc main_v157))
      = outp (V (Proc.devRef .tc main_v153)) (V (Proc.devRef .tc main_arg15)) (V (Proc.devRef .tc main_arg16)) := by
  simp only [ops_OUT]
  stage_run

end Cert.ReferenceIdeal.HandRun

end
-- ==== Proof.Ref.Run.lean ====
/- The reference's run, assembled. @main is the straight line of its three windows' operation lists; the valuation
   after each window is followed stage by stage: a stage's result buffer holds the stage's definition of what the
   stage read, every buffer a stage does not write keeps its contents, so after the last window the result buffer
   holds `resTerm` of the argument arrays' launch contents and the argument arrays are unchanged. -/
import proofs.«172250_j15616501088594_1_alg».proof.Proof.Ref.Run0
import proofs.«172250_j15616501088594_1_alg».proof.Proof.Ref.Run1
import proofs.«172250_j15616501088594_1_alg».proof.Proof.Ref.Run2
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line of its windows' lists -/

/-- The last window holds only the return. -/
abbrev ops_part3 : List (HloOp τ sig (Elt F)) := []

/-- @main's 261 operations, in order. -/
abbrev ops : List (HloOp τ sig (Elt F)) :=
  ops_part0 ++ (ops_part1 ++ (ops_part2 ++ (ops_part3)))

theorem main_part3_eq (c : Dev nD) : main_part3 (F := F) c = seq ops_part3 := rfl

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    · exact List.forall_iff_forall_mem.mp ops_part0_sub op h
    · exact List.forall_iff_forall_mem.mp ops_part1_sub op h
    · exact List.forall_iff_forall_mem.mp ops_part2_sub op h
    · exact absurd h List.not_mem_nil

/-! ## The valuation after each window -/

/-- After window 0: the edge lists, layer 0, and the first four of layer 1's parameters. -/
def P0 (V : Valuation τ sig (Elt F)) : Valuation τ sig (Elt F) :=
  after ops_S1a (after ops_BA0 (after ops_BV0 (after ops_BM0 (after ops_D0 (after ops_A0 (after ops_E V))))))

/-- After window 1: the rest of layer 1's parameters, layer 1, and the first four of layer 2's parameters. -/
def P1 (V : Valuation τ sig (Elt F)) : Valuation τ sig (Elt F) :=
  after ops_S2a (after ops_BA1 (after ops_BV1 (after ops_BM1 (after ops_D1 (after ops_A1 (after ops_S1b (P0 V)))))))

/-- After window 2: the rest of layer 2's parameters, layer 2, the per-graph sums and the read-out. -/
def P2 (V : Valuation τ sig (Elt F)) : Valuation τ sig (Elt F) :=
  after ops_OUT (after ops_PL (after ops_BA2 (after ops_BV2 (after ops_BM2 (after ops_D2 (after ops_A2 (after ops_S2b (P1 V))))))))

theorem after_ops (V : Valuation τ sig (Elt F)) : after ops V = P2 V := by
  simp only [ops, ops_part0_split, ops_part1_split, ops_part2_split, after_append, after_nil]
  rfl

/-! ## Buffers a window does not write -/

theorem P0_keep (V : Valuation τ sig (Elt F)) (r : Ref sig .tc) (h1 : r ∉ W_E) (h2 : r ∉ W_A0) (h3 : r ∉ W_D0)
    (h4 : r ∉ W_BM0) (h5 : r ∉ W_BV0) (h6 : r ∉ W_BA0) (h7 : r ∉ W_S1a) :
    P0 V (no_index (Proc.devRef .tc r)) = V (Proc.devRef .tc r) :=
  (ops_S1a_keep _ r h7).trans <| (ops_BA0_keep _ r h6).trans <| (ops_BV0_keep _ r h5).trans <|
    (ops_BM0_keep _ r h4).trans <| (ops_D0_keep _ r h3).trans <| (ops_A0_keep _ r h2).trans <| ops_E_keep V r h1

theorem P1_keep (V : Valuation τ sig (Elt F)) (r : Ref sig .tc) (h1 : r ∉ W_S1b) (h2 : r ∉ W_A1) (h3 : r ∉ W_D1)
    (h4 : r ∉ W_BM1) (h5 : r ∉ W_BV1) (h6 : r ∉ W_BA1) (h7 : r ∉ W_S2a) :
    P1 V (no_index (Proc.devRef .tc r)) = P0 V (Proc.devRef .tc r) :=
  (ops_S2a_keep _ r h7).trans <| (ops_BA1_keep _ r h6).trans <| (ops_BV1_keep _ r h5).trans <|
    (ops_BM1_keep _ r h4).trans <| (ops_D1_keep _ r h3).trans <| (ops_A1_keep _ r h2).trans <| ops_S1b_keep (P0 V) r h1

theorem P2_keep (V : Valuation τ sig (Elt F)) (r : Ref sig .tc) (h1 : r ∉ W_S2b) (h2 : r ∉ W_A2) (h3 : r ∉ W_D2)
    (h4 : r ∉ W_BM2) (h5 : r ∉ W_BV2) (h6 : r ∉ W_BA2) (h7 : r ∉ W_PL) (h8 : r ∉ W_OUT) :
    P2 V (no_index (Proc.devRef .tc r)) = P1 V (Proc.devRef .tc r) :=
  (ops_OUT_keep _ r h8).trans <| (ops_PL_keep _ r h7).trans <| (ops_BA2_keep _ r h6).trans <| (ops_BV2_keep _ r h5).trans <|
    (ops_BM2_keep _ r h4).trans <| (ops_D2_keep _ r h3).trans <| (ops_A2_keep _ r h2).trans <| ops_S2b_keep (P1 V) r h1

/-! ## Window 0 -/

/-- Window 0's stages, one after the other: each result buffer read through the stages after it (which keep it) down to
    the stage that wrote it, there the stage's definition of what that stage read, and so on down to the arguments. -/
macro "window0" : tactic =>
  `(tactic| simp (disch := decide) only [P0, ops_E_keep, ops_A0_keep, ops_D0_keep, ops_BM0_keep, ops_BV0_keep, ops_BA0_keep,
      ops_S1a_keep, ops_E_main_v1, ops_E_main_v3, ops_A0_main_v13, ops_D0_main_v24, ops_BM0_main_v27, ops_BV0_main_v28,
      ops_BA0_main_v44, ops_S1a_main_v46, ops_S1a_main_v48, ops_S1a_main_v50, ops_S1a_main_v52])

theorem P0_main_v1 (V : Valuation τ sig (Elt F)) : P0 V (no_index (Proc.devRef .tc main_v1)) = res_main_v1 V := by
  window0 <;> rfl
theorem P0_main_v3 (V : Valuation τ sig (Elt F)) : P0 V (no_index (Proc.devRef .tc main_v3)) = res_main_v3 V := by
  window0 <;> rfl
theorem P0_main_v44 (V : Valuation τ sig (Elt F)) : P0 V (no_index (Proc.devRef .tc main_v44)) = res_main_v44 V := by
  window0 <;> rfl
theorem P0_main_v46 (V : Valuation τ sig (Elt F)) : P0 V (no_index (Proc.devRef .tc main_v46)) = res_main_v46 V := by
  window0 <;> rfl
theorem P0_main_v48 (V : Valuation τ sig (Elt F)) : P0 V (no_index (Proc.devRef .tc main_v48)) = res_main_v48 V := by
  window0 <;> rfl
theorem P0_main_v50 (V : Valuation τ sig (Elt F)) : P0 V (no_index (Proc.devRef .tc main_v50)) = res_main_v50 V := by
  window0 <;> rfl
theorem P0_main_v52 (V : Valuation τ sig (Elt F)) : P0 V (no_index (Proc.devRef .tc main_v52)) = res_main_v52 V := by
  window0 <;> rfl

/-! ## Window 1 -/

/-- Window 1's stages likewise, down to what window 0 left. -/
macro "window1" : tactic =>
  `(tactic| simp (disch := decide) only [P1, ops_S1b_keep, ops_A1_keep, ops_D1_keep, ops_BM1_keep, ops_BV1_keep, ops_BA1_keep,
      ops_S2a_keep, ops_S1b_main_v54, ops_S1b_main_v56, ops_A1_main_v66, ops_D1_main_v77, ops_BM1_main_v80, ops_BV1_main_v81,
      ops_BA1_main_v97, ops_S2a_main_v99, ops_S2a_main_v101, ops_S2a_main_v103, ops_S2a_main_v105,
      P0_keep, P0_main_v1, P0_main_v3, P0_main_v44, P0_main_v46, P0_main_v48, P0_main_v50, P0_main_v52])

theorem P1_main_v1 (V : Valuation τ sig (Elt F)) : P1 V (no_index (Proc.devRef .tc main_v1)) = res_main_v1 V := by
  window1 <;> rfl
theorem P1_main_v3 (V : Valuation τ sig (Elt F)) : P1 V (no_index (Proc.devRef .tc main_v3)) = res_main_v3 V := by
  window1 <;> rfl
theorem P1_main_v97 (V : Valuation τ sig (Elt F)) : P1 V (no_index (Proc.devRef .tc main_v97)) = res_main_v97 V := by
  window1 <;> rfl
theorem P1_main_v99 (V : Valuation τ sig (Elt F)) : P1 V (no_index (Proc.devRef .tc main_v99)) = res_main_v99 V := by
  window1 <;> rfl
theorem P1_main_v101 (V : Valuation τ sig (Elt F)) : P1 V (no_index (Proc.devRef .tc main_v101)) = res_main_v101 V := by
  window1 <;> rfl
theorem P1_main_v103 (V : Valuation τ sig (Elt F)) : P1 V (no_index (Proc.devRef .tc main_v103)) = res_main_v103 V := by
  window1 <;> rfl
theorem P1_main_v105 (V : Valuation τ sig (Elt F)) : P1 V (no_index (Proc.devRef .tc main_v105)) = res_main_v105 V := by
  window1 <;> rfl

/-! ## Window 2 -/

/-- Window 2's stages likewise, down to what window 1 left. -/
macro "window2" : tactic =>
  `(tactic| simp (disch := decide) only [P2, ops_S2b_keep, ops_A2_keep, ops_D2_keep, ops_BM2_keep, ops_BV2_keep, ops_BA2_keep,
      ops_PL_keep, ops_OUT_keep, ops_S2b_main_v107, ops_S2b_main_v109, ops_A2_main_v119, ops_D2_main_v130, ops_BM2_main_v133,
      ops_BV2_main_v134, ops_BA2_main_v150, ops_PL_main_v153, ops_OUT_main_v157,
      P1_keep, P0_keep, P1_main_v1, P1_main_v3, P1_main_v97, P1_main_v99, P1_main_v101, P1_main_v103, P1_main_v105])

/-- The result buffer after the whole line. -/
theorem P2_main_v157 (V : Valuation τ sig (Elt F)) : P2 V (no_index (Proc.devRef .tc main_v157)) = resTerm V := by
  window2 <;> rfl

/-- An argument array after the whole line: no stage writes it. -/
macro "arg_kept" : tactic =>
  `(tactic| (rw [after_ops]; simp (disch := decide) only [P2_keep, P1_keep, P0_keep] <;> rfl))

/-! ## The run -/

set_option maxRecDepth 8192 in
/-- On every device, for any float values, from any memory with zero counters: every weakly fair execution of @main
    terminates with the result buffer at `resTerm` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = resTerm (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
    ⟨(h c main_v157).trans (by rw [after_ops]; exact P2_main_v157 (launchContents m c)),
      (h c main_arg0).trans (by arg_kept), (h c main_arg1).trans (by arg_kept), (h c main_arg2).trans (by arg_kept),
      (h c main_arg3).trans (by arg_kept), (h c main_arg4).trans (by arg_kept), (h c main_arg5).trans (by arg_kept),
      (h c main_arg6).trans (by arg_kept), (h c main_arg7).trans (by arg_kept), (h c main_arg8).trans (by arg_kept),
      (h c main_arg9).trans (by arg_kept), (h c main_arg10).trans (by arg_kept), (h c main_arg11).trans (by arg_kept),
      (h c main_arg12).trans (by arg_kept), (h c main_arg13).trans (by arg_kept), (h c main_arg14).trans (by arg_kept),
      (h c main_arg15).trans (by arg_kept), (h c main_arg16).trans (by arg_kept)⟩)
    (run_seq scopedRefs_eq scopedSems_eq defs main (fun _ => ops) main_eq (fun _ => ops_sub) m ρ)

end Cert.ReferenceIdeal.HandRun

end
-- ==== Proof.BridgeRef.lean ====
/-
  The reference's result over the kernel program's launch arguments. The two programs are launched on argument arrays
  that agree one by one, so each layer of the reference — a neighbour sum along the edges, a two-layer perceptron, a
  batch normalisation with a rectifier — read on the reference's arguments is the same composition of stages read on
  the kernel program's arguments, and so is the read-out of the per-graph sums of the last layer.
-/
import proofs.«172250_j15616501088594_1_alg».proof.Proof.Ref.Stages
import proofs.«172250_j15616501088594_1_alg».proof.KernelIdeal
import Idealize.ShloMosaic.PureOps.Ideal

set_option maxRecDepth 16384

noncomputable section

namespace Cert.Bridge

open Idealize.ShloMosaic Idealize.ShloMosaic.TcCoe Idealize.SL.Sem
open Cert.ReferenceIdeal.HandRun

variable (m : (ℓ : Loc Cert.KernelIdeal.nD Cert.KernelIdeal.τ Cert.KernelIdeal.sig) → Buf (Elt Ideal) ℓ) (c : Dev Cert.KernelIdeal.nD)

/-- The first layer's output table, from the kernel program's launch arguments. -/
def E0 : (⟨Cert.ReferenceIdeal.S100000x128, .f32⟩ : BufTy).Contents (Elt Ideal) :=
  bn (F := Ideal) (dense64 (F := Ideal) (m (c, Proc.devRef .tc Cert.KernelIdeal.main_arg0)) (agg64 (F := Ideal) (m (c, Proc.devRef .tc Cert.KernelIdeal.main_arg0)) (src (F := Ideal) (m (c, Proc.devRef .tc Cert.KernelIdeal.main_arg1))) (dst (F := Ideal) (m (c, Proc.devRef .tc Cert.KernelIdeal.main_arg1))))
      (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6))) (m (c, Proc.devRef .tc Cert.KernelIdeal.main_arg7)) (m (c, Proc.devRef .tc Cert.KernelIdeal.main_arg8))

/-- The second layer's output table: the layer on the first layer's output, with slice 0 of the stacked parameters. -/
def E1 : (⟨Cert.ReferenceIdeal.S100000x128, .f32⟩ : BufTy).Contents (Elt Ideal) :=
  bn (F := Ideal) (dense128 (F := Ideal) (E0 m c) (agg128 (F := Ideal) (E0 m c) (src (F := Ideal) (m (c, Proc.devRef .tc Cert.KernelIdeal.main_arg1))) (dst (F := Ideal) (m (c, Proc.devRef .tc Cert.KernelIdeal.main_arg1))))
      (mat0 (F := Ideal) (m (c, Proc.devRef .tc Cert.KernelIdeal.main_arg9))) (vec0 (F := Ideal) (m (c, Proc.devRef .tc Cert.KernelIdeal.main_arg10))) (mat0 (F := Ideal) (m (c, Proc.devRef .tc Cert.KernelIdeal.main_arg11))) (vec0 (F := Ideal) (m (c, Proc.devRef .tc Cert.KernelIdeal.main_arg12))))
    (vec0 (F := Ideal) (m (c, Proc.devRef .tc Cert.KernelIdeal.main_arg13))) (vec0 (F := Ideal) (m (c, Proc.devRef .tc Cert.KernelIdeal.main_arg14)))

/-- The third layer's output table: the layer on the second layer's output, with slice 1 of the stacked parameters. -/
def E2 : (⟨Cert.ReferenceIdeal.S100000x128, .f32⟩ : BufTy).Contents (Elt Ideal) :=
  bn (F := Ideal) (dense128 (F := Ideal) (E1 m c) (agg128 (F := Ideal) (E1 m c) (src (F := Ideal) (m (c, Proc.devRef .tc Cert.KernelIdeal.main_arg1))) (dst (F := Ideal) (m (c, Proc.devRef .tc Cert.KernelIdeal.main_arg1))))
      (mat1 (F := Ideal) (m (c, Proc.devRef .tc Cert.KernelIdeal.main_arg9))) (vec1 (F := Ideal) (m (c, Proc.devRef .tc Cert.KernelIdeal.main_arg10))) (mat1 (F := Ideal) (m (c, Proc.devRef .tc Cert.KernelIdeal.main_arg11))) (vec1 (F := Ideal) (m (c, Proc.devRef .tc Cert.KernelIdeal.main_arg12))))
    (vec1 (F := Ideal) (m (c, Proc.devRef .tc Cert.KernelIdeal.main_arg13))) (vec1 (F := Ideal) (m (c, Proc.devRef .tc Cert.KernelIdeal.main_arg14)))

/-- The network's result: the read-out of the per-graph sums of the third layer's output. -/
def EOut : (⟨Cert.ReferenceIdeal.S256x1, .f32⟩ : BufTy).Contents (Elt Ideal) :=
  outp (F := Ideal) (pool (F := Ideal) (E2 m c) (m (c, Proc.devRef .tc Cert.KernelIdeal.main_arg2))) (m (c, Proc.devRef .tc Cert.KernelIdeal.main_arg15)) (m (c, Proc.devRef .tc Cert.KernelIdeal.main_arg16))

variable (m' : (ℓ : Loc Cert.ReferenceIdeal.nD Cert.ReferenceIdeal.τ Cert.ReferenceIdeal.sig) → Buf (Elt Ideal) ℓ)

/-- The reference's first layer on its own arguments is the first layer on the kernel program's. -/
theorem layer0_ref (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    layer0 (F := Ideal) (StableHlo.launchContents m' c) = E0 m c := by
  obtain ⟨h0, h1, h2, h3, h4, h5, h6, h7, h8, h9, h10, h11, h12, h13, h14, h15, h16⟩ := hagree
  unfold layer0 E0
  rw [show (StableHlo.launchContents m' c (Proc.devRef .tc Cert.ReferenceIdeal.main_arg0)) = (m (c, Proc.devRef .tc Cert.KernelIdeal.main_arg0)) from h0,
    show (StableHlo.launchContents m' c (Proc.devRef .tc Cert.ReferenceIdeal.main_arg1)) = (m (c, Proc.devRef .tc Cert.KernelIdeal.main_arg1)) from h1,
    show (StableHlo.launchContents m' c (Proc.devRef .tc Cert.ReferenceIdeal.main_arg3)) = (m (c, Proc.devRef .tc Cert.KernelIdeal.main_arg3)) from h3,
    show (StableHlo.launchContents m' c (Proc.devRef .tc Cert.ReferenceIdeal.main_arg4)) = (m (c, Proc.devRef .tc Cert.KernelIdeal.main_arg4)) from h4,
    show (StableHlo.launchContents m' c (Proc.devRef .tc Cert.ReferenceIdeal.main_arg5)) = (m (c, Proc.devRef .tc Cert.KernelIdeal.main_arg5)) from h5,
    show (StableHlo.launchContents m' c (Proc.devRef .tc Cert.ReferenceIdeal.main_arg6)) = (m (c, Proc.devRef .tc Cert.KernelIdeal.main_arg6)) from h6,
    show (StableHlo.launchContents m' c (Proc.devRef .tc Cert.ReferenceIdeal.main_arg7)) = (m (c, Proc.devRef .tc Cert.KernelIdeal.main_arg7)) from h7,
    show (StableHlo.launchContents m' c (Proc.devRef .tc Cert.ReferenceIdeal.main_arg8)) = (m (c, Proc.devRef .tc Cert.KernelIdeal.main_arg8)) from h8]

/-- The reference's second layer on its own arguments is the second layer on the kernel program's. -/
theorem layer1_ref (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    layer1 (F := Ideal) (StableHlo.launchContents m' c) = E1 m c := by
  have e0 := layer0_ref m c m' hagree
  obtain ⟨h0, h1, h2, h3, h4, h5, h6, h7, h8, h9, h10, h11, h12, h13, h14, h15, h16⟩ := hagree
  unfold layer1 E1
  rw [e0, show (StableHlo.launchContents m' c (Proc.devRef .tc Cert.ReferenceIdeal.main_arg1)) = (m (c, Proc.devRef .tc Cert.KernelIdeal.main_arg1)) from h1,
    show (StableHlo.launchContents m' c (Proc.devRef .tc Cert.ReferenceIdeal.main_arg9)) = (m (c, Proc.devRef .tc Cert.KernelIdeal.main_arg9)) from h9,
    show (StableHlo.launchContents m' c (Proc.devRef .tc Cert.ReferenceIdeal.main_arg10)) = (m (c, Proc.devRef .tc Cert.KernelIdeal.main_arg10)) from h10,
    show (StableHlo.launchContents m' c (Proc.devRef .tc Cert.ReferenceIdeal.main_arg11)) = (m (c, Proc.devRef .tc Cert.KernelIdeal.main_arg11)) from h11,
    show (StableHlo.launchContents m' c (Proc.devRef .tc Cert.ReferenceIdeal.main_arg12)) = (m (c, Proc.devRef .tc Cert.KernelIdeal.main_arg12)) from h12,
    show (StableHlo.launchContents m' c (Proc.devRef .tc Cert.ReferenceIdeal.main_arg13)) = (m (c, Proc.devRef .tc Cert.KernelIdeal.main_arg13)) from h13,
    show (StableHlo.launchContents m' c (Proc.devRef .tc Cert.ReferenceIdeal.main_arg14)) = (m (c, Proc.devRef .tc Cert.KernelIdeal.main_arg14)) from h14]

/-- The reference's third layer on its own arguments is the third layer on the kernel program's. -/
theorem layer2_ref (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    layer2 (F := Ideal) (StableHlo.launchContents m' c) = E2 m c := by
  have e1 := layer1_ref m c m' hagree
  obtain ⟨h0, h1, h2, h3, h4, h5, h6, h7, h8, h9, h10, h11, h12, h13, h14, h15, h16⟩ := hagree
  unfold layer2 E2
  rw [e1, show (StableHlo.launchContents m' c (Proc.devRef .tc Cert.ReferenceIdeal.main_arg1)) = (m (c, Proc.devRef .tc Cert.KernelIdeal.main_arg1)) from h1,
    show (StableHlo.launchContents m' c (Proc.devRef .tc Cert.ReferenceIdeal.main_arg9)) = (m (c, Proc.devRef .tc Cert.KernelIdeal.main_arg9)) from h9,
    show (StableHlo.launchContents m' c (Proc.devRef .tc Cert.ReferenceIdeal.main_arg10)) = (m (c, Proc.devRef .tc Cert.KernelIdeal.main_arg10)) from h10,
    show (StableHlo.launchContents m' c (Proc.devRef .tc Cert.ReferenceIdeal.main_arg11)) = (m (c, Proc.devRef .tc Cert.KernelIdeal.main_arg11)) from h11,
    show (StableHlo.launchContents m' c (Proc.devRef .tc Cert.ReferenceIdeal.main_arg12)) = (m (c, Proc.devRef .tc Cert.KernelIdeal.main_arg12)) from h12,
    show (StableHlo.launchContents m' c (Proc.devRef .tc Cert.ReferenceIdeal.main_arg13)) = (m (c, Proc.devRef .tc Cert.KernelIdeal.main_arg13)) from h13,
    show (StableHlo.launchContents m' c (Proc.devRef .tc Cert.ReferenceIdeal.main_arg14)) = (m (c, Proc.devRef .tc Cert.KernelIdeal.main_arg14)) from h14]

/-- The reference's result on its own arguments is the network's result on the kernel program's. -/
theorem resTerm_ref (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    resTerm (F := Ideal) (StableHlo.launchContents m' c) = EOut m c := by
  have e2 := layer2_ref m c m' hagree
  obtain ⟨h0, h1, h2, h3, h4, h5, h6, h7, h8, h9, h10, h11, h12, h13, h14, h15, h16⟩ := hagree
  rw [resTerm_eq, e2]
  unfold EOut
  rw [show (StableHlo.launchContents m' c (Proc.devRef .tc Cert.ReferenceIdeal.main_arg2)) = (m (c, Proc.devRef .tc Cert.KernelIdeal.main_arg2)) from h2,
    show (StableHlo.launchContents m' c (Proc.devRef .tc Cert.ReferenceIdeal.main_arg15)) = (m (c, Proc.devRef .tc Cert.KernelIdeal.main_arg15)) from h15,
    show (StableHlo.launchContents m' c (Proc.devRef .tc Cert.ReferenceIdeal.main_arg16)) = (m (c, Proc.devRef .tc Cert.KernelIdeal.main_arg16)) from h16]

end Cert.Bridge

end
-- ==== Proof.LibPlainDot.lean ====
/-
  Matrix products, column sums and one-row biases read at an index, over the extended reals, at any extents.

  A product of an M×K matrix by a K×N matrix — whether taken by the matrix unit into a zero accumulator or by the
  host's general dot with contracting axes 1 and 0 — has at entry (a, b) the value Σ_c A(a, c) · B(c, b). The sum
  of an M×N array along its rows has at column q the value Σ_p X(p, q). A vector of N entries placed as the one row
  of a 1×N array, and a 1×N array repeated down M rows, read back the vector's entry of the column. A scalar
  repeated over an array reads the scalar everywhere.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.PlainDot

open Idealize.ShloMosaic Idealize.ShloMosaic.ValueIdx
open scoped BigOperators

variable {M K N : Nat} {φ₁ φ₂ : FTy}

/-! ## The plain product -/

/-- In a plain product the left operand is read at (row of the entry, contracted coordinate). -/
theorem lhsIdx_at (w : DotDims.WF ⟨2, ![M, K]⟩ ⟨2, ![K, N]⟩ ⟨2, ![M, N]⟩ [1] [0] [0] [1] [] [])
    (a : Fin M) (b : Fin N) (c : Fin K) :
    (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
  have c2 := contrEquiv1_symm_val
    (⟨[1], [0], [0], [1], [], [], w⟩ : DotDims ⟨2, ![M, K]⟩ ⟨2, ![K, N]⟩ ⟨2, ![M, N]⟩) K rfl rfl c
  funext ax; apply Fin.ext
  match ax with
  | ⟨0, _⟩ => simp [DotDims.lhsIdx]; rfl
  | ⟨1, _⟩ => simp [DotDims.lhsIdx]; exact c2

/-- and the right operand at (contracted coordinate, column of the entry). -/
theorem rhsIdx_at (w : DotDims.WF ⟨2, ![M, K]⟩ ⟨2, ![K, N]⟩ ⟨2, ![M, N]⟩ [1] [0] [0] [1] [] [])
    (a : Fin M) (b : Fin N) (c : Fin K) :
    (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
  have c2 := contrEquiv1_symm_val
    (⟨[1], [0], [0], [1], [], [], w⟩ : DotDims ⟨2, ![M, K]⟩ ⟨2, ![K, N]⟩ ⟨2, ![M, N]⟩) K rfl rfl c
  funext ax; apply Fin.ext
  match ax with
  | ⟨0, _⟩ => simp [DotDims.rhsIdx]; exact c2
  | ⟨1, _⟩ => simp [DotDims.rhsIdx]; rfl

/-- The matrix unit's product into a zero accumulator, at an entry. -/
theorem matmul_zero_at (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    FloatOps.matmul (⟨[1], [0], [0], [1], [], [], w⟩ : DotDims _ _ _) prec A B
        (constant ⟨2, ![M, N]⟩ .f32 0x00000000#32) (ix2 a b)
      = ∑ c : Fin K, A (ix2 a c) * B (ix2 c b) := by
  rw [Ideal.matmul_constant_zero_apply,
    ← Equiv.sum_comp (contrEquiv1 (⟨[1], [0], [0], [1], [], [], w⟩ : DotDims _ _ _) K rfl rfl).symm]
  refine Finset.sum_congr rfl fun c _ => ?_
  rw [lhsIdx_at, rhsIdx_at]

/-- The host's general dot with the same dimension numbers, at an entry. -/
theorem dotGeneral_at (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (⟨[1], [0], [0], [1], [], [], w⟩ : DotDims _ _ _) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) K rfl rfl).symm]
  refine Finset.sum_congr rfl fun c _ => ?_
  rw [lhsIdx_at, rhsIdx_at]

/-! ## The sum along the rows -/

/-- The source index over column `q` with row `p` inserted is `(p, q)`. -/
theorem lift_rows (h : Shape.Reduces ⟨2, ![M, N]⟩ [0] ⟨1, ![N]⟩) (q : Fin N) (p : Fin M) :
    h.lift (ix1 q) p = ix2 p q := by
  funext ax; apply Fin.ext
  match ax with
  | ⟨0, h0⟩ => show h.liftVal (ix1 q) p.val ⟨0, h0⟩ = p.val; simp [Shape.Reduces.liftVal]
  | ⟨1, h1⟩ => show h.liftVal (ix1 q) p.val ⟨1, h1⟩ = q.val; simp [Shape.Reduces.liftVal]

/-- The vector unit's sum of an M×N array along its rows from a zero start, at a column. -/
theorem rowSum_at (X : FVec Ideal ⟨2, ![M, N]⟩ .f32) (h : Shape.Reduces ⟨2, ![M, N]⟩ [0] ⟨1, ![N]⟩)
    (hφ : FKind.Formats .f32) (hacc : (0x00000000#32 : BitVec 32) = FKind.add.neutral .f32 hφ) (q : Fin N) :
    multiReduction .add [0] ⟨1, ![N]⟩ X 0x00000000#32 h hφ hacc (ix1 q) = ∑ p : Fin M, X (ix2 p q) := by
  refine (Ideal.multiReduction_add_single X 0x00000000#32 h hφ hacc (ix1 q)).trans ?_
  exact Finset.sum_congr rfl fun p _ => congrArg X (lift_rows h q p)

/-- A 1×N accumulator to which the sum of an M×N array along its rows, placed as a row, is added — at a column. -/
theorem addRowSum_at (acc : FVec Ideal ⟨2, ![1, N]⟩ .f32) (X : FVec Ideal ⟨2, ![M, N]⟩ .f32)
    (h : Shape.Reduces ⟨2, ![M, N]⟩ [0] ⟨1, ![N]⟩) (hφ : FKind.Formats .f32)
    (hacc : (0x00000000#32 : BitVec 32) = FKind.add.neutral .f32 hφ)
    (hc : (⟨1, ![N]⟩ : Shape).ShapeCasts ⟨2, ![1, N]⟩) (u : Fin 1) (q : Fin N) :
    addf acc (shapeCast ⟨2, ![1, N]⟩ (multiReduction .add [0] ⟨1, ![N]⟩ X 0x00000000#32 h hφ hacc) hc) (ix2 u q)
      = acc (ix2 u q) + ∑ p : Fin M, X (ix2 p q) := by
  refine (addf_apply _ _ _).trans ?_
  exact congrArg (acc (ix2 u q) + ·) ((shapeCast_a_1a_apply _ hc u q).trans (rowSum_at X h hφ hacc q))

/-! ## A one-row bias, and the clamp at zero -/

/-- A 1×N array repeated down M rows by the host reads, at `(r, q)`, its entry of column `q`. -/
theorem hostRowDown_at {α : Type} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) := by
  refine broadcastInDim_apply _ h y (ix2 r q) (ix2 (0 : Fin 1) q) fun ax => ?_
  match ax with
  | ⟨0, _⟩ => rfl
  | ⟨1, _⟩ =>
    show q.val = if N = 1 then 0 else q.val
    split
    · have := q.isLt; omega
    · rfl

/-- A vector of N entries placed by the host as the one row of a 1×N array reads, at `(0, q)`, its entry `q`. -/
theorem hostAsRow_at {α : Type} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) := by
  refine broadcastInDim_apply _ h b (ix2 u q) (ix1 q) fun ax => ?_
  match ax with
  | ⟨0, _⟩ =>
    show q.val = if N = 1 then 0 else q.val
    split
    · have := q.isLt; omega
    · rfl

/-- The vector unit's `max (X · W + row, 0)`: a product into a zero accumulator, a 1×N row repeated down the rows
    added, the maximum with a repeated zero taken — at an entry. -/
theorem reluAffine_at (w : DotDims.WF ⟨2, ![M, K]⟩ ⟨2, ![K, N]⟩ ⟨2, ![M, N]⟩ [1] [0] [0] [1] [] [])
    (prec : Option ContractPrecision) (X : FVec Ideal ⟨2, ![M, K]⟩ φ₁) (W : FVec Ideal ⟨2, ![K, N]⟩ φ₂)
    (row : FVec Ideal ⟨2, ![1, N]⟩ .f32) (hb : (⟨2, ![1, N]⟩ : Shape).Broadcasts ⟨2, ![M, N]⟩) (p : Fin M) (q : Fin N) :
    maximumf (addf (FloatOps.matmul (⟨[1], [0], [0], [1], [], [], w⟩ : DotDims _ _ _) prec X W
          (constant ⟨2, ![M, N]⟩ .f32 0x00000000#32)) (broadcastTo ⟨2, ![M, N]⟩ row hb))
        (broadcast ⟨2, ![M, N]⟩ (Scalar.ofBits (F := Ideal) .f32 0x00000000#32)) (ix2 p q)
      = max ((∑ c : Fin K, X (ix2 p c) * W (ix2 c q)) + row (ix2 (0 : Fin 1) q)) 0 := by
  refine (maximumf_apply _ _ _).trans ?_
  refine congrArg₂ max ?_ Ideal.ofBits_zero_f32
  refine (addf_apply _ _ _).trans ?_
  exact congrArg₂ (· + ·) (matmul_zero_at w prec X W p q) (broadcastTo_1b_ab_apply row hb p q)

/-- The host's `max (X · W + vector, 0)`: a general dot, a vector of N entries placed as a row and repeated down the
    rows added, the maximum with a repeated scalar zero taken — at an entry. -/
theorem hostReluAffine_at (w : DotDims.WF ⟨2, ![M, K]⟩ ⟨2, ![K, N]⟩ ⟨2, ![M, N]⟩ [1] [0] [0] [1] [] [])
    (prec : Option ContractPrecision) (X : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (q : Fin N) :
    maximumf (addf (Host.dotGeneral (⟨[1], [0], [0], [1], [], [], w⟩ : DotDims _ _ _) prec X W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 r q)
      = max ((∑ c : Fin K, X (ix2 r c) * W (ix2 c q)) + b (ix1 q)) 0 := by
  refine (maximumf_apply _ _ _).trans ?_
  refine congrArg₂ max ?_ ((broadcastInDim_scalar_apply h0 _ _).trans Ideal.ofBits_zero_f32)
  refine (addf_apply _ _ _).trans ?_
  exact congrArg₂ (· + ·) (dotGeneral_at w prec X W r q)
    ((hostRowDown_at _ h2 r q).trans (hostAsRow_at b h1 0 q))

end Cert.PlainDot
-- ==== Proof.Ref.DenseAt.lean ====
import proofs.«172250_j15616501088594_1_alg».proof.Proof.Ref.Stages
import proofs.«172250_j15616501088594_1_alg».proof.Proof.LibPlainDot

/-!
# The reference's two-layer perceptrons at an index, over the extended reals

For feature rows `h`, neighbour sums `a`, weight matrices `w1`, `w2` and bias vectors `b1`, `b2`,

    dense (r, q) = max (Σ_l max (Σ_j (h (r, j) + a (r, j)) · w1 (j, l) + b1 (l)) 0 · w2 (l, q) + b2 (q)) 0

at every row `r` of the 100000 and every column `q` of the 128: each layer is a general dot, a bias vector placed as
a row and repeated down the rows, and a maximum with a repeated scalar zero.
-/

noncomputable section

namespace Cert.ReferenceIdeal.HandVal

open Cert.ReferenceIdeal Cert.ReferenceIdeal.Gen Cert.ReferenceIdeal.HandRun Cert.PlainDot
open Idealize.ShloMosaic Idealize.ShloMosaic.ValueIdx
open scoped BigOperators

/-- The first layer's perceptron (64 input columns) at an entry. -/
theorem dense64_apply (h a : FVec Ideal S100000x64 .f32) (w1 : FVec Ideal S64x128 .f32) (b1 : FVec Ideal S128 .f32)
    (w2 : FVec Ideal S128x128 .f32) (b2 : FVec Ideal S128 .f32) (r : Fin 100000) (q : Fin 128) :
    dense64 (F := Ideal) h a w1 b1 w2 b2 (ix2 r q)
      = max ((∑ l : Fin 128, max ((∑ j : Fin 64, (h (ix2 r j) + a (ix2 r j)) * w1 (ix2 j l)) + b1 (ix1 l)) 0
                * w2 (ix2 l q)) + b2 (ix1 q)) 0 := by
  unfold dense64
  refine (hostReluAffine_at _ none _ _ _ _ _ _ r q).trans ?_
  refine congrArg (fun s => max (s + b2 (ix1 q)) 0) (Finset.sum_congr rfl fun l _ => ?_)
  refine congrArg (· * w2 (ix2 l q)) ?_
  exact hostReluAffine_at _ none _ _ _ _ _ _ r l

/-- The later layers' perceptron (128 input columns) at an entry. -/
theorem dense128_apply (h a : FVec Ideal S100000x128 .f32) (w1 : FVec Ideal S128x128 .f32) (b1 : FVec Ideal S128 .f32)
    (w2 : FVec Ideal S128x128 .f32) (b2 : FVec Ideal S128 .f32) (r : Fin 100000) (q : Fin 128) :
    dense128 (F := Ideal) h a w1 b1 w2 b2 (ix2 r q)
      = max ((∑ l : Fin 128, max ((∑ j : Fin 128, (h (ix2 r j) + a (ix2 r j)) * w1 (ix2 j l)) + b1 (ix1 l)) 0
                * w2 (ix2 l q)) + b2 (ix1 q)) 0 := by
  unfold dense128
  refine (hostReluAffine_at _ none _ _ _ _ _ _ r q).trans ?_
  refine congrArg (fun s => max (s + b2 (ix1 q)) 0) (Finset.sum_congr rfl fun l _ => ?_)
  refine congrArg (· * w2 (ix2 l q)) ?_
  exact hostReluAffine_at _ none _ _ _ _ _ _ r l

end Cert.ReferenceIdeal.HandVal
-- ==== Proof.LibRealEntries.lean ====
/-
  Extended reals that are real numbers.

  The exact arithmetic on the extended reals agrees with the arithmetic of the reals only away from the two
  infinities (`⊤ + ⊥` absorbs, `0 * ⊤ = 0`, multiplication does not distribute). Every law of real arithmetic that a
  certificate needs is therefore stated for entries that are coercions of reals. This file names that property
  and shows that it is preserved by the operations a dense layer and a normalisation are made of: sums,
  differences, products, the maximum with zero, finite sums (with or without a leading zero), division by a
  nonzero real, the reciprocal square root of a positive real, and a matrix product written as a finite sum of
  products.
-/
import Mathlib.Data.EReal.Basic
import Mathlib.Data.EReal.Operations
import Idealize.ShloMosaic.PureOps.Ideal

noncomputable section

open scoped BigOperators

namespace Cert.RealEntries

open Idealize.ShloMosaic

/-- An extended real is *real* when it is the coercion of a real number (it is neither infinity). -/
def IsRealE (x : EReal) : Prop := ∃ r : ℝ, x = (r : EReal)

/-- The coercion of a real is real. -/
theorem isRealE_coe (r : ℝ) : IsRealE (r : EReal) := ⟨r, rfl⟩

/-- Zero is real. -/
theorem isRealE_zero : IsRealE 0 := ⟨0, rfl⟩

/-- One is real. -/
theorem isRealE_one : IsRealE 1 := ⟨1, rfl⟩

/-- An extended real is real exactly when it is neither infinity. -/
theorem isRealE_iff (x : EReal) : IsRealE x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

/-- The sum of two reals is real. -/
theorem IsRealE.add {x y : EReal} (hx : IsRealE x) (hy : IsRealE y) : IsRealE (x + y) := by
  obtain ⟨a, rfl⟩ := hx; obtain ⟨b, rfl⟩ := hy; exact ⟨a + b, (EReal.coe_add a b).symm⟩

/-- The difference of two reals is real. -/
theorem IsRealE.sub {x y : EReal} (hx : IsRealE x) (hy : IsRealE y) : IsRealE (x - y) := by
  obtain ⟨a, rfl⟩ := hx; obtain ⟨b, rfl⟩ := hy; exact ⟨a - b, (EReal.coe_sub a b).symm⟩

/-- The negative of a real is real. -/
theorem IsRealE.neg {x : EReal} (hx : IsRealE x) : IsRealE (-x) := by
  obtain ⟨a, rfl⟩ := hx; exact ⟨-a, (EReal.coe_neg a).symm⟩

/-- The product of two reals is real. -/
theorem IsRealE.mul {x y : EReal} (hx : IsRealE x) (hy : IsRealE y) : IsRealE (x * y) := by
  obtain ⟨a, rfl⟩ := hx; obtain ⟨b, rfl⟩ := hy; exact ⟨a * b, (EReal.coe_mul a b).symm⟩

/-- The maximum of two reals is real (it is one of the two). -/
theorem isRealE_max {x y : EReal} (hx : IsRealE x) (hy : IsRealE y) : IsRealE (max x y) := by
  rcases le_total x y with h | h
  · rw [max_eq_right h]; exact hy
  · rw [max_eq_left h]; exact hx

/-- The maximum of a real with zero (a rectifier) is real. -/
theorem isRealE_max_zero {x : EReal} (hx : IsRealE x) : IsRealE (max x 0) := isRealE_max hx isRealE_zero

/-- The maximum of zero with a real is real. -/
theorem isRealE_zero_max {x : EReal} (hx : IsRealE x) : IsRealE (max 0 x) := isRealE_max isRealE_zero hx

/-- A finite sum of reals is real. -/
theorem isRealE_sum {ι : Type*} (s : Finset ι) (f : ι → EReal) (hf : ∀ i ∈ s, IsRealE (f i)) :
    IsRealE (∑ i ∈ s, f i) := by
  classical
  induction s using Finset.induction_on with
  | empty => simpa using isRealE_zero
  | insert a s ha ih =>
    rw [Finset.sum_insert ha]
    exact (hf a (Finset.mem_insert_self a s)).add (ih fun i hi => hf i (Finset.mem_insert_of_mem hi))

/-- A sum of reals over a whole finite index type is real. -/
theorem isRealE_sum_univ {ι : Type*} [Fintype ι] (f : ι → EReal) (hf : ∀ i, IsRealE (f i)) :
    IsRealE (∑ i, f i) := isRealE_sum _ f fun i _ => hf i

/-- A real accumulator plus a finite sum of reals is real (the form of a reduction with an initial value, and of a
    contraction onto an accumulator). -/
theorem isRealE_add_sum {ι : Type*} [Fintype ι] {a : EReal} (ha : IsRealE a) (f : ι → EReal)
    (hf : ∀ i, IsRealE (f i)) : IsRealE (a + ∑ i, f i) := ha.add (isRealE_sum_univ f hf)

/-- Zero plus a finite sum of reals is real (a reduction from a zero initial value). -/
theorem isRealE_zero_add_sum {ι : Type*} [Fintype ι] (f : ι → EReal) (hf : ∀ i, IsRealE (f i)) :
    IsRealE (0 + ∑ i, f i) := isRealE_add_sum isRealE_zero f hf

/-- The quotient of a real by a nonzero real is real. -/
theorem IsRealE.div_coe {x : EReal} (hx : IsRealE x) {y : ℝ} (hy : y ≠ 0) : IsRealE (Ideal.div x (y : EReal)) := by
  rw [Ideal.div_coe hy]; exact hx.mul (isRealE_coe _)

/-- The quotient of a real by a real that is not zero is real. -/
theorem IsRealE.div {x y : EReal} (hx : IsRealE x) (hy : IsRealE y) (hy0 : y ≠ 0) : IsRealE (Ideal.div x y) := by
  obtain ⟨b, rfl⟩ := hy
  exact hx.div_coe (fun h => hy0 (by rw [h]; rfl))

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is real. -/
theorem isRealE_rsqrt_coe {r : ℝ} (hr : 0 < r) : IsRealE (Ideal.rsqrt (r : EReal)) :=
  ⟨_, rsqrt_coe_pos hr⟩

/-- The reciprocal square root of a real that is positive is real. -/
theorem IsRealE.rsqrt {x : EReal} (hx : IsRealE x) (hpos : 0 < x) : IsRealE (Ideal.rsqrt x) := by
  obtain ⟨r, rfl⟩ := hx
  exact isRealE_rsqrt_coe (EReal.coe_pos.mp hpos)

/-- A matrix product of real matrices, written as a finite sum of products, has real entries. -/
theorem isRealE_matmul {m k n : ℕ} (a : Fin m → Fin k → EReal) (b : Fin k → Fin n → EReal)
    (ha : ∀ i l, IsRealE (a i l)) (hb : ∀ l j, IsRealE (b l j)) (i : Fin m) (j : Fin n) :
    IsRealE (∑ l, a i l * b l j) := isRealE_sum_univ _ fun l => (ha i l).mul (hb l j)

/-- A contraction over any finite index type of real factors, onto a real accumulator, is real. -/
theorem isRealE_acc_contraction {κ : Type*} [Fintype κ] {acc : EReal} (hacc : IsRealE acc) (l r : κ → EReal)
    (hl : ∀ k, IsRealE (l k)) (hr : ∀ k, IsRealE (r k)) : IsRealE (acc + ∑ k, l k * r k) :=
  isRealE_add_sum hacc _ fun k => (hl k).mul (hr k)

/-- A dense layer's entry `max (Σ_l a_l · w_l + β) 0` on real data is real. -/
theorem isRealE_dense_relu {κ : Type*} [Fintype κ] (l r : κ → EReal) (β : EReal)
    (hl : ∀ k, IsRealE (l k)) (hr : ∀ k, IsRealE (r k)) (hβ : IsRealE β) :
    IsRealE (max ((∑ k, l k * r k) + β) 0) :=
  isRealE_max_zero ((isRealE_sum_univ _ fun k => (hl k).mul (hr k)).add hβ)

end Cert.RealEntries

end
-- ==== Proof.LibRowGather.lean ====
/-
  A gather of whole rows, read at an index, at any extents.

  `x[idx]` of a table `x : [N, C]` at a column of row numbers `idx : [E, 1]` is the array `[E, C]` whose row `e` is row
  `idx e` of the table: the start index is read as a signed integer and clamped into `[0, N − 1]`, the slice is one whole
  row, so entry `(e, q)` is `x (clamp (idx e), q)`.  The clamped row number depends on `idx` and `e` only — not on the
  table, nor on its width — which is what lets a map applied to every row of the table be taken before or after the gather.
-/
import Idealize.ShloMosaic.PureOps.Ideal.Laws
import Idealize.ShloMosaic.Lib.ValueIdx
import Idealize.ShloMosaic.Lib.Pipeline.Value

noncomputable section

namespace Cert.RowGather

open Idealize.ShloMosaic Idealize.ShloMosaic.ValueIdx

variable {α : Type}

/-- The row a gather reads for entry `e`: the start index read signed, clamped into `[0, N − 1]`. -/
def rowOf {N E w : ℕ} (hN : 0 < N) (idx : IVec ⟨2, ![E, 1]⟩ w) (e : Fin E) : Fin N :=
  ⟨min (idx (ix2 e (0 : Fin 1))).toInt.toNat (N - 1), by omega⟩

/-- A gather of whole rows (the result's second axis the offset axis, the table's first axis collapsed and named by the
    start index, one index per result row) reads, at `(e, q)`, the table at row `rowOf idx e` and column `q`. -/
theorem rowGather_apply {N C E w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (q : Fin C) :
    Host.gather d x idx (ix2 e q) = x (ix2 (rowOf hN idx e) q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![E, 1]⟩ ⟨2, ![E, C]⟩) = D
  unfold Host.gather
  refine congrArg x (funext fun a => Fin.ext ?_)
  show D.start (ix2 e q) idx a + D.batchCoord (ix2 e q) a + D.offCoord (ix2 e q) a = _
  have hob : D.operandBatchingDims = [] := by subst hD; rfl
  have hcd : D.collapsedSliceDims = [0] := by subst hD; rfl
  have hsm : D.startIndexMap = [0] := by subst hD; rfl
  rw [GatherDims.batchCoord_eq_zero _ _ _ (by rw [hob]; exact List.not_mem_nil), Nat.add_zero]
  match a with
  | ⟨0, _⟩ =>
    rw [GatherDims.offCoord_eq_zero _ _ _ (fun h => ((GatherDims.mem_sKept _ _).mp h).1 (by rw [hcd]; exact List.mem_singleton.mpr rfl)),
      Nat.add_zero]
    unfold GatherDims.start
    have hmem : (⟨0, by decide⟩ : Fin 2) ∈ D.startIndexMap := by rw [hsm]; exact List.mem_singleton.mpr rfl
    rw [dif_pos hmem]
    have hsi : D.siIdx (ix2 e q) ⟨List.idxOf (⟨0, by decide⟩ : Fin 2) D.startIndexMap, List.idxOf_lt_length_iff.2 hmem⟩
        = ix2 e (0 : Fin 1) := by
      subst hD
      funext b; refine Fin.ext ?_
      match b with
      | ⟨0, _⟩ => rfl
      | ⟨1, _⟩ => rfl
    rw [hsi]
    subst hD
    rfl
  | ⟨1, _⟩ =>
    have hst : D.start (ix2 e q) idx ⟨1, by show 1 < 2; omega⟩ = 0 := by
      unfold GatherDims.start
      rw [dif_neg (by rw [hsm]; exact fun h => Nat.one_ne_zero (congrArg Fin.val (List.mem_singleton.mp h)))]
    rw [hst, Nat.zero_add]
    subst hD
    rfl

end Cert.RowGather

end
-- ==== Proof.LibScatterRows.lean ====
/-
  An accumulating scatter of whole rows, at any extents.

  Scattering the rows of `upd : [E, C]` into a table `x : [N, C]` at a column of row numbers `idx : [E, 1]`, adding
  where rows collide, gives at entry `(i, q)` the table's entry plus the sum of `upd (e, q)` over the rows `e` whose
  row number, read as a signed integer, is exactly `i`: the start index is not clamped, so a row whose number is
  negative or at least `N` lands nowhere and contributes to no entry.  The set of rows landing at `i` depends on
  `idx` and `i` only.  The same holds for a vector `x : [N]` and updates `upd : [E]`.  A gather of single elements
  of a vector reads the clamped row number, and the clamp is the identity on a row number already in range, which
  is what relates a gather to the scatter at the same indices.
-/
import Idealize.ShloMosaic.PureOps.Ideal.Laws
import Idealize.ShloMosaic.Lib.ValueIdx
import Idealize.ShloMosaic.Lib.Pipeline.Value
import proofs.«172250_j15616501088594_1_alg».proof.Proof.LibRowGather

noncomputable section

namespace Cert.ScatterRows

open Idealize.ShloMosaic Idealize.ShloMosaic.ValueIdx

/-- The update rows that land at row `i`: those whose row number, read signed, is `i`. -/
def landsAt {N E w : ℕ} (idx : IVec ⟨2, ![E, 1]⟩ w) (i : Fin N) : Finset (Fin E) :=
  Finset.univ.filter (fun e => (idx (ix2 e (0 : Fin 1))).toInt = (i.val : Int))

/-- The window of update `(e, q')` of a row scatter: on the table's first axis it starts at the row number and has
    coordinate `0`; on the second axis it starts at `0` and has coordinate `q'`. -/
theorem start_window {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (q' : Fin C) :
    d.start (ix2 e q') idx ⟨0, Nat.zero_lt_two⟩ = (idx (ix2 e (0 : Fin 1))).toInt ∧
    d.start (ix2 e q') idx ⟨1, Nat.one_lt_two⟩ = 0 ∧
    d.window (ix2 e q') ⟨0, Nat.zero_lt_two⟩ = 0 ∧
    d.window (ix2 e q') ⟨1, Nat.one_lt_two⟩ = q'.val := by
  obtain ⟨uw, iw, sd, iv, wf⟩ := d
  dsimp only at h1 h2 h3 h4
  subst h1 h2 h3 h4
  generalize hD : (⟨[1], [0], [0], 1, wf⟩ : ScatterDims ⟨2, ![N, C]⟩ ⟨2, ![E, 1]⟩ ⟨2, ![E, C]⟩) = D
  have hsd : D.scatterDimsToOperandDims = [0] := by subst hD; rfl
  refine ⟨?_, ?_, ?_, ?_⟩
  · unfold ScatterDims.start
    have hmem : (⟨0, by decide⟩ : Fin 2) ∈ D.scatterDimsToOperandDims := by rw [hsd]; exact List.mem_singleton.mpr rfl
    rw [dif_pos hmem]
    have hsi : D.siIdx (ix2 e q') ⟨List.idxOf (⟨0, by decide⟩ : Fin 2) D.scatterDimsToOperandDims,
        List.idxOf_lt_length_iff.2 hmem⟩ = ix2 e (0 : Fin 1) := by
      subst hD
      funext b; refine Fin.ext ?_
      match b with
      | ⟨0, _⟩ => rfl
      | ⟨1, _⟩ => rfl
    rw [hsi]
  · unfold ScatterDims.start
    rw [dif_neg (by rw [hsd]; exact fun h => Nat.one_ne_zero (congrArg Fin.val (List.mem_singleton.mp h)))]
  · subst hD; rfl
  · subst hD; rfl

/-- Update `(e, q')` of a row scatter lands at entry `(i, q)` exactly when its row number, read signed, is `i` and
    its column is `q`. -/
theorem resultIdx?_eq_some_iff {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (q' : Fin C) (i : Fin N) (q : Fin C) :
    d.resultIdx? (ix2 e q') idx = some (ix2 i q) ↔
      (idx (ix2 e (0 : Fin 1))).toInt = (i.val : Int) ∧ q' = q := by
  obtain ⟨hs0, hs1, hw0, hw1⟩ := start_window d h1 h2 h3 h4 idx e q'
  unfold ScatterDims.resultIdx?
  constructor
  · intro h
    split_ifs at h with hc
    have hf := Option.some.inj h
    have e0 := congrArg Fin.val (congrFun hf ⟨0, Nat.zero_lt_two⟩)
    have e1 := congrArg Fin.val (congrFun hf ⟨1, Nat.one_lt_two⟩)
    have c0 := (hc ⟨0, Nat.zero_lt_two⟩).1
    simp only [hs0, hw0] at e0 c0
    simp only [hs1, hw1] at e1
    refine ⟨?_, Fin.ext ?_⟩
    · change ((idx (ix2 e (0 : Fin 1))).toInt + ((0 : ℕ) : ℤ)).toNat = i.val at e0
      omega
    · change ((0 : ℤ) + ((q'.val : ℕ) : ℤ)).toNat = q.val at e1
      omega
  · rintro ⟨hi, rfl⟩
    have hc : ∀ a : Fin 2, 0 ≤ d.start (ix2 e q') idx a + d.window (ix2 e q') a ∧
        d.start (ix2 e q') idx a + d.window (ix2 e q') a < (⟨2, ![N, C]⟩ : Shape).size a := by
      intro a
      match a with
      | ⟨0, _⟩ =>
        rw [hs0, hw0, hi]
        change (0 : ℤ) ≤ (i.val : ℤ) + ((0 : ℕ) : ℤ) ∧ (i.val : ℤ) + ((0 : ℕ) : ℤ) < (N : ℤ)
        have := i.isLt
        omega
      | ⟨1, _⟩ =>
        rw [hs1, hw1]
        change (0 : ℤ) ≤ 0 + (q'.val : ℤ) ∧ 0 + (q'.val : ℤ) < (C : ℤ)
        have := q'.isLt
        omega
    rw [dif_pos hc]
    refine congrArg some (funext fun a => Fin.ext ?_)
    match a with
    | ⟨0, _⟩ =>
      change (d.start (ix2 e q') idx ⟨0, Nat.zero_lt_two⟩ + d.window (ix2 e q') ⟨0, Nat.zero_lt_two⟩).toNat = i.val
      rw [hs0, hw0, hi]; omega
    | ⟨1, _⟩ =>
      change (d.start (ix2 e q') idx ⟨1, Nat.one_lt_two⟩ + d.window (ix2 e q') ⟨1, Nat.one_lt_two⟩).toNat = q'.val
      rw [hs1, hw1]; omega

/-- An accumulating scatter of whole rows: entry `(i, q)` of the result is the table's entry plus the sum, over the
    update rows landing at `i`, of their entry in column `q`. -/
theorem scatterRows_apply {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (i : Fin N) (q : Fin C) :
    Host.scatterAdd (F := Ideal) d x idx upd (ix2 i q) = x (ix2 i q) + ∑ e ∈ landsAt idx i, upd (ix2 e q) := by
  show x (ix2 i q) + ∑ j ∈ Finset.univ.filter (fun j => d.resultIdx? j idx = some (ix2 i q)), upd j = _
  congr 1
  rw [Finset.sum_filter, sum_idx2]
  simp only [resultIdx?_eq_some_iff d h1 h2 h3 h4]
  unfold landsAt
  rw [Finset.sum_filter]
  refine Finset.sum_congr rfl fun a _ => ?_
  by_cases ha : (idx (ix2 a (0 : Fin 1))).toInt = (i.val : Int)
  · simp only [ha, true_and, if_true]
    rw [Finset.sum_ite_eq' Finset.univ q (fun b => upd (ix2 a b))]
    simp
  · simp only [ha, false_and, if_false]
    exact Finset.sum_const_zero

/-- The clamp into `[0, N − 1]` is the identity on a row number already in range: a row that lands at `i` is read
    back from row `i` by a gather at the same indices. -/
theorem rowOf_of_toInt {N E w : ℕ} (hN : 0 < N) (idx : IVec ⟨2, ![E, 1]⟩ w) (e : Fin E) (i : Fin N)
    (h : (idx (ix2 e (0 : Fin 1))).toInt = (i.val : Int)) : Cert.RowGather.rowOf hN idx e = i := by
  refine Fin.ext ?_
  show min (idx (ix2 e (0 : Fin 1))).toInt.toNat (N - 1) = i.val
  rw [h]
  have := i.isLt
  omega

/-- A row lands at `i` exactly when it is a member of `landsAt idx i`. -/
theorem mem_landsAt {N E w : ℕ} (idx : IVec ⟨2, ![E, 1]⟩ w) (i : Fin N) (e : Fin E) :
    e ∈ landsAt idx i ↔ (idx (ix2 e (0 : Fin 1))).toInt = (i.val : Int) := by
  unfold landsAt
  rw [Finset.mem_filter]
  exact ⟨fun h => h.2, fun h => ⟨Finset.mem_univ _, h⟩⟩

/-! ## The rank-1 forms -/

/-- A rank-1 index set is its one coordinate range … -/
def idxEquiv1 {n : ℕ} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ a : Fin n, f (ix1 a) := by
  rw [← Equiv.sum_comp (idxEquiv1 (n := n)).symm f]
  rfl

/-- The window of update `e` of an element scatter into a vector: it starts at the row number and has coordinate
    `0`. -/
theorem start_window1 {N E w : ℕ}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) :
    d.start (ix1 e) idx ⟨0, Nat.one_pos⟩ = (idx (ix2 e (0 : Fin 1))).toInt ∧
    d.window (ix1 e) ⟨0, Nat.one_pos⟩ = 0 := by
  obtain ⟨uw, iw, sd, iv, wf⟩ := d
  dsimp only at h1 h2 h3 h4
  subst h1 h2 h3 h4
  generalize hD : (⟨[], [0], [0], 1, wf⟩ : ScatterDims ⟨1, ![N]⟩ ⟨2, ![E, 1]⟩ ⟨1, ![E]⟩) = D
  have hsd : D.scatterDimsToOperandDims = [0] := by subst hD; rfl
  refine ⟨?_, ?_⟩
  · unfold ScatterDims.start
    have hmem : (⟨0, Nat.one_pos⟩ : Fin 1) ∈ D.scatterDimsToOperandDims := by rw [hsd]; exact List.mem_singleton.mpr rfl
    rw [dif_pos hmem]
    have hsi : D.siIdx (ix1 e) ⟨List.idxOf (⟨0, Nat.one_pos⟩ : Fin 1) D.scatterDimsToOperandDims,
        List.idxOf_lt_length_iff.2 hmem⟩ = ix2 e (0 : Fin 1) := by
      subst hD
      funext b; refine Fin.ext ?_
      match b with
      | ⟨0, _⟩ => rfl
      | ⟨1, _⟩ => rfl
    rw [hsi]
  · subst hD; rfl

/-- Update `e` of an element scatter into a vector lands at entry `i` exactly when its row number, read signed,
    is `i`. -/
theorem resultIdx?_eq_some_iff1 {N E w : ℕ}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  obtain ⟨hs0, hw0⟩ := start_window1 d h1 h2 h3 h4 idx e
  unfold ScatterDims.resultIdx?
  constructor
  · intro h
    split_ifs at h with hc
    have hf := Option.some.inj h
    have e0 := congrArg Fin.val (congrFun hf ⟨0, Nat.one_pos⟩)
    have c0 := (hc ⟨0, Nat.one_pos⟩).1
    simp only [hs0, hw0] at e0 c0
    change ((idx (ix2 e (0 : Fin 1))).toInt + ((0 : ℕ) : ℤ)).toNat = i.val at e0
    omega
  · intro hi
    have hc : ∀ a : Fin 1, 0 ≤ d.start (ix1 e) idx a + d.window (ix1 e) a ∧
        d.start (ix1 e) idx a + d.window (ix1 e) a < (⟨1, ![N]⟩ : Shape).size a := by
      intro a
      match a with
      | ⟨0, _⟩ =>
        rw [hs0, hw0, hi]
        change (0 : ℤ) ≤ (i.val : ℤ) + ((0 : ℕ) : ℤ) ∧ (i.val : ℤ) + ((0 : ℕ) : ℤ) < (N : ℤ)
        have := i.isLt
        omega
    rw [dif_pos hc]
    refine congrArg some (funext fun a => Fin.ext ?_)
    match a with
    | ⟨0, _⟩ =>
      change (d.start (ix1 e) idx ⟨0, Nat.one_pos⟩ + d.window (ix1 e) ⟨0, Nat.one_pos⟩).toNat = i.val
      rw [hs0, hw0, hi]; omega

/-- An accumulating scatter of single elements into a vector: entry `i` of the result is the vector's entry plus the
    sum of the updates landing at `i`. -/
theorem scatterElems_apply {N E w : ℕ}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ .f32) (idx : IVec ⟨2, ![E, 1]⟩ w) (upd : FVec Ideal ⟨1, ![E]⟩ .f32) (i : Fin N) :
    Host.scatterAdd (F := Ideal) d x idx upd (ix1 i) = x (ix1 i) + ∑ e ∈ landsAt idx i, upd (ix1 e) := by
  show x (ix1 i) + ∑ j ∈ Finset.univ.filter (fun j => d.resultIdx? j idx = some (ix1 i)), upd j = _
  congr 1
  rw [Finset.sum_filter, sum_idx1]
  simp only [resultIdx?_eq_some_iff1 d h1 h2 h3 h4]
  unfold landsAt
  rw [Finset.sum_filter]

/-- A gather of single elements of a vector (the one operand axis collapsed and named by the start index, one index
    per result entry) reads, at `e`, the vector at the clamped row number of `e`. -/
theorem elemGather_apply {α : Type} {N E w : ℕ} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (Cert.RowGather.rowOf hN idx e)) := by
  obtain ⟨od, cd, ob, sb, sm, iv, ss, wf⟩ := d
  dsimp only at h1 h2 h3 h4 h5 h6 h7
  subst h1 h2 h3 h4 h5 h6 h7
  generalize hD : (⟨[], [0], [], [], [0], 1, ![1], wf⟩ : GatherDims ⟨1, ![N]⟩ ⟨2, ![E, 1]⟩ ⟨1, ![E]⟩) = D
  unfold Host.gather
  refine congrArg x (funext fun a => Fin.ext ?_)
  show D.start (ix1 e) idx a + D.batchCoord (ix1 e) a + D.offCoord (ix1 e) a = _
  have hob : D.operandBatchingDims = [] := by subst hD; rfl
  have hcd : D.collapsedSliceDims = [0] := by subst hD; rfl
  have hsm : D.startIndexMap = [0] := by subst hD; rfl
  rw [GatherDims.batchCoord_eq_zero _ _ _ (by rw [hob]; exact List.not_mem_nil), Nat.add_zero]
  match a with
  | ⟨0, _⟩ =>
    rw [GatherDims.offCoord_eq_zero _ _ _
      (fun h => ((GatherDims.mem_sKept _ _).mp h).1 (by rw [hcd]; exact List.mem_singleton.mpr rfl)), Nat.add_zero]
    unfold GatherDims.start
    have hmem : (⟨0, Nat.one_pos⟩ : Fin 1) ∈ D.startIndexMap := by rw [hsm]; exact List.mem_singleton.mpr rfl
    rw [dif_pos hmem]
    have hsi : D.siIdx (ix1 e) ⟨List.idxOf (⟨0, Nat.one_pos⟩ : Fin 1) D.startIndexMap,
        List.idxOf_lt_length_iff.2 hmem⟩ = ix2 e (0 : Fin 1) := by
      subst hD
      funext b; refine Fin.ext ?_
      match b with
      | ⟨0, _⟩ => rfl
      | ⟨1, _⟩ => rfl
    rw [hsi]
    subst hD
    rfl

end Cert.ScatterRows

end
-- ==== Proof.LibGatherScatterReal.lean ====
/-
  Real entries through a gather of rows and an accumulating scatter of rows.

  A gather of whole rows copies entries of the table, so if every entry of the table is real, every entry of the
  gathered array is real. An accumulating scatter of whole rows adds to each entry of the table the finitely many
  update entries that land on it, so if every entry of the table and every update entry is real, every entry of the
  result is real: a finite sum of reals is real. Composed, a segment sum `scatter-add (zeros, dst, table[src])` of a
  real table is real; its entry at `(i, q)` is `0` plus the sum over the edges landing at `i` of the table's entry
  at the edge's (clamped) source row and column `q`.
-/
import proofs.«172250_j15616501088594_1_alg».proof.Proof.LibRealEntries
import proofs.«172250_j15616501088594_1_alg».proof.Proof.LibRowGather
import proofs.«172250_j15616501088594_1_alg».proof.Proof.LibScatterRows

noncomputable section

open scoped BigOperators

namespace Cert.GatherScatterReal

open Idealize.ShloMosaic Idealize.ShloMosaic.ValueIdx Cert.RealEntries

/-- A gather of whole rows of a table with real entries has real entries (at a row and a column). -/
theorem gather_real {N C E w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → EReal) (idx : IVec ⟨2, ![E, 1]⟩ w)
    (hx : ∀ (i : Fin N) (q : Fin C), IsRealE (x (ix2 i q))) (e : Fin E) (q : Fin C) :
    IsRealE (Host.gather d x idx (ix2 e q)) := by
  rw [Cert.RowGather.rowGather_apply hN d h1 h2 h3 h4 h5 h6 h7 x idx e q]
  exact hx _ q

/-- The same at every index of the gathered array. -/
theorem gather_real_idx {N C E w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → EReal) (idx : IVec ⟨2, ![E, 1]⟩ w)
    (hx : ∀ j, IsRealE (x j)) (j : (⟨2, ![E, C]⟩ : Shape).Idx) :
    IsRealE (Host.gather d x idx j) := by
  rw [eq_ix2 j]
  exact gather_real hN d h1 h2 h3 h4 h5 h6 h7 x idx (fun i q => hx (ix2 i q)) (j 0) (j 1)

/-- An accumulating scatter of real update rows into a table with real entries has real entries (at a row and a
    column). -/
theorem scatter_real {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (hx : ∀ (i : Fin N) (q : Fin C), IsRealE (x (ix2 i q)))
    (hu : ∀ (e : Fin E) (q : Fin C), IsRealE (upd (ix2 e q))) (i : Fin N) (q : Fin C) :
    IsRealE (Host.scatterAdd (F := Ideal) d x idx upd (ix2 i q)) := by
  rw [Cert.ScatterRows.scatterRows_apply d h1 h2 h3 h4 x idx upd i q]
  exact (hx i q).add (isRealE_sum _ _ fun e _ => hu e q)

/-- The same at every index of the result. -/
theorem scatter_real_idx {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (hx : ∀ j, IsRealE (x j)) (hu : ∀ j, IsRealE (upd j)) (j : (⟨2, ![N, C]⟩ : Shape).Idx) :
    IsRealE (Host.scatterAdd (F := Ideal) d x idx upd j) := by
  rw [eq_ix2 j]
  exact scatter_real d h1 h2 h3 h4 x idx upd (fun i q => hx (ix2 i q)) (fun e q => hu (ix2 e q)) (j 0) (j 1)

/-- An accumulating scatter into an all-zero table: entry `(i, q)` is zero plus the sum of the update entries in
    column `q` of the rows landing at `i`. -/
theorem scatter_zero_apply {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (hx : ∀ j, x j = 0) (i : Fin N) (q : Fin C) :
    Host.scatterAdd (F := Ideal) d x idx upd (ix2 i q)
      = 0 + ∑ e ∈ Cert.ScatterRows.landsAt idx i, upd (ix2 e q) := by
  rw [Cert.ScatterRows.scatterRows_apply d h1 h2 h3 h4 x idx upd i q, hx]

/-- A segment sum — gather the rows of a table at the source indices, scatter-add them into zeros at the destination
    indices — read at an entry: zero plus the sum, over the edges landing at `i`, of the table's entry at the edge's
    clamped source row. -/
theorem segment_sum_apply {N C E M w w' : ℕ} (hN : 0 < N)
    (dg : GatherDims ⟨2, ![N, C]⟩ ⟨2, ![E, 1]⟩ ⟨2, ![E, C]⟩)
    (g1 : dg.offsetDims = [1]) (g2 : dg.collapsedSliceDims = [0]) (g3 : dg.operandBatchingDims = [])
    (g4 : dg.startIndicesBatchingDims = []) (g5 : dg.startIndexMap = [0]) (g6 : dg.indexVectorDim = 1)
    (g7 : dg.sliceSizes = ![1, C])
    (ds : ScatterDims ⟨2, ![M, C]⟩ ⟨2, ![E, 1]⟩ ⟨2, ![E, C]⟩)
    (s1 : ds.updateWindowDims = [1]) (s2 : ds.insertedWindowDims = [0]) (s3 : ds.scatterDimsToOperandDims = [0])
    (s4 : ds.indexVectorDim = 1)
    (tbl : FVec Ideal ⟨2, ![N, C]⟩ .f32) (src : IVec ⟨2, ![E, 1]⟩ w) (dst : IVec ⟨2, ![E, 1]⟩ w')
    (zero : FVec Ideal ⟨2, ![M, C]⟩ .f32) (hzero : ∀ j, zero j = 0) (i : Fin M) (q : Fin C) :
    Host.scatterAdd (F := Ideal) ds zero dst (Host.gather dg tbl src) (ix2 i q)
      = 0 + ∑ e ∈ Cert.ScatterRows.landsAt dst i, tbl (ix2 (Cert.RowGather.rowOf hN src e) q) := by
  rw [scatter_zero_apply ds s1 s2 s3 s4 zero dst _ hzero i q]
  refine congrArg (fun t => 0 + t) (Finset.sum_congr rfl fun e _ => ?_)
  exact Cert.RowGather.rowGather_apply hN dg g1 g2 g3 g4 g5 g6 g7 tbl src e q

/-- A segment sum of a table with real entries has real entries. -/
theorem segment_sum_real {N C E M w w' : ℕ} (hN : 0 < N)
    (dg : GatherDims ⟨2, ![N, C]⟩ ⟨2, ![E, 1]⟩ ⟨2, ![E, C]⟩)
    (g1 : dg.offsetDims = [1]) (g2 : dg.collapsedSliceDims = [0]) (g3 : dg.operandBatchingDims = [])
    (g4 : dg.startIndicesBatchingDims = []) (g5 : dg.startIndexMap = [0]) (g6 : dg.indexVectorDim = 1)
    (g7 : dg.sliceSizes = ![1, C])
    (ds : ScatterDims ⟨2, ![M, C]⟩ ⟨2, ![E, 1]⟩ ⟨2, ![E, C]⟩)
    (s1 : ds.updateWindowDims = [1]) (s2 : ds.insertedWindowDims = [0]) (s3 : ds.scatterDimsToOperandDims = [0])
    (s4 : ds.indexVectorDim = 1)
    (tbl : FVec Ideal ⟨2, ![N, C]⟩ .f32) (src : IVec ⟨2, ![E, 1]⟩ w) (dst : IVec ⟨2, ![E, 1]⟩ w')
    (zero : FVec Ideal ⟨2, ![M, C]⟩ .f32) (hzero : ∀ j, zero j = 0)
    (ht : ∀ (i : Fin N) (q : Fin C), IsRealE (tbl (ix2 i q))) (i : Fin M) (q : Fin C) :
    IsRealE (Host.scatterAdd (F := Ideal) ds zero dst (Host.gather dg tbl src) (ix2 i q)) := by
  rw [segment_sum_apply hN dg g1 g2 g3 g4 g5 g6 g7 ds s1 s2 s3 s4 tbl src dst zero hzero i q]
  exact isRealE_zero.add (isRealE_sum _ _ fun e _ => ht _ q)

end Cert.GatherScatterReal

end
-- ==== Proof.LibVarTail.lean ====
/-
  The tail of a variance with a degrees-of-freedom correction that is zero.

  A variance routine divides the sum of squared deviations by N − ddof, where ddof is an integer argument
  converted to a float, and returns that quotient only where N − ddof > 0 (a not-a-number filler elsewhere). With
  ddof = 0 and N a positive real, N − 0 = N, the comparison holds, and the routine returns the plain quotient by N.
-/
import Idealize.ShloMosaic.PureOps.Ideal
import Idealize.ShloMosaic.PureOps.Ideal.Laws

noncomputable section

namespace Cert.VarTail

open Idealize.ShloMosaic

/-- Subtracting the real zero from an extended real leaves it unchanged. -/
theorem sub_coe_zero (N : EReal) : N - ((0 : ℝ) : EReal) = N := by
  rw [EReal.coe_zero, sub_zero]

/-- A signed integer word whose value is zero converts to the extended real zero. -/
theorem sitofp_zero {w : ℕ} (b : BitVec w) (hb : b.toInt = 0) : (((b.toInt : ℝ)) : EReal) = 0 := by
  rw [hb, Int.cast_zero, EReal.coe_zero]

/-- The ordered comparison "greater than zero" of a positive extended real answers true. -/
theorem cmp_ogt_zero_of_pos {N : EReal} (hN : 0 < N) : Ideal.cmp .ogt N 0 = 1 := by
  unfold Ideal.cmp
  simp [hN]

/-- The natural number of rows, positive, as an extended real, is positive. -/
theorem coe_nat_pos {n : ℕ} (hn : 0 < n) : (0 : EReal) < ((n : ℝ) : EReal) :=
  EReal.coe_pos.mpr (Nat.cast_pos.mpr hn)

/-- THE TAIL, in the unfolded operations: with the correction word `b` of value zero and `N` a positive extended
    real, selecting on `N − ddof > 0` between the quotient by `N − ddof` and a filler returns the quotient by `N`. -/
theorem tail_eq {w : ℕ} (b : BitVec w) (hb : b.toInt = 0) (N x nan : EReal) (hN : 0 < N) :
    Scalar.select (Ideal.cmp .ogt (N - ((b.toInt : ℝ) : EReal)) 0)
        (Ideal.div x (N - ((b.toInt : ℝ) : EReal))) nan
      = Ideal.div x N := by
  rw [sitofp_zero b hb, sub_zero, cmp_ogt_zero_of_pos hN]
  rfl

/-- The tail with the number of rows: `N` the coerced natural number `n > 0`. -/
theorem tail_eq_nat {w : ℕ} (b : BitVec w) (hb : b.toInt = 0) (n : ℕ) (hn : 0 < n) (N x nan : EReal)
    (hN : N = ((n : ℝ) : EReal)) :
    Scalar.select (Ideal.cmp .ogt (N - ((b.toInt : ℝ) : EReal)) 0)
        (Ideal.div x (N - ((b.toInt : ℝ) : EReal))) nan
      = Ideal.div x N :=
  tail_eq b hb N x nan (hN ▸ coe_nat_pos hn)

/-- The tail in the operations' class spelling (conversion of the signed word, subtraction, ordered comparison
    with the zero word, division by the host's quotient, selection), as the printed routine applies them at one
    index, before any unfolding. -/
theorem tail_eq_ops {w : ℕ} (b : BitVec w) (hb : b.toInt = 0) (N x nan : EReal) (hN : 0 < N) :
    Scalar.select
        (FloatOps.cmpf (F := Ideal) (φ := .f32) .ogt
          (FloatOps.subf (F := Ideal) (φ := .f32) N (FloatOps.sitofp (F := Ideal) .f32 b))
          (FloatOps.ofBits (F := Ideal) .f32 0x00000000#32))
        (FloatOps.hostDivf (F := Ideal) (φ := .f32) x
          (FloatOps.subf (F := Ideal) (φ := .f32) N (FloatOps.sitofp (F := Ideal) .f32 b))) nan
      = Ideal.div x N := by
  rw [Ideal.cmpf_def, Ideal.ofBits_def, Ideal.ofBits_zero_f32, Ideal.hostDivf_def, Ideal.subf_def]
  exact tail_eq b hb N x nan hN

end Cert.VarTail

end
-- ==== Proof.LibF32Literals.lean ====
/-
  Three single-precision literals as extended reals.

  A single-precision word with sign 0, biased exponent E (neither 0 nor 255) and fraction T denotes
  (2²³ + T) · 2^(E − 127 − 23). The word 0x47C35000 has E = 143 and T = 0x435000 = 4411392, so it denotes
  12800000 · 2⁻⁷ = 100000. The word 0x3727C5AC has E = 110 and T = 0x27C5AC = 2606508, so it denotes
  10995116 · 2⁻⁴⁰, a positive real (the single-precision neighbour of 10⁻⁵). The all-zero word denotes 0.
-/
import Idealize.ShloMosaic.PureOps.Ideal

noncomputable section

namespace Cert.F32Literals

open Idealize.ShloMosaic

/-- The all-zero single-precision word denotes zero. -/
theorem ofBits_zero : Ideal.ofBits .f32 0x00000000#32 = 0 := by simp [Ideal.ofBits, Ideal.ieee]

/-- The single-precision word 0x47C35000 denotes one hundred thousand. -/
theorem ofBits_100000 : Ideal.ofBits .f32 0x47C35000#32 = ((100000 : ℝ) : EReal) := by
  simp [Ideal.ofBits, Ideal.ieee, -EReal.coe_mul]; norm_num

/-- The single-precision word 0x47C35000 denotes the natural number 100000, as a real. -/
theorem ofBits_100000_nat : Ideal.ofBits .f32 0x47C35000#32 = (((100000 : ℕ) : ℝ) : EReal) := by
  rw [ofBits_100000]; norm_num

/-- The single-precision word 0x3727C5AC denotes the dyadic rational 10995116 · 2⁻⁴⁰. -/
theorem ofBits_eps : Ideal.ofBits .f32 0x3727C5AC#32 = (((10995116 : ℝ) / 2 ^ 40 : ℝ) : EReal) := by
  simp [Ideal.ofBits, Ideal.ieee, -EReal.coe_mul]; norm_num

/-- The single-precision word 0x3727C5AC denotes a positive real. -/
theorem ofBits_eps_pos : ∃ e : ℝ, 0 < e ∧ Ideal.ofBits .f32 0x3727C5AC#32 = (e : EReal) :=
  ⟨(10995116 : ℝ) / 2 ^ 40, by positivity, ofBits_eps⟩

end Cert.F32Literals

end
-- ==== Proof.Ref.BnAt.lean ====
/-
  The reference's batch normalisation with activation, read at an entry.

  For an array z of 100000 rows and 128 columns the stage computes, per column q, the mean
  mu q = (0 + Σ_i z (i, q)) / N and the variance vR q = (0 + Σ_i (z (i, q) − mu q)²) / N — the variance routine
  recomputes the mean, subtracts a degrees-of-freedom correction that is the integer zero from N, and keeps the
  quotient where N − 0 > 0, which holds —, and returns max (((z − mu) · rsqrt (vR + ε)) · g + β) 0 at every entry, the
  column vectors broadcast over the rows. N is the single-precision literal 100000 and ε the literal nearest 10⁻⁵.
-/
import proofs.«172250_j15616501088594_1_alg».proof.Proof.Ref.Stages
import proofs.«172250_j15616501088594_1_alg».proof.Proof.LibVarTail
import proofs.«172250_j15616501088594_1_alg».proof.Proof.LibF32Literals
import Idealize.ShloMosaic.Lib.IdealHost
import Idealize.ShloMosaic.Lib.ValueLayout
import Idealize.ShloMosaic.Lib.KernelVsHost
import Idealize.ShloMosaic.Lib.ValueIdx

noncomputable section

open scoped BigOperators

namespace Cert.ReferenceIdeal.HandVal

open Cert.ReferenceIdeal Cert.ReferenceIdeal.Gen Cert.ReferenceIdeal.HandRun
open Idealize.ShloMosaic Idealize.ShloMosaic.ValueIdx

/-- The number of rows, as the programs write it: the single-precision literal 100000. -/
abbrev nLit : EReal := Ideal.ofBits .f32 0x47C35000#32

/-- The normalisation's ε, as the programs write it: the single-precision literal nearest 10⁻⁵. -/
abbrev epsLit : EReal := Ideal.ofBits .f32 0x3727C5AC#32

/-- The literal number of rows is positive. -/
theorem nLit_pos : (0 : EReal) < nLit := by
  show (0 : EReal) < Ideal.ofBits .f32 0x47C35000#32
  rw [Cert.F32Literals.ofBits_100000]
  exact EReal.coe_pos.mpr (by norm_num)

/-- The host's quotient of two arrays, at an index. -/
theorem hostDivf_apply {s : Shape} (a b : FVec Ideal s .f32) (i : s.Idx) :
    Host.divf (F := Ideal) a b i = Ideal.div (a i) (b i) := rfl

/-- The host's reciprocal square root of an array, at an index. -/
theorem hostRsqrt_apply {s : Shape} (a : FVec Ideal s .f32) (i : s.Idx) :
    Host.rsqrt (F := Ideal) a i = Ideal.rsqrt (a i) := rfl

/-- Summing over the rows keeps the column axis. -/
theorem red0 : S100000x128.Reduces [0] S128 := by decide

/-- The host's sum over the rows from a zero initial value, at column `q`: zero plus the sum of the column. -/
theorem colSum_apply (z : S100000x128.Idx → EReal) (q : Fin 128) :
    Host.reduceAdd (F := Ideal) (φ := .f32) z (constant (F := Ideal) S_ .f32 0x00000000#32)
        reducesTo_S100000x128_S128_d0 h_S_ (ix1 q)
      = 0 + ∑ i : Fin 100000, z (ix2 i q) := by
  rw [hostReduceAdd_apply, Ideal.hostReduceAdd_single reducesTo_S100000x128_S128_d0 red0, constant_apply,
    Ideal.ofBits_zero_f32]
  refine congrArg (fun t => (0 : EReal) + t) ?_
  refine Finset.sum_congr rfl (fun k _ => congrArg z ?_)
  funext c
  match c with
  | ⟨0, _⟩ => rfl
  | ⟨1, _⟩ => rfl

/-- A 128-vector laid out as a one-row table reads, at `(0, q)`, the vector at `q`. -/
theorem bcastRow_apply {α : Type} (v : S128.Idx → α) (u : Fin 1) (q : Fin 128) :
    broadcastInDim S1x128 ![1] bcast_S128_S1x128_1 v (ix2 u q) = v (ix1 q) := by
  refine broadcastInDim_apply ![1] bcast_S128_S1x128_1 v (ix2 u q) (ix1 q) ?_
  intro a
  match a with
  | ⟨0, _⟩ => rfl

/-- A one-row table copied down the 100000 rows reads, at `(r, q)`, the row at `(0, q)`. -/
theorem bcastRows_apply {α : Type} (y : S1x128.Idx → α) (r : Fin 100000) (q : Fin 128) :
    broadcastInDim S100000x128 ![0, 1] bcast_S1x128_S100000x128_0_1 y (ix2 r q) = y (ix2 (0 : Fin 1) q) :=
  broadcastInDim_oneRow_apply bcast_S1x128_S100000x128_0_1 y r q

/-- A 128-vector copied down the rows (through a one-row table) reads, at `(r, q)`, the vector at `q`. -/
theorem bcastVecRows_apply {α : Type} (v : S128.Idx → α) (r : Fin 100000) (q : Fin 128) :
    broadcastInDim S100000x128 ![0, 1] bcast_S1x128_S100000x128_0_1
      (broadcastInDim S1x128 ![1] bcast_S128_S1x128_1 v) (ix2 r q) = v (ix1 q) :=
  (bcastRows_apply _ r q).trans (bcastRow_apply v 0 q)

/-- The column mean of the reference, at column `q`. -/
def muR (z : S100000x128.Idx → EReal) (q : Fin 128) : EReal :=
  Ideal.div (0 + ∑ i : Fin 100000, z (ix2 i q)) nLit

/-- The column variance of the reference, at column `q`: the mean of the squared deviations from the mean. -/
def varR (z : S100000x128.Idx → EReal) (q : Fin 128) : EReal :=
  Ideal.div (0 + ∑ i : Fin 100000, (z (ix2 i q) - muR z q) * (z (ix2 i q) - muR z q)) nLit

/-- The stage's column means, at column `q`. -/
theorem bnMean_apply (z : S100000x128.Idx → EReal) (q : Fin 128) :
    bnMean (F := Ideal) z (ix1 q) = muR z q := by
  unfold bnMean muR
  refine (hostDivf_apply _ _ _).trans ?_
  refine congrArg₂ Ideal.div (colSum_apply z q) ?_
  rw [broadcastInDim_scalar_apply, constant_apply]

/-- The mean the variance routine recomputes and copies down the rows, at `(i, q)`. -/
theorem meanRows_apply (z : S100000x128.Idx → EReal) (i : Fin 100000) (q : Fin 128) :
    broadcastInDim S100000x128 ![0, 1] bcast_S1x128_S100000x128_0_1
        (Host.divf (F := Ideal) (φ := .f32)
          (broadcastInDim S1x128 ![1] bcast_S128_S1x128_1
            (Host.reduceAdd (F := Ideal) (φ := .f32) z (constant (F := Ideal) S_ .f32 0x00000000#32)
              reducesTo_S100000x128_S128_d0 h_S_))
          (broadcastInDim S1x128 ![] bcast_S_S1x128 (constant (F := Ideal) S_ .f32 0x47C35000#32))) (ix2 i q)
      = muR z q := by
  rw [bcastRows_apply]
  unfold muR
  refine (hostDivf_apply _ _ _).trans ?_
  refine congrArg₂ Ideal.div ((bcastRow_apply _ 0 q).trans (colSum_apply z q)) ?_
  rw [broadcastInDim_scalar_apply, constant_apply]

/-- The stage's column variances, at column `q`. -/
theorem bnVar_apply (z : S100000x128.Idx → EReal) (q : Fin 128) :
    bnVar (F := Ideal) z (ix1 q) = varR z q := by
  unfold bnVar
  show Scalar.select
      (FloatOps.cmpf (F := Ideal) (φ := .f32) .ogt
        (FloatOps.subf (F := Ideal) (φ := .f32) nLit (FloatOps.sitofp (F := Ideal) .f32 (0#32 : BitVec 32)))
        (FloatOps.ofBits (F := Ideal) .f32 0x00000000#32))
      (FloatOps.hostDivf (F := Ideal) (φ := .f32)
        (Host.reduceAdd (F := Ideal) (φ := .f32) _ (constant (F := Ideal) S_ .f32 0x00000000#32)
          reducesTo_S100000x128_S128_d0 h_S_ (ix1 q))
        (FloatOps.subf (F := Ideal) (φ := .f32) nLit (FloatOps.sitofp (F := Ideal) .f32 (0#32 : BitVec 32))))
      _ = _
  rw [Cert.VarTail.tail_eq_ops (0#32 : BitVec 32) (by decide) nLit _ _ nLit_pos, colSum_apply]
  unfold varR
  refine congrArg (fun t => Ideal.div ((0 : EReal) + t) nLit) (Finset.sum_congr rfl fun i _ => ?_)
  refine (mulf_apply _ _ _).trans ?_
  rw [subf_apply, meanRows_apply]

/-- The normalisation at an entry, from given column means and variances. -/
theorem bnApply_apply (z : S100000x128.Idx → EReal) (mu var g be : S128.Idx → EReal) (r : Fin 100000) (q : Fin 128) :
    bnApply (F := Ideal) z mu var g be (ix2 r q)
      = max (((z (ix2 r q) - mu (ix1 q)) * Ideal.rsqrt (var (ix1 q) + epsLit)) * g (ix1 q) + be (ix1 q)) 0 := by
  unfold bnApply
  refine (maximumf_apply _ _ _).trans ?_
  refine congrArg₂ max ?_ ?_
  · refine (addf_apply _ _ _).trans ?_
    refine congrArg₂ (· + ·) ?_ (bcastVecRows_apply be r q)
    refine (mulf_apply _ _ _).trans ?_
    refine congrArg₂ (· * ·) ?_ (bcastVecRows_apply g r q)
    refine (mulf_apply _ _ _).trans ?_
    refine congrArg₂ (· * ·) ?_ ?_
    · refine (subf_apply _ _ _).trans ?_
      exact congrArg (fun t => z (ix2 r q) - t) (bcastVecRows_apply mu r q)
    · refine (bcastVecRows_apply _ r q).trans ?_
      refine (hostRsqrt_apply _ _).trans ?_
      refine congrArg Ideal.rsqrt ?_
      refine (addf_apply _ _ _).trans ?_
      refine congrArg (fun t => var (ix1 q) + t) ?_
      rw [broadcastInDim_scalar_apply, constant_apply]
  · rw [broadcastInDim_scalar_apply, constant_apply, Ideal.ofBits_zero_f32]

/-- THE STAGE at an entry: the reference's batch normalisation with activation of `z` is, at row `r` and column
    `q`, the centred entry scaled by the reciprocal square root of the column's variance plus ε, times the gain,
    plus the offset, rectified. -/
theorem bn_apply (z : S100000x128.Idx → EReal) (g be : S128.Idx → EReal) (r : Fin 100000) (q : Fin 128) :
    bn (F := Ideal) z g be (ix2 r q)
      = max (((z (ix2 r q) - muR z q) * Ideal.rsqrt (varR z q + epsLit)) * g (ix1 q) + be (ix1 q)) 0 := by
  unfold bn
  rw [bnApply_apply, bnMean_apply, bnVar_apply]

end Cert.ReferenceIdeal.HandVal

end
-- ==== Proof.KI.Stages.lean ====
/-
  The host side of the graph network, one definition per stage: what the operations between two kernel regions
  compute, composed into one term of the arrays they read. A layer's stretch before its first region forms the
  neighbour sum (gather the rows of the feature table at the edges' sources, add them into the rows named by the
  edges' destinations), rounds the two weight matrices to the narrow float format and lays the two bias vectors out
  as rows; the stretch between a layer's two regions turns the column sums `s` and the column sums of squares `ss`
  the first region leaves into the batch normalisation's per-column scale `g * rsqrt (ss/N - (s/N)² + eps)` and shift
  `be - (s/N) * scale`; the last stretch adds the rows of the final table into their graphs' rows and applies the
  read-out `p · w + c`.
-/
import proofs.«172250_j15616501088594_1_alg».proof.Proof.Gen.KernelIdeal
import Idealize.ShloMosaic.Lib.StableHlo.Run

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

set_option quotPrecheck false

variable {F : FTy → Type} [FloatOps F]

local notation:max "𝔸[" s ", " e "]" => BufTy.Contents (Elt F) (BufTy.mk s e)

/-- The edges' source node ids: row 0 of the edge array, as a vector. -/
def srcK (ei : 𝔸[S2x1600000, .i32]) : 𝔸[S1600000, .i32] :=
  shapeCast S1600000 (extractStridedSlice S1x1600000 ![0, 0] ei slices_S2x1600000_S1x1600000_0_0 : 𝔸[S1x1600000, .i32]) shapeCasts_S1x1600000_S1600000

/-- The edges' destination node ids: row 1 of the edge array, as a vector. -/
def dstK (ei : 𝔸[S2x1600000, .i32]) : 𝔸[S1600000, .i32] :=
  shapeCast S1600000 (extractStridedSlice S1x1600000 ![1, 0] ei slices_S2x1600000_S1x1600000_1_0 : 𝔸[S1x1600000, .i32]) shapeCasts_S1x1600000_S1600000

/-- The row index a source id names: a negative id wrapped by the table's height, as a one-column table. -/
def wrapK (s : 𝔸[S1600000, .i32]) : 𝔸[S1600000x1, .i32] :=
  broadcastInDim S1600000x1 ![0] bcast_S1600000_S1600000x1_0
    (select (cmpi .slt s (broadcastInDim S1600000 ![] bcast_S_S1600000 (constantI S_ 32 0#32 : 𝔸[S_, .i32]) : 𝔸[S1600000, .i32]) : 𝔸[S1600000, .i1])
      (addi s (broadcastInDim S1600000 ![] bcast_S_S1600000 (constantI S_ 32 100000#32 : 𝔸[S_, .i32]) : 𝔸[S1600000, .i32]) : 𝔸[S1600000, .i32]) s : 𝔸[S1600000, .i32])

/-- Neighbour sum of a 64-wide feature table: gather the rows `h[s[e]]`, then add row `e` of the gathered table
    into row `d[e]` of a zero table. -/
def aggK64 (h : 𝔸[S100000x64, .f32]) (s d : 𝔸[S1600000, .i32]) : 𝔸[S100000x64, .f32] :=
  Host.scatterAdd scatter_S100000x64_S1600000x1_S1600000x64_1_0_0_1
    (broadcastInDim S100000x64 ![] bcast_S_S100000x64 (constant S_ .f32 0x00000000#32 : 𝔸[S_, .f32]) : 𝔸[S100000x64, .f32])
    (broadcastInDim S1600000x1 ![0] bcast_S1600000_S1600000x1_0 d : 𝔸[S1600000x1, .i32])
    (Host.gather gather_S100000x64_S1600000x1_S1600000x64_1_0_n_n_0_1_164 h (wrapK s) : 𝔸[S1600000x64, .f32])

/-- Neighbour sum of a 128-wide feature table: as `aggK64` at width 128. -/
def aggK128 (h : 𝔸[S100000x128, .f32]) (s d : 𝔸[S1600000, .i32]) : 𝔸[S100000x128, .f32] :=
  Host.scatterAdd scatter_S100000x128_S1600000x1_S1600000x128_1_0_0_1
    (broadcastInDim S100000x128 ![] bcast_S_S100000x128 (constant S_ .f32 0x00000000#32 : 𝔸[S_, .f32]) : 𝔸[S100000x128, .f32])
    (broadcastInDim S1600000x1 ![0] bcast_S1600000_S1600000x1_0 d : 𝔸[S1600000x1, .i32])
    (Host.gather gather_S100000x128_S1600000x1_S1600000x128_1_0_n_n_0_1_1128 h (wrapK s) : 𝔸[S1600000x128, .f32])

/-- A 64×128 weight matrix rounded to the narrow float format. -/
def castK64 (w : 𝔸[S64x128, .f32]) : 𝔸[S64x128, .bf16] := truncf .bf16 w bitsLt_bf16_f32

/-- A 128×128 weight matrix rounded to the narrow float format. -/
def castK128 (w : 𝔸[S128x128, .f32]) : 𝔸[S128x128, .bf16] := truncf .bf16 w bitsLt_bf16_f32

/-- A 128-vector laid out as a one-row table. -/
def rowK (b : 𝔸[S128, .f32]) : 𝔸[S1x128, .f32] := shapeCast S1x128 b shapeCasts_S128_S1x128

/-- A one-row table of column sums divided by the number of rows, 100000: the column means. -/
def meanK (s : 𝔸[S1x128, .f32]) : 𝔸[S128, .f32] :=
  Host.divf (shapeCast S128 s shapeCasts_S1x128_S128 : 𝔸[S128, .f32])
    (broadcastInDim S128 ![] bcast_S_S128 (constant S_ .f32 0x47C35000#32 : 𝔸[S_, .f32]) : 𝔸[S128, .f32])

/-- The column variances from the column sums `s` and the column sums of squares `ss`: the mean of the squares
    less the square of the mean. -/
def varK (s ss : 𝔸[S1x128, .f32]) : 𝔸[S128, .f32] := subf (meanK ss) (mulf (meanK s) (meanK s))

/-- The normalisation's per-column factor `g * rsqrt (var + eps)`, as a vector. -/
def scaleVecK (s ss : 𝔸[S1x128, .f32]) (g : 𝔸[S128, .f32]) : 𝔸[S128, .f32] :=
  mulf g (Host.rsqrt (addf (varK s ss)
    (broadcastInDim S128 ![] bcast_S_S128 (constant S_ .f32 0x3727C5AC#32 : 𝔸[S_, .f32]) : 𝔸[S128, .f32]) : 𝔸[S128, .f32]) : 𝔸[S128, .f32])

/-- The normalisation's per-column offset `be - mean * scale`, as a vector. -/
def shiftVecK (s ss : 𝔸[S1x128, .f32]) (g be : 𝔸[S128, .f32]) : 𝔸[S128, .f32] :=
  subf be (mulf (meanK s) (scaleVecK s ss g))

/-- The per-column factor as the one-row table the normalising region reads. -/
def scaleK (s ss : 𝔸[S1x128, .f32]) (g : 𝔸[S128, .f32]) : 𝔸[S1x128, .f32] := rowK (scaleVecK s ss g)

/-- The per-column offset as the one-row table the normalising region reads. -/
def shiftK (s ss : 𝔸[S1x128, .f32]) (g be : 𝔸[S128, .f32]) : 𝔸[S1x128, .f32] := rowK (shiftVecK s ss g be)

/-- Slice 0 of a stack of two 128×128 matrices. -/
def mat0K (x : 𝔸[S2x128x128, .f32]) : 𝔸[S128x128, .f32] :=
  shapeCast S128x128 (extractStridedSlice S1x128x128 ![0, 0, 0] x slices_S2x128x128_S1x128x128_0_0_0 : 𝔸[S1x128x128, .f32]) shapeCasts_S1x128x128_S128x128

/-- Slice 1 of a stack of two 128×128 matrices. -/
def mat1K (x : 𝔸[S2x128x128, .f32]) : 𝔸[S128x128, .f32] :=
  shapeCast S128x128 (extractStridedSlice S1x128x128 ![1, 0, 0] x slices_S2x128x128_S1x128x128_1_0_0 : 𝔸[S1x128x128, .f32]) shapeCasts_S1x128x128_S128x128

/-- Row 0 of a 2×128 table, as a vector. -/
def vec0K (x : 𝔸[S2x128, .f32]) : 𝔸[S128, .f32] :=
  shapeCast S128 (extractStridedSlice S1x128 ![0, 0] x slices_S2x128_S1x128_0_0 : 𝔸[S1x128, .f32]) shapeCasts_S1x128_S128

/-- Row 1 of a 2×128 table, as a vector. -/
def vec1K (x : 𝔸[S2x128, .f32]) : 𝔸[S128, .f32] :=
  shapeCast S128 (extractStridedSlice S1x128 ![1, 0] x slices_S2x128_S1x128_1_0 : 𝔸[S1x128, .f32]) shapeCasts_S1x128_S128

/-- Per-graph sums: row `n` of `h` added into row `b[n]` of a zero 256×128 table. -/
def poolK (h : 𝔸[S100000x128, .f32]) (b : 𝔸[S100000, .i32]) : 𝔸[S256x128, .f32] :=
  Host.scatterAdd scatter_S256x128_S100000x1_S100000x128_1_0_0_1
    (broadcastInDim S256x128 ![] bcast_S_S256x128 (constant S_ .f32 0x00000000#32 : 𝔸[S_, .f32]) : 𝔸[S256x128, .f32])
    (broadcastInDim S100000x1 ![0] bcast_S100000_S100000x1_0 b : 𝔸[S100000x1, .i32]) h

/-- The read-out: `p · w + c`, `c` broadcast over the 256 rows. -/
def outpK (p : 𝔸[S256x128, .f32]) (w : 𝔸[S128x1, .f32]) (c : 𝔸[S1, .f32]) : 𝔸[S256x1, .f32] :=
  addf (Host.dotGeneral dot_S256x128_S128x1_S256x1_1_0_0_1_n_n none p w : 𝔸[S256x1, .f32])
    (broadcastInDim S256x1 ![0, 1] bcast_S1x1_S256x1_0_1 (broadcastInDim S1x1 ![1] bcast_S1_S1x1_1 c : 𝔸[S1x1, .f32]) : 𝔸[S256x1, .f32])

end Cert.KernelIdeal.HandVal

end
-- ==== Proof.KI.Val1.lean ====
import proofs.«172250_j15616501088594_1_alg».proof.Proof.KI.Reg1
import Idealize.ShloMosaic.Lib.Pipeline.Value
import Idealize.ShloMosaic.Lib.ValueLayout
import Idealize.ShloMosaic.Lib.IdealHost

/-!
# The normalise-and-clamp region 1: its output array as one function of its three input arrays

Read over the extended reals. The region's 50 points write the 50 row blocks of the `100000 × 128` output; block `t`
is rows `2000·t … 2000·t + 1999`, and the row-block that covers row `r` is `r / 2000`. At every index `(r, q)` the
array ends at `max (z (r, q) · scale (0, q) + shift (0, q)) 0`.
-/

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both offsets of a whole-buffer rectangle are zero. -/
theorem offsets_zero1 : (![0, 0] : Fin 2 → Nat) = fun _ => 0 := funext fun a => by fin_cases a <;> rfl

/-- The region's result as one function of its three input arrays: every entry scaled and shifted by its column's
    entries of the two rows, then clamped below at zero. -/
def clampAffine1 (z : S100000x128.Idx → Elt Ideal .f32) (scale shift : S1x128.Idx → Elt Ideal .f32) :
    S100000x128.Idx → Elt Ideal .f32 :=
  fun i => max (z i * scale (ix2 (0 : Fin 1) (i 1)) + shift (ix2 (0 : Fin 1) (i 1))) 0

/-- The same at explicit coordinates. -/
theorem clampAffine1_apply (z : S100000x128.Idx → Elt Ideal .f32) (scale shift : S1x128.Idx → Elt Ideal .f32)
    (r : Fin 100000) (q : Fin 128) :
    clampAffine1 z scale shift (ix2 r q) = max (z (ix2 r q) * scale (ix2 (0 : Fin 1) q) + shift (ix2 (0 : Fin 1) q)) 0 := rfl

/-- The body's stored value at an entry of the block: the block's entry times the first row's entry of its column,
    plus the second row's, clamped below at zero. -/
theorem stored1_apply (x : Vec Ideal S2000x128 .f32) (s b : Vec Ideal S1x128 .f32) (p : Fin 2000) (q : Fin 128) :
    k1_pay1 x s b (ix2 p q) = max (x (ix2 p q) * s (ix2 (0 : Fin 1) q) + b (ix2 (0 : Fin 1) q)) 0 := by
  unfold k1_pay1
  simp only [shapeCast_self]
  refine (maximumf_apply _ _ _).trans ?_
  refine congrArg₂ max ?_ Ideal.ofBits_zero_f32
  refine (addf_apply _ _ _).trans ?_
  refine congrArg₂ (· + ·) ?_ (broadcastTo_1b_ab_apply b _ p q)
  refine (mulf_apply _ _ _).trans ?_
  exact congrArg₂ (· * ·) rfl (broadcastTo_1b_ab_apply s _ p q)

/-- The printed index maps over the grid: the block of `z` and the output's block move together, one row block per
    point; the two rows never move. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `clampAffine1` of the three arrays as the region finds them. -/
theorem flushed1_eq (c : Dev nD) (t : Fin cfg1.N) :
    (dat1 V c).flushed 3 t
      = ((cfg1.win 3).blk t).view.read (Elt Ideal) (clampAffine1 (V c main_v18_0) (V c main_v33) (V c main_v34)) := by
  show (cfg1.win 3).cut (grid1.coords t) ((dat1 V c).after 3 t) = _
  rw [after1_3]
  unfold normed1
  rw [View.canon_unit_zero offsets_zero1]
  simp only [View.ld_unit_zero (S := S2000x128) offsets_zero1, View.ld_unit_zero (S := S1x128) offsets_zero1]
  obtain ⟨e00, e01, e10, e11, e20, e21, e30, e31⟩ := index_facts1 t
  funext j
  obtain ⟨p, q, rfl⟩ : ∃ (p : Fin 2000) (q : Fin 128), j = ix2 p q := ⟨j 0, j 1, eq_ix2 j⟩
  show k1_pay1 (block1 V c 0 t) (block1 V c 1 t) (block1 V c 2 t) (ix2 p q)
    = clampAffine1 (V c main_v18_0) (V c main_v33) (V c main_v34) (((cfg1.win 3).blk t).view.emb (ix2 p q))
  rw [stored1_apply]
  have hz : block1 V c 0 t (ix2 p q) = V c main_v18_0 (((cfg1.win 3).blk t).view.emb (ix2 p q)) := by
    show V c main_v18_0 (((cfg1.win 0).blk t).view.emb (ix2 p q)) = _
    refine congrArg (V c main_v18_0) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * q.val = win1_3.index t (1 : Fin 2) * 128 + 1 * q.val; omega
  have hcol : ((((cfg1.win 3).blk t).view.emb (ix2 p q)) 1 : Fin 128) = q := by
    apply Fin.ext
    show win1_3.index t (1 : Fin 2) * 128 + 1 * q.val = q.val; omega
  have hs : block1 V c 1 t (ix2 (0 : Fin 1) q) = V c main_v33 (ix2 (0 : Fin 1) q) := by
    show V c main_v33 (((cfg1.win 1).blk t).view.emb (ix2 (0 : Fin 1) q)) = _
    refine congrArg (V c main_v33) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  have hb : block1 V c 2 t (ix2 (0 : Fin 1) q) = V c main_v34 (ix2 (0 : Fin 1) q) := by
    show V c main_v34 (((cfg1.win 2).blk t).view.emb (ix2 (0 : Fin 1) q)) = _
    refine congrArg (V c main_v34) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  rw [hz, hs, hb]
  unfold clampAffine1
  show _ = max (_ * V c main_v33 (ix2 (0 : Fin 1) ((((cfg1.win 3).blk t).view.emb (ix2 p q)) 1 : Fin 128)) + V c main_v34 (ix2 (0 : Fin 1) ((((cfg1.win 3).blk t).view.emb (ix2 p q)) 1 : Fin 128))) 0
  rw [hcol]

/-- An index of the output array is in point `t`'s block iff each coordinate is in the block's range on its axis. -/
theorem mem_block1 (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v35).slice (win1_3.rect t)).set ↔ _
  rw [View.set_slice_whole, Rect.mem_set_unit]
  exact Iff.rfl

/-- Every index of the output array is in the block of the point that its row, divided by 2000, names, and that point
    writes its block back. -/
theorem covered1 (i : S100000x128.Idx) :
    ∃ t : Fin cfg1.N, (cfg1.win 3).flush t = true ∧ i ∈ ((cfg1.win 3).blk t).view.set := by
  have hi0 : (i 0).val < 100000 := idx2_lt0 i
  have hi1 : (i 1).val < 128 := idx2_lt1 i
  obtain ⟨t, ht⟩ : ∃ t : Fin cfg1.N, t.val = (i 0).val / 2000 :=
    ⟨⟨(i 0).val / 2000, by rw [show cfg1.N = 50 from N_1]; omega⟩, rfl⟩
  obtain ⟨e00, e01, e10, e11, e20, e21, e30, e31⟩ := index_facts1 t
  refine ⟨t, flush1_3 t, ?_⟩
  rw [mem_block1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The output array after the region: `clampAffine1` of the three input arrays as the region finds them. -/
theorem final1 (c : Dev nD) :
    (dat1 V c).arrAt 3 cfg1.N = clampAffine1 (V c main_v18_0) (V c main_v33) (V c main_v34) :=
  (dat1 V c).arrAt_eq_of_cover 3 _ (fun t _ => flushed1_eq V c t) covered1

/-- The same at an entry; the right-hand side is spelt out by the function's own entry lemma above. -/
theorem final1_apply (c : Dev nD) (r : Fin 100000) (q : Fin 128) :
    (dat1 V c).arrAt 3 cfg1.N (ix2 r q)
      = clampAffine1 (V c main_v18_0) (V c main_v33) (V c main_v34) (ix2 r q) :=
  congrFun (final1 V c) (ix2 r q)

end Cert.KernelIdeal.HandVal
-- ==== Proof.KI.BnAt.lean ====
/-
  The kernel's normalisation, read at an entry.

  Between a layer's two regions the host turns the one-row tables of column sums `s` and column sums of squares `ss`
  into a per-column scale g · rsqrt (ss/N − (s/N)·(s/N) + ε) and shift β − (s/N) · scale, laid out as one-row tables; the
  second region multiplies every entry by its column's scale, adds its column's shift and rectifies. N is the
  single-precision literal 100000 and ε the literal nearest 10⁻⁵.
-/
import proofs.«172250_j15616501088594_1_alg».proof.Proof.KI.Stages
import proofs.«172250_j15616501088594_1_alg».proof.Proof.KI.Val1
import Idealize.ShloMosaic.Lib.IdealHost
import Idealize.ShloMosaic.Lib.ValueLayout
import Idealize.ShloMosaic.Lib.ValueIdx

noncomputable section

open scoped BigOperators

namespace Cert.KernelIdeal.HandVal

open Cert.KernelIdeal Cert.KernelIdeal.Gen
open Idealize.ShloMosaic Idealize.ShloMosaic.ValueIdx

/-- The number of rows, as the programs write it: the single-precision literal 100000. -/
abbrev nLitK : EReal := Ideal.ofBits .f32 0x47C35000#32

/-- The normalisation's ε, as the programs write it: the single-precision literal nearest 10⁻⁵. -/
abbrev epsLitK : EReal := Ideal.ofBits .f32 0x3727C5AC#32

/-- The host's quotient of two arrays, at an index. -/
theorem hostDivfK_apply {s : Shape} (a b : FVec Ideal s .f32) (i : s.Idx) :
    Host.divf (F := Ideal) a b i = Ideal.div (a i) (b i) := rfl

/-- The host's reciprocal square root of an array, at an index. -/
theorem hostRsqrtK_apply {s : Shape} (a : FVec Ideal s .f32) (i : s.Idx) :
    Host.rsqrt (F := Ideal) a i = Ideal.rsqrt (a i) := rfl

/-- A one-row table of column sums divided by the number of rows, at column `q`. -/
theorem meanK_apply (s : S1x128.Idx → EReal) (q : Fin 128) :
    meanK (F := Ideal) s (ix1 q) = Ideal.div (s (ix2 (0 : Fin 1) q)) nLitK := by
  unfold meanK
  refine (hostDivfK_apply _ _ _).trans ?_
  refine congrArg₂ Ideal.div (shapeCast_1a_a_apply s shapeCasts_S1x128_S128 q) ?_
  rw [broadcastInDim_scalar_apply, constant_apply]

/-- The kernel's column variance, at column `q`: the mean square less the squared mean. -/
theorem varK_apply (s ss : S1x128.Idx → EReal) (q : Fin 128) :
    varK (F := Ideal) s ss (ix1 q)
      = Ideal.div (ss (ix2 (0 : Fin 1) q)) nLitK
        - Ideal.div (s (ix2 (0 : Fin 1) q)) nLitK * Ideal.div (s (ix2 (0 : Fin 1) q)) nLitK := by
  unfold varK
  refine (subf_apply _ _ _).trans ?_
  refine congrArg₂ (· - ·) (meanK_apply ss q) ?_
  refine (mulf_apply _ _ _).trans ?_
  rw [meanK_apply]

/-- The per-column factor, as a vector, at column `q`. -/
theorem scaleVecK_apply (s ss : S1x128.Idx → EReal) (g : S128.Idx → EReal) (q : Fin 128) :
    scaleVecK (F := Ideal) s ss g (ix1 q)
      = g (ix1 q) * Ideal.rsqrt (Ideal.div (ss (ix2 (0 : Fin 1) q)) nLitK
          - Ideal.div (s (ix2 (0 : Fin 1) q)) nLitK * Ideal.div (s (ix2 (0 : Fin 1) q)) nLitK + epsLitK) := by
  unfold scaleVecK
  refine (mulf_apply _ _ _).trans ?_
  refine congrArg (fun t => g (ix1 q) * t) ?_
  refine (hostRsqrtK_apply _ _).trans ?_
  refine congrArg Ideal.rsqrt ?_
  refine (addf_apply _ _ _).trans ?_
  refine congrArg₂ (· + ·) (varK_apply s ss q) ?_
  rw [broadcastInDim_scalar_apply, constant_apply]

/-- The per-column offset, as a vector, at column `q`. -/
theorem shiftVecK_apply (s ss : S1x128.Idx → EReal) (g be : S128.Idx → EReal) (q : Fin 128) :
    shiftVecK (F := Ideal) s ss g be (ix1 q)
      = be (ix1 q) - Ideal.div (s (ix2 (0 : Fin 1) q)) nLitK
          * (g (ix1 q) * Ideal.rsqrt (Ideal.div (ss (ix2 (0 : Fin 1) q)) nLitK
              - Ideal.div (s (ix2 (0 : Fin 1) q)) nLitK * Ideal.div (s (ix2 (0 : Fin 1) q)) nLitK + epsLitK)) := by
  unfold shiftVecK
  refine (subf_apply _ _ _).trans ?_
  refine congrArg (fun t => be (ix1 q) - t) ?_
  refine (mulf_apply _ _ _).trans ?_
  rw [meanK_apply, scaleVecK_apply]

/-- The scale row the normalising region reads, at column `q`. -/
theorem scaleK_apply (s ss : S1x128.Idx → EReal) (g : S128.Idx → EReal) (q : Fin 128) :
    scaleK (F := Ideal) s ss g (ix2 (0 : Fin 1) q)
      = g (ix1 q) * Ideal.rsqrt (Ideal.div (ss (ix2 (0 : Fin 1) q)) nLitK
          - Ideal.div (s (ix2 (0 : Fin 1) q)) nLitK * Ideal.div (s (ix2 (0 : Fin 1) q)) nLitK + epsLitK) := by
  unfold scaleK rowK
  exact (shapeCast_a_1a_apply _ shapeCasts_S128_S1x128 (0 : Fin 1) q).trans (scaleVecK_apply s ss g q)

/-- The shift row the normalising region reads, at column `q`. -/
theorem shiftK_apply (s ss : S1x128.Idx → EReal) (g be : S128.Idx → EReal) (q : Fin 128) :
    shiftK (F := Ideal) s ss g be (ix2 (0 : Fin 1) q)
      = be (ix1 q) - Ideal.div (s (ix2 (0 : Fin 1) q)) nLitK
          * (g (ix1 q) * Ideal.rsqrt (Ideal.div (ss (ix2 (0 : Fin 1) q)) nLitK
              - Ideal.div (s (ix2 (0 : Fin 1) q)) nLitK * Ideal.div (s (ix2 (0 : Fin 1) q)) nLitK + epsLitK)) := by
  unfold shiftK rowK
  exact (shapeCast_a_1a_apply _ shapeCasts_S128_S1x128 (0 : Fin 1) q).trans (shiftVecK_apply s ss g be q)

/-- THE KERNEL'S NORMALISATION at an entry: the second region's result on `z` with the host's scale and shift rows
    is, at row `r` and column `q`, the folded multiply–add of the entry, rectified. -/
theorem normK_apply (z : S100000x128.Idx → EReal) (s ss : S1x128.Idx → EReal) (g be : S128.Idx → EReal)
    (r : Fin 100000) (q : Fin 128) :
    clampAffine1 z (scaleK (F := Ideal) s ss g) (shiftK (F := Ideal) s ss g be) (ix2 r q)
      = max (z (ix2 r q) * (g (ix1 q) * Ideal.rsqrt (Ideal.div (ss (ix2 (0 : Fin 1) q)) nLitK
              - Ideal.div (s (ix2 (0 : Fin 1) q)) nLitK * Ideal.div (s (ix2 (0 : Fin 1) q)) nLitK + epsLitK))
          + (be (ix1 q) - Ideal.div (s (ix2 (0 : Fin 1) q)) nLitK
              * (g (ix1 q) * Ideal.rsqrt (Ideal.div (ss (ix2 (0 : Fin 1) q)) nLitK
                  - Ideal.div (s (ix2 (0 : Fin 1) q)) nLitK * Ideal.div (s (ix2 (0 : Fin 1) q)) nLitK
                  + epsLitK)))) 0 := by
  rw [clampAffine1_apply, scaleK_apply, shiftK_apply]

end Cert.KernelIdeal.HandVal

end
-- ==== Proof.LibVarianceReals.lean ====
/-
  The real-number mathematics behind the reference's three reciprocal standard deviations.
  With every entry of a segment a real, each sum is a real; the mean of the squared deviations from the mean is
  the mean square less the squared mean (the number of summands being exactly the divisor); the argument of the
  power is then a real at least ε > 0, and on a positive real r the power r^(−1/2) is 1/√r.
  Also here: a sum over m·k consecutive columns is the double sum over m features of k components.
-/
import Idealize.ShloMosaic.PureOps.Ideal

noncomputable section

open scoped BigOperators

namespace Cert.RefValue

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- … and with double sums. -/
theorem coe_sum₂ {A B : ℕ} (g : Fin A → Fin B → ℝ) :
    (∑ t, ∑ j, (g t j : EReal)) = ((∑ t, ∑ j, g t j : ℝ) : EReal) := by
  rw [coe_sum]; exact Finset.sum_congr rfl fun t _ => (coe_sum _ _).symm

/-- On a positive real the power with exponent −1/2 is the reciprocal square root. -/
theorem pow_neg_half {r : ℝ} (hr : 0 < r) :
    Ideal.pow (r : EReal) ((-(1 / 2) : ℝ) : EReal) = Ideal.rsqrt (r : EReal) := by
  show ((Real.rpow r (-(1 / 2)) : ℝ) : EReal) = if r < 0 then ⊥ else if r = 0 then ⊤ else (((Real.sqrt r)⁻¹ : ℝ) : EReal)
  rw [if_neg (not_lt.mpr hr.le), if_neg hr.ne']
  congr 1
  show r ^ (-(1 / 2) : ℝ) = _
  rw [Real.rpow_neg hr.le, Real.sqrt_eq_rpow]

/-- The variance identity over a finite index set of exactly N elements: the mean of the squared deviations from
    the mean μ = (Σ f)/N is the mean square less μ². -/
theorem var_identity {ι : Type*} [Fintype ι] (f : ι → ℝ) (N : ℝ) (hN : (Fintype.card ι : ℝ) = N) (hN0 : N ≠ 0) :
    (∑ i, (f i - (∑ i, f i) * (1 / N)) * (f i - (∑ i, f i) * (1 / N))) * (1 / N)
      = (∑ i, f i * f i) * (1 / N) - ((∑ i, f i) * (1 / N)) * ((∑ i, f i) * (1 / N)) := by
  set S := ∑ i, f i with hS
  set μ := S * (1 / N) with hμ
  have h1 : ∑ i, (f i - μ) * (f i - μ) = (∑ i, f i * f i) - 2 * μ * S + N * (μ * μ) := by
    have : ∀ i, (f i - μ) * (f i - μ) = f i * f i - 2 * μ * f i + μ * μ := fun i => by ring
    simp only [this, Finset.sum_add_distrib, Finset.sum_sub_distrib, ← Finset.mul_sum, Finset.sum_const,
      Finset.card_univ, nsmul_eq_mul, hN, ← hS]
    ring
  rw [h1, hμ]
  field_simp
  ring

/-- Segment 0, on reals r t j with exactly N = A·B of them: the reference's (mean((x−μ)²) + ε)^(−1/2) is the
    specification's rsqrt(mean(x²) − μ² + ε), μ the mean. -/
theorem inv0_eq {A B : ℕ} (r : Fin A → Fin B → ℝ) (N e : ℝ) (hN : ((A * B : ℕ) : ℝ) = N) (hN0 : 0 < N) (he : 0 < e) :
    Ideal.pow (Ideal.div (∑ t, ∑ j, ((r t j : EReal) - Ideal.div (∑ t, ∑ j, (r t j : EReal)) (N : EReal))
        * ((r t j : EReal) - Ideal.div (∑ t, ∑ j, (r t j : EReal)) (N : EReal))) (N : EReal) + (e : EReal))
        ((-(1 / 2) : ℝ) : EReal)
      = Ideal.rsqrt (Ideal.div (∑ t, ∑ j, (r t j : EReal) * (r t j : EReal)) (N : EReal)
          - Ideal.div (∑ t, ∑ j, (r t j : EReal)) (N : EReal) * Ideal.div (∑ t, ∑ j, (r t j : EReal)) (N : EReal)
          + (e : EReal)) := by
  have hμ : Ideal.div (∑ t, ∑ j, (r t j : EReal)) (N : EReal) = (((∑ t, ∑ j, r t j) * (1 / N) : ℝ) : EReal) := by
    rw [Ideal.div_coe hN0.ne', coe_sum₂, ← EReal.coe_mul]
  rw [hμ]
  simp only [← EReal.coe_sub, ← EReal.coe_mul, coe_sum₂, Ideal.div_coe hN0.ne', ← EReal.coe_add]
  -- the real identity, over the product index set
  have hcard : (Fintype.card (Fin A × Fin B) : ℝ) = N := by rw [Fintype.card_prod, Fintype.card_fin, Fintype.card_fin]; exact hN
  have hv := var_identity (fun p : Fin A × Fin B => r p.1 p.2) N hcard hN0.ne'
  simp only [Fintype.sum_prod_type] at hv
  rw [← hv]
  refine pow_neg_half ?_
  have h0 : 0 ≤ ∑ t, ∑ j, (r t j - (∑ t, ∑ j, r t j) * (1 / N)) * (r t j - (∑ t, ∑ j, r t j) * (1 / N)) :=
    Finset.sum_nonneg fun t _ => Finset.sum_nonneg fun j _ => mul_self_nonneg _
  have h1 : 0 ≤ 1 / N := by positivity
  have := mul_nonneg h0 h1
  linarith

/-- Segments 1 and 2, on a sum of squares of reals: the reference's (S/N + ε)^(−1/2) is the specification's
    rsqrt(S/N + ε). -/
theorem inv12_eq (S : EReal) (s N e : ℝ) (hS : S = (s : EReal)) (hs : 0 ≤ s) (hN0 : 0 < N) (he : 0 < e) :
    Ideal.pow (Ideal.div S (N : EReal) + (e : EReal)) ((-(1 / 2) : ℝ) : EReal)
      = Ideal.rsqrt (Ideal.div S (N : EReal) + (e : EReal)) := by
  rw [hS, Ideal.div_coe hN0.ne', ← EReal.coe_mul, ← EReal.coe_add]
  refine pow_neg_half ?_
  have h1 : 0 ≤ 1 / N := by positivity
  have := mul_nonneg hs h1
  linarith

/-- A sum over m·k consecutive positions is the double sum over m groups of k positions (position k·n + d of
    group n, place d). -/
theorem sum_groups {M : Type*} [AddCommMonoid M] (m k : ℕ) (G : Fin (m * k) → M) :
    ∑ j, G j = ∑ n : Fin m, ∑ d : Fin k, G (finProdFinEquiv (n, d)) := by
  rw [← Equiv.sum_comp finProdFinEquiv G, Fintype.sum_prod_type]

end Cert.RefValue

end
-- ==== Proof.LibBatchNormFold.lean ====
/-
  Batch normalisation folded into one multiply–add.

  For a column of N real numbers z₁ … z_N, the mean of the squared deviations from the mean μ equals the mean of
  the squares less μ². A normalisation that first centres, then scales by the reciprocal square root of that
  variance plus ε, then applies a gain g and an offset β,

      max (((z − μ) · rsqrt (var + ε)) · g + β) 0,

  is therefore the same as one multiply–add with a per-column scale and shift computed from the column's sum and
  sum of squares,

      scale = g · rsqrt (ss/N − (s/N)² + ε),   shift = β − (s/N) · scale,   max (z · scale + shift) 0.

  On the extended reals neither distributivity nor the cancellation x − x = 0 holds at the infinities, so the law
  is stated for entries that are coerced reals; the divisor is the number of rows (as a real), and ε is a positive
  real, so the argument of the reciprocal square root is a positive real and the root is real.
-/
import proofs.«172250_j15616501088594_1_alg».proof.Proof.LibRealEntries
import proofs.«172250_j15616501088594_1_alg».proof.Proof.LibVarianceReals

noncomputable section

open scoped BigOperators

namespace Cert.BatchNormFold

open Idealize.ShloMosaic Cert.RealEntries

/-- On the reals, the folded multiply–add `x · (g·ρ) + (β − m · (g·ρ))` is the centred, scaled, gained and offset
    value `((x − m) · ρ) · g + β`. -/
theorem fold_real (x m ρ g b : ℝ) : x * (g * ρ) + (b - m * (g * ρ)) = ((x - m) * ρ) * g + b := by ring

/-- The real witnesses of one column's statistics. With every entry of the column real, the divisor the number of
    rows and both the sum `s`, the sum of squares `ss`, the reference's mean `mu` and its variance `vR` given by
    their defining equations, there are reals `m` and `v ≥ 0` with: `s / N = m`, `mu = m`,
    `ss / N − (s/N)·(s/N) = v` and `vR = v`. -/
theorem stats_witness {n : ℕ} (z : Fin n → EReal) (N : EReal) (hz : ∀ i, IsRealE (z i)) (hn : 0 < n)
    (hN : N = ((n : ℝ) : EReal)) (s ss mu vR : EReal)
    (hs : s = ∑ i, z i) (hss : ss = ∑ i, z i * z i)
    (hmu : mu = Ideal.div (0 + ∑ i, z i) N)
    (hvR : vR = Ideal.div (0 + ∑ i, (z i - mu) * (z i - mu)) N) :
    ∃ m v : ℝ, 0 ≤ v ∧ Ideal.div s N = (m : EReal) ∧ mu = (m : EReal)
      ∧ Ideal.div ss N - Ideal.div s N * Ideal.div s N = (v : EReal) ∧ vR = (v : EReal) := by
  choose zr hzr using hz
  have hn0 : (n : ℝ) ≠ 0 := Nat.cast_ne_zero.mpr hn.ne'
  have hS : s = ((∑ i, zr i : ℝ) : EReal) := by
    rw [hs, Cert.RefValue.coe_sum]; exact Finset.sum_congr rfl fun i _ => hzr i
  have hQ : ss = ((∑ i, zr i * zr i : ℝ) : EReal) := by
    rw [hss, Cert.RefValue.coe_sum]; exact Finset.sum_congr rfl fun i _ => by rw [hzr, EReal.coe_mul]
  have hmK : Ideal.div s N = (((∑ i, zr i) * (1 / (n : ℝ)) : ℝ) : EReal) := by
    rw [hS, hN, Ideal.div_coe hn0, ← EReal.coe_mul]
  have hmR : mu = (((∑ i, zr i) * (1 / (n : ℝ)) : ℝ) : EReal) := by
    rw [hmu, zero_add, ← hs, hmK]
  have hqK : Ideal.div ss N = (((∑ i, zr i * zr i) * (1 / (n : ℝ)) : ℝ) : EReal) := by
    rw [hQ, hN, Ideal.div_coe hn0, ← EReal.coe_mul]
  have hdev : ∑ i, (z i - mu) * (z i - mu)
      = ((∑ i, (zr i - (∑ i, zr i) * (1 / (n : ℝ))) * (zr i - (∑ i, zr i) * (1 / (n : ℝ))) : ℝ) : EReal) := by
    rw [Cert.RefValue.coe_sum]
    exact Finset.sum_congr rfl fun i _ => by rw [hzr, hmR, ← EReal.coe_sub, ← EReal.coe_mul]
  have hcard : (Fintype.card (Fin n) : ℝ) = (n : ℝ) := by rw [Fintype.card_fin]
  have hv := Cert.RefValue.var_identity zr (n : ℝ) hcard hn0
  refine ⟨(∑ i, zr i) * (1 / (n : ℝ)),
    (∑ i, zr i * zr i) * (1 / (n : ℝ)) - ((∑ i, zr i) * (1 / (n : ℝ))) * ((∑ i, zr i) * (1 / (n : ℝ))),
    ?_, hmK, hmR, ?_, ?_⟩
  · rw [← hv]
    exact mul_nonneg (Finset.sum_nonneg fun i _ => mul_self_nonneg _) (by positivity)
  · rw [hqK, hmK, ← EReal.coe_mul, ← EReal.coe_sub]
  · rw [hvR, zero_add, hdev, hN, Ideal.div_coe hn0, ← EReal.coe_mul, hv]

/-- The two variances agree and are a nonnegative real: the mean square less the squared mean (the kernel's
    form, from the column's sum `s` and sum of squares `ss`) is the mean of the squared deviations from the mean
    (the reference's form `vR`). -/
theorem var_eq {n : ℕ} (z : Fin n → EReal) (N : EReal) (hz : ∀ i, IsRealE (z i)) (hn : 0 < n)
    (hN : N = ((n : ℝ) : EReal)) (s ss mu vR : EReal)
    (hs : s = ∑ i, z i) (hss : ss = ∑ i, z i * z i)
    (hmu : mu = Ideal.div (0 + ∑ i, z i) N)
    (hvR : vR = Ideal.div (0 + ∑ i, (z i - mu) * (z i - mu)) N) :
    Ideal.div ss N - Ideal.div s N * Ideal.div s N = vR ∧ 0 ≤ vR ∧ IsRealE vR := by
  obtain ⟨m, v, hv0, _, _, hvK, hvR'⟩ := stats_witness z N hz hn hN s ss mu vR hs hss hmu hvR
  refine ⟨hvK.trans hvR'.symm, ?_, ⟨v, hvR'⟩⟩
  rw [hvR']; exact EReal.coe_nonneg.mpr hv0

/-- With a positive real ε added, the variance is a positive real, and its reciprocal square root is real. -/
theorem rsqrt_var_real {n : ℕ} (z : Fin n → EReal) (N ε : EReal) (e : ℝ) (hz : ∀ i, IsRealE (z i)) (hn : 0 < n)
    (hN : N = ((n : ℝ) : EReal)) (he : 0 < e) (hε : ε = (e : EReal)) (s ss mu vR : EReal)
    (hs : s = ∑ i, z i) (hss : ss = ∑ i, z i * z i)
    (hmu : mu = Ideal.div (0 + ∑ i, z i) N)
    (hvR : vR = Ideal.div (0 + ∑ i, (z i - mu) * (z i - mu)) N) :
    0 < vR + ε ∧ IsRealE (vR + ε) ∧ IsRealE (Ideal.rsqrt (vR + ε))
      ∧ IsRealE (Ideal.rsqrt (Ideal.div ss N - Ideal.div s N * Ideal.div s N + ε)) := by
  obtain ⟨m, v, hv0, _, _, hvK, hvR'⟩ := stats_witness z N hz hn hN s ss mu vR hs hss hmu hvR
  have hpos : 0 < v + e := by linarith
  rw [hvK, hvR', hε, ← EReal.coe_add]
  exact ⟨EReal.coe_pos.mpr hpos, isRealE_coe _, isRealE_rsqrt_coe hpos, isRealE_rsqrt_coe hpos⟩

/-- THE LAW, at one entry `x` of the column: the folded multiply–add with scale `g · rsqrt (ss/N − (s/N)² + ε)` and
    shift `β − (s/N) · scale`, rectified, equals the centred and scaled entry
    `((x − mu) · rsqrt (vR + ε)) · g + β`, rectified. Every entry of the column, the entry `x`, the gain and the
    offset are real; `N` is the number of rows as a real and `ε` a positive real. -/
theorem fold_eq {n : ℕ} (z : Fin n → EReal) (x g be N ε : EReal) (e : ℝ) (hz : ∀ i, IsRealE (z i))
    (hx : IsRealE x) (hg : IsRealE g) (hbe : IsRealE be) (hn : 0 < n)
    (hN : N = ((n : ℝ) : EReal)) (he : 0 < e) (hε : ε = (e : EReal)) (s ss mu vR : EReal)
    (hs : s = ∑ i, z i) (hss : ss = ∑ i, z i * z i)
    (hmu : mu = Ideal.div (0 + ∑ i, z i) N)
    (hvR : vR = Ideal.div (0 + ∑ i, (z i - mu) * (z i - mu)) N) :
    max (x * (g * Ideal.rsqrt (Ideal.div ss N - Ideal.div s N * Ideal.div s N + ε))
          + (be - Ideal.div s N * (g * Ideal.rsqrt (Ideal.div ss N - Ideal.div s N * Ideal.div s N + ε)))) 0
      = max (((x - mu) * Ideal.rsqrt (vR + ε)) * g + be) 0 := by
  obtain ⟨m, v, hv0, hmK, hmR, hvK, hvR'⟩ := stats_witness z N hz hn hN s ss mu vR hs hss hmu hvR
  obtain ⟨xr, rfl⟩ := hx
  obtain ⟨gr, rfl⟩ := hg
  obtain ⟨br, rfl⟩ := hbe
  have hpos : 0 < v + e := by linarith
  rw [hvK, hmK, hmR, hvR', hε, ← EReal.coe_add, rsqrt_coe_pos hpos]
  refine congrArg (fun t => max t 0) ?_
  simp only [← EReal.coe_mul, ← EReal.coe_sub, ← EReal.coe_add]
  exact congrArg _ (fold_real xr m _ gr br)

/-- The folded, rectified value is real. -/
theorem fold_real_entry {n : ℕ} (z : Fin n → EReal) (x g be N ε : EReal) (e : ℝ) (hz : ∀ i, IsRealE (z i))
    (hx : IsRealE x) (hg : IsRealE g) (hbe : IsRealE be) (hn : 0 < n)
    (hN : N = ((n : ℝ) : EReal)) (he : 0 < e) (hε : ε = (e : EReal)) (s ss : EReal)
    (hs : s = ∑ i, z i) (hss : ss = ∑ i, z i * z i) :
    IsRealE (max (x * (g * Ideal.rsqrt (Ideal.div ss N - Ideal.div s N * Ideal.div s N + ε))
          + (be - Ideal.div s N * (g * Ideal.rsqrt (Ideal.div ss N - Ideal.div s N * Ideal.div s N + ε)))) 0) := by
  obtain ⟨_, _, _, hr⟩ := rsqrt_var_real z N ε e hz hn hN he hε s ss _ _ hs hss rfl rfl
  have hn0 : (n : ℝ) ≠ 0 := Nat.cast_ne_zero.mpr hn.ne'
  have hsr : IsRealE s := hs ▸ isRealE_sum_univ z hz
  have hm : IsRealE (Ideal.div s N) := hN ▸ hsr.div_coe hn0
  exact isRealE_max_zero ((hx.mul (hg.mul hr)).add (hbe.sub (hm.mul (hg.mul hr))))

/-- The law for a whole array `z : rows × columns`: at every row `i` and column `j`, the kernel's folded form (from
    the column sums `s j` and sums of squares `ss j`) equals the reference's centred form (with the column means
    `mu j` and variances `vR j`). -/
theorem fold_eq_array {n c : ℕ} (z : Fin n → Fin c → EReal) (g be : Fin c → EReal) (N ε : EReal) (e : ℝ)
    (hz : ∀ i j, IsRealE (z i j)) (hg : ∀ j, IsRealE (g j)) (hbe : ∀ j, IsRealE (be j)) (hn : 0 < n)
    (hN : N = ((n : ℝ) : EReal)) (he : 0 < e) (hε : ε = (e : EReal)) (s ss mu vR : Fin c → EReal)
    (hs : ∀ j, s j = ∑ i, z i j) (hss : ∀ j, ss j = ∑ i, z i j * z i j)
    (hmu : ∀ j, mu j = Ideal.div (0 + ∑ i, z i j) N)
    (hvR : ∀ j, vR j = Ideal.div (0 + ∑ i, (z i j - mu j) * (z i j - mu j)) N) (i : Fin n) (j : Fin c) :
    max (z i j * (g j * Ideal.rsqrt (Ideal.div (ss j) N - Ideal.div (s j) N * Ideal.div (s j) N + ε))
          + (be j - Ideal.div (s j) N
              * (g j * Ideal.rsqrt (Ideal.div (ss j) N - Ideal.div (s j) N * Ideal.div (s j) N + ε)))) 0
      = max (((z i j - mu j) * Ideal.rsqrt (vR j + ε)) * g j + be j) 0 :=
  fold_eq (fun i => z i j) (z i j) (g j) (be j) N ε e (fun i => hz i j) (hz i j) (hg j) (hbe j) hn hN he hε
    (s j) (ss j) (mu j) (vR j) (hs j) (hss j) (hmu j) (hvR j)

/-- Every entry of the folded, rectified array is real. -/
theorem fold_real_array {n c : ℕ} (z : Fin n → Fin c → EReal) (g be : Fin c → EReal) (N ε : EReal) (e : ℝ)
    (hz : ∀ i j, IsRealE (z i j)) (hg : ∀ j, IsRealE (g j)) (hbe : ∀ j, IsRealE (be j)) (hn : 0 < n)
    (hN : N = ((n : ℝ) : EReal)) (he : 0 < e) (hε : ε = (e : EReal)) (s ss : Fin c → EReal)
    (hs : ∀ j, s j = ∑ i, z i j) (hss : ∀ j, ss j = ∑ i, z i j * z i j) (i : Fin n) (j : Fin c) :
    IsRealE (max (z i j * (g j * Ideal.rsqrt (Ideal.div (ss j) N - Ideal.div (s j) N * Ideal.div (s j) N + ε))
          + (be j - Ideal.div (s j) N
              * (g j * Ideal.rsqrt (Ideal.div (ss j) N - Ideal.div (s j) N * Ideal.div (s j) N + ε)))) 0) :=
  fold_real_entry (fun i => z i j) (z i j) (g j) (be j) N ε e (fun i => hz i j) (hz i j) (hg j) (hbe j) hn hN he hε
    (s j) (ss j) (hs j) (hss j)

end Cert.BatchNormFold

end
-- ==== Proof.BnBridge.lean ====
/-
  The two normalisations agree.

  The kernel's second region applied to z with the host's scale and shift rows — computed from the column sums s
  and the column sums of squares ss of z — is the reference's batch normalisation with activation of z, entry by
  entry, when every entry of z, of the gain and of the offset is real: the variance identity
  mean (z²) − mean (z)² = mean ((z − mean z)²) over exactly 100000 rows, and the folding of centring, scaling, gain and
  offset into one multiply–add. Every entry of the result is real.
-/
import proofs.«172250_j15616501088594_1_alg».proof.Proof.Ref.BnAt
import proofs.«172250_j15616501088594_1_alg».proof.Proof.KI.BnAt
import proofs.«172250_j15616501088594_1_alg».proof.Proof.LibBatchNormFold
import proofs.«172250_j15616501088594_1_alg».proof.Proof.LibF32Literals

noncomputable section

open scoped BigOperators

namespace Cert.BnBridge

open Idealize.ShloMosaic Idealize.ShloMosaic.ValueIdx Cert.RealEntries
open Cert.KernelIdeal.HandVal (clampAffine1 scaleK shiftK)

/-- The literal number of rows is the natural number 100000 as a real. -/
theorem nLit_eq : Cert.ReferenceIdeal.HandVal.nLit = (((100000 : ℕ) : ℝ) : EReal) :=
  Cert.F32Literals.ofBits_100000_nat

/-- THE BRIDGE at an entry: with `s` and `ss` the column sums and column sums of squares of `z`, and every entry of
    `z`, `g`, `be` real, the kernel's normalisation of `z` equals the reference's at row `r` and column `q`. -/
theorem bridge_apply (z : Cert.KernelIdeal.S100000x128.Idx → EReal) (g be : Cert.KernelIdeal.S128.Idx → EReal)
    (s ss : Cert.KernelIdeal.S1x128.Idx → EReal)
    (hz : ∀ j, IsRealE (z j)) (hg : ∀ j, IsRealE (g j)) (hbe : ∀ j, IsRealE (be j))
    (hs : ∀ q : Fin 128, s (ix2 (0 : Fin 1) q) = ∑ i : Fin 100000, z (ix2 i q))
    (hss : ∀ q : Fin 128, ss (ix2 (0 : Fin 1) q) = ∑ i : Fin 100000, z (ix2 i q) * z (ix2 i q))
    (r : Fin 100000) (q : Fin 128) :
    clampAffine1 z (scaleK (F := Ideal) s ss g) (shiftK (F := Ideal) s ss g be) (ix2 r q)
      = Cert.ReferenceIdeal.HandRun.bn (F := Ideal) z g be (ix2 r q) := by
  obtain ⟨e, he, hε⟩ := Cert.F32Literals.ofBits_eps_pos
  rw [Cert.KernelIdeal.HandVal.normK_apply, Cert.ReferenceIdeal.HandVal.bn_apply]
  exact Cert.BatchNormFold.fold_eq_array (fun i j => z (ix2 i j)) (fun j => g (ix1 j)) (fun j => be (ix1 j))
    Cert.ReferenceIdeal.HandVal.nLit Cert.ReferenceIdeal.HandVal.epsLit e
    (fun i j => hz _) (fun j => hg _) (fun j => hbe _) (by norm_num) nLit_eq he hε
    (fun j => s (ix2 (0 : Fin 1) j)) (fun j => ss (ix2 (0 : Fin 1) j))
    (Cert.ReferenceIdeal.HandVal.muR z) (Cert.ReferenceIdeal.HandVal.varR z)
    hs hss (fun _ => rfl) (fun _ => rfl) r q

/-- THE BRIDGE: the two normalisations of `z` are the same array. -/
theorem bridge (z : Cert.KernelIdeal.S100000x128.Idx → EReal) (g be : Cert.KernelIdeal.S128.Idx → EReal)
    (s ss : Cert.KernelIdeal.S1x128.Idx → EReal)
    (hz : ∀ j, IsRealE (z j)) (hg : ∀ j, IsRealE (g j)) (hbe : ∀ j, IsRealE (be j))
    (hs : ∀ q : Fin 128, s (ix2 (0 : Fin 1) q) = ∑ i : Fin 100000, z (ix2 i q))
    (hss : ∀ q : Fin 128, ss (ix2 (0 : Fin 1) q) = ∑ i : Fin 100000, z (ix2 i q) * z (ix2 i q)) :
    clampAffine1 z (scaleK (F := Ideal) s ss g) (shiftK (F := Ideal) s ss g be)
      = Cert.ReferenceIdeal.HandRun.bn (F := Ideal) z g be := by
  funext j
  obtain ⟨r, q, rfl⟩ : ∃ (r : Fin 100000) (q : Fin 128), j = ix2 r q := ⟨j 0, j 1, eq_ix2 j⟩
  exact bridge_apply z g be s ss hz hg hbe hs hss r q

/-- Every entry of the kernel's normalisation is real. -/
theorem norm_real (z : Cert.KernelIdeal.S100000x128.Idx → EReal) (g be : Cert.KernelIdeal.S128.Idx → EReal)
    (s ss : Cert.KernelIdeal.S1x128.Idx → EReal)
    (hz : ∀ j, IsRealE (z j)) (hg : ∀ j, IsRealE (g j)) (hbe : ∀ j, IsRealE (be j))
    (hs : ∀ q : Fin 128, s (ix2 (0 : Fin 1) q) = ∑ i : Fin 100000, z (ix2 i q))
    (hss : ∀ q : Fin 128, ss (ix2 (0 : Fin 1) q) = ∑ i : Fin 100000, z (ix2 i q) * z (ix2 i q))
    (j : Cert.KernelIdeal.S100000x128.Idx) :
    IsRealE (clampAffine1 z (scaleK (F := Ideal) s ss g) (shiftK (F := Ideal) s ss g be) j) := by
  obtain ⟨e, he, hε⟩ := Cert.F32Literals.ofBits_eps_pos
  obtain ⟨r, q, rfl⟩ : ∃ (r : Fin 100000) (q : Fin 128), j = ix2 r q := ⟨j 0, j 1, eq_ix2 j⟩
  rw [Cert.KernelIdeal.HandVal.normK_apply]
  exact Cert.BatchNormFold.fold_real_array (fun i j => z (ix2 i j)) (fun j => g (ix1 j)) (fun j => be (ix1 j))
    Cert.ReferenceIdeal.HandVal.nLit Cert.ReferenceIdeal.HandVal.epsLit e
    (fun i j => hz _) (fun j => hg _) (fun j => hbe _) (by norm_num) nLit_eq he hε
    (fun j => s (ix2 (0 : Fin 1) j)) (fun j => ss (ix2 (0 : Fin 1) j)) hs hss r q

/-- Every entry of the reference's normalisation is real. -/
theorem bn_real (z : Cert.KernelIdeal.S100000x128.Idx → EReal) (g be : Cert.KernelIdeal.S128.Idx → EReal)
    (hz : ∀ j, IsRealE (z j)) (hg : ∀ j, IsRealE (g j)) (hbe : ∀ j, IsRealE (be j))
    (j : Cert.KernelIdeal.S100000x128.Idx) :
    IsRealE (Cert.ReferenceIdeal.HandRun.bn (F := Ideal) z g be j) := by
  obtain ⟨e, he, hε⟩ := Cert.F32Literals.ofBits_eps_pos
  obtain ⟨r, q, rfl⟩ : ∃ (r : Fin 100000) (q : Fin 128), j = ix2 r q := ⟨j 0, j 1, eq_ix2 j⟩
  rw [Cert.ReferenceIdeal.HandVal.bn_apply]
  obtain ⟨_, _, hr, _⟩ := Cert.BatchNormFold.rsqrt_var_real (fun i : Fin 100000 => z (ix2 i q))
    Cert.ReferenceIdeal.HandVal.nLit Cert.ReferenceIdeal.HandVal.epsLit e (fun i => hz _) (by norm_num) nLit_eq he hε
    _ _ (Cert.ReferenceIdeal.HandVal.muR z q) (Cert.ReferenceIdeal.HandVal.varR z q) rfl rfl rfl rfl
  have hmu : IsRealE (Cert.ReferenceIdeal.HandVal.muR z q) := by
    unfold Cert.ReferenceIdeal.HandVal.muR
    show IsRealE (Ideal.div _ (Ideal.ofBits .f32 0x47C35000#32))
    rw [Cert.F32Literals.ofBits_100000]
    exact (isRealE_zero_add_sum _ fun i => hz _).div_coe (by norm_num)
  exact isRealE_max_zero (((((hz _).sub hmu).mul hr).mul (hg _)).add (hbe _))

end Cert.BnBridge

end
-- ==== Proof.LayerBridge.lean ====
import proofs.«172250_j15616501088594_1_alg».proof.Proof.Ref.Stages
import proofs.«172250_j15616501088594_1_alg».proof.Proof.Ref.DenseAt
import proofs.«172250_j15616501088594_1_alg».proof.Proof.LibRealEntries
import proofs.«172250_j15616501088594_1_alg».proof.Proof.LibGatherScatterReal
import proofs.«172250_j15616501088594_1_alg».proof.Proof.BnBridge
/-!
# One layer of the network: the kernel's normal form is the reference's layer

A layer is a neighbour sum, a two-layer perceptron with rectifiers, and a batch normalisation with a rectifier.
Over the extended reals, with every entry of every operand real:

* the neighbour sum of a real table is real (a finite sum of reals at every entry);
* the perceptron of real operands is real (finite sums of products of reals, a real bias, a maximum with zero);
* an array given entry by entry as the perceptron's formula, read with operands that agree entrywise with the
  reference's, is the reference's perceptron; normalised with a scale and a shift computed from its column sums and
  column sums of squares, it is the reference's batch normalisation of the perceptron, and every entry is real.
-/

noncomputable section

open scoped BigOperators

namespace Cert.LayerBridge

open Idealize.ShloMosaic Idealize.ShloMosaic.ValueIdx Cert.RealEntries
open Cert.ReferenceIdeal.HandRun (agg64 agg128 dense64 dense128 bn)
open Cert.ReferenceIdeal.HandVal (dense64_apply dense128_apply)

open Cert.KernelIdeal (S100000x64 S100000x128 S64x128 S128x128 S128 S1x128 S1600000)

/-! ## The neighbour sums of real tables are real -/

/-- Every entry of the neighbour sum of a 64-wide table with real entries is real, whatever the edge lists. -/
theorem agg64_real (h : S100000x64.Idx → EReal) (s d : IVec S1600000 32) (hh : ∀ i, IsRealE (h i))
    (i : S100000x64.Idx) : IsRealE (agg64 (F := Ideal) h s d i) := by
  obtain ⟨r, q, rfl⟩ : ∃ (r : Fin 100000) (q : Fin 64), i = ix2 r q := ⟨i 0, i 1, eq_ix2 i⟩
  unfold agg64
  exact Cert.GatherScatterReal.segment_sum_real (N := 100000) (C := 64) (E := 1600000) (M := 100000) (by norm_num)
    _ rfl rfl rfl rfl rfl rfl rfl _ rfl rfl rfl rfl h _ _ _ (fun _ => Ideal.ofBits_zero_f32) (fun i q => hh _) r q

/-- Every entry of the neighbour sum of a 128-wide table with real entries is real, whatever the edge lists. -/
theorem agg128_real (h : S100000x128.Idx → EReal) (s d : IVec S1600000 32) (hh : ∀ i, IsRealE (h i))
    (i : S100000x128.Idx) : IsRealE (agg128 (F := Ideal) h s d i) := by
  obtain ⟨r, q, rfl⟩ : ∃ (r : Fin 100000) (q : Fin 128), i = ix2 r q := ⟨i 0, i 1, eq_ix2 i⟩
  unfold agg128
  exact Cert.GatherScatterReal.segment_sum_real (N := 100000) (C := 128) (E := 1600000) (M := 100000) (by norm_num)
    _ rfl rfl rfl rfl rfl rfl rfl _ rfl rfl rfl rfl h _ _ _ (fun _ => Ideal.ofBits_zero_f32) (fun i q => hh _) r q

/-! ## The perceptrons of real operands are real -/

/-- Every entry of the first layer's perceptron on real operands is real. -/
theorem dense64_real (h a : S100000x64.Idx → EReal) (w1 : S64x128.Idx → EReal) (b1 : S128.Idx → EReal)
    (w2 : S128x128.Idx → EReal) (b2 : S128.Idx → EReal)
    (hh : ∀ i, IsRealE (h i)) (ha : ∀ i, IsRealE (a i)) (hw1 : ∀ i, IsRealE (w1 i)) (hb1 : ∀ i, IsRealE (b1 i))
    (hw2 : ∀ i, IsRealE (w2 i)) (hb2 : ∀ i, IsRealE (b2 i)) (i : S100000x128.Idx) :
    IsRealE (dense64 (F := Ideal) h a w1 b1 w2 b2 i) := by
  obtain ⟨r, q, rfl⟩ : ∃ (r : Fin 100000) (q : Fin 128), i = ix2 r q := ⟨i 0, i 1, eq_ix2 i⟩
  rw [dense64_apply]
  exact isRealE_dense_relu _ _ _
    (fun l => isRealE_dense_relu _ _ _ (fun j => (hh _).add (ha _)) (fun j => hw1 _) (hb1 _)) (fun l => hw2 _) (hb2 _)

/-- Every entry of the later layers' perceptron on real operands is real. -/
theorem dense128_real (h a : S100000x128.Idx → EReal) (w1 : S128x128.Idx → EReal) (b1 : S128.Idx → EReal)
    (w2 : S128x128.Idx → EReal) (b2 : S128.Idx → EReal)
    (hh : ∀ i, IsRealE (h i)) (ha : ∀ i, IsRealE (a i)) (hw1 : ∀ i, IsRealE (w1 i)) (hb1 : ∀ i, IsRealE (b1 i))
    (hw2 : ∀ i, IsRealE (w2 i)) (hb2 : ∀ i, IsRealE (b2 i)) (i : S100000x128.Idx) :
    IsRealE (dense128 (F := Ideal) h a w1 b1 w2 b2 i) := by
  obtain ⟨r, q, rfl⟩ : ∃ (r : Fin 100000) (q : Fin 128), i = ix2 r q := ⟨i 0, i 1, eq_ix2 i⟩
  rw [dense128_apply]
  exact isRealE_dense_relu _ _ _
    (fun l => isRealE_dense_relu _ _ _ (fun j => (hh _).add (ha _)) (fun j => hw1 _) (hb1 _)) (fun l => hw2 _) (hb2 _)

/-! ## One layer -/

open Cert.KernelIdeal.HandVal (clampAffine1 scaleK shiftK)

/-- One layer with 64 input columns. `Z` is given entry by entry by the perceptron's formula read with operands
    `W1k`, `b1k`, `W2k`, `b2k` that agree entrywise with `W1`, `b1`, `W2`, `b2` (the biases as one-row tables);
    `S` and `SS` are its column sums and column sums of squares. Then `Z` normalised by the scale and the shift
    computed from `S`, `SS`, the gain and the offset is the reference's batch normalisation of its perceptron, and
    every entry of that is real. -/
theorem layer64 (x a : S100000x64.Idx → EReal) (W1 : S64x128.Idx → EReal) (b1 : S128.Idx → EReal)
    (W2 : S128x128.Idx → EReal) (b2 g be : S128.Idx → EReal)
    (hx : ∀ i, IsRealE (x i)) (ha : ∀ i, IsRealE (a i)) (hW1 : ∀ i, IsRealE (W1 i)) (hb1 : ∀ i, IsRealE (b1 i))
    (hW2 : ∀ i, IsRealE (W2 i)) (hb2 : ∀ i, IsRealE (b2 i)) (hg : ∀ i, IsRealE (g i)) (hbe : ∀ i, IsRealE (be i))
    (W1k : S64x128.Idx → EReal) (hW1k : ∀ i, W1k i = W1 i)
    (b1k : S1x128.Idx → EReal) (hb1k : ∀ q : Fin 128, b1k (ix2 (0 : Fin 1) q) = b1 (ix1 q))
    (W2k : S128x128.Idx → EReal) (hW2k : ∀ i, W2k i = W2 i)
    (b2k : S1x128.Idx → EReal) (hb2k : ∀ q : Fin 128, b2k (ix2 (0 : Fin 1) q) = b2 (ix1 q))
    (Z : S100000x128.Idx → EReal)
    (hZ : ∀ (r : Fin 100000) (q : Fin 128), Z (ix2 r q)
      = max ((∑ l : Fin 128, max ((∑ j : Fin 64, (x (ix2 r j) + a (ix2 r j)) * W1k (ix2 j l)) + b1k (ix2 (0 : Fin 1) l)) 0
                * W2k (ix2 l q)) + b2k (ix2 (0 : Fin 1) q)) 0)
    (S SS : S1x128.Idx → EReal)
    (hS : ∀ q : Fin 128, S (ix2 (0 : Fin 1) q) = ∑ r : Fin 100000, Z (ix2 r q))
    (hSS : ∀ q : Fin 128, SS (ix2 (0 : Fin 1) q) = ∑ r : Fin 100000, Z (ix2 r q) * Z (ix2 r q)) :
    clampAffine1 Z (scaleK (F := Ideal) S SS g) (shiftK (F := Ideal) S SS g be)
        = bn (F := Ideal) (dense64 (F := Ideal) x a W1 b1 W2 b2) g be
      ∧ ∀ i, IsRealE (bn (F := Ideal) (dense64 (F := Ideal) x a W1 b1 W2 b2) g be i) := by
  have hZeq : Z = dense64 (F := Ideal) x a W1 b1 W2 b2 := by
    funext i
    obtain ⟨r, q, rfl⟩ : ∃ (r : Fin 100000) (q : Fin 128), i = ix2 r q := ⟨i 0, i 1, eq_ix2 i⟩
    rw [hZ, dense64_apply]
    simp only [hW1k, hb1k, hW2k, hb2k]
  have hZr : ∀ i, IsRealE (Z i) := fun i => by
    rw [hZeq]; exact dense64_real x a W1 b1 W2 b2 hx ha hW1 hb1 hW2 hb2 i
  refine ⟨?_, fun i => ?_⟩
  · rw [← hZeq]
    exact Cert.BnBridge.bridge Z g be S SS hZr hg hbe hS hSS
  · rw [← hZeq]
    exact Cert.BnBridge.bn_real Z g be hZr hg hbe i

/-- One layer with 128 input columns. `Z` is given entry by entry by the perceptron's formula read with operands
    `W1k`, `b1k`, `W2k`, `b2k` that agree entrywise with `W1`, `b1`, `W2`, `b2` (the biases as one-row tables);
    `S` and `SS` are its column sums and column sums of squares. Then `Z` normalised by the scale and the shift
    computed from `S`, `SS`, the gain and the offset is the reference's batch normalisation of its perceptron, and
    every entry of that is real. -/
theorem layer128 (x a : S100000x128.Idx → EReal) (W1 : S128x128.Idx → EReal) (b1 : S128.Idx → EReal)
    (W2 : S128x128.Idx → EReal) (b2 g be : S128.Idx → EReal)
    (hx : ∀ i, IsRealE (x i)) (ha : ∀ i, IsRealE (a i)) (hW1 : ∀ i, IsRealE (W1 i)) (hb1 : ∀ i, IsRealE (b1 i))
    (hW2 : ∀ i, IsRealE (W2 i)) (hb2 : ∀ i, IsRealE (b2 i)) (hg : ∀ i, IsRealE (g i)) (hbe : ∀ i, IsRealE (be i))
    (W1k : S128x128.Idx → EReal) (hW1k : ∀ i, W1k i = W1 i)
    (b1k : S1x128.Idx → EReal) (hb1k : ∀ q : Fin 128, b1k (ix2 (0 : Fin 1) q) = b1 (ix1 q))
    (W2k : S128x128.Idx → EReal) (hW2k : ∀ i, W2k i = W2 i)
    (b2k : S1x128.Idx → EReal) (hb2k : ∀ q : Fin 128, b2k (ix2 (0 : Fin 1) q) = b2 (ix1 q))
    (Z : S100000x128.Idx → EReal)
    (hZ : ∀ (r : Fin 100000) (q : Fin 128), Z (ix2 r q)
      = max ((∑ l : Fin 128, max ((∑ j : Fin 128, (x (ix2 r j) + a (ix2 r j)) * W1k (ix2 j l)) + b1k (ix2 (0 : Fin 1) l)) 0
                * W2k (ix2 l q)) + b2k (ix2 (0 : Fin 1) q)) 0)
    (S SS : S1x128.Idx → EReal)
    (hS : ∀ q : Fin 128, S (ix2 (0 : Fin 1) q) = ∑ r : Fin 100000, Z (ix2 r q))
    (hSS : ∀ q : Fin 128, SS (ix2 (0 : Fin 1) q) = ∑ r : Fin 100000, Z (ix2 r q) * Z (ix2 r q)) :
    clampAffine1 Z (scaleK (F := Ideal) S SS g) (shiftK (F := Ideal) S SS g be)
        = bn (F := Ideal) (dense128 (F := Ideal) x a W1 b1 W2 b2) g be
      ∧ ∀ i, IsRealE (bn (F := Ideal) (dense128 (F := Ideal) x a W1 b1 W2 b2) g be i) := by
  have hZeq : Z = dense128 (F := Ideal) x a W1 b1 W2 b2 := by
    funext i
    obtain ⟨r, q, rfl⟩ : ∃ (r : Fin 100000) (q : Fin 128), i = ix2 r q := ⟨i 0, i 1, eq_ix2 i⟩
    rw [hZ, dense128_apply]
    simp only [hW1k, hb1k, hW2k, hb2k]
  have hZr : ∀ i, IsRealE (Z i) := fun i => by
    rw [hZeq]; exact dense128_real x a W1 b1 W2 b2 hx ha hW1 hb1 hW2 hb2 i
  refine ⟨?_, fun i => ?_⟩
  · rw [← hZeq]
    exact Cert.BnBridge.bridge Z g be S SS hZr hg hbe hS hSS
  · rw [← hZeq]
    exact Cert.BnBridge.bn_real Z g be hZr hg hbe i

end Cert.LayerBridge

end
-- ==== Proof.StageEq.lean ====
/- The kernel program's host stages are the reference's, stage by stage, at the ideal instance. The two programs name
   their shapes and dimension records separately, with equal definitions, so each equation holds by unfolding the two
   stage definitions: the same operations applied to the same records. Two stages exist only on the kernel's side —
   the weight matrices rounded to the narrow float format, which at the ideal instance is no change, and a vector
   laid out as a one-row table, which reads the vector's entry at the column. -/
import proofs.«172250_j15616501088594_1_alg».proof.Proof.Ref.Stages
import proofs.«172250_j15616501088594_1_alg».proof.Proof.KI.Stages
import Idealize.ShloMosaic.Lib.ValueLayout
import Idealize.ShloMosaic.PureOps.Ideal

noncomputable section

namespace Cert.StageEq

open Idealize.ShloMosaic Idealize.ShloMosaic.ValueIdx
open Cert.KernelIdeal.HandVal Cert.ReferenceIdeal.HandRun

local notation:max "𝔸[" s ", " e "]" => BufTy.Contents (Elt Ideal) (BufTy.mk s e)

/-! ## The edge lists and the neighbour sums -/

theorem srcK_eq (ei : 𝔸[Cert.KernelIdeal.S2x1600000, .i32]) : srcK (F := Ideal) ei = src (F := Ideal) ei := rfl

theorem dstK_eq (ei : 𝔸[Cert.KernelIdeal.S2x1600000, .i32]) : dstK (F := Ideal) ei = dst (F := Ideal) ei := rfl

theorem aggK64_eq (h : 𝔸[Cert.KernelIdeal.S100000x64, .f32]) (s d : 𝔸[Cert.KernelIdeal.S1600000, .i32]) :
    aggK64 (F := Ideal) h s d = agg64 (F := Ideal) h s d := rfl

theorem aggK128_eq (h : 𝔸[Cert.KernelIdeal.S100000x128, .f32]) (s d : 𝔸[Cert.KernelIdeal.S1600000, .i32]) :
    aggK128 (F := Ideal) h s d = agg128 (F := Ideal) h s d := rfl

/-! ## The slices of the stacked parameters -/

theorem mat0K_eq (x : 𝔸[Cert.KernelIdeal.S2x128x128, .f32]) : mat0K (F := Ideal) x = mat0 (F := Ideal) x := rfl

theorem mat1K_eq (x : 𝔸[Cert.KernelIdeal.S2x128x128, .f32]) : mat1K (F := Ideal) x = mat1 (F := Ideal) x := rfl

theorem vec0K_eq (x : 𝔸[Cert.KernelIdeal.S2x128, .f32]) : vec0K (F := Ideal) x = vec0 (F := Ideal) x := rfl

theorem vec1K_eq (x : 𝔸[Cert.KernelIdeal.S2x128, .f32]) : vec1K (F := Ideal) x = vec1 (F := Ideal) x := rfl

/-! ## The per-graph sums and the read-out -/

theorem poolK_eq (h : 𝔸[Cert.KernelIdeal.S100000x128, .f32]) (b : 𝔸[Cert.KernelIdeal.S100000, .i32]) :
    poolK (F := Ideal) h b = pool (F := Ideal) h b := rfl

theorem outpK_eq (p : 𝔸[Cert.KernelIdeal.S256x128, .f32]) (w : 𝔸[Cert.KernelIdeal.S128x1, .f32]) (c : 𝔸[Cert.KernelIdeal.S1, .f32]) :
    outpK (F := Ideal) p w c = outp (F := Ideal) p w c := rfl

/-! ## The kernel's own two stages -/

/-- Rounding to the narrow format is the identity on extended reals, entry by entry. -/
theorem castK64_apply (w : 𝔸[Cert.KernelIdeal.S64x128, .f32]) (i : Cert.KernelIdeal.S64x128.Idx) :
    (castK64 (F := Ideal) w i : EReal) = (w i : EReal) := rfl

theorem castK128_apply (w : 𝔸[Cert.KernelIdeal.S128x128, .f32]) (i : Cert.KernelIdeal.S128x128.Idx) :
    (castK128 (F := Ideal) w i : EReal) = (w i : EReal) := rfl

/-- The same as equations between functions into the extended reals. -/
theorem castK64_eq (w : 𝔸[Cert.KernelIdeal.S64x128, .f32]) :
    (castK64 (F := Ideal) w : Cert.KernelIdeal.S64x128.Idx → EReal) = (w : Cert.KernelIdeal.S64x128.Idx → EReal) := rfl

theorem castK128_eq (w : 𝔸[Cert.KernelIdeal.S128x128, .f32]) :
    (castK128 (F := Ideal) w : Cert.KernelIdeal.S128x128.Idx → EReal) = (w : Cert.KernelIdeal.S128x128.Idx → EReal) := rfl

/-- A vector laid out as a one-row table reads, at row 0 and column `q`, the vector's entry `q`. -/
theorem rowK_apply (b : 𝔸[Cert.KernelIdeal.S128, .f32]) (q : Fin 128) :
    rowK (F := Ideal) b (ix2 (0 : Fin 1) q) = b (ix1 q) :=
  shapeCast_a_1a_apply b _ 0 q

end Cert.StageEq

end
-- ==== Proof.SliceReal.lean ====
/- The slices of the stacked parameters keep realness: each entry of a slice of a stacked array, reshaped to drop
   the unit axis, is an entry of the stacked array, so it is a real number when all the array's entries are. -/
import proofs.«172250_j15616501088594_1_alg».proof.Proof.Ref.Stages
import proofs.«172250_j15616501088594_1_alg».proof.Proof.LibRealEntries

noncomputable section

namespace Cert.SliceReal

open Idealize.ShloMosaic
open Cert.RealEntries Cert.ReferenceIdeal.HandRun

/-- Slice 0 of a stack of two matrices: each entry is an entry of the stack. -/
theorem mat0_real (x : Cert.ReferenceIdeal.S2x128x128.Idx → EReal) (hx : ∀ j, IsRealE (x j))
    (i : Cert.ReferenceIdeal.S128x128.Idx) : IsRealE (mat0 (F := Ideal) x i) :=
  hx _

/-- Slice 1 of a stack of two matrices: each entry is an entry of the stack. -/
theorem mat1_real (x : Cert.ReferenceIdeal.S2x128x128.Idx → EReal) (hx : ∀ j, IsRealE (x j))
    (i : Cert.ReferenceIdeal.S128x128.Idx) : IsRealE (mat1 (F := Ideal) x i) :=
  hx _

/-- Row 0 of a two-row table: each entry is an entry of the table. -/
theorem vec0_real (x : Cert.ReferenceIdeal.S2x128.Idx → EReal) (hx : ∀ j, IsRealE (x j))
    (i : Cert.ReferenceIdeal.S128.Idx) : IsRealE (vec0 (F := Ideal) x i) :=
  hx _

/-- Row 1 of a two-row table: each entry is an entry of the table. -/
theorem vec1_real (x : Cert.ReferenceIdeal.S2x128.Idx → EReal) (hx : ∀ j, IsRealE (x j))
    (i : Cert.ReferenceIdeal.S128.Idx) : IsRealE (vec1 (F := Ideal) x i) :=
  hx _

end Cert.SliceReal

end
-- ==== Proof.KI.FiniteInputs.lean ====
import proofs.«172250_j15616501088594_1_alg».proof.Defs
import proofs.«172250_j15616501088594_1_alg».proof.Proof.Gen.Pre_finite_inputs
import proofs.«172250_j15616501088594_1_alg».proof.Proof.LibRealEntries
import Idealize.ShloMosaic.Lib.ReduceAll
import Idealize.ShloMosaic.Lib.ValueIdx

/-!
# Finite inputs are real

The precondition says, of each float argument array, that the conjunction over all its entries of
"the absolute value is below plus infinity" holds. Over the extended reals an entry whose absolute value is
below plus infinity is neither infinity, so it is the coercion of a real number.
-/

noncomputable section

namespace Cert.KernelIdeal.HandVal

open Idealize.ShloMosaic Idealize.ShloMosaic.ValueIdx
open Cert.RealEntries

/-- The shape with one index. -/
abbrev S0 : Shape := ⟨0, ![]⟩

instance subsingleton_S0_idx : Subsingleton S0.Idx := ⟨fun a b => funext fun d => d.elim0⟩

/-- The word of plus infinity denotes the top extended real. -/
theorem ofBits_inf : Ideal.ofBits .f32 0x7F800000#32 = ⊤ := by simp [Ideal.ofBits, Ideal.ieee]

/-- One entry: if the comparison "absolute value below plus infinity" answers one, the entry is real. -/
theorem isRealE_of_abs_lt_inf (x : Ideal .f32)
    (h : FloatOps.cmpf .olt (FloatOps.hostAbsf x) (FloatOps.ofBits (F := Ideal) .f32 0x7F800000#32) = 1#1) :
    IsRealE x := by
  change Ideal.cmp .olt (max (x : EReal) (-(x : EReal))) (Ideal.ofBits .f32 0x7F800000#32) = 1#1 at h
  rw [ofBits_inf] at h
  unfold Ideal.cmp at h
  induction x using EReal.rec with
  | bot => simp at h
  | coe r => exact ⟨r, rfl⟩
  | top => simp at h

/-- One array: if the conjunction over all entries of "absolute value below plus infinity" is one, every entry is
    real. -/
theorem isRealE_of_all {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi
        (cmpf .olt (Host.absf x) (broadcastInDim s ![] hb (constant (F := Ideal) S0 .f32 0x7F800000#32)))
        (constantI S0 1 1#1) hr hu ix0 = 1#1)
    (i : s.Idx) : IsRealE (x i) :=
  isRealE_of_abs_lt_inf (x i) (Host.reduce_andi_all _ _ hr hu ix0 e i)

/-- A conjunction of two one-bit arrays that is one at an index has both arrays one there. -/
theorem andi_one {s : Shape} (a b : IVec s 1) (i : s.Idx) (h : andi a b i = 1#1) : a i = 1#1 ∧ b i = 1#1 :=
  IntOp.andi_eq_one.1 h

open Cert.KernelIdeal

/-- Under the precondition every entry of each of the fifteen float argument arrays is real (the two integer
    arrays, arguments 1 and 2, are not constrained). The conjuncts are in argument order. -/
theorem inputs_real [Cert.Pre_finite_inputs.Facts] (m : (ℓ : Loc nD τ sig) → Buf (Elt Ideal) ℓ)
    (h : Cert.Pre_KernelIdeal m) (c : Dev nD) :
    (∀ i, IsRealE (m ((c.tc : Thread nD τ).loc main_arg0) i))
      ∧ (∀ i, IsRealE (m ((c.tc : Thread nD τ).loc main_arg3) i))
      ∧ (∀ i, IsRealE (m ((c.tc : Thread nD τ).loc main_arg4) i))
      ∧ (∀ i, IsRealE (m ((c.tc : Thread nD τ).loc main_arg5) i))
      ∧ (∀ i, IsRealE (m ((c.tc : Thread nD τ).loc main_arg6) i))
      ∧ (∀ i, IsRealE (m ((c.tc : Thread nD τ).loc main_arg7) i))
      ∧ (∀ i, IsRealE (m ((c.tc : Thread nD τ).loc main_arg8) i))
      ∧ (∀ i, IsRealE (m ((c.tc : Thread nD τ).loc main_arg9) i))
      ∧ (∀ i, IsRealE (m ((c.tc : Thread nD τ).loc main_arg10) i))
      ∧ (∀ i, IsRealE (m ((c.tc : Thread nD τ).loc main_arg11) i))
      ∧ (∀ i, IsRealE (m ((c.tc : Thread nD τ).loc main_arg12) i))
      ∧ (∀ i, IsRealE (m ((c.tc : Thread nD τ).loc main_arg13) i))
      ∧ (∀ i, IsRealE (m ((c.tc : Thread nD τ).loc main_arg14) i))
      ∧ (∀ i, IsRealE (m ((c.tc : Thread nD τ).loc main_arg15) i))
      ∧ (∀ i, IsRealE (m ((c.tc : Thread nD τ).loc main_arg16) i)) := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, e16⟩ := andi_one _ _ _ h0
  obtain ⟨h0, e15⟩ := andi_one _ _ _ h0
  obtain ⟨h0, e14⟩ := andi_one _ _ _ h0
  obtain ⟨h0, e13⟩ := andi_one _ _ _ h0
  obtain ⟨h0, e12⟩ := andi_one _ _ _ h0
  obtain ⟨h0, e11⟩ := andi_one _ _ _ h0
  obtain ⟨h0, e10⟩ := andi_one _ _ _ h0
  obtain ⟨h0, e9⟩ := andi_one _ _ _ h0
  obtain ⟨h0, e8⟩ := andi_one _ _ _ h0
  obtain ⟨h0, e7⟩ := andi_one _ _ _ h0
  obtain ⟨h0, e6⟩ := andi_one _ _ _ h0
  obtain ⟨h0, e5⟩ := andi_one _ _ _ h0
  obtain ⟨h0, e4⟩ := andi_one _ _ _ h0
  obtain ⟨e0, e3⟩ := andi_one _ _ _ h0
  exact ⟨isRealE_of_all _ _ _ _ e0,
    isRealE_of_all _ _ _ _ e3,
    isRealE_of_all _ _ _ _ e4,
    isRealE_of_all _ _ _ _ e5,
    isRealE_of_all _ _ _ _ e6,
    isRealE_of_all _ _ _ _ e7,
    isRealE_of_all _ _ _ _ e8,
    isRealE_of_all _ _ _ _ e9,
    isRealE_of_all _ _ _ _ e10,
    isRealE_of_all _ _ _ _ e11,
    isRealE_of_all _ _ _ _ e12,
    isRealE_of_all _ _ _ _ e13,
    isRealE_of_all _ _ _ _ e14,
    isRealE_of_all _ _ _ _ e15,
    isRealE_of_all _ _ _ _ e16⟩

/-- Every entry of float argument 0 is real. -/
theorem real_arg0 [Cert.Pre_finite_inputs.Facts] (m : (ℓ : Loc nD τ sig) → Buf (Elt Ideal) ℓ)
    (h : Cert.Pre_KernelIdeal m) (c : Dev nD) : ∀ i, IsRealE (m ((c.tc : Thread nD τ).loc main_arg0) i) :=
  (inputs_real m h c).1

/-- Every entry of float argument 3 is real. -/
theorem real_arg3 [Cert.Pre_finite_inputs.Facts] (m : (ℓ : Loc nD τ sig) → Buf (Elt Ideal) ℓ)
    (h : Cert.Pre_KernelIdeal m) (c : Dev nD) : ∀ i, IsRealE (m ((c.tc : Thread nD τ).loc main_arg3) i) :=
  (inputs_real m h c).2.1

/-- Every entry of float argument 4 is real. -/
theorem real_arg4 [Cert.Pre_finite_inputs.Facts] (m : (ℓ : Loc nD τ sig) → Buf (Elt Ideal) ℓ)
    (h : Cert.Pre_KernelIdeal m) (c : Dev nD) : ∀ i, IsRealE (m ((c.tc : Thread nD τ).loc main_arg4) i) :=
  (inputs_real m h c).2.2.1

/-- Every entry of float argument 5 is real. -/
theorem real_arg5 [Cert.Pre_finite_inputs.Facts] (m : (ℓ : Loc nD τ sig) → Buf (Elt Ideal) ℓ)
    (h : Cert.Pre_KernelIdeal m) (c : Dev nD) : ∀ i, IsRealE (m ((c.tc : Thread nD τ).loc main_arg5) i) :=
  (inputs_real m h c).2.2.2.1

/-- Every entry of float argument 6 is real. -/
theorem real_arg6 [Cert.Pre_finite_inputs.Facts] (m : (ℓ : Loc nD τ sig) → Buf (Elt Ideal) ℓ)
    (h : Cert.Pre_KernelIdeal m) (c : Dev nD) : ∀ i, IsRealE (m ((c.tc : Thread nD τ).loc main_arg6) i) :=
  (inputs_real m h c).2.2.2.2.1

/-- Every entry of float argument 7 is real. -/
theorem real_arg7 [Cert.Pre_finite_inputs.Facts] (m : (ℓ : Loc nD τ sig) → Buf (Elt Ideal) ℓ)
    (h : Cert.Pre_KernelIdeal m) (c : Dev nD) : ∀ i, IsRealE (m ((c.tc : Thread nD τ).loc main_arg7) i) :=
  (inputs_real m h c).2.2.2.2.2.1

/-- Every entry of float argument 8 is real. -/
theorem real_arg8 [Cert.Pre_finite_inputs.Facts] (m : (ℓ : Loc nD τ sig) → Buf (Elt Ideal) ℓ)
    (h : Cert.Pre_KernelIdeal m) (c : Dev nD) : ∀ i, IsRealE (m ((c.tc : Thread nD τ).loc main_arg8) i) :=
  (inputs_real m h c).2.2.2.2.2.2.1

/-- Every entry of float argument 9 is real. -/
theorem real_arg9 [Cert.Pre_finite_inputs.Facts] (m : (ℓ : Loc nD τ sig) → Buf (Elt Ideal) ℓ)
    (h : Cert.Pre_KernelIdeal m) (c : Dev nD) : ∀ i, IsRealE (m ((c.tc : Thread nD τ).loc main_arg9) i) :=
  (inputs_real m h c).2.2.2.2.2.2.2.1

/-- Every entry of float argument 10 is real. -/
theorem real_arg10 [Cert.Pre_finite_inputs.Facts] (m : (ℓ : Loc nD τ sig) → Buf (Elt Ideal) ℓ)
    (h : Cert.Pre_KernelIdeal m) (c : Dev nD) : ∀ i, IsRealE (m ((c.tc : Thread nD τ).loc main_arg10) i) :=
  (inputs_real m h c).2.2.2.2.2.2.2.2.1

/-- Every entry of float argument 11 is real. -/
theorem real_arg11 [Cert.Pre_finite_inputs.Facts] (m : (ℓ : Loc nD τ sig) → Buf (Elt Ideal) ℓ)
    (h : Cert.Pre_KernelIdeal m) (c : Dev nD) : ∀ i, IsRealE (m ((c.tc : Thread nD τ).loc main_arg11) i) :=
  (inputs_real m h c).2.2.2.2.2.2.2.2.2.1

/-- Every entry of float argument 12 is real. -/
theorem real_arg12 [Cert.Pre_finite_inputs.Facts] (m : (ℓ : Loc nD τ sig) → Buf (Elt Ideal) ℓ)
    (h : Cert.Pre_KernelIdeal m) (c : Dev nD) : ∀ i, IsRealE (m ((c.tc : Thread nD τ).loc main_arg12) i) :=
  (inputs_real m h c).2.2.2.2.2.2.2.2.2.2.1

/-- Every entry of float argument 13 is real. -/
theorem real_arg13 [Cert.Pre_finite_inputs.Facts] (m : (ℓ : Loc nD τ sig) → Buf (Elt Ideal) ℓ)
    (h : Cert.Pre_KernelIdeal m) (c : Dev nD) : ∀ i, IsRealE (m ((c.tc : Thread nD τ).loc main_arg13) i) :=
  (inputs_real m h c).2.2.2.2.2.2.2.2.2.2.2.1

/-- Every entry of float argument 14 is real. -/
theorem real_arg14 [Cert.Pre_finite_inputs.Facts] (m : (ℓ : Loc nD τ sig) → Buf (Elt Ideal) ℓ)
    (h : Cert.Pre_KernelIdeal m) (c : Dev nD) : ∀ i, IsRealE (m ((c.tc : Thread nD τ).loc main_arg14) i) :=
  (inputs_real m h c).2.2.2.2.2.2.2.2.2.2.2.2.1

/-- Every entry of float argument 15 is real. -/
theorem real_arg15 [Cert.Pre_finite_inputs.Facts] (m : (ℓ : Loc nD τ sig) → Buf (Elt Ideal) ℓ)
    (h : Cert.Pre_KernelIdeal m) (c : Dev nD) : ∀ i, IsRealE (m ((c.tc : Thread nD τ).loc main_arg15) i) :=
  (inputs_real m h c).2.2.2.2.2.2.2.2.2.2.2.2.2.1

/-- Every entry of float argument 16 is real. -/
theorem real_arg16 [Cert.Pre_finite_inputs.Facts] (m : (ℓ : Loc nD τ sig) → Buf (Elt Ideal) ℓ)
    (h : Cert.Pre_KernelIdeal m) (c : Dev nD) : ∀ i, IsRealE (m ((c.tc : Thread nD τ).loc main_arg16) i) :=
  (inputs_real m h c).2.2.2.2.2.2.2.2.2.2.2.2.2.2

end Cert.KernelIdeal.HandVal
-- ==== Proof.BridgeLayers.lean ====
/-
  One layer of the kernel program is one layer of the network, stated on a table given by its entries. The first
  region of a layer computes the perceptron's formula read with the weights rounded to the narrow float format — no
  change over the extended reals — and the bias vectors laid out as rows; its two one-row outputs are that table's
  column sums and column sums of squares; the second region applies the scale and shift the host computed from those
  sums. On operands with real entries this is the network's perceptron followed by its normalisation by column mean
  and variance, and the result again has real entries — which the finite launch arguments give layer after layer.
-/
import proofs.«172250_j15616501088594_1_alg».proof.Proof.BridgeRef
import proofs.«172250_j15616501088594_1_alg».proof.Proof.LayerBridge
import proofs.«172250_j15616501088594_1_alg».proof.Proof.StageEq
import proofs.«172250_j15616501088594_1_alg».proof.Proof.SliceReal
import proofs.«172250_j15616501088594_1_alg».proof.Proof.KI.FiniteInputs

set_option maxRecDepth 16384

noncomputable section

namespace Cert.Bridge

open Idealize.ShloMosaic Idealize.ShloMosaic.TcCoe Idealize.SL.Sem
open Cert.ReferenceIdeal.HandRun

open Idealize.ShloMosaic.ValueIdx
open scoped BigOperators
open Cert.RealEntries Cert.LayerBridge Cert.StageEq Cert.SliceReal
open Cert.KernelIdeal.HandVal

variable (m : (ℓ : Loc Cert.KernelIdeal.nD Cert.KernelIdeal.τ Cert.KernelIdeal.sig) → Buf (Elt Ideal) ℓ) (c : Dev Cert.KernelIdeal.nD)

/-- Layer 0: a table `Z` given entry by entry by the perceptron's formula on the input table `x`, its neighbour sum `a`
    and the first layer's parameters (weights rounded, biases as rows), with its column sums `S` and column sums of
    squares `SS`, normalised by the scale and shift of those sums, is the network's layer 0; every entry is real. -/
theorem layer0_pure (hpre : Cert.Pre_KernelIdeal m)
    (x a : Cert.KernelIdeal.S100000x64.Idx → EReal) (w1k : Cert.KernelIdeal.S64x128.Idx → EReal) (b1k : Cert.KernelIdeal.S1x128.Idx → EReal)
    (w2k : Cert.KernelIdeal.S128x128.Idx → EReal) (b2k : Cert.KernelIdeal.S1x128.Idx → EReal)
    (hx : x = (m (c, Proc.devRef .tc Cert.KernelIdeal.main_arg0))) (ha : a = agg64 (F := Ideal) (m (c, Proc.devRef .tc Cert.KernelIdeal.main_arg0)) (src (F := Ideal) (m (c, Proc.devRef .tc Cert.KernelIdeal.main_arg1))) (dst (F := Ideal) (m (c, Proc.devRef .tc Cert.KernelIdeal.main_arg1))))
    (hw1 : w1k = castK64 (F := Ideal) (m (c, Proc.devRef .tc Cert.KernelIdeal.main_arg3))) (hb1 : b1k = rowK (F := Ideal) (m (c, Proc.devRef .tc Cert.KernelIdeal.main_arg4)))
    (hw2 : w2k = castK128 (F := Ideal) (m (c, Proc.devRef .tc Cert.KernelIdeal.main_arg5))) (hb2 : b2k = rowK (F := Ideal) (m (c, Proc.devRef .tc Cert.KernelIdeal.main_arg6)))
    (Z : Cert.KernelIdeal.S100000x128.Idx → EReal) (S SS : Cert.KernelIdeal.S1x128.Idx → EReal)
    (hZ : ∀ (r : Fin 100000) (q : Fin 128), Z (ix2 r q)
      = max ((∑ l : Fin 128, max ((∑ j : Fin 64, (x (ix2 r j) + a (ix2 r j)) * w1k (ix2 j l)) + b1k (ix2 (0 : Fin 1) l)) 0
                * w2k (ix2 l q)) + b2k (ix2 (0 : Fin 1) q)) 0)
    (hS : ∀ q : Fin 128, S (ix2 (0 : Fin 1) q) = ∑ r : Fin 100000, Z (ix2 r q))
    (hSS : ∀ q : Fin 128, SS (ix2 (0 : Fin 1) q) = ∑ r : Fin 100000, Z (ix2 r q) * Z (ix2 r q)) :
    clampAffine1 Z (scaleK (F := Ideal) S SS (m (c, Proc.devRef .tc Cert.KernelIdeal.main_arg7))) (shiftK (F := Ideal) S SS (m (c, Proc.devRef .tc Cert.KernelIdeal.main_arg7)) (m (c, Proc.devRef .tc Cert.KernelIdeal.main_arg8))) = E0 m c
      ∧ ∀ i, IsRealE (E0 m c i) := by
  subst hx ha hw1 hb1 hw2 hb2
  exact layer64 (m (c, Proc.devRef .tc Cert.KernelIdeal.main_arg0)) (agg64 (F := Ideal) (m (c, Proc.devRef .tc Cert.KernelIdeal.main_arg0)) (src (F := Ideal) (m (c, Proc.devRef .tc Cert.KernelIdeal.main_arg1))) (dst (F := Ideal) (m (c, Proc.devRef .tc Cert.KernelIdeal.main_arg1))))
    (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)) (m (c, Proc.devRef .tc Cert.KernelIdeal.main_arg7)) (m (c, Proc.devRef .tc Cert.KernelIdeal.main_arg8))
    (real_arg0 m hpre c) (agg64_real _ _ _ (real_arg0 m hpre c)) (real_arg3 m hpre c) (real_arg4 m hpre c) (real_arg5 m hpre c) (real_arg6 m hpre c) (real_arg7 m hpre c) (real_arg8 m hpre c)
    (castK64 (F := Ideal) (m (c, Proc.devRef .tc Cert.KernelIdeal.main_arg3))) (fun i => castK64_apply _ i) (rowK (F := Ideal) (m (c, Proc.devRef .tc Cert.KernelIdeal.main_arg4))) (fun q => rowK_apply _ q)
    (castK128 (F := Ideal) (m (c, Proc.devRef .tc Cert.KernelIdeal.main_arg5))) (fun i => castK128_apply _ i) (rowK (F := Ideal) (m (c, Proc.devRef .tc Cert.KernelIdeal.main_arg6))) (fun q => rowK_apply _ q)
    Z hZ S SS hS hSS

/-- Layer 1: a table `Z` given entry by entry by the perceptron's formula on the previous layer's table `x`, its
    neighbour sum `a` and slice 0 of the stacked parameters (weights rounded, biases as rows), with its column sums `S`
    and column sums of squares `SS`, normalised by the scale and shift of those sums, is the network's layer 1; every
    entry is real. -/
theorem layer1_pure (hpre : Cert.Pre_KernelIdeal m) (hr : ∀ i, IsRealE (E0 m c i))
    (x a : Cert.KernelIdeal.S100000x128.Idx → EReal) (w1k : Cert.KernelIdeal.S128x128.Idx → EReal) (b1k : Cert.KernelIdeal.S1x128.Idx → EReal)
    (w2k : Cert.KernelIdeal.S128x128.Idx → EReal) (b2k : Cert.KernelIdeal.S1x128.Idx → EReal)
    (hx : x = E0 m c) (ha : a = agg128 (F := Ideal) (E0 m c) (src (F := Ideal) (m (c, Proc.devRef .tc Cert.KernelIdeal.main_arg1))) (dst (F := Ideal) (m (c, Proc.devRef .tc Cert.KernelIdeal.main_arg1))))
    (hw1 : w1k = castK128 (F := Ideal) (mat0K (F := Ideal) (m (c, Proc.devRef .tc Cert.KernelIdeal.main_arg9)))) (hb1 : b1k = rowK (F := Ideal) (vec0K (F := Ideal) (m (c, Proc.devRef .tc Cert.KernelIdeal.main_arg10))))
    (hw2 : w2k = castK128 (F := Ideal) (mat0K (F := Ideal) (m (c, Proc.devRef .tc Cert.KernelIdeal.main_arg11)))) (hb2 : b2k = rowK (F := Ideal) (vec0K (F := Ideal) (m (c, Proc.devRef .tc Cert.KernelIdeal.main_arg12))))
    (Z : Cert.KernelIdeal.S100000x128.Idx → EReal) (S SS : Cert.KernelIdeal.S1x128.Idx → EReal)
    (hZ : ∀ (r : Fin 100000) (q : Fin 128), Z (ix2 r q)
      = max ((∑ l : Fin 128, max ((∑ j : Fin 128, (x (ix2 r j) + a (ix2 r j)) * w1k (ix2 j l)) + b1k (ix2 (0 : Fin 1) l)) 0
                * w2k (ix2 l q)) + b2k (ix2 (0 : Fin 1) q)) 0)
    (hS : ∀ q : Fin 128, S (ix2 (0 : Fin 1) q) = ∑ r : Fin 100000, Z (ix2 r q))
    (hSS : ∀ q : Fin 128, SS (ix2 (0 : Fin 1) q) = ∑ r : Fin 100000, Z (ix2 r q) * Z (ix2 r q)) :
    clampAffine1 Z (scaleK (F := Ideal) S SS (vec0K (F := Ideal) (m (c, Proc.devRef .tc Cert.KernelIdeal.main_arg13))))
        (shiftK (F := Ideal) S SS (vec0K (F := Ideal) (m (c, Proc.devRef .tc Cert.KernelIdeal.main_arg13))) (vec0K (F := Ideal) (m (c, Proc.devRef .tc Cert.KernelIdeal.main_arg14)))) = E1 m c
      ∧ ∀ i, IsRealE (E1 m c i) := by
  subst hx ha hw1 hb1 hw2 hb2
  exact layer128 (E0 m c) (agg128 (F := Ideal) (E0 m c) (src (F := Ideal) (m (c, Proc.devRef .tc Cert.KernelIdeal.main_arg1))) (dst (F := Ideal) (m (c, Proc.devRef .tc Cert.KernelIdeal.main_arg1))))
    (mat0 (F := Ideal) (m (c, Proc.devRef .tc Cert.KernelIdeal.main_arg9))) (vec0 (F := Ideal) (m (c, Proc.devRef .tc Cert.KernelIdeal.main_arg10))) (mat0 (F := Ideal) (m (c, Proc.devRef .tc Cert.KernelIdeal.main_arg11))) (vec0 (F := Ideal) (m (c, Proc.devRef .tc Cert.KernelIdeal.main_arg12)))
    (vec0 (F := Ideal) (m (c, Proc.devRef .tc Cert.KernelIdeal.main_arg13))) (vec0 (F := Ideal) (m (c, Proc.devRef .tc Cert.KernelIdeal.main_arg14)))
    hr (agg128_real _ _ _ hr) (mat0_real _ (real_arg9 m hpre c)) (vec0_real _ (real_arg10 m hpre c)) (mat0_real _ (real_arg11 m hpre c))
    (vec0_real _ (real_arg12 m hpre c)) (vec0_real _ (real_arg13 m hpre c)) (vec0_real _ (real_arg14 m hpre c))
    (castK128 (F := Ideal) (mat0K (F := Ideal) (m (c, Proc.devRef .tc Cert.KernelIdeal.main_arg9)))) (fun i => castK128_apply _ i) (rowK (F := Ideal) (vec0K (F := Ideal) (m (c, Proc.devRef .tc Cert.KernelIdeal.main_arg10)))) (fun q => rowK_apply _ q)
    (castK128 (F := Ideal) (mat0K (F := Ideal) (m (c, Proc.devRef .tc Cert.KernelIdeal.main_arg11)))) (fun i => castK128_apply _ i) (rowK (F := Ideal) (vec0K (F := Ideal) (m (c, Proc.devRef .tc Cert.KernelIdeal.main_arg12)))) (fun q => rowK_apply _ q)
    Z hZ S SS hS hSS

/-- Layer 2: a table `Z` given entry by entry by the perceptron's formula on the previous layer's table `x`, its
    neighbour sum `a` and slice 1 of the stacked parameters (weights rounded, biases as rows), with its column sums `S`
    and column sums of squares `SS`, normalised by the scale and shift of those sums, is the network's layer 2; every
    entry is real. -/
theorem layer2_pure (hpre : Cert.Pre_KernelIdeal m) (hr : ∀ i, IsRealE (E1 m c i))
    (x a : Cert.KernelIdeal.S100000x128.Idx → EReal) (w1k : Cert.KernelIdeal.S128x128.Idx → EReal) (b1k : Cert.KernelIdeal.S1x128.Idx → EReal)
    (w2k : Cert.KernelIdeal.S128x128.Idx → EReal) (b2k : Cert.KernelIdeal.S1x128.Idx → EReal)
    (hx : x = E1 m c) (ha : a = agg128 (F := Ideal) (E1 m c) (src (F := Ideal) (m (c, Proc.devRef .tc Cert.KernelIdeal.main_arg1))) (dst (F := Ideal) (m (c, Proc.devRef .tc Cert.KernelIdeal.main_arg1))))
    (hw1 : w1k = castK128 (F := Ideal) (mat1K (F := Ideal) (m (c, Proc.devRef .tc Cert.KernelIdeal.main_arg9)))) (hb1 : b1k = rowK (F := Ideal) (vec1K (F := Ideal) (m (c, Proc.devRef .tc Cert.KernelIdeal.main_arg10))))
    (hw2 : w2k = castK128 (F := Ideal) (mat1K (F := Ideal) (m (c, Proc.devRef .tc Cert.KernelIdeal.main_arg11)))) (hb2 : b2k = rowK (F := Ideal) (vec1K (F := Ideal) (m (c, Proc.devRef .tc Cert.KernelIdeal.main_arg12))))
    (Z : Cert.KernelIdeal.S100000x128.Idx → EReal) (S SS : Cert.KernelIdeal.S1x128.Idx → EReal)
    (hZ : ∀ (r : Fin 100000) (q : Fin 128), Z (ix2 r q)
      = max ((∑ l : Fin 128, max ((∑ j : Fin 128, (x (ix2 r j) + a (ix2 r j)) * w1k (ix2 j l)) + b1k (ix2 (0 : Fin 1) l)) 0
                * w2k (ix2 l q)) + b2k (ix2 (0 : Fin 1) q)) 0)
    (hS : ∀ q : Fin 128, S (ix2 (0 : Fin 1) q) = ∑ r : Fin 100000, Z (ix2 r q))
    (hSS : ∀ q : Fin 128, SS (ix2 (0 : Fin 1) q) = ∑ r : Fin 100000, Z (ix2 r q) * Z (ix2 r q)) :
    clampAffine1 Z (scaleK (F := Ideal) S SS (vec1K (F := Ideal) (m (c, Proc.devRef .tc Cert.KernelIdeal.main_arg13))))
        (shiftK (F := Ideal) S SS (vec1K (F := Ideal) (m (c, Proc.devRef .tc Cert.KernelIdeal.main_arg13))) (vec1K (F := Ideal) (m (c, Proc.devRef .tc Cert.KernelIdeal.main_arg14)))) = E2 m c
      ∧ ∀ i, IsRealE (E2 m c i) := by
  subst hx ha hw1 hb1 hw2 hb2
  exact layer128 (E1 m c) (agg128 (F := Ideal) (E1 m c) (src (F := Ideal) (m (c, Proc.devRef .tc Cert.KernelIdeal.main_arg1))) (dst (F := Ideal) (m (c, Proc.devRef .tc Cert.KernelIdeal.main_arg1))))
    (mat1 (F := Ideal) (m (c, Proc.devRef .tc Cert.KernelIdeal.main_arg9))) (vec1 (F := Ideal) (m (c, Proc.devRef .tc Cert.KernelIdeal.main_arg10))) (mat1 (F := Ideal) (m (c, Proc.devRef .tc Cert.KernelIdeal.main_arg11))) (vec1 (F := Ideal) (m (c, Proc.devRef .tc Cert.KernelIdeal.main_arg12)))
    (vec1 (F := Ideal) (m (c, Proc.devRef .tc Cert.KernelIdeal.main_arg13))) (vec1 (F := Ideal) (m (c, Proc.devRef .tc Cert.KernelIdeal.main_arg14)))
    hr (agg128_real _ _ _ hr) (mat1_real _ (real_arg9 m hpre c)) (vec1_real _ (real_arg10 m hpre c)) (mat1_real _ (real_arg11 m hpre c))
    (vec1_real _ (real_arg12 m hpre c)) (vec1_real _ (real_arg13 m hpre c)) (vec1_real _ (real_arg14 m hpre c))
    (castK128 (F := Ideal) (mat1K (F := Ideal) (m (c, Proc.devRef .tc Cert.KernelIdeal.main_arg9)))) (fun i => castK128_apply _ i) (rowK (F := Ideal) (vec1K (F := Ideal) (m (c, Proc.devRef .tc Cert.KernelIdeal.main_arg10)))) (fun q => rowK_apply _ q)
    (castK128 (F := Ideal) (mat1K (F := Ideal) (m (c, Proc.devRef .tc Cert.KernelIdeal.main_arg11)))) (fun i => castK128_apply _ i) (rowK (F := Ideal) (vec1K (F := Ideal) (m (c, Proc.devRef .tc Cert.KernelIdeal.main_arg12)))) (fun q => rowK_apply _ q)
    Z hZ S SS hS hSS

end Cert.Bridge

end
-- ==== Proof.KI.Val3.lean ====
import proofs.«172250_j15616501088594_1_alg».proof.Proof.KI.Reg3
import Idealize.ShloMosaic.Lib.Pipeline.Value
import Idealize.ShloMosaic.Lib.ValueLayout
import Idealize.ShloMosaic.Lib.IdealHost

/-!
# The normalise-and-clamp region 3: its output array as one function of its three input arrays

Read over the extended reals. The region's 50 points write the 50 row blocks of the `100000 × 128` output; block `t`
is rows `2000·t … 2000·t + 1999`, and the row-block that covers row `r` is `r / 2000`. At every index `(r, q)` the
array ends at `max (z (r, q) · scale (0, q) + shift (0, q)) 0`.
-/

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both offsets of a whole-buffer rectangle are zero. -/
theorem offsets_zero3 : (![0, 0] : Fin 2 → Nat) = fun _ => 0 := funext fun a => by fin_cases a <;> rfl

/-- The region's result as one function of its three input arrays: every entry scaled and shifted by its column's
    entries of the two rows, then clamped below at zero. -/
def clampAffine3 (z : S100000x128.Idx → Elt Ideal .f32) (scale shift : S1x128.Idx → Elt Ideal .f32) :
    S100000x128.Idx → Elt Ideal .f32 :=
  fun i => max (z i * scale (ix2 (0 : Fin 1) (i 1)) + shift (ix2 (0 : Fin 1) (i 1))) 0

/-- The same at explicit coordinates. -/
theorem clampAffine3_apply (z : S100000x128.Idx → Elt Ideal .f32) (scale shift : S1x128.Idx → Elt Ideal .f32)
    (r : Fin 100000) (q : Fin 128) :
    clampAffine3 z scale shift (ix2 r q) = max (z (ix2 r q) * scale (ix2 (0 : Fin 1) q) + shift (ix2 (0 : Fin 1) q)) 0 := rfl

/-- The body's stored value at an entry of the block: the block's entry times the first row's entry of its column,
    plus the second row's, clamped below at zero. -/
theorem stored3_apply (x : Vec Ideal S2000x128 .f32) (s b : Vec Ideal S1x128 .f32) (p : Fin 2000) (q : Fin 128) :
    k3_pay1 x s b (ix2 p q) = max (x (ix2 p q) * s (ix2 (0 : Fin 1) q) + b (ix2 (0 : Fin 1) q)) 0 := by
  unfold k3_pay1
  simp only [shapeCast_self]
  refine (maximumf_apply _ _ _).trans ?_
  refine congrArg₂ max ?_ Ideal.ofBits_zero_f32
  refine (addf_apply _ _ _).trans ?_
  refine congrArg₂ (· + ·) ?_ (broadcastTo_1b_ab_apply b _ p q)
  refine (mulf_apply _ _ _).trans ?_
  exact congrArg₂ (· * ·) rfl (broadcastTo_1b_ab_apply s _ p q)

/-- The printed index maps over the grid: the block of `z` and the output's block move together, one row block per
    point; the two rows never move. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `clampAffine3` of the three arrays as the region finds them. -/
theorem flushed3_eq (c : Dev nD) (t : Fin cfg3.N) :
    (dat3 V c).flushed 3 t
      = ((cfg3.win 3).blk t).view.read (Elt Ideal) (clampAffine3 (V c main_v62_0) (V c main_v77) (V c main_v78)) := by
  show (cfg3.win 3).cut (grid3.coords t) ((dat3 V c).after 3 t) = _
  rw [after3_3]
  unfold normed3
  rw [View.canon_unit_zero offsets_zero3]
  simp only [View.ld_unit_zero (S := S2000x128) offsets_zero3, View.ld_unit_zero (S := S1x128) offsets_zero3]
  obtain ⟨e00, e01, e10, e11, e20, e21, e30, e31⟩ := index_facts3 t
  funext j
  obtain ⟨p, q, rfl⟩ : ∃ (p : Fin 2000) (q : Fin 128), j = ix2 p q := ⟨j 0, j 1, eq_ix2 j⟩
  show k3_pay1 (block3 V c 0 t) (block3 V c 1 t) (block3 V c 2 t) (ix2 p q)
    = clampAffine3 (V c main_v62_0) (V c main_v77) (V c main_v78) (((cfg3.win 3).blk t).view.emb (ix2 p q))
  rw [stored3_apply]
  have hz : block3 V c 0 t (ix2 p q) = V c main_v62_0 (((cfg3.win 3).blk t).view.emb (ix2 p q)) := by
    show V c main_v62_0 (((cfg3.win 0).blk t).view.emb (ix2 p q)) = _
    refine congrArg (V c main_v62_0) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * q.val = win3_3.index t (1 : Fin 2) * 128 + 1 * q.val; omega
  have hcol : ((((cfg3.win 3).blk t).view.emb (ix2 p q)) 1 : Fin 128) = q := by
    apply Fin.ext
    show win3_3.index t (1 : Fin 2) * 128 + 1 * q.val = q.val; omega
  have hs : block3 V c 1 t (ix2 (0 : Fin 1) q) = V c main_v77 (ix2 (0 : Fin 1) q) := by
    show V c main_v77 (((cfg3.win 1).blk t).view.emb (ix2 (0 : Fin 1) q)) = _
    refine congrArg (V c main_v77) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  have hb : block3 V c 2 t (ix2 (0 : Fin 1) q) = V c main_v78 (ix2 (0 : Fin 1) q) := by
    show V c main_v78 (((cfg3.win 2).blk t).view.emb (ix2 (0 : Fin 1) q)) = _
    refine congrArg (V c main_v78) (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  rw [hz, hs, hb]
  unfold clampAffine3
  show _ = max (_ * V c main_v77 (ix2 (0 : Fin 1) ((((cfg3.win 3).blk t).view.emb (ix2 p q)) 1 : Fin 128)) + V c main_v78 (ix2 (0 : Fin 1) ((((cfg3.win 3).blk t).view.emb (ix2 p q)) 1 : Fin 128))) 0
  rw [hcol]

/-- An index of the output array is in point `t`'s block iff each coordinate is in the block's range on its axis. -/
theorem mem_block3 (t : Fin cfg3.N) (i : S100000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v79).slice (win3_3.rect t)).set ↔ _
  rw [View.set_slice_whole, Rect.mem_set_unit]
  exact Iff.rfl

/-- Every index of the output array is in the block of the point that its row, divided by 2000, names, and that point
    writes its block back. -/
theorem covered3 (i : S100000x128.Idx) :
    ∃ t : Fin cfg3.N, (cfg3.win 3).flush t = true ∧ i ∈ ((cfg3.win 3).blk t).view.set := by
  have hi0 : (i 0).val < 100000 := idx2_lt0 i
  have hi1 : (i 1).val < 128 := idx2_lt1 i
  obtain ⟨t, ht⟩ : ∃ t : Fin cfg3.N, t.val = (i 0).val / 2000 :=
    ⟨⟨(i 0).val / 2000, by rw [show cfg3.N = 50 from N_3]; omega⟩, rfl⟩
  obtain ⟨e00, e01, e10, e11, e20, e21, e30, e31⟩ := index_facts3 t
  refine ⟨t, flush3_3 t, ?_⟩
  rw [mem_block3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- The output array after the region: `clampAffine3` of the three input arrays as the region finds them. -/
theorem final3 (c : Dev nD) :
    (dat3 V c).arrAt 3 cfg3.N = clampAffine3 (V c main_v62_0) (V c main_v77) (V c main_v78) :=
  (dat3 V c).arrAt_eq_of_cover 3 _ (fun t _ => flushed3_eq V c t) covered3

/-- The same at an entry; the right-hand side is spelt out by the function's own entry lemma above. -/
theorem final3_apply (c : Dev nD) (r : Fin 100000) (q : Fin 128) :
    (dat3 V c).arrAt 3 cfg3.N (ix2 r q)
      = clampAffine3 (V c main_v62_0) (V c main_v77) (V c main_v78) (ix2 r q) :=
  congrFun (final3 V c) (ix2 r q)

end Cert.KernelIdeal.HandVal
-- ==== Proof.KI.Val5.lean ====
import proofs.«172250_j15616501088594_1_alg».proof.Proof.KI.Reg5
import Idealize.ShloMosaic.Lib.Pipeline.Value
import Idealize.ShloMosaic.Lib.ValueLayout
import Idealize.ShloMosaic.Lib.IdealHost

/-!
# The normalise-and-clamp region 5: its output array as one function of its three input arrays

Read over the extended reals. The region's 50 points write the 50 row blocks of the `100000 × 128` output; block `t`
is rows `2000·t … 2000·t + 1999`, and the row-block that covers row `r` is `r / 2000`. At every index `(r, q)` the
array ends at `max (z (r, q) · scale (0, q) + shift (0, q)) 0`.
-/

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both offsets of a whole-buffer rectangle are zero. -/
theorem offsets_zero5 : (![0, 0] : Fin 2 → Nat) = fun _ => 0 := funext fun a => by fin_cases a <;> rfl

/-- The region's result as one function of its three input arrays: every entry scaled and shifted by its column's
    entries of the two rows, then clamped below at zero. -/
def clampAffine5 (z : S100000x128.Idx → Elt Ideal .f32) (scale shift : S1x128.Idx → Elt Ideal .f32) :
    S100000x128.Idx → Elt Ideal .f32 :=
  fun i => max (z i * scale (ix2 (0 : Fin 1) (i 1)) + shift (ix2 (0 : Fin 1) (i 1))) 0

/-- The same at explicit coordinates. -/
theorem clampAffine5_apply (z : S100000x128.Idx → Elt Ideal .f32) (scale shift : S1x128.Idx → Elt Ideal .f32)
    (r : Fin 100000) (q : Fin 128) :
    clampAffine5 z scale shift (ix2 r q) = max (z (ix2 r q) * scale (ix2 (0 : Fin 1) q) + shift (ix2 (0 : Fin 1) q)) 0 := rfl

/-- The body's stored value at an entry of the block: the block's entry times the first row's entry of its column,
    plus the second row's, clamped below at zero. -/
theorem stored5_apply (x : Vec Ideal S2000x128 .f32) (s b : Vec Ideal S1x128 .f32) (p : Fin 2000) (q : Fin 128) :
    k5_pay1 x s b (ix2 p q) = max (x (ix2 p q) * s (ix2 (0 : Fin 1) q) + b (ix2 (0 : Fin 1) q)) 0 := by
  unfold k5_pay1
  simp only [shapeCast_self]
  refine (maximumf_apply _ _ _).trans ?_
  refine congrArg₂ max ?_ Ideal.ofBits_zero_f32
  refine (addf_apply _ _ _).trans ?_
  refine congrArg₂ (· + ·) ?_ (broadcastTo_1b_ab_apply b _ p q)
  refine (mulf_apply _ _ _).trans ?_
  exact congrArg₂ (· * ·) rfl (broadcastTo_1b_ab_apply s _ p q)

/-- The printed index maps over the grid: the block of `z` and the output's block move together, one row block per
    point; the two rows never move. -/
theorem index_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is block `t` of `clampAffine5` of the three arrays as the region finds them. -/
theorem flushed5_eq (c : Dev nD) (t : Fin cfg5.N) :
    (dat5 V c).flushed 3 t
      = ((cfg5.win 3).blk t).view.read (Elt Ideal) (clampAffine5 (V c main_v106_0) (V c main_v121) (V c main_v122)) := by
  show (cfg5.win 3).cut (grid5.coords t) ((dat5 V c).after 3 t) = _
  rw [after5_3]
  unfold normed5
  rw [View.canon_unit_zero offsets_zero5]
  simp only [View.ld_unit_zero (S := S2000x128) offsets_zero5, View.ld_unit_zero (S := S1x128) offsets_zero5]
  obtain ⟨e00, e01, e10, e11, e20, e21, e30, e31⟩ := index_facts5 t
  funext j
  obtain ⟨p, q, rfl⟩ : ∃ (p : Fin 2000) (q : Fin 128), j = ix2 p q := ⟨j 0, j 1, eq_ix2 j⟩
  show k5_pay1 (block5 V c 0 t) (block5 V c 1 t) (block5 V c 2 t) (ix2 p q)
    = clampAffine5 (V c main_v106_0) (V c main_v121) (V c main_v122) (((cfg5.win 3).blk t).view.emb (ix2 p q))
  rw [stored5_apply]
  have hz : block5 V c 0 t (ix2 p q) = V c main_v106_0 (((cfg5.win 3).blk t).view.emb (ix2 p q)) := by
    show V c main_v106_0 (((cfg5.win 0).blk t).view.emb (ix2 p q)) = _
    refine congrArg (V c main_v106_0) (funext fun a => Fin.ext ?_)
    match a with
    | ⟨0, _⟩ => show win5_0.index t (0 : Fin 2) * 2000 + 1 * p.val = win5_3.index t (0 : Fin 2) * 2000 + 1 * p.val; omega
    | ⟨1, _⟩ => show win5_0.index t (1 : Fin 2) * 128 + 1 * q.val = win5_3.index t (1 : Fin 2) * 128 + 1 * q.val; omega
  have hcol : ((((cfg5.win 3).blk t).view.emb (ix2 p q)) 1 : Fin 128) = q := by
    apply Fin.ext
    show win5_3.index t (1 : Fin 2) * 128 + 1 * q.val = q.val; omega
  have hs : block5 V c 1 t (ix2 (0 : Fin 1) q) = V c main_v121 (ix2 (0 : Fin 1) q) := by
    show V c main_v121 (((cfg5.win 1).blk t).view.emb (ix2 (0 : Fin 1) q)) = _
    refine congrArg (V c main_v121) (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  have hb : block5 V c 2 t (ix2 (0 : Fin 1) q) = V c main_v122 (ix2 (0 : Fin 1) q) := by
    show V c main_v122 (((cfg5.win 2).blk t).view.emb (ix2 (0 : Fin 1) q)) = _
    refine congrArg (V c main_v122) (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  rw [hz, hs, hb]
  unfold clampAffine5
  show _ = max (_ * V c main_v121 (ix2 (0 : Fin 1) ((((cfg5.win 3).blk t).view.emb (ix2 p q)) 1 : Fin 128)) + V c main_v122 (ix2 (0 : Fin 1) ((((cfg5.win 3).blk t).view.emb (ix2 p q)) 1 : Fin 128))) 0
  rw [hcol]

/-- An index of the output array is in point `t`'s block iff each coordinate is in the block's range on its axis. -/
theorem mem_block5 (t : Fin cfg5.N) (i : S100000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v123).slice (win5_3.rect t)).set ↔ _
  rw [View.set_slice_whole, Rect.mem_set_unit]
  exact Iff.rfl

/-- Every index of the output array is in the block of the point that its row, divided by 2000, names, and that point
    writes its block back. -/
theorem covered5 (i : S100000x128.Idx) :
    ∃ t : Fin cfg5.N, (cfg5.win 3).flush t = true ∧ i ∈ ((cfg5.win 3).blk t).view.set := by
  have hi0 : (i 0).val < 100000 := idx2_lt0 i
  have hi1 : (i 1).val < 128 := idx2_lt1 i
  obtain ⟨t, ht⟩ : ∃ t : Fin cfg5.N, t.val = (i 0).val / 2000 :=
    ⟨⟨(i 0).val / 2000, by rw [show cfg5.N = 50 from N_5]; omega⟩, rfl⟩
  obtain ⟨e00, e01, e10, e11, e20, e21, e30, e31⟩ := index_facts5 t
  refine ⟨t, flush5_3 t, ?_⟩
  rw [mem_block5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 128 ≤ (i 1).val ∧ (i 1).val < win5_3.index t (1 : Fin 2) * 128 + 128; omega

/-- The output array after the region: `clampAffine5` of the three input arrays as the region finds them. -/
theorem final5 (c : Dev nD) :
    (dat5 V c).arrAt 3 cfg5.N = clampAffine5 (V c main_v106_0) (V c main_v121) (V c main_v122) :=
  (dat5 V c).arrAt_eq_of_cover 3 _ (fun t _ => flushed5_eq V c t) covered5

/-- The same at an entry; the right-hand side is spelt out by the function's own entry lemma above. -/
theorem final5_apply (c : Dev nD) (r : Fin 100000) (q : Fin 128) :
    (dat5 V c).arrAt 3 cfg5.N (ix2 r q)
      = clampAffine5 (V c main_v106_0) (V c main_v121) (V c main_v122) (ix2 r q) :=
  congrFun (final5 V c) (ix2 r q)

end Cert.KernelIdeal.HandVal
-- ==== Proof.BnBridge35.lean ====
/-
  The normalising regions of the second and third layer compute the same function of their three input arrays as
  the first layer's, so the agreement of the two normalisations holds for them as stated for the first.
-/
import proofs.«172250_j15616501088594_1_alg».proof.Proof.BnBridge
import proofs.«172250_j15616501088594_1_alg».proof.Proof.KI.Val3
import proofs.«172250_j15616501088594_1_alg».proof.Proof.KI.Val5

noncomputable section

namespace Cert.BnBridge

open Cert.KernelIdeal.HandVal (clampAffine1 clampAffine3 clampAffine5)

/-- The second layer's normalising region computes the first layer's function. -/
theorem clampAffine3_eq : @clampAffine3 = @clampAffine1 := rfl

/-- The third layer's normalising region computes the first layer's function. -/
theorem clampAffine5_eq : @clampAffine5 = @clampAffine1 := rfl

end Cert.BnBridge

end
-- ==== Proof.KI.Stretch0.lean ====
/-
  The host stretch before the first region, read on arbitrary buffer contents `W`: the edges' source and
  destination ids as vectors, the neighbour sum of the input table, the first layer's two weight matrices rounded to
  the narrow float format and its two bias vectors as rows; every array the stretch does not write keeps its contents.
-/
import proofs.«172250_j15616501088594_1_alg».proof.Proof.Gen.KernelIdeal.Regions
import proofs.«172250_j15616501088594_1_alg».proof.Proof.KI.Stages

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

/-- After the stretch the source ids are row 0 of the edge array. -/
theorem hostOps0_main_v1 :
    (StableHlo.after hostOps0 W (Proc.devRef .tc main_v1) : (⟨S1600000, .i32⟩ : BufTy).Contents (Elt F))
      = srcK (W (Proc.devRef .tc main_arg1)) := by
  after_results_simp; rfl

/-- After the stretch the destination ids are row 1 of the edge array. -/
theorem hostOps0_main_v3 :
    (StableHlo.after hostOps0 W (Proc.devRef .tc main_v3) : (⟨S1600000, .i32⟩ : BufTy).Contents (Elt F))
      = dstK (W (Proc.devRef .tc main_arg1)) := by
  after_results_simp; rfl

/-- After the stretch the aggregate is the neighbour sum of the input table along the edges. -/
theorem hostOps0_main_v13 :
    (StableHlo.after hostOps0 W (Proc.devRef .tc main_v13) : (⟨S100000x64, .f32⟩ : BufTy).Contents (Elt F))
      = aggK64 (W (Proc.devRef .tc main_arg0)) (srcK (W (Proc.devRef .tc main_arg1))) (dstK (W (Proc.devRef .tc main_arg1))) := by
  after_results_simp; rfl

/-- After the stretch the first weight matrix is the argument's, rounded. -/
theorem hostOps0_main_v14 :
    (StableHlo.after hostOps0 W (Proc.devRef .tc main_v14) : (⟨S64x128, .bf16⟩ : BufTy).Contents (Elt F))
      = castK64 (W (Proc.devRef .tc main_arg3)) := by
  after_results_simp; rfl

/-- After the stretch the second weight matrix is the argument's, rounded. -/
theorem hostOps0_main_v15 :
    (StableHlo.after hostOps0 W (Proc.devRef .tc main_v15) : (⟨S128x128, .bf16⟩ : BufTy).Contents (Elt F))
      = castK128 (W (Proc.devRef .tc main_arg5)) := by
  after_results_simp; rfl

/-- After the stretch the first bias row is the argument vector as a row. -/
theorem hostOps0_main_v16 :
    (StableHlo.after hostOps0 W (Proc.devRef .tc main_v16) : (⟨S1x128, .f32⟩ : BufTy).Contents (Elt F))
      = rowK (W (Proc.devRef .tc main_arg4)) := by
  after_results_simp; rfl

/-- After the stretch the second bias row is the argument vector as a row. -/
theorem hostOps0_main_v17 :
    (StableHlo.after hostOps0 W (Proc.devRef .tc main_v17) : (⟨S1x128, .f32⟩ : BufTy).Contents (Elt F))
      = rowK (W (Proc.devRef .tc main_arg6)) := by
  after_results_simp; rfl

/-- An array the stretch does not write keeps its contents. -/
theorem hostOps0_keeps (r : Ref sig .tc) (h : r ∉ hostOps0_W) :
    StableHlo.after hostOps0 W (Proc.devRef .tc r) = W (Proc.devRef .tc r) :=
  StableHlo.after_of_writes_sub hostOps0 W hostOps0_writes h

end Cert.KernelIdeal.HandVal

end
-- ==== Proof.KI.Stretch1.lean ====
/-
  The host stretch between layer 0's two regions, read on arbitrary buffer contents `W`: the two one-row tables
  the normalising region reads hold the per-column scale and shift computed from the column sums and the column
  sums of squares the first region left, and every array the stretch does not write keeps its contents.
-/
import proofs.«172250_j15616501088594_1_alg».proof.Proof.Gen.KernelIdeal.Regions
import proofs.«172250_j15616501088594_1_alg».proof.Proof.KI.Stages

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

/-- After the stretch the scale row is `g * rsqrt (ss/N - (s/N)² + eps)` of the sums found in the first region's outputs. -/
theorem hostOps1_main_v33 :
    (StableHlo.after hostOps1 W (Proc.devRef .tc main_v33) : (⟨S1x128, .f32⟩ : BufTy).Contents (Elt F))
      = scaleK (W (Proc.devRef .tc main_v18_1)) (W (Proc.devRef .tc main_v18_2)) (W (Proc.devRef .tc main_arg7)) := by
  after_results_simp; rfl

/-- After the stretch the shift row is `be - (s/N) * scale`. -/
theorem hostOps1_main_v34 :
    (StableHlo.after hostOps1 W (Proc.devRef .tc main_v34) : (⟨S1x128, .f32⟩ : BufTy).Contents (Elt F))
      = shiftK (W (Proc.devRef .tc main_v18_1)) (W (Proc.devRef .tc main_v18_2)) (W (Proc.devRef .tc main_arg7)) (W (Proc.devRef .tc main_arg8)) := by
  after_results_simp; rfl

/-- An array the stretch does not write keeps its contents. -/
theorem hostOps1_keeps (r : Ref sig .tc) (h : r ∉ hostOps1_W) :
    StableHlo.after hostOps1 W (Proc.devRef .tc r) = W (Proc.devRef .tc r) :=
  StableHlo.after_of_writes_sub hostOps1 W hostOps1_writes h

end Cert.KernelIdeal.HandVal

end
-- ==== Proof.KI.Stretch2.lean ====
/-
  The host stretch before layer 1's first region, read on arbitrary buffer contents `W`: slice 0 of each stacked
  parameter, the neighbour sum of the previous layer's output along the edges (the ids as the first stretch left
  them), the layer's two weight matrices rounded to the narrow float format, its two bias vectors as rows, and the
  normalisation's two parameter vectors; every array the stretch does not write keeps its contents.
-/
import proofs.«172250_j15616501088594_1_alg».proof.Proof.Gen.KernelIdeal.Regions
import proofs.«172250_j15616501088594_1_alg».proof.Proof.KI.Stages

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

/-- After the stretch the aggregate is the neighbour sum of the previous layer's output along the edges. -/
theorem hostOps2_main_v57 :
    (StableHlo.after hostOps2 W (Proc.devRef .tc main_v57) : (⟨S100000x128, .f32⟩ : BufTy).Contents (Elt F))
      = aggK128 (W (Proc.devRef .tc main_v35)) (W (Proc.devRef .tc main_v1)) (W (Proc.devRef .tc main_v3)) := by
  after_results_simp; rfl

/-- After the stretch the first weight matrix is slice 0 of its stack, rounded. -/
theorem hostOps2_main_v58 :
    (StableHlo.after hostOps2 W (Proc.devRef .tc main_v58) : (⟨S128x128, .bf16⟩ : BufTy).Contents (Elt F))
      = castK128 (mat0K (W (Proc.devRef .tc main_arg9))) := by
  after_results_simp; rfl

/-- After the stretch the second weight matrix is slice 0 of its stack, rounded. -/
theorem hostOps2_main_v59 :
    (StableHlo.after hostOps2 W (Proc.devRef .tc main_v59) : (⟨S128x128, .bf16⟩ : BufTy).Contents (Elt F))
      = castK128 (mat0K (W (Proc.devRef .tc main_arg11))) := by
  after_results_simp; rfl

/-- After the stretch the first bias row is row 0 of its table. -/
theorem hostOps2_main_v60 :
    (StableHlo.after hostOps2 W (Proc.devRef .tc main_v60) : (⟨S1x128, .f32⟩ : BufTy).Contents (Elt F))
      = rowK (vec0K (W (Proc.devRef .tc main_arg10))) := by
  after_results_simp; rfl

/-- After the stretch the second bias row is row 0 of its table. -/
theorem hostOps2_main_v61 :
    (StableHlo.after hostOps2 W (Proc.devRef .tc main_v61) : (⟨S1x128, .f32⟩ : BufTy).Contents (Elt F))
      = rowK (vec0K (W (Proc.devRef .tc main_arg12))) := by
  after_results_simp; rfl

/-- After the stretch the normalisation's gain is row 0 of its table. -/
theorem hostOps2_main_v45 :
    (StableHlo.after hostOps2 W (Proc.devRef .tc main_v45) : (⟨S128, .f32⟩ : BufTy).Contents (Elt F))
      = vec0K (W (Proc.devRef .tc main_arg13)) := by
  after_results_simp; rfl

/-- After the stretch the normalisation's offset is row 0 of its table. -/
theorem hostOps2_main_v47 :
    (StableHlo.after hostOps2 W (Proc.devRef .tc main_v47) : (⟨S128, .f32⟩ : BufTy).Contents (Elt F))
      = vec0K (W (Proc.devRef .tc main_arg14)) := by
  after_results_simp; rfl

/-- An array the stretch does not write keeps its contents. -/
theorem hostOps2_keeps (r : Ref sig .tc) (h : r ∉ hostOps2_W) :
    StableHlo.after hostOps2 W (Proc.devRef .tc r) = W (Proc.devRef .tc r) :=
  StableHlo.after_of_writes_sub hostOps2 W hostOps2_writes h

end Cert.KernelIdeal.HandVal

end
-- ==== Proof.KI.Stretch3.lean ====
/-
  The host stretch between layer 1's two regions, read on arbitrary buffer contents `W`: the two one-row tables
  the normalising region reads hold the per-column scale and shift computed from the column sums and the column
  sums of squares the first region left, and every array the stretch does not write keeps its contents.
-/
import proofs.«172250_j15616501088594_1_alg».proof.Proof.Gen.KernelIdeal.Regions
import proofs.«172250_j15616501088594_1_alg».proof.Proof.KI.Stages

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

/-- After the stretch the scale row is `g * rsqrt (ss/N - (s/N)² + eps)` of the sums found in the first region's outputs. -/
theorem hostOps3_main_v77 :
    (StableHlo.after hostOps3 W (Proc.devRef .tc main_v77) : (⟨S1x128, .f32⟩ : BufTy).Contents (Elt F))
      = scaleK (W (Proc.devRef .tc main_v62_1)) (W (Proc.devRef .tc main_v62_2)) (W (Proc.devRef .tc main_v45)) := by
  after_results_simp; rfl

/-- After the stretch the shift row is `be - (s/N) * scale`. -/
theorem hostOps3_main_v78 :
    (StableHlo.after hostOps3 W (Proc.devRef .tc main_v78) : (⟨S1x128, .f32⟩ : BufTy).Contents (Elt F))
      = shiftK (W (Proc.devRef .tc main_v62_1)) (W (Proc.devRef .tc main_v62_2)) (W (Proc.devRef .tc main_v45)) (W (Proc.devRef .tc main_v47)) := by
  after_results_simp; rfl

/-- An array the stretch does not write keeps its contents. -/
theorem hostOps3_keeps (r : Ref sig .tc) (h : r ∉ hostOps3_W) :
    StableHlo.after hostOps3 W (Proc.devRef .tc r) = W (Proc.devRef .tc r) :=
  StableHlo.after_of_writes_sub hostOps3 W hostOps3_writes h

end Cert.KernelIdeal.HandVal

end
-- ==== Proof.KI.Stretch4.lean ====
/-
  The host stretch before layer 2's first region, read on arbitrary buffer contents `W`: slice 1 of each stacked
  parameter, the neighbour sum of the previous layer's output along the edges (the ids as the first stretch left
  them), the layer's two weight matrices rounded to the narrow float format, its two bias vectors as rows, and the
  normalisation's two parameter vectors; every array the stretch does not write keeps its contents.
-/
import proofs.«172250_j15616501088594_1_alg».proof.Proof.Gen.KernelIdeal.Regions
import proofs.«172250_j15616501088594_1_alg».proof.Proof.KI.Stages

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

/-- After the stretch the aggregate is the neighbour sum of the previous layer's output along the edges. -/
theorem hostOps4_main_v101 :
    (StableHlo.after hostOps4 W (Proc.devRef .tc main_v101) : (⟨S100000x128, .f32⟩ : BufTy).Contents (Elt F))
      = aggK128 (W (Proc.devRef .tc main_v79)) (W (Proc.devRef .tc main_v1)) (W (Proc.devRef .tc main_v3)) := by
  after_results_simp; rfl

/-- After the stretch the first weight matrix is slice 1 of its stack, rounded. -/
theorem hostOps4_main_v102 :
    (StableHlo.after hostOps4 W (Proc.devRef .tc main_v102) : (⟨S128x128, .bf16⟩ : BufTy).Contents (Elt F))
      = castK128 (mat1K (W (Proc.devRef .tc main_arg9))) := by
  after_results_simp; rfl

/-- After the stretch the second weight matrix is slice 1 of its stack, rounded. -/
theorem hostOps4_main_v103 :
    (StableHlo.after hostOps4 W (Proc.devRef .tc main_v103) : (⟨S128x128, .bf16⟩ : BufTy).Contents (Elt F))
      = castK128 (mat1K (W (Proc.devRef .tc main_arg11))) := by
  after_results_simp; rfl

/-- After the stretch the first bias row is row 1 of its table. -/
theorem hostOps4_main_v104 :
    (StableHlo.after hostOps4 W (Proc.devRef .tc main_v104) : (⟨S1x128, .f32⟩ : BufTy).Contents (Elt F))
      = rowK (vec1K (W (Proc.devRef .tc main_arg10))) := by
  after_results_simp; rfl

/-- After the stretch the second bias row is row 1 of its table. -/
theorem hostOps4_main_v105 :
    (StableHlo.after hostOps4 W (Proc.devRef .tc main_v105) : (⟨S1x128, .f32⟩ : BufTy).Contents (Elt F))
      = rowK (vec1K (W (Proc.devRef .tc main_arg12))) := by
  after_results_simp; rfl

/-- After the stretch the normalisation's gain is row 1 of its table. -/
theorem hostOps4_main_v89 :
    (StableHlo.after hostOps4 W (Proc.devRef .tc main_v89) : (⟨S128, .f32⟩ : BufTy).Contents (Elt F))
      = vec1K (W (Proc.devRef .tc main_arg13)) := by
  after_results_simp; rfl

/-- After the stretch the normalisation's offset is row 1 of its table. -/
theorem hostOps4_main_v91 :
    (StableHlo.after hostOps4 W (Proc.devRef .tc main_v91) : (⟨S128, .f32⟩ : BufTy).Contents (Elt F))
      = vec1K (W (Proc.devRef .tc main_arg14)) := by
  after_results_simp; rfl

/-- An array the stretch does not write keeps its contents. -/
theorem hostOps4_keeps (r : Ref sig .tc) (h : r ∉ hostOps4_W) :
    StableHlo.after hostOps4 W (Proc.devRef .tc r) = W (Proc.devRef .tc r) :=
  StableHlo.after_of_writes_sub hostOps4 W hostOps4_writes h

end Cert.KernelIdeal.HandVal

end
-- ==== Proof.KI.Stretch5.lean ====
/-
  The host stretch between layer 2's two regions, read on arbitrary buffer contents `W`: the two one-row tables
  the normalising region reads hold the per-column scale and shift computed from the column sums and the column
  sums of squares the first region left, and every array the stretch does not write keeps its contents.
-/
import proofs.«172250_j15616501088594_1_alg».proof.Proof.Gen.KernelIdeal.Regions
import proofs.«172250_j15616501088594_1_alg».proof.Proof.KI.Stages

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

/-- After the stretch the scale row is `g * rsqrt (ss/N - (s/N)² + eps)` of the sums found in the first region's outputs. -/
theorem hostOps5_main_v121 :
    (StableHlo.after hostOps5 W (Proc.devRef .tc main_v121) : (⟨S1x128, .f32⟩ : BufTy).Contents (Elt F))
      = scaleK (W (Proc.devRef .tc main_v106_1)) (W (Proc.devRef .tc main_v106_2)) (W (Proc.devRef .tc main_v89)) := by
  after_results_simp; rfl

/-- After the stretch the shift row is `be - (s/N) * scale`. -/
theorem hostOps5_main_v122 :
    (StableHlo.after hostOps5 W (Proc.devRef .tc main_v122) : (⟨S1x128, .f32⟩ : BufTy).Contents (Elt F))
      = shiftK (W (Proc.devRef .tc main_v106_1)) (W (Proc.devRef .tc main_v106_2)) (W (Proc.devRef .tc main_v89)) (W (Proc.devRef .tc main_v91)) := by
  after_results_simp; rfl

/-- An array the stretch does not write keeps its contents. -/
theorem hostOps5_keeps (r : Ref sig .tc) (h : r ∉ hostOps5_W) :
    StableHlo.after hostOps5 W (Proc.devRef .tc r) = W (Proc.devRef .tc r) :=
  StableHlo.after_of_writes_sub hostOps5 W hostOps5_writes h

end Cert.KernelIdeal.HandVal

end
-- ==== Proof.KI.Stretch6.lean ====
/-
  The last host stretch, read on arbitrary buffer contents `W`: the program's result is the read-out of the
  per-graph sums of the last layer's table, and every array the stretch does not write keeps its contents.
-/
import proofs.«172250_j15616501088594_1_alg».proof.Proof.Gen.KernelIdeal.Regions
import proofs.«172250_j15616501088594_1_alg».proof.Proof.KI.Stages

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

/-- After the stretch the pooled table is the per-graph sums of the last layer's output. -/
theorem hostOps6_main_v126 :
    (StableHlo.after hostOps6 W (Proc.devRef .tc main_v126) : (⟨S256x128, .f32⟩ : BufTy).Contents (Elt F))
      = poolK (W (Proc.devRef .tc main_v123)) (W (Proc.devRef .tc main_arg2)) := by
  after_results_simp; rfl

/-- After the stretch the result is the read-out of the per-graph sums. -/
theorem hostOps6_main_v130 :
    (StableHlo.after hostOps6 W (Proc.devRef .tc main_v130) : (⟨S256x1, .f32⟩ : BufTy).Contents (Elt F))
      = outpK (poolK (W (Proc.devRef .tc main_v123)) (W (Proc.devRef .tc main_arg2))) (W (Proc.devRef .tc main_arg15)) (W (Proc.devRef .tc main_arg16)) := by
  after_results_simp; rfl

/-- An array the stretch does not write keeps its contents. -/
theorem hostOps6_keeps (r : Ref sig .tc) (h : r ∉ hostOps6_W) :
    StableHlo.after hostOps6 W (Proc.devRef .tc r) = W (Proc.devRef .tc r) :=
  StableHlo.after_of_writes_sub hostOps6 W hostOps6_writes h

end Cert.KernelIdeal.HandVal

end
-- ==== Proof.KI.ResultChain.lean ====
/-
  The kernel program's buffers between its items, read array by array: what each region finds in the arrays it
  reads, and the program's result, as the host stages applied to the launch contents and to the arrays the regions
  left. A host stretch changes only the arrays it writes and a region only its output arrays, so an array is followed
  back, item by item, to the last item that wrote it (or to the launch).
-/
import proofs.«172250_j15616501088594_1_alg».proof.Proof.KI.Chain
import proofs.«172250_j15616501088594_1_alg».proof.Proof.KI.Stretch0
import proofs.«172250_j15616501088594_1_alg».proof.Proof.KI.Stretch1
import proofs.«172250_j15616501088594_1_alg».proof.Proof.KI.Stretch2
import proofs.«172250_j15616501088594_1_alg».proof.Proof.KI.Stretch3
import proofs.«172250_j15616501088594_1_alg».proof.Proof.KI.Stretch4
import proofs.«172250_j15616501088594_1_alg».proof.Proof.KI.Stretch5
import proofs.«172250_j15616501088594_1_alg».proof.Proof.KI.Stretch6

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

variable {F : FTy → Type} [FloatOps F]

open Cert.KernelIdeal.Hand

variable (m : (ℓ : Loc nD τ sig) → Buf (Elt F) ℓ) (c : Dev nD)

/-! ## One item back: an array the item does not write -/

/-- The host stretch `hostOps0` leaves an array it does not write as it found it. -/
theorem X1_of (r : Ref sig .tc) (h : r ∉ hostOps0_W) : X1 m c (Proc.devRef .tc r) = m (c, Proc.devRef .tc r) :=
  hostOps0_keeps _ r h

/-- Region 0 leaves every array but its outputs as it found it. -/
theorem X2_of (r : Ref sig .tc) (h : r ∉ [main_v18_0, main_v18_1, main_v18_2]) : X2 m c (Proc.devRef .tc r) = X1 m c (Proc.devRef .tc r) := by
  simp only [List.mem_cons, List.not_mem_nil, or_false, not_or] at h
  unfold X2
  rw [Function.update_of_ne (devRef_ne_of_ne h.2.2), Function.update_of_ne (devRef_ne_of_ne h.2.1), Function.update_of_ne (devRef_ne_of_ne h.1)]

/-- The host stretch `hostOps1` leaves an array it does not write as it found it. -/
theorem X3_of (r : Ref sig .tc) (h : r ∉ hostOps1_W) : X3 m c (Proc.devRef .tc r) = X2 m c (Proc.devRef .tc r) :=
  hostOps1_keeps _ r h

/-- Region 1 leaves every array but its outputs as it found it. -/
theorem X4_of (r : Ref sig .tc) (h : r ∉ [main_v35]) : X4 m c (Proc.devRef .tc r) = X3 m c (Proc.devRef .tc r) := by
  simp only [List.mem_cons, List.not_mem_nil, or_false, not_or] at h
  unfold X4
  rw [Function.update_of_ne (devRef_ne_of_ne h)]

/-- The host stretch `hostOps2` leaves an array it does not write as it found it. -/
theorem X5_of (r : Ref sig .tc) (h : r ∉ hostOps2_W) : X5 m c (Proc.devRef .tc r) = X4 m c (Proc.devRef .tc r) :=
  hostOps2_keeps _ r h

/-- Region 2 leaves every array but its outputs as it found it. -/
theorem X6_of (r : Ref sig .tc) (h : r ∉ [main_v62_0, main_v62_1, main_v62_2]) : X6 m c (Proc.devRef .tc r) = X5 m c (Proc.devRef .tc r) := by
  simp only [List.mem_cons, List.not_mem_nil, or_false, not_or] at h
  unfold X6
  rw [Function.update_of_ne (devRef_ne_of_ne h.2.2), Function.update_of_ne (devRef_ne_of_ne h.2.1), Function.update_of_ne (devRef_ne_of_ne h.1)]

/-- The host stretch `hostOps3` leaves an array it does not write as it found it. -/
theorem X7_of (r : Ref sig .tc) (h : r ∉ hostOps3_W) : X7 m c (Proc.devRef .tc r) = X6 m c (Proc.devRef .tc r) :=
  hostOps3_keeps _ r h

/-- Region 3 leaves every array but its outputs as it found it. -/
theorem X8_of (r : Ref sig .tc) (h : r ∉ [main_v79]) : X8 m c (Proc.devRef .tc r) = X7 m c (Proc.devRef .tc r) := by
  simp only [List.mem_cons, List.not_mem_nil, or_false, not_or] at h
  unfold X8
  rw [Function.update_of_ne (devRef_ne_of_ne h)]

/-- The host stretch `hostOps4` leaves an array it does not write as it found it. -/
theorem X9_of (r : Ref sig .tc) (h : r ∉ hostOps4_W) : X9 m c (Proc.devRef .tc r) = X8 m c (Proc.devRef .tc r) :=
  hostOps4_keeps _ r h

/-- Region 4 leaves every array but its outputs as it found it. -/
theorem X10_of (r : Ref sig .tc) (h : r ∉ [main_v106_0, main_v106_1, main_v106_2]) : X10 m c (Proc.devRef .tc r) = X9 m c (Proc.devRef .tc r) := by
  simp only [List.mem_cons, List.not_mem_nil, or_false, not_or] at h
  unfold X10
  rw [Function.update_of_ne (devRef_ne_of_ne h.2.2), Function.update_of_ne (devRef_ne_of_ne h.2.1), Function.update_of_ne (devRef_ne_of_ne h.1)]

/-- The host stretch `hostOps5` leaves an array it does not write as it found it. -/
theorem X11_of (r : Ref sig .tc) (h : r ∉ hostOps5_W) : X11 m c (Proc.devRef .tc r) = X10 m c (Proc.devRef .tc r) :=
  hostOps5_keeps _ r h

/-- Region 5 leaves every array but its outputs as it found it. -/
theorem X12_of (r : Ref sig .tc) (h : r ∉ [main_v123]) : X12 m c (Proc.devRef .tc r) = X11 m c (Proc.devRef .tc r) := by
  simp only [List.mem_cons, List.not_mem_nil, or_false, not_or] at h
  unfold X12
  rw [Function.update_of_ne (devRef_ne_of_ne h)]

/-- The host stretch `hostOps6` leaves an array it does not write as it found it. -/
theorem X13_of (r : Ref sig .tc) (h : r ∉ hostOps6_W) : X13 m c (Proc.devRef .tc r) = X12 m c (Proc.devRef .tc r) :=
  hostOps6_keeps _ r h

/-! ## The launch arguments where they are read

No item writes an argument array, so wherever it is read it holds its launch contents. -/
theorem X1_main_arg0 : X1 m c (Proc.devRef .tc main_arg0) = m (c, Proc.devRef .tc main_arg0) :=
  (X1_of m c main_arg0 (by decide))
theorem X2_main_arg7 : X2 m c (Proc.devRef .tc main_arg7) = m (c, Proc.devRef .tc main_arg7) :=
  ((X2_of m c main_arg7 (by decide)).trans (X1_of m c main_arg7 (by decide)))
theorem X2_main_arg8 : X2 m c (Proc.devRef .tc main_arg8) = m (c, Proc.devRef .tc main_arg8) :=
  ((X2_of m c main_arg8 (by decide)).trans (X1_of m c main_arg8 (by decide)))
theorem X4_main_arg9 : X4 m c (Proc.devRef .tc main_arg9) = m (c, Proc.devRef .tc main_arg9) :=
  ((X4_of m c main_arg9 (by decide)).trans ((X3_of m c main_arg9 (by decide)).trans ((X2_of m c main_arg9 (by decide)).trans (X1_of m c main_arg9 (by decide)))))
theorem X4_main_arg10 : X4 m c (Proc.devRef .tc main_arg10) = m (c, Proc.devRef .tc main_arg10) :=
  ((X4_of m c main_arg10 (by decide)).trans ((X3_of m c main_arg10 (by decide)).trans ((X2_of m c main_arg10 (by decide)).trans (X1_of m c main_arg10 (by decide)))))
theorem X4_main_arg11 : X4 m c (Proc.devRef .tc main_arg11) = m (c, Proc.devRef .tc main_arg11) :=
  ((X4_of m c main_arg11 (by decide)).trans ((X3_of m c main_arg11 (by decide)).trans ((X2_of m c main_arg11 (by decide)).trans (X1_of m c main_arg11 (by decide)))))
theorem X4_main_arg12 : X4 m c (Proc.devRef .tc main_arg12) = m (c, Proc.devRef .tc main_arg12) :=
  ((X4_of m c main_arg12 (by decide)).trans ((X3_of m c main_arg12 (by decide)).trans ((X2_of m c main_arg12 (by decide)).trans (X1_of m c main_arg12 (by decide)))))
theorem X4_main_arg13 : X4 m c (Proc.devRef .tc main_arg13) = m (c, Proc.devRef .tc main_arg13) :=
  ((X4_of m c main_arg13 (by decide)).trans ((X3_of m c main_arg13 (by decide)).trans ((X2_of m c main_arg13 (by decide)).trans (X1_of m c main_arg13 (by decide)))))
theorem X4_main_arg14 : X4 m c (Proc.devRef .tc main_arg14) = m (c, Proc.devRef .tc main_arg14) :=
  ((X4_of m c main_arg14 (by decide)).trans ((X3_of m c main_arg14 (by decide)).trans ((X2_of m c main_arg14 (by decide)).trans (X1_of m c main_arg14 (by decide)))))
theorem X8_main_arg9 : X8 m c (Proc.devRef .tc main_arg9) = m (c, Proc.devRef .tc main_arg9) :=
  ((X8_of m c main_arg9 (by decide)).trans ((X7_of m c main_arg9 (by decide)).trans ((X6_of m c main_arg9 (by decide)).trans ((X5_of m c main_arg9 (by decide)).trans ((X4_of m c main_arg9 (by decide)).trans ((X3_of m c main_arg9 (by decide)).trans ((X2_of m c main_arg9 (by decide)).trans (X1_of m c main_arg9 (by decide)))))))))
theorem X8_main_arg10 : X8 m c (Proc.devRef .tc main_arg10) = m (c, Proc.devRef .tc main_arg10) :=
  ((X8_of m c main_arg10 (by decide)).trans ((X7_of m c main_arg10 (by decide)).trans ((X6_of m c main_arg10 (by decide)).trans ((X5_of m c main_arg10 (by decide)).trans ((X4_of m c main_arg10 (by decide)).trans ((X3_of m c main_arg10 (by decide)).trans ((X2_of m c main_arg10 (by decide)).trans (X1_of m c main_arg10 (by decide)))))))))
theorem X8_main_arg11 : X8 m c (Proc.devRef .tc main_arg11) = m (c, Proc.devRef .tc main_arg11) :=
  ((X8_of m c main_arg11 (by decide)).trans ((X7_of m c main_arg11 (by decide)).trans ((X6_of m c main_arg11 (by decide)).trans ((X5_of m c main_arg11 (by decide)).trans ((X4_of m c main_arg11 (by decide)).trans ((X3_of m c main_arg11 (by decide)).trans ((X2_of m c main_arg11 (by decide)).trans (X1_of m c main_arg11 (by decide)))))))))
theorem X8_main_arg12 : X8 m c (Proc.devRef .tc main_arg12) = m (c, Proc.devRef .tc main_arg12) :=
  ((X8_of m c main_arg12 (by decide)).trans ((X7_of m c main_arg12 (by decide)).trans ((X6_of m c main_arg12 (by decide)).trans ((X5_of m c main_arg12 (by decide)).trans ((X4_of m c main_arg12 (by decide)).trans ((X3_of m c main_arg12 (by decide)).trans ((X2_of m c main_arg12 (by decide)).trans (X1_of m c main_arg12 (by decide)))))))))
theorem X8_main_arg13 : X8 m c (Proc.devRef .tc main_arg13) = m (c, Proc.devRef .tc main_arg13) :=
  ((X8_of m c main_arg13 (by decide)).trans ((X7_of m c main_arg13 (by decide)).trans ((X6_of m c main_arg13 (by decide)).trans ((X5_of m c main_arg13 (by decide)).trans ((X4_of m c main_arg13 (by decide)).trans ((X3_of m c main_arg13 (by decide)).trans ((X2_of m c main_arg13 (by decide)).trans (X1_of m c main_arg13 (by decide)))))))))
theorem X8_main_arg14 : X8 m c (Proc.devRef .tc main_arg14) = m (c, Proc.devRef .tc main_arg14) :=
  ((X8_of m c main_arg14 (by decide)).trans ((X7_of m c main_arg14 (by decide)).trans ((X6_of m c main_arg14 (by decide)).trans ((X5_of m c main_arg14 (by decide)).trans ((X4_of m c main_arg14 (by decide)).trans ((X3_of m c main_arg14 (by decide)).trans ((X2_of m c main_arg14 (by decide)).trans (X1_of m c main_arg14 (by decide)))))))))
theorem X12_main_arg2 : X12 m c (Proc.devRef .tc main_arg2) = m (c, Proc.devRef .tc main_arg2) :=
  ((X12_of m c main_arg2 (by decide)).trans ((X11_of m c main_arg2 (by decide)).trans ((X10_of m c main_arg2 (by decide)).trans ((X9_of m c main_arg2 (by decide)).trans ((X8_of m c main_arg2 (by decide)).trans ((X7_of m c main_arg2 (by decide)).trans ((X6_of m c main_arg2 (by decide)).trans ((X5_of m c main_arg2 (by decide)).trans ((X4_of m c main_arg2 (by decide)).trans ((X3_of m c main_arg2 (by decide)).trans ((X2_of m c main_arg2 (by decide)).trans (X1_of m c main_arg2 (by decide)))))))))))))
theorem X12_main_arg15 : X12 m c (Proc.devRef .tc main_arg15) = m (c, Proc.devRef .tc main_arg15) :=
  ((X12_of m c main_arg15 (by decide)).trans ((X11_of m c main_arg15 (by decide)).trans ((X10_of m c main_arg15 (by decide)).trans ((X9_of m c main_arg15 (by decide)).trans ((X8_of m c main_arg15 (by decide)).trans ((X7_of m c main_arg15 (by decide)).trans ((X6_of m c main_arg15 (by decide)).trans ((X5_of m c main_arg15 (by decide)).trans ((X4_of m c main_arg15 (by decide)).trans ((X3_of m c main_arg15 (by decide)).trans ((X2_of m c main_arg15 (by decide)).trans (X1_of m c main_arg15 (by decide)))))))))))))
theorem X12_main_arg16 : X12 m c (Proc.devRef .tc main_arg16) = m (c, Proc.devRef .tc main_arg16) :=
  ((X12_of m c main_arg16 (by decide)).trans ((X11_of m c main_arg16 (by decide)).trans ((X10_of m c main_arg16 (by decide)).trans ((X9_of m c main_arg16 (by decide)).trans ((X8_of m c main_arg16 (by decide)).trans ((X7_of m c main_arg16 (by decide)).trans ((X6_of m c main_arg16 (by decide)).trans ((X5_of m c main_arg16 (by decide)).trans ((X4_of m c main_arg16 (by decide)).trans ((X3_of m c main_arg16 (by decide)).trans ((X2_of m c main_arg16 (by decide)).trans (X1_of m c main_arg16 (by decide)))))))))))))

/-! ## The edges' ids, computed once by the first stretch and read again by each later layer -/

theorem X1_main_v1 : (X1 m c (Proc.devRef .tc main_v1) : (⟨S1600000, .i32⟩ : BufTy).Contents (Elt F)) = srcK (m (c, Proc.devRef .tc main_arg1)) := hostOps0_main_v1 _
theorem X1_main_v3 : (X1 m c (Proc.devRef .tc main_v3) : (⟨S1600000, .i32⟩ : BufTy).Contents (Elt F)) = dstK (m (c, Proc.devRef .tc main_arg1)) := hostOps0_main_v3 _
theorem X4_main_v1 : (X4 m c (Proc.devRef .tc main_v1) : (⟨S1600000, .i32⟩ : BufTy).Contents (Elt F)) = srcK (m (c, Proc.devRef .tc main_arg1)) :=
  ((X4_of m c main_v1 (by decide)).trans ((X3_of m c main_v1 (by decide)).trans (X2_of m c main_v1 (by decide)))).trans (X1_main_v1 m c)
theorem X4_main_v3 : (X4 m c (Proc.devRef .tc main_v3) : (⟨S1600000, .i32⟩ : BufTy).Contents (Elt F)) = dstK (m (c, Proc.devRef .tc main_arg1)) :=
  ((X4_of m c main_v3 (by decide)).trans ((X3_of m c main_v3 (by decide)).trans (X2_of m c main_v3 (by decide)))).trans (X1_main_v3 m c)
theorem X8_main_v1 : (X8 m c (Proc.devRef .tc main_v1) : (⟨S1600000, .i32⟩ : BufTy).Contents (Elt F)) = srcK (m (c, Proc.devRef .tc main_arg1)) :=
  ((X8_of m c main_v1 (by decide)).trans ((X7_of m c main_v1 (by decide)).trans ((X6_of m c main_v1 (by decide)).trans ((X5_of m c main_v1 (by decide)).trans ((X4_of m c main_v1 (by decide)).trans ((X3_of m c main_v1 (by decide)).trans (X2_of m c main_v1 (by decide)))))))).trans (X1_main_v1 m c)
theorem X8_main_v3 : (X8 m c (Proc.devRef .tc main_v3) : (⟨S1600000, .i32⟩ : BufTy).Contents (Elt F)) = dstK (m (c, Proc.devRef .tc main_arg1)) :=
  ((X8_of m c main_v3 (by decide)).trans ((X7_of m c main_v3 (by decide)).trans ((X6_of m c main_v3 (by decide)).trans ((X5_of m c main_v3 (by decide)).trans ((X4_of m c main_v3 (by decide)).trans ((X3_of m c main_v3 (by decide)).trans (X2_of m c main_v3 (by decide)))))))).trans (X1_main_v3 m c)

/-! ## Layer 0 -/

/-- What the first region (the two-layer perceptron with its column sums) reads. -/
theorem X1_main_v13 : (X1 m c (Proc.devRef .tc main_v13) : (⟨S100000x64, .f32⟩ : BufTy).Contents (Elt F)) = aggK64 (m (c, Proc.devRef .tc main_arg0)) (srcK (m (c, Proc.devRef .tc main_arg1))) (dstK (m (c, Proc.devRef .tc main_arg1))) :=
  hostOps0_main_v13 _
theorem X1_main_v14 : (X1 m c (Proc.devRef .tc main_v14) : (⟨S64x128, .bf16⟩ : BufTy).Contents (Elt F)) = castK64 (m (c, Proc.devRef .tc main_arg3)) :=
  hostOps0_main_v14 _
theorem X1_main_v15 : (X1 m c (Proc.devRef .tc main_v15) : (⟨S128x128, .bf16⟩ : BufTy).Contents (Elt F)) = castK128 (m (c, Proc.devRef .tc main_arg5)) :=
  hostOps0_main_v15 _
theorem X1_main_v16 : (X1 m c (Proc.devRef .tc main_v16) : (⟨S1x128, .f32⟩ : BufTy).Contents (Elt F)) = rowK (m (c, Proc.devRef .tc main_arg4)) :=
  hostOps0_main_v16 _
theorem X1_main_v17 : (X1 m c (Proc.devRef .tc main_v17) : (⟨S1x128, .f32⟩ : BufTy).Contents (Elt F)) = rowK (m (c, Proc.devRef .tc main_arg6)) :=
  hostOps0_main_v17 _

/-- What the normalising region reads: the first region's table, and the scale and shift rows of its two sums. -/
theorem X3_main_v18_0 : X3 m c (Proc.devRef .tc main_v18_0) = X2 m c (Proc.devRef .tc main_v18_0) := X3_of m c main_v18_0 (by decide)
theorem X3_main_v33 : (X3 m c (Proc.devRef .tc main_v33) : (⟨S1x128, .f32⟩ : BufTy).Contents (Elt F)) = scaleK (X2 m c (Proc.devRef .tc main_v18_1)) (X2 m c (Proc.devRef .tc main_v18_2)) (m (c, Proc.devRef .tc main_arg7)) :=
  (hostOps1_main_v33 (X2 m c)).trans (by rw [X2_main_arg7])
theorem X3_main_v34 : (X3 m c (Proc.devRef .tc main_v34) : (⟨S1x128, .f32⟩ : BufTy).Contents (Elt F)) = shiftK (X2 m c (Proc.devRef .tc main_v18_1)) (X2 m c (Proc.devRef .tc main_v18_2)) (m (c, Proc.devRef .tc main_arg7)) (m (c, Proc.devRef .tc main_arg8)) :=
  (hostOps1_main_v34 (X2 m c)).trans (by rw [X2_main_arg7, X2_main_arg8])

/-! ## Layer 1 -/

/-- What layer 1's first region reads. -/
theorem X5_main_v35 : X5 m c (Proc.devRef .tc main_v35) = X4 m c (Proc.devRef .tc main_v35) := X5_of m c main_v35 (by decide)
theorem X5_main_v57 : (X5 m c (Proc.devRef .tc main_v57) : (⟨S100000x128, .f32⟩ : BufTy).Contents (Elt F)) = aggK128 (X4 m c (Proc.devRef .tc main_v35)) (srcK (m (c, Proc.devRef .tc main_arg1))) (dstK (m (c, Proc.devRef .tc main_arg1))) :=
  (hostOps2_main_v57 (X4 m c)).trans (by rw [X4_main_v1, X4_main_v3])
theorem X5_main_v58 : (X5 m c (Proc.devRef .tc main_v58) : (⟨S128x128, .bf16⟩ : BufTy).Contents (Elt F)) = castK128 (mat0K (m (c, Proc.devRef .tc main_arg9))) :=
  (hostOps2_main_v58 (X4 m c)).trans (by rw [X4_main_arg9])
theorem X5_main_v59 : (X5 m c (Proc.devRef .tc main_v59) : (⟨S128x128, .bf16⟩ : BufTy).Contents (Elt F)) = castK128 (mat0K (m (c, Proc.devRef .tc main_arg11))) :=
  (hostOps2_main_v59 (X4 m c)).trans (by rw [X4_main_arg11])
theorem X5_main_v60 : (X5 m c (Proc.devRef .tc main_v60) : (⟨S1x128, .f32⟩ : BufTy).Contents (Elt F)) = rowK (vec0K (m (c, Proc.devRef .tc main_arg10))) :=
  (hostOps2_main_v60 (X4 m c)).trans (by rw [X4_main_arg10])
theorem X5_main_v61 : (X5 m c (Proc.devRef .tc main_v61) : (⟨S1x128, .f32⟩ : BufTy).Contents (Elt F)) = rowK (vec0K (m (c, Proc.devRef .tc main_arg12))) :=
  (hostOps2_main_v61 (X4 m c)).trans (by rw [X4_main_arg12])

/-- The normalisation's two parameter vectors, sliced by the stretch before the layer's first region and read by the
    stretch after it. -/
theorem X6_main_v45 : (X6 m c (Proc.devRef .tc main_v45) : (⟨S128, .f32⟩ : BufTy).Contents (Elt F)) = vec0K (m (c, Proc.devRef .tc main_arg13)) :=
  (X6_of m c main_v45 (by decide)).trans ((hostOps2_main_v45 (X4 m c)).trans (by rw [X4_main_arg13]))
theorem X6_main_v47 : (X6 m c (Proc.devRef .tc main_v47) : (⟨S128, .f32⟩ : BufTy).Contents (Elt F)) = vec0K (m (c, Proc.devRef .tc main_arg14)) :=
  (X6_of m c main_v47 (by decide)).trans ((hostOps2_main_v47 (X4 m c)).trans (by rw [X4_main_arg14]))

/-- What layer 1's normalising region reads. -/
theorem X7_main_v62_0 : X7 m c (Proc.devRef .tc main_v62_0) = X6 m c (Proc.devRef .tc main_v62_0) := X7_of m c main_v62_0 (by decide)
theorem X7_main_v77 : (X7 m c (Proc.devRef .tc main_v77) : (⟨S1x128, .f32⟩ : BufTy).Contents (Elt F)) = scaleK (X6 m c (Proc.devRef .tc main_v62_1)) (X6 m c (Proc.devRef .tc main_v62_2)) (vec0K (m (c, Proc.devRef .tc main_arg13))) :=
  (hostOps3_main_v77 (X6 m c)).trans (by rw [X6_main_v45])
theorem X7_main_v78 : (X7 m c (Proc.devRef .tc main_v78) : (⟨S1x128, .f32⟩ : BufTy).Contents (Elt F)) = shiftK (X6 m c (Proc.devRef .tc main_v62_1)) (X6 m c (Proc.devRef .tc main_v62_2)) (vec0K (m (c, Proc.devRef .tc main_arg13))) (vec0K (m (c, Proc.devRef .tc main_arg14))) :=
  (hostOps3_main_v78 (X6 m c)).trans (by rw [X6_main_v45, X6_main_v47])

/-! ## Layer 2 -/

/-- What layer 2's first region reads. -/
theorem X9_main_v79 : X9 m c (Proc.devRef .tc main_v79) = X8 m c (Proc.devRef .tc main_v79) := X9_of m c main_v79 (by decide)
theorem X9_main_v101 : (X9 m c (Proc.devRef .tc main_v101) : (⟨S100000x128, .f32⟩ : BufTy).Contents (Elt F)) = aggK128 (X8 m c (Proc.devRef .tc main_v79)) (srcK (m (c, Proc.devRef .tc main_arg1))) (dstK (m (c, Proc.devRef .tc main_arg1))) :=
  (hostOps4_main_v101 (X8 m c)).trans (by rw [X8_main_v1, X8_main_v3])
theorem X9_main_v102 : (X9 m c (Proc.devRef .tc main_v102) : (⟨S128x128, .bf16⟩ : BufTy).Contents (Elt F)) = castK128 (mat1K (m (c, Proc.devRef .tc main_arg9))) :=
  (hostOps4_main_v102 (X8 m c)).trans (by rw [X8_main_arg9])
theorem X9_main_v103 : (X9 m c (Proc.devRef .tc main_v103) : (⟨S128x128, .bf16⟩ : BufTy).Contents (Elt F)) = castK128 (mat1K (m (c, Proc.devRef .tc main_arg11))) :=
  (hostOps4_main_v103 (X8 m c)).trans (by rw [X8_main_arg11])
theorem X9_main_v104 : (X9 m c (Proc.devRef .tc main_v104) : (⟨S1x128, .f32⟩ : BufTy).Contents (Elt F)) = rowK (vec1K (m (c, Proc.devRef .tc main_arg10))) :=
  (hostOps4_main_v104 (X8 m c)).trans (by rw [X8_main_arg10])
theorem X9_main_v105 : (X9 m c (Proc.devRef .tc main_v105) : (⟨S1x128, .f32⟩ : BufTy).Contents (Elt F)) = rowK (vec1K (m (c, Proc.devRef .tc main_arg12))) :=
  (hostOps4_main_v105 (X8 m c)).trans (by rw [X8_main_arg12])

/-- The normalisation's two parameter vectors, sliced by the stretch before the layer's first region and read by the
    stretch after it. -/
theorem X10_main_v89 : (X10 m c (Proc.devRef .tc main_v89) : (⟨S128, .f32⟩ : BufTy).Contents (Elt F)) = vec1K (m (c, Proc.devRef .tc main_arg13)) :=
  (X10_of m c main_v89 (by decide)).trans ((hostOps4_main_v89 (X8 m c)).trans (by rw [X8_main_arg13]))
theorem X10_main_v91 : (X10 m c (Proc.devRef .tc main_v91) : (⟨S128, .f32⟩ : BufTy).Contents (Elt F)) = vec1K (m (c, Proc.devRef .tc main_arg14)) :=
  (X10_of m c main_v91 (by decide)).trans ((hostOps4_main_v91 (X8 m c)).trans (by rw [X8_main_arg14]))

/-- What layer 2's normalising region reads. -/
theorem X11_main_v106_0 : X11 m c (Proc.devRef .tc main_v106_0) = X10 m c (Proc.devRef .tc main_v106_0) := X11_of m c main_v106_0 (by decide)
theorem X11_main_v121 : (X11 m c (Proc.devRef .tc main_v121) : (⟨S1x128, .f32⟩ : BufTy).Contents (Elt F)) = scaleK (X10 m c (Proc.devRef .tc main_v106_1)) (X10 m c (Proc.devRef .tc main_v106_2)) (vec1K (m (c, Proc.devRef .tc main_arg13))) :=
  (hostOps5_main_v121 (X10 m c)).trans (by rw [X10_main_v89])
theorem X11_main_v122 : (X11 m c (Proc.devRef .tc main_v122) : (⟨S1x128, .f32⟩ : BufTy).Contents (Elt F)) = shiftK (X10 m c (Proc.devRef .tc main_v106_1)) (X10 m c (Proc.devRef .tc main_v106_2)) (vec1K (m (c, Proc.devRef .tc main_arg13))) (vec1K (m (c, Proc.devRef .tc main_arg14))) :=
  (hostOps5_main_v122 (X10 m c)).trans (by rw [X10_main_v89, X10_main_v91])

/-! ## The result -/

/-- The program's result: the read-out of the per-graph sums of the table the last region left. -/
theorem X13_main_v130 : (X13 m c (Proc.devRef .tc main_v130) : (⟨S256x1, .f32⟩ : BufTy).Contents (Elt F)) = outpK (poolK (X12 m c (Proc.devRef .tc main_v123)) (m (c, Proc.devRef .tc main_arg2))) (m (c, Proc.devRef .tc main_arg15)) (m (c, Proc.devRef .tc main_arg16)) :=
  (hostOps6_main_v130 (X12 m c)).trans (by rw [X12_main_arg2, X12_main_arg15, X12_main_arg16])

end Cert.KernelIdeal.HandVal

end
-- ==== Proof.KI.Layers.lean ====
/-
  The three layers' output tables along the kernel program's chain of buffer contents, over the extended reals:
  each normalising region's result composed with the host stretch before it, so that a layer's output is one function
  of the table and the two column sums its first region left and of the launch arguments.
-/
import proofs.«172250_j15616501088594_1_alg».proof.Proof.KI.ResultChain
import proofs.«172250_j15616501088594_1_alg».proof.Proof.KI.Val1
import proofs.«172250_j15616501088594_1_alg».proof.Proof.KI.Val3
import proofs.«172250_j15616501088594_1_alg».proof.Proof.KI.Val5

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

open Cert.KernelIdeal.Hand

variable (m : (ℓ : Loc nD τ sig) → Buf (Elt Ideal) ℓ) (c : Dev nD)

/-- Layer 0's output table: the first region's table, scaled and shifted column by column by the normalisation's
    factor and offset of that table's own column sums, clamped below at zero. -/
theorem H1_eq :
    (X4 m c (Proc.devRef .tc main_v35) : S100000x128.Idx → Elt Ideal .f32)
      = clampAffine1 (X2 m c (Proc.devRef .tc main_v18_0))
          (scaleK (X2 m c (Proc.devRef .tc main_v18_1)) (X2 m c (Proc.devRef .tc main_v18_2)) (m (c, Proc.devRef .tc main_arg7)))
          (shiftK (X2 m c (Proc.devRef .tc main_v18_1)) (X2 m c (Proc.devRef .tc main_v18_2)) (m (c, Proc.devRef .tc main_arg7)) (m (c, Proc.devRef .tc main_arg8))) := by
  rw [X4_main_v35, final1]
  show clampAffine1 (X3 m c (Proc.devRef .tc main_v18_0)) (X3 m c (Proc.devRef .tc main_v33)) (X3 m c (Proc.devRef .tc main_v34)) = _
  rw [X3_main_v18_0, X3_main_v33, X3_main_v34]

/-- Layer 1's output table: the first region's table, scaled and shifted column by column by the normalisation's
    factor and offset of that table's own column sums, clamped below at zero. -/
theorem H2_eq :
    (X8 m c (Proc.devRef .tc main_v79) : S100000x128.Idx → Elt Ideal .f32)
      = clampAffine3 (X6 m c (Proc.devRef .tc main_v62_0))
          (scaleK (X6 m c (Proc.devRef .tc main_v62_1)) (X6 m c (Proc.devRef .tc main_v62_2)) (vec0K (m (c, Proc.devRef .tc main_arg13))))
          (shiftK (X6 m c (Proc.devRef .tc main_v62_1)) (X6 m c (Proc.devRef .tc main_v62_2)) (vec0K (m (c, Proc.devRef .tc main_arg13))) (vec0K (m (c, Proc.devRef .tc main_arg14)))) := by
  rw [X8_main_v79, final3]
  show clampAffine3 (X7 m c (Proc.devRef .tc main_v62_0)) (X7 m c (Proc.devRef .tc main_v77)) (X7 m c (Proc.devRef .tc main_v78)) = _
  rw [X7_main_v62_0, X7_main_v77, X7_main_v78]

/-- Layer 2's output table: the first region's table, scaled and shifted column by column by the normalisation's
    factor and offset of that table's own column sums, clamped below at zero. -/
theorem H3_eq :
    (X12 m c (Proc.devRef .tc main_v123) : S100000x128.Idx → Elt Ideal .f32)
      = clampAffine5 (X10 m c (Proc.devRef .tc main_v106_0))
          (scaleK (X10 m c (Proc.devRef .tc main_v106_1)) (X10 m c (Proc.devRef .tc main_v106_2)) (vec1K (m (c, Proc.devRef .tc main_arg13))))
          (shiftK (X10 m c (Proc.devRef .tc main_v106_1)) (X10 m c (Proc.devRef .tc main_v106_2)) (vec1K (m (c, Proc.devRef .tc main_arg13))) (vec1K (m (c, Proc.devRef .tc main_arg14)))) := by
  rw [X12_main_v123, final5]
  show clampAffine5 (X11 m c (Proc.devRef .tc main_v106_0)) (X11 m c (Proc.devRef .tc main_v121)) (X11 m c (Proc.devRef .tc main_v122)) = _
  rw [X11_main_v106_0, X11_main_v121, X11_main_v122]

end Cert.KernelIdeal.HandVal

end
-- ==== Proof.KI.Pieces0.lean ====
import proofs.«172250_j15616501088594_1_alg».proof.Proof.KI.Reg0First
import proofs.«172250_j15616501088594_1_alg».proof.Proof.KI.Reg0Mid
import proofs.«172250_j15616501088594_1_alg».proof.Proof.KI.Reg0Last
import Idealize.ShloMosaic.Lib.Pipeline.Value

/-!
# The accumulating region 0: what each run's stores leave, as the stored values of the blocks

The body runs in one of three ways: at the first point (the accumulators are cleared first), at a middle point, at the
last point (the accumulators are copied out at the end). In each, every written buffer ends at the value of its last
store, which takes the buffer whole; a load of a buffer after a whole store reads that store's value. So:

* the results block ends at the stored block `z` of the six input blocks;
* the first accumulator ends at what it held (zero at the first point) plus the column sums of `z`;
* the second at what it held (zero at the first point) plus the column sums of the squares of `z`;
* at the last point each one-row output ends at its accumulator's new value.
-/

set_option maxRecDepth 16384

noncomputable section

namespace Cert.KernelIdeal.HandVal

open Idealize.ShloMosaic Idealize.ShloMosaic.TcCoe Idealize.ShloMosaic.Tactic Idealize.SL.Sem
open Cert.KernelIdeal Cert.KernelIdeal.Gen Cert.KernelIdeal.Hand

variable {F : FTy → Type} [FloatOps F]

/-- Both offsets of a whole-buffer rectangle are zero. -/
theorem zero2_0 : (![0, 0] : Fin 2 → Nat) = fun _ => 0 := funext fun a => by fin_cases a <;> rfl

/-! ## The first point -/

theorem first0_z (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i) (x0 : Vec F S2000x64 .f32) (x1 : Vec F S2000x64 .f32) (x2 : Vec F S64x128 .bf16) (x3 : Vec F S1x128 .f32) (x4 : Vec F S128x128 .bf16) (x5 : Vec F S1x128 .f32) :
    View.canon (runFirst0 c i arg1 harg1 arg2 harg2 arg3 harg3 arg4 harg4 arg5 harg5 arg6 harg6 arg7 harg7 arg8 harg8 arg9 harg9 arg10 harg10 arg11 harg11 hc0 hc1 x0 x1 x2 x3 x4 x5).1 = k0_pay5 x0 x1 x2 x3 x4 x5 := by
  unfold runFirst0
  dsimp only
  try sl_unfold_words
  rw [View.canon_cons_unit_zero zero2_0]
  simp only [View.readAt_eq_ld, harg1.read_unread, harg2.read_unread, harg3.read_unread, harg4.read_unread,
    harg5.read_unread, harg6.read_unread,
    View.ld_unit_zero (S := S2000x64) zero2_0, View.ld_unit_zero (S := S64x128) zero2_0, View.ld_unit_zero (S := S128x128) zero2_0,
    View.ld_unit_zero (S := S1x128) zero2_0, View.ld_unit_zero (S := S2000x128) zero2_0,
    View.readCov_unit_zero (S := S1x128) _ zero2_0]

theorem first0_acc0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i) (x0 : Vec F S2000x64 .f32) (x1 : Vec F S2000x64 .f32) (x2 : Vec F S64x128 .bf16) (x3 : Vec F S1x128 .f32) (x4 : Vec F S128x128 .bf16) (x5 : Vec F S1x128 .f32) :
    View.canon (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.1 = k0_pay1 (k0_pay6 x0 x1 x2 x3 x4 x5 k0_pay3) := by
  unfold runFirst0
  dsimp only
  try sl_unfold_words
  rw [View.canon_cons_unit_zero zero2_0]
  simp only [View.readAt_eq_ld, harg1.read_unread, harg2.read_unread, harg3.read_unread, harg4.read_unread,
    harg5.read_unread, harg6.read_unread,
    View.ld_unit_zero (S := S2000x64) zero2_0, View.ld_unit_zero (S := S64x128) zero2_0, View.ld_unit_zero (S := S128x128) zero2_0,
    View.ld_unit_zero (S := S1x128) zero2_0, View.ld_unit_zero (S := S2000x128) zero2_0,
    View.readCov_unit_zero (S := S1x128) _ zero2_0]

theorem first0_acc1 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i) (x0 : Vec F S2000x64 .f32) (x1 : Vec F S2000x64 .f32) (x2 : Vec F S64x128 .bf16) (x3 : Vec F S1x128 .f32) (x4 : Vec F S128x128 .bf16) (x5 : Vec F S1x128 .f32) :
    View.canon (runFirst0 c i arg1 harg1 arg2 harg2 arg3 harg3 arg4 harg4 arg5 harg5 arg6 harg6 arg7 harg7 arg8 harg8 arg9 harg9 arg10 harg10 arg11 harg11 hc0 hc1 x0 x1 x2 x3 x4 x5).2.2.1 = k0_pay2 (k0_pay5 x0 x1 x2 x3 x4 x5) k0_pay4 := by
  unfold runFirst0
  dsimp only
  try sl_unfold_words
  rw [View.canon_cons_unit_zero zero2_0]
  simp only [View.readAt_eq_ld, harg1.read_unread, harg2.read_unread, harg3.read_unread, harg4.read_unread,
    harg5.read_unread, harg6.read_unread,
    View.ld_unit_zero (S := S2000x64) zero2_0, View.ld_unit_zero (S := S64x128) zero2_0, View.ld_unit_zero (S := S128x128) zero2_0,
    View.ld_unit_zero (S := S1x128) zero2_0, View.ld_unit_zero (S := S2000x128) zero2_0,
    View.readCov_unit_zero (S := S1x128) _ zero2_0]

/-! ## A middle point -/

theorem mid0_z (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    View.canon (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 = k0_pay5 x0 x1 x2 x3 x4 x5 := by
  unfold runMid0
  dsimp only
  try sl_unfold_words
  rw [View.canon_cons_unit_zero zero2_0]
  simp only [View.readAt_eq_ld, harg1.read_unread, harg2.read_unread, harg3.read_unread, harg4.read_unread,
    harg5.read_unread, harg6.read_unread, harg10.read_unread, harg11.read_unread,
    View.ld_unit_zero (S := S2000x64) zero2_0, View.ld_unit_zero (S := S64x128) zero2_0, View.ld_unit_zero (S := S128x128) zero2_0,
    View.ld_unit_zero (S := S1x128) zero2_0, View.ld_unit_zero (S := S2000x128) zero2_0,
    View.readCov_unit_zero (S := S1x128) _ zero2_0]

theorem mid0_acc0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    View.canon (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 = k0_pay1 (k0_pay6 x0 x1 x2 x3 x4 x5 xs0) := by
  unfold runMid0
  dsimp only
  try sl_unfold_words
  rw [View.canon_cons_unit_zero zero2_0]
  simp only [View.readAt_eq_ld, harg1.read_unread, harg2.read_unread, harg3.read_unread, harg4.read_unread,
    harg5.read_unread, harg6.read_unread, harg10.read_unread, harg11.read_unread,
    View.ld_unit_zero (S := S2000x64) zero2_0, View.ld_unit_zero (S := S64x128) zero2_0, View.ld_unit_zero (S := S128x128) zero2_0,
    View.ld_unit_zero (S := S1x128) zero2_0, View.ld_unit_zero (S := S2000x128) zero2_0,
    View.readCov_unit_zero (S := S1x128) _ zero2_0]

theorem mid0_acc1 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    View.canon (runMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 = k0_pay2 (k0_pay5 x0 x1 x2 x3 x4 x5) xs1 := by
  unfold runMid0
  dsimp only
  try sl_unfold_words
  rw [View.canon_cons_unit_zero zero2_0]
  simp only [View.readAt_eq_ld, harg1.read_unread, harg2.read_unread, harg3.read_unread, harg4.read_unread,
    harg5.read_unread, harg6.read_unread, harg10.read_unread, harg11.read_unread,
    View.ld_unit_zero (S := S2000x64) zero2_0, View.ld_unit_zero (S := S64x128) zero2_0, View.ld_unit_zero (S := S128x128) zero2_0,
    View.ld_unit_zero (S := S1x128) zero2_0, View.ld_unit_zero (S := S2000x128) zero2_0,
    View.readCov_unit_zero (S := S1x128) _ zero2_0]

/-! ## The last point -/

theorem last0_z (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    View.canon (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 = k0_pay5 x0 x1 x2 x3 x4 x5 := by
  unfold runLast0
  dsimp only
  try sl_unfold_words
  rw [View.canon_cons_unit_zero zero2_0]
  simp only [View.readAt_eq_ld, harg1.read_unread, harg2.read_unread, harg3.read_unread, harg4.read_unread,
    harg5.read_unread, harg6.read_unread, harg10.read_unread, harg11.read_unread,
    View.ld_unit_zero (S := S2000x64) zero2_0, View.ld_unit_zero (S := S64x128) zero2_0, View.ld_unit_zero (S := S128x128) zero2_0,
    View.ld_unit_zero (S := S1x128) zero2_0, View.ld_unit_zero (S := S2000x128) zero2_0,
    View.readCov_unit_zero (S := S1x128) _ zero2_0]

theorem last0_o7 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    View.canon (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 = k0_pay1 (k0_pay6 x0 x1 x2 x3 x4 x5 xs0) := by
  unfold runLast0
  dsimp only
  try sl_unfold_words
  rw [View.canon_cons_unit_zero zero2_0]
  simp only [View.readAt_eq_ld, harg1.read_unread, harg2.read_unread, harg3.read_unread, harg4.read_unread,
    harg5.read_unread, harg6.read_unread, harg10.read_unread, harg11.read_unread,
    View.ld_unit_zero (S := S2000x64) zero2_0, View.ld_unit_zero (S := S64x128) zero2_0, View.ld_unit_zero (S := S128x128) zero2_0,
    View.ld_unit_zero (S := S1x128) zero2_0, View.ld_unit_zero (S := S2000x128) zero2_0,
    View.readCov_unit_zero (S := S1x128) _ zero2_0]

theorem last0_o8 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    View.canon (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 = k0_pay2 (k0_pay5 x0 x1 x2 x3 x4 x5) xs1 := by
  unfold runLast0
  dsimp only
  try sl_unfold_words
  rw [View.canon_cons_unit_zero zero2_0]
  simp only [View.readAt_eq_ld, harg1.read_unread, harg2.read_unread, harg3.read_unread, harg4.read_unread,
    harg5.read_unread, harg6.read_unread, harg10.read_unread, harg11.read_unread,
    View.ld_unit_zero (S := S2000x64) zero2_0, View.ld_unit_zero (S := S64x128) zero2_0, View.ld_unit_zero (S := S128x128) zero2_0,
    View.ld_unit_zero (S := S1x128) zero2_0, View.ld_unit_zero (S := S2000x128) zero2_0,
    View.readCov_unit_zero (S := S1x128) _ zero2_0]

theorem last0_acc0 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    View.canon (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 = k0_pay1 (k0_pay6 x0 x1 x2 x3 x4 x5 xs0) := by
  unfold runLast0
  dsimp only
  try sl_unfold_words
  rw [View.canon_cons_unit_zero zero2_0]
  simp only [View.readAt_eq_ld, harg1.read_unread, harg2.read_unread, harg3.read_unread, harg4.read_unread,
    harg5.read_unread, harg6.read_unread, harg10.read_unread, harg11.read_unread,
    View.ld_unit_zero (S := S2000x64) zero2_0, View.ld_unit_zero (S := S64x128) zero2_0, View.ld_unit_zero (S := S128x128) zero2_0,
    View.ld_unit_zero (S := S1x128) zero2_0, View.ld_unit_zero (S := S2000x128) zero2_0,
    View.readCov_unit_zero (S := S1x128) _ zero2_0]

theorem last0_acc1 (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    View.canon (runLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 = k0_pay2 (k0_pay5 x0 x1 x2 x3 x4 x5) xs1 := by
  unfold runLast0
  dsimp only
  try sl_unfold_words
  rw [View.canon_cons_unit_zero zero2_0]
  simp only [View.readAt_eq_ld, harg1.read_unread, harg2.read_unread, harg3.read_unread, harg4.read_unread,
    harg5.read_unread, harg6.read_unread, harg10.read_unread, harg11.read_unread,
    View.ld_unit_zero (S := S2000x64) zero2_0, View.ld_unit_zero (S := S64x128) zero2_0, View.ld_unit_zero (S := S128x128) zero2_0,
    View.ld_unit_zero (S := S1x128) zero2_0, View.ld_unit_zero (S := S2000x128) zero2_0,
    View.readCov_unit_zero (S := S1x128) _ zero2_0]

end Cert.KernelIdeal.HandVal
-- ==== Proof.KI.Ends0.lean ====
import proofs.«172250_j15616501088594_1_alg».proof.Proof.KI.Reg0
import proofs.«172250_j15616501088594_1_alg».proof.Proof.KI.Pieces0

/-!
# The accumulating region 0: what each run leaves in each buffer, as stored values

Each buffer a run writes is read back, after the run's stores, as the value of its last store (the stores take the
buffers whole). Stated for each of the three runs and each written buffer.
-/

set_option maxRecDepth 16384

noncomputable section

namespace Cert.KernelIdeal.HandVal

open Idealize.ShloMosaic Idealize.ShloMosaic.TcCoe Idealize.SL.Sem
open Cert.KernelIdeal Cert.KernelIdeal.Gen Cert.KernelIdeal.Hand

variable {F : FTy → Type} [FloatOps F]

theorem zFirst0_eq (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i) (x0 : Vec F S2000x64 .f32) (x1 : Vec F S2000x64 .f32) (x2 : Vec F S64x128 .bf16) (x3 : Vec F S1x128 .f32) (x4 : Vec F S128x128 .bf16) (x5 : Vec F S1x128 .f32) :
    zFirst0 c i arg1 harg1 arg2 harg2 arg3 harg3 arg4 harg4 arg5 harg5 arg6 harg6 arg7 harg7 arg8 harg8 arg9 harg9 arg10 harg10 arg11 harg11 hc0 hc1 x0 x1 x2 x3 x4 x5 = k0_pay5 x0 x1 x2 x3 x4 x5 := by
  unfold zFirst0
  rw [View.read_writes_junk_eq_canon]
  exact first0_z c i arg1 harg1 arg2 harg2 arg3 harg3 arg4 harg4 arg5 harg5 arg6 harg6 arg7 harg7 arg8 harg8 arg9 harg9 arg10 harg10 arg11 harg11 hc0 hc1 x0 x1 x2 x3 x4 x5

theorem acc0First0_eq (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i) (x0 : Vec F S2000x64 .f32) (x1 : Vec F S2000x64 .f32) (x2 : Vec F S64x128 .bf16) (x3 : Vec F S1x128 .f32) (x4 : Vec F S128x128 .bf16) (x5 : Vec F S1x128 .f32) :
    acc0First0 c i arg1 harg1 arg2 harg2 arg3 harg3 arg4 harg4 arg5 harg5 arg6 harg6 arg7 harg7 arg8 harg8 arg9 harg9 arg10 harg10 arg11 harg11 hc0 hc1 x0 x1 x2 x3 x4 x5 = k0_pay1 (k0_pay6 x0 x1 x2 x3 x4 x5 k0_pay3) := by
  unfold acc0First0
  rw [View.read_writes_junk_eq_canon]
  exact first0_acc0 c i arg1 harg1 arg2 harg2 arg3 harg3 arg4 harg4 arg5 harg5 arg6 harg6 arg7 harg7 arg8 harg8 arg9 harg9 arg10 harg10 arg11 harg11 hc0 hc1 x0 x1 x2 x3 x4 x5

theorem acc1First0_eq (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst0 i) (hc1 : ¬atLast0 i) (x0 : Vec F S2000x64 .f32) (x1 : Vec F S2000x64 .f32) (x2 : Vec F S64x128 .bf16) (x3 : Vec F S1x128 .f32) (x4 : Vec F S128x128 .bf16) (x5 : Vec F S1x128 .f32) :
    acc1First0 c i arg1 harg1 arg2 harg2 arg3 harg3 arg4 harg4 arg5 harg5 arg6 harg6 arg7 harg7 arg8 harg8 arg9 harg9 arg10 harg10 arg11 harg11 hc0 hc1 x0 x1 x2 x3 x4 x5 = k0_pay2 (k0_pay5 x0 x1 x2 x3 x4 x5) k0_pay4 := by
  unfold acc1First0
  rw [View.read_writes_junk_eq_canon]
  exact first0_acc1 c i arg1 harg1 arg2 harg2 arg3 harg3 arg4 harg4 arg5 harg5 arg6 harg6 arg7 harg7 arg8 harg8 arg9 harg9 arg10 harg10 arg11 harg11 hc0 hc1 x0 x1 x2 x3 x4 x5

theorem zMid0_eq (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    zMid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 := by
  unfold zMid0
  rw [View.read_writes_junk_eq_canon]
  exact mid0_z c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem acc0Mid0_eq (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    acc0Mid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x3 x4 x5 xs0) := by
  unfold acc0Mid0
  rw [View.read_writes_junk_eq_canon]
  exact mid0_acc0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem acc1Mid0_eq (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : ¬atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    acc1Mid0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x3 x4 x5) xs1 := by
  unfold acc1Mid0
  rw [View.read_writes_junk_eq_canon]
  exact mid0_acc1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem zLast0_eq (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    zLast0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 := by
  unfold zLast0
  rw [View.read_writes_junk_eq_canon]
  exact last0_z c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem o7Last0_eq (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    o7Last0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x3 x4 x5 xs0) := by
  unfold o7Last0
  rw [View.read_writes_junk_eq_canon]
  exact last0_o7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem o8Last0_eq (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    o8Last0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x3 x4 x5) xs1 := by
  unfold o8Last0
  rw [View.read_writes_junk_eq_canon]
  exact last0_o8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem acc0Last0_eq (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    acc0Last0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x3 x4 x5 xs0) := by
  unfold acc0Last0
  rw [View.read_writes_junk_eq_canon]
  exact last0_acc0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem acc1Last0_eq (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst0 i) (hc1 : atLast0 i) (x0 : Vec F S2000x64 .f32) (x1 : Vec F S2000x64 .f32) (x2 : Vec F S64x128 .bf16) (x3 : Vec F S1x128 .f32) (x4 : Vec F S128x128 .bf16) (x5 : Vec F S1x128 .f32) (xs0 : Vec F S1x128 .f32) (xs1 : Vec F S1x128 .f32) :
    acc1Last0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x3 x4 x5) xs1 := by
  unfold acc1Last0
  rw [View.read_writes_junk_eq_canon]
  exact last0_acc1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

end Cert.KernelIdeal.HandVal
-- ==== Proof.KI.DensePay0.lean ====
import proofs.«172250_j15616501088594_1_alg».proof.Proof.Gen.KernelIdeal.Skeleton
import proofs.«172250_j15616501088594_1_alg».proof.Proof.LibPlainDot

/-!
# The accumulating region 0: its stored values at an index, over the extended reals

The body of the region works on a block of 2000 rows. From the block `x` of the features and the block `a` of the
neighbour sums (64 columns each), two weight matrices `w1` (64×128), `w2` (128×128) and two bias rows
`b1`, `b2` (1×128) it forms the block

    z (p, q) = max (Σ_l max (Σ_j (x (p, j) + a (p, j)) · w1 (j, l) + b1 (0, l)) 0 · w2 (l, q) + b2 (0, q)) 0

(a change of number format is the identity over the extended reals), stores it, and adds to two 1×128 accumulators
the column sums Σ_p z (p, q) and Σ_p z (p, q)². The accumulators are set to zero at the first point.
-/

noncomputable section

namespace Cert.KernelIdeal.HandVal

open Cert.KernelIdeal Cert.KernelIdeal.Gen Cert.PlainDot
open Idealize.ShloMosaic Idealize.ShloMosaic.ValueIdx
open scoped BigOperators

/-- The stored block at an entry: two dense layers, each clamped below at zero. -/
theorem k0_pay5_apply (x a : FVec Ideal S2000x64 .f32) (w1 : FVec Ideal S64x128 .bf16) (b1 : FVec Ideal S1x128 .f32)
    (w2 : FVec Ideal S128x128 .bf16) (b2 : FVec Ideal S1x128 .f32) (p : Fin 2000) (q : Fin 128) :
    k0_pay5 x a w1 b1 w2 b2 (ix2 p q)
      = max ((∑ l : Fin 128, max ((∑ j : Fin 64, (x (ix2 p j) + a (ix2 p j)) * w1 (ix2 j l)) + b1 (ix2 (0 : Fin 1) l)) 0
                * w2 (ix2 l q)) + b2 (ix2 (0 : Fin 1) q)) 0 := by
  unfold k0_pay5
  simp only [shapeCast_self]
  refine (reluAffine_at _ none _ _ _ _ p q).trans ?_
  refine congrArg (fun s => max (s + b2 (ix2 (0 : Fin 1) q)) 0) (Finset.sum_congr rfl fun l _ => ?_)
  refine congrArg (· * w2 (ix2 l q)) ?_
  exact reluAffine_at _ none _ _ _ _ p l

/-- The first accumulator's new value: what it held plus the column sums of the stored block. -/
theorem k0_pay6_apply (x a : FVec Ideal S2000x64 .f32) (w1 : FVec Ideal S64x128 .bf16) (b1 : FVec Ideal S1x128 .f32)
    (w2 : FVec Ideal S128x128 .bf16) (b2 : FVec Ideal S1x128 .f32) (acc : FVec Ideal S1x128 .f32) (u : Fin 1) (q : Fin 128) :
    k0_pay6 x a w1 b1 w2 b2 acc (ix2 u q)
      = acc (ix2 u q) + ∑ p : Fin 2000, k0_pay5 x a w1 b1 w2 b2 (ix2 p q) := by
  unfold k0_pay6
  exact addRowSum_at acc _ _ _ _ _ u q

/-- The second accumulator's new value: what it held plus the column sums of the squares of a block `z`. -/
theorem k0_pay2_apply (z : FVec Ideal S2000x128 .f32) (acc : FVec Ideal S1x128 .f32) (u : Fin 1) (q : Fin 128) :
    k0_pay2 z acc (ix2 u q) = acc (ix2 u q) + ∑ p : Fin 2000, z (ix2 p q) * z (ix2 p q) := by
  unfold k0_pay2
  simp only [shapeCast_self]
  exact addRowSum_at acc (mulf z z) _ _ _ _ u q

/-- The value copied back into the first accumulator is the value itself. -/
theorem k0_pay1_eq (v : FVec Ideal S1x128 .f32) : k0_pay1 v = v := by
  unfold k0_pay1
  simp only [shapeCast_self]

/-- The first point sets both accumulators to zero. -/
theorem k0_pay3_apply (u : Fin 1) (q : Fin 128) : k0_pay3 (F := Ideal) (ix2 u q) = 0 := by
  unfold k0_pay3
  simp only [shapeCast_self]
  exact Ideal.ofBits_zero_f32
theorem k0_pay4_apply (u : Fin 1) (q : Fin 128) : k0_pay4 (F := Ideal) (ix2 u q) = 0 := by
  unfold k0_pay4
  simp only [shapeCast_self]
  exact Ideal.ofBits_zero_f32

end Cert.KernelIdeal.HandVal
-- ==== Proof.KI.ValPre0.lean ====
import proofs.«172250_j15616501088594_1_alg».proof.Proof.KI.Reg0Runs
import proofs.«172250_j15616501088594_1_alg».proof.Proof.KI.DensePay0
import Idealize.ShloMosaic.Lib.Pipeline.Value

/-!
# The accumulating region 0: the stored block of a point as rows of one whole-array function

Read over the extended reals. Point `t` of the 50 works on rows `2000·t … 2000·t + 1999` of the two feature arrays
(64 columns) and on the whole weight matrices and bias rows. The two-layer perceptron acts on each row separately,
so the block stored at point `t` is rows `2000·t …` of one function `mlpRows0` of the six arrays; block `t` of
the 100000×128 output array is those rows, and the row-block that covers row `r` is `r / 2000`.
-/

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The two-layer perceptron on the rows of `h + a`, as one function of the whole arrays. -/
def mlpRows0 (h a : FVec Ideal S100000x64 .f32) (w1 : FVec Ideal S64x128 .bf16) (b1 : FVec Ideal S1x128 .f32)
    (w2 : FVec Ideal S128x128 .bf16) (b2 : FVec Ideal S1x128 .f32) : FVec Ideal S100000x128 .f32 :=
  fun i => max ((∑ l : Fin 128, max ((∑ j : Fin 64, (h (ix2 (i 0) j) + a (ix2 (i 0) j)) * w1 (ix2 j l)) + b1 (ix2 (0 : Fin 1) l)) 0
                  * w2 (ix2 l (i 1))) + b2 (ix2 (0 : Fin 1) (i 1))) 0

/-- The same at explicit coordinates. -/
theorem mlpRows0_apply (h a : FVec Ideal S100000x64 .f32) (w1 : FVec Ideal S64x128 .bf16) (b1 : FVec Ideal S1x128 .f32)
    (w2 : FVec Ideal S128x128 .bf16) (b2 : FVec Ideal S1x128 .f32) (r : Fin 100000) (q : Fin 128) :
    mlpRows0 h a w1 b1 w2 b2 (ix2 r q)
      = max ((∑ l : Fin 128, max ((∑ j : Fin 64, (h (ix2 r j) + a (ix2 r j)) * w1 (ix2 j l)) + b1 (ix2 (0 : Fin 1) l)) 0
                * w2 (ix2 l q)) + b2 (ix2 (0 : Fin 1) q)) 0 := rfl

/-- The printed index maps over the grid: the two feature blocks and the output block move one row block per point;
    the weights, the bias rows and the two one-row outputs never move. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `p` of point `t`'s block is row `2000·t + p` of the array. -/
def rowOf0 (t : Fin cfg0.N) (p : Fin 2000) : Fin 100000 :=
  ⟨t.val * 2000 + p.val, by have ht := t.isLt; have hN : cfg0.N = 50 := N_0; have hp := p.isLt; omega⟩

/-! ## The input blocks at an entry -/

theorem blockH0_apply (c : Dev nD) (t : Fin cfg0.N) (p : Fin 2000) (j : Fin 64) :
    iblk0 V c 0 t (ix2 p j) = V c main_arg0 (ix2 (rowOf0 t p) j) := by
  obtain ⟨e00, e01, -⟩ := index_facts0 t
  show V c main_arg0 (((cfg0.win 0).blk t).view.emb (ix2 p j)) = _
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 64 + 1 * j.val = j.val; omega

theorem blockA0_apply (c : Dev nD) (t : Fin cfg0.N) (p : Fin 2000) (j : Fin 64) :
    iblk0 V c 1 t (ix2 p j) = V c main_v13 (ix2 (rowOf0 t p) j) := by
  obtain ⟨-, -, e10, e11, -⟩ := index_facts0 t
  show V c main_v13 (((cfg0.win 1).blk t).view.emb (ix2 p j)) = _
  refine congrArg (V c main_v13) (funext fun a => Fin.ext ?_)
  match a with
  | ⟨0, _⟩ => show win0_1.index t (0 : Fin 2) * 2000 + 1 * p.val = t.val * 2000 + p.val; omega
  | ⟨1, _⟩ => show win0_1.index t (1 : Fin 2) * 64 + 1 * j.val = j.val; omega

theorem blockW1_0_apply (c : Dev nD) (t : Fin cfg0.N) (j : Fin 64) (l : Fin 128) :
    iblk0 V c 2 t (ix2 j l) = V c main_v14 (ix2 j l) := by
  obtain ⟨-, -, -, -, e20, e21, -⟩ := index_facts0 t
  show V c main_v14 (((cfg0.win 2).blk t).view.emb (ix2 j l)) = _
  refine congrArg (V c main_v14) (funext fun a => Fin.ext ?_)
  match a with
  | ⟨0, _⟩ => show win0_2.index t (0 : Fin 2) * 64 + 1 * j.val = j.val; omega
  | ⟨1, _⟩ => show win0_2.index t (1 : Fin 2) * 128 + 1 * l.val = l.val; omega

theorem blockB1_0_apply (c : Dev nD) (t : Fin cfg0.N) (l : Fin 128) :
    iblk0 V c 3 t (ix2 (0 : Fin 1) l) = V c main_v16 (ix2 (0 : Fin 1) l) := by
  obtain ⟨-, -, -, -, -, -, e30, e31, -⟩ := index_facts0 t
  show V c main_v16 (((cfg0.win 3).blk t).view.emb (ix2 (0 : Fin 1) l)) = _
  refine congrArg (V c main_v16) (funext fun a => Fin.ext ?_)
  match a with
  | ⟨0, _⟩ => show win0_3.index t (0 : Fin 2) * 1 + 1 * 0 = 0; omega
  | ⟨1, _⟩ => show win0_3.index t (1 : Fin 2) * 128 + 1 * l.val = l.val; omega

theorem blockW2_0_apply (c : Dev nD) (t : Fin cfg0.N) (l : Fin 128) (q : Fin 128) :
    iblk0 V c 4 t (ix2 l q) = V c main_v15 (ix2 l q) := by
  obtain ⟨-, -, -, -, -, -, -, -, e40, e41, -⟩ := index_facts0 t
  show V c main_v15 (((cfg0.win 4).blk t).view.emb (ix2 l q)) = _
  refine congrArg (V c main_v15) (funext fun a => Fin.ext ?_)
  match a with
  | ⟨0, _⟩ => show win0_4.index t (0 : Fin 2) * 128 + 1 * l.val = l.val; omega
  | ⟨1, _⟩ => show win0_4.index t (1 : Fin 2) * 128 + 1 * q.val = q.val; omega

theorem blockB2_0_apply (c : Dev nD) (t : Fin cfg0.N) (q : Fin 128) :
    iblk0 V c 5 t (ix2 (0 : Fin 1) q) = V c main_v17 (ix2 (0 : Fin 1) q) := by
  obtain ⟨-, -, -, -, -, -, -, -, -, -, e50, e51, -⟩ := index_facts0 t
  show V c main_v17 (((cfg0.win 5).blk t).view.emb (ix2 (0 : Fin 1) q)) = _
  refine congrArg (V c main_v17) (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-! ## The stored block is rows of the whole-array function -/

/-- The whole-array function of the arrays as the region finds them. -/
def Z0 (c : Dev nD) : FVec Ideal S100000x128 .f32 := mlpRows0 (V c main_arg0) (V c main_v13) (V c main_v14) (V c main_v16) (V c main_v15) (V c main_v17)

/-- The block stored at point `t`, at row `p` and column `q`, is `Z0` at row `2000·t + p`. -/
theorem zblock0_apply (c : Dev nD) (t : Fin cfg0.N) (p : Fin 2000) (q : Fin 128) :
    k0_pay5 (iblk0 V c 0 t) (iblk0 V c 1 t) (iblk0 V c 2 t) (iblk0 V c 3 t) (iblk0 V c 4 t) (iblk0 V c 5 t) (ix2 p q) = Z0 V c (ix2 (rowOf0 t p) q) := by
  rw [k0_pay5_apply]
  simp only [blockH0_apply, blockA0_apply, blockW1_0_apply, blockB1_0_apply, blockW2_0_apply, blockB2_0_apply]
  rfl

/-! ## The output array's blocks -/

/-- An index of the output array is in point `t`'s block iff each coordinate is in the block's range on its axis. -/
theorem mem_block0 (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v18_0).slice (win0_6.rect t)).set ↔ _
  rw [View.set_slice_whole, Rect.mem_set_unit]
  exact Iff.rfl

/-- Every index of the output array is in the block of the point that its row, divided by 2000, names, and that point
    writes its block back. -/
theorem covered0 (i : S100000x128.Idx) :
    ∃ t : Fin cfg0.N, (cfg0.win 6).flush t = true ∧ i ∈ ((cfg0.win 6).blk t).view.set := by
  have hi0 : (i 0).val < 100000 := idx2_lt0 i
  have hi1 : (i 1).val < 128 := idx2_lt1 i
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, -, -, -, -, -, -, e60, e61, -⟩ := index_facts0 t
  refine ⟨t, flush0_6 t, ?_⟩
  rw [mem_block0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- An entry of point `t`'s block of the output array sits at row `2000·t + p`. -/
theorem emb_block0 (t : Fin cfg0.N) (p : Fin 2000) (q : Fin 128) :
    ((cfg0.win 6).blk t).view.emb (ix2 p q) = ix2 (rowOf0 t p) q := by
  obtain ⟨-, -, -, -, -, -, -, -, -, -, -, -, e60, e61, -⟩ := index_facts0 t
  funext a; apply Fin.ext
  match a with
  | ⟨0, _⟩ => show win0_6.index t (0 : Fin 2) * 2000 + 1 * p.val = t.val * 2000 + p.val; omega
  | ⟨1, _⟩ => show win0_6.index t (1 : Fin 2) * 128 + 1 * q.val = q.val; omega

end Cert.KernelIdeal.HandVal
-- ==== Proof.LibBlockedSum.lean ====
/-
  A sum over a·b rows, taken block by block.

  The rows 0 … a·b − 1 are cut into a consecutive blocks of b rows; row r of block t is row t·b + r. In any
  commutative additive monoid the sum over all rows is the sum over the blocks of the block sums, and an
  accumulator that starts at zero and adds one block sum per step holds, after the last step, the sum over all
  rows. Nothing here needs the summands to be finite: addition on the extended reals is associative and
  commutative with neutral element zero, which is all that is used.
-/
import Mathlib.Algebra.BigOperators.Fin
import Mathlib.Algebra.BigOperators.Intervals
import Mathlib.Logic.Equiv.Fin.Basic

open scoped BigOperators

namespace Cert.BlockedSum

/-- Row `r` of block `t` lies among the `a · b` rows. -/
theorem blockIdx_lt {a b : ℕ} (t : Fin a) (r : Fin b) : t.val * b + r.val < a * b :=
  calc t.val * b + r.val < t.val * b + b := Nat.add_lt_add_left r.isLt _
    _ = (t.val + 1) * b := (Nat.succ_mul _ _).symm
    _ ≤ a * b := Nat.mul_le_mul_right b t.isLt

/-- Row `r` of block `t`, as a row of the whole array of `n = a · b` rows: row `t · b + r`. -/
def blockIdx {n a b : ℕ} (hn : n = a * b) (t : Fin a) (r : Fin b) : Fin n :=
  ⟨t.val * b + r.val, hn ▸ blockIdx_lt t r⟩

/-- The row number of row `r` of block `t`. -/
@[simp] theorem blockIdx_val {n a b : ℕ} (hn : n = a * b) (t : Fin a) (r : Fin b) :
    (blockIdx hn t r).val = t.val * b + r.val := rfl

/-- The sum over all `n = a · b` rows is the sum over the `a` blocks of the sums over each block's `b` rows. -/
theorem sum_eq_sum_blocks {M : Type*} [AddCommMonoid M] {n a b : ℕ} (hn : n = a * b) (f : Fin n → M) :
    ∑ i, f i = ∑ t : Fin a, ∑ r : Fin b, f (blockIdx hn t r) := by
  subst hn
  rw [← Equiv.sum_comp finProdFinEquiv f, Fintype.sum_prod_type]
  refine Finset.sum_congr rfl fun t _ => Finset.sum_congr rfl fun r _ => congrArg f (Fin.ext ?_)
  simp only [finProdFinEquiv_apply_val, blockIdx_val]
  rw [Nat.mul_comm b t.val, Nat.add_comm]

/-- An accumulator that starts at zero and at step `t` adds `g t` holds, after `k` steps, the sum of the first `k`
    summands. -/
theorem acc_eq_sum_range {M : Type*} [AddCommMonoid M] (a : ℕ) (acc g : ℕ → M) (h0 : acc 0 = 0)
    (hstep : ∀ t, t < a → acc (t + 1) = acc t + g t) :
    ∀ k, k ≤ a → acc k = ∑ t ∈ Finset.range k, g t := by
  intro k
  induction k with
  | zero => intro _; rw [h0, Finset.range_zero, Finset.sum_empty]
  | succ k ih =>
    intro hk
    rw [hstep k hk, ih (Nat.le_of_succ_le hk), Finset.sum_range_succ]

/-- The accumulated form. An accumulator `acc` starts at zero; at step `t` (for each of the `a` blocks in order) it
    adds the sum of block `t`'s `b` rows. After the last step it holds the sum over all `n = a · b` rows. -/
theorem acc_eq_sum {M : Type*} [AddCommMonoid M] {n a b : ℕ} (hn : n = a * b) (f : Fin n → M) (acc : ℕ → M)
    (h0 : acc 0 = 0)
    (hstep : ∀ t : Fin a, acc (t.val + 1) = acc t.val + ∑ r : Fin b, f (blockIdx hn t r)) :
    acc a = ∑ i, f i := by
  classical
  have h := acc_eq_sum_range a acc
    (fun t => if h : t < a then ∑ r : Fin b, f (blockIdx hn ⟨t, h⟩ r) else 0) h0
    (fun t ht => by rw [hstep ⟨t, ht⟩, dif_pos ht]) a le_rfl
  rw [h, sum_eq_sum_blocks hn f,
    ← Fin.sum_univ_eq_sum_range (fun t => if h : t < a then ∑ r : Fin b, f (blockIdx hn ⟨t, h⟩ r) else 0) a]
  exact Finset.sum_congr rfl fun t _ => by rw [dif_pos t.isLt]

/-- The same, read at any intermediate step: after `k ≤ a` steps the accumulator holds the sum of the first `k`
    blocks. -/
theorem acc_eq_partial {M : Type*} [AddCommMonoid M] {n a b : ℕ} (hn : n = a * b) (f : Fin n → M) (acc : ℕ → M)
    (h0 : acc 0 = 0)
    (hstep : ∀ t : Fin a, acc (t.val + 1) = acc t.val + ∑ r : Fin b, f (blockIdx hn t r))
    (k : ℕ) (hk : k ≤ a) :
    acc k = ∑ t : Fin k, ∑ r : Fin b, f (blockIdx hn (Fin.castLE hk t) r) := by
  classical
  have h := acc_eq_sum_range a acc
    (fun t => if h : t < a then ∑ r : Fin b, f (blockIdx hn ⟨t, h⟩ r) else 0) h0
    (fun t ht => by rw [hstep ⟨t, ht⟩, dif_pos ht]) k hk
  rw [h, ← Fin.sum_univ_eq_sum_range
    (fun t => if h : t < a then ∑ r : Fin b, f (blockIdx hn ⟨t, h⟩ r) else 0) k]
  exact Finset.sum_congr rfl fun t _ => by rw [dif_pos (lt_of_lt_of_le t.isLt hk)]; rfl

end Cert.BlockedSum
-- ==== Proof.KI.Val0.lean ====
import proofs.«172250_j15616501088594_1_alg».proof.Proof.KI.Reg0
import proofs.«172250_j15616501088594_1_alg».proof.Proof.KI.Ends0
import proofs.«172250_j15616501088594_1_alg».proof.Proof.KI.ValPre0
import proofs.«172250_j15616501088594_1_alg».proof.Proof.LibBlockedSum

/-!
# The accumulating region 0: its three output arrays as functions of its input arrays

Read over the extended reals. After the region:

* the 100000×128 output holds `Z0`, the two-layer perceptron of the rows of the two feature arrays;
* the first one-row output holds, in column `q`, the sum over all 100000 rows of `Z0 (r, q)`;
* the second holds the sum over all rows of `Z0 (r, q)²`.

The two sums are taken block by block: the accumulators are zero before the first block's sums are added, each point
adds its block's column sums, and the last point copies the accumulators out. A sum over 50 blocks of 2000 rows is
the sum over the 100000 rows.
-/

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The block stored at point `t`. -/
abbrev zAt0 (c : Dev nD) (t : Fin cfg0.N) : FVec Ideal S2000x128 .f32 := k0_pay5 (iblk0 V c 0 t) (iblk0 V c 1 t) (iblk0 V c 2 t) (iblk0 V c 3 t) (iblk0 V c 4 t) (iblk0 V c 5 t)

/-! ## What each point leaves, case by case -/

/-- After the body at any point the results block holds the point's stored block. -/
theorem after0_z (c : Dev nD) (t : Fin cfg0.N) : (dat0 V c).after 6 t = zAt0 V c t := by
  rw [after0_6]
  by_cases h0 : t.val = 0
  · have h1 : t.val ≠ 49 := by omega
    rw [afterPt0_first V c t h0 h1]
    dsimp only
    exact zFirst0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t)
  · by_cases h1 : t.val = 49
    · rw [afterPt0_last V c t h0 h1]
      dsimp only
      exact zLast0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t) _ _
    · rw [afterPt0_mid V c t h0 h1]
      dsimp only
      exact zMid0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t) _ _

/-- The first accumulator after the first point: the first block's column sums added to zero. -/
theorem acc0_first0 (c : Dev nD) (t : Fin cfg0.N) (h0 : t.val = 0) :
    (afterPt0 V c t.val t.isLt).2.2.2.1 = k0_pay1 (k0_pay6 (iblk0 V c 0 t) (iblk0 V c 1 t) (iblk0 V c 2 t) (iblk0 V c 3 t) (iblk0 V c 4 t) (iblk0 V c 5 t) (k0_pay3 (F := Ideal))) := by
  have h1 : t.val ≠ 49 := by omega
  rw [afterPt0_first V c t h0 h1]
  dsimp only
  exact acc0First0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t)

/-- The second accumulator after the first point: the column sums of the first block's squares added to zero. -/
theorem acc1_first0 (c : Dev nD) (t : Fin cfg0.N) (h0 : t.val = 0) :
    (afterPt0 V c t.val t.isLt).2.2.2.2 = k0_pay2 (zAt0 V c t) (k0_pay4 (F := Ideal)) := by
  have h1 : t.val ≠ 49 := by omega
  rw [afterPt0_first V c t h0 h1]
  dsimp only
  exact acc1First0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t)

/-- The first accumulator after a later point: the point's column sums added to what the point before left. -/
theorem acc0_later0 (c : Dev nD) (t : Fin cfg0.N) (h0 : t.val ≠ 0) :
    (afterPt0 V c t.val t.isLt).2.2.2.1
      = k0_pay1 (k0_pay6 (iblk0 V c 0 t) (iblk0 V c 1 t) (iblk0 V c 2 t) (iblk0 V c 3 t) (iblk0 V c 4 t) (iblk0 V c 5 t)
          (afterPt0 V c (t.val - 1) (Nat.lt_of_le_of_lt (Nat.sub_le _ _) t.isLt)).2.2.2.1) := by
  by_cases h1 : t.val = 49
  · rw [afterPt0_last V c t h0 h1]
    dsimp only
    exact acc0Last0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t) _ _
  · rw [afterPt0_mid V c t h0 h1]
    dsimp only
    exact acc0Mid0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t) _ _

/-- The second accumulator after a later point. -/
theorem acc1_later0 (c : Dev nD) (t : Fin cfg0.N) (h0 : t.val ≠ 0) :
    (afterPt0 V c t.val t.isLt).2.2.2.2
      = k0_pay2 (zAt0 V c t)
          (afterPt0 V c (t.val - 1) (Nat.lt_of_le_of_lt (Nat.sub_le _ _) t.isLt)).2.2.2.2 := by
  by_cases h1 : t.val = 49
  · rw [afterPt0_last V c t h0 h1]
    dsimp only
    exact acc1Last0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t) _ _
  · rw [afterPt0_mid V c t h0 h1]
    dsimp only
    exact acc1Mid0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t) _ _

/-- At the last point each one-row output is left at its accumulator's new value. -/
theorem out7_last0 (c : Dev nD) (t : Fin cfg0.N) (h1 : t.val = 49) :
    (afterPt0 V c t.val t.isLt).2.1 = (afterPt0 V c t.val t.isLt).2.2.2.1 := by
  have h0 : t.val ≠ 0 := by omega
  rw [afterPt0_last V c t h0 h1]
  dsimp only
  exact (o7Last0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t) _ _).trans
    (acc0Last0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t) _ _).symm
theorem out8_last0 (c : Dev nD) (t : Fin cfg0.N) (h1 : t.val = 49) :
    (afterPt0 V c t.val t.isLt).2.2.1 = (afterPt0 V c t.val t.isLt).2.2.2.2 := by
  have h0 : t.val ≠ 0 := by omega
  rw [afterPt0_last V c t h0 h1]
  dsimp only
  exact (o8Last0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t) _ _).trans
    (acc1Last0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) acc0_0 (Memref.isWhole_whole _) acc0_1 (Memref.isWhole_whole _) _ _ (iblk0 V c 0 t) (iblk0 V c 1 t) (iblk0 V c 2 t) (iblk0 V c 3 t) (iblk0 V c 4 t) (iblk0 V c 5 t) _ _).symm

/-! ## The accumulators point by point -/

/-- The column sums of the rows of block `t` (zero past the grid). -/
def blockSum0 (c : Dev nD) (q : Fin 128) (t : ℕ) : EReal :=
  if h : t < cfg0.N then ∑ p : Fin 2000, Z0 V c (ix2 (rowOf0 ⟨t, h⟩ p) q) else 0
/-- The column sums of the squares of the rows of block `t` (zero past the grid). -/
def blockSumSq0 (c : Dev nD) (q : Fin 128) (t : ℕ) : EReal :=
  if h : t < cfg0.N then ∑ p : Fin 2000, Z0 V c (ix2 (rowOf0 ⟨t, h⟩ p) q) * Z0 V c (ix2 (rowOf0 ⟨t, h⟩ p) q) else 0

/-- After point `n` the first accumulator holds the column sums of blocks `0 … n`. -/
theorem acc0_upto0 (c : Dev nD) (q : Fin 128) : ∀ (n : ℕ) (hn : n < cfg0.N),
    (afterPt0 V c n hn).2.2.2.1 (ix2 (0 : Fin 1) q) = ∑ t ∈ Finset.range (n + 1), blockSum0 V c q t := by
  intro n
  induction n with
  | zero =>
    intro hn
    rw [acc0_first0 V c ⟨0, hn⟩ rfl, k0_pay1_eq, k0_pay6_apply, k0_pay3_apply, zero_add,
      Finset.sum_range_one]
    unfold blockSum0; rw [dif_pos hn]
    exact Finset.sum_congr rfl fun p _ => zblock0_apply V c ⟨0, hn⟩ p q
  | succ n ih =>
    intro hn
    rw [acc0_later0 V c ⟨n + 1, hn⟩ (Nat.succ_ne_zero n), k0_pay1_eq, k0_pay6_apply, Finset.sum_range_succ]
    refine congrArg₂ (· + ·) (ih (Nat.lt_of_succ_lt hn)) ?_
    unfold blockSum0; rw [dif_pos hn]
    exact Finset.sum_congr rfl fun p _ => zblock0_apply V c ⟨n + 1, hn⟩ p q

/-- After point `n` the second accumulator holds the column sums of the squares of blocks `0 … n`. -/
theorem acc1_upto0 (c : Dev nD) (q : Fin 128) : ∀ (n : ℕ) (hn : n < cfg0.N),
    (afterPt0 V c n hn).2.2.2.2 (ix2 (0 : Fin 1) q) = ∑ t ∈ Finset.range (n + 1), blockSumSq0 V c q t := by
  intro n
  induction n with
  | zero =>
    intro hn
    rw [acc1_first0 V c ⟨0, hn⟩ rfl, k0_pay2_apply, k0_pay4_apply, zero_add, Finset.sum_range_one]
    unfold blockSumSq0; rw [dif_pos hn]
    exact Finset.sum_congr rfl fun p _ => congrArg₂ (· * ·) (zblock0_apply V c ⟨0, hn⟩ p q) (zblock0_apply V c ⟨0, hn⟩ p q)
  | succ n ih =>
    intro hn
    rw [acc1_later0 V c ⟨n + 1, hn⟩ (Nat.succ_ne_zero n), k0_pay2_apply, Finset.sum_range_succ]
    refine congrArg₂ (· + ·) (ih (Nat.lt_of_succ_lt hn)) ?_
    unfold blockSumSq0; rw [dif_pos hn]
    exact Finset.sum_congr rfl fun p _ => congrArg₂ (· * ·) (zblock0_apply V c ⟨n + 1, hn⟩ p q) (zblock0_apply V c ⟨n + 1, hn⟩ p q)

/-- The sum over the 50 blocks of a block-wise sum is the sum over the 100000 rows. -/
theorem sum_blocks0 (f : Fin 100000 → EReal) :
    ∑ t ∈ Finset.range 50, (if h : t < cfg0.N then ∑ p : Fin 2000, f (rowOf0 ⟨t, h⟩ p) else 0) = ∑ r : Fin 100000, f r := by
  have hN : cfg0.N = 50 := N_0
  rw [Cert.BlockedSum.sum_eq_sum_blocks (show 100000 = 50 * 2000 by norm_num) f,
    ← Fin.sum_univ_eq_sum_range (fun t => if h : t < cfg0.N then ∑ p : Fin 2000, f (rowOf0 ⟨t, h⟩ p) else 0) 50]
  refine Finset.sum_congr rfl fun t _ => ?_
  have ht : t.val < cfg0.N := by rw [hN]; exact t.isLt
  rw [dif_pos ht]
  exact Finset.sum_congr rfl fun p _ => congrArg f (Fin.ext rfl)

/-! ## The large output -/

/-- What point `t` writes back to the large output is block `t` of `Z0`. -/
theorem flushed0_z (c : Dev nD) (t : Fin cfg0.N) :
    (dat0 V c).flushed 6 t = ((cfg0.win 6).blk t).view.read (Elt Ideal) (Z0 V c) := by
  show (cfg0.win 6).cut (grid0.coords t) ((dat0 V c).after 6 t) = _
  rw [after0_z]
  funext j
  obtain ⟨p, q, rfl⟩ : ∃ (p : Fin 2000) (q : Fin 128), j = ix2 p q := ⟨j 0, j 1, eq_ix2 j⟩
  show zAt0 V c t (ix2 p q) = Z0 V c (((cfg0.win 6).blk t).view.emb (ix2 p q))
  rw [emb_block0]
  exact zblock0_apply V c t p q

/-- The large output after the region. -/
theorem final0_z (c : Dev nD) : (dat0 V c).arrAt 6 cfg0.N = Z0 V c :=
  (dat0 V c).arrAt_eq_of_cover 6 _ (fun t _ => flushed0_z V c t) covered0

/-! ## The two one-row outputs -/

/-- The last point. -/
def lastPt0 : Fin cfg0.N := ⟨49, by rw [show cfg0.N = 50 from N_0]; norm_num⟩

/-- A point that writes a one-row output back is the last point. -/
theorem eq_last_of_flush7_0 (t : Fin cfg0.N) (h : (cfg0.win 7).flush t = true) : t = lastPt0 := by
  have ht := t.isLt; have hN : cfg0.N = 50 := N_0
  have := (flush0_7 t).mp h
  exact Fin.ext (by show t.val = 49; omega)
theorem eq_last_of_flush8_0 (t : Fin cfg0.N) (h : (cfg0.win 8).flush t = true) : t = lastPt0 := by
  have ht := t.isLt; have hN : cfg0.N = 50 := N_0
  have := (flush0_8 t).mp h
  exact Fin.ext (by show t.val = 49; omega)

/-- A one-row output's block is the whole row at every point: reading a row through the block reads the row. -/
theorem read_row7_0 (t : Fin cfg0.N) (G : FVec Ideal S1x128 .f32) :
    ((cfg0.win 7).blk t).view.read (Elt Ideal) G = G := by
  obtain ⟨-, -, -, -, -, -, -, -, -, -, -, -, -, -, e70, e71, -⟩ := index_facts0 t
  funext y
  show G (((cfg0.win 7).blk t).view.emb y) = G y
  refine congrArg G (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega
theorem read_row8_0 (t : Fin cfg0.N) (G : FVec Ideal S1x128 .f32) :
    ((cfg0.win 8).blk t).view.read (Elt Ideal) G = G := by
  obtain ⟨-, -, -, -, -, -, -, -, -, -, -, -, -, -, -, -, e80, e81⟩ := index_facts0 t
  funext y
  show G (((cfg0.win 8).blk t).view.emb y) = G y
  refine congrArg G (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Every index of a one-row output is in the last point's block, which that point writes back. -/
theorem covered7_0 (i : S1x128.Idx) :
    ∃ t : Fin cfg0.N, (cfg0.win 7).flush t = true ∧ i ∈ ((cfg0.win 7).blk t).view.set := by
  have hi0 : (i 0).val < 1 := idx2_lt0 i
  have hi1 : (i 1).val < 128 := idx2_lt1 i
  obtain ⟨-, -, -, -, -, -, -, -, -, -, -, -, -, -, e70, e71, -⟩ := index_facts0 lastPt0
  refine ⟨lastPt0, (flush0_7 lastPt0).mpr (by show 49 % 50 = 49; norm_num), ?_⟩
  show i ∈ ((View.whole main_v18_1).slice (win0_7.rect lastPt0)).set
  rw [View.set_slice_whole, Rect.mem_set_unit]
  intro a
  match a with
  | ⟨0, _⟩ => show win0_7.index lastPt0 (0 : Fin 2) * 1 ≤ (i 0).val ∧ (i 0).val < win0_7.index lastPt0 (0 : Fin 2) * 1 + 1; omega
  | ⟨1, _⟩ => show win0_7.index lastPt0 (1 : Fin 2) * 128 ≤ (i 1).val ∧ (i 1).val < win0_7.index lastPt0 (1 : Fin 2) * 128 + 128; omega
theorem covered8_0 (i : S1x128.Idx) :
    ∃ t : Fin cfg0.N, (cfg0.win 8).flush t = true ∧ i ∈ ((cfg0.win 8).blk t).view.set := by
  have hi0 : (i 0).val < 1 := idx2_lt0 i
  have hi1 : (i 1).val < 128 := idx2_lt1 i
  obtain ⟨-, -, -, -, -, -, -, -, -, -, -, -, -, -, -, -, e80, e81⟩ := index_facts0 lastPt0
  refine ⟨lastPt0, (flush0_8 lastPt0).mpr (by show 49 % 50 = 49; norm_num), ?_⟩
  show i ∈ ((View.whole main_v18_2).slice (win0_8.rect lastPt0)).set
  rw [View.set_slice_whole, Rect.mem_set_unit]
  intro a
  match a with
  | ⟨0, _⟩ => show win0_8.index lastPt0 (0 : Fin 2) * 1 ≤ (i 0).val ∧ (i 0).val < win0_8.index lastPt0 (0 : Fin 2) * 1 + 1; omega
  | ⟨1, _⟩ => show win0_8.index lastPt0 (1 : Fin 2) * 128 ≤ (i 1).val ∧ (i 1).val < win0_8.index lastPt0 (1 : Fin 2) * 128 + 128; omega

/-- The first one-row output after the region is the first accumulator after the last point. -/
theorem final0_row7 (c : Dev nD) :
    (dat0 V c).arrAt 7 cfg0.N = (afterPt0 V c lastPt0.val lastPt0.isLt).2.2.2.1 := by
  refine (dat0 V c).arrAt_eq_of_cover 7 _ (fun t ht => ?_) covered7_0
  obtain rfl := eq_last_of_flush7_0 t ht
  rw [read_row7_0]
  show (cfg0.win 7).cut (grid0.coords lastPt0) ((dat0 V c).after 7 lastPt0) = _
  rw [after0_7]
  exact out7_last0 V c lastPt0 rfl
/-- The second one-row output after the region is the second accumulator after the last point. -/
theorem final0_row8 (c : Dev nD) :
    (dat0 V c).arrAt 8 cfg0.N = (afterPt0 V c lastPt0.val lastPt0.isLt).2.2.2.2 := by
  refine (dat0 V c).arrAt_eq_of_cover 8 _ (fun t ht => ?_) covered8_0
  obtain rfl := eq_last_of_flush8_0 t ht
  rw [read_row8_0]
  show (cfg0.win 8).cut (grid0.coords lastPt0) ((dat0 V c).after 8 lastPt0) = _
  rw [after0_8]
  exact out8_last0 V c lastPt0 rfl

/-- The first one-row output: the column sums of `Z0` over all 100000 rows. -/
theorem final0_sum (c : Dev nD) (q : Fin 128) :
    (dat0 V c).arrAt 7 cfg0.N (ix2 (0 : Fin 1) q) = ∑ r : Fin 100000, Z0 V c (ix2 r q) := by
  rw [final0_row7]
  refine (acc0_upto0 V c q 49 lastPt0.isLt).trans ?_
  exact sum_blocks0 (fun r => Z0 V c (ix2 r q))

/-- The second one-row output: the column sums of the squares of `Z0` over all 100000 rows. -/
theorem final0_sumsq (c : Dev nD) (q : Fin 128) :
    (dat0 V c).arrAt 8 cfg0.N (ix2 (0 : Fin 1) q) = ∑ r : Fin 100000, Z0 V c (ix2 r q) * Z0 V c (ix2 r q) := by
  rw [final0_row8]
  refine (acc1_upto0 V c q 49 lastPt0.isLt).trans ?_
  exact sum_blocks0 (fun r => Z0 V c (ix2 r q) * Z0 V c (ix2 r q))

end Cert.KernelIdeal.HandVal
-- ==== Proof.KI.MlpOut0.lean ====
/-
  Layer 0's first region along the kernel program's chain of buffer contents, over the extended reals: the table it
  leaves is the two-layer perceptron on the rows of `h + a` — `h` the layer's input table, `a` its neighbour sum along
  the edges —, with the weights and bias rows the host stretch before it prepared from the launch arguments; the two
  one-row outputs are that table's column sums and the column sums of its squares.
-/
import proofs.«172250_j15616501088594_1_alg».proof.Proof.KI.ResultChain
import proofs.«172250_j15616501088594_1_alg».proof.Proof.KI.Val0

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

open Cert.KernelIdeal.Hand Idealize.ShloMosaic.ValueIdx
open scoped BigOperators

variable (m : (ℓ : Loc nD τ sig) → Buf (Elt Ideal) ℓ) (c : Dev nD)

/-- The region's closed form, taken at the buffers as the region finds them, is the perceptron of the launch
    arguments. -/
theorem Z0_chain :
    Z0 (atTc (X1 m)) c
      = mlpRows0 (m (c, Proc.devRef .tc main_arg0)) (aggK64 (m (c, Proc.devRef .tc main_arg0)) (srcK (m (c, Proc.devRef .tc main_arg1))) (dstK (m (c, Proc.devRef .tc main_arg1)))) (castK64 (m (c, Proc.devRef .tc main_arg3))) (rowK (m (c, Proc.devRef .tc main_arg4))) (castK128 (m (c, Proc.devRef .tc main_arg5))) (rowK (m (c, Proc.devRef .tc main_arg6))) := by
  show mlpRows0 (X1 m c (Proc.devRef .tc main_arg0)) (X1 m c (Proc.devRef .tc main_v13)) (X1 m c (Proc.devRef .tc main_v14)) (X1 m c (Proc.devRef .tc main_v16)) (X1 m c (Proc.devRef .tc main_v15)) (X1 m c (Proc.devRef .tc main_v17)) = _
  rw [X1_main_arg0, X1_main_v13, X1_main_v14, X1_main_v16, X1_main_v15, X1_main_v17]

/-- The table layer 0's first region leaves. -/
theorem Z0_eq :
    (X2 m c (Proc.devRef .tc main_v18_0) : S100000x128.Idx → Elt Ideal .f32)
      = mlpRows0 (m (c, Proc.devRef .tc main_arg0)) (aggK64 (m (c, Proc.devRef .tc main_arg0)) (srcK (m (c, Proc.devRef .tc main_arg1))) (dstK (m (c, Proc.devRef .tc main_arg1)))) (castK64 (m (c, Proc.devRef .tc main_arg3))) (rowK (m (c, Proc.devRef .tc main_arg4))) (castK128 (m (c, Proc.devRef .tc main_arg5))) (rowK (m (c, Proc.devRef .tc main_arg6))) :=
  (X2_main_v18_0 m c).trans ((final0_z _ c).trans (Z0_chain m c))

/-- The first one-row output: the column sums of that table over the 100000 rows. -/
theorem S0_eq (q : Fin 128) :
    (X2 m c (Proc.devRef .tc main_v18_1) : S1x128.Idx → Elt Ideal .f32) (ix2 (0 : Fin 1) q)
      = ∑ r : Fin 100000, (mlpRows0 (m (c, Proc.devRef .tc main_arg0)) (aggK64 (m (c, Proc.devRef .tc main_arg0)) (srcK (m (c, Proc.devRef .tc main_arg1))) (dstK (m (c, Proc.devRef .tc main_arg1)))) (castK64 (m (c, Proc.devRef .tc main_arg3))) (rowK (m (c, Proc.devRef .tc main_arg4))) (castK128 (m (c, Proc.devRef .tc main_arg5))) (rowK (m (c, Proc.devRef .tc main_arg6)))) (ix2 r q) := by
  rw [X2_main_v18_1, final0_sum, Z0_chain]

/-- The second one-row output: the column sums of that table's squares over the 100000 rows. -/
theorem SS0_eq (q : Fin 128) :
    (X2 m c (Proc.devRef .tc main_v18_2) : S1x128.Idx → Elt Ideal .f32) (ix2 (0 : Fin 1) q)
      = ∑ r : Fin 100000, (mlpRows0 (m (c, Proc.devRef .tc main_arg0)) (aggK64 (m (c, Proc.devRef .tc main_arg0)) (srcK (m (c, Proc.devRef .tc main_arg1))) (dstK (m (c, Proc.devRef .tc main_arg1)))) (castK64 (m (c, Proc.devRef .tc main_arg3))) (rowK (m (c, Proc.devRef .tc main_arg4))) (castK128 (m (c, Proc.devRef .tc main_arg5))) (rowK (m (c, Proc.devRef .tc main_arg6)))) (ix2 r q)
          * (mlpRows0 (m (c, Proc.devRef .tc main_arg0)) (aggK64 (m (c, Proc.devRef .tc main_arg0)) (srcK (m (c, Proc.devRef .tc main_arg1))) (dstK (m (c, Proc.devRef .tc main_arg1)))) (castK64 (m (c, Proc.devRef .tc main_arg3))) (rowK (m (c, Proc.devRef .tc main_arg4))) (castK128 (m (c, Proc.devRef .tc main_arg5))) (rowK (m (c, Proc.devRef .tc main_arg6)))) (ix2 r q) := by
  rw [X2_main_v18_2, final0_sumsq, Z0_chain]

end Cert.KernelIdeal.HandVal

end
-- ==== Proof.KI.Pieces2.lean ====
import proofs.«172250_j15616501088594_1_alg».proof.Proof.KI.Reg2First
import proofs.«172250_j15616501088594_1_alg».proof.Proof.KI.Reg2Mid
import proofs.«172250_j15616501088594_1_alg».proof.Proof.KI.Reg2Last
import Idealize.ShloMosaic.Lib.Pipeline.Value

/-!
# The accumulating region 2: what each run's stores leave, as the stored values of the blocks

The body runs in one of three ways: at the first point (the accumulators are cleared first), at a middle point, at the
last point (the accumulators are copied out at the end). In each, every written buffer ends at the value of its last
store, which takes the buffer whole; a load of a buffer after a whole store reads that store's value. So:

* the results block ends at the stored block `z` of the six input blocks;
* the first accumulator ends at what it held (zero at the first point) plus the column sums of `z`;
* the second at what it held (zero at the first point) plus the column sums of the squares of `z`;
* at the last point each one-row output ends at its accumulator's new value.
-/

set_option maxRecDepth 16384

noncomputable section

namespace Cert.KernelIdeal.HandVal

open Idealize.ShloMosaic Idealize.ShloMosaic.TcCoe Idealize.ShloMosaic.Tactic Idealize.SL.Sem
open Cert.KernelIdeal Cert.KernelIdeal.Gen Cert.KernelIdeal.Hand

variable {F : FTy → Type} [FloatOps F]

/-- Both offsets of a whole-buffer rectangle are zero. -/
theorem zero2_2 : (![0, 0] : Fin 2 → Nat) = fun _ => 0 := funext fun a => by fin_cases a <;> rfl

/-! ## The first point -/

theorem first2_z (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i) (x0 : Vec F S2000x128 .f32) (x1 : Vec F S2000x128 .f32) (x2 : Vec F S128x128 .bf16) (x3 : Vec F S1x128 .f32) (x4 : Vec F S128x128 .bf16) (x5 : Vec F S1x128 .f32) :
    View.canon (runFirst2 c i arg1 harg1 arg2 harg2 arg3 harg3 arg4 harg4 arg5 harg5 arg6 harg6 arg7 harg7 arg8 harg8 arg9 harg9 arg10 harg10 arg11 harg11 hc0 hc1 x0 x1 x2 x3 x4 x5).1 = k2_pay5 x0 x1 x2 x3 x4 x5 := by
  unfold runFirst2
  dsimp only
  try sl_unfold_words
  rw [View.canon_cons_unit_zero zero2_2]
  simp only [View.readAt_eq_ld, harg1.read_unread, harg2.read_unread, harg3.read_unread, harg4.read_unread,
    harg5.read_unread, harg6.read_unread,
    View.ld_unit_zero (S := S2000x128) zero2_2, View.ld_unit_zero (S := S128x128) zero2_2,
    View.ld_unit_zero (S := S1x128) zero2_2, View.ld_unit_zero (S := S2000x128) zero2_2,
    View.readCov_unit_zero (S := S1x128) _ zero2_2]

theorem first2_acc0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i) (x0 : Vec F S2000x128 .f32) (x1 : Vec F S2000x128 .f32) (x2 : Vec F S128x128 .bf16) (x3 : Vec F S1x128 .f32) (x4 : Vec F S128x128 .bf16) (x5 : Vec F S1x128 .f32) :
    View.canon (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.1 = k2_pay1 (k2_pay6 x0 x1 x2 x3 x4 x5 k2_pay3) := by
  unfold runFirst2
  dsimp only
  try sl_unfold_words
  rw [View.canon_cons_unit_zero zero2_2]
  simp only [View.readAt_eq_ld, harg1.read_unread, harg2.read_unread, harg3.read_unread, harg4.read_unread,
    harg5.read_unread, harg6.read_unread,
    View.ld_unit_zero (S := S2000x128) zero2_2, View.ld_unit_zero (S := S128x128) zero2_2,
    View.ld_unit_zero (S := S1x128) zero2_2, View.ld_unit_zero (S := S2000x128) zero2_2,
    View.readCov_unit_zero (S := S1x128) _ zero2_2]

theorem first2_acc1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i) (x0 : Vec F S2000x128 .f32) (x1 : Vec F S2000x128 .f32) (x2 : Vec F S128x128 .bf16) (x3 : Vec F S1x128 .f32) (x4 : Vec F S128x128 .bf16) (x5 : Vec F S1x128 .f32) :
    View.canon (runFirst2 c i arg1 harg1 arg2 harg2 arg3 harg3 arg4 harg4 arg5 harg5 arg6 harg6 arg7 harg7 arg8 harg8 arg9 harg9 arg10 harg10 arg11 harg11 hc0 hc1 x0 x1 x2 x3 x4 x5).2.2.1 = k2_pay2 (k2_pay5 x0 x1 x2 x3 x4 x5) k2_pay4 := by
  unfold runFirst2
  dsimp only
  try sl_unfold_words
  rw [View.canon_cons_unit_zero zero2_2]
  simp only [View.readAt_eq_ld, harg1.read_unread, harg2.read_unread, harg3.read_unread, harg4.read_unread,
    harg5.read_unread, harg6.read_unread,
    View.ld_unit_zero (S := S2000x128) zero2_2, View.ld_unit_zero (S := S128x128) zero2_2,
    View.ld_unit_zero (S := S1x128) zero2_2, View.ld_unit_zero (S := S2000x128) zero2_2,
    View.readCov_unit_zero (S := S1x128) _ zero2_2]

/-! ## A middle point -/

theorem mid2_z (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 = k2_pay5 x0 x1 x2 x3 x4 x5 := by
  unfold runMid2
  dsimp only
  try sl_unfold_words
  rw [View.canon_cons_unit_zero zero2_2]
  simp only [View.readAt_eq_ld, harg1.read_unread, harg2.read_unread, harg3.read_unread, harg4.read_unread,
    harg5.read_unread, harg6.read_unread, harg10.read_unread, harg11.read_unread,
    View.ld_unit_zero (S := S2000x128) zero2_2, View.ld_unit_zero (S := S128x128) zero2_2,
    View.ld_unit_zero (S := S1x128) zero2_2, View.ld_unit_zero (S := S2000x128) zero2_2,
    View.readCov_unit_zero (S := S1x128) _ zero2_2]

theorem mid2_acc0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 = k2_pay1 (k2_pay6 x0 x1 x2 x3 x4 x5 xs0) := by
  unfold runMid2
  dsimp only
  try sl_unfold_words
  rw [View.canon_cons_unit_zero zero2_2]
  simp only [View.readAt_eq_ld, harg1.read_unread, harg2.read_unread, harg3.read_unread, harg4.read_unread,
    harg5.read_unread, harg6.read_unread, harg10.read_unread, harg11.read_unread,
    View.ld_unit_zero (S := S2000x128) zero2_2, View.ld_unit_zero (S := S128x128) zero2_2,
    View.ld_unit_zero (S := S1x128) zero2_2, View.ld_unit_zero (S := S2000x128) zero2_2,
    View.readCov_unit_zero (S := S1x128) _ zero2_2]

theorem mid2_acc1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 = k2_pay2 (k2_pay5 x0 x1 x2 x3 x4 x5) xs1 := by
  unfold runMid2
  dsimp only
  try sl_unfold_words
  rw [View.canon_cons_unit_zero zero2_2]
  simp only [View.readAt_eq_ld, harg1.read_unread, harg2.read_unread, harg3.read_unread, harg4.read_unread,
    harg5.read_unread, harg6.read_unread, harg10.read_unread, harg11.read_unread,
    View.ld_unit_zero (S := S2000x128) zero2_2, View.ld_unit_zero (S := S128x128) zero2_2,
    View.ld_unit_zero (S := S1x128) zero2_2, View.ld_unit_zero (S := S2000x128) zero2_2,
    View.readCov_unit_zero (S := S1x128) _ zero2_2]

/-! ## The last point -/

theorem last2_z (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 = k2_pay5 x0 x1 x2 x3 x4 x5 := by
  unfold runLast2
  dsimp only
  try sl_unfold_words
  rw [View.canon_cons_unit_zero zero2_2]
  simp only [View.readAt_eq_ld, harg1.read_unread, harg2.read_unread, harg3.read_unread, harg4.read_unread,
    harg5.read_unread, harg6.read_unread, harg10.read_unread, harg11.read_unread,
    View.ld_unit_zero (S := S2000x128) zero2_2, View.ld_unit_zero (S := S128x128) zero2_2,
    View.ld_unit_zero (S := S1x128) zero2_2, View.ld_unit_zero (S := S2000x128) zero2_2,
    View.readCov_unit_zero (S := S1x128) _ zero2_2]

theorem last2_o7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 = k2_pay1 (k2_pay6 x0 x1 x2 x3 x4 x5 xs0) := by
  unfold runLast2
  dsimp only
  try sl_unfold_words
  rw [View.canon_cons_unit_zero zero2_2]
  simp only [View.readAt_eq_ld, harg1.read_unread, harg2.read_unread, harg3.read_unread, harg4.read_unread,
    harg5.read_unread, harg6.read_unread, harg10.read_unread, harg11.read_unread,
    View.ld_unit_zero (S := S2000x128) zero2_2, View.ld_unit_zero (S := S128x128) zero2_2,
    View.ld_unit_zero (S := S1x128) zero2_2, View.ld_unit_zero (S := S2000x128) zero2_2,
    View.readCov_unit_zero (S := S1x128) _ zero2_2]

theorem last2_o8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 = k2_pay2 (k2_pay5 x0 x1 x2 x3 x4 x5) xs1 := by
  unfold runLast2
  dsimp only
  try sl_unfold_words
  rw [View.canon_cons_unit_zero zero2_2]
  simp only [View.readAt_eq_ld, harg1.read_unread, harg2.read_unread, harg3.read_unread, harg4.read_unread,
    harg5.read_unread, harg6.read_unread, harg10.read_unread, harg11.read_unread,
    View.ld_unit_zero (S := S2000x128) zero2_2, View.ld_unit_zero (S := S128x128) zero2_2,
    View.ld_unit_zero (S := S1x128) zero2_2, View.ld_unit_zero (S := S2000x128) zero2_2,
    View.readCov_unit_zero (S := S1x128) _ zero2_2]

theorem last2_acc0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 = k2_pay1 (k2_pay6 x0 x1 x2 x3 x4 x5 xs0) := by
  unfold runLast2
  dsimp only
  try sl_unfold_words
  rw [View.canon_cons_unit_zero zero2_2]
  simp only [View.readAt_eq_ld, harg1.read_unread, harg2.read_unread, harg3.read_unread, harg4.read_unread,
    harg5.read_unread, harg6.read_unread, harg10.read_unread, harg11.read_unread,
    View.ld_unit_zero (S := S2000x128) zero2_2, View.ld_unit_zero (S := S128x128) zero2_2,
    View.ld_unit_zero (S := S1x128) zero2_2, View.ld_unit_zero (S := S2000x128) zero2_2,
    View.readCov_unit_zero (S := S1x128) _ zero2_2]

theorem last2_acc1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 = k2_pay2 (k2_pay5 x0 x1 x2 x3 x4 x5) xs1 := by
  unfold runLast2
  dsimp only
  try sl_unfold_words
  rw [View.canon_cons_unit_zero zero2_2]
  simp only [View.readAt_eq_ld, harg1.read_unread, harg2.read_unread, harg3.read_unread, harg4.read_unread,
    harg5.read_unread, harg6.read_unread, harg10.read_unread, harg11.read_unread,
    View.ld_unit_zero (S := S2000x128) zero2_2, View.ld_unit_zero (S := S128x128) zero2_2,
    View.ld_unit_zero (S := S1x128) zero2_2, View.ld_unit_zero (S := S2000x128) zero2_2,
    View.readCov_unit_zero (S := S1x128) _ zero2_2]

end Cert.KernelIdeal.HandVal
-- ==== Proof.KI.Ends2.lean ====
import proofs.«172250_j15616501088594_1_alg».proof.Proof.KI.Reg2
import proofs.«172250_j15616501088594_1_alg».proof.Proof.KI.Pieces2

/-!
# The accumulating region 2: what each run leaves in each buffer, as stored values

Each buffer a run writes is read back, after the run's stores, as the value of its last store (the stores take the
buffers whole). Stated for each of the three runs and each written buffer.
-/

set_option maxRecDepth 16384

noncomputable section

namespace Cert.KernelIdeal.HandVal

open Idealize.ShloMosaic Idealize.ShloMosaic.TcCoe Idealize.SL.Sem
open Cert.KernelIdeal Cert.KernelIdeal.Gen Cert.KernelIdeal.Hand

variable {F : FTy → Type} [FloatOps F]

theorem zFirst2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i) (x0 : Vec F S2000x128 .f32) (x1 : Vec F S2000x128 .f32) (x2 : Vec F S128x128 .bf16) (x3 : Vec F S1x128 .f32) (x4 : Vec F S128x128 .bf16) (x5 : Vec F S1x128 .f32) :
    zFirst2 c i arg1 harg1 arg2 harg2 arg3 harg3 arg4 harg4 arg5 harg5 arg6 harg6 arg7 harg7 arg8 harg8 arg9 harg9 arg10 harg10 arg11 harg11 hc0 hc1 x0 x1 x2 x3 x4 x5 = k2_pay5 x0 x1 x2 x3 x4 x5 := by
  unfold zFirst2
  rw [View.read_writes_junk_eq_canon]
  exact first2_z c i arg1 harg1 arg2 harg2 arg3 harg3 arg4 harg4 arg5 harg5 arg6 harg6 arg7 harg7 arg8 harg8 arg9 harg9 arg10 harg10 arg11 harg11 hc0 hc1 x0 x1 x2 x3 x4 x5

theorem acc0First2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i) (x0 : Vec F S2000x128 .f32) (x1 : Vec F S2000x128 .f32) (x2 : Vec F S128x128 .bf16) (x3 : Vec F S1x128 .f32) (x4 : Vec F S128x128 .bf16) (x5 : Vec F S1x128 .f32) :
    acc0First2 c i arg1 harg1 arg2 harg2 arg3 harg3 arg4 harg4 arg5 harg5 arg6 harg6 arg7 harg7 arg8 harg8 arg9 harg9 arg10 harg10 arg11 harg11 hc0 hc1 x0 x1 x2 x3 x4 x5 = k2_pay1 (k2_pay6 x0 x1 x2 x3 x4 x5 k2_pay3) := by
  unfold acc0First2
  rw [View.read_writes_junk_eq_canon]
  exact first2_acc0 c i arg1 harg1 arg2 harg2 arg3 harg3 arg4 harg4 arg5 harg5 arg6 harg6 arg7 harg7 arg8 harg8 arg9 harg9 arg10 harg10 arg11 harg11 hc0 hc1 x0 x1 x2 x3 x4 x5

theorem acc1First2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst2 i) (hc1 : ¬atLast2 i) (x0 : Vec F S2000x128 .f32) (x1 : Vec F S2000x128 .f32) (x2 : Vec F S128x128 .bf16) (x3 : Vec F S1x128 .f32) (x4 : Vec F S128x128 .bf16) (x5 : Vec F S1x128 .f32) :
    acc1First2 c i arg1 harg1 arg2 harg2 arg3 harg3 arg4 harg4 arg5 harg5 arg6 harg6 arg7 harg7 arg8 harg8 arg9 harg9 arg10 harg10 arg11 harg11 hc0 hc1 x0 x1 x2 x3 x4 x5 = k2_pay2 (k2_pay5 x0 x1 x2 x3 x4 x5) k2_pay4 := by
  unfold acc1First2
  rw [View.read_writes_junk_eq_canon]
  exact first2_acc1 c i arg1 harg1 arg2 harg2 arg3 harg3 arg4 harg4 arg5 harg5 arg6 harg6 arg7 harg7 arg8 harg8 arg9 harg9 arg10 harg10 arg11 harg11 hc0 hc1 x0 x1 x2 x3 x4 x5

theorem zMid2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    zMid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x3 x4 x5 := by
  unfold zMid2
  rw [View.read_writes_junk_eq_canon]
  exact mid2_z c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem acc0Mid2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    acc0Mid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x3 x4 x5 xs0) := by
  unfold acc0Mid2
  rw [View.read_writes_junk_eq_canon]
  exact mid2_acc0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem acc1Mid2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : ¬atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    acc1Mid2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x3 x4 x5) xs1 := by
  unfold acc1Mid2
  rw [View.read_writes_junk_eq_canon]
  exact mid2_acc1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem zLast2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    zLast2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x3 x4 x5 := by
  unfold zLast2
  rw [View.read_writes_junk_eq_canon]
  exact last2_z c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem o7Last2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    o7Last2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x3 x4 x5 xs0) := by
  unfold o7Last2
  rw [View.read_writes_junk_eq_canon]
  exact last2_o7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem o8Last2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    o8Last2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x3 x4 x5) xs1 := by
  unfold o8Last2
  rw [View.read_writes_junk_eq_canon]
  exact last2_o8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem acc0Last2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    acc0Last2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x3 x4 x5 xs0) := by
  unfold acc0Last2
  rw [View.read_writes_junk_eq_canon]
  exact last2_acc0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem acc1Last2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst2 i) (hc1 : atLast2 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    acc1Last2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x3 x4 x5) xs1 := by
  unfold acc1Last2
  rw [View.read_writes_junk_eq_canon]
  exact last2_acc1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

end Cert.KernelIdeal.HandVal
-- ==== Proof.KI.DensePay2.lean ====
import proofs.«172250_j15616501088594_1_alg».proof.Proof.Gen.KernelIdeal.Skeleton
import proofs.«172250_j15616501088594_1_alg».proof.Proof.LibPlainDot

/-!
# The accumulating region 2: its stored values at an index, over the extended reals

The body of the region works on a block of 2000 rows. From the block `x` of the features and the block `a` of the
neighbour sums (128 columns each), two weight matrices `w1` (128×128), `w2` (128×128) and two bias rows
`b1`, `b2` (1×128) it forms the block

    z (p, q) = max (Σ_l max (Σ_j (x (p, j) + a (p, j)) · w1 (j, l) + b1 (0, l)) 0 · w2 (l, q) + b2 (0, q)) 0

(a change of number format is the identity over the extended reals), stores it, and adds to two 1×128 accumulators
the column sums Σ_p z (p, q) and Σ_p z (p, q)². The accumulators are set to zero at the first point.
-/

noncomputable section

namespace Cert.KernelIdeal.HandVal

open Cert.KernelIdeal Cert.KernelIdeal.Gen Cert.PlainDot
open Idealize.ShloMosaic Idealize.ShloMosaic.ValueIdx
open scoped BigOperators

/-- The stored block at an entry: two dense layers, each clamped below at zero. -/
theorem k2_pay5_apply (x a : FVec Ideal S2000x128 .f32) (w1 : FVec Ideal S128x128 .bf16) (b1 : FVec Ideal S1x128 .f32)
    (w2 : FVec Ideal S128x128 .bf16) (b2 : FVec Ideal S1x128 .f32) (p : Fin 2000) (q : Fin 128) :
    k2_pay5 x a w1 b1 w2 b2 (ix2 p q)
      = max ((∑ l : Fin 128, max ((∑ j : Fin 128, (x (ix2 p j) + a (ix2 p j)) * w1 (ix2 j l)) + b1 (ix2 (0 : Fin 1) l)) 0
                * w2 (ix2 l q)) + b2 (ix2 (0 : Fin 1) q)) 0 := by
  unfold k2_pay5
  simp only [shapeCast_self]
  refine (reluAffine_at _ none _ _ _ _ p q).trans ?_
  refine congrArg (fun s => max (s + b2 (ix2 (0 : Fin 1) q)) 0) (Finset.sum_congr rfl fun l _ => ?_)
  refine congrArg (· * w2 (ix2 l q)) ?_
  exact reluAffine_at _ none _ _ _ _ p l

/-- The first accumulator's new value: what it held plus the column sums of the stored block. -/
theorem k2_pay6_apply (x a : FVec Ideal S2000x128 .f32) (w1 : FVec Ideal S128x128 .bf16) (b1 : FVec Ideal S1x128 .f32)
    (w2 : FVec Ideal S128x128 .bf16) (b2 : FVec Ideal S1x128 .f32) (acc : FVec Ideal S1x128 .f32) (u : Fin 1) (q : Fin 128) :
    k2_pay6 x a w1 b1 w2 b2 acc (ix2 u q)
      = acc (ix2 u q) + ∑ p : Fin 2000, k2_pay5 x a w1 b1 w2 b2 (ix2 p q) := by
  unfold k2_pay6
  exact addRowSum_at acc _ _ _ _ _ u q

/-- The second accumulator's new value: what it held plus the column sums of the squares of a block `z`. -/
theorem k2_pay2_apply (z : FVec Ideal S2000x128 .f32) (acc : FVec Ideal S1x128 .f32) (u : Fin 1) (q : Fin 128) :
    k2_pay2 z acc (ix2 u q) = acc (ix2 u q) + ∑ p : Fin 2000, z (ix2 p q) * z (ix2 p q) := by
  unfold k2_pay2
  simp only [shapeCast_self]
  exact addRowSum_at acc (mulf z z) _ _ _ _ u q

/-- The value copied back into the first accumulator is the value itself. -/
theorem k2_pay1_eq (v : FVec Ideal S1x128 .f32) : k2_pay1 v = v := by
  unfold k2_pay1
  simp only [shapeCast_self]

/-- The first point sets both accumulators to zero. -/
theorem k2_pay3_apply (u : Fin 1) (q : Fin 128) : k2_pay3 (F := Ideal) (ix2 u q) = 0 := by
  unfold k2_pay3
  simp only [shapeCast_self]
  exact Ideal.ofBits_zero_f32
theorem k2_pay4_apply (u : Fin 1) (q : Fin 128) : k2_pay4 (F := Ideal) (ix2 u q) = 0 := by
  unfold k2_pay4
  simp only [shapeCast_self]
  exact Ideal.ofBits_zero_f32

end Cert.KernelIdeal.HandVal
-- ==== Proof.KI.ValPre2.lean ====
import proofs.«172250_j15616501088594_1_alg».proof.Proof.KI.Reg2Runs
import proofs.«172250_j15616501088594_1_alg».proof.Proof.KI.DensePay2
import Idealize.ShloMosaic.Lib.Pipeline.Value

/-!
# The accumulating region 2: the stored block of a point as rows of one whole-array function

Read over the extended reals. Point `t` of the 50 works on rows `2000·t … 2000·t + 1999` of the two feature arrays
(128 columns) and on the whole weight matrices and bias rows. The two-layer perceptron acts on each row separately,
so the block stored at point `t` is rows `2000·t …` of one function `mlpRows2` of the six arrays; block `t` of
the 100000×128 output array is those rows, and the row-block that covers row `r` is `r / 2000`.
-/

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The two-layer perceptron on the rows of `h + a`, as one function of the whole arrays. -/
def mlpRows2 (h a : FVec Ideal S100000x128 .f32) (w1 : FVec Ideal S128x128 .bf16) (b1 : FVec Ideal S1x128 .f32)
    (w2 : FVec Ideal S128x128 .bf16) (b2 : FVec Ideal S1x128 .f32) : FVec Ideal S100000x128 .f32 :=
  fun i => max ((∑ l : Fin 128, max ((∑ j : Fin 128, (h (ix2 (i 0) j) + a (ix2 (i 0) j)) * w1 (ix2 j l)) + b1 (ix2 (0 : Fin 1) l)) 0
                  * w2 (ix2 l (i 1))) + b2 (ix2 (0 : Fin 1) (i 1))) 0

/-- The same at explicit coordinates. -/
theorem mlpRows2_apply (h a : FVec Ideal S100000x128 .f32) (w1 : FVec Ideal S128x128 .bf16) (b1 : FVec Ideal S1x128 .f32)
    (w2 : FVec Ideal S128x128 .bf16) (b2 : FVec Ideal S1x128 .f32) (r : Fin 100000) (q : Fin 128) :
    mlpRows2 h a w1 b1 w2 b2 (ix2 r q)
      = max ((∑ l : Fin 128, max ((∑ j : Fin 128, (h (ix2 r j) + a (ix2 r j)) * w1 (ix2 j l)) + b1 (ix2 (0 : Fin 1) l)) 0
                * w2 (ix2 l q)) + b2 (ix2 (0 : Fin 1) q)) 0 := rfl

/-- The printed index maps over the grid: the two feature blocks and the output block move one row block per point;
    the weights, the bias rows and the two one-row outputs never move. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Row `p` of point `t`'s block is row `2000·t + p` of the array. -/
def rowOf2 (t : Fin cfg2.N) (p : Fin 2000) : Fin 100000 :=
  ⟨t.val * 2000 + p.val, by have ht := t.isLt; have hN : cfg2.N = 50 := N_2; have hp := p.isLt; omega⟩

/-! ## The input blocks at an entry -/

theorem blockH2_apply (c : Dev nD) (t : Fin cfg2.N) (p : Fin 2000) (j : Fin 128) :
    iblk2 V c 0 t (ix2 p j) = V c main_v35 (ix2 (rowOf2 t p) j) := by
  obtain ⟨e00, e01, -⟩ := index_facts2 t
  show V c main_v35 (((cfg2.win 0).blk t).view.emb (ix2 p j)) = _
  refine congrArg (V c main_v35) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * j.val = j.val; omega

theorem blockA2_apply (c : Dev nD) (t : Fin cfg2.N) (p : Fin 2000) (j : Fin 128) :
    iblk2 V c 1 t (ix2 p j) = V c main_v57 (ix2 (rowOf2 t p) j) := by
  obtain ⟨-, -, e10, e11, -⟩ := index_facts2 t
  show V c main_v57 (((cfg2.win 1).blk t).view.emb (ix2 p j)) = _
  refine congrArg (V c main_v57) (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * j.val = j.val; omega

theorem blockW1_2_apply (c : Dev nD) (t : Fin cfg2.N) (j : Fin 128) (l : Fin 128) :
    iblk2 V c 2 t (ix2 j l) = V c main_v58 (ix2 j l) := by
  obtain ⟨-, -, -, -, e20, e21, -⟩ := index_facts2 t
  show V c main_v58 (((cfg2.win 2).blk t).view.emb (ix2 j l)) = _
  refine congrArg (V c main_v58) (funext fun a => Fin.ext ?_)
  match a with
  | ⟨0, _⟩ => show win2_2.index t (0 : Fin 2) * 128 + 1 * j.val = j.val; omega
  | ⟨1, _⟩ => show win2_2.index t (1 : Fin 2) * 128 + 1 * l.val = l.val; omega

theorem blockB1_2_apply (c : Dev nD) (t : Fin cfg2.N) (l : Fin 128) :
    iblk2 V c 3 t (ix2 (0 : Fin 1) l) = V c main_v60 (ix2 (0 : Fin 1) l) := by
  obtain ⟨-, -, -, -, -, -, e30, e31, -⟩ := index_facts2 t
  show V c main_v60 (((cfg2.win 3).blk t).view.emb (ix2 (0 : Fin 1) l)) = _
  refine congrArg (V c main_v60) (funext fun a => Fin.ext ?_)
  match a with
  | ⟨0, _⟩ => show win2_3.index t (0 : Fin 2) * 1 + 1 * 0 = 0; omega
  | ⟨1, _⟩ => show win2_3.index t (1 : Fin 2) * 128 + 1 * l.val = l.val; omega

theorem blockW2_2_apply (c : Dev nD) (t : Fin cfg2.N) (l : Fin 128) (q : Fin 128) :
    iblk2 V c 4 t (ix2 l q) = V c main_v59 (ix2 l q) := by
  obtain ⟨-, -, -, -, -, -, -, -, e40, e41, -⟩ := index_facts2 t
  show V c main_v59 (((cfg2.win 4).blk t).view.emb (ix2 l q)) = _
  refine congrArg (V c main_v59) (funext fun a => Fin.ext ?_)
  match a with
  | ⟨0, _⟩ => show win2_4.index t (0 : Fin 2) * 128 + 1 * l.val = l.val; omega
  | ⟨1, _⟩ => show win2_4.index t (1 : Fin 2) * 128 + 1 * q.val = q.val; omega

theorem blockB2_2_apply (c : Dev nD) (t : Fin cfg2.N) (q : Fin 128) :
    iblk2 V c 5 t (ix2 (0 : Fin 1) q) = V c main_v61 (ix2 (0 : Fin 1) q) := by
  obtain ⟨-, -, -, -, -, -, -, -, -, -, e50, e51, -⟩ := index_facts2 t
  show V c main_v61 (((cfg2.win 5).blk t).view.emb (ix2 (0 : Fin 1) q)) = _
  refine congrArg (V c main_v61) (funext fun a => Fin.ext ?_)
  match a with
  | ⟨0, _⟩ => show win2_5.index t (0 : Fin 2) * 1 + 1 * 0 = 0; omega
  | ⟨1, _⟩ => show win2_5.index t (1 : Fin 2) * 128 + 1 * q.val = q.val; omega

/-! ## The stored block is rows of the whole-array function -/

/-- The whole-array function of the arrays as the region finds them. -/
def Z2 (c : Dev nD) : FVec Ideal S100000x128 .f32 := mlpRows2 (V c main_v35) (V c main_v57) (V c main_v58) (V c main_v60) (V c main_v59) (V c main_v61)

/-- The block stored at point `t`, at row `p` and column `q`, is `Z2` at row `2000·t + p`. -/
theorem zblock2_apply (c : Dev nD) (t : Fin cfg2.N) (p : Fin 2000) (q : Fin 128) :
    k2_pay5 (iblk2 V c 0 t) (iblk2 V c 1 t) (iblk2 V c 2 t) (iblk2 V c 3 t) (iblk2 V c 4 t) (iblk2 V c 5 t) (ix2 p q) = Z2 V c (ix2 (rowOf2 t p) q) := by
  rw [k2_pay5_apply]
  simp only [blockH2_apply, blockA2_apply, blockW1_2_apply, blockB1_2_apply, blockW2_2_apply, blockB2_2_apply]
  rfl

/-! ## The output array's blocks -/

/-- An index of the output array is in point `t`'s block iff each coordinate is in the block's range on its axis. -/
theorem mem_block2 (t : Fin cfg2.N) (i : S100000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v62_0).slice (win2_6.rect t)).set ↔ _
  rw [View.set_slice_whole, Rect.mem_set_unit]
  exact Iff.rfl

/-- Every index of the output array is in the block of the point that its row, divided by 2000, names, and that point
    writes its block back. -/
theorem covered2 (i : S100000x128.Idx) :
    ∃ t : Fin cfg2.N, (cfg2.win 6).flush t = true ∧ i ∈ ((cfg2.win 6).blk t).view.set := by
  have hi0 : (i 0).val < 100000 := idx2_lt0 i
  have hi1 : (i 1).val < 128 := idx2_lt1 i
  obtain ⟨t, ht⟩ : ∃ t : Fin cfg2.N, t.val = (i 0).val / 2000 :=
    ⟨⟨(i 0).val / 2000, by rw [show cfg2.N = 50 from N_2]; omega⟩, rfl⟩
  obtain ⟨-, -, -, -, -, -, -, -, -, -, -, -, e60, e61, -⟩ := index_facts2 t
  refine ⟨t, flush2_6 t, ?_⟩
  rw [mem_block2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- An entry of point `t`'s block of the output array sits at row `2000·t + p`. -/
theorem emb_block2 (t : Fin cfg2.N) (p : Fin 2000) (q : Fin 128) :
    ((cfg2.win 6).blk t).view.emb (ix2 p q) = ix2 (rowOf2 t p) q := by
  obtain ⟨-, -, -, -, -, -, -, -, -, -, -, -, e60, e61, -⟩ := index_facts2 t
  funext a; apply Fin.ext
  match a with
  | ⟨0, _⟩ => show win2_6.index t (0 : Fin 2) * 2000 + 1 * p.val = t.val * 2000 + p.val; omega
  | ⟨1, _⟩ => show win2_6.index t (1 : Fin 2) * 128 + 1 * q.val = q.val; omega

end Cert.KernelIdeal.HandVal
-- ==== Proof.KI.Val2.lean ====
import proofs.«172250_j15616501088594_1_alg».proof.Proof.KI.Reg2
import proofs.«172250_j15616501088594_1_alg».proof.Proof.KI.Ends2
import proofs.«172250_j15616501088594_1_alg».proof.Proof.KI.ValPre2
import proofs.«172250_j15616501088594_1_alg».proof.Proof.LibBlockedSum

/-!
# The accumulating region 2: its three output arrays as functions of its input arrays

Read over the extended reals. After the region:

* the 100000×128 output holds `Z2`, the two-layer perceptron of the rows of the two feature arrays;
* the first one-row output holds, in column `q`, the sum over all 100000 rows of `Z2 (r, q)`;
* the second holds the sum over all rows of `Z2 (r, q)²`.

The two sums are taken block by block: the accumulators are zero before the first block's sums are added, each point
adds its block's column sums, and the last point copies the accumulators out. A sum over 50 blocks of 2000 rows is
the sum over the 100000 rows.
-/

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The block stored at point `t`. -/
abbrev zAt2 (c : Dev nD) (t : Fin cfg2.N) : FVec Ideal S2000x128 .f32 := k2_pay5 (iblk2 V c 0 t) (iblk2 V c 1 t) (iblk2 V c 2 t) (iblk2 V c 3 t) (iblk2 V c 4 t) (iblk2 V c 5 t)

/-! ## What each point leaves, case by case -/

/-- After the body at any point the results block holds the point's stored block. -/
theorem after2_z (c : Dev nD) (t : Fin cfg2.N) : (dat2 V c).after 6 t = zAt2 V c t := by
  rw [after2_6]
  by_cases h0 : t.val = 0
  · have h1 : t.val ≠ 49 := by omega
    rw [afterPt2_first V c t h0 h1]
    dsimp only
    exact zFirst2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t)
  · by_cases h1 : t.val = 49
    · rw [afterPt2_last V c t h0 h1]
      dsimp only
      exact zLast2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t) _ _
    · rw [afterPt2_mid V c t h0 h1]
      dsimp only
      exact zMid2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t) _ _

/-- The first accumulator after the first point: the first block's column sums added to zero. -/
theorem acc0_first2 (c : Dev nD) (t : Fin cfg2.N) (h0 : t.val = 0) :
    (afterPt2 V c t.val t.isLt).2.2.2.1 = k2_pay1 (k2_pay6 (iblk2 V c 0 t) (iblk2 V c 1 t) (iblk2 V c 2 t) (iblk2 V c 3 t) (iblk2 V c 4 t) (iblk2 V c 5 t) (k2_pay3 (F := Ideal))) := by
  have h1 : t.val ≠ 49 := by omega
  rw [afterPt2_first V c t h0 h1]
  dsimp only
  exact acc0First2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t)

/-- The second accumulator after the first point: the column sums of the first block's squares added to zero. -/
theorem acc1_first2 (c : Dev nD) (t : Fin cfg2.N) (h0 : t.val = 0) :
    (afterPt2 V c t.val t.isLt).2.2.2.2 = k2_pay2 (zAt2 V c t) (k2_pay4 (F := Ideal)) := by
  have h1 : t.val ≠ 49 := by omega
  rw [afterPt2_first V c t h0 h1]
  dsimp only
  exact acc1First2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t)

/-- The first accumulator after a later point: the point's column sums added to what the point before left. -/
theorem acc0_later2 (c : Dev nD) (t : Fin cfg2.N) (h0 : t.val ≠ 0) :
    (afterPt2 V c t.val t.isLt).2.2.2.1
      = k2_pay1 (k2_pay6 (iblk2 V c 0 t) (iblk2 V c 1 t) (iblk2 V c 2 t) (iblk2 V c 3 t) (iblk2 V c 4 t) (iblk2 V c 5 t)
          (afterPt2 V c (t.val - 1) (Nat.lt_of_le_of_lt (Nat.sub_le _ _) t.isLt)).2.2.2.1) := by
  by_cases h1 : t.val = 49
  · rw [afterPt2_last V c t h0 h1]
    dsimp only
    exact acc0Last2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t) _ _
  · rw [afterPt2_mid V c t h0 h1]
    dsimp only
    exact acc0Mid2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t) _ _

/-- The second accumulator after a later point. -/
theorem acc1_later2 (c : Dev nD) (t : Fin cfg2.N) (h0 : t.val ≠ 0) :
    (afterPt2 V c t.val t.isLt).2.2.2.2
      = k2_pay2 (zAt2 V c t)
          (afterPt2 V c (t.val - 1) (Nat.lt_of_le_of_lt (Nat.sub_le _ _) t.isLt)).2.2.2.2 := by
  by_cases h1 : t.val = 49
  · rw [afterPt2_last V c t h0 h1]
    dsimp only
    exact acc1Last2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t) _ _
  · rw [afterPt2_mid V c t h0 h1]
    dsimp only
    exact acc1Mid2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t) _ _

/-- At the last point each one-row output is left at its accumulator's new value. -/
theorem out7_last2 (c : Dev nD) (t : Fin cfg2.N) (h1 : t.val = 49) :
    (afterPt2 V c t.val t.isLt).2.1 = (afterPt2 V c t.val t.isLt).2.2.2.1 := by
  have h0 : t.val ≠ 0 := by omega
  rw [afterPt2_last V c t h0 h1]
  dsimp only
  exact (o7Last2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t) _ _).trans
    (acc0Last2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t) _ _).symm
theorem out8_last2 (c : Dev nD) (t : Fin cfg2.N) (h1 : t.val = 49) :
    (afterPt2 V c t.val t.isLt).2.2.1 = (afterPt2 V c t.val t.isLt).2.2.2.2 := by
  have h0 : t.val ≠ 0 := by omega
  rw [afterPt2_last V c t h0 h1]
  dsimp only
  exact (o8Last2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t) _ _).trans
    (acc1Last2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) acc2_0 (Memref.isWhole_whole _) acc2_1 (Memref.isWhole_whole _) _ _ (iblk2 V c 0 t) (iblk2 V c 1 t) (iblk2 V c 2 t) (iblk2 V c 3 t) (iblk2 V c 4 t) (iblk2 V c 5 t) _ _).symm

/-! ## The accumulators point by point -/

/-- The column sums of the rows of block `t` (zero past the grid). -/
def blockSum2 (c : Dev nD) (q : Fin 128) (t : ℕ) : EReal :=
  if h : t < cfg2.N then ∑ p : Fin 2000, Z2 V c (ix2 (rowOf2 ⟨t, h⟩ p) q) else 0
/-- The column sums of the squares of the rows of block `t` (zero past the grid). -/
def blockSumSq2 (c : Dev nD) (q : Fin 128) (t : ℕ) : EReal :=
  if h : t < cfg2.N then ∑ p : Fin 2000, Z2 V c (ix2 (rowOf2 ⟨t, h⟩ p) q) * Z2 V c (ix2 (rowOf2 ⟨t, h⟩ p) q) else 0

/-- After point `n` the first accumulator holds the column sums of blocks `0 … n`. -/
theorem acc0_upto2 (c : Dev nD) (q : Fin 128) : ∀ (n : ℕ) (hn : n < cfg2.N),
    (afterPt2 V c n hn).2.2.2.1 (ix2 (0 : Fin 1) q) = ∑ t ∈ Finset.range (n + 1), blockSum2 V c q t := by
  intro n
  induction n with
  | zero =>
    intro hn
    rw [acc0_first2 V c ⟨0, hn⟩ rfl, k2_pay1_eq, k2_pay6_apply, k2_pay3_apply, zero_add,
      Finset.sum_range_one]
    unfold blockSum2; rw [dif_pos hn]
    exact Finset.sum_congr rfl fun p _ => zblock2_apply V c ⟨0, hn⟩ p q
  | succ n ih =>
    intro hn
    rw [acc0_later2 V c ⟨n + 1, hn⟩ (Nat.succ_ne_zero n), k2_pay1_eq, k2_pay6_apply, Finset.sum_range_succ]
    refine congrArg₂ (· + ·) (ih (Nat.lt_of_succ_lt hn)) ?_
    unfold blockSum2; rw [dif_pos hn]
    exact Finset.sum_congr rfl fun p _ => zblock2_apply V c ⟨n + 1, hn⟩ p q

/-- After point `n` the second accumulator holds the column sums of the squares of blocks `0 … n`. -/
theorem acc1_upto2 (c : Dev nD) (q : Fin 128) : ∀ (n : ℕ) (hn : n < cfg2.N),
    (afterPt2 V c n hn).2.2.2.2 (ix2 (0 : Fin 1) q) = ∑ t ∈ Finset.range (n + 1), blockSumSq2 V c q t := by
  intro n
  induction n with
  | zero =>
    intro hn
    rw [acc1_first2 V c ⟨0, hn⟩ rfl, k2_pay2_apply, k2_pay4_apply, zero_add, Finset.sum_range_one]
    unfold blockSumSq2; rw [dif_pos hn]
    exact Finset.sum_congr rfl fun p _ => congrArg₂ (· * ·) (zblock2_apply V c ⟨0, hn⟩ p q) (zblock2_apply V c ⟨0, hn⟩ p q)
  | succ n ih =>
    intro hn
    rw [acc1_later2 V c ⟨n + 1, hn⟩ (Nat.succ_ne_zero n), k2_pay2_apply, Finset.sum_range_succ]
    refine congrArg₂ (· + ·) (ih (Nat.lt_of_succ_lt hn)) ?_
    unfold blockSumSq2; rw [dif_pos hn]
    exact Finset.sum_congr rfl fun p _ => congrArg₂ (· * ·) (zblock2_apply V c ⟨n + 1, hn⟩ p q) (zblock2_apply V c ⟨n + 1, hn⟩ p q)

/-- The sum over the 50 blocks of a block-wise sum is the sum over the 100000 rows. -/
theorem sum_blocks2 (f : Fin 100000 → EReal) :
    ∑ t ∈ Finset.range 50, (if h : t < cfg2.N then ∑ p : Fin 2000, f (rowOf2 ⟨t, h⟩ p) else 0) = ∑ r : Fin 100000, f r := by
  have hN : cfg2.N = 50 := N_2
  rw [Cert.BlockedSum.sum_eq_sum_blocks (show 100000 = 50 * 2000 by norm_num) f,
    ← Fin.sum_univ_eq_sum_range (fun t => if h : t < cfg2.N then ∑ p : Fin 2000, f (rowOf2 ⟨t, h⟩ p) else 0) 50]
  refine Finset.sum_congr rfl fun t _ => ?_
  have ht : t.val < cfg2.N := by rw [hN]; exact t.isLt
  rw [dif_pos ht]
  exact Finset.sum_congr rfl fun p _ => congrArg f (Fin.ext rfl)

/-! ## The large output -/

/-- What point `t` writes back to the large output is block `t` of `Z2`. -/
theorem flushed2_z (c : Dev nD) (t : Fin cfg2.N) :
    (dat2 V c).flushed 6 t = ((cfg2.win 6).blk t).view.read (Elt Ideal) (Z2 V c) := by
  show (cfg2.win 6).cut (grid2.coords t) ((dat2 V c).after 6 t) = _
  rw [after2_z]
  funext j
  obtain ⟨p, q, rfl⟩ : ∃ (p : Fin 2000) (q : Fin 128), j = ix2 p q := ⟨j 0, j 1, eq_ix2 j⟩
  show zAt2 V c t (ix2 p q) = Z2 V c (((cfg2.win 6).blk t).view.emb (ix2 p q))
  rw [emb_block2]
  exact zblock2_apply V c t p q

/-- The large output after the region. -/
theorem final2_z (c : Dev nD) : (dat2 V c).arrAt 6 cfg2.N = Z2 V c :=
  (dat2 V c).arrAt_eq_of_cover 6 _ (fun t _ => flushed2_z V c t) covered2

/-! ## The two one-row outputs -/

/-- The last point. -/
def lastPt2 : Fin cfg2.N := ⟨49, by rw [show cfg2.N = 50 from N_2]; norm_num⟩

/-- A point that writes a one-row output back is the last point. -/
theorem eq_last_of_flush7_2 (t : Fin cfg2.N) (h : (cfg2.win 7).flush t = true) : t = lastPt2 := by
  have ht := t.isLt; have hN : cfg2.N = 50 := N_2
  have := (flush2_7 t).mp h
  exact Fin.ext (by show t.val = 49; omega)
theorem eq_last_of_flush8_2 (t : Fin cfg2.N) (h : (cfg2.win 8).flush t = true) : t = lastPt2 := by
  have ht := t.isLt; have hN : cfg2.N = 50 := N_2
  have := (flush2_8 t).mp h
  exact Fin.ext (by show t.val = 49; omega)

/-- A one-row output's block is the whole row at every point: reading a row through the block reads the row. -/
theorem read_row7_2 (t : Fin cfg2.N) (G : FVec Ideal S1x128 .f32) :
    ((cfg2.win 7).blk t).view.read (Elt Ideal) G = G := by
  obtain ⟨-, -, -, -, -, -, -, -, -, -, -, -, -, -, e70, e71, -⟩ := index_facts2 t
  funext y
  show G (((cfg2.win 7).blk t).view.emb y) = G y
  refine congrArg G (funext fun a => Fin.ext ?_)
  match a with
  | ⟨0, _⟩ => show win2_7.index t (0 : Fin 2) * 1 + 1 * (y 0).val = (y 0).val; omega
  | ⟨1, _⟩ => show win2_7.index t (1 : Fin 2) * 128 + 1 * (y 1).val = (y 1).val; omega
theorem read_row8_2 (t : Fin cfg2.N) (G : FVec Ideal S1x128 .f32) :
    ((cfg2.win 8).blk t).view.read (Elt Ideal) G = G := by
  obtain ⟨-, -, -, -, -, -, -, -, -, -, -, -, -, -, -, -, e80, e81⟩ := index_facts2 t
  funext y
  show G (((cfg2.win 8).blk t).view.emb y) = G y
  refine congrArg G (funext fun a => Fin.ext ?_)
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- Every index of a one-row output is in the last point's block, which that point writes back. -/
theorem covered7_2 (i : S1x128.Idx) :
    ∃ t : Fin cfg2.N, (cfg2.win 7).flush t = true ∧ i ∈ ((cfg2.win 7).blk t).view.set := by
  have hi0 : (i 0).val < 1 := idx2_lt0 i
  have hi1 : (i 1).val < 128 := idx2_lt1 i
  obtain ⟨-, -, -, -, -, -, -, -, -, -, -, -, -, -, e70, e71, -⟩ := index_facts2 lastPt2
  refine ⟨lastPt2, (flush2_7 lastPt2).mpr (by show 49 % 50 = 49; norm_num), ?_⟩
  show i ∈ ((View.whole main_v62_1).slice (win2_7.rect lastPt2)).set
  rw [View.set_slice_whole, Rect.mem_set_unit]
  intro a
  match a with
  | ⟨0, _⟩ => show win2_7.index lastPt2 (0 : Fin 2) * 1 ≤ (i 0).val ∧ (i 0).val < win2_7.index lastPt2 (0 : Fin 2) * 1 + 1; omega
  | ⟨1, _⟩ => show win2_7.index lastPt2 (1 : Fin 2) * 128 ≤ (i 1).val ∧ (i 1).val < win2_7.index lastPt2 (1 : Fin 2) * 128 + 128; omega
theorem covered8_2 (i : S1x128.Idx) :
    ∃ t : Fin cfg2.N, (cfg2.win 8).flush t = true ∧ i ∈ ((cfg2.win 8).blk t).view.set := by
  have hi0 : (i 0).val < 1 := idx2_lt0 i
  have hi1 : (i 1).val < 128 := idx2_lt1 i
  obtain ⟨-, -, -, -, -, -, -, -, -, -, -, -, -, -, -, -, e80, e81⟩ := index_facts2 lastPt2
  refine ⟨lastPt2, (flush2_8 lastPt2).mpr (by show 49 % 50 = 49; norm_num), ?_⟩
  show i ∈ ((View.whole main_v62_2).slice (win2_8.rect lastPt2)).set
  rw [View.set_slice_whole, Rect.mem_set_unit]
  intro a
  match a with
  | ⟨0, _⟩ => show win2_8.index lastPt2 (0 : Fin 2) * 1 ≤ (i 0).val ∧ (i 0).val < win2_8.index lastPt2 (0 : Fin 2) * 1 + 1; omega
  | ⟨1, _⟩ => show win2_8.index lastPt2 (1 : Fin 2) * 128 ≤ (i 1).val ∧ (i 1).val < win2_8.index lastPt2 (1 : Fin 2) * 128 + 128; omega

/-- The first one-row output after the region is the first accumulator after the last point. -/
theorem final2_row7 (c : Dev nD) :
    (dat2 V c).arrAt 7 cfg2.N = (afterPt2 V c lastPt2.val lastPt2.isLt).2.2.2.1 := by
  refine (dat2 V c).arrAt_eq_of_cover 7 _ (fun t ht => ?_) covered7_2
  obtain rfl := eq_last_of_flush7_2 t ht
  rw [read_row7_2]
  show (cfg2.win 7).cut (grid2.coords lastPt2) ((dat2 V c).after 7 lastPt2) = _
  rw [after2_7]
  exact out7_last2 V c lastPt2 rfl
/-- The second one-row output after the region is the second accumulator after the last point. -/
theorem final2_row8 (c : Dev nD) :
    (dat2 V c).arrAt 8 cfg2.N = (afterPt2 V c lastPt2.val lastPt2.isLt).2.2.2.2 := by
  refine (dat2 V c).arrAt_eq_of_cover 8 _ (fun t ht => ?_) covered8_2
  obtain rfl := eq_last_of_flush8_2 t ht
  rw [read_row8_2]
  show (cfg2.win 8).cut (grid2.coords lastPt2) ((dat2 V c).after 8 lastPt2) = _
  rw [after2_8]
  exact out8_last2 V c lastPt2 rfl

/-- The first one-row output: the column sums of `Z2` over all 100000 rows. -/
theorem final2_sum (c : Dev nD) (q : Fin 128) :
    (dat2 V c).arrAt 7 cfg2.N (ix2 (0 : Fin 1) q) = ∑ r : Fin 100000, Z2 V c (ix2 r q) := by
  rw [final2_row7]
  refine (acc0_upto2 V c q 49 lastPt2.isLt).trans ?_
  exact sum_blocks2 (fun r => Z2 V c (ix2 r q))

/-- The second one-row output: the column sums of the squares of `Z2` over all 100000 rows. -/
theorem final2_sumsq (c : Dev nD) (q : Fin 128) :
    (dat2 V c).arrAt 8 cfg2.N (ix2 (0 : Fin 1) q) = ∑ r : Fin 100000, Z2 V c (ix2 r q) * Z2 V c (ix2 r q) := by
  rw [final2_row8]
  refine (acc1_upto2 V c q 49 lastPt2.isLt).trans ?_
  exact sum_blocks2 (fun r => Z2 V c (ix2 r q) * Z2 V c (ix2 r q))

end Cert.KernelIdeal.HandVal
-- ==== Proof.KI.MlpOut2.lean ====
/-
  Layer 1's first region along the kernel program's chain of buffer contents, over the extended reals: the table it
  leaves is the two-layer perceptron on the rows of `h + a` — `h` the layer's input table, `a` its neighbour sum along
  the edges —, with the weights and bias rows the host stretch before it prepared from the launch arguments; the two
  one-row outputs are that table's column sums and the column sums of its squares.
-/
import proofs.«172250_j15616501088594_1_alg».proof.Proof.KI.ResultChain
import proofs.«172250_j15616501088594_1_alg».proof.Proof.KI.Val2

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

open Cert.KernelIdeal.Hand Idealize.ShloMosaic.ValueIdx
open scoped BigOperators

variable (m : (ℓ : Loc nD τ sig) → Buf (Elt Ideal) ℓ) (c : Dev nD)

/-- The region's closed form, taken at the buffers as the region finds them, is the perceptron of the launch
    arguments and of the previous layer's output table. -/
theorem Z2_chain :
    Z2 (atTc (X5 m)) c
      = mlpRows2 (X4 m c (Proc.devRef .tc main_v35)) (aggK128 (X4 m c (Proc.devRef .tc main_v35)) (srcK (m (c, Proc.devRef .tc main_arg1))) (dstK (m (c, Proc.devRef .tc main_arg1)))) (castK128 (mat0K (m (c, Proc.devRef .tc main_arg9)))) (rowK (vec0K (m (c, Proc.devRef .tc main_arg10)))) (castK128 (mat0K (m (c, Proc.devRef .tc main_arg11)))) (rowK (vec0K (m (c, Proc.devRef .tc main_arg12)))) := by
  show mlpRows2 (X5 m c (Proc.devRef .tc main_v35)) (X5 m c (Proc.devRef .tc main_v57)) (X5 m c (Proc.devRef .tc main_v58)) (X5 m c (Proc.devRef .tc main_v60)) (X5 m c (Proc.devRef .tc main_v59)) (X5 m c (Proc.devRef .tc main_v61)) = _
  rw [X5_main_v35, X5_main_v57, X5_main_v58, X5_main_v60, X5_main_v59, X5_main_v61]

/-- The table layer 1's first region leaves. -/
theorem Z2_eq :
    (X6 m c (Proc.devRef .tc main_v62_0) : S100000x128.Idx → Elt Ideal .f32)
      = mlpRows2 (X4 m c (Proc.devRef .tc main_v35)) (aggK128 (X4 m c (Proc.devRef .tc main_v35)) (srcK (m (c, Proc.devRef .tc main_arg1))) (dstK (m (c, Proc.devRef .tc main_arg1)))) (castK128 (mat0K (m (c, Proc.devRef .tc main_arg9)))) (rowK (vec0K (m (c, Proc.devRef .tc main_arg10)))) (castK128 (mat0K (m (c, Proc.devRef .tc main_arg11)))) (rowK (vec0K (m (c, Proc.devRef .tc main_arg12)))) :=
  (X6_main_v62_0 m c).trans ((final2_z _ c).trans (Z2_chain m c))

/-- The first one-row output: the column sums of that table over the 100000 rows. -/
theorem S2_eq (q : Fin 128) :
    (X6 m c (Proc.devRef .tc main_v62_1) : S1x128.Idx → Elt Ideal .f32) (ix2 (0 : Fin 1) q)
      = ∑ r : Fin 100000, (mlpRows2 (X4 m c (Proc.devRef .tc main_v35)) (aggK128 (X4 m c (Proc.devRef .tc main_v35)) (srcK (m (c, Proc.devRef .tc main_arg1))) (dstK (m (c, Proc.devRef .tc main_arg1)))) (castK128 (mat0K (m (c, Proc.devRef .tc main_arg9)))) (rowK (vec0K (m (c, Proc.devRef .tc main_arg10)))) (castK128 (mat0K (m (c, Proc.devRef .tc main_arg11)))) (rowK (vec0K (m (c, Proc.devRef .tc main_arg12))))) (ix2 r q) := by
  rw [X6_main_v62_1, final2_sum, Z2_chain]

/-- The second one-row output: the column sums of that table's squares over the 100000 rows. -/
theorem SS2_eq (q : Fin 128) :
    (X6 m c (Proc.devRef .tc main_v62_2) : S1x128.Idx → Elt Ideal .f32) (ix2 (0 : Fin 1) q)
      = ∑ r : Fin 100000, (mlpRows2 (X4 m c (Proc.devRef .tc main_v35)) (aggK128 (X4 m c (Proc.devRef .tc main_v35)) (srcK (m (c, Proc.devRef .tc main_arg1))) (dstK (m (c, Proc.devRef .tc main_arg1)))) (castK128 (mat0K (m (c, Proc.devRef .tc main_arg9)))) (rowK (vec0K (m (c, Proc.devRef .tc main_arg10)))) (castK128 (mat0K (m (c, Proc.devRef .tc main_arg11)))) (rowK (vec0K (m (c, Proc.devRef .tc main_arg12))))) (ix2 r q)
          * (mlpRows2 (X4 m c (Proc.devRef .tc main_v35)) (aggK128 (X4 m c (Proc.devRef .tc main_v35)) (srcK (m (c, Proc.devRef .tc main_arg1))) (dstK (m (c, Proc.devRef .tc main_arg1)))) (castK128 (mat0K (m (c, Proc.devRef .tc main_arg9)))) (rowK (vec0K (m (c, Proc.devRef .tc main_arg10)))) (castK128 (mat0K (m (c, Proc.devRef .tc main_arg11)))) (rowK (vec0K (m (c, Proc.devRef .tc main_arg12))))) (ix2 r q) := by
  rw [X6_main_v62_2, final2_sumsq, Z2_chain]

end Cert.KernelIdeal.HandVal

end
-- ==== Proof.KI.Pieces4.lean ====
import proofs.«172250_j15616501088594_1_alg».proof.Proof.KI.Reg4First
import proofs.«172250_j15616501088594_1_alg».proof.Proof.KI.Reg4Mid
import proofs.«172250_j15616501088594_1_alg».proof.Proof.KI.Reg4Last
import Idealize.ShloMosaic.Lib.Pipeline.Value

/-!
# The accumulating region 4: what each run's stores leave, as the stored values of the blocks

The body runs in one of three ways: at the first point (the accumulators are cleared first), at a middle point, at the
last point (the accumulators are copied out at the end). In each, every written buffer ends at the value of its last
store, which takes the buffer whole; a load of a buffer after a whole store reads that store's value. So:

* the results block ends at the stored block `z` of the six input blocks;
* the first accumulator ends at what it held (zero at the first point) plus the column sums of `z`;
* the second at what it held (zero at the first point) plus the column sums of the squares of `z`;
* at the last point each one-row output ends at its accumulator's new value.
-/

set_option maxRecDepth 16384

noncomputable section

namespace Cert.KernelIdeal.HandVal

open Idealize.ShloMosaic Idealize.ShloMosaic.TcCoe Idealize.ShloMosaic.Tactic Idealize.SL.Sem
open Cert.KernelIdeal Cert.KernelIdeal.Gen Cert.KernelIdeal.Hand

variable {F : FTy → Type} [FloatOps F]

/-- Both offsets of a whole-buffer rectangle are zero. -/
theorem zero2_4 : (![0, 0] : Fin 2 → Nat) = fun _ => 0 := funext fun a => by fin_cases a <;> rfl

/-! ## The first point -/

theorem first4_z (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i) (x0 : Vec F S2000x128 .f32) (x1 : Vec F S2000x128 .f32) (x2 : Vec F S128x128 .bf16) (x3 : Vec F S1x128 .f32) (x4 : Vec F S128x128 .bf16) (x5 : Vec F S1x128 .f32) :
    View.canon (runFirst4 c i arg1 harg1 arg2 harg2 arg3 harg3 arg4 harg4 arg5 harg5 arg6 harg6 arg7 harg7 arg8 harg8 arg9 harg9 arg10 harg10 arg11 harg11 hc0 hc1 x0 x1 x2 x3 x4 x5).1 = k4_pay5 x0 x1 x2 x3 x4 x5 := by
  unfold runFirst4
  dsimp only
  try sl_unfold_words
  rw [View.canon_cons_unit_zero zero2_4]
  simp only [View.readAt_eq_ld, harg1.read_unread, harg2.read_unread, harg3.read_unread, harg4.read_unread,
    harg5.read_unread, harg6.read_unread,
    View.ld_unit_zero (S := S2000x128) zero2_4, View.ld_unit_zero (S := S128x128) zero2_4,
    View.ld_unit_zero (S := S1x128) zero2_4, View.ld_unit_zero (S := S2000x128) zero2_4,
    View.readCov_unit_zero (S := S1x128) _ zero2_4]

theorem first4_acc0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i) (x0 : Vec F S2000x128 .f32) (x1 : Vec F S2000x128 .f32) (x2 : Vec F S128x128 .bf16) (x3 : Vec F S1x128 .f32) (x4 : Vec F S128x128 .bf16) (x5 : Vec F S1x128 .f32) :
    View.canon (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.1 = k4_pay1 (k4_pay6 x0 x1 x2 x3 x4 x5 k4_pay3) := by
  unfold runFirst4
  dsimp only
  try sl_unfold_words
  rw [View.canon_cons_unit_zero zero2_4]
  simp only [View.readAt_eq_ld, harg1.read_unread, harg2.read_unread, harg3.read_unread, harg4.read_unread,
    harg5.read_unread, harg6.read_unread,
    View.ld_unit_zero (S := S2000x128) zero2_4, View.ld_unit_zero (S := S128x128) zero2_4,
    View.ld_unit_zero (S := S1x128) zero2_4, View.ld_unit_zero (S := S2000x128) zero2_4,
    View.readCov_unit_zero (S := S1x128) _ zero2_4]

theorem first4_acc1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i) (x0 : Vec F S2000x128 .f32) (x1 : Vec F S2000x128 .f32) (x2 : Vec F S128x128 .bf16) (x3 : Vec F S1x128 .f32) (x4 : Vec F S128x128 .bf16) (x5 : Vec F S1x128 .f32) :
    View.canon (runFirst4 c i arg1 harg1 arg2 harg2 arg3 harg3 arg4 harg4 arg5 harg5 arg6 harg6 arg7 harg7 arg8 harg8 arg9 harg9 arg10 harg10 arg11 harg11 hc0 hc1 x0 x1 x2 x3 x4 x5).2.2.1 = k4_pay2 (k4_pay5 x0 x1 x2 x3 x4 x5) k4_pay4 := by
  unfold runFirst4
  dsimp only
  try sl_unfold_words
  rw [View.canon_cons_unit_zero zero2_4]
  simp only [View.readAt_eq_ld, harg1.read_unread, harg2.read_unread, harg3.read_unread, harg4.read_unread,
    harg5.read_unread, harg6.read_unread,
    View.ld_unit_zero (S := S2000x128) zero2_4, View.ld_unit_zero (S := S128x128) zero2_4,
    View.ld_unit_zero (S := S1x128) zero2_4, View.ld_unit_zero (S := S2000x128) zero2_4,
    View.readCov_unit_zero (S := S1x128) _ zero2_4]

/-! ## A middle point -/

theorem mid4_z (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 = k4_pay5 x0 x1 x2 x3 x4 x5 := by
  unfold runMid4
  dsimp only
  try sl_unfold_words
  rw [View.canon_cons_unit_zero zero2_4]
  simp only [View.readAt_eq_ld, harg1.read_unread, harg2.read_unread, harg3.read_unread, harg4.read_unread,
    harg5.read_unread, harg6.read_unread, harg10.read_unread, harg11.read_unread,
    View.ld_unit_zero (S := S2000x128) zero2_4, View.ld_unit_zero (S := S128x128) zero2_4,
    View.ld_unit_zero (S := S1x128) zero2_4, View.ld_unit_zero (S := S2000x128) zero2_4,
    View.readCov_unit_zero (S := S1x128) _ zero2_4]

theorem mid4_acc0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 = k4_pay1 (k4_pay6 x0 x1 x2 x3 x4 x5 xs0) := by
  unfold runMid4
  dsimp only
  try sl_unfold_words
  rw [View.canon_cons_unit_zero zero2_4]
  simp only [View.readAt_eq_ld, harg1.read_unread, harg2.read_unread, harg3.read_unread, harg4.read_unread,
    harg5.read_unread, harg6.read_unread, harg10.read_unread, harg11.read_unread,
    View.ld_unit_zero (S := S2000x128) zero2_4, View.ld_unit_zero (S := S128x128) zero2_4,
    View.ld_unit_zero (S := S1x128) zero2_4, View.ld_unit_zero (S := S2000x128) zero2_4,
    View.readCov_unit_zero (S := S1x128) _ zero2_4]

theorem mid4_acc1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 = k4_pay2 (k4_pay5 x0 x1 x2 x3 x4 x5) xs1 := by
  unfold runMid4
  dsimp only
  try sl_unfold_words
  rw [View.canon_cons_unit_zero zero2_4]
  simp only [View.readAt_eq_ld, harg1.read_unread, harg2.read_unread, harg3.read_unread, harg4.read_unread,
    harg5.read_unread, harg6.read_unread, harg10.read_unread, harg11.read_unread,
    View.ld_unit_zero (S := S2000x128) zero2_4, View.ld_unit_zero (S := S128x128) zero2_4,
    View.ld_unit_zero (S := S1x128) zero2_4, View.ld_unit_zero (S := S2000x128) zero2_4,
    View.readCov_unit_zero (S := S1x128) _ zero2_4]

/-! ## The last point -/

theorem last4_z (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 = k4_pay5 x0 x1 x2 x3 x4 x5 := by
  unfold runLast4
  dsimp only
  try sl_unfold_words
  rw [View.canon_cons_unit_zero zero2_4]
  simp only [View.readAt_eq_ld, harg1.read_unread, harg2.read_unread, harg3.read_unread, harg4.read_unread,
    harg5.read_unread, harg6.read_unread, harg10.read_unread, harg11.read_unread,
    View.ld_unit_zero (S := S2000x128) zero2_4, View.ld_unit_zero (S := S128x128) zero2_4,
    View.ld_unit_zero (S := S1x128) zero2_4, View.ld_unit_zero (S := S2000x128) zero2_4,
    View.readCov_unit_zero (S := S1x128) _ zero2_4]

theorem last4_o7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 = k4_pay1 (k4_pay6 x0 x1 x2 x3 x4 x5 xs0) := by
  unfold runLast4
  dsimp only
  try sl_unfold_words
  rw [View.canon_cons_unit_zero zero2_4]
  simp only [View.readAt_eq_ld, harg1.read_unread, harg2.read_unread, harg3.read_unread, harg4.read_unread,
    harg5.read_unread, harg6.read_unread, harg10.read_unread, harg11.read_unread,
    View.ld_unit_zero (S := S2000x128) zero2_4, View.ld_unit_zero (S := S128x128) zero2_4,
    View.ld_unit_zero (S := S1x128) zero2_4, View.ld_unit_zero (S := S2000x128) zero2_4,
    View.readCov_unit_zero (S := S1x128) _ zero2_4]

theorem last4_o8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 = k4_pay2 (k4_pay5 x0 x1 x2 x3 x4 x5) xs1 := by
  unfold runLast4
  dsimp only
  try sl_unfold_words
  rw [View.canon_cons_unit_zero zero2_4]
  simp only [View.readAt_eq_ld, harg1.read_unread, harg2.read_unread, harg3.read_unread, harg4.read_unread,
    harg5.read_unread, harg6.read_unread, harg10.read_unread, harg11.read_unread,
    View.ld_unit_zero (S := S2000x128) zero2_4, View.ld_unit_zero (S := S128x128) zero2_4,
    View.ld_unit_zero (S := S1x128) zero2_4, View.ld_unit_zero (S := S2000x128) zero2_4,
    View.readCov_unit_zero (S := S1x128) _ zero2_4]

theorem last4_acc0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 = k4_pay1 (k4_pay6 x0 x1 x2 x3 x4 x5 xs0) := by
  unfold runLast4
  dsimp only
  try sl_unfold_words
  rw [View.canon_cons_unit_zero zero2_4]
  simp only [View.readAt_eq_ld, harg1.read_unread, harg2.read_unread, harg3.read_unread, harg4.read_unread,
    harg5.read_unread, harg6.read_unread, harg10.read_unread, harg11.read_unread,
    View.ld_unit_zero (S := S2000x128) zero2_4, View.ld_unit_zero (S := S128x128) zero2_4,
    View.ld_unit_zero (S := S1x128) zero2_4, View.ld_unit_zero (S := S2000x128) zero2_4,
    View.readCov_unit_zero (S := S1x128) _ zero2_4]

theorem last4_acc1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    View.canon (runLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 = k4_pay2 (k4_pay5 x0 x1 x2 x3 x4 x5) xs1 := by
  unfold runLast4
  dsimp only
  try sl_unfold_words
  rw [View.canon_cons_unit_zero zero2_4]
  simp only [View.readAt_eq_ld, harg1.read_unread, harg2.read_unread, harg3.read_unread, harg4.read_unread,
    harg5.read_unread, harg6.read_unread, harg10.read_unread, harg11.read_unread,
    View.ld_unit_zero (S := S2000x128) zero2_4, View.ld_unit_zero (S := S128x128) zero2_4,
    View.ld_unit_zero (S := S1x128) zero2_4, View.ld_unit_zero (S := S2000x128) zero2_4,
    View.readCov_unit_zero (S := S1x128) _ zero2_4]

end Cert.KernelIdeal.HandVal
-- ==== Proof.KI.Ends4.lean ====
import proofs.«172250_j15616501088594_1_alg».proof.Proof.KI.Reg4
import proofs.«172250_j15616501088594_1_alg».proof.Proof.KI.Pieces4

/-!
# The accumulating region 4: what each run leaves in each buffer, as stored values

Each buffer a run writes is read back, after the run's stores, as the value of its last store (the stores take the
buffers whole). Stated for each of the three runs and each written buffer.
-/

set_option maxRecDepth 16384

noncomputable section

namespace Cert.KernelIdeal.HandVal

open Idealize.ShloMosaic Idealize.ShloMosaic.TcCoe Idealize.SL.Sem
open Cert.KernelIdeal Cert.KernelIdeal.Gen Cert.KernelIdeal.Hand

variable {F : FTy → Type} [FloatOps F]

theorem zFirst4_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i) (x0 : Vec F S2000x128 .f32) (x1 : Vec F S2000x128 .f32) (x2 : Vec F S128x128 .bf16) (x3 : Vec F S1x128 .f32) (x4 : Vec F S128x128 .bf16) (x5 : Vec F S1x128 .f32) :
    zFirst4 c i arg1 harg1 arg2 harg2 arg3 harg3 arg4 harg4 arg5 harg5 arg6 harg6 arg7 harg7 arg8 harg8 arg9 harg9 arg10 harg10 arg11 harg11 hc0 hc1 x0 x1 x2 x3 x4 x5 = k4_pay5 x0 x1 x2 x3 x4 x5 := by
  unfold zFirst4
  rw [View.read_writes_junk_eq_canon]
  exact first4_z c i arg1 harg1 arg2 harg2 arg3 harg3 arg4 harg4 arg5 harg5 arg6 harg6 arg7 harg7 arg8 harg8 arg9 harg9 arg10 harg10 arg11 harg11 hc0 hc1 x0 x1 x2 x3 x4 x5

theorem acc0First4_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i) (x0 : Vec F S2000x128 .f32) (x1 : Vec F S2000x128 .f32) (x2 : Vec F S128x128 .bf16) (x3 : Vec F S1x128 .f32) (x4 : Vec F S128x128 .bf16) (x5 : Vec F S1x128 .f32) :
    acc0First4 c i arg1 harg1 arg2 harg2 arg3 harg3 arg4 harg4 arg5 harg5 arg6 harg6 arg7 harg7 arg8 harg8 arg9 harg9 arg10 harg10 arg11 harg11 hc0 hc1 x0 x1 x2 x3 x4 x5 = k4_pay1 (k4_pay6 x0 x1 x2 x3 x4 x5 k4_pay3) := by
  unfold acc0First4
  rw [View.read_writes_junk_eq_canon]
  exact first4_acc0 c i arg1 harg1 arg2 harg2 arg3 harg3 arg4 harg4 arg5 harg5 arg6 harg6 arg7 harg7 arg8 harg8 arg9 harg9 arg10 harg10 arg11 harg11 hc0 hc1 x0 x1 x2 x3 x4 x5

theorem acc1First4_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : atFirst4 i) (hc1 : ¬atLast4 i) (x0 : Vec F S2000x128 .f32) (x1 : Vec F S2000x128 .f32) (x2 : Vec F S128x128 .bf16) (x3 : Vec F S1x128 .f32) (x4 : Vec F S128x128 .bf16) (x5 : Vec F S1x128 .f32) :
    acc1First4 c i arg1 harg1 arg2 harg2 arg3 harg3 arg4 harg4 arg5 harg5 arg6 harg6 arg7 harg7 arg8 harg8 arg9 harg9 arg10 harg10 arg11 harg11 hc0 hc1 x0 x1 x2 x3 x4 x5 = k4_pay2 (k4_pay5 x0 x1 x2 x3 x4 x5) k4_pay4 := by
  unfold acc1First4
  rw [View.read_writes_junk_eq_canon]
  exact first4_acc1 c i arg1 harg1 arg2 harg2 arg3 harg3 arg4 harg4 arg5 harg5 arg6 harg6 arg7 harg7 arg8 harg8 arg9 harg9 arg10 harg10 arg11 harg11 hc0 hc1 x0 x1 x2 x3 x4 x5

theorem zMid4_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    zMid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay5 x0 x1 x2 x3 x4 x5 := by
  unfold zMid4
  rw [View.read_writes_junk_eq_canon]
  exact mid4_z c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem acc0Mid4_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    acc0Mid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay1 (k4_pay6 x0 x1 x2 x3 x4 x5 xs0) := by
  unfold acc0Mid4
  rw [View.read_writes_junk_eq_canon]
  exact mid4_acc0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem acc1Mid4_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : ¬atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    acc1Mid4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay2 (k4_pay5 x0 x1 x2 x3 x4 x5) xs1 := by
  unfold acc1Mid4
  rw [View.read_writes_junk_eq_canon]
  exact mid4_acc1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem zLast4_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    zLast4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay5 x0 x1 x2 x3 x4 x5 := by
  unfold zLast4
  rw [View.read_writes_junk_eq_canon]
  exact last4_z c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem o7Last4_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    o7Last4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay1 (k4_pay6 x0 x1 x2 x3 x4 x5 xs0) := by
  unfold o7Last4
  rw [View.read_writes_junk_eq_canon]
  exact last4_o7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem o8Last4_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    o8Last4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay2 (k4_pay5 x0 x1 x2 x3 x4 x5) xs1 := by
  unfold o8Last4
  rw [View.read_writes_junk_eq_canon]
  exact last4_o8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem acc0Last4_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    acc0Last4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay1 (k4_pay6 x0 x1 x2 x3 x4 x5 xs0) := by
  unfold acc0Last4
  rw [View.read_writes_junk_eq_canon]
  exact last4_acc0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem acc1Last4_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬atFirst4 i) (hc1 : atLast4 i) (x0 : Vec F S2000x128 .f32) (x1 : Vec F S2000x128 .f32) (x2 : Vec F S128x128 .bf16) (x3 : Vec F S1x128 .f32) (x4 : Vec F S128x128 .bf16) (x5 : Vec F S1x128 .f32) (xs0 : Vec F S1x128 .f32) (xs1 : Vec F S1x128 .f32) :
    acc1Last4 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay2 (k4_pay5 x0 x1 x2 x3 x4 x5) xs1 := by
  unfold acc1Last4
  rw [View.read_writes_junk_eq_canon]
  exact last4_acc1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

end Cert.KernelIdeal.HandVal
-- ==== Proof.KI.DensePay4.lean ====
import proofs.«172250_j15616501088594_1_alg».proof.Proof.Gen.KernelIdeal.Skeleton
import proofs.«172250_j15616501088594_1_alg».proof.Proof.LibPlainDot

/-!
# The accumulating region 4: its stored values at an index, over the extended reals

The body of the region works on a block of 2000 rows. From the block `x` of the features and the block `a` of the
neighbour sums (128 columns each), two weight matrices `w1` (128×128), `w2` (128×128) and two bias rows
`b1`, `b2` (1×128) it forms the block

    z (p, q) = max (Σ_l max (Σ_j (x (p, j) + a (p, j)) · w1 (j, l) + b1 (0, l)) 0 · w2 (l, q) + b2 (0, q)) 0

(a change of number format is the identity over the extended reals), stores it, and adds to two 1×128 accumulators
the column sums Σ_p z (p, q) and Σ_p z (p, q)². The accumulators are set to zero at the first point.
-/

noncomputable section

namespace Cert.KernelIdeal.HandVal

open Cert.KernelIdeal Cert.KernelIdeal.Gen Cert.PlainDot
open Idealize.ShloMosaic Idealize.ShloMosaic.ValueIdx
open scoped BigOperators

/-- The stored block at an entry: two dense layers, each clamped below at zero. -/
theorem k4_pay5_apply (x a : FVec Ideal S2000x128 .f32) (w1 : FVec Ideal S128x128 .bf16) (b1 : FVec Ideal S1x128 .f32)
    (w2 : FVec Ideal S128x128 .bf16) (b2 : FVec Ideal S1x128 .f32) (p : Fin 2000) (q : Fin 128) :
    k4_pay5 x a w1 b1 w2 b2 (ix2 p q)
      = max ((∑ l : Fin 128, max ((∑ j : Fin 128, (x (ix2 p j) + a (ix2 p j)) * w1 (ix2 j l)) + b1 (ix2 (0 : Fin 1) l)) 0
                * w2 (ix2 l q)) + b2 (ix2 (0 : Fin 1) q)) 0 := by
  unfold k4_pay5
  simp only [shapeCast_self]
  refine (reluAffine_at _ none _ _ _ _ p q).trans ?_
  refine congrArg (fun s => max (s + b2 (ix2 (0 : Fin 1) q)) 0) (Finset.sum_congr rfl fun l _ => ?_)
  refine congrArg (· * w2 (ix2 l q)) ?_
  exact reluAffine_at _ none _ _ _ _ p l

/-- The first accumulator's new value: what it held plus the column sums of the stored block. -/
theorem k4_pay6_apply (x a : FVec Ideal S2000x128 .f32) (w1 : FVec Ideal S128x128 .bf16) (b1 : FVec Ideal S1x128 .f32)
    (w2 : FVec Ideal S128x128 .bf16) (b2 : FVec Ideal S1x128 .f32) (acc : FVec Ideal S1x128 .f32) (u : Fin 1) (q : Fin 128) :
    k4_pay6 x a w1 b1 w2 b2 acc (ix2 u q)
      = acc (ix2 u q) + ∑ p : Fin 2000, k4_pay5 x a w1 b1 w2 b2 (ix2 p q) := by
  unfold k4_pay6
  exact addRowSum_at acc _ _ _ _ _ u q

/-- The second accumulator's new value: what it held plus the column sums of the squares of a block `z`. -/
theorem k4_pay2_apply (z : FVec Ideal S2000x128 .f32) (acc : FVec Ideal S1x128 .f32) (u : Fin 1) (q : Fin 128) :
    k4_pay2 z acc (ix2 u q) = acc (ix2 u q) + ∑ p : Fin 2000, z (ix2 p q) * z (ix2 p q) := by
  unfold k4_pay2
  simp only [shapeCast_self]
  exact addRowSum_at acc (mulf z z) _ _ _ _ u q

/-- The value copied back into the first accumulator is the value itself. -/
theorem k4_pay1_eq (v : FVec Ideal S1x128 .f32) : k4_pay1 v = v := by
  unfold k4_pay1
  simp only [shapeCast_self]

/-- The first point sets both accumulators to zero. -/
theorem k4_pay3_apply (u : Fin 1) (q : Fin 128) : k4_pay3 (F := Ideal) (ix2 u q) = 0 := by
  unfold k4_pay3
  simp only [shapeCast_self]
  exact Ideal.ofBits_zero_f32
theorem k4_pay4_apply (u : Fin 1) (q : Fin 128) : k4_pay4 (F := Ideal) (ix2 u q) = 0 := by
  unfold k4_pay4
  simp only [shapeCast_self]
  exact Ideal.ofBits_zero_f32

end Cert.KernelIdeal.HandVal
-- ==== Proof.KI.ValPre4.lean ====
import proofs.«172250_j15616501088594_1_alg».proof.Proof.KI.Reg4Runs
import proofs.«172250_j15616501088594_1_alg».proof.Proof.KI.DensePay4
import Idealize.ShloMosaic.Lib.Pipeline.Value

/-!
# The accumulating region 4: the stored block of a point as rows of one whole-array function

Read over the extended reals. Point `t` of the 50 works on rows `2000·t … 2000·t + 1999` of the two feature arrays
(128 columns) and on the whole weight matrices and bias rows. The two-layer perceptron acts on each row separately,
so the block stored at point `t` is rows `2000·t …` of one function `mlpRows4` of the six arrays; block `t` of
the 100000×128 output array is those rows, and the row-block that covers row `r` is `r / 2000`.
-/

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The two-layer perceptron on the rows of `h + a`, as one function of the whole arrays. -/
def mlpRows4 (h a : FVec Ideal S100000x128 .f32) (w1 : FVec Ideal S128x128 .bf16) (b1 : FVec Ideal S1x128 .f32)
    (w2 : FVec Ideal S128x128 .bf16) (b2 : FVec Ideal S1x128 .f32) : FVec Ideal S100000x128 .f32 :=
  fun i => max ((∑ l : Fin 128, max ((∑ j : Fin 128, (h (ix2 (i 0) j) + a (ix2 (i 0) j)) * w1 (ix2 j l)) + b1 (ix2 (0 : Fin 1) l)) 0
                  * w2 (ix2 l (i 1))) + b2 (ix2 (0 : Fin 1) (i 1))) 0

/-- The same at explicit coordinates. -/
theorem mlpRows4_apply (h a : FVec Ideal S100000x128 .f32) (w1 : FVec Ideal S128x128 .bf16) (b1 : FVec Ideal S1x128 .f32)
    (w2 : FVec Ideal S128x128 .bf16) (b2 : FVec Ideal S1x128 .f32) (r : Fin 100000) (q : Fin 128) :
    mlpRows4 h a w1 b1 w2 b2 (ix2 r q)
      = max ((∑ l : Fin 128, max ((∑ j : Fin 128, (h (ix2 r j) + a (ix2 r j)) * w1 (ix2 j l)) + b1 (ix2 (0 : Fin 1) l)) 0
                * w2 (ix2 l q)) + b2 (ix2 (0 : Fin 1) q)) 0 := rfl

/-- The printed index maps over the grid: the two feature blocks and the output block move one row block per point;
    the weights, the bias rows and the two one-row outputs never move. -/
theorem index_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Row `p` of point `t`'s block is row `2000·t + p` of the array. -/
def rowOf4 (t : Fin cfg4.N) (p : Fin 2000) : Fin 100000 :=
  ⟨t.val * 2000 + p.val, by have ht := t.isLt; have hN : cfg4.N = 50 := N_4; have hp := p.isLt; omega⟩

/-! ## The input blocks at an entry -/

theorem blockH4_apply (c : Dev nD) (t : Fin cfg4.N) (p : Fin 2000) (j : Fin 128) :
    iblk4 V c 0 t (ix2 p j) = V c main_v79 (ix2 (rowOf4 t p) j) := by
  obtain ⟨e00, e01, -⟩ := index_facts4 t
  show V c main_v79 (((cfg4.win 0).blk t).view.emb (ix2 p j)) = _
  refine congrArg (V c main_v79) (funext fun a => Fin.ext ?_)
  match a with
  | ⟨0, _⟩ => show win4_0.index t (0 : Fin 2) * 2000 + 1 * p.val = t.val * 2000 + p.val; omega
  | ⟨1, _⟩ => show win4_0.index t (1 : Fin 2) * 128 + 1 * j.val = j.val; omega

theorem blockA4_apply (c : Dev nD) (t : Fin cfg4.N) (p : Fin 2000) (j : Fin 128) :
    iblk4 V c 1 t (ix2 p j) = V c main_v101 (ix2 (rowOf4 t p) j) := by
  obtain ⟨-, -, e10, e11, -⟩ := index_facts4 t
  show V c main_v101 (((cfg4.win 1).blk t).view.emb (ix2 p j)) = _
  refine congrArg (V c main_v101) (funext fun a => Fin.ext ?_)
  match a with
  | ⟨0, _⟩ => show win4_1.index t (0 : Fin 2) * 2000 + 1 * p.val = t.val * 2000 + p.val; omega
  | ⟨1, _⟩ => show win4_1.index t (1 : Fin 2) * 128 + 1 * j.val = j.val; omega

theorem blockW1_4_apply (c : Dev nD) (t : Fin cfg4.N) (j : Fin 128) (l : Fin 128) :
    iblk4 V c 2 t (ix2 j l) = V c main_v102 (ix2 j l) := by
  obtain ⟨-, -, -, -, e20, e21, -⟩ := index_facts4 t
  show V c main_v102 (((cfg4.win 2).blk t).view.emb (ix2 j l)) = _
  refine congrArg (V c main_v102) (funext fun a => Fin.ext ?_)
  match a with
  | ⟨0, _⟩ => show win4_2.index t (0 : Fin 2) * 128 + 1 * j.val = j.val; omega
  | ⟨1, _⟩ => show win4_2.index t (1 : Fin 2) * 128 + 1 * l.val = l.val; omega

theorem blockB1_4_apply (c : Dev nD) (t : Fin cfg4.N) (l : Fin 128) :
    iblk4 V c 3 t (ix2 (0 : Fin 1) l) = V c main_v104 (ix2 (0 : Fin 1) l) := by
  obtain ⟨-, -, -, -, -, -, e30, e31, -⟩ := index_facts4 t
  show V c main_v104 (((cfg4.win 3).blk t).view.emb (ix2 (0 : Fin 1) l)) = _
  refine congrArg (V c main_v104) (funext fun a => Fin.ext ?_)
  match a with
  | ⟨0, _⟩ => show win4_3.index t (0 : Fin 2) * 1 + 1 * 0 = 0; omega
  | ⟨1, _⟩ => show win4_3.index t (1 : Fin 2) * 128 + 1 * l.val = l.val; omega

theorem blockW2_4_apply (c : Dev nD) (t : Fin cfg4.N) (l : Fin 128) (q : Fin 128) :
    iblk4 V c 4 t (ix2 l q) = V c main_v103 (ix2 l q) := by
  obtain ⟨-, -, -, -, -, -, -, -, e40, e41, -⟩ := index_facts4 t
  show V c main_v103 (((cfg4.win 4).blk t).view.emb (ix2 l q)) = _
  refine congrArg (V c main_v103) (funext fun a => Fin.ext ?_)
  match a with
  | ⟨0, _⟩ => show win4_4.index t (0 : Fin 2) * 128 + 1 * l.val = l.val; omega
  | ⟨1, _⟩ => show win4_4.index t (1 : Fin 2) * 128 + 1 * q.val = q.val; omega

theorem blockB2_4_apply (c : Dev nD) (t : Fin cfg4.N) (q : Fin 128) :
    iblk4 V c 5 t (ix2 (0 : Fin 1) q) = V c main_v105 (ix2 (0 : Fin 1) q) := by
  obtain ⟨-, -, -, -, -, -, -, -, -, -, e50, e51, -⟩ := index_facts4 t
  show V c main_v105 (((cfg4.win 5).blk t).view.emb (ix2 (0 : Fin 1) q)) = _
  refine congrArg (V c main_v105) (funext fun a => Fin.ext ?_)
  match a with
  | ⟨0, _⟩ => show win4_5.index t (0 : Fin 2) * 1 + 1 * 0 = 0; omega
  | ⟨1, _⟩ => show win4_5.index t (1 : Fin 2) * 128 + 1 * q.val = q.val; omega

/-! ## The stored block is rows of the whole-array function -/

/-- The whole-array function of the arrays as the region finds them. -/
def Z4 (c : Dev nD) : FVec Ideal S100000x128 .f32 := mlpRows4 (V c main_v79) (V c main_v101) (V c main_v102) (V c main_v104) (V c main_v103) (V c main_v105)

/-- The block stored at point `t`, at row `p` and column `q`, is `Z4` at row `2000·t + p`. -/
theorem zblock4_apply (c : Dev nD) (t : Fin cfg4.N) (p : Fin 2000) (q : Fin 128) :
    k4_pay5 (iblk4 V c 0 t) (iblk4 V c 1 t) (iblk4 V c 2 t) (iblk4 V c 3 t) (iblk4 V c 4 t) (iblk4 V c 5 t) (ix2 p q) = Z4 V c (ix2 (rowOf4 t p) q) := by
  rw [k4_pay5_apply]
  simp only [blockH4_apply, blockA4_apply, blockW1_4_apply, blockB1_4_apply, blockW2_4_apply, blockB2_4_apply]
  rfl

/-! ## The output array's blocks -/

/-- An index of the output array is in point `t`'s block iff each coordinate is in the block's range on its axis. -/
theorem mem_block4 (t : Fin cfg4.N) (i : S100000x128.Idx) :
    i ∈ ((cfg4.win 6).blk t).view.set ↔ ∀ a : Fin 2, win4_6.index t a * S2000x128.size a ≤ (i a).val
      ∧ (i a).val < win4_6.index t a * S2000x128.size a + S2000x128.size a := by
  show i ∈ ((View.whole main_v106_0).slice (win4_6.rect t)).set ↔ _
  rw [View.set_slice_whole, Rect.mem_set_unit]
  exact Iff.rfl

/-- Every index of the output array is in the block of the point that its row, divided by 2000, names, and that point
    writes its block back. -/
theorem covered4 (i : S100000x128.Idx) :
    ∃ t : Fin cfg4.N, (cfg4.win 6).flush t = true ∧ i ∈ ((cfg4.win 6).blk t).view.set := by
  have hi0 : (i 0).val < 100000 := idx2_lt0 i
  have hi1 : (i 1).val < 128 := idx2_lt1 i
  obtain ⟨t, ht⟩ : ∃ t : Fin cfg4.N, t.val = (i 0).val / 2000 :=
    ⟨⟨(i 0).val / 2000, by rw [show cfg4.N = 50 from N_4]; omega⟩, rfl⟩
  obtain ⟨-, -, -, -, -, -, -, -, -, -, -, -, e60, e61, -⟩ := index_facts4 t
  refine ⟨t, flush4_6 t, ?_⟩
  rw [mem_block4]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 128 ≤ (i 1).val ∧ (i 1).val < win4_6.index t (1 : Fin 2) * 128 + 128; omega

/-- An entry of point `t`'s block of the output array sits at row `2000·t + p`. -/
theorem emb_block4 (t : Fin cfg4.N) (p : Fin 2000) (q : Fin 128) :
    ((cfg4.win 6).blk t).view.emb (ix2 p q) = ix2 (rowOf4 t p) q := by
  obtain ⟨-, -, -, -, -, -, -, -, -, -, -, -, e60, e61, -⟩ := index_facts4 t
  funext a; apply Fin.ext
  match a with
  | ⟨0, _⟩ => show win4_6.index t (0 : Fin 2) * 2000 + 1 * p.val = t.val * 2000 + p.val; omega
  | ⟨1, _⟩ => show win4_6.index t (1 : Fin 2) * 128 + 1 * q.val = q.val; omega

end Cert.KernelIdeal.HandVal
-- ==== Proof.KI.Val4.lean ====
import proofs.«172250_j15616501088594_1_alg».proof.Proof.KI.Reg4
import proofs.«172250_j15616501088594_1_alg».proof.Proof.KI.Ends4
import proofs.«172250_j15616501088594_1_alg».proof.Proof.KI.ValPre4
import proofs.«172250_j15616501088594_1_alg».proof.Proof.LibBlockedSum

/-!
# The accumulating region 4: its three output arrays as functions of its input arrays

Read over the extended reals. After the region:

* the 100000×128 output holds `Z4`, the two-layer perceptron of the rows of the two feature arrays;
* the first one-row output holds, in column `q`, the sum over all 100000 rows of `Z4 (r, q)`;
* the second holds the sum over all rows of `Z4 (r, q)²`.

The two sums are taken block by block: the accumulators are zero before the first block's sums are added, each point
adds its block's column sums, and the last point copies the accumulators out. A sum over 50 blocks of 2000 rows is
the sum over the 100000 rows.
-/

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The block stored at point `t`. -/
abbrev zAt4 (c : Dev nD) (t : Fin cfg4.N) : FVec Ideal S2000x128 .f32 := k4_pay5 (iblk4 V c 0 t) (iblk4 V c 1 t) (iblk4 V c 2 t) (iblk4 V c 3 t) (iblk4 V c 4 t) (iblk4 V c 5 t)

/-! ## What each point leaves, case by case -/

/-- After the body at any point the results block holds the point's stored block. -/
theorem after4_z (c : Dev nD) (t : Fin cfg4.N) : (dat4 V c).after 6 t = zAt4 V c t := by
  rw [after4_6]
  by_cases h0 : t.val = 0
  · have h1 : t.val ≠ 49 := by omega
    rw [afterPt4_first V c t h0 h1]
    dsimp only
    exact zFirst4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t)
  · by_cases h1 : t.val = 49
    · rw [afterPt4_last V c t h0 h1]
      dsimp only
      exact zLast4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t) _ _
    · rw [afterPt4_mid V c t h0 h1]
      dsimp only
      exact zMid4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t) _ _

/-- The first accumulator after the first point: the first block's column sums added to zero. -/
theorem acc0_first4 (c : Dev nD) (t : Fin cfg4.N) (h0 : t.val = 0) :
    (afterPt4 V c t.val t.isLt).2.2.2.1 = k4_pay1 (k4_pay6 (iblk4 V c 0 t) (iblk4 V c 1 t) (iblk4 V c 2 t) (iblk4 V c 3 t) (iblk4 V c 4 t) (iblk4 V c 5 t) (k4_pay3 (F := Ideal))) := by
  have h1 : t.val ≠ 49 := by omega
  rw [afterPt4_first V c t h0 h1]
  dsimp only
  exact acc0First4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t)

/-- The second accumulator after the first point: the column sums of the first block's squares added to zero. -/
theorem acc1_first4 (c : Dev nD) (t : Fin cfg4.N) (h0 : t.val = 0) :
    (afterPt4 V c t.val t.isLt).2.2.2.2 = k4_pay2 (zAt4 V c t) (k4_pay4 (F := Ideal)) := by
  have h1 : t.val ≠ 49 := by omega
  rw [afterPt4_first V c t h0 h1]
  dsimp only
  exact acc1First4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t)

/-- The first accumulator after a later point: the point's column sums added to what the point before left. -/
theorem acc0_later4 (c : Dev nD) (t : Fin cfg4.N) (h0 : t.val ≠ 0) :
    (afterPt4 V c t.val t.isLt).2.2.2.1
      = k4_pay1 (k4_pay6 (iblk4 V c 0 t) (iblk4 V c 1 t) (iblk4 V c 2 t) (iblk4 V c 3 t) (iblk4 V c 4 t) (iblk4 V c 5 t)
          (afterPt4 V c (t.val - 1) (Nat.lt_of_le_of_lt (Nat.sub_le _ _) t.isLt)).2.2.2.1) := by
  by_cases h1 : t.val = 49
  · rw [afterPt4_last V c t h0 h1]
    dsimp only
    exact acc0Last4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t) _ _
  · rw [afterPt4_mid V c t h0 h1]
    dsimp only
    exact acc0Mid4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t) _ _

/-- The second accumulator after a later point. -/
theorem acc1_later4 (c : Dev nD) (t : Fin cfg4.N) (h0 : t.val ≠ 0) :
    (afterPt4 V c t.val t.isLt).2.2.2.2
      = k4_pay2 (zAt4 V c t)
          (afterPt4 V c (t.val - 1) (Nat.lt_of_le_of_lt (Nat.sub_le _ _) t.isLt)).2.2.2.2 := by
  by_cases h1 : t.val = 49
  · rw [afterPt4_last V c t h0 h1]
    dsimp only
    exact acc1Last4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t) _ _
  · rw [afterPt4_mid V c t h0 h1]
    dsimp only
    exact acc1Mid4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t) _ _

/-- At the last point each one-row output is left at its accumulator's new value. -/
theorem out7_last4 (c : Dev nD) (t : Fin cfg4.N) (h1 : t.val = 49) :
    (afterPt4 V c t.val t.isLt).2.1 = (afterPt4 V c t.val t.isLt).2.2.2.1 := by
  have h0 : t.val ≠ 0 := by omega
  rw [afterPt4_last V c t h0 h1]
  dsimp only
  exact (o7Last4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t) _ _).trans
    (acc0Last4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t) _ _).symm
theorem out8_last4 (c : Dev nD) (t : Fin cfg4.N) (h1 : t.val = 49) :
    (afterPt4 V c t.val t.isLt).2.2.1 = (afterPt4 V c t.val t.isLt).2.2.2.2 := by
  have h0 : t.val ≠ 0 := by omega
  rw [afterPt4_last V c t h0 h1]
  dsimp only
  exact (o8Last4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t) _ _).trans
    (acc1Last4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) acc4_0 (Memref.isWhole_whole _) acc4_1 (Memref.isWhole_whole _) _ _ (iblk4 V c 0 t) (iblk4 V c 1 t) (iblk4 V c 2 t) (iblk4 V c 3 t) (iblk4 V c 4 t) (iblk4 V c 5 t) _ _).symm

/-! ## The accumulators point by point -/

/-- The column sums of the rows of block `t` (zero past the grid). -/
def blockSum4 (c : Dev nD) (q : Fin 128) (t : ℕ) : EReal :=
  if h : t < cfg4.N then ∑ p : Fin 2000, Z4 V c (ix2 (rowOf4 ⟨t, h⟩ p) q) else 0
/-- The column sums of the squares of the rows of block `t` (zero past the grid). -/
def blockSumSq4 (c : Dev nD) (q : Fin 128) (t : ℕ) : EReal :=
  if h : t < cfg4.N then ∑ p : Fin 2000, Z4 V c (ix2 (rowOf4 ⟨t, h⟩ p) q) * Z4 V c (ix2 (rowOf4 ⟨t, h⟩ p) q) else 0

/-- After point `n` the first accumulator holds the column sums of blocks `0 … n`. -/
theorem acc0_upto4 (c : Dev nD) (q : Fin 128) : ∀ (n : ℕ) (hn : n < cfg4.N),
    (afterPt4 V c n hn).2.2.2.1 (ix2 (0 : Fin 1) q) = ∑ t ∈ Finset.range (n + 1), blockSum4 V c q t := by
  intro n
  induction n with
  | zero =>
    intro hn
    rw [acc0_first4 V c ⟨0, hn⟩ rfl, k4_pay1_eq, k4_pay6_apply, k4_pay3_apply, zero_add,
      Finset.sum_range_one]
    unfold blockSum4; rw [dif_pos hn]
    exact Finset.sum_congr rfl fun p _ => zblock4_apply V c ⟨0, hn⟩ p q
  | succ n ih =>
    intro hn
    rw [acc0_later4 V c ⟨n + 1, hn⟩ (Nat.succ_ne_zero n), k4_pay1_eq, k4_pay6_apply, Finset.sum_range_succ]
    refine congrArg₂ (· + ·) (ih (Nat.lt_of_succ_lt hn)) ?_
    unfold blockSum4; rw [dif_pos hn]
    exact Finset.sum_congr rfl fun p _ => zblock4_apply V c ⟨n + 1, hn⟩ p q

/-- After point `n` the second accumulator holds the column sums of the squares of blocks `0 … n`. -/
theorem acc1_upto4 (c : Dev nD) (q : Fin 128) : ∀ (n : ℕ) (hn : n < cfg4.N),
    (afterPt4 V c n hn).2.2.2.2 (ix2 (0 : Fin 1) q) = ∑ t ∈ Finset.range (n + 1), blockSumSq4 V c q t := by
  intro n
  induction n with
  | zero =>
    intro hn
    rw [acc1_first4 V c ⟨0, hn⟩ rfl, k4_pay2_apply, k4_pay4_apply, zero_add, Finset.sum_range_one]
    unfold blockSumSq4; rw [dif_pos hn]
    exact Finset.sum_congr rfl fun p _ => congrArg₂ (· * ·) (zblock4_apply V c ⟨0, hn⟩ p q) (zblock4_apply V c ⟨0, hn⟩ p q)
  | succ n ih =>
    intro hn
    rw [acc1_later4 V c ⟨n + 1, hn⟩ (Nat.succ_ne_zero n), k4_pay2_apply, Finset.sum_range_succ]
    refine congrArg₂ (· + ·) (ih (Nat.lt_of_succ_lt hn)) ?_
    unfold blockSumSq4; rw [dif_pos hn]
    exact Finset.sum_congr rfl fun p _ => congrArg₂ (· * ·) (zblock4_apply V c ⟨n + 1, hn⟩ p q) (zblock4_apply V c ⟨n + 1, hn⟩ p q)

/-- The sum over the 50 blocks of a block-wise sum is the sum over the 100000 rows. -/
theorem sum_blocks4 (f : Fin 100000 → EReal) :
    ∑ t ∈ Finset.range 50, (if h : t < cfg4.N then ∑ p : Fin 2000, f (rowOf4 ⟨t, h⟩ p) else 0) = ∑ r : Fin 100000, f r := by
  have hN : cfg4.N = 50 := N_4
  rw [Cert.BlockedSum.sum_eq_sum_blocks (show 100000 = 50 * 2000 by norm_num) f,
    ← Fin.sum_univ_eq_sum_range (fun t => if h : t < cfg4.N then ∑ p : Fin 2000, f (rowOf4 ⟨t, h⟩ p) else 0) 50]
  refine Finset.sum_congr rfl fun t _ => ?_
  have ht : t.val < cfg4.N := by rw [hN]; exact t.isLt
  rw [dif_pos ht]
  exact Finset.sum_congr rfl fun p _ => congrArg f (Fin.ext rfl)

/-! ## The large output -/

/-- What point `t` writes back to the large output is block `t` of `Z4`. -/
theorem flushed4_z (c : Dev nD) (t : Fin cfg4.N) :
    (dat4 V c).flushed 6 t = ((cfg4.win 6).blk t).view.read (Elt Ideal) (Z4 V c) := by
  show (cfg4.win 6).cut (grid4.coords t) ((dat4 V c).after 6 t) = _
  rw [after4_z]
  funext j
  obtain ⟨p, q, rfl⟩ : ∃ (p : Fin 2000) (q : Fin 128), j = ix2 p q := ⟨j 0, j 1, eq_ix2 j⟩
  show zAt4 V c t (ix2 p q) = Z4 V c (((cfg4.win 6).blk t).view.emb (ix2 p q))
  rw [emb_block4]
  exact zblock4_apply V c t p q

/-- The large output after the region. -/
theorem final4_z (c : Dev nD) : (dat4 V c).arrAt 6 cfg4.N = Z4 V c :=
  (dat4 V c).arrAt_eq_of_cover 6 _ (fun t _ => flushed4_z V c t) covered4

/-! ## The two one-row outputs -/

/-- The last point. -/
def lastPt4 : Fin cfg4.N := ⟨49, by rw [show cfg4.N = 50 from N_4]; norm_num⟩

/-- A point that writes a one-row output back is the last point. -/
theorem eq_last_of_flush7_4 (t : Fin cfg4.N) (h : (cfg4.win 7).flush t = true) : t = lastPt4 := by
  have ht := t.isLt; have hN : cfg4.N = 50 := N_4
  have := (flush4_7 t).mp h
  exact Fin.ext (by show t.val = 49; omega)
theorem eq_last_of_flush8_4 (t : Fin cfg4.N) (h : (cfg4.win 8).flush t = true) : t = lastPt4 := by
  have ht := t.isLt; have hN : cfg4.N = 50 := N_4
  have := (flush4_8 t).mp h
  exact Fin.ext (by show t.val = 49; omega)

/-- A one-row output's block is the whole row at every point: reading a row through the block reads the row. -/
theorem read_row7_4 (t : Fin cfg4.N) (G : FVec Ideal S1x128 .f32) :
    ((cfg4.win 7).blk t).view.read (Elt Ideal) G = G := by
  obtain ⟨-, -, -, -, -, -, -, -, -, -, -, -, -, -, e70, e71, -⟩ := index_facts4 t
  funext y
  show G (((cfg4.win 7).blk t).view.emb y) = G y
  refine congrArg G (funext fun a => Fin.ext ?_)
  match a with
  | ⟨0, _⟩ => show win4_7.index t (0 : Fin 2) * 1 + 1 * (y 0).val = (y 0).val; omega
  | ⟨1, _⟩ => show win4_7.index t (1 : Fin 2) * 128 + 1 * (y 1).val = (y 1).val; omega
theorem read_row8_4 (t : Fin cfg4.N) (G : FVec Ideal S1x128 .f32) :
    ((cfg4.win 8).blk t).view.read (Elt Ideal) G = G := by
  obtain ⟨-, -, -, -, -, -, -, -, -, -, -, -, -, -, -, -, e80, e81⟩ := index_facts4 t
  funext y
  show G (((cfg4.win 8).blk t).view.emb y) = G y
  refine congrArg G (funext fun a => Fin.ext ?_)
  match a with
  | ⟨0, _⟩ => show win4_8.index t (0 : Fin 2) * 1 + 1 * (y 0).val = (y 0).val; omega
  | ⟨1, _⟩ => show win4_8.index t (1 : Fin 2) * 128 + 1 * (y 1).val = (y 1).val; omega

/-- Every index of a one-row output is in the last point's block, which that point writes back. -/
theorem covered7_4 (i : S1x128.Idx) :
    ∃ t : Fin cfg4.N, (cfg4.win 7).flush t = true ∧ i ∈ ((cfg4.win 7).blk t).view.set := by
  have hi0 : (i 0).val < 1 := idx2_lt0 i
  have hi1 : (i 1).val < 128 := idx2_lt1 i
  obtain ⟨-, -, -, -, -, -, -, -, -, -, -, -, -, -, e70, e71, -⟩ := index_facts4 lastPt4
  refine ⟨lastPt4, (flush4_7 lastPt4).mpr (by show 49 % 50 = 49; norm_num), ?_⟩
  show i ∈ ((View.whole main_v106_1).slice (win4_7.rect lastPt4)).set
  rw [View.set_slice_whole, Rect.mem_set_unit]
  intro a
  match a with
  | ⟨0, _⟩ => show win4_7.index lastPt4 (0 : Fin 2) * 1 ≤ (i 0).val ∧ (i 0).val < win4_7.index lastPt4 (0 : Fin 2) * 1 + 1; omega
  | ⟨1, _⟩ => show win4_7.index lastPt4 (1 : Fin 2) * 128 ≤ (i 1).val ∧ (i 1).val < win4_7.index lastPt4 (1 : Fin 2) * 128 + 128; omega
theorem covered8_4 (i : S1x128.Idx) :
    ∃ t : Fin cfg4.N, (cfg4.win 8).flush t = true ∧ i ∈ ((cfg4.win 8).blk t).view.set := by
  have hi0 : (i 0).val < 1 := idx2_lt0 i
  have hi1 : (i 1).val < 128 := idx2_lt1 i
  obtain ⟨-, -, -, -, -, -, -, -, -, -, -, -, -, -, -, -, e80, e81⟩ := index_facts4 lastPt4
  refine ⟨lastPt4, (flush4_8 lastPt4).mpr (by show 49 % 50 = 49; norm_num), ?_⟩
  show i ∈ ((View.whole main_v106_2).slice (win4_8.rect lastPt4)).set
  rw [View.set_slice_whole, Rect.mem_set_unit]
  intro a
  match a with
  | ⟨0, _⟩ => show win4_8.index lastPt4 (0 : Fin 2) * 1 ≤ (i 0).val ∧ (i 0).val < win4_8.index lastPt4 (0 : Fin 2) * 1 + 1; omega
  | ⟨1, _⟩ => show win4_8.index lastPt4 (1 : Fin 2) * 128 ≤ (i 1).val ∧ (i 1).val < win4_8.index lastPt4 (1 : Fin 2) * 128 + 128; omega

/-- The first one-row output after the region is the first accumulator after the last point. -/
theorem final4_row7 (c : Dev nD) :
    (dat4 V c).arrAt 7 cfg4.N = (afterPt4 V c lastPt4.val lastPt4.isLt).2.2.2.1 := by
  refine (dat4 V c).arrAt_eq_of_cover 7 _ (fun t ht => ?_) covered7_4
  obtain rfl := eq_last_of_flush7_4 t ht
  rw [read_row7_4]
  show (cfg4.win 7).cut (grid4.coords lastPt4) ((dat4 V c).after 7 lastPt4) = _
  rw [after4_7]
  exact out7_last4 V c lastPt4 rfl
/-- The second one-row output after the region is the second accumulator after the last point. -/
theorem final4_row8 (c : Dev nD) :
    (dat4 V c).arrAt 8 cfg4.N = (afterPt4 V c lastPt4.val lastPt4.isLt).2.2.2.2 := by
  refine (dat4 V c).arrAt_eq_of_cover 8 _ (fun t ht => ?_) covered8_4
  obtain rfl := eq_last_of_flush8_4 t ht
  rw [read_row8_4]
  show (cfg4.win 8).cut (grid4.coords lastPt4) ((dat4 V c).after 8 lastPt4) = _
  rw [after4_8]
  exact out8_last4 V c lastPt4 rfl

/-- The first one-row output: the column sums of `Z4` over all 100000 rows. -/
theorem final4_sum (c : Dev nD) (q : Fin 128) :
    (dat4 V c).arrAt 7 cfg4.N (ix2 (0 : Fin 1) q) = ∑ r : Fin 100000, Z4 V c (ix2 r q) := by
  rw [final4_row7]
  refine (acc0_upto4 V c q 49 lastPt4.isLt).trans ?_
  exact sum_blocks4 (fun r => Z4 V c (ix2 r q))

/-- The second one-row output: the column sums of the squares of `Z4` over all 100000 rows. -/
theorem final4_sumsq (c : Dev nD) (q : Fin 128) :
    (dat4 V c).arrAt 8 cfg4.N (ix2 (0 : Fin 1) q) = ∑ r : Fin 100000, Z4 V c (ix2 r q) * Z4 V c (ix2 r q) := by
  rw [final4_row8]
  refine (acc1_upto4 V c q 49 lastPt4.isLt).trans ?_
  exact sum_blocks4 (fun r => Z4 V c (ix2 r q) * Z4 V c (ix2 r q))

end Cert.KernelIdeal.HandVal
-- ==== Proof.KI.MlpOut4.lean ====
/-
  Layer 2's first region along the kernel program's chain of buffer contents, over the extended reals: the table it
  leaves is the two-layer perceptron on the rows of `h + a` — `h` the layer's input table, `a` its neighbour sum along
  the edges —, with the weights and bias rows the host stretch before it prepared from the launch arguments; the two
  one-row outputs are that table's column sums and the column sums of its squares.
-/
import proofs.«172250_j15616501088594_1_alg».proof.Proof.KI.ResultChain
import proofs.«172250_j15616501088594_1_alg».proof.Proof.KI.Val4

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

open Cert.KernelIdeal.Hand Idealize.ShloMosaic.ValueIdx
open scoped BigOperators

variable (m : (ℓ : Loc nD τ sig) → Buf (Elt Ideal) ℓ) (c : Dev nD)

/-- The region's closed form, taken at the buffers as the region finds them, is the perceptron of the launch
    arguments and of the previous layer's output table. -/
theorem Z4_chain :
    Z4 (atTc (X9 m)) c
      = mlpRows4 (X8 m c (Proc.devRef .tc main_v79)) (aggK128 (X8 m c (Proc.devRef .tc main_v79)) (srcK (m (c, Proc.devRef .tc main_arg1))) (dstK (m (c, Proc.devRef .tc main_arg1)))) (castK128 (mat1K (m (c, Proc.devRef .tc main_arg9)))) (rowK (vec1K (m (c, Proc.devRef .tc main_arg10)))) (castK128 (mat1K (m (c, Proc.devRef .tc main_arg11)))) (rowK (vec1K (m (c, Proc.devRef .tc main_arg12)))) := by
  show mlpRows4 (X9 m c (Proc.devRef .tc main_v79)) (X9 m c (Proc.devRef .tc main_v101)) (X9 m c (Proc.devRef .tc main_v102)) (X9 m c (Proc.devRef .tc main_v104)) (X9 m c (Proc.devRef .tc main_v103)) (X9 m c (Proc.devRef .tc main_v105)) = _
  rw [X9_main_v79, X9_main_v101, X9_main_v102, X9_main_v104, X9_main_v103, X9_main_v105]

/-- The table layer 2's first region leaves. -/
theorem Z4_eq :
    (X10 m c (Proc.devRef .tc main_v106_0) : S100000x128.Idx → Elt Ideal .f32)
      = mlpRows4 (X8 m c (Proc.devRef .tc main_v79)) (aggK128 (X8 m c (Proc.devRef .tc main_v79)) (srcK (m (c, Proc.devRef .tc main_arg1))) (dstK (m (c, Proc.devRef .tc main_arg1)))) (castK128 (mat1K (m (c, Proc.devRef .tc main_arg9)))) (rowK (vec1K (m (c, Proc.devRef .tc main_arg10)))) (castK128 (mat1K (m (c, Proc.devRef .tc main_arg11)))) (rowK (vec1K (m (c, Proc.devRef .tc main_arg12)))) :=
  (X10_main_v106_0 m c).trans ((final4_z _ c).trans (Z4_chain m c))

/-- The first one-row output: the column sums of that table over the 100000 rows. -/
theorem S4_eq (q : Fin 128) :
    (X10 m c (Proc.devRef .tc main_v106_1) : S1x128.Idx → Elt Ideal .f32) (ix2 (0 : Fin 1) q)
      = ∑ r : Fin 100000, (mlpRows4 (X8 m c (Proc.devRef .tc main_v79)) (aggK128 (X8 m c (Proc.devRef .tc main_v79)) (srcK (m (c, Proc.devRef .tc main_arg1))) (dstK (m (c, Proc.devRef .tc main_arg1)))) (castK128 (mat1K (m (c, Proc.devRef .tc main_arg9)))) (rowK (vec1K (m (c, Proc.devRef .tc main_arg10)))) (castK128 (mat1K (m (c, Proc.devRef .tc main_arg11)))) (rowK (vec1K (m (c, Proc.devRef .tc main_arg12))))) (ix2 r q) := by
  rw [X10_main_v106_1, final4_sum, Z4_chain]

/-- The second one-row output: the column sums of that table's squares over the 100000 rows. -/
theorem SS4_eq (q : Fin 128) :
    (X10 m c (Proc.devRef .tc main_v106_2) : S1x128.Idx → Elt Ideal .f32) (ix2 (0 : Fin 1) q)
      = ∑ r : Fin 100000, (mlpRows4 (X8 m c (Proc.devRef .tc main_v79)) (aggK128 (X8 m c (Proc.devRef .tc main_v79)) (srcK (m (c, Proc.devRef .tc main_arg1))) (dstK (m (c, Proc.devRef .tc main_arg1)))) (castK128 (mat1K (m (c, Proc.devRef .tc main_arg9)))) (rowK (vec1K (m (c, Proc.devRef .tc main_arg10)))) (castK128 (mat1K (m (c, Proc.devRef .tc main_arg11)))) (rowK (vec1K (m (c, Proc.devRef .tc main_arg12))))) (ix2 r q)
          * (mlpRows4 (X8 m c (Proc.devRef .tc main_v79)) (aggK128 (X8 m c (Proc.devRef .tc main_v79)) (srcK (m (c, Proc.devRef .tc main_arg1))) (dstK (m (c, Proc.devRef .tc main_arg1)))) (castK128 (mat1K (m (c, Proc.devRef .tc main_arg9)))) (rowK (vec1K (m (c, Proc.devRef .tc main_arg10)))) (castK128 (mat1K (m (c, Proc.devRef .tc main_arg11)))) (rowK (vec1K (m (c, Proc.devRef .tc main_arg12))))) (ix2 r q) := by
  rw [X10_main_v106_2, final4_sumsq, Z4_chain]

end Cert.KernelIdeal.HandVal

end
-- ==== Proof.Bridge.lean ====
/-
  The kernel program's result is the reference's. Along the kernel program's chain of buffer contents each layer's
  first region leaves the perceptron's table and its two column sums, the host stretch after it turns the sums into
  the normalisation's scale and shift, and the second region applies them: layer by layer this is the network's layer
  on the launch arguments, with real entries throughout because the launch arguments are finite. The last stretch is
  the network's read-out of the per-graph sums, and the reference computes the same network on arguments that agree
  with the kernel program's one by one.
-/
import proofs.«172250_j15616501088594_1_alg».proof.Proof.BridgeLayers
import proofs.«172250_j15616501088594_1_alg».proof.Proof.BnBridge35
import proofs.«172250_j15616501088594_1_alg».proof.Proof.KI.Layers
import proofs.«172250_j15616501088594_1_alg».proof.Proof.KI.MlpOut0
import proofs.«172250_j15616501088594_1_alg».proof.Proof.KI.MlpOut2
import proofs.«172250_j15616501088594_1_alg».proof.Proof.KI.MlpOut4

set_option maxRecDepth 16384

noncomputable section

namespace Cert.Bridge

open Idealize.ShloMosaic Idealize.ShloMosaic.TcCoe Idealize.SL.Sem
open Cert.ReferenceIdeal.HandRun

open Idealize.ShloMosaic.ValueIdx
open scoped BigOperators
open Cert.RealEntries Cert.StageEq
open Cert.KernelIdeal.HandVal

variable (m : (ℓ : Loc Cert.KernelIdeal.nD Cert.KernelIdeal.τ Cert.KernelIdeal.sig) → Buf (Elt Ideal) ℓ) (c : Dev Cert.KernelIdeal.nD)

/-- Layer 0 of the kernel program is layer 0 of the network, and its table has real entries. -/
theorem layerK0 (hpre : Cert.Pre_KernelIdeal m) :
    ((Cert.KernelIdeal.Hand.X4 m c (Proc.devRef .tc Cert.KernelIdeal.main_v35)) : Cert.KernelIdeal.S100000x128.Idx → EReal) = E0 m c ∧ ∀ i, IsRealE (E0 m c i) := by
  have hZ := Z0_eq m c
  have hS := S0_eq m c
  have hSS := SS0_eq m c
  have h := layer0_pure m c hpre _ _ _ _ _ _ rfl rfl rfl rfl rfl rfl (Cert.KernelIdeal.Hand.X2 m c (Proc.devRef .tc Cert.KernelIdeal.main_v18_0)) (Cert.KernelIdeal.Hand.X2 m c (Proc.devRef .tc Cert.KernelIdeal.main_v18_1)) (Cert.KernelIdeal.Hand.X2 m c (Proc.devRef .tc Cert.KernelIdeal.main_v18_2))
    (fun r q => (congrFun hZ (ix2 r q)).trans (mlpRows0_apply _ _ _ _ _ _ r q))
    (fun q => (hS q).trans (by rw [hZ])) (fun q => (hSS q).trans (by rw [hZ]))
  exact ⟨(H1_eq m c).trans h.1, h.2⟩

/-- Layer 1 of the kernel program is layer 1 of the network, and its table has real entries. -/
theorem layerK1 (hpre : Cert.Pre_KernelIdeal m) :
    ((Cert.KernelIdeal.Hand.X8 m c (Proc.devRef .tc Cert.KernelIdeal.main_v79)) : Cert.KernelIdeal.S100000x128.Idx → EReal) = E1 m c ∧ ∀ i, IsRealE (E1 m c i) := by
  obtain ⟨e, hr⟩ := layerK0 m c hpre
  have hZ := Z2_eq m c
  have hS := S2_eq m c
  have hSS := SS2_eq m c
  rw [e] at hZ hS hSS
  have h := layer1_pure m c hpre hr _ _ _ _ _ _ rfl rfl rfl rfl rfl rfl (Cert.KernelIdeal.Hand.X6 m c (Proc.devRef .tc Cert.KernelIdeal.main_v62_0)) (Cert.KernelIdeal.Hand.X6 m c (Proc.devRef .tc Cert.KernelIdeal.main_v62_1)) (Cert.KernelIdeal.Hand.X6 m c (Proc.devRef .tc Cert.KernelIdeal.main_v62_2))
    (fun r q => (congrFun hZ (ix2 r q)).trans (mlpRows2_apply _ _ _ _ _ _ r q))
    (fun q => (hS q).trans (by rw [hZ])) (fun q => (hSS q).trans (by rw [hZ]))
  exact ⟨(H2_eq m c).trans (by rw [Cert.BnBridge.clampAffine3_eq]; exact h.1), h.2⟩

/-- Layer 2 of the kernel program is layer 2 of the network, and its table has real entries. -/
theorem layerK2 (hpre : Cert.Pre_KernelIdeal m) :
    ((Cert.KernelIdeal.Hand.X12 m c (Proc.devRef .tc Cert.KernelIdeal.main_v123)) : Cert.KernelIdeal.S100000x128.Idx → EReal) = E2 m c ∧ ∀ i, IsRealE (E2 m c i) := by
  obtain ⟨e, hr⟩ := layerK1 m c hpre
  have hZ := Z4_eq m c
  have hS := S4_eq m c
  have hSS := SS4_eq m c
  rw [e] at hZ hS hSS
  have h := layer2_pure m c hpre hr _ _ _ _ _ _ rfl rfl rfl rfl rfl rfl (Cert.KernelIdeal.Hand.X10 m c (Proc.devRef .tc Cert.KernelIdeal.main_v106_0)) (Cert.KernelIdeal.Hand.X10 m c (Proc.devRef .tc Cert.KernelIdeal.main_v106_1)) (Cert.KernelIdeal.Hand.X10 m c (Proc.devRef .tc Cert.KernelIdeal.main_v106_2))
    (fun r q => (congrFun hZ (ix2 r q)).trans (mlpRows4_apply _ _ _ _ _ _ r q))
    (fun q => (hS q).trans (by rw [hZ])) (fun q => (hSS q).trans (by rw [hZ]))
  exact ⟨(H3_eq m c).trans (by rw [Cert.BnBridge.clampAffine5_eq]; exact h.1), h.2⟩

/-- The kernel program's result is the network's read-out of the per-graph sums of layer 2's table. -/
theorem kernel_result (hpre : Cert.Pre_KernelIdeal m) :
    ((Cert.KernelIdeal.Hand.X13 m c (Proc.devRef .tc Cert.KernelIdeal.main_v130)) : Cert.KernelIdeal.S256x1.Idx → EReal) = EOut m c := by
  obtain ⟨e, _⟩ := layerK2 m c hpre
  have h := X13_main_v130 m c
  rw [e, outpK_eq, poolK_eq] at h
  exact h

/-- The reference's result on its arguments is what the kernel program leaves in its result array, when the two are
    launched on argument arrays that agree one by one and the kernel program's are finite. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.HandRun.resTerm (StableHlo.launchContents m' c) = Cert.KernelIdeal.Hand.X13 m c Cert.KernelIdeal.main_v130 :=
  (resTerm_ref m c m' hagree).trans (kernel_result m c hpre).symm

end Cert.Bridge

end
-- ==== Proof.lean ====
/-
  The certificate of one graph-network forward pass: three layers of neighbour aggregation (a gather of rows by the
  edges' sources and an accumulating scatter by their destinations), two dense layers with a clamp at zero, and a batch
  normalisation over the 100000 rows, then a pooled accumulating scatter and one last product.

  The kernel program runs each layer's dense part and its column sums in one region of 50 row blocks (the sums carried in
  two scratch rows from block to block) and the normalisation, folded to one scale and one shift per column, in a
  second region; the reference does the same layer as whole-array host operations with the variance as the mean of
  squared deviations. Over the reals the two normalisations agree (the variance identity and distributivity), and finite
  inputs make every intermediate entry a real. Frames: each kernel region as a segment between the host stretches; the
  reference by its run. The ideal pass rewrote nothing, so the preservation conjunct is trivial.
-/
import proofs.«172250_j15616501088594_1_alg».proof.Defs
import proofs.«172250_j15616501088594_1_alg».proof.Proof.Gen.Kernel
import proofs.«172250_j15616501088594_1_alg».proof.Proof.Gen.KernelIdeal
import proofs.«172250_j15616501088594_1_alg».proof.Proof.Gen.ReferenceIdeal
import proofs.«172250_j15616501088594_1_alg».proof.Proof.Gen.Pre_finite_inputs
import proofs.«172250_j15616501088594_1_alg».proof.Proof.K.Run
import proofs.«172250_j15616501088594_1_alg».proof.Proof.KI.Run
import proofs.«172250_j15616501088594_1_alg».proof.Proof.Ref.Run
import proofs.«172250_j15616501088594_1_alg».proof.Proof.Bridge
import Idealize.ShloMosaic.Adequacy
import Idealize.ShloMosaic.Init

set_option maxRecDepth 65536

noncomputable section

namespace Cert.Proof

open Idealize.ShloMosaic Idealize.ShloMosaic.TcCoe Idealize.SL.Sem

/-- The word-level kernel program runs to its end and leaves its arguments as launched. -/
theorem frame_k : Cert.frame_Kernel := fun m ρ _ => Cert.Kernel.Hand.frame (F := Bits) m ρ
/-- So does the idealized kernel program. -/
theorem frame_ki : Cert.frame_KernelIdeal := fun m ρ _ => Cert.KernelIdeal.Hand.frame (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- From memories agreeing on the arguments both idealized programs end with the same result array: the kernel's run
    ends at the last host stretch's result along the chain of buffer contents, the reference's at its composed stages,
    and the two are one function of finite arguments. -/
theorem algebraic : Cert.algebraic_KernelIdeal_ReferenceIdeal := by
  intro m ρ m' ρ' hpre hagree
  refine ⟨fun c => Cert.KernelIdeal.Hand.X13 m c Cert.KernelIdeal.main_v130, Cert.KernelIdeal.Hand.run (F := Ideal) m ρ, ?_⟩
  refine (θ_run Cert.ReferenceIdeal.defs _ _).mono (fun _ h c => ⟨(h c).1.trans ?_, (h c).2⟩)
    (Cert.ReferenceIdeal.HandRun.run (F := Ideal) m' ρ')
  exact Cert.Bridge.result_eq m m' c hpre (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
